-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v308) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x128 : Shape := ⟨2, ![16384, 128]⟩
abbrev S16384x39 : Shape := ⟨2, ![16384, 39]⟩
abbrev S26x100000x16 : Shape := ⟨3, ![26, 100000, 16]⟩
abbrev S429x256 : Shape := ⟨2, ![429, 256]⟩
abbrev S256 : Shape := ⟨1, ![256]⟩
abbrev S256x128 : Shape := ⟨2, ![256, 128]⟩
abbrev S128 : Shape := ⟨1, ![128]⟩
abbrev S256x2 : Shape := ⟨2, ![256, 2]⟩
abbrev S2 : Shape := ⟨1, ![2]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S26x100000x16 : S_.BroadcastsInDim S26x100000x16 (![] : Fin 0 → Fin S26x100000x16.rank)
  reducesTo_S26x100000x16_S_d0_1_2 : S26x100000x16.ReducesTo [0, 1, 2] S_
  bcast_S_S429x256 : S_.BroadcastsInDim S429x256 (![] : Fin 0 → Fin S429x256.rank)
  reducesTo_S429x256_S_d0_1 : S429x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_
  bcast_S_S16384x39 : S_.BroadcastsInDim S16384x39 (![] : Fin 0 → Fin S16384x39.rank)
  reducesTo_S16384x39_S_d0_1 : S16384x39.ReducesTo [0, 1] S_

variable [Facts]

def fn_part2 {F : FTy → Type} [FloatOps F] (main_arg1 : IVec S16384x39 32) (main_arg8 : FVec F S2 .f32) (main_v33 : IVec S_ 1) : IVec S_ 1 :=
  let main_v34 : FVec F S2 .f32 := Host.absf main_arg8
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_c_14 : IVec S_ 32 := constantI S_ 32 0#32
  let main_v39 : IVec S16384x39 32 := broadcastInDim S16384x39 ![] bcast_S_S16384x39 main_c_14
  let main_v40 : IVec S16384x39 1 := cmpi .sge main_arg1 main_v39
  let main_c_15 : IVec S_ 32 := constantI S_ 32 99999#32
  let main_v41 : IVec S16384x39 32 := broadcastInDim S16384x39 ![] bcast_S_S16384x39 main_c_15
  let main_v42 : IVec S16384x39 1 := cmpi .sle main_arg1 main_v41
  let main_v43 : IVec S16384x39 1 := andi main_v40 main_v42
  let main_c_16 : IVec S_ 1 := constantI S_ 1 1#1
  let main_v44 : IVec S_ 1 := (fun x v => Host.reduce IntOp.andi x v reducesTo_S16384x39_S_d0_1 h_S_) main_v43 main_c_16
  let main_v45 : IVec S_ 1 := andi main_v38 main_v44
  main_v45

def fn_part1 {F : FTy → Type} [FloatOps F] (main_arg1 : IVec S16384x39 32) (main_arg5 : FVec F S256x128 .f32) (main_arg6 : FVec F S128 .f32) (main_arg7 : FVec F S256x2 .f32) (main_arg8 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x2 .f32 := Host.absf main_arg7
  let main_cst_10 : FVec F S_ .f32 := constant S_ .f32 0x7F800000#32
  let main_v30 : FVec F S256x2 .f32 := broadcastInDim S256x2 ![] bcast_S_S256x2 main_cst_10
  let main_v31 : IVec S256x2 1 := cmpf .olt main_v29 main_v30
  let main_c_11 : IVec S_ 1 := constantI S_ 1 1#1
  let main_v32 : IVec S_ 1 := (fun x v => Host.reduce IntOp.andi x v reducesTo_S256x2_S_d0_1 h_S_) main_v31 main_c_11
  let main_v33 : IVec S_ 1 := andi main_v28 main_v32
  fn_part2 (F := F) main_arg1 main_arg8 main_v33

def fn {F : FTy → Type} [FloatOps F] (main_arg0 : FVec F S16384x128 .f32) (main_arg1 : IVec S16384x39 32) (main_arg2 : FVec F S26x100000x16 .f32) (main_arg3 : FVec F S429x256 .f32) (main_arg4 : FVec F S256 .f32) (main_arg5 : FVec F S256x128 .f32) (main_arg6 : FVec F S128 .f32) (main_arg7 : FVec F S256x2 .f32) (main_arg8 : FVec F S2 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S26x100000x16 .f32 := Host.absf main_arg2
  let main_cst_0 : FVec F S_ .f32 := constant S_ .f32 0x7F800000#32
  let main_v5 : FVec F S26x100000x16 .f32 := broadcastInDim S26x100000x16 ![] bcast_S_S26x100000x16 main_cst_0
  let main_v6 : IVec S26x100000x16 1 := cmpf .olt main_v4 main_v5
  let main_c_1 : IVec S_ 1 := constantI S_ 1 1#1
  let main_v7 : IVec S_ 1 := (fun x v => Host.reduce IntOp.andi x v reducesTo_S26x100000x16_S_d0_1_2 h_S_) main_v6 main_c_1
  let main_v8 : IVec S_ 1 := andi main_v3 main_v7
  let main_v9 : FVec F S429x256 .f32 := Host.absf main_arg3
  let main_cst_2 : FVec F S_ .f32 := constant S_ .f32 0x7F800000#32
  let main_v10 : FVec F S429x256 .f32 := broadcastInDim S429x256 ![] bcast_S_S429x256 main_cst_2
  let main_v11 : IVec S429x256 1 := cmpf .olt main_v9 main_v10
  let main_c_3 : IVec S_ 1 := constantI S_ 1 1#1
  let main_v12 : IVec S_ 1 := (fun x v => Host.reduce IntOp.andi x v reducesTo_S429x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_arg7 main_arg8 main_v13 main_v16
-- ==== Kernel.lean ====
abbrev S16384x128 : Shape := ⟨2, ![16384, 128]⟩
abbrev S16384x39 : Shape := ⟨2, ![16384, 39]⟩
abbrev S26x100000x16 : Shape := ⟨3, ![26, 100000, 16]⟩
abbrev S429x256 : Shape := ⟨2, ![429, 256]⟩
abbrev S256 : Shape := ⟨1, ![256]⟩
abbrev S256x128 : Shape := ⟨2, ![256, 128]⟩
abbrev S128 : Shape := ⟨1, ![128]⟩
abbrev S256x2 : Shape := ⟨2, ![256, 2]⟩
abbrev S2 : Shape := ⟨1, ![2]⟩
abbrev S26x16x100000 : Shape := ⟨3, ![26, 16, 100000]⟩
abbrev S39x16384 : Shape := ⟨2, ![39, 16384]⟩
abbrev S416x16384 : Shape := ⟨2, ![416, 16384]⟩
abbrev S100000 : Shape := ⟨1, ![100000]⟩
abbrev S16384 : Shape := ⟨1, ![16384]⟩
abbrev S8192 : Shape := ⟨1, ![8192]⟩
abbrev S_ : Shape := ⟨0, ![]⟩
abbrev S1x16384 : Shape := ⟨2, ![1, 16384]⟩
abbrev S1x1x100000 : Shape := ⟨3, ![1, 1, 100000]⟩
abbrev S16 : Shape := ⟨1, ![16]⟩
abbrev S1x8192 : Shape := ⟨2, ![1, 8192]⟩
abbrev S26x1x16 : Shape := ⟨3, ![26, 1, 16]⟩
abbrev S26x16 : Shape := ⟨2, ![26, 16]⟩
abbrev S26x26 : Shape := ⟨2, ![26, 26]⟩
abbrev S26x26x1 : Shape := ⟨3, ![26, 26, 1]⟩
abbrev S26x26x16 : Shape := ⟨3, ![26, 26, 16]⟩
abbrev S26x416 : Shape := ⟨2, ![26, 416]⟩
abbrev S416x256 : Shape := ⟨2, ![416, 256]⟩
abbrev S256x416 : Shape := ⟨2, ![256, 416]⟩
abbrev S13x256 : Shape := ⟨2, ![13, 256]⟩
abbrev S256x13 : Shape := ⟨2, ![256, 13]⟩
abbrev S416x26 : Shape := ⟨2, ![416, 26]⟩
abbrev S256x1 : Shape := ⟨2, ![256, 1]⟩
abbrev S128x256 : Shape := ⟨2, ![128, 256]⟩
abbrev S128x1 : Shape := ⟨2, ![128, 1]⟩
abbrev S128x2 : Shape := ⟨2, ![128, 2]⟩
abbrev S2x128 : Shape := ⟨2, ![2, 128]⟩
abbrev S2x1 : Shape := ⟨2, ![2, 1]⟩
abbrev S2x16384 : Shape := ⟨2, ![2, 16384]⟩
abbrev S39x4096 : Shape := ⟨2, ![39, 4096]⟩
abbrev S416x4096 : Shape := ⟨2, ![416, 4096]⟩
abbrev S4096x128 : Shape := ⟨2, ![4096, 128]⟩
abbrev S2x4096 : Shape := ⟨2, ![2, 4096]⟩
abbrev S13x4096 : Shape := ⟨2, ![13, 4096]⟩
abbrev S26x4096 : Shape := ⟨2, ![26, 4096]⟩
abbrev S256x26 : Shape := ⟨2, ![256, 26]⟩
abbrev S256x4096 : Shape := ⟨2, ![256, 4096]⟩
abbrev S128x4096 : Shape := ⟨2, ![128, 4096]⟩
abbrev S16384x2 : Shape := ⟨2, ![16384, 2]⟩

abbrev nBuf : Table → Nat
  | .hbm => 42
  | .local .tc .vmem => 17
  | .local .scVector .vmem => 3
  | _ => 0

abbrev bufTy : (tb : Table) → Fin (nBuf tb) → BufTy
  | .hbm, ⟨0, _⟩ => ⟨S16384x128, .f32⟩
  | .hbm, ⟨1, _⟩ => ⟨S16384x39, .i32⟩
  | .hbm, ⟨2, _⟩ => ⟨S26x100000x16, .f32⟩
  | .hbm, ⟨3, _⟩ => ⟨S429x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S256x2, .f32⟩
  | .hbm, ⟨8, _⟩ => ⟨S2, .f32⟩
  | .hbm, ⟨9, _⟩ => ⟨S26x16x100000, .f32⟩
  | .hbm, ⟨10, _⟩ => ⟨S39x16384, .i32⟩
  | .hbm, ⟨11, _⟩ => ⟨S416x16384, .f32⟩
  | .hbm, ⟨12, _⟩ => ⟨S26x1x16, .f32⟩
  | .hbm, ⟨13, _⟩ => ⟨S26x16, .f32⟩
  | .hbm, ⟨14, _⟩ => ⟨S26x26, .i32⟩
  | .hbm, ⟨15, _⟩ => ⟨S26x26, .i32⟩
  | .hbm, ⟨16, _⟩ => ⟨S_, .i32⟩
  | .hbm, ⟨17, _⟩ => ⟨S26x26, .i32⟩
  | .hbm, ⟨18, _⟩ => ⟨S26x26, .i32⟩
  | .hbm, ⟨19, _⟩ => ⟨S26x26, .i1⟩
  | .hbm, ⟨20, _⟩ => ⟨S26x26, .f32⟩
  | .hbm, ⟨21, _⟩ => ⟨S26x26x1, .f32⟩
  | .hbm, ⟨22, _⟩ => ⟨S26x1x16, .f32⟩
  | .hbm, ⟨23, _⟩ => ⟨S26x26x16, .f32⟩
  | .hbm, ⟨24, _⟩ => ⟨S26x26x16, .f32⟩
  | .hbm, ⟨25, _⟩ => ⟨S26x26x16, .f32⟩
  | .hbm, ⟨26, _⟩ => ⟨S26x416, .f32⟩
  | .hbm, ⟨27, _⟩ => ⟨S416x256, .f32⟩
  | .hbm, ⟨28, _⟩ => ⟨S256x416, .f32⟩
  | .hbm, ⟨29, _⟩ => ⟨S13x256, .f32⟩
  | .hbm, ⟨30, _⟩ => ⟨S256x13, .f32⟩
  | .hbm, ⟨31, _⟩ => ⟨S416x26, .f32⟩
  | .hbm, ⟨32, _⟩ => ⟨S256x1, .f32⟩
  | .hbm, ⟨33, _⟩ => ⟨S128x256, .f32⟩
  | .hbm, ⟨34, _⟩ => ⟨S128x1, .f32⟩
  | .hbm, ⟨35, _⟩ => ⟨S128x2, .f32⟩
  | .hbm, ⟨36, _⟩ => ⟨S2x128, .f32⟩
  | .hbm, ⟨37, _⟩ => ⟨S128x2, .f32⟩
  | .hbm, ⟨38, _⟩ => ⟨S2x128, .f32⟩
  | .hbm, ⟨39, _⟩ => ⟨S2x1, .f32⟩
  | .hbm, ⟨40, _⟩ => ⟨S2x16384, .f32⟩
  | .hbm, ⟨41, _⟩ => ⟨S16384x2, .f32⟩
  | .local .tc .vmem, ⟨0, _⟩ => ⟨S39x4096, .i32⟩
  | .local .tc .vmem, ⟨1, _⟩ => ⟨S39x4096, .i32⟩
  | .local .tc .vmem, ⟨2, _⟩ => ⟨S416x4096, .f32⟩
  | .local .tc .vmem, ⟨3, _⟩ => ⟨S416x4096, .f32⟩
  | .local .tc .vmem, ⟨4, _⟩ => ⟨S4096x128, .f32⟩
  | .local .tc .vmem, ⟨5, _⟩ => ⟨S4096x128, .f32⟩
  | .local .tc .vmem, ⟨6, _⟩ => ⟨S256x416, .f32⟩
  | .local .tc .vmem, ⟨7, _⟩ => ⟨S256x13, .f32⟩
  | .local .tc .vmem, ⟨8, _⟩ => ⟨S416x26, .f32⟩
  | .local .tc .vmem, ⟨9, _⟩ => ⟨S256x1, .f32⟩
  | .local .tc .vmem, ⟨10, _⟩ => ⟨S128x256, .f32⟩
  | .local .tc .vmem, ⟨11, _⟩ => ⟨S128x1, .f32⟩
  | .local .tc .vmem, ⟨12, _⟩ => ⟨S2x128, .f32⟩
  | .local .tc .vmem, ⟨13, _⟩ => ⟨S2x128, .f32⟩
  | .local .tc .vmem, ⟨14, _⟩ => ⟨S2x1, .f32⟩
  | .local .tc .vmem, ⟨15, _⟩ => ⟨S2x4096, .f32⟩
  | .local .tc .vmem, ⟨16, _⟩ => ⟨S2x4096, .f32⟩
  | .local .scVector .vmem, ⟨0, _⟩ => ⟨S100000, .f32⟩
  | .local .scVector .vmem, ⟨1, _⟩ => ⟨S16384, .i32⟩
  | .local .scVector .vmem, ⟨2, _⟩ => ⟨S8192, .f32⟩
  | _, _ => ⟨S16384x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v0_scv : Ref sig .scVector := ⟨.hbm, 9, rfl⟩
abbrev main_v1_scv : Ref sig .scVector := ⟨.hbm, 10, rfl⟩
abbrev main_v2_scv : Ref sig .scVector := ⟨.hbm, 11, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg9_0 : Ref sig .tc := ⟨.vmem, 12, rfl⟩
abbrev cc1_stg10_0 : Ref sig .tc := ⟨.vmem, 13, rfl⟩
abbrev cc1_stg11_0 : Ref sig .tc := ⟨.vmem, 14, rfl⟩
abbrev cc1_stg12_0 : Ref sig .tc := ⟨.vmem, 15, rfl⟩
abbrev cc1_stg12_1 : Ref sig .tc := ⟨.vmem, 16, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc1_sem12_0 : DmaSem sig := 18
abbrev cc1_sem12_1 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c13_i32 : BitVec 32 := 13#32
  let v2 : BitVec 32 := Scalar.addi c0_i32 c13_i32
  let c1_i32 : BitVec 32 := 1#32
  ⟨c0_i32, v2, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_1 : BitVec 32 := 13#32
  let v4 : BitVec 32 := Scalar.muli v1 c13_i32_1
  let c0_i32 : BitVec 32 := 0#32
  let c1_i32 : BitVec 32 := 1#32
  let arg8 : BitVec 32 := Scf.iv c0_i32 c1_i32 k0_t1
  let v5 : BitVec 32 := Scalar.addi v4 arg8
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let c0_i32_20_r0 : BitVec 32 := 0#32
  ![v22.toNat, 0]
def k0_off2 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_1 : BitVec 32 := 13#32
  let v4 : BitVec 32 := Scalar.muli v1 c13_i32_1
  let c0_i32 : BitVec 32 := 0#32
  let c1_i32 : BitVec 32 := 1#32
  let arg8 : BitVec 32 := Scf.iv c0_i32 c1_i32 k0_t1
  let v5 : BitVec 32 := Scalar.addi v4 arg8
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let c16_i32_8 : BitVec 32 := 16#32
  let c0_i32_9 : BitVec 32 := 0#32
  let v23 : BitVec 1 := Scalar.cmpi .eq c16_i32_8 c0_i32_9
  let c1_i32_10 : BitVec 32 := 1#32
  let v24 : BitVec 32 := Scalar.select v23 c1_i32_10 c16_i32_8
  let v25 : BitVec 32 := Scalar.remsi v5 v24
  let c0_i32_12 : BitVec 32 := 0#32
  let v27 : BitVec 1 := Scalar.cmpi .slt v25 c0_i32_12
  let c0_i32_13 : BitVec 32 := 0#32
  let v28 : BitVec 1 := Scalar.cmpi .slt v24 c0_i32_13
  let v29 : BitVec 1 := Scalar.xori v27 v28
  let c0_i32_11 : BitVec 32 := 0#32
  let v26 : BitVec 1 := Scalar.cmpi .ne v25 c0_i32_11
  let v30 : BitVec 1 := Scalar.andi v29 v26
  let v31 : BitVec 32 := Scalar.addi v25 v24
  let v32 : BitVec 32 := Scalar.select v30 v31 v25
  let c0_i32_20_r1 : BitVec 32 := 0#32
  ![v22.toNat, v32.toNat, 0]
@[reducible] def k0_t2_loop : Scf.Loop 32 :=
  let c0_i32_16 : BitVec 32 := 0#32
  let c2_i32_17 : BitVec 32 := 2#32
  let v36 : BitVec 32 := Scalar.addi c0_i32_16 c2_i32_17
  let c1_i32_18 : BitVec 32 := 1#32
  ⟨c0_i32_16, v36, c1_i32_18⟩
@[reducible] def k0_t3_loop : Scf.Loop 32 :=
  let c0_i32_21 : BitVec 32 := 0#32
  let c32_i32 : BitVec 32 := 32#32
  let v37 : BitVec 32 := Scalar.addi c0_i32_21 c32_i32
  let c1_i32_22 : BitVec 32 := 1#32
  ⟨c0_i32_21, v37, c1_i32_22⟩
def k0_off3 (k0_t2 : Fin k0_t2_loop.trips) (k0_t3 : Fin k0_t3_loop.trips) : Fin 1 → Nat :=
  let c0_i32_16 : BitVec 32 := 0#32
  let c1_i32_18 : BitVec 32 := 1#32
  let arg10 : BitVec 32 := Scf.iv c0_i32_16 c1_i32_18 k0_t2
  let c8192_i32_25 : BitVec 32 := 8192#32
  let v41 : BitVec 32 := Scalar.muli arg10 c8192_i32_25
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c0_i32_24 : BitVec 32 := 0#32
  let v40 : BitVec 32 := Scalar.addi v39 c0_i32_24
  let v42 : BitVec 32 := Scalar.addi v41 v40
  let v43 : Index := Scalar.indexCast v42
  ![v43.toNat]

def k0_chk1 (v44 : IVec S16 32) : Prop :=
  (∀ a x, ((![v44] : Fin 1 → IVec S16 32) a x).toNat < S100000.size a)
instance k0_chk1.dec : ∀ (v44 : IVec S16 32), Decidable (k0_chk1 v44) := fun v44 => decidable_of_iff' _ (Iff.of_eq (k0_chk1.eq_1 v44))
theorem k0_idx1_inb : ∀ (v44 : IVec S16 32) (k0_hw1 : k0_chk1 v44), ∀ a x, ((![v44] : Fin 1 → IVec S16 32) a x).toNat < S100000.size a := fun v44 k0_hw1 => k0_hw1
def k0_off4 (k0_t3 : Fin k0_t3_loop.trips) : Fin 1 → Nat :=
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c0_i32_24 : BitVec 32 := 0#32
  let v40 : BitVec 32 := Scalar.addi v39 c0_i32_24
  let v46 : Index := Scalar.indexCast v40
  ![v46.toNat]
def k0_off5 (k0_t2 : Fin k0_t2_loop.trips) (k0_t3 : Fin k0_t3_loop.trips) : Fin 1 → Nat :=
  let c0_i32_16 : BitVec 32 := 0#32
  let c1_i32_18 : BitVec 32 := 1#32
  let arg10 : BitVec 32 := Scf.iv c0_i32_16 c1_i32_18 k0_t2
  let c8192_i32_27 : BitVec 32 := 8192#32
  let v49 : BitVec 32 := Scalar.muli arg10 c8192_i32_27
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c16_i32_26 : BitVec 32 := 16#32
  let v48 : BitVec 32 := Scalar.addi v39 c16_i32_26
  let v50 : BitVec 32 := Scalar.addi v49 v48
  let v51 : Index := Scalar.indexCast v50
  ![v51.toNat]

def k0_chk2 (v52 : IVec S16 32) : Prop :=
  (∀ a x, ((![v52] : Fin 1 → IVec S16 32) a x).toNat < S100000.size a)
instance k0_chk2.dec : ∀ (v52 : IVec S16 32), Decidable (k0_chk2 v52) := fun v52 => decidable_of_iff' _ (Iff.of_eq (k0_chk2.eq_1 v52))
theorem k0_idx2_inb : ∀ (v52 : IVec S16 32) (k0_hw2 : k0_chk2 v52), ∀ a x, ((![v52] : Fin 1 → IVec S16 32) a x).toNat < S100000.size a := fun v52 k0_hw2 => k0_hw2
def k0_off6 (k0_t3 : Fin k0_t3_loop.trips) : Fin 1 → Nat :=
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c16_i32_26 : BitVec 32 := 16#32
  let v48 : BitVec 32 := Scalar.addi v39 c16_i32_26
  let v54 : Index := Scalar.indexCast v48
  ![v54.toNat]
def k0_off7 (k0_t2 : Fin k0_t2_loop.trips) (k0_t3 : Fin k0_t3_loop.trips) : Fin 1 → Nat :=
  let c0_i32_16 : BitVec 32 := 0#32
  let c1_i32_18 : BitVec 32 := 1#32
  let arg10 : BitVec 32 := Scf.iv c0_i32_16 c1_i32_18 k0_t2
  let c8192_i32_29 : BitVec 32 := 8192#32
  let v57 : BitVec 32 := Scalar.muli arg10 c8192_i32_29
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c32_i32_28 : BitVec 32 := 32#32
  let v56 : BitVec 32 := Scalar.addi v39 c32_i32_28
  let v58 : BitVec 32 := Scalar.addi v57 v56
  let v59 : Index := Scalar.indexCast v58
  ![v59.toNat]

def k0_chk3 (v60 : IVec S16 32) : Prop :=
  (∀ a x, ((![v60] : Fin 1 → IVec S16 32) a x).toNat < S100000.size a)
instance k0_chk3.dec : ∀ (v60 : IVec S16 32), Decidable (k0_chk3 v60) := fun v60 => decidable_of_iff' _ (Iff.of_eq (k0_chk3.eq_1 v60))
theorem k0_idx3_inb : ∀ (v60 : IVec S16 32) (k0_hw3 : k0_chk3 v60), ∀ a x, ((![v60] : Fin 1 → IVec S16 32) a x).toNat < S100000.size a := fun v60 k0_hw3 => k0_hw3
def k0_off8 (k0_t3 : Fin k0_t3_loop.trips) : Fin 1 → Nat :=
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c32_i32_28 : BitVec 32 := 32#32
  let v56 : BitVec 32 := Scalar.addi v39 c32_i32_28
  let v62 : Index := Scalar.indexCast v56
  ![v62.toNat]
def k0_off9 (k0_t2 : Fin k0_t2_loop.trips) (k0_t3 : Fin k0_t3_loop.trips) : Fin 1 → Nat :=
  let c0_i32_16 : BitVec 32 := 0#32
  let c1_i32_18 : BitVec 32 := 1#32
  let arg10 : BitVec 32 := Scf.iv c0_i32_16 c1_i32_18 k0_t2
  let c8192_i32_30 : BitVec 32 := 8192#32
  let v65 : BitVec 32 := Scalar.muli arg10 c8192_i32_30
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c48_i32 : BitVec 32 := 48#32
  let v64 : BitVec 32 := Scalar.addi v39 c48_i32
  let v66 : BitVec 32 := Scalar.addi v65 v64
  let v67 : Index := Scalar.indexCast v66
  ![v67.toNat]

def k0_chk4 (v68 : IVec S16 32) : Prop :=
  (∀ a x, ((![v68] : Fin 1 → IVec S16 32) a x).toNat < S100000.size a)
instance k0_chk4.dec : ∀ (v68 : IVec S16 32), Decidable (k0_chk4 v68) := fun v68 => decidable_of_iff' _ (Iff.of_eq (k0_chk4.eq_1 v68))
theorem k0_idx4_inb : ∀ (v68 : IVec S16 32) (k0_hw4 : k0_chk4 v68), ∀ a x, ((![v68] : Fin 1 → IVec S16 32) a x).toNat < S100000.size a := fun v68 k0_hw4 => k0_hw4
def k0_off10 (k0_t3 : Fin k0_t3_loop.trips) : Fin 1 → Nat :=
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c48_i32 : BitVec 32 := 48#32
  let v64 : BitVec 32 := Scalar.addi v39 c48_i32
  let v70 : Index := Scalar.indexCast v64
  ![v70.toNat]
def k0_off11 (k0_t2 : Fin k0_t2_loop.trips) (k0_t3 : Fin k0_t3_loop.trips) : Fin 1 → Nat :=
  let c0_i32_16 : BitVec 32 := 0#32
  let c1_i32_18 : BitVec 32 := 1#32
  let arg10 : BitVec 32 := Scf.iv c0_i32_16 c1_i32_18 k0_t2
  let c8192_i32_31 : BitVec 32 := 8192#32
  let v73 : BitVec 32 := Scalar.muli arg10 c8192_i32_31
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c64_i32 : BitVec 32 := 64#32
  let v72 : BitVec 32 := Scalar.addi v39 c64_i32
  let v74 : BitVec 32 := Scalar.addi v73 v72
  let v75 : Index := Scalar.indexCast v74
  ![v75.toNat]

def k0_chk5 (v76 : IVec S16 32) : Prop :=
  (∀ a x, ((![v76] : Fin 1 → IVec S16 32) a x).toNat < S100000.size a)
instance k0_chk5.dec : ∀ (v76 : IVec S16 32), Decidable (k0_chk5 v76) := fun v76 => decidable_of_iff' _ (Iff.of_eq (k0_chk5.eq_1 v76))
theorem k0_idx5_inb : ∀ (v76 : IVec S16 32) (k0_hw5 : k0_chk5 v76), ∀ a x, ((![v76] : Fin 1 → IVec S16 32) a x).toNat < S100000.size a := fun v76 k0_hw5 => k0_hw5
def k0_off12 (k0_t3 : Fin k0_t3_loop.trips) : Fin 1 → Nat :=
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c64_i32 : BitVec 32 := 64#32
  let v72 : BitVec 32 := Scalar.addi v39 c64_i32
  let v78 : Index := Scalar.indexCast v72
  ![v78.toNat]
def k0_off13 (k0_t2 : Fin k0_t2_loop.trips) (k0_t3 : Fin k0_t3_loop.trips) : Fin 1 → Nat :=
  let c0_i32_16 : BitVec 32 := 0#32
  let c1_i32_18 : BitVec 32 := 1#32
  let arg10 : BitVec 32 := Scf.iv c0_i32_16 c1_i32_18 k0_t2
  let c8192_i32_32 : BitVec 32 := 8192#32
  let v81 : BitVec 32 := Scalar.muli arg10 c8192_i32_32
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c80_i32 : BitVec 32 := 80#32
  let v80 : BitVec 32 := Scalar.addi v39 c80_i32
  let v82 : BitVec 32 := Scalar.addi v81 v80
  let v83 : Index := Scalar.indexCast v82
  ![v83.toNat]

def k0_chk6 (v84 : IVec S16 32) : Prop :=
  (∀ a x, ((![v84] : Fin 1 → IVec S16 32) a x).toNat < S100000.size a)
instance k0_chk6.dec : ∀ (v84 : IVec S16 32), Decidable (k0_chk6 v84) := fun v84 => decidable_of_iff' _ (Iff.of_eq (k0_chk6.eq_1 v84))
theorem k0_idx6_inb : ∀ (v84 : IVec S16 32) (k0_hw6 : k0_chk6 v84), ∀ a x, ((![v84] : Fin 1 → IVec S16 32) a x).toNat < S100000.size a := fun v84 k0_hw6 => k0_hw6
def k0_off14 (k0_t3 : Fin k0_t3_loop.trips) : Fin 1 → Nat :=
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c80_i32 : BitVec 32 := 80#32
  let v80 : BitVec 32 := Scalar.addi v39 c80_i32
  let v86 : Index := Scalar.indexCast v80
  ![v86.toNat]
def k0_off15 (k0_t2 : Fin k0_t2_loop.trips) (k0_t3 : Fin k0_t3_loop.trips) : Fin 1 → Nat :=
  let c0_i32_16 : BitVec 32 := 0#32
  let c1_i32_18 : BitVec 32 := 1#32
  let arg10 : BitVec 32 := Scf.iv c0_i32_16 c1_i32_18 k0_t2
  let c8192_i32_33 : BitVec 32 := 8192#32
  let v89 : BitVec 32 := Scalar.muli arg10 c8192_i32_33
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c96_i32 : BitVec 32 := 96#32
  let v88 : BitVec 32 := Scalar.addi v39 c96_i32
  let v90 : BitVec 32 := Scalar.addi v89 v88
  let v91 : Index := Scalar.indexCast v90
  ![v91.toNat]

def k0_chk7 (v92 : IVec S16 32) : Prop :=
  (∀ a x, ((![v92] : Fin 1 → IVec S16 32) a x).toNat < S100000.size a)
instance k0_chk7.dec : ∀ (v92 : IVec S16 32), Decidable (k0_chk7 v92) := fun v92 => decidable_of_iff' _ (Iff.of_eq (k0_chk7.eq_1 v92))
theorem k0_idx7_inb : ∀ (v92 : IVec S16 32) (k0_hw7 : k0_chk7 v92), ∀ a x, ((![v92] : Fin 1 → IVec S16 32) a x).toNat < S100000.size a := fun v92 k0_hw7 => k0_hw7
def k0_off16 (k0_t3 : Fin k0_t3_loop.trips) : Fin 1 → Nat :=
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c96_i32 : BitVec 32 := 96#32
  let v88 : BitVec 32 := Scalar.addi v39 c96_i32
  let v94 : Index := Scalar.indexCast v88
  ![v94.toNat]
def k0_off17 (k0_t2 : Fin k0_t2_loop.trips) (k0_t3 : Fin k0_t3_loop.trips) : Fin 1 → Nat :=
  let c0_i32_16 : BitVec 32 := 0#32
  let c1_i32_18 : BitVec 32 := 1#32
  let arg10 : BitVec 32 := Scf.iv c0_i32_16 c1_i32_18 k0_t2
  let c8192_i32_34 : BitVec 32 := 8192#32
  let v97 : BitVec 32 := Scalar.muli arg10 c8192_i32_34
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c112_i32 : BitVec 32 := 112#32
  let v96 : BitVec 32 := Scalar.addi v39 c112_i32
  let v98 : BitVec 32 := Scalar.addi v97 v96
  let v99 : Index := Scalar.indexCast v98
  ![v99.toNat]

def k0_chk8 (v100 : IVec S16 32) : Prop :=
  (∀ a x, ((![v100] : Fin 1 → IVec S16 32) a x).toNat < S100000.size a)
instance k0_chk8.dec : ∀ (v100 : IVec S16 32), Decidable (k0_chk8 v100) := fun v100 => decidable_of_iff' _ (Iff.of_eq (k0_chk8.eq_1 v100))
theorem k0_idx8_inb : ∀ (v100 : IVec S16 32) (k0_hw8 : k0_chk8 v100), ∀ a x, ((![v100] : Fin 1 → IVec S16 32) a x).toNat < S100000.size a := fun v100 k0_hw8 => k0_hw8
def k0_off18 (k0_t3 : Fin k0_t3_loop.trips) : Fin 1 → Nat :=
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c112_i32 : BitVec 32 := 112#32
  let v96 : BitVec 32 := Scalar.addi v39 c112_i32
  let v102 : Index := Scalar.indexCast v96
  ![v102.toNat]
def k0_off19 (k0_t2 : Fin k0_t2_loop.trips) (k0_t3 : Fin k0_t3_loop.trips) : Fin 1 → Nat :=
  let c0_i32_16 : BitVec 32 := 0#32
  let c1_i32_18 : BitVec 32 := 1#32
  let arg10 : BitVec 32 := Scf.iv c0_i32_16 c1_i32_18 k0_t2
  let c8192_i32_35 : BitVec 32 := 8192#32
  let v105 : BitVec 32 := Scalar.muli arg10 c8192_i32_35
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c128_i32 : BitVec 32 := 128#32
  let v104 : BitVec 32 := Scalar.addi v39 c128_i32
  let v106 : BitVec 32 := Scalar.addi v105 v104
  let v107 : Index := Scalar.indexCast v106
  ![v107.toNat]

def k0_chk9 (v108 : IVec S16 32) : Prop :=
  (∀ a x, ((![v108] : Fin 1 → IVec S16 32) a x).toNat < S100000.size a)
instance k0_chk9.dec : ∀ (v108 : IVec S16 32), Decidable (k0_chk9 v108) := fun v108 => decidable_of_iff' _ (Iff.of_eq (k0_chk9.eq_1 v108))
theorem k0_idx9_inb : ∀ (v108 : IVec S16 32) (k0_hw9 : k0_chk9 v108), ∀ a x, ((![v108] : Fin 1 → IVec S16 32) a x).toNat < S100000.size a := fun v108 k0_hw9 => k0_hw9
def k0_off20 (k0_t3 : Fin k0_t3_loop.trips) : Fin 1 → Nat :=
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c128_i32 : BitVec 32 := 128#32
  let v104 : BitVec 32 := Scalar.addi v39 c128_i32
  let v110 : Index := Scalar.indexCast v104
  ![v110.toNat]
def k0_off21 (k0_t2 : Fin k0_t2_loop.trips) (k0_t3 : Fin k0_t3_loop.trips) : Fin 1 → Nat :=
  let c0_i32_16 : BitVec 32 := 0#32
  let c1_i32_18 : BitVec 32 := 1#32
  let arg10 : BitVec 32 := Scf.iv c0_i32_16 c1_i32_18 k0_t2
  let c8192_i32_36 : BitVec 32 := 8192#32
  let v113 : BitVec 32 := Scalar.muli arg10 c8192_i32_36
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c144_i32 : BitVec 32 := 144#32
  let v112 : BitVec 32 := Scalar.addi v39 c144_i32
  let v114 : BitVec 32 := Scalar.addi v113 v112
  let v115 : Index := Scalar.indexCast v114
  ![v115.toNat]

def k0_chk10 (v116 : IVec S16 32) : Prop :=
  (∀ a x, ((![v116] : Fin 1 → IVec S16 32) a x).toNat < S100000.size a)
instance k0_chk10.dec : ∀ (v116 : IVec S16 32), Decidable (k0_chk10 v116) := fun v116 => decidable_of_iff' _ (Iff.of_eq (k0_chk10.eq_1 v116))
theorem k0_idx10_inb : ∀ (v116 : IVec S16 32) (k0_hw10 : k0_chk10 v116), ∀ a x, ((![v116] : Fin 1 → IVec S16 32) a x).toNat < S100000.size a := fun v116 k0_hw10 => k0_hw10
def k0_off22 (k0_t3 : Fin k0_t3_loop.trips) : Fin 1 → Nat :=
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c144_i32 : BitVec 32 := 144#32
  let v112 : BitVec 32 := Scalar.addi v39 c144_i32
  let v118 : Index := Scalar.indexCast v112
  ![v118.toNat]
def k0_off23 (k0_t2 : Fin k0_t2_loop.trips) (k0_t3 : Fin k0_t3_loop.trips) : Fin 1 → Nat :=
  let c0_i32_16 : BitVec 32 := 0#32
  let c1_i32_18 : BitVec 32 := 1#32
  let arg10 : BitVec 32 := Scf.iv c0_i32_16 c1_i32_18 k0_t2
  let c8192_i32_37 : BitVec 32 := 8192#32
  let v121 : BitVec 32 := Scalar.muli arg10 c8192_i32_37
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c160_i32 : BitVec 32 := 160#32
  let v120 : BitVec 32 := Scalar.addi v39 c160_i32
  let v122 : BitVec 32 := Scalar.addi v121 v120
  let v123 : Index := Scalar.indexCast v122
  ![v123.toNat]

def k0_chk11 (v124 : IVec S16 32) : Prop :=
  (∀ a x, ((![v124] : Fin 1 → IVec S16 32) a x).toNat < S100000.size a)
instance k0_chk11.dec : ∀ (v124 : IVec S16 32), Decidable (k0_chk11 v124) := fun v124 => decidable_of_iff' _ (Iff.of_eq (k0_chk11.eq_1 v124))
theorem k0_idx11_inb : ∀ (v124 : IVec S16 32) (k0_hw11 : k0_chk11 v124), ∀ a x, ((![v124] : Fin 1 → IVec S16 32) a x).toNat < S100000.size a := fun v124 k0_hw11 => k0_hw11
def k0_off24 (k0_t3 : Fin k0_t3_loop.trips) : Fin 1 → Nat :=
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c160_i32 : BitVec 32 := 160#32
  let v120 : BitVec 32 := Scalar.addi v39 c160_i32
  let v126 : Index := Scalar.indexCast v120
  ![v126.toNat]
def k0_off25 (k0_t2 : Fin k0_t2_loop.trips) (k0_t3 : Fin k0_t3_loop.trips) : Fin 1 → Nat :=
  let c0_i32_16 : BitVec 32 := 0#32
  let c1_i32_18 : BitVec 32 := 1#32
  let arg10 : BitVec 32 := Scf.iv c0_i32_16 c1_i32_18 k0_t2
  let c8192_i32_38 : BitVec 32 := 8192#32
  let v129 : BitVec 32 := Scalar.muli arg10 c8192_i32_38
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c176_i32 : BitVec 32 := 176#32
  let v128 : BitVec 32 := Scalar.addi v39 c176_i32
  let v130 : BitVec 32 := Scalar.addi v129 v128
  let v131 : Index := Scalar.indexCast v130
  ![v131.toNat]

def k0_chk12 (v132 : IVec S16 32) : Prop :=
  (∀ a x, ((![v132] : Fin 1 → IVec S16 32) a x).toNat < S100000.size a)
instance k0_chk12.dec : ∀ (v132 : IVec S16 32), Decidable (k0_chk12 v132) := fun v132 => decidable_of_iff' _ (Iff.of_eq (k0_chk12.eq_1 v132))
theorem k0_idx12_inb : ∀ (v132 : IVec S16 32) (k0_hw12 : k0_chk12 v132), ∀ a x, ((![v132] : Fin 1 → IVec S16 32) a x).toNat < S100000.size a := fun v132 k0_hw12 => k0_hw12
def k0_off26 (k0_t3 : Fin k0_t3_loop.trips) : Fin 1 → Nat :=
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c176_i32 : BitVec 32 := 176#32
  let v128 : BitVec 32 := Scalar.addi v39 c176_i32
  let v134 : Index := Scalar.indexCast v128
  ![v134.toNat]
def k0_off27 (k0_t2 : Fin k0_t2_loop.trips) (k0_t3 : Fin k0_t3_loop.trips) : Fin 1 → Nat :=
  let c0_i32_16 : BitVec 32 := 0#32
  let c1_i32_18 : BitVec 32 := 1#32
  let arg10 : BitVec 32 := Scf.iv c0_i32_16 c1_i32_18 k0_t2
  let c8192_i32_39 : BitVec 32 := 8192#32
  let v137 : BitVec 32 := Scalar.muli arg10 c8192_i32_39
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c192_i32 : BitVec 32 := 192#32
  let v136 : BitVec 32 := Scalar.addi v39 c192_i32
  let v138 : BitVec 32 := Scalar.addi v137 v136
  let v139 : Index := Scalar.indexCast v138
  ![v139.toNat]

def k0_chk13 (v140 : IVec S16 32) : Prop :=
  (∀ a x, ((![v140] : Fin 1 → IVec S16 32) a x).toNat < S100000.size a)
instance k0_chk13.dec : ∀ (v140 : IVec S16 32), Decidable (k0_chk13 v140) := fun v140 => decidable_of_iff' _ (Iff.of_eq (k0_chk13.eq_1 v140))
theorem k0_idx13_inb : ∀ (v140 : IVec S16 32) (k0_hw13 : k0_chk13 v140), ∀ a x, ((![v140] : Fin 1 → IVec S16 32) a x).toNat < S100000.size a := fun v140 k0_hw13 => k0_hw13
def k0_off28 (k0_t3 : Fin k0_t3_loop.trips) : Fin 1 → Nat :=
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c192_i32 : BitVec 32 := 192#32
  let v136 : BitVec 32 := Scalar.addi v39 c192_i32
  let v142 : Index := Scalar.indexCast v136
  ![v142.toNat]
def k0_off29 (k0_t2 : Fin k0_t2_loop.trips) (k0_t3 : Fin k0_t3_loop.trips) : Fin 1 → Nat :=
  let c0_i32_16 : BitVec 32 := 0#32
  let c1_i32_18 : BitVec 32 := 1#32
  let arg10 : BitVec 32 := Scf.iv c0_i32_16 c1_i32_18 k0_t2
  let c8192_i32_40 : BitVec 32 := 8192#32
  let v145 : BitVec 32 := Scalar.muli arg10 c8192_i32_40
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c208_i32 : BitVec 32 := 208#32
  let v144 : BitVec 32 := Scalar.addi v39 c208_i32
  let v146 : BitVec 32 := Scalar.addi v145 v144
  let v147 : Index := Scalar.indexCast v146
  ![v147.toNat]

def k0_chk14 (v148 : IVec S16 32) : Prop :=
  (∀ a x, ((![v148] : Fin 1 → IVec S16 32) a x).toNat < S100000.size a)
instance k0_chk14.dec : ∀ (v148 : IVec S16 32), Decidable (k0_chk14 v148) := fun v148 => decidable_of_iff' _ (Iff.of_eq (k0_chk14.eq_1 v148))
theorem k0_idx14_inb : ∀ (v148 : IVec S16 32) (k0_hw14 : k0_chk14 v148), ∀ a x, ((![v148] : Fin 1 → IVec S16 32) a x).toNat < S100000.size a := fun v148 k0_hw14 => k0_hw14
def k0_off30 (k0_t3 : Fin k0_t3_loop.trips) : Fin 1 → Nat :=
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c208_i32 : BitVec 32 := 208#32
  let v144 : BitVec 32 := Scalar.addi v39 c208_i32
  let v150 : Index := Scalar.indexCast v144
  ![v150.toNat]
def k0_off31 (k0_t2 : Fin k0_t2_loop.trips) (k0_t3 : Fin k0_t3_loop.trips) : Fin 1 → Nat :=
  let c0_i32_16 : BitVec 32 := 0#32
  let c1_i32_18 : BitVec 32 := 1#32
  let arg10 : BitVec 32 := Scf.iv c0_i32_16 c1_i32_18 k0_t2
  let c8192_i32_41 : BitVec 32 := 8192#32
  let v153 : BitVec 32 := Scalar.muli arg10 c8192_i32_41
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c224_i32 : BitVec 32 := 224#32
  let v152 : BitVec 32 := Scalar.addi v39 c224_i32
  let v154 : BitVec 32 := Scalar.addi v153 v152
  let v155 : Index := Scalar.indexCast v154
  ![v155.toNat]

def k0_chk15 (v156 : IVec S16 32) : Prop :=
  (∀ a x, ((![v156] : Fin 1 → IVec S16 32) a x).toNat < S100000.size a)
instance k0_chk15.dec : ∀ (v156 : IVec S16 32), Decidable (k0_chk15 v156) := fun v156 => decidable_of_iff' _ (Iff.of_eq (k0_chk15.eq_1 v156))
theorem k0_idx15_inb : ∀ (v156 : IVec S16 32) (k0_hw15 : k0_chk15 v156), ∀ a x, ((![v156] : Fin 1 → IVec S16 32) a x).toNat < S100000.size a := fun v156 k0_hw15 => k0_hw15
def k0_off32 (k0_t3 : Fin k0_t3_loop.trips) : Fin 1 → Nat :=
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c224_i32 : BitVec 32 := 224#32
  let v152 : BitVec 32 := Scalar.addi v39 c224_i32
  let v158 : Index := Scalar.indexCast v152
  ![v158.toNat]
def k0_off33 (k0_t2 : Fin k0_t2_loop.trips) (k0_t3 : Fin k0_t3_loop.trips) : Fin 1 → Nat :=
  let c0_i32_16 : BitVec 32 := 0#32
  let c1_i32_18 : BitVec 32 := 1#32
  let arg10 : BitVec 32 := Scf.iv c0_i32_16 c1_i32_18 k0_t2
  let c8192_i32_42 : BitVec 32 := 8192#32
  let v161 : BitVec 32 := Scalar.muli arg10 c8192_i32_42
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c240_i32 : BitVec 32 := 240#32
  let v160 : BitVec 32 := Scalar.addi v39 c240_i32
  let v162 : BitVec 32 := Scalar.addi v161 v160
  let v163 : Index := Scalar.indexCast v162
  ![v163.toNat]

def k0_chk16 (v164 : IVec S16 32) : Prop :=
  (∀ a x, ((![v164] : Fin 1 → IVec S16 32) a x).toNat < S100000.size a)
instance k0_chk16.dec : ∀ (v164 : IVec S16 32), Decidable (k0_chk16 v164) := fun v164 => decidable_of_iff' _ (Iff.of_eq (k0_chk16.eq_1 v164))
theorem k0_idx16_inb : ∀ (v164 : IVec S16 32) (k0_hw16 : k0_chk16 v164), ∀ a x, ((![v164] : Fin 1 → IVec S16 32) a x).toNat < S100000.size a := fun v164 k0_hw16 => k0_hw16
def k0_off34 (k0_t3 : Fin k0_t3_loop.trips) : Fin 1 → Nat :=
  let c0_i32_21 : BitVec 32 := 0#32
  let c1_i32_22 : BitVec 32 := 1#32
  let arg11 : BitVec 32 := Scf.iv c0_i32_21 c1_i32_22 k0_t3
  let c256_i32 : BitVec 32 := 256#32
  let v39 : BitVec 32 := Scalar.muli arg11 c256_i32
  let c240_i32 : BitVec 32 := 240#32
  let v160 : BitVec 32 := Scalar.addi v39 c240_i32
  let v166 : Index := Scalar.indexCast v160
  ![v166.toNat]
def k0_off35 (i : grid0.Coords) (k0_t1 : Fin k0_t1_loop.trips) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_1 : BitVec 32 := 13#32
  let v4 : BitVec 32 := Scalar.muli v1 c13_i32_1
  let c0_i32 : BitVec 32 := 0#32
  let c1_i32 : BitVec 32 := 1#32
  let arg8 : BitVec 32 := Scf.iv c0_i32 c1_i32 k0_t1
  let v5 : BitVec 32 := Scalar.addi v4 arg8
  let c0_i32_16 : BitVec 32 := 0#32
  let c1_i32_18 : BitVec 32 := 1#32
  let arg10 : BitVec 32 := Scf.iv c0_i32_16 c1_i32_18 k0_t2
  let c8192_i32 : BitVec 32 := 8192#32
  let v38 : BitVec 32 := Scalar.muli arg10 c8192_i32
  ![v5.toNat, v38.toNat]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S39x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S416x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x416 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x13 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S416x26 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S2x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S2x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S2x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S2x4096 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S26x100000x16_S26x16x100000_0_2_1 : S26x100000x16.Transposes [0, 2, 1] S26x16x100000
  transposes_S16384x39_S39x16384_1_0 : S16384x39.Transposes [1, 0] S39x16384
  squeezes_S1x16384_S16384 : S1x16384.Squeezes S16384
  squeezes_S1x1x100000_S100000 : S1x1x100000.Squeezes S100000
  h_S16 : 0 < S16.numel
  h_S100000 : 0 < S100000.numel
  squeezes_S1x8192_S8192 : S1x8192.Squeezes S8192
  slices_S26x100000x16_S26x1x16_0_0_0 : S26x100000x16.Slices ![0, 0, 0] S26x1x16
  shapeCasts_S26x1x16_S26x16 : S26x1x16.ShapeCasts S26x16
  bcast_S_S26x26 : S_.BroadcastsInDim S26x26 (![] : Fin 0 → Fin S26x26.rank)
  bcast_S26x26_S26x26x1_0_1 : S26x26.BroadcastsInDim S26x26x1 (![0, 1] : Fin 2 → Fin S26x26x1.rank)
  bcast_S26x16_S26x1x16_0_2 : S26x16.BroadcastsInDim S26x1x16 (![0, 2] : Fin 2 → Fin S26x1x16.rank)
  bcast_S26x26x1_S26x26x16_0_1_2 : S26x26x1.BroadcastsInDim S26x26x16 (![0, 1, 2] : Fin 3 → Fin S26x26x16.rank)
  bcast_S26x1x16_S26x26x16_0_1_2 : S26x1x16.BroadcastsInDim S26x26x16 (![0, 1, 2] : Fin 3 → Fin S26x26x16.rank)
  shapeCasts_S26x26x16_S26x416 : S26x26x16.ShapeCasts S26x416
  slices_S429x256_S416x256_0_0 : S429x256.Slices ![0, 0] S416x256
  transposes_S416x256_S256x416_1_0 : S416x256.Transposes [1, 0] S256x416
  slices_S429x256_S13x256_416_0 : S429x256.Slices ![416, 0] S13x256
  transposes_S13x256_S256x13_1_0 : S13x256.Transposes [1, 0] S256x13
  transposes_S26x416_S416x26_1_0 : S26x416.Transposes [1, 0] S416x26
  shapeCasts_S256_S256x1 : S256.ShapeCasts S256x1
  transposes_S256x128_S128x256_1_0 : S256x128.Transposes [1, 0] S128x256
  shapeCasts_S128_S128x1 : S128.ShapeCasts S128x1
  slices_S256x2_S128x2_0_0 : S256x2.Slices ![0, 0] S128x2
  transposes_S128x2_S2x128_1_0 : S128x2.Transposes [1, 0] S2x128
  slices_S256x2_S128x2_128_0 : S256x2.Slices ![128, 0] S128x2
  shapeCasts_S2_S2x1 : S2.ShapeCasts S2x1
  inb_S39x4096_S39x4096_0_0 : ∀ a, (![0, 0] : Fin 2 → Nat) a + S39x4096.size a ≤ S39x4096.size a
  h_S39x4096 : 0 < S39x4096.numel
  shapeCasts_S39x4096_S39x4096 : S39x4096.ShapeCasts S39x4096
  slices_S39x4096_o26_0_S13x4096 : S39x4096.Slices ![26, 0] S13x4096
  slices_S39x4096_o0_0_S26x4096 : S39x4096.Slices ![0, 0] S26x4096
  natLt_1_32 : 1 < 32
  inb_S256x416_S256x416_0_0 : ∀ a, (![0, 0] : Fin 2 → Nat) a + S256x416.size a ≤ S256x416.size a
  h_S256x416 : 0 < S256x416.numel
  shapeCasts_S256x416_S256x416 : S256x416.ShapeCasts S256x416
  inb_S416x26_S416x26_0_0 : ∀ a, (![0, 0] : Fin 2 → Nat) a + S416x26.size a ≤ S416x26.size a
  h_S416x26 : 0 < S416x26.numel
  shapeCasts_S416x26_S416x26 : S416x26.ShapeCasts S416x26
  inb_S416x4096_S416x4096_0_0 : ∀ a, (![0, 0] : Fin 2 → Nat) a + S416x4096.size a ≤ S416x4096.size a
  h_S416x4096 : 0 < S416x4096.numel
  shapeCasts_S416x4096_S416x4096 : S416x4096.ShapeCasts S416x4096
  inb_S256x13_S256x13_0_0 : ∀ a, (![0, 0] : Fin 2 → Nat) a + S256x13.size a ≤ S256x13.size a
  h_S256x13 : 0 < S256x13.numel
  shapeCasts_S256x13_S256x13 : S256x13.ShapeCasts S256x13
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x4096 : S128x1.Broadcasts S128x4096
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S4096x128_S4096x128_0_0 : ∀ a, (![0, 0] : Fin 2 → Nat) a + S4096x128.size a ≤ S4096x128.size a
  h_S4096x128 : 0 < S4096x128.numel
  transposes_S4096x128_p1_0_S128x4096 : S4096x128.Transposes [1, 0] S128x4096
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S2x1_S2x4096 : S2x1.Broadcasts S2x4096
  inb_S2x4096_S2x4096_0_0 : ∀ a, (![0, 0] : Fin 2 → Nat) a + S2x4096.size a ≤ S2x4096.size a
  h_S2x4096 : 0 < S2x4096.numel
  transposes_S2x16384_S16384x2_1_0 : S2x16384.Transposes [1, 0] S16384x2
  dot_S256x416_S416x26_S256x26_1_0_0_1_n_n_wf : DotDims.WF S256x416 S416x26 S256x26 [1] [0] [0] [1] [] []
  dot_S256x416_S416x4096_S256x4096_1_0_0_1_n_n_wf : DotDims.WF S256x416 S416x4096 S256x4096 [1] [0] [0] [1] [] []
  dot_S256x13_S13x4096_S256x4096_1_0_0_1_n_n_wf : DotDims.WF S256x13 S13x4096 S256x4096 [1] [0] [0] [1] [] []
  dot_S256x26_S26x4096_S256x4096_1_0_0_1_n_n_wf : DotDims.WF S256x26 S26x4096 S256x4096 [1] [0] [0] [1] [] []
  dot_S128x256_S256x4096_S128x4096_1_0_0_1_n_n_wf : DotDims.WF S128x256 S256x4096 S128x4096 [1] [0] [0] [1] [] []
  dot_S2x128_S128x4096_S2x4096_1_0_0_1_n_n_wf : DotDims.WF S2x128 S128x4096 S2x4096 [1] [0] [0] [1] [] []
  hcc0_scoped0 : 0 + S_.numel ≤ 20
  hcc0_scoped1 : 1 + S_.numel ≤ 20
  hcc0_scoped2 : 2 + S_.numel ≤ 20
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ (i : grid0.Coords) (k0_t1 : Fin k0_t1_loop.trips), ∀ a, (k0_off1 i k0_t1) a + S1x16384.size a ≤ S39x16384.size a
  k0_off2_inb : ∀ (i : grid0.Coords) (k0_t1 : Fin k0_t1_loop.trips), ∀ a, (k0_off2 i k0_t1) a + S1x1x100000.size a ≤ S26x16x100000.size a
  k0_t2_ok : k0_t2_loop.OK
  k0_t3_ok : k0_t3_loop.OK
  k0_off3_inb : ∀ (k0_t2 : Fin k0_t2_loop.trips) (k0_t3 : Fin k0_t3_loop.trips), ∀ a, (k0_off3 k0_t2 k0_t3) a + S16.size a ≤ S16384.size a
  k0_off4_inb : ∀ k0_t3 : Fin k0_t3_loop.trips, ∀ a, (k0_off4 k0_t3) a + S16.size a ≤ S8192.size a
  k0_off5_inb : ∀ (k0_t2 : Fin k0_t2_loop.trips) (k0_t3 : Fin k0_t3_loop.trips), ∀ a, (k0_off5 k0_t2 k0_t3) a + S16.size a ≤ S16384.size a
  k0_off6_inb : ∀ k0_t3 : Fin k0_t3_loop.trips, ∀ a, (k0_off6 k0_t3) a + S16.size a ≤ S8192.size a
  k0_off7_inb : ∀ (k0_t2 : Fin k0_t2_loop.trips) (k0_t3 : Fin k0_t3_loop.trips), ∀ a, (k0_off7 k0_t2 k0_t3) a + S16.size a ≤ S16384.size a
  k0_off8_inb : ∀ k0_t3 : Fin k0_t3_loop.trips, ∀ a, (k0_off8 k0_t3) a + S16.size a ≤ S8192.size a
  k0_off9_inb : ∀ (k0_t2 : Fin k0_t2_loop.trips) (k0_t3 : Fin k0_t3_loop.trips), ∀ a, (k0_off9 k0_t2 k0_t3) a + S16.size a ≤ S16384.size a
  k0_off10_inb : ∀ k0_t3 : Fin k0_t3_loop.trips, ∀ a, (k0_off10 k0_t3) a + S16.size a ≤ S8192.size a
  k0_off11_inb : ∀ (k0_t2 : Fin k0_t2_loop.trips) (k0_t3 : Fin k0_t3_loop.trips), ∀ a, (k0_off11 k0_t2 k0_t3) a + S16.size a ≤ S16384.size a
  k0_off12_inb : ∀ k0_t3 : Fin k0_t3_loop.trips, ∀ a, (k0_off12 k0_t3) a + S16.size a ≤ S8192.size a
  k0_off13_inb : ∀ (k0_t2 : Fin k0_t2_loop.trips) (k0_t3 : Fin k0_t3_loop.trips), ∀ a, (k0_off13 k0_t2 k0_t3) a + S16.size a ≤ S16384.size a
  k0_off14_inb : ∀ k0_t3 : Fin k0_t3_loop.trips, ∀ a, (k0_off14 k0_t3) a + S16.size a ≤ S8192.size a
  k0_off15_inb : ∀ (k0_t2 : Fin k0_t2_loop.trips) (k0_t3 : Fin k0_t3_loop.trips), ∀ a, (k0_off15 k0_t2 k0_t3) a + S16.size a ≤ S16384.size a
  k0_off16_inb : ∀ k0_t3 : Fin k0_t3_loop.trips, ∀ a, (k0_off16 k0_t3) a + S16.size a ≤ S8192.size a
  k0_off17_inb : ∀ (k0_t2 : Fin k0_t2_loop.trips) (k0_t3 : Fin k0_t3_loop.trips), ∀ a, (k0_off17 k0_t2 k0_t3) a + S16.size a ≤ S16384.size a
  k0_off18_inb : ∀ k0_t3 : Fin k0_t3_loop.trips, ∀ a, (k0_off18 k0_t3) a + S16.size a ≤ S8192.size a
  k0_off19_inb : ∀ (k0_t2 : Fin k0_t2_loop.trips) (k0_t3 : Fin k0_t3_loop.trips), ∀ a, (k0_off19 k0_t2 k0_t3) a + S16.size a ≤ S16384.size a
  k0_off20_inb : ∀ k0_t3 : Fin k0_t3_loop.trips, ∀ a, (k0_off20 k0_t3) a + S16.size a ≤ S8192.size a
  k0_off21_inb : ∀ (k0_t2 : Fin k0_t2_loop.trips) (k0_t3 : Fin k0_t3_loop.trips), ∀ a, (k0_off21 k0_t2 k0_t3) a + S16.size a ≤ S16384.size a
  k0_off22_inb : ∀ k0_t3 : Fin k0_t3_loop.trips, ∀ a, (k0_off22 k0_t3) a + S16.size a ≤ S8192.size a
  k0_off23_inb : ∀ (k0_t2 : Fin k0_t2_loop.trips) (k0_t3 : Fin k0_t3_loop.trips), ∀ a, (k0_off23 k0_t2 k0_t3) a + S16.size a ≤ S16384.size a
  k0_off24_inb : ∀ k0_t3 : Fin k0_t3_loop.trips, ∀ a, (k0_off24 k0_t3) a + S16.size a ≤ S8192.size a
  k0_off25_inb : ∀ (k0_t2 : Fin k0_t2_loop.trips) (k0_t3 : Fin k0_t3_loop.trips), ∀ a, (k0_off25 k0_t2 k0_t3) a + S16.size a ≤ S16384.size a
  k0_off26_inb : ∀ k0_t3 : Fin k0_t3_loop.trips, ∀ a, (k0_off26 k0_t3) a + S16.size a ≤ S8192.size a
  k0_off27_inb : ∀ (k0_t2 : Fin k0_t2_loop.trips) (k0_t3 : Fin k0_t3_loop.trips), ∀ a, (k0_off27 k0_t2 k0_t3) a + S16.size a ≤ S16384.size a
  k0_off28_inb : ∀ k0_t3 : Fin k0_t3_loop.trips, ∀ a, (k0_off28 k0_t3) a + S16.size a ≤ S8192.size a
  k0_off29_inb : ∀ (k0_t2 : Fin k0_t2_loop.trips) (k0_t3 : Fin k0_t3_loop.trips), ∀ a, (k0_off29 k0_t2 k0_t3) a + S16.size a ≤ S16384.size a
  k0_off30_inb : ∀ k0_t3 : Fin k0_t3_loop.trips, ∀ a, (k0_off30 k0_t3) a + S16.size a ≤ S8192.size a
  k0_off31_inb : ∀ (k0_t2 : Fin k0_t2_loop.trips) (k0_t3 : Fin k0_t3_loop.trips), ∀ a, (k0_off31 k0_t2 k0_t3) a + S16.size a ≤ S16384.size a
  k0_off32_inb : ∀ k0_t3 : Fin k0_t3_loop.trips, ∀ a, (k0_off32 k0_t3) a + S16.size a ≤ S8192.size a
  k0_off33_inb : ∀ (k0_t2 : Fin k0_t2_loop.trips) (k0_t3 : Fin k0_t3_loop.trips), ∀ a, (k0_off33 k0_t2 k0_t3) a + S16.size a ≤ S16384.size a
  k0_off34_inb : ∀ k0_t3 : Fin k0_t3_loop.trips, ∀ a, (k0_off34 k0_t3) a + S16.size a ≤ S8192.size a
  k0_off35_inb : ∀ (i : grid0.Coords) (k0_t1 : Fin k0_t1_loop.trips) (k0_t2 : Fin k0_t2_loop.trips), ∀ a, (k0_off35 i k0_t1 k0_t2) a + S1x8192.size a ≤ S416x16384.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S39x4096.size a ≤ S39x16384.size a
  hwx1_0 : ∀ i : grid1.Coords, EltTy.bits .i32 = 32 ∨ (Rect.block (s := S39x16384) S39x4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S416x4096.size a ≤ S416x16384.size a
  hwx1_1 : ∀ i : grid1.Coords, EltTy.bits .f32 = 32 ∨ (Rect.block (s := S416x16384) S416x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S16384x128.size a
  hwx1_2 : ∀ i : grid1.Coords, EltTy.bits .f32 = 32 ∨ (Rect.block (s := S16384x128) S4096x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x416.size a ≤ S256x416.size a
  hwx1_3 : ∀ i : grid1.Coords, EltTy.bits .f32 = 32 ∨ (Rect.block (s := S256x416) S256x416.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x13.size a ≤ S256x13.size a
  hwx1_4 : ∀ i : grid1.Coords, EltTy.bits .f32 = 32 ∨ (Rect.block (s := S256x13) S256x13.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S416x26.size a ≤ S416x26.size a
  hwx1_5 : ∀ i : grid1.Coords, EltTy.bits .f32 = 32 ∨ (Rect.block (s := S416x26) S416x26.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x1.size a ≤ S256x1.size a
  hwx1_6 : ∀ i : grid1.Coords, EltTy.bits .f32 = 32 ∨ (Rect.block (s := S256x1) S256x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x256.size a ≤ S128x256.size a
  hwx1_7 : ∀ i : grid1.Coords, EltTy.bits .f32 = 32 ∨ (Rect.block (s := S128x256) S128x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x1.size a ≤ S128x1.size a
  hwx1_8 : ∀ i : grid1.Coords, EltTy.bits .f32 = 32 ∨ (Rect.block (s := S128x1) S128x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S2x128.size a ≤ S2x128.size a
  hwx1_9 : ∀ i : grid1.Coords, EltTy.bits .f32 = 32 ∨ (Rect.block (s := S2x128) S2x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S2x128.size a ≤ S2x128.size a
  hwx1_10 : ∀ i : grid1.Coords, EltTy.bits .f32 = 32 ∨ (Rect.block (s := S2x128) S2x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S2x1.size a ≤ S2x1.size a
  hwx1_11 : ∀ i : grid1.Coords, EltTy.bits .f32 = 32 ∨ (Rect.block (s := S2x1) S2x1.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2x4096.size a ≤ S2x16384.size a
  hwx1_12 : ∀ i : grid1.Coords, EltTy.bits .f32 = 32 ∨ (Rect.block (s := S2x16384) S2x4096.size (cc1_transform_12 i) (hinb1_12 i)).WholeWords (EltTy.packing .f32)

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
def dot_S256x416_S416x26_S256x26_1_0_0_1_n_n : DotDims S256x416 S416x26 S256x26 where
  lhsContracting := [1]
  rhsContracting := [0]
  lhsNonContracting := [0]
  rhsNonContracting := [1]
  lhsBatch := []
  rhsBatch := []
  wf := dot_S256x416_S416x26_S256x26_1_0_0_1_n_n_wf
def dot_S256x416_S416x4096_S256x4096_1_0_0_1_n_n : DotDims S256x416 S416x4096 S256x4096 where
  lhsContracting := [1]
  rhsContracting := [0]
  lhsNonContracting := [0]
  rhsNonContracting := [1]
  lhsBatch := []
  rhsBatch := []
  wf := dot_S256x416_S416x4096_S256x4096_1_0_0_1_n_n_wf
def dot_S256x13_S13x4096_S256x4096_1_0_0_1_n_n : DotDims S256x13 S13x4096 S256x4096 where
  lhsContracting := [1]
  rhsContracting := [0]
  lhsNonContracting := [0]
  rhsNonContracting := [1]
  lhsBatch := []
  rhsBatch := []
  wf := dot_S256x13_S13x4096_S256x4096_1_0_0_1_n_n_wf
def dot_S256x26_S26x4096_S256x4096_1_0_0_1_n_n : DotDims S256x26 S26x4096 S256x4096 where
  lhsContracting := [1]
  rhsContracting := [0]
  lhsNonContracting := [0]
  rhsNonContracting := [1]
  lhsBatch := []
  rhsBatch := []
  wf := dot_S256x26_S26x4096_S256x4096_1_0_0_1_n_n_wf
def dot_S128x256_S256x4096_S128x4096_1_0_0_1_n_n : DotDims S128x256 S256x4096 S128x4096 where
  lhsContracting := [1]
  rhsContracting := [0]
  lhsNonContracting := [0]
  rhsNonContracting := [1]
  lhsBatch := []
  rhsBatch := []
  wf := dot_S128x256_S256x4096_S128x4096_1_0_0_1_n_n_wf
def dot_S2x128_S128x4096_S2x4096_1_0_0_1_n_n : DotDims S2x128 S128x4096 S2x4096 where
  lhsContracting := [1]
  rhsContracting := [0]
  lhsNonContracting := [0]
  rhsNonContracting := [1]
  lhsBatch := []
  rhsBatch := []
  wf := dot_S2x128_S128x4096_S2x4096_1_0_0_1_n_n_wf

abbrev win1_0 : Pipeline.Window sig grid1 :=
  Pipeline.Window.ofSpec (Memref.whole main_v1) S39x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S416x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S256x416.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S256x13.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S416x26.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S256x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S128x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v24) S128x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v26) S2x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v28) S2x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v29) S2x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v30) S2x4096.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S16384x128 : Shape := ⟨2, ![16384, 128]⟩
abbrev S16384x39 : Shape := ⟨2, ![16384, 39]⟩
abbrev S26x100000x16 : Shape := ⟨3, ![26, 100000, 16]⟩
abbrev S429x256 : Shape := ⟨2, ![429, 256]⟩
abbrev S256 : Shape := ⟨1, ![256]⟩
abbrev S256x128 : Shape := ⟨2, ![256, 128]⟩
abbrev S128 : Shape := ⟨1, ![128]⟩
abbrev S256x2 : Shape := ⟨2, ![256, 2]⟩
abbrev S2 : Shape := ⟨1, ![2]⟩
abbrev S_ : Shape := ⟨0, ![]⟩
abbrev S1 : Shape := ⟨1, ![1]⟩
abbrev S26x16 : Shape := ⟨2, ![26, 16]⟩
abbrev S1x100000x16 : Shape := ⟨3, ![1, 100000, 16]⟩
abbrev S100000x16 : Shape := ⟨2, ![100000, 16]⟩
abbrev S16384x1 : Shape := ⟨2, ![16384, 1]⟩
abbrev S16384 : Shape := ⟨1, ![16384]⟩
abbrev S16384x16 : Shape := ⟨2, ![16384, 16]⟩
abbrev S16384x13 : Shape := ⟨2, ![16384, 13]⟩
abbrev S16384x256 : Shape := ⟨2, ![16384, 256]⟩
abbrev S16384x173 : Shape := ⟨2, ![16384, 173]⟩
abbrev S16384x429 : Shape := ⟨2, ![16384, 429]⟩
abbrev S1x256 : Shape := ⟨2, ![1, 256]⟩
abbrev S1x128 : Shape := ⟨2, ![1, 128]⟩
abbrev S16384x2 : Shape := ⟨2, ![16384, 2]⟩
abbrev S1x2 : Shape := ⟨2, ![1, 2]⟩

abbrev nBuf : Space → Nat
  | .hbm => 376
  | .vmem => 0
  | .smem => 0
  | _ => 0

abbrev hbmTy0_0 (i : Nat) : BufTy := match i % 128 with
  | 0 => ⟨S16384x128, .f32⟩
  | 1 => ⟨S16384x39, .i32⟩
  | 2 => ⟨S26x100000x16, .f32⟩
  | 3 => ⟨S429x256, .f32⟩
  | 4 => ⟨S256, .f32⟩
  | 5 => ⟨S256x128, .f32⟩
  | 6 => ⟨S128, .f32⟩
  | 7 => ⟨S256x2, .f32⟩
  | 8 => ⟨S2, .f32⟩
  | 9 => ⟨S_, .i32⟩
  | 10 => ⟨S1, .i32⟩
  | 11 => ⟨S_, .f32⟩
  | 12 => ⟨S26x16, .f32⟩
  | 13 => ⟨S26x100000x16, .f32⟩
  | 14 => ⟨S1x100000x16, .f32⟩
  | 15 => ⟨S100000x16, .f32⟩
  | 16 => ⟨S16384x1, .i32⟩
  | 17 => ⟨S16384, .i32⟩
  | 18 => ⟨S_, .i32⟩
  | 19 => ⟨S16384, .i32⟩
  | 20 => ⟨S16384, .i1⟩
  | 21 => ⟨S_, .i32⟩
  | 22 => ⟨S16384, .i32⟩
  | 23 => ⟨S16384, .i32⟩
  | 24 => ⟨S16384, .i32⟩
  | 25 => ⟨S16384x1, .i32⟩
  | 26 => ⟨S16384x16, .f32⟩
  | 27 => ⟨S1x100000x16, .f32⟩
  | 28 => ⟨S100000x16, .f32⟩
  | 29 => ⟨S16384x1, .i32⟩
  | 30 => ⟨S16384, .i32⟩
  | 31 => ⟨S_, .i32⟩
  | 32 => ⟨S16384, .i32⟩
  | 33 => ⟨S16384, .i1⟩
  | 34 => ⟨S_, .i32⟩
  | 35 => ⟨S16384, .i32⟩
  | 36 => ⟨S16384, .i32⟩
  | 37 => ⟨S16384, .i32⟩
  | 38 => ⟨S16384x1, .i32⟩
  | 39 => ⟨S16384x16, .f32⟩
  | 40 => ⟨S1x100000x16, .f32⟩
  | 41 => ⟨S100000x16, .f32⟩
  | 42 => ⟨S16384x1, .i32⟩
  | 43 => ⟨S16384, .i32⟩
  | 44 => ⟨S_, .i32⟩
  | 45 => ⟨S16384, .i32⟩
  | 46 => ⟨S16384, .i1⟩
  | 47 => ⟨S_, .i32⟩
  | 48 => ⟨S16384, .i32⟩
  | 49 => ⟨S16384, .i32⟩
  | 50 => ⟨S16384, .i32⟩
  | 51 => ⟨S16384x1, .i32⟩
  | 52 => ⟨S16384x16, .f32⟩
  | 53 => ⟨S1x100000x16, .f32⟩
  | 54 => ⟨S100000x16, .f32⟩
  | 55 => ⟨S16384x1, .i32⟩
  | 56 => ⟨S16384, .i32⟩
  | 57 => ⟨S_, .i32⟩
  | 58 => ⟨S16384, .i32⟩
  | 59 => ⟨S16384, .i1⟩
  | 60 => ⟨S_, .i32⟩
  | 61 => ⟨S16384, .i32⟩
  | 62 => ⟨S16384, .i32⟩
  | 63 => ⟨S16384, .i32⟩
  | 64 => ⟨S16384x1, .i32⟩
  | 65 => ⟨S16384x16, .f32⟩
  | 66 => ⟨S1x100000x16, .f32⟩
  | 67 => ⟨S100000x16, .f32⟩
  | 68 => ⟨S16384x1, .i32⟩
  | 69 => ⟨S16384, .i32⟩
  | 70 => ⟨S_, .i32⟩
  | 71 => ⟨S16384, .i32⟩
  | 72 => ⟨S16384, .i1⟩
  | 73 => ⟨S_, .i32⟩
  | 74 => ⟨S16384, .i32⟩
  | 75 => ⟨S16384, .i32⟩
  | 76 => ⟨S16384, .i32⟩
  | 77 => ⟨S16384x1, .i32⟩
  | 78 => ⟨S16384x16, .f32⟩
  | 79 => ⟨S1x100000x16, .f32⟩
  | 80 => ⟨S100000x16, .f32⟩
  | 81 => ⟨S16384x1, .i32⟩
  | 82 => ⟨S16384, .i32⟩
  | 83 => ⟨S_, .i32⟩
  | 84 => ⟨S16384, .i32⟩
  | 85 => ⟨S16384, .i1⟩
  | 86 => ⟨S_, .i32⟩
  | 87 => ⟨S16384, .i32⟩
  | 88 => ⟨S16384, .i32⟩
  | 89 => ⟨S16384, .i32⟩
  | 90 => ⟨S16384x1, .i32⟩
  | 91 => ⟨S16384x16, .f32⟩
  | 92 => ⟨S1x100000x16, .f32⟩
  | 93 => ⟨S100000x16, .f32⟩
  | 94 => ⟨S16384x1, .i32⟩
  | 95 => ⟨S16384, .i32⟩
  | 96 => ⟨S_, .i32⟩
  | 97 => ⟨S16384, .i32⟩
  | 98 => ⟨S16384, .i1⟩
  | 99 => ⟨S_, .i32⟩
  | 100 => ⟨S16384, .i32⟩
  | 101 => ⟨S16384, .i32⟩
  | 102 => ⟨S16384, .i32⟩
  | 103 => ⟨S16384x1, .i32⟩
  | 104 => ⟨S16384x16, .f32⟩
  | 105 => ⟨S1x100000x16, .f32⟩
  | 106 => ⟨S100000x16, .f32⟩
  | 107 => ⟨S16384x1, .i32⟩
  | 108 => ⟨S16384, .i32⟩
  | 109 => ⟨S_, .i32⟩
  | 110 => ⟨S16384, .i32⟩
  | 111 => ⟨S16384, .i1⟩
  | 112 => ⟨S_, .i32⟩
  | 113 => ⟨S16384, .i32⟩
  | 114 => ⟨S16384, .i32⟩
  | 115 => ⟨S16384, .i32⟩
  | 116 => ⟨S16384x1, .i32⟩
  | 117 => ⟨S16384x16, .f32⟩
  | 118 => ⟨S1x100000x16, .f32⟩
  | 119 => ⟨S100000x16, .f32⟩
  | 120 => ⟨S16384x1, .i32⟩
  | 121 => ⟨S16384, .i32⟩
  | 122 => ⟨S_, .i32⟩
  | 123 => ⟨S16384, .i32⟩
  | 124 => ⟨S16384, .i1⟩
  | 125 => ⟨S_, .i32⟩
  | 126 => ⟨S16384, .i32⟩
  | 127 => ⟨S16384, .i32⟩
  | _ => ⟨S16384x128, .f32⟩

abbrev hbmTy0_1 (i : Nat) : BufTy := match i % 128 with
  | 0 => ⟨S16384, .i32⟩
  | 1 => ⟨S16384x1, .i32⟩
  | 2 => ⟨S16384x16, .f32⟩
  | 3 => ⟨S1x100000x16, .f32⟩
  | 4 => ⟨S100000x16, .f32⟩
  | 5 => ⟨S16384x1, .i32⟩
  | 6 => ⟨S16384, .i32⟩
  | 7 => ⟨S_, .i32⟩
  | 8 => ⟨S16384, .i32⟩
  | 9 => ⟨S16384, .i1⟩
  | 10 => ⟨S_, .i32⟩
  | 11 => ⟨S16384, .i32⟩
  | 12 => ⟨S16384, .i32⟩
  | 13 => ⟨S16384, .i32⟩
  | 14 => ⟨S16384x1, .i32⟩
  | 15 => ⟨S16384x16, .f32⟩
  | 16 => ⟨S1x100000x16, .f32⟩
  | 17 => ⟨S100000x16, .f32⟩
  | 18 => ⟨S16384x1, .i32⟩
  | 19 => ⟨S16384, .i32⟩
  | 20 => ⟨S_, .i32⟩
  | 21 => ⟨S16384, .i32⟩
  | 22 => ⟨S16384, .i1⟩
  | 23 => ⟨S_, .i32⟩
  | 24 => ⟨S16384, .i32⟩
  | 25 => ⟨S16384, .i32⟩
  | 26 => ⟨S16384, .i32⟩
  | 27 => ⟨S16384x1, .i32⟩
  | 28 => ⟨S16384x16, .f32⟩
  | 29 => ⟨S1x100000x16, .f32⟩
  | 30 => ⟨S100000x16, .f32⟩
  | 31 => ⟨S16384x1, .i32⟩
  | 32 => ⟨S16384, .i32⟩
  | 33 => ⟨S_, .i32⟩
  | 34 => ⟨S16384, .i32⟩
  | 35 => ⟨S16384, .i1⟩
  | 36 => ⟨S_, .i32⟩
  | 37 => ⟨S16384, .i32⟩
  | 38 => ⟨S16384, .i32⟩
  | 39 => ⟨S16384, .i32⟩
  | 40 => ⟨S16384x1, .i32⟩
  | 41 => ⟨S16384x16, .f32⟩
  | 42 => ⟨S1x100000x16, .f32⟩
  | 43 => ⟨S100000x16, .f32⟩
  | 44 => ⟨S16384x1, .i32⟩
  | 45 => ⟨S16384, .i32⟩
  | 46 => ⟨S_, .i32⟩
  | 47 => ⟨S16384, .i32⟩
  | 48 => ⟨S16384, .i1⟩
  | 49 => ⟨S_, .i32⟩
  | 50 => ⟨S16384, .i32⟩
  | 51 => ⟨S16384, .i32⟩
  | 52 => ⟨S16384, .i32⟩
  | 53 => ⟨S16384x1, .i32⟩
  | 54 => ⟨S16384x16, .f32⟩
  | 55 => ⟨S1x100000x16, .f32⟩
  | 56 => ⟨S100000x16, .f32⟩
  | 57 => ⟨S16384x1, .i32⟩
  | 58 => ⟨S16384, .i32⟩
  | 59 => ⟨S_, .i32⟩
  | 60 => ⟨S16384, .i32⟩
  | 61 => ⟨S16384, .i1⟩
  | 62 => ⟨S_, .i32⟩
  | 63 => ⟨S16384, .i32⟩
  | 64 => ⟨S16384, .i32⟩
  | 65 => ⟨S16384, .i32⟩
  | 66 => ⟨S16384x1, .i32⟩
  | 67 => ⟨S16384x16, .f32⟩
  | 68 => ⟨S1x100000x16, .f32⟩
  | 69 => ⟨S100000x16, .f32⟩
  | 70 => ⟨S16384x1, .i32⟩
  | 71 => ⟨S16384, .i32⟩
  | 72 => ⟨S_, .i32⟩
  | 73 => ⟨S16384, .i32⟩
  | 74 => ⟨S16384, .i1⟩
  | 75 => ⟨S_, .i32⟩
  | 76 => ⟨S16384, .i32⟩
  | 77 => ⟨S16384, .i32⟩
  | 78 => ⟨S16384, .i32⟩
  | 79 => ⟨S16384x1, .i32⟩
  | 80 => ⟨S16384x16, .f32⟩
  | 81 => ⟨S1x100000x16, .f32⟩
  | 82 => ⟨S100000x16, .f32⟩
  | 83 => ⟨S16384x1, .i32⟩
  | 84 => ⟨S16384, .i32⟩
  | 85 => ⟨S_, .i32⟩
  | 86 => ⟨S16384, .i32⟩
  | 87 => ⟨S16384, .i1⟩
  | 88 => ⟨S_, .i32⟩
  | 89 => ⟨S16384, .i32⟩
  | 90 => ⟨S16384, .i32⟩
  | 91 => ⟨S16384, .i32⟩
  | 92 => ⟨S16384x1, .i32⟩
  | 93 => ⟨S16384x16, .f32⟩
  | 94 => ⟨S1x100000x16, .f32⟩
  | 95 => ⟨S100000x16, .f32⟩
  | 96 => ⟨S16384x1, .i32⟩
  | 97 => ⟨S16384, .i32⟩
  | 98 => ⟨S_, .i32⟩
  | 99 => ⟨S16384, .i32⟩
  | 100 => ⟨S16384, .i1⟩
  | 101 => ⟨S_, .i32⟩
  | 102 => ⟨S16384, .i32⟩
  | 103 => ⟨S16384, .i32⟩
  | 104 => ⟨S16384, .i32⟩
  | 105 => ⟨S16384x1, .i32⟩
  | 106 => ⟨S16384x16, .f32⟩
  | 107 => ⟨S1x100000x16, .f32⟩
  | 108 => ⟨S100000x16, .f32⟩
  | 109 => ⟨S16384x1, .i32⟩
  | 110 => ⟨S16384, .i32⟩
  | 111 => ⟨S_, .i32⟩
  | 112 => ⟨S16384, .i32⟩
  | 113 => ⟨S16384, .i1⟩
  | 114 => ⟨S_, .i32⟩
  | 115 => ⟨S16384, .i32⟩
  | 116 => ⟨S16384, .i32⟩
  | 117 => ⟨S16384, .i32⟩
  | 118 => ⟨S16384x1, .i32⟩
  | 119 => ⟨S16384x16, .f32⟩
  | 120 => ⟨S1x100000x16, .f32⟩
  | 121 => ⟨S100000x16, .f32⟩
  | 122 => ⟨S16384x1, .i32⟩
  | 123 => ⟨S16384, .i32⟩
  | 124 => ⟨S_, .i32⟩
  | 125 => ⟨S16384, .i32⟩
  | 126 => ⟨S16384, .i1⟩
  | 127 => ⟨S_, .i32⟩
  | _ => ⟨S16384x128, .f32⟩

abbrev hbmTy0_2 (i : Nat) : BufTy := match i % 128 with
  | 0 => ⟨S16384, .i32⟩
  | 1 => ⟨S16384, .i32⟩
  | 2 => ⟨S16384, .i32⟩
  | 3 => ⟨S16384x1, .i32⟩
  | 4 => ⟨S16384x16, .f32⟩
  | 5 => ⟨S1x100000x16, .f32⟩
  | 6 => ⟨S100000x16, .f32⟩
  | 7 => ⟨S16384x1, .i32⟩
  | 8 => ⟨S16384, .i32⟩
  | 9 => ⟨S_, .i32⟩
  | 10 => ⟨S16384, .i32⟩
  | 11 => ⟨S16384, .i1⟩
  | 12 => ⟨S_, .i32⟩
  | 13 => ⟨S16384, .i32⟩
  | 14 => ⟨S16384, .i32⟩
  | 15 => ⟨S16384, .i32⟩
  | 16 => ⟨S16384x1, .i32⟩
  | 17 => ⟨S16384x16, .f32⟩
  | 18 => ⟨S1x100000x16, .f32⟩
  | 19 => ⟨S100000x16, .f32⟩
  | 20 => ⟨S16384x1, .i32⟩
  | 21 => ⟨S16384, .i32⟩
  | 22 => ⟨S_, .i32⟩
  | 23 => ⟨S16384, .i32⟩
  | 24 => ⟨S16384, .i1⟩
  | 25 => ⟨S_, .i32⟩
  | 26 => ⟨S16384, .i32⟩
  | 27 => ⟨S16384, .i32⟩
  | 28 => ⟨S16384, .i32⟩
  | 29 => ⟨S16384x1, .i32⟩
  | 30 => ⟨S16384x16, .f32⟩
  | 31 => ⟨S1x100000x16, .f32⟩
  | 32 => ⟨S100000x16, .f32⟩
  | 33 => ⟨S16384x1, .i32⟩
  | 34 => ⟨S16384, .i32⟩
  | 35 => ⟨S_, .i32⟩
  | 36 => ⟨S16384, .i32⟩
  | 37 => ⟨S16384, .i1⟩
  | 38 => ⟨S_, .i32⟩
  | 39 => ⟨S16384, .i32⟩
  | 40 => ⟨S16384, .i32⟩
  | 41 => ⟨S16384, .i32⟩
  | 42 => ⟨S16384x1, .i32⟩
  | 43 => ⟨S16384x16, .f32⟩
  | 44 => ⟨S1x100000x16, .f32⟩
  | 45 => ⟨S100000x16, .f32⟩
  | 46 => ⟨S16384x1, .i32⟩
  | 47 => ⟨S16384, .i32⟩
  | 48 => ⟨S_, .i32⟩
  | 49 => ⟨S16384, .i32⟩
  | 50 => ⟨S16384, .i1⟩
  | 51 => ⟨S_, .i32⟩
  | 52 => ⟨S16384, .i32⟩
  | 53 => ⟨S16384, .i32⟩
  | 54 => ⟨S16384, .i32⟩
  | 55 => ⟨S16384x1, .i32⟩
  | 56 => ⟨S16384x16, .f32⟩
  | 57 => ⟨S1x100000x16, .f32⟩
  | 58 => ⟨S100000x16, .f32⟩
  | 59 => ⟨S16384x1, .i32⟩
  | 60 => ⟨S16384, .i32⟩
  | 61 => ⟨S_, .i32⟩
  | 62 => ⟨S16384, .i32⟩
  | 63 => ⟨S16384, .i1⟩
  | 64 => ⟨S_, .i32⟩
  | 65 => ⟨S16384, .i32⟩
  | 66 => ⟨S16384, .i32⟩
  | 67 => ⟨S16384, .i32⟩
  | 68 => ⟨S16384x1, .i32⟩
  | 69 => ⟨S16384x16, .f32⟩
  | 70 => ⟨S1x100000x16, .f32⟩
  | 71 => ⟨S100000x16, .f32⟩
  | 72 => ⟨S16384x1, .i32⟩
  | 73 => ⟨S16384, .i32⟩
  | 74 => ⟨S_, .i32⟩
  | 75 => ⟨S16384, .i32⟩
  | 76 => ⟨S16384, .i1⟩
  | 77 => ⟨S_, .i32⟩
  | 78 => ⟨S16384, .i32⟩
  | 79 => ⟨S16384, .i32⟩
  | 80 => ⟨S16384, .i32⟩
  | 81 => ⟨S16384x1, .i32⟩
  | 82 => ⟨S16384x16, .f32⟩
  | 83 => ⟨S1x100000x16, .f32⟩
  | 84 => ⟨S100000x16, .f32⟩
  | 85 => ⟨S16384x1, .i32⟩
  | 86 => ⟨S16384, .i32⟩
  | 87 => ⟨S_, .i32⟩
  | 88 => ⟨S16384, .i32⟩
  | 89 => ⟨S16384, .i1⟩
  | 90 => ⟨S_, .i32⟩
  | 91 => ⟨S16384, .i32⟩
  | 92 => ⟨S16384, .i32⟩
  | 93 => ⟨S16384, .i32⟩
  | 94 => ⟨S16384x1, .i32⟩
  | 95 => ⟨S16384x16, .f32⟩
  | 96 => ⟨S16384x13, .i32⟩
  | 97 => ⟨S16384x13, .f32⟩
  | 98 => ⟨S16384x256, .f32⟩
  | 99 => ⟨S16384x173, .f32⟩
  | 100 => ⟨S16384x429, .f32⟩
  | 101 => ⟨S16384x256, .f32⟩
  | 102 => ⟨S1x256, .f32⟩
  | 103 => ⟨S16384x256, .f32⟩
  | 104 => ⟨S16384x256, .f32⟩
  | 105 => ⟨S_, .f32⟩
  | 106 => ⟨S16384x256, .f32⟩
  | 107 => ⟨S16384x256, .f32⟩
  | 108 => ⟨S16384x128, .f32⟩
  | 109 => ⟨S1x128, .f32⟩
  | 110 => ⟨S16384x128, .f32⟩
  | 111 => ⟨S16384x128, .f32⟩
  | 112 => ⟨S_, .f32⟩
  | 113 => ⟨S16384x128, .f32⟩
  | 114 => ⟨S16384x128, .f32⟩
  | 115 => ⟨S16384x256, .f32⟩
  | 116 => ⟨S16384x2, .f32⟩
  | 117 => ⟨S1x2, .f32⟩
  | 118 => ⟨S16384x2, .f32⟩
  | 119 => ⟨S16384x2, .f32⟩
  | _ => ⟨S16384x128, .f32⟩

abbrev hbmTy (i : Nat) : BufTy := match i / 128 with
  | 0 => hbmTy0_0 i
  | 1 => hbmTy0_1 i
  | 2 => hbmTy0_2 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_6 : Ref sig .tc := ⟨.hbm, 57, rfl⟩
abbrev main_v40 : Ref sig .tc := ⟨.hbm, 58, rfl⟩
abbrev main_v41 : Ref sig .tc := ⟨.hbm, 59, rfl⟩
abbrev main_c_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_8 : Ref sig .tc := ⟨.hbm, 70, rfl⟩
abbrev main_v51 : Ref sig .tc := ⟨.hbm, 71, rfl⟩
abbrev main_v52 : Ref sig .tc := ⟨.hbm, 72, rfl⟩
abbrev main_c_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_10 : Ref sig .tc := ⟨.hbm, 83, rfl⟩
abbrev main_v62 : Ref sig .tc := ⟨.hbm, 84, rfl⟩
abbrev main_v63 : Ref sig .tc := ⟨.hbm, 85, rfl⟩
abbrev main_c_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_12 : Ref sig .tc := ⟨.hbm, 96, rfl⟩
abbrev main_v73 : Ref sig .tc := ⟨.hbm, 97, rfl⟩
abbrev main_v74 : Ref sig .tc := ⟨.hbm, 98, rfl⟩
abbrev main_c_13 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_c_14 : Ref sig .tc := ⟨.hbm, 109, rfl⟩
abbrev main_v84 : Ref sig .tc := ⟨.hbm, 110, rfl⟩
abbrev main_v85 : Ref sig .tc := ⟨.hbm, 111, rfl⟩
abbrev main_c_15 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_c_16 : Ref sig .tc := ⟨.hbm, 122, rfl⟩
abbrev main_v95 : Ref sig .tc := ⟨.hbm, 123, rfl⟩
abbrev main_v96 : Ref sig .tc := ⟨.hbm, 124, rfl⟩
abbrev main_c_17 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_c_18 : Ref sig .tc := ⟨.hbm, 135, rfl⟩
abbrev main_v106 : Ref sig .tc := ⟨.hbm, 136, rfl⟩
abbrev main_v107 : Ref sig .tc := ⟨.hbm, 137, rfl⟩
abbrev main_c_19 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_c_20 : Ref sig .tc := ⟨.hbm, 148, rfl⟩
abbrev main_v117 : Ref sig .tc := ⟨.hbm, 149, rfl⟩
abbrev main_v118 : Ref sig .tc := ⟨.hbm, 150, rfl⟩
abbrev main_c_21 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_c_22 : Ref sig .tc := ⟨.hbm, 161, rfl⟩
abbrev main_v128 : Ref sig .tc := ⟨.hbm, 162, rfl⟩
abbrev main_v129 : Ref sig .tc := ⟨.hbm, 163, rfl⟩
abbrev main_c_23 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_c_24 : Ref sig .tc := ⟨.hbm, 174, rfl⟩
abbrev main_v139 : Ref sig .tc := ⟨.hbm, 175, rfl⟩
abbrev main_v140 : Ref sig .tc := ⟨.hbm, 176, rfl⟩
abbrev main_c_25 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_c_26 : Ref sig .tc := ⟨.hbm, 187, rfl⟩
abbrev main_v150 : Ref sig .tc := ⟨.hbm, 188, rfl⟩
abbrev main_v151 : Ref sig .tc := ⟨.hbm, 189, rfl⟩
abbrev main_c_27 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_c_28 : Ref sig .tc := ⟨.hbm, 200, rfl⟩
abbrev main_v161 : Ref sig .tc := ⟨.hbm, 201, rfl⟩
abbrev main_v162 : Ref sig .tc := ⟨.hbm, 202, rfl⟩
abbrev main_c_29 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_c_30 : Ref sig .tc := ⟨.hbm, 213, rfl⟩
abbrev main_v172 : Ref sig .tc := ⟨.hbm, 214, rfl⟩
abbrev main_v173 : Ref sig .tc := ⟨.hbm, 215, rfl⟩
abbrev main_c_31 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_c_32 : Ref sig .tc := ⟨.hbm, 226, rfl⟩
abbrev main_v183 : Ref sig .tc := ⟨.hbm, 227, rfl⟩
abbrev main_v184 : Ref sig .tc := ⟨.hbm, 228, rfl⟩
abbrev main_c_33 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_c_34 : Ref sig .tc := ⟨.hbm, 239, rfl⟩
abbrev main_v194 : Ref sig .tc := ⟨.hbm, 240, rfl⟩
abbrev main_v195 : Ref sig .tc := ⟨.hbm, 241, rfl⟩
abbrev main_c_35 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_c_36 : Ref sig .tc := ⟨.hbm, 252, rfl⟩
abbrev main_v205 : Ref sig .tc := ⟨.hbm, 253, rfl⟩
abbrev main_v206 : Ref sig .tc := ⟨.hbm, 254, rfl⟩
abbrev main_c_37 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_c_38 : Ref sig .tc := ⟨.hbm, 265, rfl⟩
abbrev main_v216 : Ref sig .tc := ⟨.hbm, 266, rfl⟩
abbrev main_v217 : Ref sig .tc := ⟨.hbm, 267, rfl⟩
abbrev main_c_39 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_c_40 : Ref sig .tc := ⟨.hbm, 278, rfl⟩
abbrev main_v227 : Ref sig .tc := ⟨.hbm, 279, rfl⟩
abbrev main_v228 : Ref sig .tc := ⟨.hbm, 280, rfl⟩
abbrev main_c_41 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_c_42 : Ref sig .tc := ⟨.hbm, 291, rfl⟩
abbrev main_v238 : Ref sig .tc := ⟨.hbm, 292, rfl⟩
abbrev main_v239 : Ref sig .tc := ⟨.hbm, 293, rfl⟩
abbrev main_c_43 : Ref sig .tc := ⟨.hbm, 294, rfl⟩
abbrev main_v240 : Ref sig .tc := ⟨.hbm, 295, rfl⟩
abbrev main_v241 : Ref sig .tc := ⟨.hbm, 296, rfl⟩
abbrev main_v242 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩
abbrev main_v246 : Ref sig .tc := ⟨.hbm, 301, rfl⟩
abbrev main_v247 : Ref sig .tc := ⟨.hbm, 302, rfl⟩
abbrev main_v248 : Ref sig .tc := ⟨.hbm, 303, rfl⟩
abbrev main_c_44 : Ref sig .tc := ⟨.hbm, 304, rfl⟩
abbrev main_v249 : Ref sig .tc := ⟨.hbm, 305, rfl⟩
abbrev main_v250 : Ref sig .tc := ⟨.hbm, 306, rfl⟩
abbrev main_c_45 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_v255 : Ref sig .tc := ⟨.hbm, 312, rfl⟩
abbrev main_v256 : Ref sig .tc := ⟨.hbm, 313, rfl⟩
abbrev main_v257 : Ref sig .tc := ⟨.hbm, 314, rfl⟩
abbrev main_v258 : Ref sig .tc := ⟨.hbm, 315, rfl⟩
abbrev main_v259 : Ref sig .tc := ⟨.hbm, 316, rfl⟩
abbrev main_c_46 : Ref sig .tc := ⟨.hbm, 317, rfl⟩
abbrev main_v260 : Ref sig .tc := ⟨.hbm, 318, rfl⟩
abbrev main_v261 : Ref sig .tc := ⟨.hbm, 319, rfl⟩
abbrev main_c_47 : Ref sig .tc := ⟨.hbm, 320, rfl⟩
abbrev main_v262 : Ref sig .tc := ⟨.hbm, 321, rfl⟩
abbrev main_v263 : Ref sig .tc := ⟨.hbm, 322, rfl⟩
abbrev main_v264 : Ref sig .tc := ⟨.hbm, 323, rfl⟩
abbrev main_v265 : Ref sig .tc := ⟨.hbm, 324, rfl⟩
abbrev main_v266 : Ref sig .tc := ⟨.hbm, 325, rfl⟩
abbrev main_v267 : Ref sig .tc := ⟨.hbm, 326, rfl⟩
abbrev main_v268 : Ref sig .tc := ⟨.hbm, 327, rfl⟩
abbrev main_v269 : Ref sig .tc := ⟨.hbm, 328, rfl⟩
abbrev main_v270 : Ref sig .tc := ⟨.hbm, 329, rfl⟩
abbrev main_c_48 : Ref sig .tc := ⟨.hbm, 330, rfl⟩
abbrev main_v271 : Ref sig .tc := ⟨.hbm, 331, rfl⟩
abbrev main_v272 : Ref sig .tc := ⟨.hbm, 332, rfl⟩
abbrev main_c_49 : Ref sig .tc := ⟨.hbm, 333, rfl⟩
abbrev main_v273 : Ref sig .tc := ⟨.hbm, 334, rfl⟩
abbrev main_v274 : Ref sig .tc := ⟨.hbm, 335, rfl⟩
abbrev main_v275 : Ref sig .tc := ⟨.hbm, 336, rfl⟩
abbrev main_v276 : Ref sig .tc := ⟨.hbm, 337, rfl⟩
abbrev main_v277 : Ref sig .tc := ⟨.hbm, 338, rfl⟩
abbrev main_v278 : Ref sig .tc := ⟨.hbm, 339, rfl⟩
abbrev main_v279 : Ref sig .tc := ⟨.hbm, 340, rfl⟩
abbrev main_v280 : Ref sig .tc := ⟨.hbm, 341, rfl⟩
abbrev main_v281 : Ref sig .tc := ⟨.hbm, 342, rfl⟩
abbrev main_c_50 : Ref sig .tc := ⟨.hbm, 343, rfl⟩
abbrev main_v282 : Ref sig .tc := ⟨.hbm, 344, rfl⟩
abbrev main_v283 : Ref sig .tc := ⟨.hbm, 345, rfl⟩
abbrev main_c_51 : Ref sig .tc := ⟨.hbm, 346, rfl⟩
abbrev main_v284 : Ref sig .tc := ⟨.hbm, 347, rfl⟩
abbrev main_v285 : Ref sig .tc := ⟨.hbm, 348, rfl⟩
abbrev main_v286 : Ref sig .tc := ⟨.hbm, 349, rfl⟩
abbrev main_v287 : Ref sig .tc := ⟨.hbm, 350, rfl⟩
abbrev main_v288 : Ref sig .tc := ⟨.hbm, 351, rfl⟩
abbrev main_v289 : Ref sig .tc := ⟨.hbm, 352, rfl⟩
abbrev main_v290 : Ref sig .tc := ⟨.hbm, 353, rfl⟩
abbrev main_v291 : Ref sig .tc := ⟨.hbm, 354, rfl⟩
abbrev main_v292 : Ref sig .tc := ⟨.hbm, 355, rfl⟩
abbrev main_v293 : Ref sig .tc := ⟨.hbm, 356, rfl⟩
abbrev main_v294 : Ref sig .tc := ⟨.hbm, 357, rfl⟩
abbrev main_v295 : Ref sig .tc := ⟨.hbm, 358, rfl⟩
abbrev main_v296 : Ref sig .tc := ⟨.hbm, 359, rfl⟩
abbrev main_v297 : Ref sig .tc := ⟨.hbm, 360, rfl⟩
abbrev main_call0_cst : Ref sig .tc := ⟨.hbm, 361, rfl⟩
abbrev main_call0_v0 : Ref sig .tc := ⟨.hbm, 362, rfl⟩
abbrev main_v298 : Ref sig .tc := ⟨.hbm, 363, rfl⟩
abbrev main_v299 : Ref sig .tc := ⟨.hbm, 364, rfl⟩
abbrev main_v300 : Ref sig .tc := ⟨.hbm, 365, rfl⟩
abbrev main_v301 : Ref sig .tc := ⟨.hbm, 366, rfl⟩
abbrev main_v302 : Ref sig .tc := ⟨.hbm, 367, rfl⟩
abbrev main_call1_cst : Ref sig .tc := ⟨.hbm, 368, rfl⟩
abbrev main_call1_v0 : Ref sig .tc := ⟨.hbm, 369, rfl⟩
abbrev main_v303 : Ref sig .tc := ⟨.hbm, 370, rfl⟩
abbrev main_v304 : Ref sig .tc := ⟨.hbm, 371, rfl⟩
abbrev main_v305 : Ref sig .tc := ⟨.hbm, 372, rfl⟩
abbrev main_v306 : Ref sig .tc := ⟨.hbm, 373, rfl⟩
abbrev main_v307 : Ref sig .tc := ⟨.hbm, 374, rfl⟩
abbrev main_v308 : Ref sig .tc := ⟨.hbm, 375, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S_S26x16 : S_.BroadcastsInDim S26x16 (![] : Fin 0 → Fin S26x16.rank)
  slices_S26x100000x16_S1x100000x16_0_0_0 : S26x100000x16.Slices ![0, 0, 0] S1x100000x16
  shapeCasts_S1x100000x16_S100000x16 : S1x100000x16.ShapeCasts S100000x16
  slices_S16384x39_S16384x1_0_0 : S16384x39.Slices ![0, 0] S16384x1
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  slices_S26x100000x16_S1x100000x16_1_0_0 : S26x100000x16.Slices ![1, 0, 0] S1x100000x16
  slices_S16384x39_S16384x1_0_1 : S16384x39.Slices ![0, 1] S16384x1
  slices_S26x100000x16_S1x100000x16_2_0_0 : S26x100000x16.Slices ![2, 0, 0] S1x100000x16
  slices_S16384x39_S16384x1_0_2 : S16384x39.Slices ![0, 2] S16384x1
  slices_S26x100000x16_S1x100000x16_3_0_0 : S26x100000x16.Slices ![3, 0, 0] S1x100000x16
  slices_S16384x39_S16384x1_0_3 : S16384x39.Slices ![0, 3] S16384x1
  slices_S26x100000x16_S1x100000x16_4_0_0 : S26x100000x16.Slices ![4, 0, 0] S1x100000x16
  slices_S16384x39_S16384x1_0_4 : S16384x39.Slices ![0, 4] S16384x1
  slices_S26x100000x16_S1x100000x16_5_0_0 : S26x100000x16.Slices ![5, 0, 0] S1x100000x16
  slices_S16384x39_S16384x1_0_5 : S16384x39.Slices ![0, 5] S16384x1
  slices_S26x100000x16_S1x100000x16_6_0_0 : S26x100000x16.Slices ![6, 0, 0] S1x100000x16
  slices_S16384x39_S16384x1_0_6 : S16384x39.Slices ![0, 6] S16384x1
  slices_S26x100000x16_S1x100000x16_7_0_0 : S26x100000x16.Slices ![7, 0, 0] S1x100000x16
  slices_S16384x39_S16384x1_0_7 : S16384x39.Slices ![0, 7] S16384x1
  slices_S26x100000x16_S1x100000x16_8_0_0 : S26x100000x16.Slices ![8, 0, 0] S1x100000x16
  slices_S16384x39_S16384x1_0_8 : S16384x39.Slices ![0, 8] S16384x1
  slices_S26x100000x16_S1x100000x16_9_0_0 : S26x100000x16.Slices ![9, 0, 0] S1x100000x16
  slices_S16384x39_S16384x1_0_9 : S16384x39.Slices ![0, 9] S16384x1
  slices_S26x100000x16_S1x100000x16_10_0_0 : S26x100000x16.Slices ![10, 0, 0] S1x100000x16
  slices_S16384x39_S16384x1_0_10 : S16384x39.Slices ![0, 10] S16384x1
  slices_S26x100000x16_S1x100000x16_11_0_0 : S26x100000x16.Slices ![11, 0, 0] S1x100000x16
  slices_S16384x39_S16384x1_0_11 : S16384x39.Slices ![0, 11] S16384x1
  slices_S26x100000x16_S1x100000x16_12_0_0 : S26x100000x16.Slices ![12, 0, 0] S1x100000x16
  slices_S16384x39_S16384x1_0_12 : S16384x39.Slices ![0, 12] S16384x1
  slices_S26x100000x16_S1x100000x16_13_0_0 : S26x100000x16.Slices ![13, 0, 0] S1x100000x16
  slices_S16384x39_S16384x1_0_13 : S16384x39.Slices ![0, 13] S16384x1
  slices_S26x100000x16_S1x100000x16_14_0_0 : S26x100000x16.Slices ![14, 0, 0] S1x100000x16
  slices_S16384x39_S16384x1_0_14 : S16384x39.Slices ![0, 14] S16384x1
  slices_S26x100000x16_S1x100000x16_15_0_0 : S26x100000x16.Slices ![15, 0, 0] S1x100000x16
  slices_S16384x39_S16384x1_0_15 : S16384x39.Slices ![0, 15] S16384x1
  slices_S26x100000x16_S1x100000x16_16_0_0 : S26x100000x16.Slices ![16, 0, 0] S1x100000x16
  slices_S16384x39_S16384x1_0_16 : S16384x39.Slices ![0, 16] S16384x1
  slices_S26x100000x16_S1x100000x16_17_0_0 : S26x100000x16.Slices ![17, 0, 0] S1x100000x16
  slices_S16384x39_S16384x1_0_17 : S16384x39.Slices ![0, 17] S16384x1
  slices_S26x100000x16_S1x100000x16_18_0_0 : S26x100000x16.Slices ![18, 0, 0] S1x100000x16
  slices_S16384x39_S16384x1_0_18 : S16384x39.Slices ![0, 18] S16384x1
  slices_S26x100000x16_S1x100000x16_19_0_0 : S26x100000x16.Slices ![19, 0, 0] S1x100000x16
  slices_S16384x39_S16384x1_0_19 : S16384x39.Slices ![0, 19] S16384x1
  slices_S26x100000x16_S1x100000x16_20_0_0 : S26x100000x16.Slices ![20, 0, 0] S1x100000x16
  slices_S16384x39_S16384x1_0_20 : S16384x39.Slices ![0, 20] S16384x1
  slices_S26x100000x16_S1x100000x16_21_0_0 : S26x100000x16.Slices ![21, 0, 0] S1x100000x16
  slices_S16384x39_S16384x1_0_21 : S16384x39.Slices ![0, 21] S16384x1
  slices_S26x100000x16_S1x100000x16_22_0_0 : S26x100000x16.Slices ![22, 0, 0] S1x100000x16
  slices_S16384x39_S16384x1_0_22 : S16384x39.Slices ![0, 22] S16384x1
  slices_S26x100000x16_S1x100000x16_23_0_0 : S26x100000x16.Slices ![23, 0, 0] S1x100000x16
  slices_S16384x39_S16384x1_0_23 : S16384x39.Slices ![0, 23] S16384x1
  slices_S26x100000x16_S1x100000x16_24_0_0 : S26x100000x16.Slices ![24, 0, 0] S1x100000x16
  slices_S16384x39_S16384x1_0_24 : S16384x39.Slices ![0, 24] S16384x1
  slices_S26x100000x16_S1x100000x16_25_0_0 : S26x100000x16.Slices ![25, 0, 0] S1x100000x16
  slices_S16384x39_S16384x1_0_25 : S16384x39.Slices ![0, 25] S16384x1
  slices_S16384x39_S16384x13_0_26 : S16384x39.Slices ![0, 26] S16384x13
  concatenates_S16384x16_S16384x16_S16384x16_S16384x16_S16384x16_S16384x16_S16384x16_S16384x16_S16384x16_S16384x16_S16384x16_S16384x16_S16384x16_S16384x16_S16384x16_S16384x16_S16384x256_d1 : Shape.Concatenates [S16384x16, S16384x16, S16384x16, S16384x16, S16384x16, S16384x16, S16384x16, S16384x16, S16384x16, S16384x16, S16384x16, S16384x16, S16384x16, S16384x16, S16384x16, S16384x16] S16384x256 1
  concatenates_S16384x16_S16384x16_S16384x16_S16384x16_S16384x16_S16384x16_S16384x16_S16384x16_S16384x16_S16384x16_S16384x13_S16384x173_d1 : Shape.Concatenates [S16384x16, S16384x16, S16384x16, S16384x16, S16384x16, S16384x16, S16384x16, S16384x16, S16384x16, S16384x16, S16384x13] S16384x173 1
  concatenates_S16384x256_S16384x173_S16384x429_d1 : Shape.Concatenates [S16384x256, S16384x173] S16384x429 1
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  concatenates_S16384x128_S16384x128_S16384x256_d1 : Shape.Concatenates [S16384x128, S16384x128] S16384x256 1
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  scatter_S26x100000x16_S1_S26x16_01_1_1_0_wf : ScatterDims.WF S26x100000x16 S1 S26x16 [0, 1] [1] [1] 0
  gather_S100000x16_S16384x1_S16384x16_1_0_n_n_0_1_116_wf : GatherDims.WF S100000x16 S16384x1 S16384x16 [1] [0] [] [0] [] 1 ![1, 16]
  dot_S16384x429_S429x256_S16384x256_1_0_0_1_n_n_wf : DotDims.WF S16384x429 S429x256 S16384x256 [1] [0] [0] [1] [] []
  dot_S16384x256_S256x128_S16384x128_1_0_0_1_n_n_wf : DotDims.WF S16384x256 S256x128 S16384x128 [1] [0] [0] [1] [] []
  dot_S16384x256_S256x2_S16384x2_1_0_0_1_n_n_wf : DotDims.WF S16384x256 S256x2 S16384x2 [1] [0] [0] [1] [] []

variable [Facts₀]

def scatter_S26x100000x16_S1_S26x16_01_1_1_0 : ScatterDims S26x100000x16 S1 S26x16 where
  updateWindowDims := [0, 1]
  insertedWindowDims := [1]
  scatterDimsToOperandDims := [1]
  indexVectorDim := 0
  wf := scatter_S26x100000x16_S1_S26x16_01_1_1_0_wf
def gather_S100000x16_S16384x1_S16384x16_1_0_n_n_0_1_116 : GatherDims S100000x16 S16384x1 S16384x16 where
  offsetDims := [1]
  collapsedSliceDims := [0]
  operandBatchingDims := []
  startIndicesBatchingDims := []
  startIndexMap := [0]
  indexVectorDim := 1
  sliceSizes := ![1, 16]
  wf := gather_S100000x16_S16384x1_S16384x16_1_0_n_n_0_1_116_wf
def dot_S16384x429_S429x256_S16384x256_1_0_0_1_n_n : DotDims S16384x429 S429x256 S16384x256 where
  lhsContracting := [1]
  rhsContracting := [0]
  lhsNonContracting := [0]
  rhsNonContracting := [1]
  lhsBatch := []
  rhsBatch := []
  wf := dot_S16384x429_S429x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x256_S256x2_S16384x2_1_0_0_1_n_n : DotDims S16384x256 S256x2 S16384x2 where
  lhsContracting := [1]
  rhsContracting := [0]
  lhsNonContracting := [0]
  rhsNonContracting := [1]
  lhsBatch := []
  rhsBatch := []
  wf := dot_S16384x256_S256x2_S16384x2_1_0_0_1_n_n_wf

class Facts : Prop extends Facts₀ where

variable [Facts]
-- ==== Proof.KI.Ghost.lean ====
/-
  The idealized kernel's program as the SparseCore launch theorem sees it, and the resource algebra every module of its
  frame shares: the launch handshakes' rounds, the rounds of the TensorCore pipeline's staging cells, and the counters of
  the local copies the vector subcores issue and wait for.
-/
import proofs.«205318_g12532714570102_cont_fleet_669_37_alg».proof.KernelIdeal
import proofs.«205318_g12532714570102_cont_fleet_669_37_alg».proof.Proof.Gen.KernelIdeal
import Idealize.ShloMosaic.Lib.SparseCore.Launch
import Idealize.ShloMosaic.Lib.Pipeline.Kit
import Idealize.ShloMosaic.Lib.Transfers

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: handshakes, pipeline cells, counters -/

abbrev UH : Type := URounds (GSem nD τ sig) ℕ
abbrev UP : Type := URounds (GSem nD τ sig) Unit
abbrev UU : Type := UH × (UP × Counters)

/-- The handshakes' rounds: the left factor. -/
abbrev EH : Emb UH (MT nD τ sig (HIx 1) (Elt F) ℕ UU ℕ) := embL

/-- The pipeline cells' rounds: the middle factor. The counters are found by instance in the right one. -/
def ER : Emb UP (MT nD τ sig (HIx 1) (Elt F) ℕ UU ℕ) :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb

instance ER_landsIn : (ER : Emb UP (MT nD τ sig (HIx 1) (Elt F) ℕ UU ℕ)).LandsIn (upEmb : UEmb _ (MT nD τ sig (HIx 1) (Elt F) ℕ UU ℕ)) := by
  unfold ER; infer_instance

example : CountersIn UU := inferInstance

end Cert.Proof.KI

end
-- ==== Proof.KI.ScCommon.lean ====
/-
  The SparseCore call of the idealized kernel: where its three arrays live, the value it leaves in its result, and
  what the launch handshakes carry to each SparseCore and to each vector subcore and back.

  The call reads two arrays whole (the transposed tables, 26 x 16 x 100000, and the transposed index matrix,
  39 x 16384) and writes a third (416 x 16384). Row p of the result is gathered by ONE vector subcore: with
  f = p / 16 and dd = p % 16, entry (p, b) is the table entry (f, dd, r) where r is the index word (f, b).
  A vector subcore writes its 13 rows in two halves each; it is handed exactly those 26 pieces of the result, and
  a read share of each of the two arrays it reads.
-/
import proofs.«205318_g12532714570102_cont_fleet_669_37_alg».proof.Proof.KI.Ghost
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type}

local notation "𝕄" => MT nD τ sig (HIx 1) (Elt F) ℕ UU ℕ

/-! ## The arrays -/

/-- The transposed tables, the transposed index matrix, and the call's result, as locations of device d. -/
abbrev aLoc (d : Dev nD) : Loc nD τ sig := (SparseCore.T d).loc main_v0
abbrev xLoc (d : Dev nD) : Loc nD τ sig := (SparseCore.T d).loc main_v1
abbrev eLoc (d : Dev nD) : Loc nD τ sig := (SparseCore.T d).loc main_v2

/-- The same three arrays as a vector subcore's memrefs, and its three scratch buffers. -/
abbrev aV : Memref sig .scVector .hbm S26x16x100000 .f32 := Memref.whole main_v0_scv
abbrev xV : Memref sig .scVector .hbm S39x16384 .i32 := Memref.whole main_v1_scv
abbrev eV : Memref sig .scVector .hbm S416x16384 .f32 := Memref.whole main_v2_scv
abbrev s0V : Memref sig .scVector .vmem S100000 .f32 := Memref.whole cc0_scratch0
abbrev s1V : Memref sig .scVector .vmem S16384 .i32 := Memref.whole cc0_scratch1
abbrev s2V : Memref sig .scVector .vmem S8192 .f32 := Memref.whole cc0_scratch2

/-! ## The value the call leaves -/

/-- Entry (p, b) of the result: the table entry (p / 16, p % 16, r), r the index word (p / 16, b) read unsigned
    (taken modulo the table's extent so that the function is total; the words are below it). -/
def embOf (A : (d : Dev nD) → Buf (Elt F) (aLoc d)) (X : (d : Dev nD) → Buf (Elt F) (xLoc d)) (d : Dev nD) : Buf (Elt F) (eLoc d) :=
  fun (idx : (⟨2, ![416, 16384]⟩ : Shape).Idx) =>
    A d (ix3 (n0 := 26) (n1 := 16) (n2 := 100000)
      ⟨(idx 0).val / 16, by have := ValueIdx.idx2_lt0 idx; omega⟩
      ⟨(idx 0).val % 16, by omega⟩
      ⟨(X d (ix2 (n0 := 39) (n1 := 16384) ⟨(idx 0).val / 16, by have := ValueIdx.idx2_lt0 idx; omega⟩ (idx 1))).toNat % 100000, Nat.mod_lt _ (by decide)⟩)

/-! ## A vector subcore's pieces of the result -/

/-- The grid point of SparseCore c, vector subcore s. -/
def coordsV (c : Fin (grid0.bound 0)) (s : Fin (grid0.bound 1)) : grid0.Coords :=
  fun | 0 => c | 1 => s | ⟨_ + 2, h⟩ => absurd h (Nat.not_lt.2 (Nat.le_add_left _ _))

/-- Half k2 of the k1-th row the vector subcore at grid point L writes, as the body slices it out of the result. -/
abbrev ePc (L : grid0.Coords) (k1 : Fin k0_t1_loop.trips) (k2 : Fin k0_t2_loop.trips) : Memref sig .scVector .hbm S8192 .f32 :=
  ((eV : Memref sig .scVector .hbm S416x16384 .f32).slice (Rect.unit (s := S416x16384) (k0_off35 L k1 k2) S1x8192.size (k0_off35_inb L k1 k2)) (fun _ => rfl)).squeeze S8192 squeezes_S1x8192_S8192

/-- The 26 pieces of the result the vector subcore at L writes, all at the contents f. -/
def tilePcs (d : Dev nD) (L : grid0.Coords) (f : Buf (Elt F) (eLoc d)) : sProp 𝕄 :=
  bigSep Finset.univ fun p : Fin k0_t1_loop.trips × Fin k0_t2_loop.trips => eLoc d ↦[(ePc L p.1 p.2).view.set]{fullShare} f

instance tilePcs_storable (d : Dev nD) (L : grid0.Coords) (f : Buf (Elt F) (eLoc d)) : BI.Storable (upEmb : UEmb _ 𝕄) (tilePcs d L f) := by
  unfold tilePcs; infer_instance

/-! ## What the handshakes carry -/

/-- SparseCore c's read share of an array the call reads, and vector subcore i's share of that. -/
abbrev qC (c : Fin ((K (F := F)).nCore 0)) : PosShare TreeShare := Transfers.shareTok fullShare 2 (Fin.cast nCore_zero c)
abbrev qT (c : Fin ((K (F := F)).nCore 0)) (i : Fin ((K (F := F)).nSub 0)) : PosShare TreeShare :=
  Transfers.shareTok (qC (F := F) c) 16 (Fin.cast nSub_zero i)
/-- The grid point of the call's SparseCore c, vector subcore i. -/
abbrev LT (c : Fin ((K (F := F)).nCore 0)) (i : Fin ((K (F := F)).nSub 0)) : grid0.Coords := coordsV ⟨c.val, c.isLt⟩ ⟨i.val, i.isLt⟩

variable (A : (d : Dev nD) → Buf (Elt F) (aLoc d)) (X : (d : Dev nD) → Buf (Elt F) (xLoc d)) (E0 : (d : Dev nD) → Buf (Elt F) (eLoc d))

/-- The one call hands each SparseCore a read share of the two arrays it reads and its vector subcores' pieces of the
    result at their contents E0 at the call; each vector subcore a share of that share and its own pieces; and brings
    the same back, the pieces at the gathered value. -/
def P : (K (F := F)).Pay (nD := nD) (Val := Elt F) (Name := ℕ) (U := UU) where
  st := fun q d c => match q with
    | 0 => iprop((aLoc d ↦{(qC (F := F) c)} A d) ∗ (xLoc d ↦{(qC (F := F) c)} X d)
        ∗ bigSep Finset.univ fun i : Fin ((K (F := F)).nSub 0) => tilePcs d (LT (F := F) c i) (E0 d))
  dn := fun q d c => match q with
    | 0 => iprop((aLoc d ↦{(qC (F := F) c)} A d) ∗ (xLoc d ↦{(qC (F := F) c)} X d)
        ∗ bigSep Finset.univ fun i : Fin ((K (F := F)).nSub 0) => tilePcs d (LT (F := F) c i) (embOf A X d))
  go := fun q d c i => match q with
    | 0 => iprop((aLoc d ↦{(qT (F := F) c i)} A d) ∗ (xLoc d ↦{(qT (F := F) c i)} X d) ∗ tilePcs d (LT (F := F) c i) (E0 d))
  td := fun q d c i => match q with
    | 0 => iprop((aLoc d ↦{(qT (F := F) c i)} A d) ∗ (xLoc d ↦{(qT (F := F) c i)} X d) ∗ tilePcs d (LT (F := F) c i) (embOf A X d))
  x := fun _ _ => iprop(emp)

theorem P_st (d : Dev nD) (c : Fin ((K (F := F)).nCore 0)) :
    (P A X E0).st 0 d c = iprop((aLoc d ↦{(qC (F := F) c)} A d) ∗ (xLoc d ↦{(qC (F := F) c)} X d)
        ∗ bigSep Finset.univ fun i : Fin ((K (F := F)).nSub 0) => tilePcs d (LT (F := F) c i) (E0 d)) := rfl
theorem P_dn (d : Dev nD) (c : Fin ((K (F := F)).nCore 0)) :
    (P A X E0).dn 0 d c = iprop((aLoc d ↦{(qC (F := F) c)} A d) ∗ (xLoc d ↦{(qC (F := F) c)} X d)
        ∗ bigSep Finset.univ fun i : Fin ((K (F := F)).nSub 0) => tilePcs d (LT (F := F) c i) (embOf A X d)) := rfl
theorem P_go (d : Dev nD) (c : Fin ((K (F := F)).nCore 0)) (i : Fin ((K (F := F)).nSub 0)) :
    (P A X E0).go 0 d c i = iprop((aLoc d ↦{(qT (F := F) c i)} A d) ∗ (xLoc d ↦{(qT (F := F) c i)} X d) ∗ tilePcs d (LT (F := F) c i) (E0 d)) := rfl
theorem P_td (d : Dev nD) (c : Fin ((K (F := F)).nCore 0)) (i : Fin ((K (F := F)).nSub 0)) :
    (P A X E0).td 0 d c i = iprop((aLoc d ↦{(qT (F := F) c i)} A d) ∗ (xLoc d ↦{(qT (F := F) c i)} X d) ∗ tilePcs d (LT (F := F) c i) (embOf A X d)) := rfl
theorem P_x (q : Fin 1) (thr : Thread nD τ) : (P A X E0).x q thr = iprop(emp) := rfl

instance P_storable : (P (F := F) A X E0).IsStorable where
  st q d c := match q with
    | 0 => (inferInstance : BI.Storable (upEmb : UEmb _ 𝕄) iprop((aLoc d ↦{(qC (F := F) c)} A d) ∗ (xLoc d ↦{(qC (F := F) c)} X d)
        ∗ bigSep Finset.univ fun i : Fin ((K (F := F)).nSub 0) => tilePcs d (LT (F := F) c i) (E0 d)))
  dn q d c := match q with
    | 0 => (inferInstance : BI.Storable (upEmb : UEmb _ 𝕄) iprop((aLoc d ↦{(qC (F := F) c)} A d) ∗ (xLoc d ↦{(qC (F := F) c)} X d)
        ∗ bigSep Finset.univ fun i : Fin ((K (F := F)).nSub 0) => tilePcs d (LT (F := F) c i) (embOf A X d)))
  go q d c i := match q with
    | 0 => (inferInstance : BI.Storable (upEmb : UEmb _ 𝕄)
        iprop((aLoc d ↦{(qT (F := F) c i)} A d) ∗ (xLoc d ↦{(qT (F := F) c i)} X d) ∗ tilePcs d (LT (F := F) c i) (E0 d)))
  td q d c i := match q with
    | 0 => (inferInstance : BI.Storable (upEmb : UEmb _ 𝕄)
        iprop((aLoc d ↦{(qT (F := F) c i)} A d) ∗ (xLoc d ↦{(qT (F := F) c i)} X d) ∗ tilePcs d (LT (F := F) c i) (embOf A X d)))

end Cert.Proof.KI

end
-- ==== Proof.KI.Split.lean ====
/-
  How the SparseCore call's arrays are cut among its processors. The two arrays it reads go out as read shares,
  one per SparseCore and, of that, one per vector subcore. The result is cut into the pieces the vector subcores
  write: subcore (c, s) writes rows 26 s + 13 c + k, k < 13, each in two halves of 8192 columns; the 2 · 16 · 13 · 2
  pieces are pairwise disjoint and cover the 416 x 16384 array.
-/
import proofs.«205318_g12532714570102_cont_fleet_669_37_alg».proof.Proof.KI.ScCommon

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The pieces of the result -/

/-- The elements of a piece are its rectangle's: one row of the result, 8192 columns of it. -/
theorem set_ePc (L : grid0.Coords) (k1 : Fin k0_t1_loop.trips) (k2 : Fin k0_t2_loop.trips) :
    (ePc L k1 k2).view.set = (Rect.unit (s := S416x16384) (k0_off35 L k1 k2) S1x8192.size (k0_off35_inb L k1 k2)).set := by
  show (((eV : Memref sig .scVector .hbm S416x16384 .f32).view.slice
      (Rect.unit (s := S416x16384) (k0_off35 L k1 k2) S1x8192.size (k0_off35_inb L k1 k2))).reshape S8192 squeezes_S1x8192_S8192.numel_eq).set = _
  rw [View.set_reshape]
  show ((View.whole (main_v2_scv : Ref sig .scVector)).slice _).set = _
  rw [View.set_slice]; exact Finset.map_refl

/-- An index lies in the piece (L, k1, k2) exactly when its row is 26 s + 13 c + k1 and its column lies in half k2. -/
theorem mem_ePc (L : grid0.Coords) (k1 : Fin k0_t1_loop.trips) (k2 : Fin k0_t2_loop.trips) (idx : S416x16384.Idx) :
    idx ∈ (ePc L k1 k2).view.set
      ↔ (idx 0).val = 26 * (L 1).val + 13 * (L 0).val + k1.val ∧ 8192 * k2.val ≤ (idx 1).val ∧ (idx 1).val < 8192 * k2.val + 8192 := by
  rw [set_ePc, Rect.mem_set_unit, k0_off35_eq]
  constructor
  · intro h
    have h0 := h 0
    have h1 := h 1
    simp at h0 h1
    omega
  · rintro ⟨h0, h1, h2⟩ a
    match a with
    | 0 => simp; omega
    | 1 => simp; omega

/-! ## The vector subcores' split of a SparseCore's share -/

variable (A : (d : Dev nD) → Buf (Elt F) (aLoc d)) (X : (d : Dev nD) → Buf (Elt F) (xLoc d)) (E0 : (d : Dev nD) → Buf (Elt F) (eLoc d))

/-- A SparseCore's read shares split sixteen ways (the remainder kept until the subcores' shares come back); its
    pieces are already one family per subcore. -/
theorem vecSplit : (K (F := F)).VecSplit' (P A X E0) 0 := by
  intro d c
  show iprop((aLoc d ↦{(qC (F := F) c)} A d) ∗ (xLoc d ↦{(qC (F := F) c)} X d)
        ∗ bigSep Finset.univ fun i : Fin ((K (F := F)).nSub 0) => tilePcs d (LT (F := F) c i) (E0 d))
    ⊢ |={Set.univ}=> iprop((bigSep Finset.univ fun i : Fin ((K (F := F)).nSub 0) =>
          iprop((aLoc d ↦{(qT (F := F) c i)} A d) ∗ (xLoc d ↦{(qT (F := F) c i)} X d) ∗ tilePcs d (LT (F := F) c i) (E0 d)))
      ∗ ((bigSep Finset.univ fun i : Fin ((K (F := F)).nSub 0) =>
          iprop((aLoc d ↦{(qT (F := F) c i)} A d) ∗ (xLoc d ↦{(qT (F := F) c i)} X d) ∗ tilePcs d (LT (F := F) c i) (embOf A X d)))
          -∗ iprop((aLoc d ↦{(qC (F := F) c)} A d) ∗ (xLoc d ↦{(qC (F := F) c)} X d)
            ∗ bigSep Finset.univ fun i : Fin ((K (F := F)).nSub 0) => tilePcs d (LT (F := F) c i) (embOf A X d))))
  rw [bigSep_sep', bigSep_sep', bigSep_sep', bigSep_sep']
  iintro ⟨Ha, Hx, Hp⟩
  ihave Ha' := (Transfers.pointsTo_toks_split (qC (F := F) c) 16) $$ Ha
  icases Ha' with ⟨Had, Hat⟩
  ihave Hx' := (Transfers.pointsTo_toks_split (qC (F := F) c) 16) $$ Hx
  icases Hx' with ⟨Hxd, Hxt⟩
  imodintro
  isplitl [Hat Hxt Hp]
  · isplitl [Hat]; · iexact Hat
    isplitl [Hxt]; · iexact Hxt
    iexact Hp
  iintro ⟨Hat, Hxt, Hp⟩
  isplitl [Had Hat]
  · iapply (Transfers.pointsTo_toks_join (qC (F := F) c) 16)
    isplitl [Had]; · iexact Had
    iexact Hat
  isplitl [Hxd Hxt]
  · iapply (Transfers.pointsTo_toks_join (qC (F := F) c) 16)
    isplitl [Hxd]; · iexact Hxd
    iexact Hxt
  iexact Hp

end Cert.Proof.KI

end
-- ==== Proof.KI.Pieces.lean ====
/-
  The result of the SparseCore call, whole, is the family of the pieces its vector subcores write: pairwise
  disjoint (two pieces with a common entry have the same row 26 s + 13 c + k and the same half, hence the same
  subcore, row number and half) and covering (row r belongs to subcore s = r / 26, c = (r % 26) / 13, as its row
  k = r % 13; column b to half b / 8192).
-/
import proofs.«205318_g12532714570102_cont_fleet_669_37_alg».proof.Proof.KI.Split

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- A piece's name: SparseCore, vector subcore, row number among the subcore's thirteen, half. -/
abbrev PJ : Type := Fin ((K (F := F)).nCore 0) × (Fin ((K (F := F)).nSub 0) × (Fin k0_t1_loop.trips × Fin k0_t2_loop.trips))

/-- The entries of the piece named j. -/
def pcSet (j : PJ (F := F)) : Finset S416x16384.Idx := (ePc (LT (F := F) j.1 j.2.1) j.2.2.1 j.2.2.2).view.set

theorem LT_zero (c : Fin ((K (F := F)).nCore 0)) (i : Fin ((K (F := F)).nSub 0)) : ((LT (F := F) c i) 0).val = c.val := rfl
theorem LT_one (c : Fin ((K (F := F)).nCore 0)) (i : Fin ((K (F := F)).nSub 0)) : ((LT (F := F) c i) 1).val = i.val := rfl

theorem mem_pcSet (j : PJ (F := F)) (idx : S416x16384.Idx) :
    idx ∈ pcSet j ↔ (idx 0).val = 26 * j.2.1.val + 13 * j.1.val + j.2.2.1.val
      ∧ 8192 * j.2.2.2.val ≤ (idx 1).val ∧ (idx 1).val < 8192 * j.2.2.2.val + 8192 := by
  unfold pcSet
  rw [mem_ePc, LT_zero, LT_one]

theorem pcs_disjoint : ∀ j ∈ (Finset.univ : Finset (PJ (F := F))), ∀ j' ∈ (Finset.univ : Finset (PJ (F := F))), j ≠ j' →
    Disjoint (pcSet j) (pcSet j') := by
  intro j _ j' _ hne
  rw [Finset.disjoint_left]
  intro idx h h'
  rw [mem_pcSet] at h h'
  apply hne
  obtain ⟨c, i, k1, k2⟩ := j
  obtain ⟨c', i', k1', k2'⟩ := j'
  have hc : c.val < 2 := c.isLt
  have hc' : c'.val < 2 := c'.isLt
  have hk : k1.val < 13 := k1.isLt
  have hk' : k1'.val < 13 := k1'.isLt
  have hh : k2.val < 2 := k2.isLt
  have hh' : k2'.val < 2 := k2'.isLt
  dsimp only at h h'
  have e1 : c.val = c'.val := by omega
  have e2 : i.val = i'.val := by omega
  have e3 : k1.val = k1'.val := by omega
  have e4 : k2.val = k2'.val := by omega
  rw [Fin.ext e1, Fin.ext e2, Fin.ext e3, Fin.ext e4]

theorem pcs_cover : (Finset.univ : Finset (PJ (F := F))).biUnion pcSet = Finset.univ := by
  apply Finset.eq_univ_of_forall
  intro idx
  rw [Finset.mem_biUnion]
  have h0 : (idx 0).val < 416 := ValueIdx.idx2_lt0 idx
  have h1 : (idx 1).val < 16384 := ValueIdx.idx2_lt1 idx
  refine ⟨(⟨((idx 0).val % 26) / 13, by show _ < 2; omega⟩, ⟨(idx 0).val / 26, by show _ < 16; omega⟩,
    ⟨(idx 0).val % 13, by show _ < 13; omega⟩, ⟨(idx 1).val / 8192, by show _ < 2; omega⟩), Finset.mem_univ _, ?_⟩
  rw [mem_pcSet]
  dsimp only
  omega

/-- The whole result at full share is its pieces, grouped by SparseCore and vector subcore. -/
theorem ePts_pieces (d : Dev nD) (f : Buf (Elt F) (eLoc d)) :
    (eLoc d ↦{fullShare} f : sProp 𝕄)
      = bigSep Finset.univ fun c : Fin ((K (F := F)).nCore 0) => bigSep Finset.univ fun i : Fin ((K (F := F)).nSub 0) =>
          tilePcs d (LT (F := F) c i) f := by
  have e : (eLoc d ↦{fullShare} f : sProp 𝕄) = bigSep Finset.univ fun j : PJ (F := F) => eLoc d ↦[pcSet j]{fullShare} f := by
    rw [← pointsTo_biUnion Finset.univ (ℓ := eLoc d) (pcSet (F := F)) pcs_disjoint, pcs_cover]; try rfl
  rw [e, bigSep_univ_prod]
  refine bigSep_congr fun c _ => ?_
  rw [bigSep_univ_prod]
  rfl

end Cert.Proof.KI

end
-- ==== Proof.KI.MainOps.lean ====
/-
  @main of the kernel's program on the TensorCore, respelt: three straight stretches of host operations (two
  transposes before the SparseCore call; the slices, transposes, reshapes and the block-diagonal table of the
  tables' row 0 between the calls; the final transpose) around the SparseCore call and the TensorCore pipeline.
-/
import proofs.«205318_g12532714570102_cont_fleet_669_37_alg».proof.Proof.KI.Ghost
import Idealize.ShloMosaic.Lib.StableHlo.Run

noncomputable section

namespace Cert.Proof.KI

open Cert.KernelIdeal Cert.KernelIdeal.Gen Idealize.ShloMosaic Idealize.ShloMosaic.TcCoe Idealize.SL.Sem Idealize.ShloMosaic.StableHlo

variable {F : FTy → Type} [FloatOps F]

/-- The two transposes before the SparseCore call: the tables with the vocabulary axis last, the indices with
    the batch axis last. -/
abbrev opsA : List (HloOp τ sig (Elt F)) :=
  [ unary main_arg2 main_v0 ((transpose S26x16x100000 [0, 2, 1] · transposes_S26x100000x16_S26x16x100000_0_2_1) : (⟨S26x100000x16, .f32⟩ : BufTy).Contents (Elt F) → (⟨S26x16x100000, .f32⟩ : BufTy).Contents (Elt F)),
    unary main_arg1 main_v1 ((transpose S39x16384 [1, 0] · transposes_S16384x39_S39x16384_1_0) : (⟨S16384x39, .i32⟩ : BufTy).Contents (Elt F) → (⟨S39x16384, .i32⟩ : BufTy).Contents (Elt F)) ]

/-- Between the calls: row 0 of every table spread block-diagonally over the 416 embedding columns, and the
    weights and biases transposed or reshaped to columns. -/
abbrev opsB : List (HloOp τ sig (Elt F)) :=
  [ unary main_arg2 main_v3 ((extractStridedSlice S26x1x16 ![0, 0, 0] · slices_S26x100000x16_S26x1x16_0_0_0) : (⟨S26x100000x16, .f32⟩ : BufTy).Contents (Elt F) → (⟨S26x1x16, .f32⟩ : BufTy).Contents (Elt F)),
    reshape main_v3 main_v4 rfl shapeCasts_S26x1x16_S26x16,
    nullary main_v5 (iotaInDim S26x26 32 0),
    nullary main_v6 (iotaInDim S26x26 32 1),
    nullary main_c (constantI S_ 32 0#32),
    unary main_c main_v7 (broadcastInDim S26x26 ![] bcast_S_S26x26 : (⟨S_, .i32⟩ : BufTy).Contents (Elt F) → (⟨S26x26, .i32⟩ : BufTy).Contents (Elt F)),
    binary main_v5 main_v7 main_v8 (addi : (⟨S26x26, .i32⟩ : BufTy).Contents (Elt F) → (⟨S26x26, .i32⟩ : BufTy).Contents (Elt F) → (⟨S26x26, .i32⟩ : BufTy).Contents (Elt F)),
    binary main_v8 main_v6 main_v9 (cmpi .eq : (⟨S26x26, .i32⟩ : BufTy).Contents (Elt F) → (⟨S26x26, .i32⟩ : BufTy).Contents (Elt F) → (⟨S26x26, .i1⟩ : BufTy).Contents (Elt F)),
    unary main_v9 main_v10 (uitofp .f32 : (⟨S26x26, .i1⟩ : BufTy).Contents (Elt F) → (⟨S26x26, .f32⟩ : BufTy).Contents (Elt F)),
    unary main_v10 main_v11 (broadcastInDim S26x26x1 ![0, 1] bcast_S26x26_S26x26x1_0_1 : (⟨S26x26, .f32⟩ : BufTy).Contents (Elt F) → (⟨S26x26x1, .f32⟩ : BufTy).Contents (Elt F)),
    unary main_v4 main_v12 (broadcastInDim S26x1x16 ![0, 2] bcast_S26x16_S26x1x16_0_2 : (⟨S26x16, .f32⟩ : BufTy).Contents (Elt F) → (⟨S26x1x16, .f32⟩ : BufTy).Contents (Elt F)),
    unary main_v11 main_v13 (broadcastInDim S26x26x16 ![0, 1, 2] bcast_S26x26x1_S26x26x16_0_1_2 : (⟨S26x26x1, .f32⟩ : BufTy).Contents (Elt F) → (⟨S26x26x16, .f32⟩ : BufTy).Contents (Elt F)),
    unary main_v12 main_v14 (broadcastInDim S26x26x16 ![0, 1, 2] bcast_S26x1x16_S26x26x16_0_1_2 : (⟨S26x1x16, .f32⟩ : BufTy).Contents (Elt F) → (⟨S26x26x16, .f32⟩ : BufTy).Contents (Elt F)),
    binary main_v13 main_v14 main_v15 (mulf : (⟨S26x26x16, .f32⟩ : BufTy).Contents (Elt F) → (⟨S26x26x16, .f32⟩ : BufTy).Contents (Elt F) → (⟨S26x26x16, .f32⟩ : BufTy).Contents (Elt F)),
    reshape main_v15 main_v16 rfl shapeCasts_S26x26x16_S26x416,
    unary main_arg3 main_v17 ((extractStridedSlice S416x256 ![0, 0] · slices_S429x256_S416x256_0_0) : (⟨S429x256, .f32⟩ : BufTy).Contents (Elt F) → (⟨S416x256, .f32⟩ : BufTy).Contents (Elt F)),
    unary main_v17 main_v18 ((transpose S256x416 [1, 0] · transposes_S416x256_S256x416_1_0) : (⟨S416x256, .f32⟩ : BufTy).Contents (Elt F) → (⟨S256x416, .f32⟩ : BufTy).Contents (Elt F)),
    unary main_arg3 main_v19 ((extractStridedSlice S13x256 ![416, 0] · slices_S429x256_S13x256_416_0) : (⟨S429x256, .f32⟩ : BufTy).Contents (Elt F) → (⟨S13x256, .f32⟩ : BufTy).Contents (Elt F)),
    unary main_v19 main_v20 ((transpose S256x13 [1, 0] · transposes_S13x256_S256x13_1_0) : (⟨S13x256, .f32⟩ : BufTy).Contents (Elt F) → (⟨S256x13, .f32⟩ : BufTy).Contents (Elt F)),
    unary main_v16 main_v21 ((transpose S416x26 [1, 0] · transposes_S26x416_S416x26_1_0) : (⟨S26x416, .f32⟩ : BufTy).Contents (Elt F) → (⟨S416x26, .f32⟩ : BufTy).Contents (Elt F)),
    reshape main_arg4 main_v22 rfl shapeCasts_S256_S256x1,
    unary main_arg5 main_v23 ((transpose S128x256 [1, 0] · transposes_S256x128_S128x256_1_0) : (⟨S256x128, .f32⟩ : BufTy).Contents (Elt F) → (⟨S128x256, .f32⟩ : BufTy).Contents (Elt F)),
    reshape main_arg6 main_v24 rfl shapeCasts_S128_S128x1,
    unary main_arg7 main_v25 ((extractStridedSlice S128x2 ![0, 0] · slices_S256x2_S128x2_0_0) : (⟨S256x2, .f32⟩ : BufTy).Contents (Elt F) → (⟨S128x2, .f32⟩ : BufTy).Contents (Elt F)),
    unary main_v25 main_v26 ((transpose S2x128 [1, 0] · transposes_S128x2_S2x128_1_0) : (⟨S128x2, .f32⟩ : BufTy).Contents (Elt F) → (⟨S2x128, .f32⟩ : BufTy).Contents (Elt F)),
    unary main_arg7 main_v27 ((extractStridedSlice S128x2 ![128, 0] · slices_S256x2_S128x2_128_0) : (⟨S256x2, .f32⟩ : BufTy).Contents (Elt F) → (⟨S128x2, .f32⟩ : BufTy).Contents (Elt F)),
    unary main_v27 main_v28 ((transpose S2x128 [1, 0] · transposes_S128x2_S2x128_1_0) : (⟨S128x2, .f32⟩ : BufTy).Contents (Elt F) → (⟨S2x128, .f32⟩ : BufTy).Contents (Elt F)),
    reshape main_arg8 main_v29 rfl shapeCasts_S2_S2x1 ]

/-- After the pipeline: the result transposed back to batch-major. -/
abbrev opsC : List (HloOp τ sig (Elt F)) :=
  [ unary main_v30 main_v31 ((transpose S16384x2 [1, 0] · transposes_S2x16384_S16384x2_1_0) : (⟨S2x16384, .f32⟩ : BufTy).Contents (Elt F) → (⟨S16384x2, .f32⟩ : BufTy).Contents (Elt F)) ]

set_option maxRecDepth 8192 in
set_option maxHeartbeats 4000000 in
/-- @main is the three stretches around the two calls. -/
theorem main_eq (d : Dev nD) :
    main (F := F) d
      = (seq opsA >>= fun _ => sc.run d 0 >>= fun _ => seq opsB >>= fun _ =>
          Prog.lift (.customCall (SparseCore.inner (Pipeline.entry 0)) ()) >>= fun _ => seq opsC >>= fun _ => pure ⟨⟩) := rfl

end Cert.Proof.KI

end
-- ==== Proof.KI.Held.lean ====
/-
  Each stretch of @main's host operations stays inside the TensorCore's unscoped arrays (the arguments and every
  intermediate of @main, held as one set) and allocates nothing.
-/
import proofs.«205318_g12532714570102_cont_fleet_669_37_alg».proof.Proof.KI.MainOps
import Idealize.ShloMosaic.Lib.Pipeline.Frame

noncomputable section

namespace Cert.Proof.KI

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
theorem opsA_sub : (opsA : List (HloOp τ sig (Elt F))).Forall fun op => op.bufs ⊆ Pipeline.ucRefs τ sig :=
  ⟨Pipeline.sub_ucRefs _ (unary_bufs_sub ..),
    Pipeline.sub_ucRefs _ (unary_bufs_sub ..)⟩
set_option maxRecDepth 8192 in
theorem opsB_sub : (opsB : List (HloOp τ sig (Elt F))).Forall fun op => op.bufs ⊆ Pipeline.ucRefs τ sig :=
  ⟨Pipeline.sub_ucRefs _ (unary_bufs_sub ..),
    Pipeline.sub_ucRefs _ (reshape_bufs_sub ..),
    Pipeline.sub_ucRefs _ (nullary_bufs_sub ..),
    Pipeline.sub_ucRefs _ (nullary_bufs_sub ..),
    Pipeline.sub_ucRefs _ (nullary_bufs_sub ..),
    Pipeline.sub_ucRefs _ (unary_bufs_sub ..),
    Pipeline.sub_ucRefs _ (binary_bufs_sub ..),
    Pipeline.sub_ucRefs _ (binary_bufs_sub ..),
    Pipeline.sub_ucRefs _ (unary_bufs_sub ..),
    Pipeline.sub_ucRefs _ (unary_bufs_sub ..),
    Pipeline.sub_ucRefs _ (unary_bufs_sub ..),
    Pipeline.sub_ucRefs _ (unary_bufs_sub ..),
    Pipeline.sub_ucRefs _ (unary_bufs_sub ..),
    Pipeline.sub_ucRefs _ (binary_bufs_sub ..),
    Pipeline.sub_ucRefs _ (reshape_bufs_sub ..),
    Pipeline.sub_ucRefs _ (unary_bufs_sub ..),
    Pipeline.sub_ucRefs _ (unary_bufs_sub ..),
    Pipeline.sub_ucRefs _ (unary_bufs_sub ..),
    Pipeline.sub_ucRefs _ (unary_bufs_sub ..),
    Pipeline.sub_ucRefs _ (unary_bufs_sub ..),
    Pipeline.sub_ucRefs _ (reshape_bufs_sub ..),
    Pipeline.sub_ucRefs _ (unary_bufs_sub ..),
    Pipeline.sub_ucRefs _ (reshape_bufs_sub ..),
    Pipeline.sub_ucRefs _ (unary_bufs_sub ..),
    Pipeline.sub_ucRefs _ (unary_bufs_sub ..),
    Pipeline.sub_ucRefs _ (unary_bufs_sub ..),
    Pipeline.sub_ucRefs _ (unary_bufs_sub ..),
    Pipeline.sub_ucRefs _ (reshape_bufs_sub ..)⟩
set_option maxRecDepth 8192 in
theorem opsC_sub : (opsC : List (HloOp τ sig (Elt F))).Forall fun op => op.bufs ⊆ Pipeline.ucRefs τ sig :=
  Pipeline.sub_ucRefs _ (unary_bufs_sub ..)

theorem opsA_fresh : (opsA : List (HloOp τ sig (Elt F))).Forall fun op => op.fresh = ∅ := ⟨rfl,
    rfl⟩
theorem opsB_fresh : (opsB : List (HloOp τ sig (Elt F))).Forall fun op => op.fresh = ∅ := ⟨rfl,
    rfl,
    rfl,
    rfl,
    rfl,
    rfl,
    rfl,
    rfl,
    rfl,
    rfl,
    rfl,
    rfl,
    rfl,
    rfl,
    rfl,
    rfl,
    rfl,
    rfl,
    rfl,
    rfl,
    rfl,
    rfl,
    rfl,
    rfl,
    rfl,
    rfl,
    rfl,
    rfl⟩
theorem opsC_fresh : (opsC : List (HloOp τ sig (Elt F))).Forall fun op => op.fresh = ∅ := rfl

end Cert.Proof.KI

end
-- ==== Proof.KI.Vals.lean ====
/-
  The contents of the TensorCore's arrays along @main, as pure functions of the launch memory: after the two
  transposes; with the SparseCore call's result in place; after the host operations between the calls; with the
  pipeline's result in place; after the final transpose.
-/
import proofs.«205318_g12532714570102_cont_fleet_669_37_alg».proof.Proof.KI.Held
import proofs.«205318_g12532714570102_cont_fleet_669_37_alg».proof.Proof.KI.ScCommon

noncomputable section

namespace Cert.Proof.KI

open Cert.KernelIdeal Cert.KernelIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- The arrays at the launch. -/
abbrev W0 (d : Dev nD) : Valuation τ sig (Elt F) := launchContents m d
/-- After the two transposes. -/
def WA (d : Dev nD) : Valuation τ sig (Elt F) := after opsA (W0 m d)
/-- What the SparseCore call finds: the transposed tables, the transposed indices, and its result's old contents. -/
def Aof (d : Dev nD) : Buf (Elt F) (aLoc d) := WA m d (Proc.devRef .tc main_v0)
def Xof (d : Dev nD) : Buf (Elt F) (xLoc d) := WA m d (Proc.devRef .tc main_v1)
def E0of (d : Dev nD) : Buf (Elt F) (eLoc d) := WA m d (Proc.devRef .tc main_v2)
/-- With the gathered rows in place. -/
def W1 (d : Dev nD) : Valuation τ sig (Elt F) :=
  Function.update (WA m d) (Proc.devRef .tc main_v2) (embOf (Aof m) (Xof m) d)
/-- After the host operations between the calls. -/
def WB (d : Dev nD) : Valuation τ sig (Elt F) := after opsB (W1 m d)

-- The pipeline's result as a function of the arrays it finds.
variable (o30 : (d : Dev nD) → Valuation τ sig (Elt F) → Buf (Elt F) ((SparseCore.T d).loc main_v30))

/-- With the pipeline's result in place. -/
def W2 (d : Dev nD) : Valuation τ sig (Elt F) :=
  Function.update (WB m d) (Proc.devRef .tc main_v30) (o30 d (WB m d))
/-- At the end of @main. -/
def WC (d : Dev nD) : Valuation τ sig (Elt F) := after opsC (W2 m o30 d)

end Cert.Proof.KI

end
-- ==== Proof.KI.RegionBody.lean ====
/-
  The TensorCore kernel body of the second custom call at one grid point: run on thirteen whole staging memrefs,
  the twelve inputs at their read contents and the output at anything, it leaves the inputs as they were and the
  output's buffer at the one covering store's payload, a function of the twelve input blocks.
-/
import proofs.«205318_g12532714570102_cont_fleet_669_37_alg».proof.Proof.KI.Ghost
import proofs.«205318_g12532714570102_cont_fleet_669_37_alg».proof.Proof.Gen.KernelIdeal.Launch
import proofs.«205318_g12532714570102_cont_fleet_669_37_alg».proof.Proof.Gen.KernelIdeal.Skeleton
import proofs.«205318_g12532714570102_cont_fleet_669_37_alg».proof.Proof.Gen.KernelIdeal.Points
import Idealize.ShloMosaic.Lib.Pipeline.FrameBody
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The whole-buffer rectangles the body loads and stores through -/

abbrev rA1 : Rect S39x4096 := Rect.unit (s := S39x4096) ![0, 0] S39x4096.size inb_S39x4096_S39x4096_0_0
abbrev rA2 : Rect S416x4096 := Rect.unit (s := S416x4096) ![0, 0] S416x4096.size inb_S416x4096_S416x4096_0_0
abbrev rA3 : Rect S4096x128 := Rect.unit (s := S4096x128) ![0, 0] S4096x128.size inb_S4096x128_S4096x128_0_0
abbrev rA4 : Rect S256x416 := Rect.unit (s := S256x416) ![0, 0] S256x416.size inb_S256x416_S256x416_0_0
abbrev rA5 : Rect S256x13 := Rect.unit (s := S256x13) ![0, 0] S256x13.size inb_S256x13_S256x13_0_0
abbrev rA6 : Rect S416x26 := Rect.unit (s := S416x26) ![0, 0] S416x26.size inb_S416x26_S416x26_0_0
abbrev rA7 : Rect S256x1 := Rect.unit (s := S256x1) ![0, 0] S256x1.size inb_S256x1_S256x1_0_0
abbrev rA8 : Rect S128x256 := Rect.unit (s := S128x256) ![0, 0] S128x256.size inb_S128x256_S128x256_0_0
abbrev rA9 : Rect S128x1 := Rect.unit (s := S128x1) ![0, 0] S128x1.size inb_S128x1_S128x1_0_0
abbrev rA10 : Rect S2x128 := Rect.unit (s := S2x128) ![0, 0] S2x128.size inb_S2x128_S2x128_0_0
abbrev rA12 : Rect S2x1 := Rect.unit (s := S2x1) ![0, 0] S2x1.size inb_S2x1_S2x1_0_0
abbrev rA13 : Rect S2x4096 := Rect.unit (s := S2x4096) ![0, 0] S2x4096.size inb_S2x4096_S2x4096_0_0

/-! ## What the body leaves in the output window's buffer -/

/-- The payload of the body's one store, from the read contents of the twelve input buffers (in window order:
    the transposed index columns, the gathered embeddings, the wide features, then the nine weight blocks). -/
def pay1 (x0 : Vec F S39x4096 .i32) (x1 : Vec F S416x4096 .f32) (x2 : Vec F S4096x128 .f32) (x3 : Vec F S256x416 .f32)
    (x4 : Vec F S256x13 .f32) (x5 : Vec F S416x26 .f32) (x6 : Vec F S256x1 .f32) (x7 : Vec F S128x256 .f32)
    (x8 : Vec F S128x1 .f32) (x9 : Vec F S2x128 .f32) (x10 : Vec F S2x128 .f32) (x11 : Vec F S2x1 .f32) : FVec F S2x4096 .f32 :=
  k1_pay1 (k1_pay2 (View.ld x0 rA1) (View.ld x3 rA4) (View.ld x5 rA6) (View.ld x3 rA4) (View.ld x1 rA2) (View.ld x4 rA5) (View.ld x6 rA7))
    (k1_pay3 (View.ld x7 rA8)) (constant S128x4096 .f32 0x00000000#32)
    (View.ld x8 rA9) (View.ld x9 rA10) (View.ld x10 rA10) (View.ld x2 rA3) (View.ld x11 rA12)

/-- The output buffer after the body: its one store, which covers the buffer. -/
def out12 (x0 : Vec F S39x4096 .i32) (x1 : Vec F S416x4096 .f32) (x2 : Vec F S4096x128 .f32) (x3 : Vec F S256x416 .f32)
    (x4 : Vec F S256x13 .f32) (x5 : Vec F S416x26 .f32) (x6 : Vec F S256x1 .f32) (x7 : Vec F S128x256 .f32)
    (x8 : Vec F S128x1 .f32) (x9 : Vec F S2x128 .f32) (x10 : Vec F S2x128 .f32) (x11 : Vec F S2x1 .f32) : Vec F S2x4096 .f32 :=
  View.canon [⟨rA13, pay1 x0 x1 x2 x3 x4 x5 x6 x7 x8 x9 x10 x11⟩]

/-- The store's rectangle is the whole buffer. -/
theorem cover12 (p0 : Vec F S2x4096 .f32) (y : S2x4096.Idx) :
    ∃ pc ∈ ([⟨rA13, p0⟩] : List (View.Piece (Elt F) S2x4096 .f32)), y ∈ pc.1.set :=
  View.cover_of_tiled [⟨rA13, p0⟩] S2x4096.size (by rfl) y

/-! ## The body's triple -/

set_option maxHeartbeats 1000000 in
/-- The kernel body on whole staging memrefs, the twelve inputs' at read contents `x·` and the output's at anything,
    runs to the continuation holding the inputs' as they were and the output's at `out12` of the inputs'. -/
theorem sound_kernel (c : Dev nD) (E : Set ℕ) (i : grid1.Coords)
    (arg1 : Memref sig .tc .vmem S39x4096 .i32) (harg1 : arg1.IsWhole) (arg2 : Memref sig .tc .vmem S416x4096 .f32) (harg2 : arg2.IsWhole)
    (arg3 : Memref sig .tc .vmem S4096x128 .f32) (harg3 : arg3.IsWhole) (arg4 : Memref sig .tc .vmem S256x416 .f32) (harg4 : arg4.IsWhole)
    (arg5 : Memref sig .tc .vmem S256x13 .f32) (harg5 : arg5.IsWhole) (arg6 : Memref sig .tc .vmem S416x26 .f32) (harg6 : arg6.IsWhole)
    (arg7 : Memref sig .tc .vmem S256x1 .f32) (harg7 : arg7.IsWhole) (arg8 : Memref sig .tc .vmem S128x256 .f32) (harg8 : arg8.IsWhole)
    (arg9 : Memref sig .tc .vmem S128x1 .f32) (harg9 : arg9.IsWhole) (arg10 : Memref sig .tc .vmem S2x128 .f32) (harg10 : arg10.IsWhole)
    (arg11 : Memref sig .tc .vmem S2x128 .f32) (harg11 : arg11.IsWhole) (arg12 : Memref sig .tc .vmem S2x1 .f32) (harg12 : arg12.IsWhole)
    (arg13 : Memref sig .tc .vmem S2x4096 .f32) (harg13 : arg13.IsWhole)
    (x0 : Vec F S39x4096 .i32) (x1 : Vec F S416x4096 .f32) (x2 : Vec F S4096x128 .f32) (x3 : Vec F S256x416 .f32)
    (x4 : Vec F S256x13 .f32) (x5 : Vec F S416x26 .f32) (x6 : Vec F S256x1 .f32) (x7 : Vec F S128x256 .f32)
    (x8 : Vec F S128x1 .f32) (x9 : Vec F S2x128 .f32) (x10 : Vec F S2x128 .f32) (x11 : Vec F S2x1 .f32) (Kc : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ (∃ d, owns (c : Thread nD τ) arg13 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare (out12 x0 x1 x2 x3 x4 x5 x6 x7 x8 x9 x10 x11)) -∗ Kc ⟨⟩))
      ⊢ wp frame (wpE (defs₀ (F := F)) Variants.none c none) E
          (cc1__mlp_body i arg1 harg1 arg2 harg2 arg3 harg3 arg4 harg4 arg5 harg5 arg6 harg6 arg7 harg7 arg8 harg8 arg9 harg9 arg10 harg10 arg11 harg11 arg12 harg12 arg13 harg13) Kc := by
  simp only [cc1__mlp_body_eq_skeleton]; unfold cc1__mlp_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists f9; isplitr; · ipureintro; rfl
                  iexact H9
  isplitl [H10]; · iexists f10; isplitr; · ipureintro; rfl
                   iexact H10
  isplitl [H11]; · iexists f11; isplitr; · ipureintro; rfl
                   iexact H11
  iexists _; isplitr
  swap; · iexact H12
  ipureintro
  exact View.read_writes_eq_canon _ _ _ (cover12 _)

end Cert.Proof.KI

end
-- ==== Proof.KI.Region.lean ====
/-
  The TensorCore pipeline inside the SparseCore program: its proof data over the TensorCore's unscoped buffers at a
  valuation, the body obligation at a symbolic grid point, the region's record over the thread state "every unscoped
  buffer whole at the valuation, the core owing nothing", and the region's step as the TensorCore's proof of the
  whole program meets it.
-/
import proofs.«205318_g12532714570102_cont_fleet_669_37_alg».proof.Proof.KI.RegionBody
import Idealize.ShloMosaic.Lib.Pipeline.RegionsLoop

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The TensorCore's references at contents, on every device. -/
abbrev TcVal (F : FTy → Type) : Type := (c : Dev nD) → (b : Ref sig .tc) → Buf (Elt F) ((c : Thread nD τ).loc b)

/-- The pipeline has no prefetched table. -/
abbrev adm : (p : Fin 1) → (pcfgs (F := F) p).Adm := fun p => (cfgs p).toPCfg_adm

variable (V : TcVal F)

/-! ## The windows' blocks -/

/-- Window `w`'s block at point `t`, read off its array at the valuation. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The proof data -/

/-- The pairs the TensorCore's waits may have recorded: those at or below the first call's band. -/
def recBound (c : Dev nD) : Set (SemLoc sig × HIx 1) := {p | (K (F := F)).lev ((c : Thread nD τ), p.1) p.2 ≤ 8}

/-- The proof data on core `c`: the arrays at the valuation; after the body at point `t` each input's buffer at its
    block and the output's at the body's store over the input blocks; the invariant the scoped buffers no window
    stages; nothing owed; full shares. -/
def dat (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => out12 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t)
  Φ _ := Pipeline.scopedRest (Ix := HIx 1) (Name := ℕ) (U := UU) (Lvl := ℕ) (Val := Elt F) spec1 c
  q _ := fullShare
  owed _ := 0
  recorded _ := recBound (F := F) c

theorem A_eq (c : Dev nD) (w : Fin cfg1.W) : (dat V c).A w = V c (Pipeline.arrRef spec1 w) := by
  dsimp only [dat]

theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = iblk V c 4 t := by dsimp only [dat]
theorem after1_5 (c : Dev nD) (t : Fin cfg1.N) : (dat V c).after 5 t = iblk V c 5 t := by dsimp only [dat]
theorem after1_6 (c : Dev nD) (t : Fin cfg1.N) : (dat V c).after 6 t = iblk V c 6 t := by dsimp only [dat]
theorem after1_7 (c : Dev nD) (t : Fin cfg1.N) : (dat V c).after 7 t = iblk V c 7 t := by dsimp only [dat]
theorem after1_8 (c : Dev nD) (t : Fin cfg1.N) : (dat V c).after 8 t = iblk V c 8 t := by dsimp only [dat]
theorem after1_9 (c : Dev nD) (t : Fin cfg1.N) : (dat V c).after 9 t = iblk V c 9 t := by dsimp only [dat]
theorem after1_10 (c : Dev nD) (t : Fin cfg1.N) : (dat V c).after 10 t = iblk V c 10 t := by dsimp only [dat]
theorem after1_11 (c : Dev nD) (t : Fin cfg1.N) : (dat V c).after 11 t = iblk V c 11 t := by dsimp only [dat]
theorem after1_12 (c : Dev nD) (t : Fin cfg1.N) : (dat V c).after 12 t = out12 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) := by dsimp only [dat]

/-! ## Each input's buffer holds its block at every point, fetched there or not -/

theorem before1_0 (c : Dev nD) (t : Fin cfg1.N) (d) : (dat V c).before 0 t d = iblk V c 0 t :=
  ((dat V c).before_in_eq_fetched 0 rfl (fun _ => rfl) (fun _ _ _ => rfl) (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dat V c).before 1 t d = iblk V c 1 t :=
  ((dat V c).before_in_eq_fetched 1 rfl (fun _ => rfl) (fun _ _ _ => rfl) (fun t => by rw [after1_1]; unfold Dat.blockOf iblk; rw [A_eq]; try rfl) t d).trans
    (by unfold Dat.fetched Dat.blockOf iblk; rw [A_eq]; try rfl)
theorem before1_2 (c : Dev nD) (t : Fin cfg1.N) (d) : (dat V c).before 2 t d = iblk V c 2 t :=
  ((dat V c).before_in_eq_fetched 2 rfl (fun _ => rfl) (fun _ _ _ => rfl) (fun t => by rw [after1_2]; unfold Dat.blockOf iblk; rw [A_eq]; try rfl) t d).trans
    (by unfold Dat.fetched Dat.blockOf iblk; rw [A_eq]; try rfl)
theorem before1_3 (c : Dev nD) (t : Fin cfg1.N) (d) : (dat V c).before 3 t d = iblk V c 3 t :=
  ((dat V c).before_in_eq_fetched 3 rfl (fun _ => rfl) (fun _ _ _ => rfl) (fun t => by rw [after1_3]; unfold Dat.blockOf iblk; rw [A_eq]; try rfl) t d).trans
    (by unfold Dat.fetched Dat.blockOf iblk; rw [A_eq]; try rfl)
theorem before1_4 (c : Dev nD) (t : Fin cfg1.N) (d) : (dat V c).before 4 t d = iblk V c 4 t :=
  ((dat V c).before_in_eq_fetched 4 rfl (fun _ => rfl) (fun _ _ _ => rfl) (fun t => by rw [after1_4]; unfold Dat.blockOf iblk; rw [A_eq]; try rfl) t d).trans
    (by unfold Dat.fetched Dat.blockOf iblk; rw [A_eq]; try rfl)
theorem before1_5 (c : Dev nD) (t : Fin cfg1.N) (d) : (dat V c).before 5 t d = iblk V c 5 t :=
  ((dat V c).before_in_eq_fetched 5 rfl (fun _ => rfl) (fun _ _ _ => rfl) (fun t => by rw [after1_5]; unfold Dat.blockOf iblk; rw [A_eq]; try rfl) t d).trans
    (by unfold Dat.fetched Dat.blockOf iblk; rw [A_eq]; try rfl)
theorem before1_6 (c : Dev nD) (t : Fin cfg1.N) (d) : (dat V c).before 6 t d = iblk V c 6 t :=
  ((dat V c).before_in_eq_fetched 6 rfl (fun _ => rfl) (fun _ _ _ => rfl) (fun t => by rw [after1_6]; unfold Dat.blockOf iblk; rw [A_eq]; try rfl) t d).trans
    (by unfold Dat.fetched Dat.blockOf iblk; rw [A_eq]; try rfl)
theorem before1_7 (c : Dev nD) (t : Fin cfg1.N) (d) : (dat V c).before 7 t d = iblk V c 7 t :=
  ((dat V c).before_in_eq_fetched 7 rfl (fun _ => rfl) (fun _ _ _ => rfl) (fun t => by rw [after1_7]; unfold Dat.blockOf iblk; rw [A_eq]; try rfl) t d).trans
    (by unfold Dat.fetched Dat.blockOf iblk; rw [A_eq]; try rfl)
theorem before1_8 (c : Dev nD) (t : Fin cfg1.N) (d) : (dat V c).before 8 t d = iblk V c 8 t :=
  ((dat V c).before_in_eq_fetched 8 rfl (fun _ => rfl) (fun _ _ _ => rfl) (fun t => by rw [after1_8]; unfold Dat.blockOf iblk; rw [A_eq]; try rfl) t d).trans
    (by unfold Dat.fetched Dat.blockOf iblk; rw [A_eq]; try rfl)
theorem before1_9 (c : Dev nD) (t : Fin cfg1.N) (d) : (dat V c).before 9 t d = iblk V c 9 t :=
  ((dat V c).before_in_eq_fetched 9 rfl (fun _ => rfl) (fun _ _ _ => rfl) (fun t => by rw [after1_9]; unfold Dat.blockOf iblk; rw [A_eq]; try rfl) t d).trans
    (by unfold Dat.fetched Dat.blockOf iblk; rw [A_eq]; try rfl)
theorem before1_10 (c : Dev nD) (t : Fin cfg1.N) (d) : (dat V c).before 10 t d = iblk V c 10 t :=
  ((dat V c).before_in_eq_fetched 10 rfl (fun _ => rfl) (fun _ _ _ => rfl) (fun t => by rw [after1_10]; unfold Dat.blockOf iblk; rw [A_eq]; try rfl) t d).trans
    (by unfold Dat.fetched Dat.blockOf iblk; rw [A_eq]; try rfl)
theorem before1_11 (c : Dev nD) (t : Fin cfg1.N) (d) : (dat V c).before 11 t d = iblk V c 11 t :=
  ((dat V c).before_in_eq_fetched 11 rfl (fun _ => rfl) (fun _ _ _ => rfl) (fun t => by rw [after1_11]; unfold Dat.blockOf iblk; rw [A_eq]; try rfl) t d).trans
    (by unfold Dat.fetched Dat.blockOf iblk; rw [A_eq]; try rfl)

/-! ## The body obligation, at a symbolic point -/

/-- What the body is called with at point `t`, the windows one by one, -/
def bodyPre (c : Dev nD) (t : Fin cfg1.N) : sProp 𝕄 :=
  iprop((dat V c).Φ t.castSucc ∗ (dat V c).owesAt none t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d)))

/-- and what it returns. -/
def bodyPost (c : Dev nD) (t : Fin cfg1.N) : sProp 𝕄 :=
  iprop((dat V c).Φ t.succ ∗ (dat V c).owesAt none t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t)
    ∗ owns (c : Thread nD τ) (st1_12 t) fullShare ((dat V c).after 12 t))

set_option maxHeartbeats 1000000 in
/-- The body at any point: the inputs' memrefs hold their blocks, so the body's triple applies; the invariant and the
    core's debts pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6, before1_7, before1_8, before1_9, before1_10, before1_11]
  rw [show (dat V c).Φ t.succ = (dat V c).Φ t.castSucc from rfl,
    show (dat V c).owesAt none t.succ = (dat V c).owesAt none t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid1.coords t) _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation (c : Dev nD) : BodyObligation (dat V c) (defs₀ (F := F)) Variants.none none Set.univ := fun t => by
  rw [bigSep_W1, bigSep_W1]
  exact sound_body V c t

/-! ## The region over the thread state -/

/-- No input window's array is the output's. -/
theorem arrRef_ne : ∀ w : Fin 13, w ≠ 12 → Pipeline.arrRef spec1 w ≠ main_v30 := by decide

/-- The proof data family of the program's one pipeline. -/
def pdats : (p : Fin 1) → (c : Dev nD) → Dat τ (Elt F) (HIx 1) ℕ UU ℕ (Pipeline.pin (pcfgs (F := F)) adm p) c :=
  fun _ c => dat V c

/-- The output array after the region, as the library computes it: every point's block written back in turn. -/
def out30 (c : Dev nD) : Buf (Elt F) ((c : Thread nD τ).loc main_v30) := (dat V c).arrAt 12 cfg1.N

/-- What the TensorCore holds of its debts around the region: it owes nothing, and every pair its waits have recorded
    sits at or below the first call's band. -/
def tcOwes0 (c : Dev nD) : sProp 𝕄 :=
  iprop(∃ W, ⌜(K (F := F)).WBelow (T c) W 8⌝ ∗ owes (T c) (0 : CellTallies nD τ sig (HIx 1)) W)

variable (Vp : TcVal F)

set_option backward.isDefEq.respectTransparency.types false in
/-- The region entered from "every unscoped buffer at `V c`, nothing owed" and left at "every unscoped buffer at
    `Vp c`, nothing owed", for any `Vp` that has the output array at `out30 V c` and agrees with `V` off it. Nothing
    enters the invariant but the scoped rest; the kernel has no semaphore of its own. -/
def reg (lv : GSem nD τ sig → HIx 1 → ℕ) (hout : ∀ c, Vp c main_v30 = out30 V c)
    (hne : ∀ c (b : Ref sig .tc), b ≠ main_v30 → Vp c b = V c b) :
    Pipeline.RegionSeg (pcfgs (F := F)) adm (pdats V) none defs₀ 𝒱₀ (K (F := F)).L lv 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L lv 0 fun _ _ => rfl
  pre c := iprop(unscopedBufs c (V c) ∗ tcOwes0 (F := F) c)
  post c := iprop(unscopedBufs c (Vp c) ∗ tcOwes0 (F := F) c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin tcOwes0
      icases HO with ⟨%W, %hW, HO⟩; iexists W; isplitr; · ipureintro; exact fun p hp => Or.inl (hW p (Finset.mem_coe.mp hp))
      iexact HO
    isplitr; · iempintro
    iexact Hrest
  hin c := by
    rw [show (pdats V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hne c _ (arrRef_ne 0 (by decide))).symm
        · exact ((pdats V 0 c).arrAt_in 1 rfl _).trans (hne c _ (arrRef_ne 1 (by decide))).symm
        · exact ((pdats V 0 c).arrAt_in 2 rfl _).trans (hne c _ (arrRef_ne 2 (by decide))).symm
        · exact ((pdats V 0 c).arrAt_in 3 rfl _).trans (hne c _ (arrRef_ne 3 (by decide))).symm
        · exact ((pdats V 0 c).arrAt_in 4 rfl _).trans (hne c _ (arrRef_ne 4 (by decide))).symm
        · exact ((pdats V 0 c).arrAt_in 5 rfl _).trans (hne c _ (arrRef_ne 5 (by decide))).symm
        · exact ((pdats V 0 c).arrAt_in 6 rfl _).trans (hne c _ (arrRef_ne 6 (by decide))).symm
        · exact ((pdats V 0 c).arrAt_in 7 rfl _).trans (hne c _ (arrRef_ne 7 (by decide))).symm
        · exact ((pdats V 0 c).arrAt_in 8 rfl _).trans (hne c _ (arrRef_ne 8 (by decide))).symm
        · exact ((pdats V 0 c).arrAt_in 9 rfl _).trans (hne c _ (arrRef_ne 9 (by decide))).symm
        · exact ((pdats V 0 c).arrAt_in 10 rfl _).trans (hne c _ (arrRef_ne 10 (by decide))).symm
        · exact ((pdats V 0 c).arrAt_in 11 rfl _).trans (hne c _ (arrRef_ne 11 (by decide))).symm
        · exact (hout c).symm)
      (fun b hb => hne c b fun h => hb (h ▸ Finset.mem_image.mpr ⟨12, Finset.mem_univ _, rfl⟩))
    iintro ⟨Ha, HO, -, Hrest⟩
    imodintro
    isplitl [Ha Hrest]
    · iapply hjoin; isplitl [Ha] <;> iassumption
    unfold Pipeline.Dat.owesAt Pipeline.owesWithin tcOwes0
    icases HO with ⟨%W, %hW, HO⟩; iexists W
    isplitr
    · ipureintro
      intro p hp
      rcases hW (Finset.mem_coe.mpr hp) with h | ⟨w, s, rfl⟩
      · exact h
      · exact Nat.zero_le _
    iexact HO

end Cert.Proof.KI

end
-- ==== Proof.KI.RegionStep.lean ====
/-
  The TensorCore's custom call as the proof of the whole program on the TensorCore meets it: the pipeline's region
  run under the program's extended body table, and the pipeline's ghost state at the launch.
-/
import proofs.«205318_g12532714570102_cont_fleet_669_37_alg».proof.Proof.KI.Region

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V Vp : TcVal F)

/-! ## The region's step inside the SparseCore program -/

set_option backward.isDefEq.respectTransparency.types false in
/-- The TensorCore's custom call inside the program's extended body table: from the boundary, every unscoped buffer
    at `V d`, nothing owed, the level facts and the pipeline's ghost state, the call runs to the boundary, every
    unscoped buffer at `Vp d` — the output array at `out30 V d`, every other as it was — and nothing owed. -/
theorem region_wp (d : Dev nD) (lv : GSem nD τ sig → HIx 1 → ℕ) (hout : ∀ c, Vp c main_v30 = out30 V c)
    (hne : ∀ c (b : Ref sig .tc), b ≠ main_v30 → Vp c b = V c b) (Φ : PUnit → sProp 𝕄) :
    iprop(boundary (T d) ∗ unscopedBufs d (V d) ∗ tcOwes0 (F := F) d ∗ levAts (K (F := F)).L lv
        ∗ Pipeline.cellsGhost cfgs (ER (F := F)) 0 d ∗ Pipeline.toksInit cfgs (ER (F := F)) 0 d
        ∗ (iprop(boundary (T d) ∗ unscopedBufs d (Vp d) ∗ tcOwes0 (F := F) d) -∗ Φ ⟨⟩))
      ⊢ wp frame (wpE ((K (F := F)).defs D) 𝒱 (T d) none) Set.univ
          (Prog.lift (.customCall (SparseCore.inner (Pipeline.entry 0)) ())) Φ := by
  have h := Pipeline.RegionSeg.wp (pcfgs (F := F)) adm (pdats V) none cellOf_inj (ER (F := F)) defs₀ 𝒱₀ (K (F := F)).L lv
    (reg V Vp lv hout hne) d none (fun u hu => (Option.not_mem_none u hu).elim) (fun _ => .ret ⟨⟩) Φ
  rw [show (reg V Vp lv hout hne).pre d = iprop(unscopedBufs d (V d) ∗ tcOwes0 (F := F) d) from rfl,
    show (reg V Vp lv hout hne).post d = iprop(unscopedBufs d (Vp d) ∗ tcOwes0 (F := F) d) from rfl] at h
  refine .trans ?_ (h.trans ((K (F := F)).wp_liftProg D 𝒱 (T d) Set.univ none _ Φ))
  iintro ⟨Hbd, Hub, HO, Hla, Hg, Ht, Hk⟩
  isplitl [Hk]
  · iintro ⟨Hbd, Hub, HO⟩
    rw [wp_ret]
    imodintro
    iapply Hk
    isplitl [Hbd]; · iexact Hbd
    isplitl [Hub]; · iexact Hub
    iexact HO
  isplitl [Hbd]; · iexact Hbd
  isplitl [Hub HO]
  · isplitl [Hub]; · iexact Hub
    iexact HO
  isplitl [Hla]; · iexact Hla
  isplitl [Hg]; · iexact Hg
  iexact Ht

/-! ## The pipeline's ghost state at the launch -/

/-- From the rounds' launch element at the staging cells, every device's ghost state and duty tokens of the one
    pipeline. -/
theorem fund1 :
    (BI.own ((ER (F := F)) (initOf (Pipeline.cells cfgs cellOf_inj) (Pipeline.launchToks cfgs cellOf_inj))) : sProp 𝕄)
      ⊢ iprop(|==> bigSep Finset.univ fun d : Dev nD =>
          iprop(Pipeline.cellsGhost cfgs (ER (F := F)) 0 d ∗ Pipeline.toksInit cfgs (ER (F := F)) 0 d)) := by
  have h1 : ∀ (Ψ : Fin 1 → sProp 𝕄), bigSep Finset.univ Ψ = Ψ 0 := fun Ψ => by
    rw [show (Finset.univ : Finset (Fin 1)) = {0} from rfl, BI.bigSep_singleton]
  iintro Hu
  imod (Pipeline.fund_ghost cfgs (ER (F := F)) cellOf_inj) $$ Hu with ⟨Hg, Ht⟩
  imodintro
  rw [BI.bigSep_sep']
  isplitl [Hg]
  · iapply (Entails.of_eq (BI.bigSep_congr fun d _ => h1 fun p => Pipeline.cellsGhost cfgs (ER (F := F)) p d)); iexact Hg
  · iapply (Entails.of_eq (BI.bigSep_congr fun d _ => h1 fun p => Pipeline.toksInit cfgs (ER (F := F)) p d)); iexact Ht

end Cert.Proof.KI

end
-- ==== Proof.KI.RegionMain.lean ====
/-
  The TensorCore's custom call met from the TensorCore's handshake state after the SparseCore call, over the
  unscoped buffers held at a device-independent valuation: the form the proof of the whole program calls.
-/
import proofs.«205318_g12532714570102_cont_fleet_669_37_alg».proof.Proof.KI.RegionStep

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.SparseCore.Cfg (Pay)

/-- A device-independent valuation as the TensorCore's references at contents on every device. -/
abbrev valOf (W : Valuation τ sig (Elt F)) : TcVal F := fun _ b => W b

/-- The output array after the region, entered at the valuation `W`, on device `d`. -/
abbrev out30W (W : Valuation τ sig (Elt F)) (d : Dev nD) : Buf (Elt F) ((d : Thread nD τ).loc main_v30) := out30 (valOf W) d

/-- The valuation the region leaves: `W` with the output array at `out30W W d`. -/
abbrev valAfter (W : Valuation τ sig (Elt F)) (d : Dev nD) : Valuation τ sig (Elt F) :=
  Function.update W (Proc.devRef .tc main_v30) (out30W W d)

/-- After the last SparseCore call the TensorCore owes nothing. -/
theorem Otc_one (d : Dev nD) : (K (F := F)).Otc d 1 = 0 := (K (F := F)).Otc_end d (le_refl 1)

variable {P : (K (F := F)).Pay (nD := nD) (Val := Elt F) (Name := ℕ) (U := UU)}

/-- The region from the TensorCore's state after the one SparseCore call: the handshake state passes through (the
    core owes nothing, and the pairs the pipeline's waits record sit at level 0), the unscoped buffers go from `W`
    to `valAfter W d`. -/
theorem region_main (κ : GSem nD τ sig → ℕ) (lv : GSem nD τ sig → HIx 1 → ℕ) (d : Dev nD) (W : Valuation τ sig (Elt F))
    (Φ : PUnit → sProp 𝕄) :
    iprop((K (F := F)).ctx EH P κ lv ∗ (K (F := F)).tcSt EH d 1 ∗ boundary (T d)
        ∗ StableHlo.held (T d) (Pipeline.ucRefs τ sig) W
        ∗ Pipeline.cellsGhost cfgs (ER (F := F)) 0 d ∗ Pipeline.toksInit cfgs (ER (F := F)) 0 d
        ∗ (iprop((K (F := F)).tcSt EH d 1 ∗ boundary (T d)
            ∗ StableHlo.held (T d) (Pipeline.ucRefs τ sig) (valAfter W d)) -∗ Φ ⟨⟩))
      ⊢ wp frame (wpE ((K (F := F)).defs D) 𝒱 (T d) none) Set.univ
          (Prog.lift (.customCall (SparseCore.inner (Pipeline.entry 0)) ())) Φ := by
  have hstep := region_wp (valOf W) (fun c => valOf (valAfter W c) c) d lv
    (fun c => by show Function.update W _ _ _ = _; rw [Function.update_self])
    (fun c b hb => by
      show Function.update W _ _ _ = _
      rw [Function.update_of_ne (StableHlo.devRef_ne_of_ne hb : (Proc.devRef .tc b : DevRef τ sig) ≠ Proc.devRef .tc main_v30)])
    Φ
  refine .trans ?_ hstep
  rw [← Pipeline.unscopedBufs_held (Ix := HIx 1) (Name := ℕ) (U := UU) (Lvl := ℕ) d W,
    ← Pipeline.unscopedBufs_held (Ix := HIx 1) (Name := ℕ) (U := UU) (Lvl := ℕ) d (valAfter W d)]
  unfold SparseCore.Cfg.tcSt tcOwes0
  rw [Otc_one, Nat.mul_one]
  iintro ⟨#Hctx, ⟨HO, Hat, Hrd, Hrs, Htk⟩, Hbd, Hub, Hg, Ht, Hk⟩
  ihave Hlev := (SparseCore.Cfg.ctx_levAts κ) $$ Hctx
  isplitl [Hbd]; · iexact Hbd
  isplitl [Hub]; · iexact Hub
  isplitl [HO]; · iexact HO
  isplitl [Hlev]; · iexact Hlev
  isplitl [Hg]; · iexact Hg
  isplitl [Ht]; · iexact Ht
  iintro ⟨Hbd, Hub, HO⟩
  iapply Hk
  isplitl [HO Hat Hrd Hrs Htk]
  · isplitl [HO]; · iexact HO
    isplitl [Hat]; · iexact Hat
    isplitl [Hrd]; · iexact Hrd
    isplitl [Hrs]; · iexact Hrs
    iexact Htk
  isplitl [Hbd]; · iexact Hbd
  iexact Hub

end Cert.Proof.KI

end
-- ==== Proof.KI.Main.lean ====
/-
  @main of the kernel's program on the TensorCore, run: the two transposes, the SparseCore call (its two read arrays
  lent as read shares, its result as the vector subcores' pieces, all back with the result at the gathered value),
  the host operations between the calls, the TensorCore pipeline, the final transpose. The arrays end at the
  composed pure valuation of the launch memory.
-/
import proofs.«205318_g12532714570102_cont_fleet_669_37_alg».proof.Proof.KI.Pieces
import proofs.«205318_g12532714570102_cont_fleet_669_37_alg».proof.Proof.KI.Vals
import proofs.«205318_g12532714570102_cont_fleet_669_37_alg».proof.Proof.KI.RegionMain
import Idealize.ShloMosaic.Lib.Tactic

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr after launchContents seq)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The pipeline's result as a function of the arrays it finds. -/
abbrev o30 : (d : Dev nD) → Valuation τ sig (Elt F) → Buf (Elt F) ((SparseCore.T (τ := τ) d).loc main_v30) := fun d W => out30W W d

/-- The call's payloads at this launch memory. -/
abbrev PP : (K (F := F)).Pay (nD := nD) (Val := Elt F) (Name := ℕ) (U := UU) := P (Aof m) (Xof m) (E0of m)

/-- What the launch element hands each TensorCore beyond the library's: its pipeline's cells and duty tokens. -/
abbrev GG (d : Dev nD) : sProp 𝕄 := iprop(Pipeline.cellsGhost cfgs (ER (F := F)) 0 d ∗ Pipeline.toksInit cfgs (ER (F := F)) 0 d)

/-- What @main leaves: every array of the TensorCore at the composed valuation. -/
abbrev FIN (d : Dev nD) : sProp 𝕄 := held (T d) (Pipeline.ucRefs τ sig) (WC m (o30 (F := F)) d)

/-! ## The SparseCore call's three arrays inside the held set -/

abbrev rA : DevRef τ sig := Proc.devRef .tc (main_v0 : Ref sig .tc)
abbrev rX : DevRef τ sig := Proc.devRef .tc (main_v1 : Ref sig .tc)
abbrev rE : DevRef τ sig := Proc.devRef .tc (main_v2 : Ref sig .tc)
abbrev T3 : Finset (DevRef τ sig) := {rA, rX, rE}

omit [FloatOps F] in
theorem T3_sub : T3 ⊆ Pipeline.ucRefs τ sig := by decide

omit [FloatOps F] in
theorem held_T3 (d : Dev nD) (W : Valuation τ sig (Elt F)) :
    (held (T d) T3 W : sProp 𝕄) = iprop((aLoc d ↦{fullShare} W rA) ∗ (xLoc d ↦{fullShare} W rX) ∗ eLoc d ↦{fullShare} W rE) := by
  unfold held T3
  rw [SparseCore.bigSep_insert' (by decide), SparseCore.bigSep_insert' (by decide), bigSep_singleton]

theorem W1_A (d : Dev nD) : W1 m d rA = Aof m d := Function.update_of_ne (show rA ≠ rE by decide) _ _
theorem W1_X (d : Dev nD) : W1 m d rX = Xof m d := Function.update_of_ne (show rX ≠ rE by decide) _ _
theorem W1_E (d : Dev nD) : W1 m d rE = embOf (Aof m) (Xof m) d := Function.update_self _ _ _
theorem W1_rest (d : Dev nD) : ∀ b ∈ Pipeline.ucRefs τ sig \ T3, WA m d b = W1 m d b := fun b hb =>
  (Function.update_of_ne (fun e => (Finset.mem_sdiff.mp hb).2 (by rw [e]; decide)) _ _).symm

/-- The SparseCores' shares of an array the call reads, and the pieces of its result, summed over the call's SparseCores. -/
theorem st_eq (d : Dev nD) :
    (bigSep Finset.univ fun c : Fin ((K (F := F)).nCore 0) => (PP m).st 0 d c)
      = iprop((bigSep Finset.univ fun c : Fin ((K (F := F)).nCore 0) => aLoc d ↦{(qC (F := F) c)} Aof m d)
        ∗ (bigSep Finset.univ fun c : Fin ((K (F := F)).nCore 0) => xLoc d ↦{(qC (F := F) c)} Xof m d)
        ∗ bigSep Finset.univ fun c : Fin ((K (F := F)).nCore 0) => bigSep Finset.univ fun i : Fin ((K (F := F)).nSub 0) =>
            tilePcs d (LT (F := F) c i) (E0of m d)) := by
  rw [← bigSep_sep', ← bigSep_sep']; rfl
theorem dn_eq (d : Dev nD) :
    (bigSep Finset.univ fun c : Fin ((K (F := F)).nCore 0) => (PP m).dn 0 d c)
      = iprop((bigSep Finset.univ fun c : Fin ((K (F := F)).nCore 0) => aLoc d ↦{(qC (F := F) c)} Aof m d)
        ∗ (bigSep Finset.univ fun c : Fin ((K (F := F)).nCore 0) => xLoc d ↦{(qC (F := F) c)} Xof m d)
        ∗ bigSep Finset.univ fun c : Fin ((K (F := F)).nCore 0) => bigSep Finset.univ fun i : Fin ((K (F := F)).nSub 0) =>
            tilePcs d (LT (F := F) c i) (embOf (Aof m) (Xof m) d)) := by
  rw [← bigSep_sep', ← bigSep_sep']; rfl

/-! ## @main -/

theorem hmain (κ : GSem nD τ sig → ℕ) (d : Dev nD) :
    iprop((K (F := F)).ctx EH (PP m) κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [main_eq, show (unscopedBufs d (fun b => m ((SparseCore.T d).loc b)) : sProp 𝕄)
      = held (T d) (Pipeline.ucRefs τ sig) (W0 m d) from Pipeline.unscopedBufs_held d (W0 m d)]
  iintro ⟨#Hctx, Hst, ⟨Hb, Hheld, -, -⟩, ⟨Hcg, Htk⟩⟩
  -- the two transposes
  iapply (StableHlo.wp_seq 𝒱 none Set.univ d (Pipeline.ucRefs τ sig) _ opsA (List.forall_iff_forall_mem.mp opsA_sub)
      (List.forall_iff_forall_mem.mp opsA_fresh) (W0 m d)) $$ [Hb Hheld]
  · isplitl [Hb]; · iexact Hb
    iexact Hheld
  iintro ⟨Hb, Hheld⟩
  ihave Hheld := (Entails.of_eq (show (held (d.tc : Thread nD τ) (Pipeline.ucRefs τ sig) (after opsA (W0 m d)) : sProp 𝕄)
      = held (T d) (Pipeline.ucRefs τ sig) (WA m d) from rfl)) $$ Hheld
  -- the SparseCore call's arrays out of the held set, the read arrays into shares, the result into pieces
  ihave Hh := (Entails.of_eq ((held_sub_split (T d) T3_sub (WA m d)).trans (congrArg (fun X => iprop(X ∗ _)) (held_T3 d (WA m d))))) $$ Hheld
  icases Hh with ⟨⟨Ha, Hx, He⟩, Hrest⟩
  ihave Ha := (Entails.of_eq (show (aLoc d ↦{fullShare} WA m d rA : sProp 𝕄) = (aLoc d ↦{fullShare} Aof m d) from rfl)) $$ Ha
  ihave Hx := (Entails.of_eq (show (xLoc d ↦{fullShare} WA m d rX : sProp 𝕄) = (xLoc d ↦{fullShare} Xof m d) from rfl)) $$ Hx
  ihave He := (Entails.of_eq (show (eLoc d ↦{fullShare} WA m d rE : sProp 𝕄) = (eLoc d ↦{fullShare} E0of m d) from rfl)) $$ He
  ihave Ha' := (Transfers.pointsTo_toks_split fullShare 2) $$ Ha
  icases Ha' with ⟨Had, Hat⟩
  ihave Hx' := (Transfers.pointsTo_toks_split fullShare 2) $$ Hx
  icases Hx' with ⟨Hxd, Hxt⟩
  ihave He' := (Entails.of_eq (ePts_pieces (F := F) d (E0of m d))) $$ He
  rw [wp_bind]
  iapply ((K (F := F)).wp_run (D (F := F)) 𝒱 (EH := EH) (P := PP m) κ d 0) $$ [Hst Hat Hxt He' Hb Had Hxd Hrest Hcg Htk]
  isplitr; · iexact Hctx
  isplitl [Hst]; · iexact Hst
  isplitl [Hat Hxt He']
  · rw [st_eq]
    isplitl [Hat]; · iexact Hat
    isplitl [Hxt]; · iexact Hxt
    iexact He'
  iintro ⟨Hst, Hdn⟩
  ihave Hdn' := (Entails.of_eq (dn_eq m d)) $$ Hdn
  icases Hdn' with ⟨Hat, Hxt, He⟩
  ihave Ha := (Transfers.pointsTo_toks_join fullShare 2) $$ [Had Hat]
  · isplitl [Had]; · iexact Had
    iexact Hat
  ihave Hx := (Transfers.pointsTo_toks_join fullShare 2) $$ [Hxd Hxt]
  · isplitl [Hxd]; · iexact Hxd
    iexact Hxt
  ihave He' := (Entails.of_eq (ePts_pieces (F := F) d (embOf (Aof m) (Xof m) d)).symm) $$ He
  ihave Hheld := (Entails.of_eq ((held_sub_split (T d) T3_sub (W1 m d)).trans (congrArg (fun X => iprop(X ∗ _)) (held_T3 d (W1 m d)))).symm) $$ [Ha Hx He' Hrest]
  · rw [W1_A, W1_X, W1_E, ← held_congr (T d) (W1_rest m d)]
    isplitl [Ha Hx He']
    · isplitl [Ha]; · iexact Ha
      isplitl [Hx]; · iexact Hx
      iexact He'
    iexact Hrest
  -- the host operations between the calls
  iapply (StableHlo.wp_seq 𝒱 none Set.univ d (Pipeline.ucRefs τ sig) _ opsB (List.forall_iff_forall_mem.mp opsB_sub)
      (List.forall_iff_forall_mem.mp opsB_fresh) (W1 m d)) $$ [Hb Hheld]
  · isplitl [Hb]; · iexact Hb
    iexact Hheld
  iintro ⟨Hb, Hheld⟩
  ihave Hheld := (Entails.of_eq (show (held (d.tc : Thread nD τ) (Pipeline.ucRefs τ sig) (after opsB (W1 m d)) : sProp 𝕄)
      = held (T d) (Pipeline.ucRefs τ sig) (WB m d) from rfl)) $$ Hheld
  -- the TensorCore pipeline
  rw [wp_bind]
  iapply (region_main (F := F) (P := PP m) κ (K (F := F)).lev d (WB m d)) $$ [Hst Hb Hheld Hcg Htk]
  isplitr; · iexact Hctx
  isplitl [Hst]; · iexact Hst
  isplitl [Hb]; · iexact Hb
  isplitl [Hheld]; · iexact Hheld
  isplitl [Hcg]; · iexact Hcg
  isplitl [Htk]; · iexact Htk
  iintro ⟨Hst, Hb, Hheld⟩
  ihave Hheld := (Entails.of_eq (show (held (T d) (Pipeline.ucRefs τ sig) (valAfter (WB m d) d) : sProp 𝕄)
      = held (T d) (Pipeline.ucRefs τ sig) (W2 m (o30 (F := F)) d) from rfl)) $$ Hheld
  -- the final transpose
  iapply (StableHlo.wp_seq 𝒱 none Set.univ d (Pipeline.ucRefs τ sig) _ opsC (List.forall_iff_forall_mem.mp opsC_sub)
      (List.forall_iff_forall_mem.mp opsC_fresh) (W2 m (o30 (F := F)) d)) $$ [Hb Hheld]
  · isplitl [Hb]; · iexact Hb
    iexact Hheld
  iintro ⟨Hb, Hheld⟩
  ihave Hheld := (Entails.of_eq (show (held (d.tc : Thread nD τ) (Pipeline.ucRefs τ sig) (after opsC (W2 m (o30 (F := F)) d)) : sProp 𝕄)
      = held (T d) (Pipeline.ucRefs τ sig) (WC m (o30 (F := F)) d) from rfl)) $$ Hheld
  rw [wp_pure]; imodintro
  isplitl [Hst]; · iexact Hst
  iexact Hheld

end Cert.Proof.KI

end
-- ==== Proof.KV.Ops.lean ====
import Idealize.ShloMosaic.Lib.ValueLayout
import Idealize.ShloMosaic.Lib.ValueIdxCoords
import Idealize.ShloMosaic.Lib.KernelVsHost
import Idealize.ShloMosaic.Lib.IdealHost
import Idealize.ShloMosaic.PureOps.Ideal.Laws

/-!
# Small readings at an index, at the ideal values

A plain matrix product into the zero accumulator is the sum over the contracted coordinate; a
column broadcast along the rows reads the column; the signed conversion of a widened equality bit
is the indicator of the equality.
-/

noncomputable section

namespace Cert.Proof.KV

open Idealize.ShloMosaic Idealize.ShloMosaic.ValueIdx

/-- The left operand's row coordinate of a plain product is the result's row coordinate. -/
theorem plain_lhs0 (M K N : Nat) (j : (⟨2, ![M, N]⟩ : Shape).Idx) (q : (DotDims.plain M K N).contr.Idx) :
    ((DotDims.plain M K N).lhsIdx j q 0).val = (j 0).val := rfl

/-- The right operand's column coordinate of a plain product is the result's column coordinate. -/
theorem plain_rhs1 (M K N : Nat) (j : (⟨2, ![M, N]⟩ : Shape).Idx) (q : (DotDims.plain M K N).contr.Idx) :
    ((DotDims.plain M K N).rhsIdx j q 1).val = (j 1).val := rfl

/-- A plain `M × K` by `K × N` product into the zero accumulator, read at `(i, j)`:
    `∑ k, A (i, k) * B (k, j)`. -/
theorem plain_matmul_apply (M K N : Nat) (A : FVec Ideal ⟨2, ![M, K]⟩ .f32) (B : FVec Ideal ⟨2, ![K, N]⟩ .f32)
    (i : Fin M) (j : Fin N) :
    FloatOps.matmul (DotDims.plain M K N) none A B (constant ⟨2, ![M, N]⟩ .f32 0x00000000#32) (ix2 i j)
      = ∑ k : Fin K, A (ix2 i k) * B (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact plain_lhs0 M K N _ _
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => exact plain_rhs1 M K N _ _)
  rw [el, er]

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The signed conversion of the widened bit of `x = 0` is the indicator of `x = 0`. -/
theorem sitofp_eq_zero_bit (x : BitVec 32) :
    (FloatOps.sitofp (F := Ideal) .f32 ((IntOp.cmpi .eq x 0#32).setWidth 32) : EReal)
      = if x = 0#32 then (1 : EReal) else 0 := by
  show ((((IntOp.cmpi .eq x 0#32).setWidth 32).toInt : ℝ) : EReal) = _
  rw [toInt_setWidth_bit]
  by_cases hx : x = 0#32
  · simp [IntOp.cmpi, hx]
  · simp [IntOp.cmpi, hx]

/-- The unsigned conversion of the bit of `a = b`, for two numbers that fit a word, is the
    indicator of `a = b`. -/
theorem uitofp_eq_bit (a b : Nat) (ha : a < 2 ^ 32) (hb : b < 2 ^ 32) :
    (FloatOps.uitofp (F := Ideal) .f32 (IntOp.cmpi .eq (IntOp.addi (BitVec.ofNat 32 a) 0#32) (BitVec.ofNat 32 b)) : EReal)
      = if a = b then (1 : EReal) else 0 := by
  show ((((IntOp.cmpi .eq (IntOp.addi (BitVec.ofNat 32 a) 0#32) (BitVec.ofNat 32 b)).toNat : ℕ) : ℝ) : EReal) = _
  have hne : (BitVec.ofNat 32 a = BitVec.ofNat 32 b) ↔ a = b := by
    constructor
    · intro h
      have := congrArg BitVec.toNat h
      simp only [BitVec.toNat_ofNat] at this
      rw [Nat.mod_eq_of_lt ha, Nat.mod_eq_of_lt hb] at this
      exact this
    · intro h; rw [h]
  by_cases hab : a = b
  · simp [IntOp.cmpi, IntOp.addi, hab]
  · have : ¬ BitVec.ofNat 32 a = BitVec.ofNat 32 b := fun h => hab (hne.mp h)
    simp [IntOp.cmpi, IntOp.addi, hab, this]

end Cert.Proof.KV

end
-- ==== Proof.Spec.lean ====
import Mathlib
import Idealize.ShloMosaic.PureOps.Ideal

/-!
# The shared specification of the wide-and-deep forward pass

Everything is curried over literal `Fin` types.  The arrays, always in this order and with
these names:

* `Xw : Fin 16384 → Fin 128 → EReal`            the wide features
* `Xd : Fin 16384 → Fin 39 → BitVec 32`         26 table indices, then 13 continuous features
* `T  : Fin 26 → Fin 100000 → Fin 16 → EReal`   the embedding tables
* `W1 : Fin 429 → Fin 256 → EReal`, `b1 : Fin 256 → EReal`
* `W2 : Fin 256 → Fin 128 → EReal`, `b2 : Fin 128 → EReal`
* `Wo : Fin 256 → Fin 2 → EReal`,   `bo : Fin 2 → EReal`

`kernelOut` is the transposed, mask-corrected form; `refOut` is the form that zeroes row 0 of
every table before gathering.
-/

noncomputable section

namespace Cert.Proof.Spec

/-- The exact reading of a signed 32-bit integer word as an extended real. -/
def i2f (x : BitVec 32) : EReal := ((x.toInt : ℝ) : EReal)

/-- The table row addressed by an index word. -/
def row (x : BitVec 32) : Fin 100000 := ⟨x.toNat % 100000, Nat.mod_lt _ (by norm_num)⟩

/-- The table (field) a flat embedding coordinate belongs to. -/
def fld (p : Fin 416) : Fin 26 := ⟨p.val / 16, by omega⟩

/-- The lane of a flat embedding coordinate inside its table row. -/
def lane (p : Fin 416) : Fin 16 := ⟨p.val % 16, by omega⟩

/-- The column of `Xd` that holds the index into table `f`. -/
def xcol (f : Fin 26) : Fin 39 := ⟨f.val, by omega⟩

/-- The column of `Xd` that holds continuous feature `k`. -/
def ccol (k : Fin 13) : Fin 39 := ⟨26 + k.val, by omega⟩

/-! ## The kernel's form -/

/-- The gathered embeddings, transposed: coordinate `p`, batch column `b` (row 0 NOT zeroed). -/
def emb (Xd : Fin 16384 → Fin 39 → BitVec 32) (T : Fin 26 → Fin 100000 → Fin 16 → EReal)
    (p : Fin 416) (b : Fin 16384) : EReal :=
  T (fld p) (row (Xd b (xcol (fld p)))) (lane p)

/-- The continuous features, transposed. -/
def cont (Xd : Fin 16384 → Fin 39 → BitVec 32) (k : Fin 13) (b : Fin 16384) : EReal :=
  i2f (Xd b (ccol k))

/-- The indicator of a zero index, as `0` / `1`. -/
def mask (Xd : Fin 16384 → Fin 39 → BitVec 32) (f : Fin 26) (b : Fin 16384) : EReal :=
  if Xd b (xcol f) = 0#32 then (1 : EReal) else 0

/-- Row 0 of every table, laid out block-diagonally: `[416, 26]`. -/
def rT (T : Fin 26 → Fin 100000 → Fin 16 → EReal) (p : Fin 416) (f : Fin 26) : EReal :=
  (if f = fld p then (1 : EReal) else 0) * T f 0 (lane p)

/-- The negated first-layer image of row 0 of every table: `[256, 26]`. -/
def cneg (T : Fin 26 → Fin 100000 → Fin 16 → EReal) (W1 : Fin 429 → Fin 256 → EReal)
    (h : Fin 256) (f : Fin 26) : EReal :=
  0 - ∑ p : Fin 416, W1 (Fin.castLE (by norm_num) p) h * rT T p f

/-- First-layer pre-activation (before the bias), transposed. -/
def x1 (Xd : Fin 16384 → Fin 39 → BitVec 32) (T : Fin 26 → Fin 100000 → Fin 16 → EReal)
    (W1 : Fin 429 → Fin 256 → EReal) (h : Fin 256) (b : Fin 16384) : EReal :=
  ((∑ p : Fin 416, W1 (Fin.castLE (by norm_num) p) h * emb Xd T p b)
      + (∑ k : Fin 13, W1 ⟨416 + k.val, by omega⟩ h * cont Xd k b))
    + ∑ f : Fin 26, cneg T W1 h f * mask Xd f b

/-- First-layer activation, transposed. -/
def a1 (Xd : Fin 16384 → Fin 39 → BitVec 32) (T : Fin 26 → Fin 100000 → Fin 16 → EReal)
    (W1 : Fin 429 → Fin 256 → EReal) (b1 : Fin 256 → EReal) (h : Fin 256) (b : Fin 16384) :
    EReal :=
  max (x1 Xd T W1 h b + b1 h) 0

/-- Second-layer activation, transposed. -/
def a2 (Xd : Fin 16384 → Fin 39 → BitVec 32) (T : Fin 26 → Fin 100000 → Fin 16 → EReal)
    (W1 : Fin 429 → Fin 256 → EReal) (b1 : Fin 256 → EReal) (W2 : Fin 256 → Fin 128 → EReal)
    (b2 : Fin 128 → EReal) (j : Fin 128) (b : Fin 16384) : EReal :=
  max ((∑ h : Fin 256, W2 h j * a1 Xd T W1 b1 h b) + b2 j) 0

/-- The kernel's result at `[b, c]`. -/
def kernelOut (Xw : Fin 16384 → Fin 128 → EReal) (Xd : Fin 16384 → Fin 39 → BitVec 32)
    (T : Fin 26 → Fin 100000 → Fin 16 → EReal) (W1 : Fin 429 → Fin 256 → EReal)
    (b1 : Fin 256 → EReal) (W2 : Fin 256 → Fin 128 → EReal) (b2 : Fin 128 → EReal)
    (Wo : Fin 256 → Fin 2 → EReal) (bo : Fin 2 → EReal) (b : Fin 16384) (c : Fin 2) : EReal :=
  ((∑ j : Fin 128, Wo (Fin.castLE (by norm_num) j) c * a2 Xd T W1 b1 W2 b2 j b)
      + (∑ k : Fin 128, Wo ⟨128 + k.val, by omega⟩ c * Xw b k))
    + bo c

/-! ## The reference's form -/

/-- The tables with row 0 zeroed. -/
def tz (T : Fin 26 → Fin 100000 → Fin 16 → EReal) (f : Fin 26) (r : Fin 100000) (d : Fin 16) :
    EReal :=
  if r = 0 then (0 : EReal) else T f r d

/-- The deep input `[B, 429]`: 26 gathered pieces of width 16, then the 13 continuous columns. -/
def deep (Xd : Fin 16384 → Fin 39 → BitVec 32) (T : Fin 26 → Fin 100000 → Fin 16 → EReal)
    (b : Fin 16384) (q : Fin 429) : EReal :=
  if h : q.val < 416 then
    tz T (fld ⟨q.val, h⟩) (row (Xd b (xcol (fld ⟨q.val, h⟩)))) (lane ⟨q.val, h⟩)
  else i2f (Xd b ⟨26 + (q.val - 416), by omega⟩)

/-- First-layer activation. -/
def r1 (Xd : Fin 16384 → Fin 39 → BitVec 32) (T : Fin 26 → Fin 100000 → Fin 16 → EReal)
    (W1 : Fin 429 → Fin 256 → EReal) (b1 : Fin 256 → EReal) (b : Fin 16384) (h : Fin 256) :
    EReal :=
  max ((∑ q : Fin 429, deep Xd T b q * W1 q h) + b1 h) 0

/-- Second-layer activation. -/
def r2 (Xd : Fin 16384 → Fin 39 → BitVec 32) (T : Fin 26 → Fin 100000 → Fin 16 → EReal)
    (W1 : Fin 429 → Fin 256 → EReal) (b1 : Fin 256 → EReal) (W2 : Fin 256 → Fin 128 → EReal)
    (b2 : Fin 128 → EReal) (b : Fin 16384) (j : Fin 128) : EReal :=
  max ((∑ h : Fin 256, r1 Xd T W1 b1 b h * W2 h j) + b2 j) 0

/-- The concatenation of the deep activation and the wide features: `[B, 256]`. -/
def wd (Xw : Fin 16384 → Fin 128 → EReal) (Xd : Fin 16384 → Fin 39 → BitVec 32)
    (T : Fin 26 → Fin 100000 → Fin 16 → EReal) (W1 : Fin 429 → Fin 256 → EReal)
    (b1 : Fin 256 → EReal) (W2 : Fin 256 → Fin 128 → EReal) (b2 : Fin 128 → EReal)
    (b : Fin 16384) (q : Fin 256) : EReal :=
  if h : q.val < 128 then r2 Xd T W1 b1 W2 b2 b ⟨q.val, h⟩ else Xw b ⟨q.val - 128, by omega⟩

/-- The reference's result at `[b, c]`. -/
def refOut (Xw : Fin 16384 → Fin 128 → EReal) (Xd : Fin 16384 → Fin 39 → BitVec 32)
    (T : Fin 26 → Fin 100000 → Fin 16 → EReal) (W1 : Fin 429 → Fin 256 → EReal)
    (b1 : Fin 256 → EReal) (W2 : Fin 256 → Fin 128 → EReal) (b2 : Fin 128 → EReal)
    (Wo : Fin 256 → Fin 2 → EReal) (bo : Fin 2 → EReal) (b : Fin 16384) (c : Fin 2) : EReal :=
  (∑ q : Fin 256, wd Xw Xd T W1 b1 W2 b2 b q * Wo q c) + bo c

end Cert.Proof.Spec
-- ==== Proof.KV.HostGlue.lean ====
import proofs.«205318_g12532714570102_cont_fleet_669_37_alg».proof.Proof.KI.MainOps
import proofs.«205318_g12532714570102_cont_fleet_669_37_alg».proof.Proof.KI.ScCommon
import proofs.«205318_g12532714570102_cont_fleet_669_37_alg».proof.Proof.KV.Ops
import proofs.«205318_g12532714570102_cont_fleet_669_37_alg».proof.Proof.Spec
import Idealize.ShloMosaic.Lib.ValueLayout
import Idealize.ShloMosaic.Lib.ValueIdxCoords

/-!
# The host operations around the two calls, read at an index

The program's host operations only move data: transposes, slices, reshapes, and one small
computation, the block-diagonal table of the tables' row 0.  Each result is read here at an
index as a function of what the valuation holds at the nine argument arrays.
-/

noncomputable section

namespace Cert.Proof.KV

open Cert.KernelIdeal Cert.KernelIdeal.Gen Cert.Proof.KI
open Idealize.ShloMosaic Idealize.ShloMosaic.TcCoe Idealize.SL.Sem Idealize.ShloMosaic.StableHlo
open Idealize.ShloMosaic.ValueIdx

variable {F : FTy → Type} [FloatOps F]

/-! ## The nine argument arrays, as a valuation holds them -/

abbrev arg0 (W : Valuation τ sig (Elt F)) : FVec F S16384x128 .f32 := W (Proc.devRef .tc main_arg0)
abbrev arg1 (W : Valuation τ sig (Elt F)) : IVec S16384x39 32 := W (Proc.devRef .tc main_arg1)
abbrev arg2 (W : Valuation τ sig (Elt F)) : FVec F S26x100000x16 .f32 := W (Proc.devRef .tc main_arg2)
abbrev arg3 (W : Valuation τ sig (Elt F)) : FVec F S429x256 .f32 := W (Proc.devRef .tc main_arg3)
abbrev arg4 (W : Valuation τ sig (Elt F)) : FVec F S256 .f32 := W (Proc.devRef .tc main_arg4)
abbrev arg5 (W : Valuation τ sig (Elt F)) : FVec F S256x128 .f32 := W (Proc.devRef .tc main_arg5)
abbrev arg6 (W : Valuation τ sig (Elt F)) : FVec F S128 .f32 := W (Proc.devRef .tc main_arg6)
abbrev arg7 (W : Valuation τ sig (Elt F)) : FVec F S256x2 .f32 := W (Proc.devRef .tc main_arg7)
abbrev arg8 (W : Valuation τ sig (Elt F)) : FVec F S2 .f32 := W (Proc.devRef .tc main_arg8)

/-! ## Before the first call: the two transposes -/

theorem afterA_v0 (W : Valuation τ sig (Elt F)) (f : Fin 26) (dd : Fin 16) (r : Fin 100000) :
    after (opsA (F := F)) W (Proc.devRef .tc main_v0) (ix3 f dd r) = arg2 W (ix3 f r dd) := by
  have h : after (opsA (F := F)) W (Proc.devRef .tc main_v0)
      = transpose S26x16x100000 [0, 2, 1] (arg2 W) transposes_S26x100000x16_S26x16x100000_0_2_1 := by
    after_results_simp <;> rfl
  exact (congrFun h _).trans (transpose_ix3_021_apply (arg2 W) _ f dd r)

theorem afterA_v1 (W : Valuation τ sig (Elt F)) (r : Fin 39) (b : Fin 16384) :
    after (opsA (F := F)) W (Proc.devRef .tc main_v1) (ix2 r b) = arg1 W (ix2 b r) := by
  have h : after (opsA (F := F)) W (Proc.devRef .tc main_v1)
      = transpose S39x16384 [1, 0] (arg1 W) transposes_S16384x39_S39x16384_1_0 := by
    after_results_simp <;> rfl
  exact (congrFun h _).trans (transpose_ix2_apply (arg1 W) _ r b)

/-- The two transposes write nothing else. -/
theorem afterA_other (W : Valuation τ sig (Elt F)) (r : Ref sig .tc) (h0 : r ≠ main_v0) (h1 : r ≠ main_v1) :
    after (opsA (F := F)) W (Proc.devRef .tc r) = W (Proc.devRef .tc r) := by
  simp only [after_cons, after_nil]
  rw [unary_result_ne _ _ _ _ _ _ h1, unary_result_ne _ _ _ _ _ _ h0]

/-! ## After the second call: the result transposed back -/

theorem afterC_v31 (W : Valuation τ sig (Elt F)) (b : Fin 16384) (c : Fin 2) :
    after (opsC (F := F)) W (Proc.devRef .tc main_v31) (ix2 b c)
      = (W (Proc.devRef .tc main_v30) : FVec F S2x16384 .f32) (ix2 c b) := by
  have h : after (opsC (F := F)) W (Proc.devRef .tc main_v31)
      = transpose S16384x2 [1, 0] (W (Proc.devRef .tc main_v30) : FVec F S2x16384 .f32)
          transposes_S2x16384_S16384x2_1_0 := by
    after_results_simp <;> rfl
  exact (congrFun h _).trans (transpose_ix2_apply (W (Proc.devRef .tc main_v30) : FVec F S2x16384 .f32) _ b c)

theorem afterC_other (W : Valuation τ sig (Elt F)) (r : Ref sig .tc) (h : r ≠ main_v31) :
    after (opsC (F := F)) W (Proc.devRef .tc r) = W (Proc.devRef .tc r) := by
  simp only [after_cons, after_nil]
  rw [unary_result_ne _ _ _ _ _ _ h]

/-! ## Between the calls: slices, transposes, reshapes -/

theorem afterB_v18 (W : Valuation τ sig (Elt F)) (h : Fin 256) (p : Fin 416) :
    after (opsB (F := F)) W (Proc.devRef .tc main_v18) (ix2 h p)
      = arg3 W (ix2 (Fin.castLE (by norm_num) p) h) := by
  have e : after (opsB (F := F)) W (Proc.devRef .tc main_v18)
      = transpose S256x416 [1, 0]
          (extractStridedSlice S416x256 ![0, 0] (arg3 W) slices_S429x256_S416x256_0_0)
          transposes_S416x256_S256x416_1_0 := by
    after_results_simp <;> rfl
  exact ((congrFun e _).trans (transpose_ix2_apply _ _ h p)).trans
    (slice2_axis0_apply 0 (arg3 W) _ p h (Fin.castLE (by norm_num) p) (by simp))

theorem afterB_v20 (W : Valuation τ sig (Elt F)) (h : Fin 256) (k : Fin 13) :
    after (opsB (F := F)) W (Proc.devRef .tc main_v20) (ix2 h k)
      = arg3 W (ix2 ⟨416 + k.val, by omega⟩ h) := by
  have e : after (opsB (F := F)) W (Proc.devRef .tc main_v20)
      = transpose S256x13 [1, 0]
          (extractStridedSlice S13x256 ![416, 0] (arg3 W) slices_S429x256_S13x256_416_0)
          transposes_S13x256_S256x13_1_0 := by
    after_results_simp <;> rfl
  exact ((congrFun e _).trans (transpose_ix2_apply _ _ h k)).trans
    (slice2_axis0_apply 416 (arg3 W) _ k h ⟨416 + k.val, by omega⟩ rfl)

theorem afterB_v22 (W : Valuation τ sig (Elt F)) (h : Fin 256) (u : Fin 1) :
    after (opsB (F := F)) W (Proc.devRef .tc main_v22) (ix2 h u) = arg4 W (ix1 h) := by
  have e : after (opsB (F := F)) W (Proc.devRef .tc main_v22)
      = shapeCast S256x1 (arg4 W) shapeCasts_S256_S256x1 := by
    after_results_simp <;> rfl
  refine (congrFun e _).trans (shapeCast_apply (arg4 W) _ (ix2 h u) (ix1 h) ?_)
  rw [Shape.rowMajor_val_one, Shape.rowMajor_val_two]
  show h.val = h.val * 1 + u.val
  omega

theorem afterB_v23 (W : Valuation τ sig (Elt F)) (j : Fin 128) (h : Fin 256) :
    after (opsB (F := F)) W (Proc.devRef .tc main_v23) (ix2 j h) = arg5 W (ix2 h j) := by
  have e : after (opsB (F := F)) W (Proc.devRef .tc main_v23)
      = transpose S128x256 [1, 0] (arg5 W) transposes_S256x128_S128x256_1_0 := by
    after_results_simp <;> rfl
  exact (congrFun e _).trans (transpose_ix2_apply (arg5 W) _ j h)

theorem afterB_v24 (W : Valuation τ sig (Elt F)) (j : Fin 128) (u : Fin 1) :
    after (opsB (F := F)) W (Proc.devRef .tc main_v24) (ix2 j u) = arg6 W (ix1 j) := by
  have e : after (opsB (F := F)) W (Proc.devRef .tc main_v24)
      = shapeCast S128x1 (arg6 W) shapeCasts_S128_S128x1 := by
    after_results_simp <;> rfl
  refine (congrFun e _).trans (shapeCast_apply (arg6 W) _ (ix2 j u) (ix1 j) ?_)
  rw [Shape.rowMajor_val_one, Shape.rowMajor_val_two]
  show j.val = j.val * 1 + u.val
  omega

theorem afterB_v26 (W : Valuation τ sig (Elt F)) (c : Fin 2) (j : Fin 128) :
    after (opsB (F := F)) W (Proc.devRef .tc main_v26) (ix2 c j)
      = arg7 W (ix2 (Fin.castLE (by norm_num) j) c) := by
  have e : after (opsB (F := F)) W (Proc.devRef .tc main_v26)
      = transpose S2x128 [1, 0]
          (extractStridedSlice S128x2 ![0, 0] (arg7 W) slices_S256x2_S128x2_0_0)
          transposes_S128x2_S2x128_1_0 := by
    after_results_simp <;> rfl
  exact ((congrFun e _).trans (transpose_ix2_apply _ _ c j)).trans
    (slice2_axis0_apply 0 (arg7 W) _ j c (Fin.castLE (by norm_num) j) (by simp))

theorem afterB_v28 (W : Valuation τ sig (Elt F)) (c : Fin 2) (k : Fin 128) :
    after (opsB (F := F)) W (Proc.devRef .tc main_v28) (ix2 c k)
      = arg7 W (ix2 ⟨128 + k.val, by omega⟩ c) := by
  have e : after (opsB (F := F)) W (Proc.devRef .tc main_v28)
      = transpose S2x128 [1, 0]
          (extractStridedSlice S128x2 ![128, 0] (arg7 W) slices_S256x2_S128x2_128_0)
          transposes_S128x2_S2x128_1_0 := by
    after_results_simp <;> rfl
  exact ((congrFun e _).trans (transpose_ix2_apply _ _ c k)).trans
    (slice2_axis0_apply 128 (arg7 W) _ k c ⟨128 + k.val, by omega⟩ rfl)

theorem afterB_v29 (W : Valuation τ sig (Elt F)) (c : Fin 2) (u : Fin 1) :
    after (opsB (F := F)) W (Proc.devRef .tc main_v29) (ix2 c u) = arg8 W (ix1 c) := by
  have e : after (opsB (F := F)) W (Proc.devRef .tc main_v29)
      = shapeCast S2x1 (arg8 W) shapeCasts_S2_S2x1 := by
    after_results_simp <;> rfl
  refine (congrFun e _).trans (shapeCast_apply (arg8 W) _ (ix2 c u) (ix1 c) ?_)
  rw [Shape.rowMajor_val_one, Shape.rowMajor_val_two]
  show c.val = c.val * 1 + u.val
  omega

/-! ## Between the calls: what is left alone -/

theorem afterB_main_v0 (W : Valuation τ sig (Elt F)) :
    after (opsB (F := F)) W (Proc.devRef .tc main_v0) = W (Proc.devRef .tc main_v0) := by
  after_results_simp <;> rfl

theorem afterB_main_v1 (W : Valuation τ sig (Elt F)) :
    after (opsB (F := F)) W (Proc.devRef .tc main_v1) = W (Proc.devRef .tc main_v1) := by
  after_results_simp <;> rfl

theorem afterB_main_v2 (W : Valuation τ sig (Elt F)) :
    after (opsB (F := F)) W (Proc.devRef .tc main_v2) = W (Proc.devRef .tc main_v2) := by
  after_results_simp <;> rfl

theorem afterB_main_arg0 (W : Valuation τ sig (Elt F)) :
    after (opsB (F := F)) W (Proc.devRef .tc main_arg0) = W (Proc.devRef .tc main_arg0) := by
  after_results_simp <;> rfl

theorem afterB_main_arg1 (W : Valuation τ sig (Elt F)) :
    after (opsB (F := F)) W (Proc.devRef .tc main_arg1) = W (Proc.devRef .tc main_arg1) := by
  after_results_simp <;> rfl

theorem afterB_main_arg2 (W : Valuation τ sig (Elt F)) :
    after (opsB (F := F)) W (Proc.devRef .tc main_arg2) = W (Proc.devRef .tc main_arg2) := by
  after_results_simp <;> rfl

theorem afterB_main_arg3 (W : Valuation τ sig (Elt F)) :
    after (opsB (F := F)) W (Proc.devRef .tc main_arg3) = W (Proc.devRef .tc main_arg3) := by
  after_results_simp <;> rfl

theorem afterB_main_arg4 (W : Valuation τ sig (Elt F)) :
    after (opsB (F := F)) W (Proc.devRef .tc main_arg4) = W (Proc.devRef .tc main_arg4) := by
  after_results_simp <;> rfl

theorem afterB_main_arg5 (W : Valuation τ sig (Elt F)) :
    after (opsB (F := F)) W (Proc.devRef .tc main_arg5) = W (Proc.devRef .tc main_arg5) := by
  after_results_simp <;> rfl

theorem afterB_main_arg6 (W : Valuation τ sig (Elt F)) :
    after (opsB (F := F)) W (Proc.devRef .tc main_arg6) = W (Proc.devRef .tc main_arg6) := by
  after_results_simp <;> rfl

theorem afterB_main_arg7 (W : Valuation τ sig (Elt F)) :
    after (opsB (F := F)) W (Proc.devRef .tc main_arg7) = W (Proc.devRef .tc main_arg7) := by
  after_results_simp <;> rfl

theorem afterB_main_arg8 (W : Valuation τ sig (Elt F)) :
    after (opsB (F := F)) W (Proc.devRef .tc main_arg8) = W (Proc.devRef .tc main_arg8) := by
  after_results_simp <;> rfl

/-! ## The block-diagonal table of the tables' row 0 -/

/-- The 26 × 26 identity pattern, as the program computes it: row number equal to column number. -/
def eyeV : FVec Ideal S26x26 .f32 :=
  uitofp .f32 (cmpi .eq (addi (iotaInDim S26x26 32 0)
    (broadcastInDim S26x26 ![] bcast_S_S26x26 (constantI S_ 32 0#32))) (iotaInDim S26x26 32 1))

theorem eyeV_apply (i j : Fin 26) : eyeV (ix2 i j) = if i = j then (1 : EReal) else 0 := by
  have e : eyeV (ix2 i j) = FloatOps.uitofp (F := Ideal) .f32
      (IntOp.cmpi .eq (IntOp.addi (BitVec.ofNat 32 i.val) 0#32) (BitVec.ofNat 32 j.val)) := rfl
  rw [e, uitofp_eq_bit i.val j.val (by omega) (by omega)]
  by_cases hij : i = j
  · rw [if_pos hij, if_pos (congrArg Fin.val hij)]
  · rw [if_neg hij, if_neg (fun h => hij (Fin.ext h))]

/-- Row 0 of every table: `[26, 16]`. -/
def row0V (W : Valuation τ sig (Elt F)) : FVec F S26x16 .f32 :=
  shapeCast S26x16 (extractStridedSlice S26x1x16 ![0, 0, 0] (arg2 W) slices_S26x100000x16_S26x1x16_0_0_0)
    shapeCasts_S26x1x16_S26x16

theorem row0V_apply (W : Valuation τ sig (Elt F)) (f : Fin 26) (d : Fin 16) :
    row0V W (ix2 f d) = arg2 W (ix3 f (0 : Fin 100000) d) := by
  unfold row0V
  refine (shapeCast_apply _ _ (ix2 f d) (ix3 f (0 : Fin 1) d) ?_).trans
    (slice3_axis1_apply 0 (arg2 W) _ f (0 : Fin 1) d (0 : Fin 100000) rfl)
  rw [Shape.rowMajor_val_three, Shape.rowMajor_val_two]
  show (f.val * 1 + 0) * 16 + d.val = f.val * 16 + d.val
  omega

/-- The identity pattern times row 0, entry `(f', f, d)`: `[26, 26, 16]`. -/
def blkV (W : Valuation τ sig (Elt Ideal)) : FVec Ideal S26x26x16 .f32 :=
  mulf
    (broadcastInDim S26x26x16 ![0, 1, 2] bcast_S26x26x1_S26x26x16_0_1_2
      (broadcastInDim S26x26x1 ![0, 1] bcast_S26x26_S26x26x1_0_1 eyeV))
    (broadcastInDim S26x26x16 ![0, 1, 2] bcast_S26x1x16_S26x26x16_0_1_2
      (broadcastInDim S26x1x16 ![0, 2] bcast_S26x16_S26x1x16_0_2 (row0V W)))

theorem blkV_apply (W : Valuation τ sig (Elt Ideal)) (i0 i1 : Fin 26) (i2 : Fin 16) :
    blkV W (ix3 i0 i1 i2)
      = (if i0 = i1 then (1 : EReal) else 0) * arg2 W (ix3 i0 (0 : Fin 100000) i2) := by
  have e1 : broadcastInDim S26x26x16 ![0, 1, 2] bcast_S26x26x1_S26x26x16_0_1_2
        (broadcastInDim S26x26x1 ![0, 1] bcast_S26x26_S26x26x1_0_1 eyeV) (ix3 i0 i1 i2)
      = eyeV (ix2 i0 i1) :=
    (broadcastInDim_apply _ _ _ (ix3 i0 i1 i2) (ix3 i0 i1 (0 : Fin 1))
        (fun a => by match a with | ⟨0, _⟩ => rfl | ⟨1, _⟩ => rfl | ⟨2, _⟩ => rfl)).trans
      (broadcastInDim_apply _ _ eyeV (ix3 i0 i1 (0 : Fin 1)) (ix2 i0 i1)
        (fun a => by match a with | ⟨0, _⟩ => rfl | ⟨1, _⟩ => rfl))
  have e2 : broadcastInDim S26x26x16 ![0, 1, 2] bcast_S26x1x16_S26x26x16_0_1_2
        (broadcastInDim S26x1x16 ![0, 2] bcast_S26x16_S26x1x16_0_2 (row0V W)) (ix3 i0 i1 i2)
      = row0V W (ix2 i0 i2) :=
    (broadcastInDim_apply _ _ _ (ix3 i0 i1 i2) (ix3 i0 (0 : Fin 1) i2)
        (fun a => by match a with | ⟨0, _⟩ => rfl | ⟨1, _⟩ => rfl | ⟨2, _⟩ => rfl)).trans
      (broadcastInDim_apply _ _ (row0V W) (ix3 i0 (0 : Fin 1) i2) (ix2 i0 i2)
        (fun a => by match a with | ⟨0, _⟩ => rfl | ⟨1, _⟩ => rfl))
  unfold blkV
  rw [mulf_apply, e1, e2, eyeV_apply, row0V_apply]

theorem afterB_v21 (W : Valuation τ sig (Elt Ideal)) (p : Fin 416) (f : Fin 26) :
    after (opsB (F := Ideal)) W (Proc.devRef .tc main_v21) (ix2 p f)
      = Spec.rT (fun f r d => arg2 W (ix3 f r d)) p f := by
  have e : after (opsB (F := Ideal)) W (Proc.devRef .tc main_v21)
      = transpose S416x26 [1, 0] (shapeCast S26x416 (blkV W) shapeCasts_S26x26x16_S26x416)
          transposes_S26x416_S416x26_1_0 := by
    after_results_simp <;> rfl
  refine ((congrFun e _).trans (transpose_ix2_apply _ _ p f)).trans ?_
  refine (shapeCast_apply (blkV W) _ (ix2 f p) (ix3 f (Spec.fld p) (Spec.lane p)) ?_).trans ?_
  · rw [Shape.rowMajor_val_three, Shape.rowMajor_val_two]
    show (f.val * 26 + p.val / 16) * 16 + p.val % 16 = f.val * 416 + p.val
    omega
  · rw [blkV_apply]
    rfl

/-! ## The gather, in the specification's terms -/

/-- Reading the transposed tables at the word the transposed index matrix holds is the
specification's gathered embedding. -/
theorem gather_eq_emb (a1 : IVec S16384x39 32) (a2 : FVec Ideal S26x100000x16 .f32)
    (A : FVec Ideal S26x16x100000 .f32) (X : IVec S39x16384 32)
    (hA : ∀ f dd r, A (ix3 f dd r) = a2 (ix3 f r dd)) (hX : ∀ r b, X (ix2 r b) = a1 (ix2 b r))
    (p : Fin 416) (b : Fin 16384) :
    A (ix3 (n0 := 26) (n1 := 16) (n2 := 100000) ⟨p.val / 16, by omega⟩ ⟨p.val % 16, by omega⟩
        ⟨(X (ix2 (n0 := 39) (n1 := 16384) ⟨p.val / 16, by omega⟩ b)).toNat % 100000,
          Nat.mod_lt _ (by decide)⟩)
      = Spec.emb (fun b f => a1 (ix2 b f)) (fun f r d => a2 (ix3 f r d)) p b := by
  rw [hA, hX]
  rfl

/-- The same, for the value the SparseCore call leaves (`KI.embOf`), device by device. -/
theorem embOf_eq_emb (A : (d : Dev nD) → Buf (Elt Ideal) (aLoc d)) (X : (d : Dev nD) → Buf (Elt Ideal) (xLoc d))
    (d : Dev nD) (a1 : IVec S16384x39 32) (a2 : FVec Ideal S26x100000x16 .f32)
    (hA : ∀ f dd r, A d (ix3 f dd r) = a2 (ix3 f r dd)) (hX : ∀ r b, X d (ix2 r b) = a1 (ix2 b r))
    (p : Fin 416) (b : Fin 16384) :
    embOf A X d (ix2 p b) = Spec.emb (fun b f => a1 (ix2 b f)) (fun f r d => a2 (ix3 f r d)) p b :=
  gather_eq_emb a1 a2 (A d) (X d) hA hX p b

end Cert.Proof.KV
-- ==== Proof.KI.Launch.lean ====
/-
  The kernel's program run: the launch element (the handshakes' rounds, the pipeline's cells funded, nothing of the
  SparseCore kernel's own), what the final memory says of the arrays @main leaves, and the SparseCore launch theorem
  applied. No host operation and neither call writes an argument, so the arguments end as launched.
-/
import proofs.«205318_g12532714570102_cont_fleet_669_37_alg».proof.Proof.KI.Main
import proofs.«205318_g12532714570102_cont_fleet_669_37_alg».proof.Proof.KV.HostGlue

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after launchContents)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What @main keeps -/

/-- A buffer that neither transpose stretch, neither call, and no operation between the calls writes ends as launched. -/
theorem WC_keep (d : Dev nD) (r : Ref sig .tc) (h0 : r ≠ main_v0) (h1 : r ≠ main_v1) (h2 : r ≠ main_v2) (h30 : r ≠ main_v30)
    (h31 : r ≠ main_v31) (hB : after (opsB (F := F)) (W1 m d) (Proc.devRef .tc r) = W1 m d (Proc.devRef .tc r)) :
    WC m (o30 (F := F)) d (Proc.devRef .tc r) = m ((SparseCore.T (τ := τ) d).loc r) := by
  unfold WC
  rw [KV.afterC_other _ r h31]
  unfold W2
  rw [Function.update_of_ne (StableHlo.devRef_ne_of_ne h30)]
  unfold WB
  rw [hB]
  unfold W1
  rw [Function.update_of_ne (StableHlo.devRef_ne_of_ne h2)]
  unfold WA
  rw [KV.afterA_other _ r h0 h1]

theorem WC_arg0 (d : Dev nD) : WC m (o30 (F := F)) d (Proc.devRef .tc main_arg0) = m ((SparseCore.T (τ := τ) d).loc main_arg0) :=
  WC_keep m d main_arg0 (by decide) (by decide) (by decide) (by decide) (by decide) (KV.afterB_main_arg0 _)
theorem WC_arg1 (d : Dev nD) : WC m (o30 (F := F)) d (Proc.devRef .tc main_arg1) = m ((SparseCore.T (τ := τ) d).loc main_arg1) :=
  WC_keep m d main_arg1 (by decide) (by decide) (by decide) (by decide) (by decide) (KV.afterB_main_arg1 _)
theorem WC_arg2 (d : Dev nD) : WC m (o30 (F := F)) d (Proc.devRef .tc main_arg2) = m ((SparseCore.T (τ := τ) d).loc main_arg2) :=
  WC_keep m d main_arg2 (by decide) (by decide) (by decide) (by decide) (by decide) (KV.afterB_main_arg2 _)
theorem WC_arg3 (d : Dev nD) : WC m (o30 (F := F)) d (Proc.devRef .tc main_arg3) = m ((SparseCore.T (τ := τ) d).loc main_arg3) :=
  WC_keep m d main_arg3 (by decide) (by decide) (by decide) (by decide) (by decide) (KV.afterB_main_arg3 _)
theorem WC_arg4 (d : Dev nD) : WC m (o30 (F := F)) d (Proc.devRef .tc main_arg4) = m ((SparseCore.T (τ := τ) d).loc main_arg4) :=
  WC_keep m d main_arg4 (by decide) (by decide) (by decide) (by decide) (by decide) (KV.afterB_main_arg4 _)
theorem WC_arg5 (d : Dev nD) : WC m (o30 (F := F)) d (Proc.devRef .tc main_arg5) = m ((SparseCore.T (τ := τ) d).loc main_arg5) :=
  WC_keep m d main_arg5 (by decide) (by decide) (by decide) (by decide) (by decide) (KV.afterB_main_arg5 _)
theorem WC_arg6 (d : Dev nD) : WC m (o30 (F := F)) d (Proc.devRef .tc main_arg6) = m ((SparseCore.T (τ := τ) d).loc main_arg6) :=
  WC_keep m d main_arg6 (by decide) (by decide) (by decide) (by decide) (by decide) (KV.afterB_main_arg6 _)
theorem WC_arg7 (d : Dev nD) : WC m (o30 (F := F)) d (Proc.devRef .tc main_arg7) = m ((SparseCore.T (τ := τ) d).loc main_arg7) :=
  WC_keep m d main_arg7 (by decide) (by decide) (by decide) (by decide) (by decide) (KV.afterB_main_arg7 _)
theorem WC_arg8 (d : Dev nD) : WC m (o30 (F := F)) d (Proc.devRef .tc main_arg8) = m ((SparseCore.T (τ := τ) d).loc main_arg8) :=
  WC_keep m d main_arg8 (by decide) (by decide) (by decide) (by decide) (by decide) (KV.afterB_main_arg8 _)

/-! ## The launch element -/

def u₀ : UU := (initOf (K (F := F)).hsCells (K (F := F)).hsToks,
  (initOf (Pipeline.cells cfgs cellOf_inj) (Pipeline.launchToks cfgs cellOf_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 1 => (PP m).x q thr) := by
  unfold u₀
  iintro Hu
  ihave H := (ownU_pair _ _) $$ Hu
  icases H with ⟨HH, HR⟩
  ihave H2 := (own_pair_emb embR _ _) $$ HR
  icases H2 with ⟨HP, -⟩
  ihave HP := (Entails.of_eq (show (BI.own (((Emb.inl : Emb UP (UP × Counters)).trans embR) (initOf (Pipeline.cells cfgs cellOf_inj) (Pipeline.launchToks cfgs cellOf_inj))) : sProp 𝕄)
      = BI.own ((ER (F := F)) (initOf (Pipeline.cells cfgs cellOf_inj) (Pipeline.launchToks cfgs cellOf_inj))) from rfl)) $$ HP
  imod (fund1 (F := F)) $$ HP with HG
  imodintro
  isplitl [HH]; · iexact HH
  isplitl [HG]; · iexact HG
  rw [show (bigSep Finset.univ fun thr : Thread nD τ => bigSep Finset.univ fun q : Fin 1 => (PP m).x q thr) = (iprop(emp) : sProp 𝕄) from by
    rw [bigSep_congr fun thr _ => (bigSep_congr fun q _ => P_x (Aof m) (Xof m) (E0of m) q thr).trans (bigSep_emp' _), bigSep_emp']]
  iempintro

/-! ## What the final memory says -/

/-- Every array of the TensorCore ends at the composed valuation. -/
def fq (d : Dev nD) (s' : Phys nD τ sig (Elt F)) : Prop :=
  ∀ b : Ref sig .tc, Proc.devRef (τ := τ) .tc b ∈ Pipeline.ucRefs τ sig → s'.mem.mem ((SparseCore.T (τ := τ) d).loc b) = WC m (o30 (F := F)) d (Proc.devRef .tc b)

theorem hfin (d : Dev nD) (s' : Phys nD τ sig (Elt F)) : iprop(FIN m d ∗ SI s') ⊢ (⌜fq m d s'⌝ : sProp 𝕄) := by
  refine Entails.trans (forall_intro fun b => ?_) pure_forall.2
  by_cases hb : Proc.devRef (τ := τ) .tc b ∈ Pipeline.ucRefs τ sig
  · unfold FIN held
    iintro ⟨Hh, HSI⟩
    have hE : (bigSep (Pipeline.ucRefs τ sig) fun b : DevRef τ sig => ((SparseCore.T (τ := τ) d).1, b) ↦{fullShare} WC m (o30 (F := F)) d b : sProp 𝕄)
        ⊢ (((SparseCore.T (τ := τ) d).1, Proc.devRef .tc b) ↦{fullShare} WC m (o30 (F := F)) d (Proc.devRef .tc b) : sProp 𝕄) :=
      bigSep_elim (Φ := fun b : DevRef τ sig => ((SparseCore.T (τ := τ) d).1, b) ↦{fullShare} WC m (o30 (F := F)) d b) hb
    ihave Hb := hE $$ Hh
    ihave H := (SI_pointsTo_agree (st := s') (ℓ := (SparseCore.T (τ := τ) d).loc b) (I := Finset.univ) (q := fullShare) (f := WC m (o30 (F := F)) d (Proc.devRef .tc b))) $$ [HSI Hb]
    · isplitl [HSI] <;> iassumption
    icases H with %hx
    ipureintro; exact fun _ => funext fun i => hx i (Finset.mem_univ i)
  · exact BI.pure_intro fun h => absurd h hb

/-! ## The program's run -/

def QC : PUnit × MemSt nD τ sig (Elt F) → Prop := fun r =>
  ∀ c : Dev nD, ∀ b : Ref sig .tc, Proc.devRef (τ := τ) .tc b ∈ Pipeline.ucRefs τ sig → r.2.mem ((SparseCore.T (τ := τ) c).loc b) = WC m (o30 (F := F)) c (Proc.devRef .tc b)

theorem run_main [∀ e, Nonempty (Elt F e)] (htile : (K (F := F)).TileObl (D (F := F)) 𝒱 (PP m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => htile)
    (fun q _ => match q with | 0 => SparseCore.Cfg.VecSplit.of_plain (vecSplit (Aof m) (Xof m) (E0of m)))
    m ρ main (GG (F := F)) (FIN m) (u₀ (F := F)) (sep_elim_left.trans (hu₀ m)) (hmain m ρ) (fq m) (hfin m) (QC m) (fun _ h => h)

end Cert.Proof.KI

end
-- ==== Proof.KI.ScVal.lean ====
/-
  Pure facts about one vector subcore's gathers: what sixteen-lane gathers of the plane scratch at index words of
  the index scratch store into the output scratch, and how the stores of a trip extend the prefix of the output
  scratch that already holds the gathered values.
-/
import proofs.«205318_g12532714570102_cont_fleet_669_37_alg».proof.Proof.KI.ScCommon
import proofs.«205318_g12532714570102_cont_fleet_669_37_alg».proof.Proof.Gen.KernelIdeal.Skeleton
import Idealize.ShloMosaic.Lib.SparseCore.Ops
import Idealize.ShloMosaic.Lib.Tactic
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

/-- The vector subcore at grid point L, as a thread of device d. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The output scratch agrees with tgt on its first n entries. -/
def Agree (tgt : S8192.Idx → Elt F .f32) (n : Nat) (s2 : S8192.Idx → Elt F .f32) : Prop :=
  ∀ j : S8192.Idx, (j 0).val < n → s2 j = tgt j

/-- What the gathers of half k2v leave at entry y of the output scratch: the plane scratch's entry at the index word the
    index scratch holds at 8192 * k2v + y (both taken modulo the extents, so that the function is total). -/
def tgtOf (S0 : S100000.Idx → Elt F .f32) (S1 : S16384.Idx → Elt F .i32) (k2v : Nat) : S8192.Idx → Elt F .f32 :=
  fun y => S0 (ix1 (n := 100000) ⟨(S1 (ix1 (n := 16384) ⟨(8192 * k2v + (y 0).val) % 16384, Nat.mod_lt _ (by decide)⟩)).toNat % 100000,
    Nat.mod_lt _ (by decide)⟩)

/-- One gather: sixteen index words read at oi, the plane scratch read at them, is tgtOf at the sixteen entries from oo
    on, when oi is oo within half k2v. -/
theorem gather_val (S0 : S100000.Idx → Elt F .f32) (S1 : S16384.Idx → Elt F .i32) (hb : ∀ j, (S1 j).toNat < 100000) (k2v : Nat)
    (oo oi : Fin 1 → Nat) (hoo : ∀ a, oo a + S16.size a ≤ S8192.size a) (hoi : ∀ a, oi a + S16.size a ≤ S16384.size a)
    (h : ∀ a x, ((![(s1V : Memref sig .scVector .vmem S16384 .i32).view.readAt (Elt F) (Rect.unit (s := S16384) oi S16.size hoi).toLoadRect S1] : Fin 1 → IVec S16 32) a x).toNat < S100000.size a)
    (e : oi 0 = 8192 * k2v + oo 0) (x : S16.Idx) :
    loadIdx ((s0V : Memref sig .scVector .vmem S100000 .f32).view.readAt (Elt F) (LoadRect.whole S100000) S0)
        ![(s1V : Memref sig .scVector .vmem S16384 .i32).view.readAt (Elt F) (Rect.unit (s := S16384) oi S16.size hoi).toLoadRect S1] h x
      = tgtOf S0 S1 k2v ((Rect.unit (s := S8192) oo S16.size hoo).emb x) := by
  have hx : (x 0).val < 16 := (x 0).isLt
  have h1 : oi 0 + 16 ≤ 16384 := hoi 0
  have h2 : oo 0 + 16 ≤ 8192 := hoo 0
  -- the index word both sides read
  have hidx : ((Rect.unit (s := S16384) oi S16.size hoi).toLoadRect.idx x : S16384.Idx)
      = ix1 (n := 16384) ⟨(8192 * k2v + (((Rect.unit (s := S8192) oo S16.size hoo).emb x) 0).val) % 16384, Nat.mod_lt _ (by decide)⟩ := by
    funext a
    obtain rfl : a = 0 := Subsingleton.elim _ _
    apply Fin.ext
    show oi 0 + 1 * (x 0).val = (8192 * k2v + (oo 0 + 1 * (x 0).val)) % 16384
    rw [Nat.mod_eq_of_lt (by omega)]; omega
  show S0 ((LoadRect.whole S100000).idx (idxAt _ h x)) = _
  unfold tgtOf
  congr 1
  funext a
  obtain rfl : a = 0 := Subsingleton.elim _ _
  apply Fin.ext
  show 0 + 1 * (S1 ((Rect.unit (s := S16384) oi S16.size hoi).toLoadRect.idx x)).toNat = _
  rw [hidx, Nat.zero_add, Nat.one_mul]
  exact (Nat.mod_eq_of_lt (hb _)).symm

/-- A store of sixteen entries of tgt at entry n extends the agreeing prefix from n to n + 16. -/
theorem agree_cons {tgt : S8192.Idx → Elt F .f32} {n : Nat} {f : S8192.Idx → Elt F .f32} {Ls : List (View.Piece (Elt F) S8192 .f32)}
    (hag : Agree tgt n ((s2V : Memref sig .scVector .vmem S8192 .f32).view.writes (Elt F) f Ls))
    (oo : Fin 1 → Nat) (hoo : ∀ a, oo a + S16.size a ≤ S8192.size a) (w : S16.Idx → Elt F .f32)
    (e0 : oo 0 = n) (n' : Nat) (hn' : n' = n + 16)
    (hw : ∀ x, w x = tgt ((Rect.unit (s := S8192) oo S16.size hoo).emb x)) :
    Agree tgt n' ((s2V : Memref sig .scVector .vmem S8192 .f32).view.writes (Elt F) f (⟨Rect.unit (s := S8192) oo S16.size hoo, w⟩ :: Ls)) := by
  subst hn'
  intro j hj
  by_cases hm : j ∈ (Rect.unit (s := S8192) oo S16.size hoo).set
  · obtain ⟨x, rfl⟩ := (Rect.unit (s := S8192) oo S16.size hoo).exists_idx_of_mem hm
    exact ((s2V : Memref sig .scVector .vmem S8192 .f32).view.read_writes_cons_emb f (Rect.unit (s := S8192) oo S16.size hoo) w Ls x).trans (hw x)
  · have hlt : (j 0).val < n := by
      by_contra hge
      refine hm (Rect.mem_set_unit.mpr fun a => ?_)
      obtain rfl : a = 0 := Subsingleton.elim _ _
      have : (S16.size 0) = 16 := rfl
      constructor <;> omega
    have hnm : j ∉ Finset.univ.map (Rect.unit (s := S8192) oo S16.size hoo).emb := by rwa [Rect.map_emb_univ]
    exact ((s2V : Memref sig .scVector .vmem S8192 .f32).view.read_slice_write_of_not_mem (Rect.unit (s := S8192) oo S16.size hoo) _ w Finset.univ hnm).trans (hag j hlt)

end Cert.Proof.KI

end
-- ==== Proof.KI.ScTrip3.lean ====
/-
  One trip of a vector subcore's innermost loop: sixteen gathers of sixteen lanes each, stored into the output scratch
  behind the entries the earlier trips filled.
-/
import proofs.«205318_g12532714570102_cont_fleet_669_37_alg».proof.Proof.KI.ScVal
import proofs.«205318_g12532714570102_cont_fleet_669_37_alg».proof.Proof.Gen.KernelIdeal.Skeleton
import Idealize.ShloMosaic.Lib.SparseCore.Ops
import Idealize.ShloMosaic.Lib.Tactic
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

variable [FloatOps F]

variable (d : Dev nD) (L : grid0.Coords)

/-- Before trip k of the innermost loop of half k2v: the index scratch at S1, the plane scratch at S0, and the output
    scratch holding the gathered values on its first 256 * k entries. -/
def I3 (S0 : Buf (Elt F) ((thr d L).loc cc0_scratch0)) (S1 : Buf (Elt F) ((thr d L).loc cc0_scratch1)) (k2v : Nat)
    (k : Nat) (_ : Unit) : sProp 𝕄 :=
  iprop(((s1V : Memref sig .scVector .vmem S16384 .i32).view.loc (thr d L) ↦{fullShare} S1)
    ∗ ((s0V : Memref sig .scVector .vmem S100000 .f32).view.loc (thr d L) ↦{fullShare} S0)
    ∗ ∃ s2, ((s2V : Memref sig .scVector .vmem S8192 .f32).view.loc (thr d L) ↦{fullShare} s2) ∗ ⌜Agree (tgtOf S0 S1 k2v) (256 * k) s2⌝)

/-- Every check of the loaded index words passes: they are words of the index scratch, all below the table's extent. -/
theorem chk_of_bound {S1 : Buf (Elt F) ((thr d L).loc cc0_scratch1)} (hb : ∀ j, (S1 j).toNat < 100000)
    (off : Fin 1 → Nat) (h : ∀ a, off a + S16.size a ≤ S16384.size a) :
    ∀ a x, ((![(s1V : Memref sig .scVector .vmem S16384 .i32).view.readAt (Elt F) (Rect.unit (s := S16384) off S16.size h).toLoadRect S1] : Fin 1 → IVec S16 32) a x).toNat < S100000.size a := by
  intro a x
  obtain rfl : a = 0 := Subsingleton.elim _ _
  show ((s1V : Memref sig .scVector .vmem S16384 .i32).view.readAt (Elt F) (Rect.unit (s := S16384) off S16.size h).toLoadRect S1 x).toNat < 100000
  simp only [View.readAt_apply, Memref.view_whole, View.read_whole]
  exact hb _

set_option maxHeartbeats 4000000 in
/-- One trip: from the first 256 * k3 entries gathered to the first 256 * (k3 + 1). -/
theorem trip3 (S0 : Buf (Elt F) ((thr d L).loc cc0_scratch0)) (S1 : Buf (Elt F) ((thr d L).loc cc0_scratch1))
    (hb : ∀ j, (S1 j).toNat < 100000) (k2 : Fin k0_t2_loop.trips) (k3 : Fin k0_t3_loop.trips) :
    I3 d L S0 S1 k2.val k3.val () ⊢ wp frame (wpE (defs₀ (F := F)) 𝒱₀ (thr d L) none) Set.univ
      (k0_t3_body L aV (Memref.isWhole_whole _) xV (Memref.isWhole_whole _) eV (Memref.isWhole_whole _) s0V (Memref.isWhole_whole _)
        s1V (Memref.isWhole_whole _) s2V (Memref.isWhole_whole _) cc0_scoped0 cc0_scoped1 cc0_scoped2 k2 (Scf.iv 0#32 1#32 k2) k3 ())
      (I3 d L S0 S1 k2.val (k3.val + 1)) := by
  unfold k0_t3_body
  simp only [k0_part1_eq_skeleton, k0_part2_eq_skeleton, k0_part3_eq_skeleton]
  unfold k0_part1_skel k0_part2_skel k0_part3_skel
  simp only [SparseCore.vectorLoadIdx_bind (thr d L)]
  unfold I3
  iintro ⟨H1, H0, %s2, H2, %hag⟩
  sl_exec (disch := exact chk_of_bound d L hb _ _)
  sl_step
  isplitl [H1]; · iexact H1
  isplitl [H0]; · iexact H0
  iexists _
  isplitl [H2]; · iexact H2
  ipureintro
  refine agree_cons (n := 256 * k3.val + 240) ?_ _ _ _ (by rw [k0_off34_eq]; rfl) _ (by omega)
    (fun x => gather_val S0 S1 hb k2.val _ _ _ _ _ (by rw [k0_off33_eq, k0_off34_eq]; first | rfl | exact Nat.add_assoc _ _ _) x)
  refine agree_cons (n := 256 * k3.val + 224) ?_ _ _ _ (by rw [k0_off32_eq]; rfl) _ (by omega)
    (fun x => gather_val S0 S1 hb k2.val _ _ _ _ _ (by rw [k0_off31_eq, k0_off32_eq]; first | rfl | exact Nat.add_assoc _ _ _) x)
  refine agree_cons (n := 256 * k3.val + 208) ?_ _ _ _ (by rw [k0_off30_eq]; rfl) _ (by omega)
    (fun x => gather_val S0 S1 hb k2.val _ _ _ _ _ (by rw [k0_off29_eq, k0_off30_eq]; first | rfl | exact Nat.add_assoc _ _ _) x)
  refine agree_cons (n := 256 * k3.val + 192) ?_ _ _ _ (by rw [k0_off28_eq]; rfl) _ (by omega)
    (fun x => gather_val S0 S1 hb k2.val _ _ _ _ _ (by rw [k0_off27_eq, k0_off28_eq]; first | rfl | exact Nat.add_assoc _ _ _) x)
  refine agree_cons (n := 256 * k3.val + 176) ?_ _ _ _ (by rw [k0_off26_eq]; rfl) _ (by omega)
    (fun x => gather_val S0 S1 hb k2.val _ _ _ _ _ (by rw [k0_off25_eq, k0_off26_eq]; first | rfl | exact Nat.add_assoc _ _ _) x)
  refine agree_cons (n := 256 * k3.val + 160) ?_ _ _ _ (by rw [k0_off24_eq]; rfl) _ (by omega)
    (fun x => gather_val S0 S1 hb k2.val _ _ _ _ _ (by rw [k0_off23_eq, k0_off24_eq]; first | rfl | exact Nat.add_assoc _ _ _) x)
  refine agree_cons (n := 256 * k3.val + 144) ?_ _ _ _ (by rw [k0_off22_eq]; rfl) _ (by omega)
    (fun x => gather_val S0 S1 hb k2.val _ _ _ _ _ (by rw [k0_off21_eq, k0_off22_eq]; first | rfl | exact Nat.add_assoc _ _ _) x)
  refine agree_cons (n := 256 * k3.val + 128) ?_ _ _ _ (by rw [k0_off20_eq]; rfl) _ (by omega)
    (fun x => gather_val S0 S1 hb k2.val _ _ _ _ _ (by rw [k0_off19_eq, k0_off20_eq]; first | rfl | exact Nat.add_assoc _ _ _) x)
  refine agree_cons (n := 256 * k3.val + 112) ?_ _ _ _ (by rw [k0_off18_eq]; rfl) _ (by omega)
    (fun x => gather_val S0 S1 hb k2.val _ _ _ _ _ (by rw [k0_off17_eq, k0_off18_eq]; first | rfl | exact Nat.add_assoc _ _ _) x)
  refine agree_cons (n := 256 * k3.val + 96) ?_ _ _ _ (by rw [k0_off16_eq]; rfl) _ (by omega)
    (fun x => gather_val S0 S1 hb k2.val _ _ _ _ _ (by rw [k0_off15_eq, k0_off16_eq]; first | rfl | exact Nat.add_assoc _ _ _) x)
  refine agree_cons (n := 256 * k3.val + 80) ?_ _ _ _ (by rw [k0_off14_eq]; rfl) _ (by omega)
    (fun x => gather_val S0 S1 hb k2.val _ _ _ _ _ (by rw [k0_off13_eq, k0_off14_eq]; first | rfl | exact Nat.add_assoc _ _ _) x)
  refine agree_cons (n := 256 * k3.val + 64) ?_ _ _ _ (by rw [k0_off12_eq]; rfl) _ (by omega)
    (fun x => gather_val S0 S1 hb k2.val _ _ _ _ _ (by rw [k0_off11_eq, k0_off12_eq]; first | rfl | exact Nat.add_assoc _ _ _) x)
  refine agree_cons (n := 256 * k3.val + 48) ?_ _ _ _ (by rw [k0_off10_eq]; rfl) _ (by omega)
    (fun x => gather_val S0 S1 hb k2.val _ _ _ _ _ (by rw [k0_off9_eq, k0_off10_eq]; first | rfl | exact Nat.add_assoc _ _ _) x)
  refine agree_cons (n := 256 * k3.val + 32) ?_ _ _ _ (by rw [k0_off8_eq]; rfl) _ (by omega)
    (fun x => gather_val S0 S1 hb k2.val _ _ _ _ _ (by rw [k0_off7_eq, k0_off8_eq]; first | rfl | exact Nat.add_assoc _ _ _) x)
  refine agree_cons (n := 256 * k3.val + 16) ?_ _ _ _ (by rw [k0_off6_eq]; rfl) _ (by omega)
    (fun x => gather_val S0 S1 hb k2.val _ _ _ _ _ (by rw [k0_off5_eq, k0_off6_eq]; first | rfl | exact Nat.add_assoc _ _ _) x)
  refine agree_cons (n := 256 * k3.val) ?_ _ _ _ (by rw [k0_off4_eq]; rfl) _ (by omega)
    (fun x => gather_val S0 S1 hb k2.val _ _ _ _ _ (by rw [k0_off3_eq, k0_off4_eq]; first | rfl | exact Nat.add_assoc _ _ _) x)
  exact hag

end Cert.Proof.KI

end
-- ==== Proof.KI.ScPieces.lean ====
/-
  A vector subcore's 26 pieces of the result while it works: the pieces it has written hold the gathered value, the
  others what they held at the call. Pieces are written in the order of 2 * k1 + k2.
-/
import proofs.«205318_g12532714570102_cont_fleet_669_37_alg».proof.Proof.KI.ScVal
import proofs.«205318_g12532714570102_cont_fleet_669_37_alg».proof.Proof.Gen.KernelIdeal.Skeleton
import Idealize.ShloMosaic.Lib.SparseCore.Ops
import Idealize.ShloMosaic.Lib.Tactic
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

variable (A : (d : Dev nD) → Buf (Elt F) (aLoc d)) (X : (d : Dev nD) → Buf (Elt F) (xLoc d)) (E0 : (d : Dev nD) → Buf (Elt F) (eLoc d))
variable (d : Dev nD) (L : grid0.Coords)

theorem trips1 : k0_t1_loop.trips = 13 := by decide
theorem trips2 : k0_t2_loop.trips = 2 := by decide

/-- What piece p holds once the first n pieces are written. -/
def pcsVal (n : Nat) (p : Fin k0_t1_loop.trips × Fin k0_t2_loop.trips) : Buf (Elt F) (eLoc d) :=
  if 2 * p.1.val + p.2.val < n then embOf A X d else E0 d

/-- The 26 pieces, the first n written. -/
def EP (n : Nat) : sProp 𝕄 :=
  bigSep Finset.univ fun p : Fin k0_t1_loop.trips × Fin k0_t2_loop.trips =>
    eLoc d ↦[(ePc L p.1 p.2).view.set]{fullShare} pcsVal A X E0 d n p

theorem EP_zero : EP A X E0 d L 0 = tilePcs d L (E0 d) := by
  unfold EP tilePcs
  exact bigSep_congr fun p _ => by rw [pcsVal, if_neg (Nat.not_lt_zero _)]

theorem EP_full : EP A X E0 d L 26 = tilePcs d L (embOf A X d) := by
  unfold EP tilePcs
  refine bigSep_congr fun p _ => ?_
  have h1 : p.1.val < 13 := trips1 ▸ p.1.isLt
  have h2 : p.2.val < 2 := trips2 ▸ p.2.isLt
  rw [pcsVal, if_pos (by omega)]

/-- The next piece to write, at its contents at the call, and the others. -/
theorem EP_take (k1 : Fin k0_t1_loop.trips) (k2 : Fin k0_t2_loop.trips) :
    EP A X E0 d L (2 * k1.val + k2.val)
      = iprop((eLoc d ↦[(ePc L k1 k2).view.set]{fullShare} E0 d)
          ∗ bigSep (Finset.univ.erase (k1, k2)) fun p : Fin k0_t1_loop.trips × Fin k0_t2_loop.trips =>
              eLoc d ↦[(ePc L p.1 p.2).view.set]{fullShare} pcsVal A X E0 d (2 * k1.val + k2.val) p) := by
  unfold EP
  rw [SparseCore.bigSep_erase' (Finset.mem_univ (k1, k2))]
  congr 1
  rw [pcsVal, if_neg (Nat.lt_irrefl _)]

/-- That piece written: one more piece holds the gathered value. -/
theorem EP_put (k1 : Fin k0_t1_loop.trips) (k2 : Fin k0_t2_loop.trips) :
    iprop((eLoc d ↦[(ePc L k1 k2).view.set]{fullShare} embOf A X d)
        ∗ bigSep (Finset.univ.erase (k1, k2)) fun p : Fin k0_t1_loop.trips × Fin k0_t2_loop.trips =>
            eLoc d ↦[(ePc L p.1 p.2).view.set]{fullShare} pcsVal A X E0 d (2 * k1.val + k2.val) p)
      = EP A X E0 d L (2 * k1.val + k2.val + 1) := by
  unfold EP
  rw [SparseCore.bigSep_erase' (Finset.mem_univ (k1, k2))]
  congr 1
  · rw [pcsVal, if_pos (Nat.lt_succ_self _)]
  · refine bigSep_congr fun p hp => ?_
    have hne : p ≠ (k1, k2) := (Finset.mem_erase.mp hp).1
    have h2 : p.2.val < 2 := trips2 ▸ p.2.isLt
    have h2' : k2.val < 2 := trips2 ▸ k2.isLt
    have hn : 2 * p.1.val + p.2.val ≠ 2 * k1.val + k2.val := fun e =>
      hne (Prod.ext (Fin.ext (show p.1.val = k1.val by omega)) (Fin.ext (show p.2.val = k2.val by omega)))
    unfold pcsVal
    by_cases hlt : 2 * p.1.val + p.2.val < 2 * k1.val + k2.val
    · rw [if_pos hlt, if_pos (by omega)]
    · rw [if_neg hlt, if_neg (by omega)]

/-- The arrays as the vector subcore's memrefs address them are the TensorCore's arrays. -/
theorem pts_a (q : PosShare TreeShare) (f : Buf (Elt F) (aLoc d)) :
    ((aV : Memref sig .scVector .hbm S26x16x100000 .f32).view.loc (thr d L) ↦{q} f : sProp 𝕄) = aLoc d ↦{q} f := rfl
theorem pts_x (q : PosShare TreeShare) (f : Buf (Elt F) (xLoc d)) :
    ((xV : Memref sig .scVector .hbm S39x16384 .i32).view.loc (thr d L) ↦{q} f : sProp 𝕄) = xLoc d ↦{q} f := rfl
theorem pts_ePc (k1 : Fin k0_t1_loop.trips) (k2 : Fin k0_t2_loop.trips) (f : Buf (Elt F) (eLoc d)) :
    ((ePc L k1 k2).view.loc (thr d L) ↦[(ePc L k1 k2).view.set]{fullShare} f : sProp 𝕄) = eLoc d ↦[(ePc L k1 k2).view.set]{fullShare} f := rfl

end Cert.Proof.KI

end
-- ==== Proof.KI.ScTrip2.lean ====
/-
  One trip of a vector subcore's middle loop: the 32 trips of the innermost loop fill the output scratch with half k2 of
  the current row, then the scratch is copied out to that half's piece of the result.
-/
import proofs.«205318_g12532714570102_cont_fleet_669_37_alg».proof.Proof.KI.ScTrip3
import proofs.«205318_g12532714570102_cont_fleet_669_37_alg».proof.Proof.KI.ScPieces
import proofs.«205318_g12532714570102_cont_fleet_669_37_alg».proof.Proof.Gen.KernelIdeal.Skeleton
import Idealize.ShloMosaic.Lib.SparseCore.Ops
import Idealize.ShloMosaic.Lib.Tactic
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

variable [FloatOps F]

variable (A : (d : Dev nD) → Buf (Elt F) (aLoc d)) (X : (d : Dev nD) → Buf (Elt F) (xLoc d)) (E0 : (d : Dev nD) → Buf (Elt F) (eLoc d))
variable (d : Dev nD) (L : grid0.Coords)

/-- Before trip k of the middle loop of row k1: both scratches read as before, the output scratch at anything, the
    copy-out's semaphore at zero, and the pieces up to half k of row k1 written. -/
def I2 (k1 : Fin k0_t1_loop.trips) (S0 : Buf (Elt F) ((thr d L).loc cc0_scratch0)) (S1 : Buf (Elt F) ((thr d L).loc cc0_scratch1))
    (O : CellTallies nD τ sig (HIx 1)) (W : Waits sig (HIx 1)) (k : Nat) (_ : Unit) : sProp 𝕄 :=
  iprop(Transfers.MayWaits (thr d L) (none : HIx 1) O
    ∗ ((s1V : Memref sig .scVector .vmem S16384 .i32).view.loc (thr d L) ↦{fullShare} S1)
    ∗ ((s0V : Memref sig .scVector .vmem S100000 .f32).view.loc (thr d L) ↦{fullShare} S0)
    ∗ (∃ s2, (s2V : Memref sig .scVector .vmem S8192 .f32).view.loc (thr d L) ↦{fullShare} s2)
    ∗ semVal (thr d L, SemLoc.dma cc0_scoped2.sem) 0
    ∗ EP A X E0 d L (2 * k1.val + k)
    ∗ ∃ W', ⌜∀ p ∈ W', p ∈ W ∨ p.2 = none⌝ ∗ owes (thr d L) O W')

/-- The piece written whole with the gathered value holds the result's value there. -/
theorem piece_congr (k1 : Fin k0_t1_loop.trips) (k2 : Fin k0_t2_loop.trips) (f : Buf (Elt F) (eLoc d)) (w : S8192.Idx → Elt F .f32)
    (hw : ∀ j, w j = embOf A X d ((ePc L k1 k2).view.emb j)) :
    ((ePc L k1 k2).view.loc (thr d L) ↦[(ePc L k1 k2).view.set]{fullShare} (ePc L k1 k2).view.writes (Elt F) f [⟨Rect.whole S8192, w⟩] : sProp 𝕄)
      = eLoc d ↦[(ePc L k1 k2).view.set]{fullShare} embOf A X d := by
  refine (pts_ePc (F := F) d L k1 k2 _).trans (pointsTo_congr fun i hi => ?_)
  obtain ⟨j, -, rfl⟩ := Finset.mem_map.mp hi
  have h1 : (ePc L k1 k2).view.read (Elt F) ((ePc L k1 k2).view.writes (Elt F) f [⟨Rect.whole S8192, w⟩]) j
      = (ePc L k1 k2).view.writes (Elt F) f [⟨Rect.whole S8192, w⟩] ((ePc L k1 k2).view.emb j) :=
    (View.read_apply _ _).trans (cast_eq _ _)
  have h2 := (ePc L k1 k2).view.read_writes_cons_emb (Val := Elt F) f (Rect.whole S8192) w [] j
  rw [Rect.emb_whole_apply] at h2
  exact h1.symm.trans (h2.trans (hw j))

set_option maxHeartbeats 4000000 in
theorem trip2 (k1 : Fin k0_t1_loop.trips) (S0 : Buf (Elt F) ((thr d L).loc cc0_scratch0)) (S1 : Buf (Elt F) ((thr d L).loc cc0_scratch1))
    (O : CellTallies nD τ sig (HIx 1)) (W : Waits sig (HIx 1))
    (hb : ∀ j, (S1 j).toNat < 100000)
    (hval : ∀ (k2 : Fin k0_t2_loop.trips) (j : S8192.Idx), tgtOf S0 S1 k2.val j = embOf A X d ((ePc L k1 k2).view.emb j))
    (k2 : Fin k0_t2_loop.trips) :
    I2 A X E0 d L k1 S0 S1 O W k2.val () ⊢ wp frame (wpE (defs₀ (F := F)) 𝒱₀ (thr d L) none) Set.univ
      (k0_t2_body L aV (Memref.isWhole_whole _) xV (Memref.isWhole_whole _) eV (Memref.isWhole_whole _) s0V (Memref.isWhole_whole _)
        s1V (Memref.isWhole_whole _) s2V (Memref.isWhole_whole _) cc0_scoped0 cc0_scoped1 cc0_scoped2 k1 k2 ())
      (I2 A X E0 d L k1 S0 S1 O W (k2.val + 1)) := by
  unfold k0_t2_body
  unfold I2
  iintro ⟨Hmw, H1, H0, ⟨%s2, H2⟩, Hsem, HEP, %W', %hW', HO⟩
  sl_exec
  sl_for (I3 d L S0 S1 k2.val) $$ [H1 H0 H2]
  case region =>
    intro k3 _
    exact trip3 d L S0 S1 hb k2 k3
  · unfold I3
    isplitl [H1]; · iexact H1
    isplitl [H0]; · iexact H0
    iexists s2
    isplitl [H2]; · iexact H2
    ipureintro
    intro j hj
    omega
  iintro %_ HI
  unfold I3
  icases HI with ⟨H1, H0, %s2', H2, %hag⟩
  ihave HEP' := (Entails.of_eq (EP_take A X E0 d L k1 k2)) $$ HEP
  icases HEP' with ⟨Hpc, Hrest⟩
  ihave Hpc' := (Entails.of_eq (pts_ePc (F := F) d L k1 k2 _).symm) $$ Hpc
  sl_exec (disch := exact View.amount_pos _ _ (show 0 < S8192.numel by decide))
  have h32 : 256 * Scf.trips k0_t3_loop.lb k0_t3_loop.ub k0_t3_loop.st = 8192 := by decide
  rw [h32] at hag
  ihave Hpc := (Entails.of_eq (piece_congr A X d L k1 k2 (E0 d) (trip2.sl.dma0 d L s2') (fun j => show s2' j = _ from (hag j (j 0).isLt).trans (hval k2 j)))) $$ Hpc'
  sl_step
  isplitl [Hmw]; · iexact Hmw
  isplitl [H1]; · iexact H1
  isplitl [H0]; · iexact H0
  isplitl [H2]; · iexists _; iexact H2
  isplitl [Hsem]; · iexact Hsem
  isplitl [Hrest Hpc]
  · rw [show 2 * k1.val + (k2.val + 1) = 2 * k1.val + k2.val + 1 from by omega, ← EP_put A X E0 d L k1 k2]
    isplitl [Hpc]; · iexact Hpc
    iexact Hrest
  iexists (insert (SemLoc.dma cc0_scoped2.sem, (default : HIx 1)) W'); isplitr
  · ipureintro; intro p hp
    rcases Finset.mem_insert.mp hp with hp | hp
    · exact .inr (hp ▸ rfl)
    · exact hW' p hp
  · iexact HO

end Cert.Proof.KI

end
-- ==== Proof.KI.ScOffs.lean ====
/-
  Closed forms of the row offsets a vector subcore computes with a floor division and a remainder: row k of the
  subcore at grid point (c, s) is plane p = 26 * s + 13 * c + k of the 416; its index row is p / 16 and its table
  row is (p / 16, p % 16). And the placements of the three sliced views in their arrays.
-/
import proofs.«205318_g12532714570102_cont_fleet_669_37_alg».proof.Proof.KI.ScVal
import Idealize.ShloMosaic.Lib.ValueLayout
import proofs.«205318_g12532714570102_cont_fleet_669_37_alg».proof.Proof.Gen.KernelIdeal.Skeleton
import Idealize.ShloMosaic.Lib.SparseCore.Ops
import Idealize.ShloMosaic.Lib.Tactic
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

/-- Every grid point is the point of its two coordinates. -/
theorem coords_eta (L : grid0.Coords) : L = coordsV (L 0) (L 1) := by
  funext a
  match a with
  | 0 => rfl
  | 1 => rfl

/-- The plane a vector subcore works on in trip k1. -/
def planeOf (L : grid0.Coords) (k1 : Fin k0_t1_loop.trips) : Nat := 26 * (L 1).val + 13 * (L 0).val + k1.val

theorem planeOf_lt (L : grid0.Coords) (k1 : Fin k0_t1_loop.trips) : planeOf L k1 < 416 := by
  have h0 : (L 0).val < 2 := (L 0).isLt
  have h1 : (L 1).val < 16 := (L 1).isLt
  have h2 : k1.val < 13 := lt_of_lt_of_eq k1.isLt (show k0_t1_loop.trips = 13 by decide)
  unfold planeOf; omega

set_option maxRecDepth 100000 in
theorem k0_off1_cs : ∀ (c : Fin 2) (s : Fin 16) (k1 : Fin k0_t1_loop.trips),
    k0_off1 (coordsV c s) k1 = ![(26 * s.val + 13 * c.val + k1.val) / 16, 0] := by decide +kernel

set_option maxRecDepth 100000 in
theorem k0_off2_cs : ∀ (c : Fin 2) (s : Fin 16) (k1 : Fin k0_t1_loop.trips),
    k0_off2 (coordsV c s) k1 = ![(26 * s.val + 13 * c.val + k1.val) / 16, (26 * s.val + 13 * c.val + k1.val) % 16, 0] := by decide +kernel

theorem k0_off1_closed (L : grid0.Coords) (k1 : Fin k0_t1_loop.trips) : k0_off1 L k1 = ![planeOf L k1 / 16, 0] := by
  conv_lhs => rw [coords_eta L]
  exact k0_off1_cs (L 0) (L 1) k1

theorem k0_off2_closed (L : grid0.Coords) (k1 : Fin k0_t1_loop.trips) : k0_off2 L k1 = ![planeOf L k1 / 16, planeOf L k1 % 16, 0] := by
  conv_lhs => rw [coords_eta L]
  exact k0_off2_cs (L 0) (L 1) k1

theorem k0_off35_closed (L : grid0.Coords) (k1 : Fin k0_t1_loop.trips) (k2 : Fin k0_t2_loop.trips) :
    k0_off35 L k1 k2 = ![planeOf L k1, 8192 * k2.val] := k0_off35_eq L k1 k2

end Cert.Proof.KI

end
-- ==== Proof.KI.ScEmb.lean ====
/-
  Where the three sliced views of a vector subcore's trip lie in their arrays, and the value its gathers produce: the
  plane scratch read at the index scratch's words is the result's gathered value on the piece written.
-/
import proofs.«205318_g12532714570102_cont_fleet_669_37_alg».proof.Proof.KI.ScOffs
import proofs.«205318_g12532714570102_cont_fleet_669_37_alg».proof.Proof.Gen.KernelIdeal.Skeleton
import Idealize.ShloMosaic.Lib.SparseCore.Ops
import Idealize.ShloMosaic.Lib.Tactic
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

/-- The index row and the table row trip k1 copies in, as the body slices them. -/
abbrev xRow (L : grid0.Coords) (k1 : Fin k0_t1_loop.trips) : Memref sig .scVector .hbm S16384 .i32 :=
  ((xV : Memref sig .scVector .hbm S39x16384 .i32).slice (Rect.unit (s := S39x16384) (k0_off1 L k1) S1x16384.size (k0_off1_inb L k1)) (fun _ => rfl)).squeeze S16384 squeezes_S1x16384_S16384
abbrev aRow (L : grid0.Coords) (k1 : Fin k0_t1_loop.trips) : Memref sig .scVector .hbm S100000 .f32 :=
  ((aV : Memref sig .scVector .hbm S26x16x100000 .f32).slice (Rect.unit (s := S26x16x100000) (k0_off2 L k1) S1x1x100000.size (k0_off2_inb L k1)) (fun _ => rfl)).squeeze S100000 squeezes_S1x1x100000_S100000

theorem reshape_1a (x : S100000.Idx) :
    Shape.reshapeEquiv (s := S1x1x100000) (s' := S100000) squeezes_S1x1x100000_S100000.numel_eq x
      = ix3 (n0 := 1) (n1 := 1) (n2 := 100000) ⟨0, Nat.one_pos⟩ ⟨0, Nat.one_pos⟩ (x 0) :=
  Shape.reshapeEquiv_eq_of_rowMajor _ (by
    rw [Shape.rowMajor_val_three, Shape.rowMajor_val_one]
    show (0 * 1 + 0) * 100000 + (x 0).val = (x 0).val
    omega)

theorem emb_ePc (L : grid0.Coords) (k1 : Fin k0_t1_loop.trips) (k2 : Fin k0_t2_loop.trips) (j : S8192.Idx) :
    (ePc L k1 k2).view.emb j = ix2 (n0 := 416) (n1 := 16384) ⟨planeOf L k1, planeOf_lt L k1⟩
      ⟨8192 * k2.val + (j 0).val, by have := (j 0).isLt; have : k2.val < 2 := lt_of_lt_of_eq k2.isLt (show k0_t2_loop.trips = 2 by decide)
                                     show 8192 * k2.val + (j 0).val < 16384; have : (j 0).val < 8192 := (j 0).isLt; omega⟩ := by
  have e : (ePc L k1 k2).view.emb j
      = (Rect.unit (s := S416x16384) (k0_off35 L k1 k2) S1x8192.size (k0_off35_inb L k1 k2)).emb
          (Shape.reshapeEquiv (s := S1x8192) (s' := S8192) squeezes_S1x8192_S8192.numel_eq j) := rfl
  rw [e, Shape.reshapeEquiv_cons_one]
  funext a
  match a with
  | 0 => exact Fin.ext (by show k0_off35 L k1 k2 0 + 1 * 0 = planeOf L k1; rw [k0_off35_closed]; rfl)
  | 1 => exact Fin.ext (by show k0_off35 L k1 k2 1 + 1 * (j 0).val = 8192 * k2.val + (j 0).val; rw [k0_off35_closed]; show 8192 * k2.val + 1 * (j 0).val = _; omega)

theorem emb_xRow (L : grid0.Coords) (k1 : Fin k0_t1_loop.trips) (b : S16384.Idx) :
    (xRow L k1).view.emb b = ix2 (n0 := 39) (n1 := 16384) ⟨planeOf L k1 / 16, by have := planeOf_lt L k1; omega⟩ (b 0) := by
  have e : (xRow L k1).view.emb b
      = (Rect.unit (s := S39x16384) (k0_off1 L k1) S1x16384.size (k0_off1_inb L k1)).emb
          (Shape.reshapeEquiv (s := S1x16384) (s' := S16384) squeezes_S1x16384_S16384.numel_eq b) := rfl
  rw [e, Shape.reshapeEquiv_cons_one]
  funext a
  match a with
  | 0 => exact Fin.ext (by show k0_off1 L k1 0 + 1 * 0 = planeOf L k1 / 16; rw [k0_off1_closed]; rfl)
  | 1 => exact Fin.ext (by show k0_off1 L k1 1 + 1 * (b 0).val = (b 0).val; rw [k0_off1_closed]; show 0 + 1 * (b 0).val = _; omega)

theorem emb_aRow (L : grid0.Coords) (k1 : Fin k0_t1_loop.trips) (r : S100000.Idx) :
    (aRow L k1).view.emb r = ix3 (n0 := 26) (n1 := 16) (n2 := 100000) ⟨planeOf L k1 / 16, by have := planeOf_lt L k1; omega⟩
      ⟨planeOf L k1 % 16, Nat.mod_lt _ (by decide)⟩ (r 0) := by
  have e : (aRow L k1).view.emb r
      = (Rect.unit (s := S26x16x100000) (k0_off2 L k1) S1x1x100000.size (k0_off2_inb L k1)).emb
          (Shape.reshapeEquiv (s := S1x1x100000) (s' := S100000) squeezes_S1x1x100000_S100000.numel_eq r) := rfl
  rw [e, reshape_1a]
  funext a
  match a with
  | 0 => exact Fin.ext (by show k0_off2 L k1 0 + 1 * 0 = planeOf L k1 / 16; rw [k0_off2_closed]; rfl)
  | 1 => exact Fin.ext (by show k0_off2 L k1 1 + 1 * 0 = planeOf L k1 % 16; rw [k0_off2_closed]; rfl)
  | 2 => exact Fin.ext (by show k0_off2 L k1 2 + 1 * (r 0).val = (r 0).val; rw [k0_off2_closed]; show 0 + 1 * (r 0).val = _; omega)

variable (A : (d : Dev nD) → Buf (Elt F) (aLoc d)) (X : (d : Dev nD) → Buf (Elt F) (xLoc d)) (d : Dev nD)

/-- What the two copies of trip k1 land in the scratches. -/
abbrev S0of (L : grid0.Coords) (k1 : Fin k0_t1_loop.trips) : S100000.Idx → Elt F .f32 := (aRow L k1).view.read (Elt F) (A d)
abbrev S1of (L : grid0.Coords) (k1 : Fin k0_t1_loop.trips) : S16384.Idx → Elt F .i32 := (xRow L k1).view.read (Elt F) (X d)

theorem S0of_apply (L : grid0.Coords) (k1 : Fin k0_t1_loop.trips) (r : S100000.Idx) : S0of A d L k1 r = A d ((aRow L k1).view.emb r) :=
  (View.read_apply _ _).trans (cast_eq _ _)
theorem S1of_apply (L : grid0.Coords) (k1 : Fin k0_t1_loop.trips) (b : S16384.Idx) : S1of X d L k1 b = X d ((xRow L k1).view.emb b) :=
  (View.read_apply _ _).trans (cast_eq _ _)

theorem S1of_bound (hpre : ∀ idx, (X d idx).toNat < 100000) (L : grid0.Coords) (k1 : Fin k0_t1_loop.trips) (b : S16384.Idx) :
    (S1of X d L k1 b).toNat < 100000 := by rw [S1of_apply]; exact hpre _

theorem S0of_ix (L : grid0.Coords) (k1 : Fin k0_t1_loop.trips) (r : Fin 100000) :
    S0of A d L k1 (ix1 r) = A d (ix3 (n0 := 26) (n1 := 16) (n2 := 100000) ⟨planeOf L k1 / 16, by have := planeOf_lt L k1; omega⟩
      ⟨planeOf L k1 % 16, Nat.mod_lt _ (by decide)⟩ r) := by
  rw [S0of_apply, emb_aRow]
theorem S1of_ix (L : grid0.Coords) (k1 : Fin k0_t1_loop.trips) (b : Fin 16384) :
    S1of X d L k1 (ix1 b) = X d (ix2 (n0 := 39) (n1 := 16384) ⟨planeOf L k1 / 16, by have := planeOf_lt L k1; omega⟩ b) := by
  rw [S1of_apply, emb_xRow]

theorem ix3_congr {α : Type} (A' : (⟨3, ![26, 16, 100000]⟩ : Shape).Idx → α) (f f' : Fin 26) (dd dd' : Fin 16) (r r' : Fin 100000)
    (h1 : f.val = f'.val) (h2 : dd.val = dd'.val) (h3 : r.val = r'.val) : A' (ix3 f dd r) = A' (ix3 f' dd' r') := by
  obtain rfl := Fin.ext h1; obtain rfl := Fin.ext h2; obtain rfl := Fin.ext h3; rfl
theorem ix2_congr {α : Type} (X' : (⟨2, ![39, 16384]⟩ : Shape).Idx → α) (f f' : Fin 39) (b b' : Fin 16384)
    (h1 : f.val = f'.val) (h2 : b.val = b'.val) : X' (ix2 f b) = X' (ix2 f' b') := by
  obtain rfl := Fin.ext h1; obtain rfl := Fin.ext h2; rfl

/-- The value: on the piece of half k2 of trip k1's row, the gathers of the two landed rows are the result's value. -/
theorem piece_val (L : grid0.Coords) (k1 : Fin k0_t1_loop.trips) (k2 : Fin k0_t2_loop.trips) (j : S8192.Idx) :
    tgtOf (S0of A d L k1) (S1of X d L k1) k2.val j = embOf A X d ((ePc L k1 k2).view.emb j) := by
  have hj : (j 0).val < 8192 := (j 0).isLt
  have hk2 : k2.val < 2 := lt_of_lt_of_eq k2.isLt (show k0_t2_loop.trips = 2 by decide)
  have hm : (8192 * k2.val + (j 0).val) % 16384 = 8192 * k2.val + (j 0).val := Nat.mod_eq_of_lt (by omega)
  rw [emb_ePc]
  unfold tgtOf embOf
  rw [S0of_ix]
  refine ix3_congr (A d) _ _ _ _ _ _ rfl rfl ?_
  show (S1of X d L k1 (ix1 _)).toNat % 100000 = (X d (ix2 _ _)).toNat % 100000
  rw [S1of_ix]
  exact congrArg (fun w : BitVec 32 => w.toNat % 100000) (ix2_congr (X d) _ _ _ _ rfl hm)

end Cert.Proof.KI

end
-- ==== Proof.KI.ScTrip1.lean ====
/-
  One trip of a vector subcore's outer loop: the plane's index row is copied in unless the previous trip's plane had
  the same field, the plane's table row is copied in, and the two halves of the result's row are gathered and written.
-/
import proofs.«205318_g12532714570102_cont_fleet_669_37_alg».proof.Proof.KI.ScTrip2
import proofs.«205318_g12532714570102_cont_fleet_669_37_alg».proof.Proof.KI.ScEmb
import proofs.«205318_g12532714570102_cont_fleet_669_37_alg».proof.Proof.Gen.KernelIdeal.Skeleton
import Idealize.ShloMosaic.Lib.SparseCore.Ops
import Idealize.ShloMosaic.Lib.Tactic
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

/-- The field word of the plane of trip k1: the plane floor-divided by 16, as the body computes it. -/
@[reducible] def fW (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_1 : BitVec 32 := 13#32
  let v4 : BitVec 32 := Scalar.muli v1 c13_i32_1
  let c0_i32 : BitVec 32 := 0#32
  let c1_i32 : BitVec 32 := 1#32
  let arg8 : BitVec 32 := Scf.iv c0_i32 c1_i32 k0_t1
  let v5 : BitVec 32 := Scalar.addi v4 arg8
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let c0_i32_20_r0 : BitVec 32 := 0#32
  v22

theorem off1_fW (L : grid0.Coords) (k1 : Fin k0_t1_loop.trips) : k0_off1 L k1 = ![(fW L k1).toNat, 0] := rfl

variable [FloatOps F]

variable (A : (d : Dev nD) → Buf (Elt F) (aLoc d)) (X : (d : Dev nD) → Buf (Elt F) (xLoc d)) (E0 : (d : Dev nD) → Buf (Elt F) (eLoc d))
variable (d : Dev nD) (L : grid0.Coords)

/-- The index scratch holds the index row of every trip whose field word is the carried one. -/
def S1inv (acc : BitVec 32) (s1 : S16384.Idx → Elt F .i32) : Prop :=
  ∀ k' : Fin k0_t1_loop.trips, fW L k' = acc → s1 = S1of X d L k'

/-- Before trip k of the outer loop, the carried field word acc. -/
def I1 (q : PosShare TreeShare) (O : CellTallies nD τ sig (HIx 1)) (W : Waits sig (HIx 1)) (k : Nat) (acc : BitVec 32) : sProp 𝕄 :=
  iprop(Transfers.MayWaits (thr d L) (none : HIx 1) O
    ∗ ((aV : Memref sig .scVector .hbm S26x16x100000 .f32).view.loc (thr d L) ↦{q} A d)
    ∗ ((xV : Memref sig .scVector .hbm S39x16384 .i32).view.loc (thr d L) ↦{q} X d)
    ∗ (∃ s0, (s0V : Memref sig .scVector .vmem S100000 .f32).view.loc (thr d L) ↦{fullShare} s0)
    ∗ (∃ s1, ((s1V : Memref sig .scVector .vmem S16384 .i32).view.loc (thr d L) ↦{fullShare} s1) ∗ ⌜S1inv X d L acc s1⌝)
    ∗ (∃ s2, (s2V : Memref sig .scVector .vmem S8192 .f32).view.loc (thr d L) ↦{fullShare} s2)
    ∗ semVal (thr d L, SemLoc.dma cc0_scoped0.sem) 0
    ∗ semVal (thr d L, SemLoc.dma cc0_scoped1.sem) 0
    ∗ semVal (thr d L, SemLoc.dma cc0_scoped2.sem) 0
    ∗ EP A X E0 d L (2 * k)
    ∗ ∃ W', ⌜∀ p ∈ W', p ∈ W ∨ p.2 = none⌝ ∗ owes (thr d L) O W')

/-- The conditional copy is skipped only when the carried field word is this trip's. -/
theorem eq_of_not_cond (a b : BitVec 32) (h : ¬ Scalar.cmpi .ne (Scalar.extui (Scalar.cmpi .ne a b)) 0#32 = 1#1) : a = b := by
  by_contra hne
  apply h
  have h1 : Scalar.cmpi .ne a b = 1#1 := by
    show BitVec.ofBool (a != b) = 1#1
    rw [show (a != b) = true from bne_iff_ne.mpr hne]; rfl
  rw [h1]; decide

omit [FloatOps F] in
/-- Trips with one field word copy the same index row. -/
theorem S1of_congr (k k' : Fin k0_t1_loop.trips) (h : fW L k' = fW L k) : S1of X d L k = S1of X d L k' := by
  have e : k0_off1 L k' = k0_off1 L k := by rw [off1_fW, off1_fW, h]
  have key : ∀ (o o' : Fin 2 → Nat) (ho : ∀ a, o a + S1x16384.size a ≤ S39x16384.size a) (ho' : ∀ a, o' a + S1x16384.size a ≤ S39x16384.size a), o' = o →
      (((xV : Memref sig .scVector .hbm S39x16384 .i32).slice (Rect.unit (s := S39x16384) o S1x16384.size ho) (fun _ => rfl)).squeeze S16384 squeezes_S1x16384_S16384).view.read (Elt F) (X d)
        = (((xV : Memref sig .scVector .hbm S39x16384 .i32).slice (Rect.unit (s := S39x16384) o' S1x16384.size ho') (fun _ => rfl)).squeeze S16384 squeezes_S1x16384_S16384).view.read (Elt F) (X d) := by
    intro o o' ho ho' e; subst e; rfl
  exact key _ _ _ _ e

/-- The word a vector subcore multiplies by 13 to find its first plane. -/
abbrev v1W (L : grid0.Coords) : BitVec 32 := Scalar.addi (Scalar.muli (BitVec.ofNat 32 (L 1).val) 2#32) (BitVec.ofNat 32 (L 0).val)

set_option maxHeartbeats 4000000 in
theorem trip1 (q : PosShare TreeShare) (O : CellTallies nD τ sig (HIx 1)) (W : Waits sig (HIx 1))
    (hpre : ∀ idx, (X d idx).toNat < 100000) (k1 : Fin k0_t1_loop.trips) (acc : BitVec 32) :
    I1 A X E0 d L q O W k1.val acc ⊢ wp frame (wpE (defs₀ (F := F)) 𝒱₀ (thr d L) none) Set.univ
      (k0_t1_body L aV (Memref.isWhole_whole _) xV (Memref.isWhole_whole _) eV (Memref.isWhole_whole _) s0V (Memref.isWhole_whole _)
        s1V (Memref.isWhole_whole _) s2V (Memref.isWhole_whole _) cc0_scoped0 cc0_scoped1 cc0_scoped2 (v1W L) k1 acc)
      (I1 A X E0 d L q O W (k1.val + 1)) := by
  unfold k0_t1_body
  unfold I1
  iintro ⟨Hmw, Ha, Hx, ⟨%s0, H0⟩, ⟨%s1, H1, %hs1⟩, ⟨%s2, H2⟩, Hsem0, Hsem1, Hsem2, HEP, %W', %hW', HO⟩
  by_cases hC : Scalar.cmpi .ne (Scalar.extui (Scalar.cmpi .ne (fW L k1) acc)) 0#32 = 1#1
  · sl_exec (disch := first | exact View.amount_pos _ _ (show 0 < S16384.numel by decide) | exact View.amount_pos _ _ (show 0 < S100000.numel by decide))
    have e0 : View.write (Elt F) (s0V : Memref sig .scVector .vmem S100000 .f32).view s0 (trip1.sl.dma0_1 A d L k1) Finset.univ = S0of A d L k1 :=
      View.write_whole_univ _ _ _
    have e1 : View.write (Elt F) (s1V : Memref sig .scVector .vmem S16384 .i32).view s1 (trip1.sl.dma0 X d L k1) Finset.univ = S1of X d L k1 :=
      View.write_whole_univ _ _ _
    rw [e0, e1]
    sl_for (I2 A X E0 d L k1 (S0of A d L k1) (S1of X d L k1) O W) $$ [Hmw H1 H0 H2 Hsem2 HEP HO]
    case region =>
      intro k2 _
      exact trip2 A X E0 d L k1 _ _ O W (S1of_bound X d hpre L k1) (fun k2 j => piece_val A X d L k1 k2 j) k2
    · unfold I2
      isplitl [Hmw]; · iexact Hmw
      isplitl [H1]; · iexact H1
      isplitl [H0]; · iexact H0
      isplitl [H2]; · iexists _; iexact H2
      isplitl [Hsem2]; · iexact Hsem2
      isplitl [HEP]; · rw [Nat.add_zero]; iexact HEP
      iexists (insert (SemLoc.dma cc0_scoped1.sem, (default : HIx 1)) (insert (SemLoc.dma cc0_scoped0.sem, (default : HIx 1)) W')); isplitr
      · ipureintro; intro p hp
        rcases Finset.mem_insert.mp hp with hp | hp
        · exact .inr (hp ▸ rfl)
        rcases Finset.mem_insert.mp hp with hp | hp
        · exact .inr (hp ▸ rfl)
        · exact hW' p hp
      · iexact HO
    iintro %_ HI
    unfold I2
    icases HI with ⟨Hmw, H1, H0, ⟨%s2', H2⟩, Hsem2, HEP, %W'', %hW'', HO⟩
    have h2 : 2 * k1.val + Scf.trips k0_t2_loop.lb k0_t2_loop.ub k0_t2_loop.st = 2 * (k1.val + 1) := by
      have : Scf.trips k0_t2_loop.lb k0_t2_loop.ub k0_t2_loop.st = 2 := by decide
      omega
    rw [h2]
    sl_exec
    sl_step
    isplitl [Hmw]; · iexact Hmw
    isplitl [Ha]; · iexact Ha
    isplitl [Hx]; · iexact Hx
    isplitl [H0]; · iexists _; iexact H0
    isplitl [H1]
    · iexists _; isplitl [H1]; · iexact H1
      ipureintro; intro k' hk'; exact S1of_congr X d L k1 k' hk'
    isplitl [H2]; · iexists _; iexact H2
    isplitl [Hsem0]; · iexact Hsem0
    isplitl [Hsem1]; · iexact Hsem1
    isplitl [Hsem2]; · iexact Hsem2
    isplitl [HEP]; · iexact HEP
    iexists W''; isplitr
    · ipureintro; exact hW''
    · iexact HO
  · sl_exec (disch := first | exact View.amount_pos _ _ (show 0 < S16384.numel by decide) | exact View.amount_pos _ _ (show 0 < S100000.numel by decide))
    have e0 : View.write (Elt F) (s0V : Memref sig .scVector .vmem S100000 .f32).view s0 (trip1.sl.dma0_2 A d L k1) Finset.univ = S0of A d L k1 :=
      View.write_whole_univ _ _ _
    have hs := hs1 k1 (eq_of_not_cond _ _ hC)
    subst hs
    rw [e0]
    sl_for (I2 A X E0 d L k1 (S0of A d L k1) (S1of X d L k1) O W) $$ [Hmw H1 H0 H2 Hsem2 HEP HO]
    case region =>
      intro k2 _
      exact trip2 A X E0 d L k1 _ _ O W (S1of_bound X d hpre L k1) (fun k2 j => piece_val A X d L k1 k2 j) k2
    · unfold I2
      isplitl [Hmw]; · iexact Hmw
      isplitl [H1]; · iexact H1
      isplitl [H0]; · iexact H0
      isplitl [H2]; · iexists _; iexact H2
      isplitl [Hsem2]; · iexact Hsem2
      isplitl [HEP]; · rw [Nat.add_zero]; iexact HEP
      iexists (insert (SemLoc.dma cc0_scoped1.sem, (default : HIx 1)) W'); isplitr
      · ipureintro; intro p hp
        rcases Finset.mem_insert.mp hp with hp | hp
        · exact .inr (hp ▸ rfl)
        · exact hW' p hp
      · iexact HO
    iintro %_ HI
    unfold I2
    icases HI with ⟨Hmw, H1, H0, ⟨%s2', H2⟩, Hsem2, HEP, %W'', %hW'', HO⟩
    have h2 : 2 * k1.val + Scf.trips k0_t2_loop.lb k0_t2_loop.ub k0_t2_loop.st = 2 * (k1.val + 1) := by
      have : Scf.trips k0_t2_loop.lb k0_t2_loop.ub k0_t2_loop.st = 2 := by decide
      omega
    rw [h2]
    sl_exec
    sl_step
    isplitl [Hmw]; · iexact Hmw
    isplitl [Ha]; · iexact Ha
    isplitl [Hx]; · iexact Hx
    isplitl [H0]; · iexists _; iexact H0
    isplitl [H1]
    · iexists _; isplitl [H1]; · iexact H1
      ipureintro; intro k' hk'; exact S1of_congr X d L k1 k' hk'
    isplitl [H2]; · iexists _; iexact H2
    isplitl [Hsem0]; · iexact Hsem0
    isplitl [Hsem1]; · iexact Hsem1
    isplitl [Hsem2]; · iexact Hsem2
    isplitl [HEP]; · iexact HEP
    iexists W''; isplitr
    · ipureintro; exact hW''
    · iexact HO

end Cert.Proof.KI

end
-- ==== Proof.KI.ScBody.lean ====
/-
  A vector subcore's whole task, and the launch theorem's obligation for the one SparseCore call: thirteen trips of the
  outer loop, from the pieces of the result at their contents at the call to the pieces at the gathered value.
-/
import proofs.«205318_g12532714570102_cont_fleet_669_37_alg».proof.Proof.KI.ScTrip1
import proofs.«205318_g12532714570102_cont_fleet_669_37_alg».proof.Proof.Gen.KernelIdeal.Skeleton
import Idealize.ShloMosaic.Lib.SparseCore.Ops
import Idealize.ShloMosaic.Lib.Tactic
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

variable [FloatOps F]

variable (A : (d : Dev nD) → Buf (Elt F) (aLoc d)) (X : (d : Dev nD) → Buf (Elt F) (xLoc d)) (E0 : (d : Dev nD) → Buf (Elt F) (eLoc d))
variable (d : Dev nD) (L : grid0.Coords)

abbrev c0cell : GSem nD τ sig := (thr d L, .dma cc0_scoped0.sem)
abbrev c1cell : GSem nD τ sig := (thr d L, .dma cc0_scoped1.sem)
abbrev c2cell : GSem nD τ sig := (thr d L, .dma cc0_scoped2.sem)

omit [FloatOps F] in
/-- The three copy semaphores are among the subcore's own scoped cells. -/
theorem ownSems0_V :
    (ownSems0 (thr d L) : sProp 𝕄)
      = iprop(semVal (c0cell d L) 0 ∗ semVal (c1cell d L) 0 ∗ semVal (c2cell d L) 0
          ∗ bigSep ((((ownCells (thr d L)).erase (c0cell d L)).erase (c1cell d L)).erase (c2cell d L)) fun g => semVal g 0) := by
  unfold SparseCore.Cfg.ownSems0
  rw [SparseCore.bigSep_erase' ((mem_ownCells (g := c0cell d L)).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc0_scoped1.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d L)).mpr ⟨rfl, by show (SemLoc.dma cc0_scoped2.sem : SemLoc sig).isScoped .scVector = true; decide⟩⟩⟩)]

omit [FloatOps F] in
/-- The three scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- No trip's field word is the word the loop starts from: it is a row of the index matrix. -/
theorem fW_ne_init (k1 : Fin k0_t1_loop.trips) : fW L k1 ≠ 4294967295#32 := by
  intro e
  have h := k0_off1_inb L k1 0
  rw [off1_fW, e] at h
  exact absurd h (by decide)

set_option maxHeartbeats 4000000 in
/-- The task of the vector subcore at grid point L of device d. -/
theorem tile_body (hF : (K (F := F)).Facts) (hpre : ∀ idx, (X d idx).toNat < 100000) (q : PosShare TreeShare)
    (O : CellTallies nD τ sig (HIx 1)) (W : Waits sig (HIx 1)) (hO : ∀ g, O g none = 0) :
    iprop(levAts (K (F := F)).L (K (F := F)).lev ∗ emp
        ∗ ((aLoc d ↦{q} A d) ∗ (xLoc d ↦{q} X d) ∗ tilePcs d L (E0 d))
        ∗ scopedBufs (thr d L) ∗ scopedSems0 (thr d L) ∗ owes (thr d L) O W)
      ⊢ wp frame (wpE (defs₀ (F := F)) 𝒱₀ (thr d L) none) Set.univ
          (cc0__sc_plane_gather_body L aV (Memref.isWhole_whole _) xV (Memref.isWhole_whole _) eV (Memref.isWhole_whole _)
            s0V (Memref.isWhole_whole _) s1V (Memref.isWhole_whole _) s2V (Memref.isWhole_whole _) cc0_scoped0 cc0_scoped1 cc0_scoped2)
          fun _ => iprop(((aLoc d ↦{q} A d) ∗ (xLoc d ↦{q} X d) ∗ tilePcs d L (embOf A X d))
            ∗ scopedBufs (thr d L) ∗ scopedSems0 (thr d L)
            ∗ ∃ W', ⌜∀ p ∈ W', p ∈ W ∨ p.2 = none⌝ ∗ owes (thr d L) O W') := by
  simp only [cc0__sc_plane_gather_body_eq_skeleton]; unfold cc0__sc_plane_gather_body_skel
  rw [(K (F := F)).scopedBufs_V hF d (cV L) (jV L), SparseCore.Cfg.scopedSems0_V (Val := Elt F) d (cV L) (jV L), ownSems0_V, ownBufs_V,
    ← EP_zero A X E0 d L, ← EP_full A X E0 d L]
  iintro ⟨#Hlv, -, ⟨Ha, Hx, HEP⟩, ⟨⟨%f0, Hs0⟩, ⟨%f1, Hs1⟩, ⟨%f2, Hs2⟩, Hbufs⟩, ⟨Hsem0, Hsem1, Hsem2, Hsems⟩, HO⟩
  ihave Hmw := ((K (F := F)).mayWaits_none (thr := thr d L) hO) $$ Hlv
  ihave Ha' := (Entails.of_eq (pts_a (F := F) d L q (A d)).symm) $$ Ha
  ihave Hx' := (Entails.of_eq (pts_x (F := F) d L q (X d)).symm) $$ Hx
  sl_exec
  sl_for (I1 A X E0 d L q O W) $$ [Hmw Ha' Hx' Hs0 Hs1 Hs2 Hsem0 Hsem1 Hsem2 HEP HO]
  case region =>
    intro k1 acc
    exact trip1 A X E0 d L q O W hpre k1 acc
  · unfold I1
    isplitl [Hmw]; · iexact Hmw
    isplitl [Ha']; · iexact Ha'
    isplitl [Hx']; · iexact Hx'
    isplitl [Hs0]; · iexists _; iexact Hs0
    isplitl [Hs1]
    · iexists f1; isplitl [Hs1]; · iexact Hs1
      ipureintro; intro k' hk'; exact absurd hk' (fW_ne_init L k')
    isplitl [Hs2]; · iexists _; iexact Hs2
    isplitl [Hsem0]; · iexact Hsem0
    isplitl [Hsem1]; · iexact Hsem1
    isplitl [Hsem2]; · iexact Hsem2
    isplitl [HEP]; · iexact HEP
    iexists W; isplitr
    · ipureintro; exact fun p hp => .inl hp
    · iexact HO
  iintro %acc HI
  unfold I1
  icases HI with ⟨-, Ha, Hx, ⟨%g0, Hs0⟩, ⟨%g1, Hs1, -⟩, ⟨%g2, Hs2⟩, Hsem0, Hsem1, Hsem2, HEP, %W', %hW', HO⟩
  sl_exec
  sl_step
  isplitl [Ha Hx HEP]
  · isplitl [Ha]; · iapply (Entails.of_eq (pts_a (F := F) d L q (A d))); iexact Ha
    isplitl [Hx]; · iapply (Entails.of_eq (pts_x (F := F) d L q (X d))); iexact Hx
    iexact HEP
  isplitl [Hs0 Hs1 Hs2 Hbufs]
  · isplitl [Hs0]; · iexists _; iexact Hs0
    isplitl [Hs1]; · iexists _; iexact Hs1
    isplitl [Hs2]; · iexists _; iexact Hs2
    iexact Hbufs
  isplitl [Hsem0 Hsem1 Hsem2 Hsems]
  · isplitl [Hsem0]; · iexact Hsem0
    isplitl [Hsem1]; · iexact Hsem1
    isplitl [Hsem2]; · iexact Hsem2
    iexact Hsems
  iexists W'; isplitr
  · ipureintro; exact hW'
  · iexact HO

/-! ## The launch theorem's obligation -/

theorem defs₀_vector (c : Fin τ.nSC) (s : Fin τ.nSub) :
    defs₀ (F := F) (.scVector c s) 0 ()
      = SparseCore.onTile hcore0 hsub0 (fun c s => cc0__sc_plane_gather_body (coordsV c s)
          aV (Memref.isWhole_whole _) xV (Memref.isWhole_whole _) eV (Memref.isWhole_whole _)
          s0V (Memref.isWhole_whole _) s1V (Memref.isWhole_whole _) s2V (Memref.isWhole_whole _) cc0_scoped0 cc0_scoped1 cc0_scoped2) ⟨⟩ c s := rfl

omit [FloatOps F] in
theorem obl_post {thr : Thread nD τ} {A' B C : sProp 𝕄} {O : CellTallies nD τ sig (HIx 1)} {W : Waits sig (HIx 1)} {q : Fin 1} :
    iprop(A' ∗ B ∗ C ∗ ∃ W', ⌜∀ p ∈ W', p ∈ W ∨ p.2 = none⌝ ∗ owes thr O W')
      ⊢ iprop(A' ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore's task, under the bound on the index words: the obligation of the one SparseCore call. -/
theorem tileObl (hpre : ∀ d idx, (X d idx).toNat < 100000) : (K (F := F)).TileObl (D (F := F)) 𝒱 (P A X E0) v₀ 0 := by
  intro d c i O W hO _ _
  simp only [show (P A X E0).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body A X E0 d (coordsV ⟨_, hc.1⟩ ⟨_, hc.2⟩) facts (hpre d) (qT (F := F) c i) O W hO).trans (wp_mono frame _ _ fun _ => obl_post)

end Cert.Proof.KI

end
-- ==== Proof.PreFacts.lean ====
import Idealize.ShloMosaic.Lib.ReduceAll
import Idealize.ShloMosaic.Lib.ValueIdx
import proofs.«205318_g12532714570102_cont_fleet_669_37_alg».proof.Pre_input_domain
import proofs.«205318_g12532714570102_cont_fleet_669_37_alg».proof.Proof.Gen.Pre_input_domain

/-!
# What the precondition says of the inputs

The precondition is a conjunction of nine "all entries satisfy …" tests: `|x| < +∞` for every
entry of the eight float arrays, and `0 ≤ x ≤ 99999` (signed) for every word of the integer array.
It is decoded for an arbitrary float instance (`decode`); the integer conjunct then gives the
range of every index word at any instance, and at the extended reals the float conjuncts say that
every entry is a real number.
-/

noncomputable section

namespace Cert.Proof.PreFacts

open Idealize.ShloMosaic Idealize.ShloMosaic.ValueIdx
open Cert.Pre_input_domain

/-- The scalar shape has one index. -/
instance : Subsingleton S_.Idx := ⟨fun _ _ => funext fun d => d.elim0⟩

/-- The element test of a float array: `|x| < +∞`, as the precondition computes it. -/
def FinTest {F : FTy → Type} [FloatOps F] (x : F .f32) : Prop :=
  FloatOps.cmpf .olt (FloatOps.hostAbsf x) (FloatOps.ofBits (F := F) .f32 0x7F800000#32) = 1#1

/-- The element test of the integer array: `0 ≤ x` and `x ≤ 99999`, signed. -/
def RangeTest (x : BitVec 32) : Prop :=
  IntOp.cmpi .sge x 0#32 = 1#1 ∧ IntOp.cmpi .sle x 99999#32 = 1#1

/-- The precondition, split into its nine conjuncts and each read at every index. -/
theorem decode {F : FTy → Type} [FloatOps F]
    (a0 : FVec F S16384x128 .f32) (a1 : IVec S16384x39 32) (a2 : FVec F S26x100000x16 .f32)
    (a3 : FVec F S429x256 .f32) (a4 : FVec F S256 .f32) (a5 : FVec F S256x128 .f32)
    (a6 : FVec F S128 .f32) (a7 : FVec F S256x2 .f32) (a8 : FVec F S2 .f32)
    (h : Cert.Pre_input_domain.fn (F := F) a0 a1 a2 a3 a4 a5 a6 a7 a8 = fun _ => 1#1) :
    (∀ i, FinTest (a0 i)) ∧ (∀ i, RangeTest (a1 i)) ∧ (∀ i, FinTest (a2 i)) ∧ (∀ i, FinTest (a3 i))
      ∧ (∀ i, FinTest (a4 i)) ∧ (∀ i, FinTest (a5 i)) ∧ (∀ i, FinTest (a6 i))
      ∧ (∀ i, FinTest (a7 i)) ∧ (∀ i, FinTest (a8 i)) := by
  have e := congrFun h ix0
  dsimp only [Cert.Pre_input_domain.fn, Cert.Pre_input_domain.fn_part1,
    Cert.Pre_input_domain.fn_part2] at e
  simp only [andi, IntOp.andi_eq_one] at e
  obtain ⟨⟨⟨⟨⟨⟨⟨⟨h0, h2⟩, h3⟩, h4⟩, h5⟩, h6⟩, h7⟩, h8⟩, h1⟩ := e
  refine ⟨fun i => ?_, fun i => ?_, fun i => ?_, fun i => ?_, fun i => ?_, fun i => ?_,
    fun i => ?_, fun i => ?_, fun i => ?_⟩
  · exact Host.reduce_andi_all _ _ _ _ _ h0 i
  · exact IntOp.andi_eq_one.1 (Host.reduce_andi_all _ _ _ _ _ h1 i)
  · exact Host.reduce_andi_all _ _ _ _ _ h2 i
  · exact Host.reduce_andi_all _ _ _ _ _ h3 i
  · exact Host.reduce_andi_all _ _ _ _ _ h4 i
  · exact Host.reduce_andi_all _ _ _ _ _ h5 i
  · exact Host.reduce_andi_all _ _ _ _ _ h6 i
  · exact Host.reduce_andi_all _ _ _ _ _ h7 i
  · exact Host.reduce_andi_all _ _ _ _ _ h8 i

/-- A word in `[0, 99999]` signed is below `100000` unsigned, and is its own signed value. -/
theorem range_of_test {x : BitVec 32} (h : RangeTest x) :
    0 ≤ x.toInt ∧ x.toInt ≤ 99999 ∧ x.toNat < 100000 := by
  obtain ⟨h0, h1⟩ := h
  rw [IntOp.cmpi_sge, show (0#32 : BitVec 32).toInt = 0 from by decide] at h0
  rw [IntOp.cmpi_sle, show (99999#32 : BitVec 32).toInt = 99999 from by decide] at h1
  refine ⟨h0, h1, ?_⟩
  have hc := BitVec.toInt_eq_toNat_cond x
  have hl := x.isLt
  split at hc <;> omega

/-- At the extended reals, `|x| < +∞` says `x` is a real number. -/
theorem real_of_test {x : Ideal .f32} (h : FinTest (F := Ideal) x) : ∃ r : ℝ, x = (r : EReal) := by
  unfold FinTest at h
  have htop : Ideal.ofBits .f32 0x7F800000#32 = (⊤ : EReal) := by
    simp [Ideal.ofBits, Ideal.ieee]
  have hlt : max x (-x) < (⊤ : EReal) := by
    have hb : BitVec.ofBool (decide (max x (-x) < (⊤ : EReal))) = 1#1 := by rw [← htop]; exact h
    by_contra hn
    rw [decide_eq_false hn] at hb
    exact absurd hb (by decide)
  have hx : x < ⊤ := lt_of_le_of_lt (le_max_left _ _) hlt
  have hnx : -x < ⊤ := lt_of_le_of_lt (le_max_right _ _) hlt
  have hxb : x ≠ ⊥ := by
    rintro rfl
    simp at hnx
  exact ⟨x.toReal, (EReal.coe_toReal hx.ne hxb).symm⟩

/-- The index words' range, at any float instance: every word of the integer array is in
`[0, 99999]` signed, hence below `100000` unsigned. -/
theorem xd_range {F : FTy → Type} [FloatOps F]
    (a0 : FVec F S16384x128 .f32) (a1 : IVec S16384x39 32) (a2 : FVec F S26x100000x16 .f32)
    (a3 : FVec F S429x256 .f32) (a4 : FVec F S256 .f32) (a5 : FVec F S256x128 .f32)
    (a6 : FVec F S128 .f32) (a7 : FVec F S256x2 .f32) (a8 : FVec F S2 .f32)
    (h : Cert.Pre_input_domain.fn (F := F) a0 a1 a2 a3 a4 a5 a6 a7 a8 = fun _ => 1#1)
    (i : S16384x39.Idx) :
    0 ≤ (a1 i).toInt ∧ (a1 i).toInt ≤ 99999 ∧ (a1 i).toNat < 100000 :=
  range_of_test ((decode a0 a1 a2 a3 a4 a5 a6 a7 a8 h).2.1 i)

/-- At the extended reals: every entry of every float array is a real number. -/
theorem reals_of_pre
    (a0 : FVec Ideal S16384x128 .f32) (a1 : IVec S16384x39 32) (a2 : FVec Ideal S26x100000x16 .f32)
    (a3 : FVec Ideal S429x256 .f32) (a4 : FVec Ideal S256 .f32) (a5 : FVec Ideal S256x128 .f32)
    (a6 : FVec Ideal S128 .f32) (a7 : FVec Ideal S256x2 .f32) (a8 : FVec Ideal S2 .f32)
    (h : Cert.Pre_input_domain.fn (F := Ideal) a0 a1 a2 a3 a4 a5 a6 a7 a8 = fun _ => 1#1) :
    (∀ i, ∃ r : ℝ, a0 i = (r : EReal)) ∧ (∀ i, ∃ r : ℝ, a2 i = (r : EReal))
      ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal))
      ∧ (∀ i, ∃ r : ℝ, a7 i = (r : EReal)) ∧ (∀ i, ∃ r : ℝ, a8 i = (r : EReal)) := by
  obtain ⟨h0, -, h2, h3, h4, h5, h6, h7, h8⟩ := decode a0 a1 a2 a3 a4 a5 a6 a7 a8 h
  exact ⟨fun i => real_of_test (h0 i), fun i => real_of_test (h2 i), fun i => real_of_test (h3 i),
    fun i => real_of_test (h4 i), fun i => real_of_test (h5 i), fun i => real_of_test (h6 i),
    fun i => real_of_test (h7 i), fun i => real_of_test (h8 i)⟩

end Cert.Proof.PreFacts
-- ==== Proof.KI.XRange.lean ====
import proofs.«205318_g12532714570102_cont_fleet_669_37_alg».proof.Proof.KI.Vals
import proofs.«205318_g12532714570102_cont_fleet_669_37_alg».proof.Proof.PreFacts
import Idealize.ShloMosaic.Lib.ValueLayout

/-!
# The index words the SparseCore call reads are in range

The call reads the transposed index matrix; entry `(r, b)` of it is entry `(b, r)` of the
argument, and under the precondition every word of the argument is below the tables' extent.
-/

noncomputable section

namespace Cert.Proof.KI

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]

variable (m : (ℓ : Loc nD τ sig) → Buf (Elt F) ℓ)

/-- The transposed index matrix at `(r, b)` is the argument at `(b, r)`. -/
theorem Xof_apply (d : Dev nD) (r : Fin 39) (b : Fin 16384) :
    (Xof m d : IVec S39x16384 32) (ix2 r b)
      = (m ((d.tc : Thread nD τ).loc main_arg1) : IVec S16384x39 32) (ix2 b r) := by
  have h : after (opsA (F := F)) (launchContents m d) (Proc.devRef .tc main_v1)
      = transpose S39x16384 [1, 0] (launchContents m d (Proc.devRef .tc main_arg1) : IVec S16384x39 32)
          transposes_S16384x39_S39x16384_1_0 := by
    after_results_simp <;> rfl
  exact (congrFun h _).trans
    (transpose_ix2_apply (launchContents m d (Proc.devRef .tc main_arg1) : IVec S16384x39 32) _ r b)

/-- Under the precondition every index word the SparseCore call reads is below `100000`. -/
theorem X_range
    (hpre : ∀ c : Dev nD, Cert.Pre_input_domain.fn (F := F)
      (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) = fun _ => 1#1) :
    ∀ (d : Dev nD) idx, (Xof m d idx).toNat < 100000 := by
  intro d idx
  obtain ⟨r, b, rfl⟩ : ∃ (r : Fin 39) (b : Fin 16384), idx = ix2 r b := ⟨idx 0, idx 1, eq_ix2 idx⟩
  show ((Xof m d : IVec S39x16384 32) (ix2 r b)).toNat < 100000
  rw [Xof_apply]
  exact (PreFacts.xd_range _ _ _ _ _ _ _ _ _ (hpre d) (ix2 b r)).2.2

end Cert.Proof.KI

end
-- ==== Proof.KI.Frame.lean ====
/-
  The kernel's program under the certificate's precondition: every weakly fair execution of its threads terminates,
  nothing faulting, with the result array at the composed valuation of the launch memory and the nine argument arrays
  as launched. (The precondition bounds every index word below the tables' extent, which is what each vector subcore's
  indexed loads need.)
-/
import proofs.«205318_g12532714570102_cont_fleet_669_37_alg».proof.Proof.KI.Launch
import proofs.«205318_g12532714570102_cont_fleet_669_37_alg».proof.Proof.KI.ScBody
import proofs.«205318_g12532714570102_cont_fleet_669_37_alg».proof.Proof.KI.XRange

noncomputable section

namespace Cert.Proof.KI

open Cert.KernelIdeal Cert.KernelIdeal.Gen

open Idealize.ShloMosaic Idealize.ShloMosaic.TcCoe Idealize.SL.Sem

variable {F : FTy → Type} [FloatOps F]

variable (m : (ℓ : Loc nD τ sig) → Buf (Elt F) ℓ) (ρ : Dev nD → PrngReg)

theorem run_args [∀ e, Nonempty (Elt F e)]
    (hpre : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) = fun _ => 1#1) :
    θ_run (Cert.KernelIdeal.defs (F := F)) (Cert.KernelIdeal.threads (F := F)) ⟨m, fun _ => 0, ρ⟩ (fun r => ∀ c : Dev nD,
      r.2.mem ((c.tc : Thread nD τ).loc main_v31) = WC m (o30 (F := F)) c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (Cert.KernelIdeal.defs (F := F)) _ _).mono (fun r h c => ⟨h c main_v31 (by decide),
      (h c main_arg0 (by decide)).trans (WC_arg0 m c),
      (h c main_arg1 (by decide)).trans (WC_arg1 m c),
      (h c main_arg2 (by decide)).trans (WC_arg2 m c),
      (h c main_arg3 (by decide)).trans (WC_arg3 m c),
      (h c main_arg4 (by decide)).trans (WC_arg4 m c),
      (h c main_arg5 (by decide)).trans (WC_arg5 m c),
      (h c main_arg6 (by decide)).trans (WC_arg6 m c),
      (h c main_arg7 (by decide)).trans (WC_arg7 m c),
      (h c main_arg8 (by decide)).trans (WC_arg8 m c)⟩)
    (run_main m ρ (tileObl (Aof m) (Xof m) (E0of m) (X_range m hpre)))

end Cert.Proof.KI

end
-- ==== Proof.KB.Ghost.lean ====
/-
  The idealized kernel's program as the SparseCore launch theorem sees it, and the resource algebra every module of its
  frame shares: the launch handshakes' rounds, the rounds of the TensorCore pipeline's staging cells, and the counters of
  the local copies the vector subcores issue and wait for.
-/
import proofs.«205318_g12532714570102_cont_fleet_669_37_alg».proof.Kernel
import proofs.«205318_g12532714570102_cont_fleet_669_37_alg».proof.Proof.Gen.Kernel
import Idealize.ShloMosaic.Lib.SparseCore.Launch
import Idealize.ShloMosaic.Lib.Pipeline.Kit
import Idealize.ShloMosaic.Lib.Transfers

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: handshakes, pipeline cells, counters -/

abbrev UH : Type := URounds (GSem nD τ sig) ℕ
abbrev UP : Type := URounds (GSem nD τ sig) Unit
abbrev UU : Type := UH × (UP × Counters)

/-- The handshakes' rounds: the left factor. -/
abbrev EH : Emb UH (MT nD τ sig (HIx 1) (Elt F) ℕ UU ℕ) := embL

/-- The pipeline cells' rounds: the middle factor. The counters are found by instance in the right one. -/
def ER : Emb UP (MT nD τ sig (HIx 1) (Elt F) ℕ UU ℕ) :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb

instance ER_landsIn : (ER : Emb UP (MT nD τ sig (HIx 1) (Elt F) ℕ UU ℕ)).LandsIn (upEmb : UEmb _ (MT nD τ sig (HIx 1) (Elt F) ℕ UU ℕ)) := by
  unfold ER; infer_instance

example : CountersIn UU := inferInstance

end Cert.Proof.KB

end
-- ==== Proof.KB.ScCommon.lean ====
/-
  The SparseCore call of the idealized kernel: where its three arrays live, the value it leaves in its result, and
  what the launch handshakes carry to each SparseCore and to each vector subcore and back.

  The call reads two arrays whole (the transposed tables, 26 x 16 x 100000, and the transposed index matrix,
  39 x 16384) and writes a third (416 x 16384). Row p of the result is gathered by ONE vector subcore: with
  f = p / 16 and dd = p % 16, entry (p, b) is the table entry (f, dd, r) where r is the index word (f, b).
  A vector subcore writes its 13 rows in two halves each; it is handed exactly those 26 pieces of the result, and
  a read share of each of the two arrays it reads.
-/
import proofs.«205318_g12532714570102_cont_fleet_669_37_alg».proof.Proof.KB.Ghost
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type}

local notation "𝕄" => MT nD τ sig (HIx 1) (Elt F) ℕ UU ℕ

/-! ## The arrays -/

/-- The transposed tables, the transposed index matrix, and the call's result, as locations of device d. -/
abbrev aLoc (d : Dev nD) : Loc nD τ sig := (SparseCore.T d).loc main_v0
abbrev xLoc (d : Dev nD) : Loc nD τ sig := (SparseCore.T d).loc main_v1
abbrev eLoc (d : Dev nD) : Loc nD τ sig := (SparseCore.T d).loc main_v2

/-- The same three arrays as a vector subcore's memrefs, and its three scratch buffers. -/
abbrev aV : Memref sig .scVector .hbm S26x16x100000 .f32 := Memref.whole main_v0_scv
abbrev xV : Memref sig .scVector .hbm S39x16384 .i32 := Memref.whole main_v1_scv
abbrev eV : Memref sig .scVector .hbm S416x16384 .f32 := Memref.whole main_v2_scv
abbrev s0V : Memref sig .scVector .vmem S100000 .f32 := Memref.whole cc0_scratch0
abbrev s1V : Memref sig .scVector .vmem S16384 .i32 := Memref.whole cc0_scratch1
abbrev s2V : Memref sig .scVector .vmem S8192 .f32 := Memref.whole cc0_scratch2

/-! ## The value the call leaves -/

/-- Entry (p, b) of the result: the table entry (p / 16, p % 16, r), r the index word (p / 16, b) read unsigned
    (taken modulo the table's extent so that the function is total; the words are below it). -/
def embOf (A : (d : Dev nD) → Buf (Elt F) (aLoc d)) (X : (d : Dev nD) → Buf (Elt F) (xLoc d)) (d : Dev nD) : Buf (Elt F) (eLoc d) :=
  fun (idx : (⟨2, ![416, 16384]⟩ : Shape).Idx) =>
    A d (ix3 (n0 := 26) (n1 := 16) (n2 := 100000)
      ⟨(idx 0).val / 16, by have := ValueIdx.idx2_lt0 idx; omega⟩
      ⟨(idx 0).val % 16, by omega⟩
      ⟨(X d (ix2 (n0 := 39) (n1 := 16384) ⟨(idx 0).val / 16, by have := ValueIdx.idx2_lt0 idx; omega⟩ (idx 1))).toNat % 100000, Nat.mod_lt _ (by decide)⟩)

/-! ## A vector subcore's pieces of the result -/

/-- The grid point of SparseCore c, vector subcore s. -/
def coordsV (c : Fin (grid0.bound 0)) (s : Fin (grid0.bound 1)) : grid0.Coords :=
  fun | 0 => c | 1 => s | ⟨_ + 2, h⟩ => absurd h (Nat.not_lt.2 (Nat.le_add_left _ _))

/-- Half k2 of the k1-th row the vector subcore at grid point L writes, as the body slices it out of the result. -/
abbrev ePc (L : grid0.Coords) (k1 : Fin k0_t1_loop.trips) (k2 : Fin k0_t2_loop.trips) : Memref sig .scVector .hbm S8192 .f32 :=
  ((eV : Memref sig .scVector .hbm S416x16384 .f32).slice (Rect.unit (s := S416x16384) (k0_off35 L k1 k2) S1x8192.size (k0_off35_inb L k1 k2)) (fun _ => rfl)).squeeze S8192 squeezes_S1x8192_S8192

/-- The 26 pieces of the result the vector subcore at L writes, all at the contents f. -/
def tilePcs (d : Dev nD) (L : grid0.Coords) (f : Buf (Elt F) (eLoc d)) : sProp 𝕄 :=
  bigSep Finset.univ fun p : Fin k0_t1_loop.trips × Fin k0_t2_loop.trips => eLoc d ↦[(ePc L p.1 p.2).view.set]{fullShare} f

instance tilePcs_storable (d : Dev nD) (L : grid0.Coords) (f : Buf (Elt F) (eLoc d)) : BI.Storable (upEmb : UEmb _ 𝕄) (tilePcs d L f) := by
  unfold tilePcs; infer_instance

/-! ## What the handshakes carry -/

/-- SparseCore c's read share of an array the call reads, and vector subcore i's share of that. -/
abbrev qC (c : Fin ((K (F := F)).nCore 0)) : PosShare TreeShare := Transfers.shareTok fullShare 2 (Fin.cast nCore_zero c)
abbrev qT (c : Fin ((K (F := F)).nCore 0)) (i : Fin ((K (F := F)).nSub 0)) : PosShare TreeShare :=
  Transfers.shareTok (qC (F := F) c) 16 (Fin.cast nSub_zero i)
/-- The grid point of the call's SparseCore c, vector subcore i. -/
abbrev LT (c : Fin ((K (F := F)).nCore 0)) (i : Fin ((K (F := F)).nSub 0)) : grid0.Coords := coordsV ⟨c.val, c.isLt⟩ ⟨i.val, i.isLt⟩

variable (A : (d : Dev nD) → Buf (Elt F) (aLoc d)) (X : (d : Dev nD) → Buf (Elt F) (xLoc d)) (E0 : (d : Dev nD) → Buf (Elt F) (eLoc d))

/-- The one call hands each SparseCore a read share of the two arrays it reads and its vector subcores' pieces of the
    result at their contents E0 at the call; each vector subcore a share of that share and its own pieces; and brings
    the same back, the pieces at the gathered value. -/
def P : (K (F := F)).Pay (nD := nD) (Val := Elt F) (Name := ℕ) (U := UU) where
  st := fun q d c => match q with
    | 0 => iprop((aLoc d ↦{(qC (F := F) c)} A d) ∗ (xLoc d ↦{(qC (F := F) c)} X d)
        ∗ bigSep Finset.univ fun i : Fin ((K (F := F)).nSub 0) => tilePcs d (LT (F := F) c i) (E0 d))
  dn := fun q d c => match q with
    | 0 => iprop((aLoc d ↦{(qC (F := F) c)} A d) ∗ (xLoc d ↦{(qC (F := F) c)} X d)
        ∗ bigSep Finset.univ fun i : Fin ((K (F := F)).nSub 0) => tilePcs d (LT (F := F) c i) (embOf A X d))
  go := fun q d c i => match q with
    | 0 => iprop((aLoc d ↦{(qT (F := F) c i)} A d) ∗ (xLoc d ↦{(qT (F := F) c i)} X d) ∗ tilePcs d (LT (F := F) c i) (E0 d))
  td := fun q d c i => match q with
    | 0 => iprop((aLoc d ↦{(qT (F := F) c i)} A d) ∗ (xLoc d ↦{(qT (F := F) c i)} X d) ∗ tilePcs d (LT (F := F) c i) (embOf A X d))
  x := fun _ _ => iprop(emp)

theorem P_st (d : Dev nD) (c : Fin ((K (F := F)).nCore 0)) :
    (P A X E0).st 0 d c = iprop((aLoc d ↦{(qC (F := F) c)} A d) ∗ (xLoc d ↦{(qC (F := F) c)} X d)
        ∗ bigSep Finset.univ fun i : Fin ((K (F := F)).nSub 0) => tilePcs d (LT (F := F) c i) (E0 d)) := rfl
theorem P_dn (d : Dev nD) (c : Fin ((K (F := F)).nCore 0)) :
    (P A X E0).dn 0 d c = iprop((aLoc d ↦{(qC (F := F) c)} A d) ∗ (xLoc d ↦{(qC (F := F) c)} X d)
        ∗ bigSep Finset.univ fun i : Fin ((K (F := F)).nSub 0) => tilePcs d (LT (F := F) c i) (embOf A X d)) := rfl
theorem P_go (d : Dev nD) (c : Fin ((K (F := F)).nCore 0)) (i : Fin ((K (F := F)).nSub 0)) :
    (P A X E0).go 0 d c i = iprop((aLoc d ↦{(qT (F := F) c i)} A d) ∗ (xLoc d ↦{(qT (F := F) c i)} X d) ∗ tilePcs d (LT (F := F) c i) (E0 d)) := rfl
theorem P_td (d : Dev nD) (c : Fin ((K (F := F)).nCore 0)) (i : Fin ((K (F := F)).nSub 0)) :
    (P A X E0).td 0 d c i = iprop((aLoc d ↦{(qT (F := F) c i)} A d) ∗ (xLoc d ↦{(qT (F := F) c i)} X d) ∗ tilePcs d (LT (F := F) c i) (embOf A X d)) := rfl
theorem P_x (q : Fin 1) (thr : Thread nD τ) : (P A X E0).x q thr = iprop(emp) := rfl

instance P_storable : (P (F := F) A X E0).IsStorable where
  st q d c := match q with
    | 0 => (inferInstance : BI.Storable (upEmb : UEmb _ 𝕄) iprop((aLoc d ↦{(qC (F := F) c)} A d) ∗ (xLoc d ↦{(qC (F := F) c)} X d)
        ∗ bigSep Finset.univ fun i : Fin ((K (F := F)).nSub 0) => tilePcs d (LT (F := F) c i) (E0 d)))
  dn q d c := match q with
    | 0 => (inferInstance : BI.Storable (upEmb : UEmb _ 𝕄) iprop((aLoc d ↦{(qC (F := F) c)} A d) ∗ (xLoc d ↦{(qC (F := F) c)} X d)
        ∗ bigSep Finset.univ fun i : Fin ((K (F := F)).nSub 0) => tilePcs d (LT (F := F) c i) (embOf A X d)))
  go q d c i := match q with
    | 0 => (inferInstance : BI.Storable (upEmb : UEmb _ 𝕄)
        iprop((aLoc d ↦{(qT (F := F) c i)} A d) ∗ (xLoc d ↦{(qT (F := F) c i)} X d) ∗ tilePcs d (LT (F := F) c i) (E0 d)))
  td q d c i := match q with
    | 0 => (inferInstance : BI.Storable (upEmb : UEmb _ 𝕄)
        iprop((aLoc d ↦{(qT (F := F) c i)} A d) ∗ (xLoc d ↦{(qT (F := F) c i)} X d) ∗ tilePcs d (LT (F := F) c i) (embOf A X d)))

end Cert.Proof.KB

end
-- ==== Proof.KB.Split.lean ====
/-
  How the SparseCore call's arrays are cut among its processors. The two arrays it reads go out as read shares,
  one per SparseCore and, of that, one per vector subcore. The result is cut into the pieces the vector subcores
  write: subcore (c, s) writes rows 26 s + 13 c + k, k < 13, each in two halves of 8192 columns; the 2 · 16 · 13 · 2
  pieces are pairwise disjoint and cover the 416 x 16384 array.
-/
import proofs.«205318_g12532714570102_cont_fleet_669_37_alg».proof.Proof.KB.ScCommon

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The pieces of the result -/

/-- The elements of a piece are its rectangle's: one row of the result, 8192 columns of it. -/
theorem set_ePc (L : grid0.Coords) (k1 : Fin k0_t1_loop.trips) (k2 : Fin k0_t2_loop.trips) :
    (ePc L k1 k2).view.set = (Rect.unit (s := S416x16384) (k0_off35 L k1 k2) S1x8192.size (k0_off35_inb L k1 k2)).set := by
  show (((eV : Memref sig .scVector .hbm S416x16384 .f32).view.slice
      (Rect.unit (s := S416x16384) (k0_off35 L k1 k2) S1x8192.size (k0_off35_inb L k1 k2))).reshape S8192 squeezes_S1x8192_S8192.numel_eq).set = _
  rw [View.set_reshape]
  show ((View.whole (main_v2_scv : Ref sig .scVector)).slice _).set = _
  rw [View.set_slice]; exact Finset.map_refl

/-- An index lies in the piece (L, k1, k2) exactly when its row is 26 s + 13 c + k1 and its column lies in half k2. -/
theorem mem_ePc (L : grid0.Coords) (k1 : Fin k0_t1_loop.trips) (k2 : Fin k0_t2_loop.trips) (idx : S416x16384.Idx) :
    idx ∈ (ePc L k1 k2).view.set
      ↔ (idx 0).val = 26 * (L 1).val + 13 * (L 0).val + k1.val ∧ 8192 * k2.val ≤ (idx 1).val ∧ (idx 1).val < 8192 * k2.val + 8192 := by
  rw [set_ePc, Rect.mem_set_unit, k0_off35_eq]
  constructor
  · intro h
    have h0 := h 0
    have h1 := h 1
    simp at h0 h1
    omega
  · rintro ⟨h0, h1, h2⟩ a
    match a with
    | 0 => simp; omega
    | 1 => simp; omega

/-! ## The vector subcores' split of a SparseCore's share -/

variable (A : (d : Dev nD) → Buf (Elt F) (aLoc d)) (X : (d : Dev nD) → Buf (Elt F) (xLoc d)) (E0 : (d : Dev nD) → Buf (Elt F) (eLoc d))

/-- A SparseCore's read shares split sixteen ways (the remainder kept until the subcores' shares come back); its
    pieces are already one family per subcore. -/
theorem vecSplit : (K (F := F)).VecSplit' (P A X E0) 0 := by
  intro d c
  show iprop((aLoc d ↦{(qC (F := F) c)} A d) ∗ (xLoc d ↦{(qC (F := F) c)} X d)
        ∗ bigSep Finset.univ fun i : Fin ((K (F := F)).nSub 0) => tilePcs d (LT (F := F) c i) (E0 d))
    ⊢ |={Set.univ}=> iprop((bigSep Finset.univ fun i : Fin ((K (F := F)).nSub 0) =>
          iprop((aLoc d ↦{(qT (F := F) c i)} A d) ∗ (xLoc d ↦{(qT (F := F) c i)} X d) ∗ tilePcs d (LT (F := F) c i) (E0 d)))
      ∗ ((bigSep Finset.univ fun i : Fin ((K (F := F)).nSub 0) =>
          iprop((aLoc d ↦{(qT (F := F) c i)} A d) ∗ (xLoc d ↦{(qT (F := F) c i)} X d) ∗ tilePcs d (LT (F := F) c i) (embOf A X d)))
          -∗ iprop((aLoc d ↦{(qC (F := F) c)} A d) ∗ (xLoc d ↦{(qC (F := F) c)} X d)
            ∗ bigSep Finset.univ fun i : Fin ((K (F := F)).nSub 0) => tilePcs d (LT (F := F) c i) (embOf A X d))))
  rw [bigSep_sep', bigSep_sep', bigSep_sep', bigSep_sep']
  iintro ⟨Ha, Hx, Hp⟩
  ihave Ha' := (Transfers.pointsTo_toks_split (qC (F := F) c) 16) $$ Ha
  icases Ha' with ⟨Had, Hat⟩
  ihave Hx' := (Transfers.pointsTo_toks_split (qC (F := F) c) 16) $$ Hx
  icases Hx' with ⟨Hxd, Hxt⟩
  imodintro
  isplitl [Hat Hxt Hp]
  · isplitl [Hat]; · iexact Hat
    isplitl [Hxt]; · iexact Hxt
    iexact Hp
  iintro ⟨Hat, Hxt, Hp⟩
  isplitl [Had Hat]
  · iapply (Transfers.pointsTo_toks_join (qC (F := F) c) 16)
    isplitl [Had]; · iexact Had
    iexact Hat
  isplitl [Hxd Hxt]
  · iapply (Transfers.pointsTo_toks_join (qC (F := F) c) 16)
    isplitl [Hxd]; · iexact Hxd
    iexact Hxt
  iexact Hp

end Cert.Proof.KB

end
-- ==== Proof.KB.Pieces.lean ====
/-
  The result of the SparseCore call, whole, is the family of the pieces its vector subcores write: pairwise
  disjoint (two pieces with a common entry have the same row 26 s + 13 c + k and the same half, hence the same
  subcore, row number and half) and covering (row r belongs to subcore s = r / 26, c = (r % 26) / 13, as its row
  k = r % 13; column b to half b / 8192).
-/
import proofs.«205318_g12532714570102_cont_fleet_669_37_alg».proof.Proof.KB.Split

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- A piece's name: SparseCore, vector subcore, row number among the subcore's thirteen, half. -/
abbrev PJ : Type := Fin ((K (F := F)).nCore 0) × (Fin ((K (F := F)).nSub 0) × (Fin k0_t1_loop.trips × Fin k0_t2_loop.trips))

/-- The entries of the piece named j. -/
def pcSet (j : PJ (F := F)) : Finset S416x16384.Idx := (ePc (LT (F := F) j.1 j.2.1) j.2.2.1 j.2.2.2).view.set

theorem LT_zero (c : Fin ((K (F := F)).nCore 0)) (i : Fin ((K (F := F)).nSub 0)) : ((LT (F := F) c i) 0).val = c.val := rfl
theorem LT_one (c : Fin ((K (F := F)).nCore 0)) (i : Fin ((K (F := F)).nSub 0)) : ((LT (F := F) c i) 1).val = i.val := rfl

theorem mem_pcSet (j : PJ (F := F)) (idx : S416x16384.Idx) :
    idx ∈ pcSet j ↔ (idx 0).val = 26 * j.2.1.val + 13 * j.1.val + j.2.2.1.val
      ∧ 8192 * j.2.2.2.val ≤ (idx 1).val ∧ (idx 1).val < 8192 * j.2.2.2.val + 8192 := by
  unfold pcSet
  rw [mem_ePc, LT_zero, LT_one]

theorem pcs_disjoint : ∀ j ∈ (Finset.univ : Finset (PJ (F := F))), ∀ j' ∈ (Finset.univ : Finset (PJ (F := F))), j ≠ j' →
    Disjoint (pcSet j) (pcSet j') := by
  intro j _ j' _ hne
  rw [Finset.disjoint_left]
  intro idx h h'
  rw [mem_pcSet] at h h'
  apply hne
  obtain ⟨c, i, k1, k2⟩ := j
  obtain ⟨c', i', k1', k2'⟩ := j'
  have hc : c.val < 2 := c.isLt
  have hc' : c'.val < 2 := c'.isLt
  have hk : k1.val < 13 := k1.isLt
  have hk' : k1'.val < 13 := k1'.isLt
  have hh : k2.val < 2 := k2.isLt
  have hh' : k2'.val < 2 := k2'.isLt
  dsimp only at h h'
  have e1 : c.val = c'.val := by omega
  have e2 : i.val = i'.val := by omega
  have e3 : k1.val = k1'.val := by omega
  have e4 : k2.val = k2'.val := by omega
  rw [Fin.ext e1, Fin.ext e2, Fin.ext e3, Fin.ext e4]

theorem pcs_cover : (Finset.univ : Finset (PJ (F := F))).biUnion pcSet = Finset.univ := by
  apply Finset.eq_univ_of_forall
  intro idx
  rw [Finset.mem_biUnion]
  have h0 : (idx 0).val < 416 := ValueIdx.idx2_lt0 idx
  have h1 : (idx 1).val < 16384 := ValueIdx.idx2_lt1 idx
  refine ⟨(⟨((idx 0).val % 26) / 13, by show _ < 2; omega⟩, ⟨(idx 0).val / 26, by show _ < 16; omega⟩,
    ⟨(idx 0).val % 13, by show _ < 13; omega⟩, ⟨(idx 1).val / 8192, by show _ < 2; omega⟩), Finset.mem_univ _, ?_⟩
  rw [mem_pcSet]
  dsimp only
  omega

/-- The whole result at full share is its pieces, grouped by SparseCore and vector subcore. -/
theorem ePts_pieces (d : Dev nD) (f : Buf (Elt F) (eLoc d)) :
    (eLoc d ↦{fullShare} f : sProp 𝕄)
      = bigSep Finset.univ fun c : Fin ((K (F := F)).nCore 0) => bigSep Finset.univ fun i : Fin ((K (F := F)).nSub 0) =>
          tilePcs d (LT (F := F) c i) f := by
  have e : (eLoc d ↦{fullShare} f : sProp 𝕄) = bigSep Finset.univ fun j : PJ (F := F) => eLoc d ↦[pcSet j]{fullShare} f := by
    rw [← pointsTo_biUnion Finset.univ (ℓ := eLoc d) (pcSet (F := F)) pcs_disjoint, pcs_cover]; try rfl
  rw [e, bigSep_univ_prod]
  refine bigSep_congr fun c _ => ?_
  rw [bigSep_univ_prod]
  rfl

end Cert.Proof.KB

end
-- ==== Proof.KB.MainOps.lean ====
/-
  @main of the kernel's program on the TensorCore, respelt: three straight stretches of host operations (two
  transposes before the SparseCore call; the slices, transposes, reshapes and the block-diagonal table of the
  tables' row 0 between the calls; the final transpose) around the SparseCore call and the TensorCore pipeline.
-/
import proofs.«205318_g12532714570102_cont_fleet_669_37_alg».proof.Proof.KB.Ghost
import Idealize.ShloMosaic.Lib.StableHlo.Run

noncomputable section

namespace Cert.Proof.KB

open Cert.Kernel Cert.Kernel.Gen Idealize.ShloMosaic Idealize.ShloMosaic.TcCoe Idealize.SL.Sem Idealize.ShloMosaic.StableHlo

variable {F : FTy → Type} [FloatOps F]

/-- The two transposes before the SparseCore call: the tables with the vocabulary axis last, the indices with
    the batch axis last. -/
abbrev opsA : List (HloOp τ sig (Elt F)) :=
  [ unary main_arg2 main_v0 ((transpose S26x16x100000 [0, 2, 1] · transposes_S26x100000x16_S26x16x100000_0_2_1) : (⟨S26x100000x16, .f32⟩ : BufTy).Contents (Elt F) → (⟨S26x16x100000, .f32⟩ : BufTy).Contents (Elt F)),
    unary main_arg1 main_v1 ((transpose S39x16384 [1, 0] · transposes_S16384x39_S39x16384_1_0) : (⟨S16384x39, .i32⟩ : BufTy).Contents (Elt F) → (⟨S39x16384, .i32⟩ : BufTy).Contents (Elt F)) ]

/-- Between the calls: row 0 of every table spread block-diagonally over the 416 embedding columns, and the
    weights and biases transposed or reshaped to columns. -/
abbrev opsB : List (HloOp τ sig (Elt F)) :=
  [ unary main_arg2 main_v3 ((extractStridedSlice S26x1x16 ![0, 0, 0] · slices_S26x100000x16_S26x1x16_0_0_0) : (⟨S26x100000x16, .f32⟩ : BufTy).Contents (Elt F) → (⟨S26x1x16, .f32⟩ : BufTy).Contents (Elt F)),
    reshape main_v3 main_v4 rfl shapeCasts_S26x1x16_S26x16,
    nullary main_v5 (iotaInDim S26x26 32 0),
    nullary main_v6 (iotaInDim S26x26 32 1),
    nullary main_c (constantI S_ 32 0#32),
    unary main_c main_v7 (broadcastInDim S26x26 ![] bcast_S_S26x26 : (⟨S_, .i32⟩ : BufTy).Contents (Elt F) → (⟨S26x26, .i32⟩ : BufTy).Contents (Elt F)),
    binary main_v5 main_v7 main_v8 (addi : (⟨S26x26, .i32⟩ : BufTy).Contents (Elt F) → (⟨S26x26, .i32⟩ : BufTy).Contents (Elt F) → (⟨S26x26, .i32⟩ : BufTy).Contents (Elt F)),
    binary main_v8 main_v6 main_v9 (cmpi .eq : (⟨S26x26, .i32⟩ : BufTy).Contents (Elt F) → (⟨S26x26, .i32⟩ : BufTy).Contents (Elt F) → (⟨S26x26, .i1⟩ : BufTy).Contents (Elt F)),
    unary main_v9 main_v10 (uitofp .f32 : (⟨S26x26, .i1⟩ : BufTy).Contents (Elt F) → (⟨S26x26, .f32⟩ : BufTy).Contents (Elt F)),
    unary main_v10 main_v11 (broadcastInDim S26x26x1 ![0, 1] bcast_S26x26_S26x26x1_0_1 : (⟨S26x26, .f32⟩ : BufTy).Contents (Elt F) → (⟨S26x26x1, .f32⟩ : BufTy).Contents (Elt F)),
    unary main_v4 main_v12 (broadcastInDim S26x1x16 ![0, 2] bcast_S26x16_S26x1x16_0_2 : (⟨S26x16, .f32⟩ : BufTy).Contents (Elt F) → (⟨S26x1x16, .f32⟩ : BufTy).Contents (Elt F)),
    unary main_v11 main_v13 (broadcastInDim S26x26x16 ![0, 1, 2] bcast_S26x26x1_S26x26x16_0_1_2 : (⟨S26x26x1, .f32⟩ : BufTy).Contents (Elt F) → (⟨S26x26x16, .f32⟩ : BufTy).Contents (Elt F)),
    unary main_v12 main_v14 (broadcastInDim S26x26x16 ![0, 1, 2] bcast_S26x1x16_S26x26x16_0_1_2 : (⟨S26x1x16, .f32⟩ : BufTy).Contents (Elt F) → (⟨S26x26x16, .f32⟩ : BufTy).Contents (Elt F)),
    binary main_v13 main_v14 main_v15 (mulf : (⟨S26x26x16, .f32⟩ : BufTy).Contents (Elt F) → (⟨S26x26x16, .f32⟩ : BufTy).Contents (Elt F) → (⟨S26x26x16, .f32⟩ : BufTy).Contents (Elt F)),
    reshape main_v15 main_v16 rfl shapeCasts_S26x26x16_S26x416,
    unary main_arg3 main_v17 ((extractStridedSlice S416x256 ![0, 0] · slices_S429x256_S416x256_0_0) : (⟨S429x256, .f32⟩ : BufTy).Contents (Elt F) → (⟨S416x256, .f32⟩ : BufTy).Contents (Elt F)),
    unary main_v17 main_v18 ((transpose S256x416 [1, 0] · transposes_S416x256_S256x416_1_0) : (⟨S416x256, .f32⟩ : BufTy).Contents (Elt F) → (⟨S256x416, .f32⟩ : BufTy).Contents (Elt F)),
    unary main_arg3 main_v19 ((extractStridedSlice S13x256 ![416, 0] · slices_S429x256_S13x256_416_0) : (⟨S429x256, .f32⟩ : BufTy).Contents (Elt F) → (⟨S13x256, .f32⟩ : BufTy).Contents (Elt F)),
    unary main_v19 main_v20 ((transpose S256x13 [1, 0] · transposes_S13x256_S256x13_1_0) : (⟨S13x256, .f32⟩ : BufTy).Contents (Elt F) → (⟨S256x13, .f32⟩ : BufTy).Contents (Elt F)),
    unary main_v16 main_v21 ((transpose S416x26 [1, 0] · transposes_S26x416_S416x26_1_0) : (⟨S26x416, .f32⟩ : BufTy).Contents (Elt F) → (⟨S416x26, .f32⟩ : BufTy).Contents (Elt F)),
    reshape main_arg4 main_v22 rfl shapeCasts_S256_S256x1,
    unary main_arg5 main_v23 ((transpose S128x256 [1, 0] · transposes_S256x128_S128x256_1_0) : (⟨S256x128, .f32⟩ : BufTy).Contents (Elt F) → (⟨S128x256, .f32⟩ : BufTy).Contents (Elt F)),
    reshape main_arg6 main_v24 rfl shapeCasts_S128_S128x1,
    unary main_arg7 main_v25 ((extractStridedSlice S128x2 ![0, 0] · slices_S256x2_S128x2_0_0) : (⟨S256x2, .f32⟩ : BufTy).Contents (Elt F) → (⟨S128x2, .f32⟩ : BufTy).Contents (Elt F)),
    unary main_v25 main_v26 ((transpose S2x128 [1, 0] · transposes_S128x2_S2x128_1_0) : (⟨S128x2, .f32⟩ : BufTy).Contents (Elt F) → (⟨S2x128, .f32⟩ : BufTy).Contents (Elt F)),
    unary main_arg7 main_v27 ((extractStridedSlice S128x2 ![128, 0] · slices_S256x2_S128x2_128_0) : (⟨S256x2, .f32⟩ : BufTy).Contents (Elt F) → (⟨S128x2, .f32⟩ : BufTy).Contents (Elt F)),
    unary main_v27 main_v28 ((transpose S2x128 [1, 0] · transposes_S128x2_S2x128_1_0) : (⟨S128x2, .f32⟩ : BufTy).Contents (Elt F) → (⟨S2x128, .f32⟩ : BufTy).Contents (Elt F)),
    reshape main_arg8 main_v29 rfl shapeCasts_S2_S2x1 ]

/-- After the pipeline: the result transposed back to batch-major. -/
abbrev opsC : List (HloOp τ sig (Elt F)) :=
  [ unary main_v30 main_v31 ((transpose S16384x2 [1, 0] · transposes_S2x16384_S16384x2_1_0) : (⟨S2x16384, .f32⟩ : BufTy).Contents (Elt F) → (⟨S16384x2, .f32⟩ : BufTy).Contents (Elt F)) ]

set_option maxRecDepth 8192 in
set_option maxHeartbeats 4000000 in
/-- @main is the three stretches around the two calls. -/
theorem main_eq (d : Dev nD) :
    main (F := F) d
      = (seq opsA >>= fun _ => sc.run d 0 >>= fun _ => seq opsB >>= fun _ =>
          Prog.lift (.customCall (SparseCore.inner (Pipeline.entry 0)) ()) >>= fun _ => seq opsC >>= fun _ => pure ⟨⟩) := rfl

end Cert.Proof.KB

end
-- ==== Proof.KB.Held.lean ====
/-
  Each stretch of @main's host operations stays inside the TensorCore's unscoped arrays (the arguments and every
  intermediate of @main, held as one set) and allocates nothing.
-/
import proofs.«205318_g12532714570102_cont_fleet_669_37_alg».proof.Proof.KB.MainOps
import Idealize.ShloMosaic.Lib.Pipeline.Frame

noncomputable section

namespace Cert.Proof.KB

open Cert.Kernel Cert.Kernel.Gen Idealize.ShloMosaic Idealize.ShloMosaic.TcCoe Idealize.SL.Sem Idealize.ShloMosaic.StableHlo

variable {F : FTy → Type} [FloatOps F]

set_option maxRecDepth 8192 in
theorem opsA_sub : (opsA : List (HloOp τ sig (Elt F))).Forall fun op => op.bufs ⊆ Pipeline.ucRefs τ sig :=
  ⟨Pipeline.sub_ucRefs _ (unary_bufs_sub ..),
    Pipeline.sub_ucRefs _ (unary_bufs_sub ..)⟩
set_option maxRecDepth 8192 in
theorem opsB_sub : (opsB : List (HloOp τ sig (Elt F))).Forall fun op => op.bufs ⊆ Pipeline.ucRefs τ sig :=
  ⟨Pipeline.sub_ucRefs _ (unary_bufs_sub ..),
    Pipeline.sub_ucRefs _ (reshape_bufs_sub ..),
    Pipeline.sub_ucRefs _ (nullary_bufs_sub ..),
    Pipeline.sub_ucRefs _ (nullary_bufs_sub ..),
    Pipeline.sub_ucRefs _ (nullary_bufs_sub ..),
    Pipeline.sub_ucRefs _ (unary_bufs_sub ..),
    Pipeline.sub_ucRefs _ (binary_bufs_sub ..),
    Pipeline.sub_ucRefs _ (binary_bufs_sub ..),
    Pipeline.sub_ucRefs _ (unary_bufs_sub ..),
    Pipeline.sub_ucRefs _ (unary_bufs_sub ..),
    Pipeline.sub_ucRefs _ (unary_bufs_sub ..),
    Pipeline.sub_ucRefs _ (unary_bufs_sub ..),
    Pipeline.sub_ucRefs _ (unary_bufs_sub ..),
    Pipeline.sub_ucRefs _ (binary_bufs_sub ..),
    Pipeline.sub_ucRefs _ (reshape_bufs_sub ..),
    Pipeline.sub_ucRefs _ (unary_bufs_sub ..),
    Pipeline.sub_ucRefs _ (unary_bufs_sub ..),
    Pipeline.sub_ucRefs _ (unary_bufs_sub ..),
    Pipeline.sub_ucRefs _ (unary_bufs_sub ..),
    Pipeline.sub_ucRefs _ (unary_bufs_sub ..),
    Pipeline.sub_ucRefs _ (reshape_bufs_sub ..),
    Pipeline.sub_ucRefs _ (unary_bufs_sub ..),
    Pipeline.sub_ucRefs _ (reshape_bufs_sub ..),
    Pipeline.sub_ucRefs _ (unary_bufs_sub ..),
    Pipeline.sub_ucRefs _ (unary_bufs_sub ..),
    Pipeline.sub_ucRefs _ (unary_bufs_sub ..),
    Pipeline.sub_ucRefs _ (unary_bufs_sub ..),
    Pipeline.sub_ucRefs _ (reshape_bufs_sub ..)⟩
set_option maxRecDepth 8192 in
theorem opsC_sub : (opsC : List (HloOp τ sig (Elt F))).Forall fun op => op.bufs ⊆ Pipeline.ucRefs τ sig :=
  Pipeline.sub_ucRefs _ (unary_bufs_sub ..)

theorem opsA_fresh : (opsA : List (HloOp τ sig (Elt F))).Forall fun op => op.fresh = ∅ := ⟨rfl,
    rfl⟩
theorem opsB_fresh : (opsB : List (HloOp τ sig (Elt F))).Forall fun op => op.fresh = ∅ := ⟨rfl,
    rfl,
    rfl,
    rfl,
    rfl,
    rfl,
    rfl,
    rfl,
    rfl,
    rfl,
    rfl,
    rfl,
    rfl,
    rfl,
    rfl,
    rfl,
    rfl,
    rfl,
    rfl,
    rfl,
    rfl,
    rfl,
    rfl,
    rfl,
    rfl,
    rfl,
    rfl,
    rfl⟩
theorem opsC_fresh : (opsC : List (HloOp τ sig (Elt F))).Forall fun op => op.fresh = ∅ := rfl

end Cert.Proof.KB

end
-- ==== Proof.KB.Vals.lean ====
/-
  The contents of the TensorCore's arrays along @main, as pure functions of the launch memory: after the two
  transposes; with the SparseCore call's result in place; after the host operations between the calls; with the
  pipeline's result in place; after the final transpose.
-/
import proofs.«205318_g12532714570102_cont_fleet_669_37_alg».proof.Proof.KB.Held
import proofs.«205318_g12532714570102_cont_fleet_669_37_alg».proof.Proof.KB.ScCommon

noncomputable section

namespace Cert.Proof.KB

open Cert.Kernel Cert.Kernel.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- The arrays at the launch. -/
abbrev W0 (d : Dev nD) : Valuation τ sig (Elt F) := launchContents m d
/-- After the two transposes. -/
def WA (d : Dev nD) : Valuation τ sig (Elt F) := after opsA (W0 m d)
/-- What the SparseCore call finds: the transposed tables, the transposed indices, and its result's old contents. -/
def Aof (d : Dev nD) : Buf (Elt F) (aLoc d) := WA m d (Proc.devRef .tc main_v0)
def Xof (d : Dev nD) : Buf (Elt F) (xLoc d) := WA m d (Proc.devRef .tc main_v1)
def E0of (d : Dev nD) : Buf (Elt F) (eLoc d) := WA m d (Proc.devRef .tc main_v2)
/-- With the gathered rows in place. -/
def W1 (d : Dev nD) : Valuation τ sig (Elt F) :=
  Function.update (WA m d) (Proc.devRef .tc main_v2) (embOf (Aof m) (Xof m) d)
/-- After the host operations between the calls. -/
def WB (d : Dev nD) : Valuation τ sig (Elt F) := after opsB (W1 m d)

-- The pipeline's result as a function of the arrays it finds.
variable (o30 : (d : Dev nD) → Valuation τ sig (Elt F) → Buf (Elt F) ((SparseCore.T d).loc main_v30))

/-- With the pipeline's result in place. -/
def W2 (d : Dev nD) : Valuation τ sig (Elt F) :=
  Function.update (WB m d) (Proc.devRef .tc main_v30) (o30 d (WB m d))
/-- At the end of @main. -/
def WC (d : Dev nD) : Valuation τ sig (Elt F) := after opsC (W2 m o30 d)

end Cert.Proof.KB

end
-- ==== Proof.KB.RegionBody.lean ====
/-
  The TensorCore kernel body of the second custom call at one grid point: run on thirteen whole staging memrefs,
  the twelve inputs at their read contents and the output at anything, it leaves the inputs as they were and the
  output's buffer at the one covering store's payload, a function of the twelve input blocks.
-/
import proofs.«205318_g12532714570102_cont_fleet_669_37_alg».proof.Proof.KB.Ghost
import proofs.«205318_g12532714570102_cont_fleet_669_37_alg».proof.Proof.Gen.Kernel.Launch
import proofs.«205318_g12532714570102_cont_fleet_669_37_alg».proof.Proof.Gen.Kernel.Skeleton
import proofs.«205318_g12532714570102_cont_fleet_669_37_alg».proof.Proof.Gen.Kernel.Points
import Idealize.ShloMosaic.Lib.Pipeline.FrameBody
import Idealize.ShloMosaic.Lib.Tactic

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The whole-buffer rectangles the body loads and stores through -/

abbrev rA1 : Rect S39x4096 := Rect.unit (s := S39x4096) ![0, 0] S39x4096.size inb_S39x4096_S39x4096_0_0
abbrev rA2 : Rect S416x4096 := Rect.unit (s := S416x4096) ![0, 0] S416x4096.size inb_S416x4096_S416x4096_0_0
abbrev rA3 : Rect S4096x128 := Rect.unit (s := S4096x128) ![0, 0] S4096x128.size inb_S4096x128_S4096x128_0_0
abbrev rA4 : Rect S256x416 := Rect.unit (s := S256x416) ![0, 0] S256x416.size inb_S256x416_S256x416_0_0
abbrev rA5 : Rect S256x13 := Rect.unit (s := S256x13) ![0, 0] S256x13.size inb_S256x13_S256x13_0_0
abbrev rA6 : Rect S416x26 := Rect.unit (s := S416x26) ![0, 0] S416x26.size inb_S416x26_S416x26_0_0
abbrev rA7 : Rect S256x1 := Rect.unit (s := S256x1) ![0, 0] S256x1.size inb_S256x1_S256x1_0_0
abbrev rA8 : Rect S128x256 := Rect.unit (s := S128x256) ![0, 0] S128x256.size inb_S128x256_S128x256_0_0
abbrev rA9 : Rect S128x1 := Rect.unit (s := S128x1) ![0, 0] S128x1.size inb_S128x1_S128x1_0_0
abbrev rA10 : Rect S2x128 := Rect.unit (s := S2x128) ![0, 0] S2x128.size inb_S2x128_S2x128_0_0
abbrev rA12 : Rect S2x1 := Rect.unit (s := S2x1) ![0, 0] S2x1.size inb_S2x1_S2x1_0_0
abbrev rA13 : Rect S2x4096 := Rect.unit (s := S2x4096) ![0, 0] S2x4096.size inb_S2x4096_S2x4096_0_0

/-! ## What the body leaves in the output window's buffer -/

/-- The payload of the body's one store, from the read contents of the twelve input buffers (in window order:
    the transposed index columns, the gathered embeddings, the wide features, then the nine weight blocks). -/
def pay1 (x0 : Vec F S39x4096 .i32) (x1 : Vec F S416x4096 .f32) (x2 : Vec F S4096x128 .f32) (x3 : Vec F S256x416 .f32)
    (x4 : Vec F S256x13 .f32) (x5 : Vec F S416x26 .f32) (x6 : Vec F S256x1 .f32) (x7 : Vec F S128x256 .f32)
    (x8 : Vec F S128x1 .f32) (x9 : Vec F S2x128 .f32) (x10 : Vec F S2x128 .f32) (x11 : Vec F S2x1 .f32) : FVec F S2x4096 .f32 :=
  k1_pay1 (k1_pay2 (View.ld x0 rA1) (View.ld x3 rA4) (View.ld x5 rA6) (View.ld x3 rA4) (View.ld x1 rA2) (View.ld x4 rA5) (View.ld x6 rA7))
    (k1_pay3 (View.ld x7 rA8)) (constant S128x4096 .f32 0x00000000#32)
    (View.ld x8 rA9) (View.ld x9 rA10) (View.ld x10 rA10) (View.ld x2 rA3) (View.ld x11 rA12)

/-- The output buffer after the body: its one store, which covers the buffer. -/
def out12 (x0 : Vec F S39x4096 .i32) (x1 : Vec F S416x4096 .f32) (x2 : Vec F S4096x128 .f32) (x3 : Vec F S256x416 .f32)
    (x4 : Vec F S256x13 .f32) (x5 : Vec F S416x26 .f32) (x6 : Vec F S256x1 .f32) (x7 : Vec F S128x256 .f32)
    (x8 : Vec F S128x1 .f32) (x9 : Vec F S2x128 .f32) (x10 : Vec F S2x128 .f32) (x11 : Vec F S2x1 .f32) : Vec F S2x4096 .f32 :=
  View.canon [⟨rA13, pay1 x0 x1 x2 x3 x4 x5 x6 x7 x8 x9 x10 x11⟩]

/-- The store's rectangle is the whole buffer. -/
theorem cover12 (p0 : Vec F S2x4096 .f32) (y : S2x4096.Idx) :
    ∃ pc ∈ ([⟨rA13, p0⟩] : List (View.Piece (Elt F) S2x4096 .f32)), y ∈ pc.1.set :=
  View.cover_of_tiled [⟨rA13, p0⟩] S2x4096.size (by rfl) y

/-! ## The body's triple -/

set_option maxHeartbeats 1000000 in
/-- The kernel body on whole staging memrefs, the twelve inputs' at read contents `x·` and the output's at anything,
    runs to the continuation holding the inputs' as they were and the output's at `out12` of the inputs'. -/
theorem sound_kernel (c : Dev nD) (E : Set ℕ) (i : grid1.Coords)
    (arg1 : Memref sig .tc .vmem S39x4096 .i32) (harg1 : arg1.IsWhole) (arg2 : Memref sig .tc .vmem S416x4096 .f32) (harg2 : arg2.IsWhole)
    (arg3 : Memref sig .tc .vmem S4096x128 .f32) (harg3 : arg3.IsWhole) (arg4 : Memref sig .tc .vmem S256x416 .f32) (harg4 : arg4.IsWhole)
    (arg5 : Memref sig .tc .vmem S256x13 .f32) (harg5 : arg5.IsWhole) (arg6 : Memref sig .tc .vmem S416x26 .f32) (harg6 : arg6.IsWhole)
    (arg7 : Memref sig .tc .vmem S256x1 .f32) (harg7 : arg7.IsWhole) (arg8 : Memref sig .tc .vmem S128x256 .f32) (harg8 : arg8.IsWhole)
    (arg9 : Memref sig .tc .vmem S128x1 .f32) (harg9 : arg9.IsWhole) (arg10 : Memref sig .tc .vmem S2x128 .f32) (harg10 : arg10.IsWhole)
    (arg11 : Memref sig .tc .vmem S2x128 .f32) (harg11 : arg11.IsWhole) (arg12 : Memref sig .tc .vmem S2x1 .f32) (harg12 : arg12.IsWhole)
    (arg13 : Memref sig .tc .vmem S2x4096 .f32) (harg13 : arg13.IsWhole)
    (x0 : Vec F S39x4096 .i32) (x1 : Vec F S416x4096 .f32) (x2 : Vec F S4096x128 .f32) (x3 : Vec F S256x416 .f32)
    (x4 : Vec F S256x13 .f32) (x5 : Vec F S416x26 .f32) (x6 : Vec F S256x1 .f32) (x7 : Vec F S128x256 .f32)
    (x8 : Vec F S128x1 .f32) (x9 : Vec F S2x128 .f32) (x10 : Vec F S2x128 .f32) (x11 : Vec F S2x1 .f32) (Kc : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ (∃ d, owns (c : Thread nD τ) arg13 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare (out12 x0 x1 x2 x3 x4 x5 x6 x7 x8 x9 x10 x11)) -∗ Kc ⟨⟩))
      ⊢ wp frame (wpE (defs₀ (F := F)) Variants.none c none) E
          (cc1__mlp_body i arg1 harg1 arg2 harg2 arg3 harg3 arg4 harg4 arg5 harg5 arg6 harg6 arg7 harg7 arg8 harg8 arg9 harg9 arg10 harg10 arg11 harg11 arg12 harg12 arg13 harg13) Kc := by
  simp only [cc1__mlp_body_eq_skeleton]; unfold cc1__mlp_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists f9; isplitr; · ipureintro; rfl
                  iexact H9
  isplitl [H10]; · iexists f10; isplitr; · ipureintro; rfl
                   iexact H10
  isplitl [H11]; · iexists f11; isplitr; · ipureintro; rfl
                   iexact H11
  iexists _; isplitr
  swap; · iexact H12
  ipureintro
  exact View.read_writes_eq_canon _ _ _ (cover12 _)

end Cert.Proof.KB

end
-- ==== Proof.KB.Region.lean ====
/-
  The TensorCore pipeline inside the SparseCore program: its proof data over the TensorCore's unscoped buffers at a
  valuation, the body obligation at a symbolic grid point, the region's record over the thread state "every unscoped
  buffer whole at the valuation, the core owing nothing", and the region's step as the TensorCore's proof of the
  whole program meets it.
-/
import proofs.«205318_g12532714570102_cont_fleet_669_37_alg».proof.Proof.KB.RegionBody
import Idealize.ShloMosaic.Lib.Pipeline.RegionsLoop

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The TensorCore's references at contents, on every device. -/
abbrev TcVal (F : FTy → Type) : Type := (c : Dev nD) → (b : Ref sig .tc) → Buf (Elt F) ((c : Thread nD τ).loc b)

/-- The pipeline has no prefetched table. -/
abbrev adm : (p : Fin 1) → (pcfgs (F := F) p).Adm := fun p => (cfgs p).toPCfg_adm

variable (V : TcVal F)

/-! ## The windows' blocks -/

/-- Window `w`'s block at point `t`, read off its array at the valuation. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The proof data -/

/-- The pairs the TensorCore's waits may have recorded: those at or below the first call's band. -/
def recBound (c : Dev nD) : Set (SemLoc sig × HIx 1) := {p | (K (F := F)).lev ((c : Thread nD τ), p.1) p.2 ≤ 8}

/-- The proof data on core `c`: the arrays at the valuation; after the body at point `t` each input's buffer at its
    block and the output's at the body's store over the input blocks; the invariant the scoped buffers no window
    stages; nothing owed; full shares. -/
def dat (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => out12 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t)
  Φ _ := Pipeline.scopedRest (Ix := HIx 1) (Name := ℕ) (U := UU) (Lvl := ℕ) (Val := Elt F) spec1 c
  q _ := fullShare
  owed _ := 0
  recorded _ := recBound (F := F) c

theorem A_eq (c : Dev nD) (w : Fin cfg1.W) : (dat V c).A w = V c (Pipeline.arrRef spec1 w) := by
  dsimp only [dat]

theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = iblk V c 4 t := by dsimp only [dat]
theorem after1_5 (c : Dev nD) (t : Fin cfg1.N) : (dat V c).after 5 t = iblk V c 5 t := by dsimp only [dat]
theorem after1_6 (c : Dev nD) (t : Fin cfg1.N) : (dat V c).after 6 t = iblk V c 6 t := by dsimp only [dat]
theorem after1_7 (c : Dev nD) (t : Fin cfg1.N) : (dat V c).after 7 t = iblk V c 7 t := by dsimp only [dat]
theorem after1_8 (c : Dev nD) (t : Fin cfg1.N) : (dat V c).after 8 t = iblk V c 8 t := by dsimp only [dat]
theorem after1_9 (c : Dev nD) (t : Fin cfg1.N) : (dat V c).after 9 t = iblk V c 9 t := by dsimp only [dat]
theorem after1_10 (c : Dev nD) (t : Fin cfg1.N) : (dat V c).after 10 t = iblk V c 10 t := by dsimp only [dat]
theorem after1_11 (c : Dev nD) (t : Fin cfg1.N) : (dat V c).after 11 t = iblk V c 11 t := by dsimp only [dat]
theorem after1_12 (c : Dev nD) (t : Fin cfg1.N) : (dat V c).after 12 t = out12 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) := by dsimp only [dat]

/-! ## Each input's buffer holds its block at every point, fetched there or not -/

theorem before1_0 (c : Dev nD) (t : Fin cfg1.N) (d) : (dat V c).before 0 t d = iblk V c 0 t :=
  ((dat V c).before_in_eq_fetched 0 rfl (fun _ => rfl) (fun _ _ _ => rfl) (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dat V c).before 1 t d = iblk V c 1 t :=
  ((dat V c).before_in_eq_fetched 1 rfl (fun _ => rfl) (fun _ _ _ => rfl) (fun t => by rw [after1_1]; unfold Dat.blockOf iblk; rw [A_eq]; try rfl) t d).trans
    (by unfold Dat.fetched Dat.blockOf iblk; rw [A_eq]; try rfl)
theorem before1_2 (c : Dev nD) (t : Fin cfg1.N) (d) : (dat V c).before 2 t d = iblk V c 2 t :=
  ((dat V c).before_in_eq_fetched 2 rfl (fun _ => rfl) (fun _ _ _ => rfl) (fun t => by rw [after1_2]; unfold Dat.blockOf iblk; rw [A_eq]; try rfl) t d).trans
    (by unfold Dat.fetched Dat.blockOf iblk; rw [A_eq]; try rfl)
theorem before1_3 (c : Dev nD) (t : Fin cfg1.N) (d) : (dat V c).before 3 t d = iblk V c 3 t :=
  ((dat V c).before_in_eq_fetched 3 rfl (fun _ => rfl) (fun _ _ _ => rfl) (fun t => by rw [after1_3]; unfold Dat.blockOf iblk; rw [A_eq]; try rfl) t d).trans
    (by unfold Dat.fetched Dat.blockOf iblk; rw [A_eq]; try rfl)
theorem before1_4 (c : Dev nD) (t : Fin cfg1.N) (d) : (dat V c).before 4 t d = iblk V c 4 t :=
  ((dat V c).before_in_eq_fetched 4 rfl (fun _ => rfl) (fun _ _ _ => rfl) (fun t => by rw [after1_4]; unfold Dat.blockOf iblk; rw [A_eq]; try rfl) t d).trans
    (by unfold Dat.fetched Dat.blockOf iblk; rw [A_eq]; try rfl)
theorem before1_5 (c : Dev nD) (t : Fin cfg1.N) (d) : (dat V c).before 5 t d = iblk V c 5 t :=
  ((dat V c).before_in_eq_fetched 5 rfl (fun _ => rfl) (fun _ _ _ => rfl) (fun t => by rw [after1_5]; unfold Dat.blockOf iblk; rw [A_eq]; try rfl) t d).trans
    (by unfold Dat.fetched Dat.blockOf iblk; rw [A_eq]; try rfl)
theorem before1_6 (c : Dev nD) (t : Fin cfg1.N) (d) : (dat V c).before 6 t d = iblk V c 6 t :=
  ((dat V c).before_in_eq_fetched 6 rfl (fun _ => rfl) (fun _ _ _ => rfl) (fun t => by rw [after1_6]; unfold Dat.blockOf iblk; rw [A_eq]; try rfl) t d).trans
    (by unfold Dat.fetched Dat.blockOf iblk; rw [A_eq]; try rfl)
theorem before1_7 (c : Dev nD) (t : Fin cfg1.N) (d) : (dat V c).before 7 t d = iblk V c 7 t :=
  ((dat V c).before_in_eq_fetched 7 rfl (fun _ => rfl) (fun _ _ _ => rfl) (fun t => by rw [after1_7]; unfold Dat.blockOf iblk; rw [A_eq]; try rfl) t d).trans
    (by unfold Dat.fetched Dat.blockOf iblk; rw [A_eq]; try rfl)
theorem before1_8 (c : Dev nD) (t : Fin cfg1.N) (d) : (dat V c).before 8 t d = iblk V c 8 t :=
  ((dat V c).before_in_eq_fetched 8 rfl (fun _ => rfl) (fun _ _ _ => rfl) (fun t => by rw [after1_8]; unfold Dat.blockOf iblk; rw [A_eq]; try rfl) t d).trans
    (by unfold Dat.fetched Dat.blockOf iblk; rw [A_eq]; try rfl)
theorem before1_9 (c : Dev nD) (t : Fin cfg1.N) (d) : (dat V c).before 9 t d = iblk V c 9 t :=
  ((dat V c).before_in_eq_fetched 9 rfl (fun _ => rfl) (fun _ _ _ => rfl) (fun t => by rw [after1_9]; unfold Dat.blockOf iblk; rw [A_eq]; try rfl) t d).trans
    (by unfold Dat.fetched Dat.blockOf iblk; rw [A_eq]; try rfl)
theorem before1_10 (c : Dev nD) (t : Fin cfg1.N) (d) : (dat V c).before 10 t d = iblk V c 10 t :=
  ((dat V c).before_in_eq_fetched 10 rfl (fun _ => rfl) (fun _ _ _ => rfl) (fun t => by rw [after1_10]; unfold Dat.blockOf iblk; rw [A_eq]; try rfl) t d).trans
    (by unfold Dat.fetched Dat.blockOf iblk; rw [A_eq]; try rfl)
theorem before1_11 (c : Dev nD) (t : Fin cfg1.N) (d) : (dat V c).before 11 t d = iblk V c 11 t :=
  ((dat V c).before_in_eq_fetched 11 rfl (fun _ => rfl) (fun _ _ _ => rfl) (fun t => by rw [after1_11]; unfold Dat.blockOf iblk; rw [A_eq]; try rfl) t d).trans
    (by unfold Dat.fetched Dat.blockOf iblk; rw [A_eq]; try rfl)

/-! ## The body obligation, at a symbolic point -/

/-- What the body is called with at point `t`, the windows one by one, -/
def bodyPre (c : Dev nD) (t : Fin cfg1.N) : sProp 𝕄 :=
  iprop((dat V c).Φ t.castSucc ∗ (dat V c).owesAt none t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d)))

/-- and what it returns. -/
def bodyPost (c : Dev nD) (t : Fin cfg1.N) : sProp 𝕄 :=
  iprop((dat V c).Φ t.succ ∗ (dat V c).owesAt none t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t)
    ∗ owns (c : Thread nD τ) (st1_12 t) fullShare ((dat V c).after 12 t))

set_option maxHeartbeats 1000000 in
/-- The body at any point: the inputs' memrefs hold their blocks, so the body's triple applies; the invariant and the
    core's debts pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6, before1_7, before1_8, before1_9, before1_10, before1_11]
  rw [show (dat V c).Φ t.succ = (dat V c).Φ t.castSucc from rfl,
    show (dat V c).owesAt none t.succ = (dat V c).owesAt none t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid1.coords t) _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation (c : Dev nD) : BodyObligation (dat V c) (defs₀ (F := F)) Variants.none none Set.univ := fun t => by
  rw [bigSep_W1, bigSep_W1]
  exact sound_body V c t

/-! ## The region over the thread state -/

/-- No input window's array is the output's. -/
theorem arrRef_ne : ∀ w : Fin 13, w ≠ 12 → Pipeline.arrRef spec1 w ≠ main_v30 := by decide

/-- The proof data family of the program's one pipeline. -/
def pdats : (p : Fin 1) → (c : Dev nD) → Dat τ (Elt F) (HIx 1) ℕ UU ℕ (Pipeline.pin (pcfgs (F := F)) adm p) c :=
  fun _ c => dat V c

/-- The output array after the region, as the library computes it: every point's block written back in turn. -/
def out30 (c : Dev nD) : Buf (Elt F) ((c : Thread nD τ).loc main_v30) := (dat V c).arrAt 12 cfg1.N

/-- What the TensorCore holds of its debts around the region: it owes nothing, and every pair its waits have recorded
    sits at or below the first call's band. -/
def tcOwes0 (c : Dev nD) : sProp 𝕄 :=
  iprop(∃ W, ⌜(K (F := F)).WBelow (T c) W 8⌝ ∗ owes (T c) (0 : CellTallies nD τ sig (HIx 1)) W)

variable (Vp : TcVal F)

set_option backward.isDefEq.respectTransparency.types false in
/-- The region entered from "every unscoped buffer at `V c`, nothing owed" and left at "every unscoped buffer at
    `Vp c`, nothing owed", for any `Vp` that has the output array at `out30 V c` and agrees with `V` off it. Nothing
    enters the invariant but the scoped rest; the kernel has no semaphore of its own. -/
def reg (lv : GSem nD τ sig → HIx 1 → ℕ) (hout : ∀ c, Vp c main_v30 = out30 V c)
    (hne : ∀ c (b : Ref sig .tc), b ≠ main_v30 → Vp c b = V c b) :
    Pipeline.RegionSeg (pcfgs (F := F)) adm (pdats V) none defs₀ 𝒱₀ (K (F := F)).L lv 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L lv 0 fun _ _ => rfl
  pre c := iprop(unscopedBufs c (V c) ∗ tcOwes0 (F := F) c)
  post c := iprop(unscopedBufs c (Vp c) ∗ tcOwes0 (F := F) c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin tcOwes0
      icases HO with ⟨%W, %hW, HO⟩; iexists W; isplitr; · ipureintro; exact fun p hp => Or.inl (hW p (Finset.mem_coe.mp hp))
      iexact HO
    isplitr; · iempintro
    iexact Hrest
  hin c := by
    rw [show (pdats V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hne c _ (arrRef_ne 0 (by decide))).symm
        · exact ((pdats V 0 c).arrAt_in 1 rfl _).trans (hne c _ (arrRef_ne 1 (by decide))).symm
        · exact ((pdats V 0 c).arrAt_in 2 rfl _).trans (hne c _ (arrRef_ne 2 (by decide))).symm
        · exact ((pdats V 0 c).arrAt_in 3 rfl _).trans (hne c _ (arrRef_ne 3 (by decide))).symm
        · exact ((pdats V 0 c).arrAt_in 4 rfl _).trans (hne c _ (arrRef_ne 4 (by decide))).symm
        · exact ((pdats V 0 c).arrAt_in 5 rfl _).trans (hne c _ (arrRef_ne 5 (by decide))).symm
        · exact ((pdats V 0 c).arrAt_in 6 rfl _).trans (hne c _ (arrRef_ne 6 (by decide))).symm
        · exact ((pdats V 0 c).arrAt_in 7 rfl _).trans (hne c _ (arrRef_ne 7 (by decide))).symm
        · exact ((pdats V 0 c).arrAt_in 8 rfl _).trans (hne c _ (arrRef_ne 8 (by decide))).symm
        · exact ((pdats V 0 c).arrAt_in 9 rfl _).trans (hne c _ (arrRef_ne 9 (by decide))).symm
        · exact ((pdats V 0 c).arrAt_in 10 rfl _).trans (hne c _ (arrRef_ne 10 (by decide))).symm
        · exact ((pdats V 0 c).arrAt_in 11 rfl _).trans (hne c _ (arrRef_ne 11 (by decide))).symm
        · exact (hout c).symm)
      (fun b hb => hne c b fun h => hb (h ▸ Finset.mem_image.mpr ⟨12, Finset.mem_univ _, rfl⟩))
    iintro ⟨Ha, HO, -, Hrest⟩
    imodintro
    isplitl [Ha Hrest]
    · iapply hjoin; isplitl [Ha] <;> iassumption
    unfold Pipeline.Dat.owesAt Pipeline.owesWithin tcOwes0
    icases HO with ⟨%W, %hW, HO⟩; iexists W
    isplitr
    · ipureintro
      intro p hp
      rcases hW (Finset.mem_coe.mpr hp) with h | ⟨w, s, rfl⟩
      · exact h
      · exact Nat.zero_le _
    iexact HO

end Cert.Proof.KB

end
-- ==== Proof.KB.RegionStep.lean ====
/-
  The TensorCore's custom call as the proof of the whole program on the TensorCore meets it: the pipeline's region
  run under the program's extended body table, and the pipeline's ghost state at the launch.
-/
import proofs.«205318_g12532714570102_cont_fleet_669_37_alg».proof.Proof.KB.Region

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V Vp : TcVal F)

/-! ## The region's step inside the SparseCore program -/

set_option backward.isDefEq.respectTransparency.types false in
/-- The TensorCore's custom call inside the program's extended body table: from the boundary, every unscoped buffer
    at `V d`, nothing owed, the level facts and the pipeline's ghost state, the call runs to the boundary, every
    unscoped buffer at `Vp d` — the output array at `out30 V d`, every other as it was — and nothing owed. -/
theorem region_wp (d : Dev nD) (lv : GSem nD τ sig → HIx 1 → ℕ) (hout : ∀ c, Vp c main_v30 = out30 V c)
    (hne : ∀ c (b : Ref sig .tc), b ≠ main_v30 → Vp c b = V c b) (Φ : PUnit → sProp 𝕄) :
    iprop(boundary (T d) ∗ unscopedBufs d (V d) ∗ tcOwes0 (F := F) d ∗ levAts (K (F := F)).L lv
        ∗ Pipeline.cellsGhost cfgs (ER (F := F)) 0 d ∗ Pipeline.toksInit cfgs (ER (F := F)) 0 d
        ∗ (iprop(boundary (T d) ∗ unscopedBufs d (Vp d) ∗ tcOwes0 (F := F) d) -∗ Φ ⟨⟩))
      ⊢ wp frame (wpE ((K (F := F)).defs D) 𝒱 (T d) none) Set.univ
          (Prog.lift (.customCall (SparseCore.inner (Pipeline.entry 0)) ())) Φ := by
  have h := Pipeline.RegionSeg.wp (pcfgs (F := F)) adm (pdats V) none cellOf_inj (ER (F := F)) defs₀ 𝒱₀ (K (F := F)).L lv
    (reg V Vp lv hout hne) d none (fun u hu => (Option.not_mem_none u hu).elim) (fun _ => .ret ⟨⟩) Φ
  rw [show (reg V Vp lv hout hne).pre d = iprop(unscopedBufs d (V d) ∗ tcOwes0 (F := F) d) from rfl,
    show (reg V Vp lv hout hne).post d = iprop(unscopedBufs d (Vp d) ∗ tcOwes0 (F := F) d) from rfl] at h
  refine .trans ?_ (h.trans ((K (F := F)).wp_liftProg D 𝒱 (T d) Set.univ none _ Φ))
  iintro ⟨Hbd, Hub, HO, Hla, Hg, Ht, Hk⟩
  isplitl [Hk]
  · iintro ⟨Hbd, Hub, HO⟩
    rw [wp_ret]
    imodintro
    iapply Hk
    isplitl [Hbd]; · iexact Hbd
    isplitl [Hub]; · iexact Hub
    iexact HO
  isplitl [Hbd]; · iexact Hbd
  isplitl [Hub HO]
  · isplitl [Hub]; · iexact Hub
    iexact HO
  isplitl [Hla]; · iexact Hla
  isplitl [Hg]; · iexact Hg
  iexact Ht

/-! ## The pipeline's ghost state at the launch -/

/-- From the rounds' launch element at the staging cells, every device's ghost state and duty tokens of the one
    pipeline. -/
theorem fund1 :
    (BI.own ((ER (F := F)) (initOf (Pipeline.cells cfgs cellOf_inj) (Pipeline.launchToks cfgs cellOf_inj))) : sProp 𝕄)
      ⊢ iprop(|==> bigSep Finset.univ fun d : Dev nD =>
          iprop(Pipeline.cellsGhost cfgs (ER (F := F)) 0 d ∗ Pipeline.toksInit cfgs (ER (F := F)) 0 d)) := by
  have h1 : ∀ (Ψ : Fin 1 → sProp 𝕄), bigSep Finset.univ Ψ = Ψ 0 := fun Ψ => by
    rw [show (Finset.univ : Finset (Fin 1)) = {0} from rfl, BI.bigSep_singleton]
  iintro Hu
  imod (Pipeline.fund_ghost cfgs (ER (F := F)) cellOf_inj) $$ Hu with ⟨Hg, Ht⟩
  imodintro
  rw [BI.bigSep_sep']
  isplitl [Hg]
  · iapply (Entails.of_eq (BI.bigSep_congr fun d _ => h1 fun p => Pipeline.cellsGhost cfgs (ER (F := F)) p d)); iexact Hg
  · iapply (Entails.of_eq (BI.bigSep_congr fun d _ => h1 fun p => Pipeline.toksInit cfgs (ER (F := F)) p d)); iexact Ht

end Cert.Proof.KB

end
-- ==== Proof.KB.RegionMain.lean ====
/-
  The TensorCore's custom call met from the TensorCore's handshake state after the SparseCore call, over the
  unscoped buffers held at a device-independent valuation: the form the proof of the whole program calls.
-/
import proofs.«205318_g12532714570102_cont_fleet_669_37_alg».proof.Proof.KB.RegionStep

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.SparseCore.Cfg (Pay)

/-- A device-independent valuation as the TensorCore's references at contents on every device. -/
abbrev valOf (W : Valuation τ sig (Elt F)) : TcVal F := fun _ b => W b

/-- The output array after the region, entered at the valuation `W`, on device `d`. -/
abbrev out30W (W : Valuation τ sig (Elt F)) (d : Dev nD) : Buf (Elt F) ((d : Thread nD τ).loc main_v30) := out30 (valOf W) d

/-- The valuation the region leaves: `W` with the output array at `out30W W d`. -/
abbrev valAfter (W : Valuation τ sig (Elt F)) (d : Dev nD) : Valuation τ sig (Elt F) :=
  Function.update W (Proc.devRef .tc main_v30) (out30W W d)

/-- After the last SparseCore call the TensorCore owes nothing. -/
theorem Otc_one (d : Dev nD) : (K (F := F)).Otc d 1 = 0 := (K (F := F)).Otc_end d (le_refl 1)

variable {P : (K (F := F)).Pay (nD := nD) (Val := Elt F) (Name := ℕ) (U := UU)}

/-- The region from the TensorCore's state after the one SparseCore call: the handshake state passes through (the
    core owes nothing, and the pairs the pipeline's waits record sit at level 0), the unscoped buffers go from `W`
    to `valAfter W d`. -/
theorem region_main (κ : GSem nD τ sig → ℕ) (lv : GSem nD τ sig → HIx 1 → ℕ) (d : Dev nD) (W : Valuation τ sig (Elt F))
    (Φ : PUnit → sProp 𝕄) :
    iprop((K (F := F)).ctx EH P κ lv ∗ (K (F := F)).tcSt EH d 1 ∗ boundary (T d)
        ∗ StableHlo.held (T d) (Pipeline.ucRefs τ sig) W
        ∗ Pipeline.cellsGhost cfgs (ER (F := F)) 0 d ∗ Pipeline.toksInit cfgs (ER (F := F)) 0 d
        ∗ (iprop((K (F := F)).tcSt EH d 1 ∗ boundary (T d)
            ∗ StableHlo.held (T d) (Pipeline.ucRefs τ sig) (valAfter W d)) -∗ Φ ⟨⟩))
      ⊢ wp frame (wpE ((K (F := F)).defs D) 𝒱 (T d) none) Set.univ
          (Prog.lift (.customCall (SparseCore.inner (Pipeline.entry 0)) ())) Φ := by
  have hstep := region_wp (valOf W) (fun c => valOf (valAfter W c) c) d lv
    (fun c => by show Function.update W _ _ _ = _; rw [Function.update_self])
    (fun c b hb => by
      show Function.update W _ _ _ = _
      rw [Function.update_of_ne (StableHlo.devRef_ne_of_ne hb : (Proc.devRef .tc b : DevRef τ sig) ≠ Proc.devRef .tc main_v30)])
    Φ
  refine .trans ?_ hstep
  rw [← Pipeline.unscopedBufs_held (Ix := HIx 1) (Name := ℕ) (U := UU) (Lvl := ℕ) d W,
    ← Pipeline.unscopedBufs_held (Ix := HIx 1) (Name := ℕ) (U := UU) (Lvl := ℕ) d (valAfter W d)]
  unfold SparseCore.Cfg.tcSt tcOwes0
  rw [Otc_one, Nat.mul_one]
  iintro ⟨#Hctx, ⟨HO, Hat, Hrd, Hrs, Htk⟩, Hbd, Hub, Hg, Ht, Hk⟩
  ihave Hlev := (SparseCore.Cfg.ctx_levAts κ) $$ Hctx
  isplitl [Hbd]; · iexact Hbd
  isplitl [Hub]; · iexact Hub
  isplitl [HO]; · iexact HO
  isplitl [Hlev]; · iexact Hlev
  isplitl [Hg]; · iexact Hg
  isplitl [Ht]; · iexact Ht
  iintro ⟨Hbd, Hub, HO⟩
  iapply Hk
  isplitl [HO Hat Hrd Hrs Htk]
  · isplitl [HO]; · iexact HO
    isplitl [Hat]; · iexact Hat
    isplitl [Hrd]; · iexact Hrd
    isplitl [Hrs]; · iexact Hrs
    iexact Htk
  isplitl [Hbd]; · iexact Hbd
  iexact Hub

end Cert.Proof.KB

end
-- ==== Proof.KB.Main.lean ====
/-
  @main of the kernel's program on the TensorCore, run: the two transposes, the SparseCore call (its two read arrays
  lent as read shares, its result as the vector subcores' pieces, all back with the result at the gathered value),
  the host operations between the calls, the TensorCore pipeline, the final transpose. The arrays end at the
  composed pure valuation of the launch memory.
-/
import proofs.«205318_g12532714570102_cont_fleet_669_37_alg».proof.Proof.KB.Pieces
import proofs.«205318_g12532714570102_cont_fleet_669_37_alg».proof.Proof.KB.Vals
import proofs.«205318_g12532714570102_cont_fleet_669_37_alg».proof.Proof.KB.RegionMain
import Idealize.ShloMosaic.Lib.Tactic

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr after launchContents seq)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The pipeline's result as a function of the arrays it finds. -/
abbrev o30 : (d : Dev nD) → Valuation τ sig (Elt F) → Buf (Elt F) ((SparseCore.T (τ := τ) d).loc main_v30) := fun d W => out30W W d

/-- The call's payloads at this launch memory. -/
abbrev PP : (K (F := F)).Pay (nD := nD) (Val := Elt F) (Name := ℕ) (U := UU) := P (Aof m) (Xof m) (E0of m)

/-- What the launch element hands each TensorCore beyond the library's: its pipeline's cells and duty tokens. -/
abbrev GG (d : Dev nD) : sProp 𝕄 := iprop(Pipeline.cellsGhost cfgs (ER (F := F)) 0 d ∗ Pipeline.toksInit cfgs (ER (F := F)) 0 d)

/-- What @main leaves: every array of the TensorCore at the composed valuation. -/
abbrev FIN (d : Dev nD) : sProp 𝕄 := held (T d) (Pipeline.ucRefs τ sig) (WC m (o30 (F := F)) d)

/-! ## The SparseCore call's three arrays inside the held set -/

abbrev rA : DevRef τ sig := Proc.devRef .tc (main_v0 : Ref sig .tc)
abbrev rX : DevRef τ sig := Proc.devRef .tc (main_v1 : Ref sig .tc)
abbrev rE : DevRef τ sig := Proc.devRef .tc (main_v2 : Ref sig .tc)
abbrev T3 : Finset (DevRef τ sig) := {rA, rX, rE}

omit [FloatOps F] in
theorem T3_sub : T3 ⊆ Pipeline.ucRefs τ sig := by decide

omit [FloatOps F] in
theorem held_T3 (d : Dev nD) (W : Valuation τ sig (Elt F)) :
    (held (T d) T3 W : sProp 𝕄) = iprop((aLoc d ↦{fullShare} W rA) ∗ (xLoc d ↦{fullShare} W rX) ∗ eLoc d ↦{fullShare} W rE) := by
  unfold held T3
  rw [SparseCore.bigSep_insert' (by decide), SparseCore.bigSep_insert' (by decide), bigSep_singleton]

theorem W1_A (d : Dev nD) : W1 m d rA = Aof m d := Function.update_of_ne (show rA ≠ rE by decide) _ _
theorem W1_X (d : Dev nD) : W1 m d rX = Xof m d := Function.update_of_ne (show rX ≠ rE by decide) _ _
theorem W1_E (d : Dev nD) : W1 m d rE = embOf (Aof m) (Xof m) d := Function.update_self _ _ _
theorem W1_rest (d : Dev nD) : ∀ b ∈ Pipeline.ucRefs τ sig \ T3, WA m d b = W1 m d b := fun b hb =>
  (Function.update_of_ne (fun e => (Finset.mem_sdiff.mp hb).2 (by rw [e]; decide)) _ _).symm

/-- The SparseCores' shares of an array the call reads, and the pieces of its result, summed over the call's SparseCores. -/
theorem st_eq (d : Dev nD) :
    (bigSep Finset.univ fun c : Fin ((K (F := F)).nCore 0) => (PP m).st 0 d c)
      = iprop((bigSep Finset.univ fun c : Fin ((K (F := F)).nCore 0) => aLoc d ↦{(qC (F := F) c)} Aof m d)
        ∗ (bigSep Finset.univ fun c : Fin ((K (F := F)).nCore 0) => xLoc d ↦{(qC (F := F) c)} Xof m d)
        ∗ bigSep Finset.univ fun c : Fin ((K (F := F)).nCore 0) => bigSep Finset.univ fun i : Fin ((K (F := F)).nSub 0) =>
            tilePcs d (LT (F := F) c i) (E0of m d)) := by
  rw [← bigSep_sep', ← bigSep_sep']; rfl
theorem dn_eq (d : Dev nD) :
    (bigSep Finset.univ fun c : Fin ((K (F := F)).nCore 0) => (PP m).dn 0 d c)
      = iprop((bigSep Finset.univ fun c : Fin ((K (F := F)).nCore 0) => aLoc d ↦{(qC (F := F) c)} Aof m d)
        ∗ (bigSep Finset.univ fun c : Fin ((K (F := F)).nCore 0) => xLoc d ↦{(qC (F := F) c)} Xof m d)
        ∗ bigSep Finset.univ fun c : Fin ((K (F := F)).nCore 0) => bigSep Finset.univ fun i : Fin ((K (F := F)).nSub 0) =>
            tilePcs d (LT (F := F) c i) (embOf (Aof m) (Xof m) d)) := by
  rw [← bigSep_sep', ← bigSep_sep']; rfl

/-! ## @main -/

theorem hmain (κ : GSem nD τ sig → ℕ) (d : Dev nD) :
    iprop((K (F := F)).ctx EH (PP m) κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [main_eq, show (unscopedBufs d (fun b => m ((SparseCore.T d).loc b)) : sProp 𝕄)
      = held (T d) (Pipeline.ucRefs τ sig) (W0 m d) from Pipeline.unscopedBufs_held d (W0 m d)]
  iintro ⟨#Hctx, Hst, ⟨Hb, Hheld, -, -⟩, ⟨Hcg, Htk⟩⟩
  -- the two transposes
  iapply (StableHlo.wp_seq 𝒱 none Set.univ d (Pipeline.ucRefs τ sig) _ opsA (List.forall_iff_forall_mem.mp opsA_sub)
      (List.forall_iff_forall_mem.mp opsA_fresh) (W0 m d)) $$ [Hb Hheld]
  · isplitl [Hb]; · iexact Hb
    iexact Hheld
  iintro ⟨Hb, Hheld⟩
  ihave Hheld := (Entails.of_eq (show (held (d.tc : Thread nD τ) (Pipeline.ucRefs τ sig) (after opsA (W0 m d)) : sProp 𝕄)
      = held (T d) (Pipeline.ucRefs τ sig) (WA m d) from rfl)) $$ Hheld
  -- the SparseCore call's arrays out of the held set, the read arrays into shares, the result into pieces
  ihave Hh := (Entails.of_eq ((held_sub_split (T d) T3_sub (WA m d)).trans (congrArg (fun X => iprop(X ∗ _)) (held_T3 d (WA m d))))) $$ Hheld
  icases Hh with ⟨⟨Ha, Hx, He⟩, Hrest⟩
  ihave Ha := (Entails.of_eq (show (aLoc d ↦{fullShare} WA m d rA : sProp 𝕄) = (aLoc d ↦{fullShare} Aof m d) from rfl)) $$ Ha
  ihave Hx := (Entails.of_eq (show (xLoc d ↦{fullShare} WA m d rX : sProp 𝕄) = (xLoc d ↦{fullShare} Xof m d) from rfl)) $$ Hx
  ihave He := (Entails.of_eq (show (eLoc d ↦{fullShare} WA m d rE : sProp 𝕄) = (eLoc d ↦{fullShare} E0of m d) from rfl)) $$ He
  ihave Ha' := (Transfers.pointsTo_toks_split fullShare 2) $$ Ha
  icases Ha' with ⟨Had, Hat⟩
  ihave Hx' := (Transfers.pointsTo_toks_split fullShare 2) $$ Hx
  icases Hx' with ⟨Hxd, Hxt⟩
  ihave He' := (Entails.of_eq (ePts_pieces (F := F) d (E0of m d))) $$ He
  rw [wp_bind]
  iapply ((K (F := F)).wp_run (D (F := F)) 𝒱 (EH := EH) (P := PP m) κ d 0) $$ [Hst Hat Hxt He' Hb Had Hxd Hrest Hcg Htk]
  isplitr; · iexact Hctx
  isplitl [Hst]; · iexact Hst
  isplitl [Hat Hxt He']
  · rw [st_eq]
    isplitl [Hat]; · iexact Hat
    isplitl [Hxt]; · iexact Hxt
    iexact He'
  iintro ⟨Hst, Hdn⟩
  ihave Hdn' := (Entails.of_eq (dn_eq m d)) $$ Hdn
  icases Hdn' with ⟨Hat, Hxt, He⟩
  ihave Ha := (Transfers.pointsTo_toks_join fullShare 2) $$ [Had Hat]
  · isplitl [Had]; · iexact Had
    iexact Hat
  ihave Hx := (Transfers.pointsTo_toks_join fullShare 2) $$ [Hxd Hxt]
  · isplitl [Hxd]; · iexact Hxd
    iexact Hxt
  ihave He' := (Entails.of_eq (ePts_pieces (F := F) d (embOf (Aof m) (Xof m) d)).symm) $$ He
  ihave Hheld := (Entails.of_eq ((held_sub_split (T d) T3_sub (W1 m d)).trans (congrArg (fun X => iprop(X ∗ _)) (held_T3 d (W1 m d)))).symm) $$ [Ha Hx He' Hrest]
  · rw [W1_A, W1_X, W1_E, ← held_congr (T d) (W1_rest m d)]
    isplitl [Ha Hx He']
    · isplitl [Ha]; · iexact Ha
      isplitl [Hx]; · iexact Hx
      iexact He'
    iexact Hrest
  -- the host operations between the calls
  iapply (StableHlo.wp_seq 𝒱 none Set.univ d (Pipeline.ucRefs τ sig) _ opsB (List.forall_iff_forall_mem.mp opsB_sub)
      (List.forall_iff_forall_mem.mp opsB_fresh) (W1 m d)) $$ [Hb Hheld]
  · isplitl [Hb]; · iexact Hb
    iexact Hheld
  iintro ⟨Hb, Hheld⟩
  ihave Hheld := (Entails.of_eq (show (held (d.tc : Thread nD τ) (Pipeline.ucRefs τ sig) (after opsB (W1 m d)) : sProp 𝕄)
      = held (T d) (Pipeline.ucRefs τ sig) (WB m d) from rfl)) $$ Hheld
  -- the TensorCore pipeline
  rw [wp_bind]
  iapply (region_main (F := F) (P := PP m) κ (K (F := F)).lev d (WB m d)) $$ [Hst Hb Hheld Hcg Htk]
  isplitr; · iexact Hctx
  isplitl [Hst]; · iexact Hst
  isplitl [Hb]; · iexact Hb
  isplitl [Hheld]; · iexact Hheld
  isplitl [Hcg]; · iexact Hcg
  isplitl [Htk]; · iexact Htk
  iintro ⟨Hst, Hb, Hheld⟩
  ihave Hheld := (Entails.of_eq (show (held (T d) (Pipeline.ucRefs τ sig) (valAfter (WB m d) d) : sProp 𝕄)
      = held (T d) (Pipeline.ucRefs τ sig) (W2 m (o30 (F := F)) d) from rfl)) $$ Hheld
  -- the final transpose
  iapply (StableHlo.wp_seq 𝒱 none Set.univ d (Pipeline.ucRefs τ sig) _ opsC (List.forall_iff_forall_mem.mp opsC_sub)
      (List.forall_iff_forall_mem.mp opsC_fresh) (W2 m (o30 (F := F)) d)) $$ [Hb Hheld]
  · isplitl [Hb]; · iexact Hb
    iexact Hheld
  iintro ⟨Hb, Hheld⟩
  ihave Hheld := (Entails.of_eq (show (held (d.tc : Thread nD τ) (Pipeline.ucRefs τ sig) (after opsC (W2 m (o30 (F := F)) d)) : sProp 𝕄)
      = held (T d) (Pipeline.ucRefs τ sig) (WC m (o30 (F := F)) d) from rfl)) $$ Hheld
  rw [wp_pure]; imodintro
  isplitl [Hst]; · iexact Hst
  iexact Hheld

end Cert.Proof.KB

end
-- ==== Proof.KB.HostGlue.lean ====
import proofs.«205318_g12532714570102_cont_fleet_669_37_alg».proof.Proof.KB.MainOps
import proofs.«205318_g12532714570102_cont_fleet_669_37_alg».proof.Proof.KB.ScCommon
import proofs.«205318_g12532714570102_cont_fleet_669_37_alg».proof.Proof.KV.Ops
import proofs.«205318_g12532714570102_cont_fleet_669_37_alg».proof.Proof.Spec
import Idealize.ShloMosaic.Lib.ValueLayout
import Idealize.ShloMosaic.Lib.ValueIdxCoords

/-!
# The host operations around the two calls, read at an index

The program's host operations only move data: transposes, slices, reshapes, and one small
computation, the block-diagonal table of the tables' row 0.  Each result is read here at an
index as a function of what the valuation holds at the nine argument arrays.
-/

noncomputable section

namespace Cert.Proof.KVB

open Cert.Proof.KV

open Cert.Kernel Cert.Kernel.Gen Cert.Proof.KB
open Idealize.ShloMosaic Idealize.ShloMosaic.TcCoe Idealize.SL.Sem Idealize.ShloMosaic.StableHlo
open Idealize.ShloMosaic.ValueIdx

variable {F : FTy → Type} [FloatOps F]

/-! ## The nine argument arrays, as a valuation holds them -/

abbrev arg0 (W : Valuation τ sig (Elt F)) : FVec F S16384x128 .f32 := W (Proc.devRef .tc main_arg0)
abbrev arg1 (W : Valuation τ sig (Elt F)) : IVec S16384x39 32 := W (Proc.devRef .tc main_arg1)
abbrev arg2 (W : Valuation τ sig (Elt F)) : FVec F S26x100000x16 .f32 := W (Proc.devRef .tc main_arg2)
abbrev arg3 (W : Valuation τ sig (Elt F)) : FVec F S429x256 .f32 := W (Proc.devRef .tc main_arg3)
abbrev arg4 (W : Valuation τ sig (Elt F)) : FVec F S256 .f32 := W (Proc.devRef .tc main_arg4)
abbrev arg5 (W : Valuation τ sig (Elt F)) : FVec F S256x128 .f32 := W (Proc.devRef .tc main_arg5)
abbrev arg6 (W : Valuation τ sig (Elt F)) : FVec F S128 .f32 := W (Proc.devRef .tc main_arg6)
abbrev arg7 (W : Valuation τ sig (Elt F)) : FVec F S256x2 .f32 := W (Proc.devRef .tc main_arg7)
abbrev arg8 (W : Valuation τ sig (Elt F)) : FVec F S2 .f32 := W (Proc.devRef .tc main_arg8)

/-! ## Before the first call: the two transposes -/

theorem afterA_v0 (W : Valuation τ sig (Elt F)) (f : Fin 26) (dd : Fin 16) (r : Fin 100000) :
    after (opsA (F := F)) W (Proc.devRef .tc main_v0) (ix3 f dd r) = arg2 W (ix3 f r dd) := by
  have h : after (opsA (F := F)) W (Proc.devRef .tc main_v0)
      = transpose S26x16x100000 [0, 2, 1] (arg2 W) transposes_S26x100000x16_S26x16x100000_0_2_1 := by
    after_results_simp <;> rfl
  exact (congrFun h _).trans (transpose_ix3_021_apply (arg2 W) _ f dd r)

theorem afterA_v1 (W : Valuation τ sig (Elt F)) (r : Fin 39) (b : Fin 16384) :
    after (opsA (F := F)) W (Proc.devRef .tc main_v1) (ix2 r b) = arg1 W (ix2 b r) := by
  have h : after (opsA (F := F)) W (Proc.devRef .tc main_v1)
      = transpose S39x16384 [1, 0] (arg1 W) transposes_S16384x39_S39x16384_1_0 := by
    after_results_simp <;> rfl
  exact (congrFun h _).trans (transpose_ix2_apply (arg1 W) _ r b)

/-- The two transposes write nothing else. -/
theorem afterA_other (W : Valuation τ sig (Elt F)) (r : Ref sig .tc) (h0 : r ≠ main_v0) (h1 : r ≠ main_v1) :
    after (opsA (F := F)) W (Proc.devRef .tc r) = W (Proc.devRef .tc r) := by
  simp only [after_cons, after_nil]
  rw [unary_result_ne _ _ _ _ _ _ h1, unary_result_ne _ _ _ _ _ _ h0]

/-! ## After the second call: the result transposed back -/

theorem afterC_v31 (W : Valuation τ sig (Elt F)) (b : Fin 16384) (c : Fin 2) :
    after (opsC (F := F)) W (Proc.devRef .tc main_v31) (ix2 b c)
      = (W (Proc.devRef .tc main_v30) : FVec F S2x16384 .f32) (ix2 c b) := by
  have h : after (opsC (F := F)) W (Proc.devRef .tc main_v31)
      = transpose S16384x2 [1, 0] (W (Proc.devRef .tc main_v30) : FVec F S2x16384 .f32)
          transposes_S2x16384_S16384x2_1_0 := by
    after_results_simp <;> rfl
  exact (congrFun h _).trans (transpose_ix2_apply (W (Proc.devRef .tc main_v30) : FVec F S2x16384 .f32) _ b c)

theorem afterC_other (W : Valuation τ sig (Elt F)) (r : Ref sig .tc) (h : r ≠ main_v31) :
    after (opsC (F := F)) W (Proc.devRef .tc r) = W (Proc.devRef .tc r) := by
  simp only [after_cons, after_nil]
  rw [unary_result_ne _ _ _ _ _ _ h]

/-! ## Between the calls: slices, transposes, reshapes -/

theorem afterB_v18 (W : Valuation τ sig (Elt F)) (h : Fin 256) (p : Fin 416) :
    after (opsB (F := F)) W (Proc.devRef .tc main_v18) (ix2 h p)
      = arg3 W (ix2 (Fin.castLE (by norm_num) p) h) := by
  have e : after (opsB (F := F)) W (Proc.devRef .tc main_v18)
      = transpose S256x416 [1, 0]
          (extractStridedSlice S416x256 ![0, 0] (arg3 W) slices_S429x256_S416x256_0_0)
          transposes_S416x256_S256x416_1_0 := by
    after_results_simp <;> rfl
  exact ((congrFun e _).trans (transpose_ix2_apply _ _ h p)).trans
    (slice2_axis0_apply 0 (arg3 W) _ p h (Fin.castLE (by norm_num) p) (by simp))

theorem afterB_v20 (W : Valuation τ sig (Elt F)) (h : Fin 256) (k : Fin 13) :
    after (opsB (F := F)) W (Proc.devRef .tc main_v20) (ix2 h k)
      = arg3 W (ix2 ⟨416 + k.val, by omega⟩ h) := by
  have e : after (opsB (F := F)) W (Proc.devRef .tc main_v20)
      = transpose S256x13 [1, 0]
          (extractStridedSlice S13x256 ![416, 0] (arg3 W) slices_S429x256_S13x256_416_0)
          transposes_S13x256_S256x13_1_0 := by
    after_results_simp <;> rfl
  exact ((congrFun e _).trans (transpose_ix2_apply _ _ h k)).trans
    (slice2_axis0_apply 416 (arg3 W) _ k h ⟨416 + k.val, by omega⟩ rfl)

theorem afterB_v22 (W : Valuation τ sig (Elt F)) (h : Fin 256) (u : Fin 1) :
    after (opsB (F := F)) W (Proc.devRef .tc main_v22) (ix2 h u) = arg4 W (ix1 h) := by
  have e : after (opsB (F := F)) W (Proc.devRef .tc main_v22)
      = shapeCast S256x1 (arg4 W) shapeCasts_S256_S256x1 := by
    after_results_simp <;> rfl
  refine (congrFun e _).trans (shapeCast_apply (arg4 W) _ (ix2 h u) (ix1 h) ?_)
  rw [Shape.rowMajor_val_one, Shape.rowMajor_val_two]
  show h.val = h.val * 1 + u.val
  omega

theorem afterB_v23 (W : Valuation τ sig (Elt F)) (j : Fin 128) (h : Fin 256) :
    after (opsB (F := F)) W (Proc.devRef .tc main_v23) (ix2 j h) = arg5 W (ix2 h j) := by
  have e : after (opsB (F := F)) W (Proc.devRef .tc main_v23)
      = transpose S128x256 [1, 0] (arg5 W) transposes_S256x128_S128x256_1_0 := by
    after_results_simp <;> rfl
  exact (congrFun e _).trans (transpose_ix2_apply (arg5 W) _ j h)

theorem afterB_v24 (W : Valuation τ sig (Elt F)) (j : Fin 128) (u : Fin 1) :
    after (opsB (F := F)) W (Proc.devRef .tc main_v24) (ix2 j u) = arg6 W (ix1 j) := by
  have e : after (opsB (F := F)) W (Proc.devRef .tc main_v24)
      = shapeCast S128x1 (arg6 W) shapeCasts_S128_S128x1 := by
    after_results_simp <;> rfl
  refine (congrFun e _).trans (shapeCast_apply (arg6 W) _ (ix2 j u) (ix1 j) ?_)
  rw [Shape.rowMajor_val_one, Shape.rowMajor_val_two]
  show j.val = j.val * 1 + u.val
  omega

theorem afterB_v26 (W : Valuation τ sig (Elt F)) (c : Fin 2) (j : Fin 128) :
    after (opsB (F := F)) W (Proc.devRef .tc main_v26) (ix2 c j)
      = arg7 W (ix2 (Fin.castLE (by norm_num) j) c) := by
  have e : after (opsB (F := F)) W (Proc.devRef .tc main_v26)
      = transpose S2x128 [1, 0]
          (extractStridedSlice S128x2 ![0, 0] (arg7 W) slices_S256x2_S128x2_0_0)
          transposes_S128x2_S2x128_1_0 := by
    after_results_simp <;> rfl
  exact ((congrFun e _).trans (transpose_ix2_apply _ _ c j)).trans
    (slice2_axis0_apply 0 (arg7 W) _ j c (Fin.castLE (by norm_num) j) (by simp))

theorem afterB_v28 (W : Valuation τ sig (Elt F)) (c : Fin 2) (k : Fin 128) :
    after (opsB (F := F)) W (Proc.devRef .tc main_v28) (ix2 c k)
      = arg7 W (ix2 ⟨128 + k.val, by omega⟩ c) := by
  have e : after (opsB (F := F)) W (Proc.devRef .tc main_v28)
      = transpose S2x128 [1, 0]
          (extractStridedSlice S128x2 ![128, 0] (arg7 W) slices_S256x2_S128x2_128_0)
          transposes_S128x2_S2x128_1_0 := by
    after_results_simp <;> rfl
  exact ((congrFun e _).trans (transpose_ix2_apply _ _ c k)).trans
    (slice2_axis0_apply 128 (arg7 W) _ k c ⟨128 + k.val, by omega⟩ rfl)

theorem afterB_v29 (W : Valuation τ sig (Elt F)) (c : Fin 2) (u : Fin 1) :
    after (opsB (F := F)) W (Proc.devRef .tc main_v29) (ix2 c u) = arg8 W (ix1 c) := by
  have e : after (opsB (F := F)) W (Proc.devRef .tc main_v29)
      = shapeCast S2x1 (arg8 W) shapeCasts_S2_S2x1 := by
    after_results_simp <;> rfl
  refine (congrFun e _).trans (shapeCast_apply (arg8 W) _ (ix2 c u) (ix1 c) ?_)
  rw [Shape.rowMajor_val_one, Shape.rowMajor_val_two]
  show c.val = c.val * 1 + u.val
  omega

/-! ## Between the calls: what is left alone -/

theorem afterB_main_v0 (W : Valuation τ sig (Elt F)) :
    after (opsB (F := F)) W (Proc.devRef .tc main_v0) = W (Proc.devRef .tc main_v0) := by
  after_results_simp <;> rfl

theorem afterB_main_v1 (W : Valuation τ sig (Elt F)) :
    after (opsB (F := F)) W (Proc.devRef .tc main_v1) = W (Proc.devRef .tc main_v1) := by
  after_results_simp <;> rfl

theorem afterB_main_v2 (W : Valuation τ sig (Elt F)) :
    after (opsB (F := F)) W (Proc.devRef .tc main_v2) = W (Proc.devRef .tc main_v2) := by
  after_results_simp <;> rfl

theorem afterB_main_arg0 (W : Valuation τ sig (Elt F)) :
    after (opsB (F := F)) W (Proc.devRef .tc main_arg0) = W (Proc.devRef .tc main_arg0) := by
  after_results_simp <;> rfl

theorem afterB_main_arg1 (W : Valuation τ sig (Elt F)) :
    after (opsB (F := F)) W (Proc.devRef .tc main_arg1) = W (Proc.devRef .tc main_arg1) := by
  after_results_simp <;> rfl

theorem afterB_main_arg2 (W : Valuation τ sig (Elt F)) :
    after (opsB (F := F)) W (Proc.devRef .tc main_arg2) = W (Proc.devRef .tc main_arg2) := by
  after_results_simp <;> rfl

theorem afterB_main_arg3 (W : Valuation τ sig (Elt F)) :
    after (opsB (F := F)) W (Proc.devRef .tc main_arg3) = W (Proc.devRef .tc main_arg3) := by
  after_results_simp <;> rfl

theorem afterB_main_arg4 (W : Valuation τ sig (Elt F)) :
    after (opsB (F := F)) W (Proc.devRef .tc main_arg4) = W (Proc.devRef .tc main_arg4) := by
  after_results_simp <;> rfl

theorem afterB_main_arg5 (W : Valuation τ sig (Elt F)) :
    after (opsB (F := F)) W (Proc.devRef .tc main_arg5) = W (Proc.devRef .tc main_arg5) := by
  after_results_simp <;> rfl

theorem afterB_main_arg6 (W : Valuation τ sig (Elt F)) :
    after (opsB (F := F)) W (Proc.devRef .tc main_arg6) = W (Proc.devRef .tc main_arg6) := by
  after_results_simp <;> rfl

theorem afterB_main_arg7 (W : Valuation τ sig (Elt F)) :
    after (opsB (F := F)) W (Proc.devRef .tc main_arg7) = W (Proc.devRef .tc main_arg7) := by
  after_results_simp <;> rfl

theorem afterB_main_arg8 (W : Valuation τ sig (Elt F)) :
    after (opsB (F := F)) W (Proc.devRef .tc main_arg8) = W (Proc.devRef .tc main_arg8) := by
  after_results_simp <;> rfl

/-! ## The block-diagonal table of the tables' row 0 -/

/-- The 26 × 26 identity pattern, as the program computes it: row number equal to column number. -/
def eyeV : FVec Ideal S26x26 .f32 :=
  uitofp .f32 (cmpi .eq (addi (iotaInDim S26x26 32 0)
    (broadcastInDim S26x26 ![] bcast_S_S26x26 (constantI S_ 32 0#32))) (iotaInDim S26x26 32 1))

theorem eyeV_apply (i j : Fin 26) : eyeV (ix2 i j) = if i = j then (1 : EReal) else 0 := by
  have e : eyeV (ix2 i j) = FloatOps.uitofp (F := Ideal) .f32
      (IntOp.cmpi .eq (IntOp.addi (BitVec.ofNat 32 i.val) 0#32) (BitVec.ofNat 32 j.val)) := rfl
  rw [e, uitofp_eq_bit i.val j.val (by omega) (by omega)]
  by_cases hij : i = j
  · rw [if_pos hij, if_pos (congrArg Fin.val hij)]
  · rw [if_neg hij, if_neg (fun h => hij (Fin.ext h))]

/-- Row 0 of every table: `[26, 16]`. -/
def row0V (W : Valuation τ sig (Elt F)) : FVec F S26x16 .f32 :=
  shapeCast S26x16 (extractStridedSlice S26x1x16 ![0, 0, 0] (arg2 W) slices_S26x100000x16_S26x1x16_0_0_0)
    shapeCasts_S26x1x16_S26x16

theorem row0V_apply (W : Valuation τ sig (Elt F)) (f : Fin 26) (d : Fin 16) :
    row0V W (ix2 f d) = arg2 W (ix3 f (0 : Fin 100000) d) := by
  unfold row0V
  refine (shapeCast_apply _ _ (ix2 f d) (ix3 f (0 : Fin 1) d) ?_).trans
    (slice3_axis1_apply 0 (arg2 W) _ f (0 : Fin 1) d (0 : Fin 100000) rfl)
  rw [Shape.rowMajor_val_three, Shape.rowMajor_val_two]
  show (f.val * 1 + 0) * 16 + d.val = f.val * 16 + d.val
  omega

/-- The identity pattern times row 0, entry `(f', f, d)`: `[26, 26, 16]`. -/
def blkV (W : Valuation τ sig (Elt Ideal)) : FVec Ideal S26x26x16 .f32 :=
  mulf
    (broadcastInDim S26x26x16 ![0, 1, 2] bcast_S26x26x1_S26x26x16_0_1_2
      (broadcastInDim S26x26x1 ![0, 1] bcast_S26x26_S26x26x1_0_1 eyeV))
    (broadcastInDim S26x26x16 ![0, 1, 2] bcast_S26x1x16_S26x26x16_0_1_2
      (broadcastInDim S26x1x16 ![0, 2] bcast_S26x16_S26x1x16_0_2 (row0V W)))

theorem blkV_apply (W : Valuation τ sig (Elt Ideal)) (i0 i1 : Fin 26) (i2 : Fin 16) :
    blkV W (ix3 i0 i1 i2)
      = (if i0 = i1 then (1 : EReal) else 0) * arg2 W (ix3 i0 (0 : Fin 100000) i2) := by
  have e1 : broadcastInDim S26x26x16 ![0, 1, 2] bcast_S26x26x1_S26x26x16_0_1_2
        (broadcastInDim S26x26x1 ![0, 1] bcast_S26x26_S26x26x1_0_1 eyeV) (ix3 i0 i1 i2)
      = eyeV (ix2 i0 i1) :=
    (broadcastInDim_apply _ _ _ (ix3 i0 i1 i2) (ix3 i0 i1 (0 : Fin 1))
        (fun a => by match a with | ⟨0, _⟩ => rfl | ⟨1, _⟩ => rfl | ⟨2, _⟩ => rfl)).trans
      (broadcastInDim_apply _ _ eyeV (ix3 i0 i1 (0 : Fin 1)) (ix2 i0 i1)
        (fun a => by match a with | ⟨0, _⟩ => rfl | ⟨1, _⟩ => rfl))
  have e2 : broadcastInDim S26x26x16 ![0, 1, 2] bcast_S26x1x16_S26x26x16_0_1_2
        (broadcastInDim S26x1x16 ![0, 2] bcast_S26x16_S26x1x16_0_2 (row0V W)) (ix3 i0 i1 i2)
      = row0V W (ix2 i0 i2) :=
    (broadcastInDim_apply _ _ _ (ix3 i0 i1 i2) (ix3 i0 (0 : Fin 1) i2)
        (fun a => by match a with | ⟨0, _⟩ => rfl | ⟨1, _⟩ => rfl | ⟨2, _⟩ => rfl)).trans
      (broadcastInDim_apply _ _ (row0V W) (ix3 i0 (0 : Fin 1) i2) (ix2 i0 i2)
        (fun a => by match a with | ⟨0, _⟩ => rfl | ⟨1, _⟩ => rfl))
  unfold blkV
  rw [mulf_apply, e1, e2, eyeV_apply, row0V_apply]

theorem afterB_v21 (W : Valuation τ sig (Elt Ideal)) (p : Fin 416) (f : Fin 26) :
    after (opsB (F := Ideal)) W (Proc.devRef .tc main_v21) (ix2 p f)
      = Spec.rT (fun f r d => arg2 W (ix3 f r d)) p f := by
  have e : after (opsB (F := Ideal)) W (Proc.devRef .tc main_v21)
      = transpose S416x26 [1, 0] (shapeCast S26x416 (blkV W) shapeCasts_S26x26x16_S26x416)
          transposes_S26x416_S416x26_1_0 := by
    after_results_simp <;> rfl
  refine ((congrFun e _).trans (transpose_ix2_apply _ _ p f)).trans ?_
  refine (shapeCast_apply (blkV W) _ (ix2 f p) (ix3 f (Spec.fld p) (Spec.lane p)) ?_).trans ?_
  · rw [Shape.rowMajor_val_three, Shape.rowMajor_val_two]
    show (f.val * 26 + p.val / 16) * 16 + p.val % 16 = f.val * 416 + p.val
    omega
  · rw [blkV_apply]
    rfl

/-! ## The gather, in the specification's terms -/

/-- Reading the transposed tables at the word the transposed index matrix holds is the
specification's gathered embedding. -/
theorem gather_eq_emb (a1 : IVec S16384x39 32) (a2 : FVec Ideal S26x100000x16 .f32)
    (A : FVec Ideal S26x16x100000 .f32) (X : IVec S39x16384 32)
    (hA : ∀ f dd r, A (ix3 f dd r) = a2 (ix3 f r dd)) (hX : ∀ r b, X (ix2 r b) = a1 (ix2 b r))
    (p : Fin 416) (b : Fin 16384) :
    A (ix3 (n0 := 26) (n1 := 16) (n2 := 100000) ⟨p.val / 16, by omega⟩ ⟨p.val % 16, by omega⟩
        ⟨(X (ix2 (n0 := 39) (n1 := 16384) ⟨p.val / 16, by omega⟩ b)).toNat % 100000,
          Nat.mod_lt _ (by decide)⟩)
      = Spec.emb (fun b f => a1 (ix2 b f)) (fun f r d => a2 (ix3 f r d)) p b := by
  rw [hA, hX]
  rfl

/-- The same, for the value the SparseCore call leaves (`KB.embOf`), device by device. -/
theorem embOf_eq_emb (A : (d : Dev nD) → Buf (Elt Ideal) (aLoc d)) (X : (d : Dev nD) → Buf (Elt Ideal) (xLoc d))
    (d : Dev nD) (a1 : IVec S16384x39 32) (a2 : FVec Ideal S26x100000x16 .f32)
    (hA : ∀ f dd r, A d (ix3 f dd r) = a2 (ix3 f r dd)) (hX : ∀ r b, X d (ix2 r b) = a1 (ix2 b r))
    (p : Fin 416) (b : Fin 16384) :
    embOf A X d (ix2 p b) = Spec.emb (fun b f => a1 (ix2 b f)) (fun f r d => a2 (ix3 f r d)) p b :=
  gather_eq_emb a1 a2 (A d) (X d) hA hX p b

end Cert.Proof.KVB
-- ==== Proof.KB.Launch.lean ====
/-
  The kernel's program run: the launch element (the handshakes' rounds, the pipeline's cells funded, nothing of the
  SparseCore kernel's own), what the final memory says of the arrays @main leaves, and the SparseCore launch theorem
  applied. No host operation and neither call writes an argument, so the arguments end as launched.
-/
import proofs.«205318_g12532714570102_cont_fleet_669_37_alg».proof.Proof.KB.Main
import proofs.«205318_g12532714570102_cont_fleet_669_37_alg».proof.Proof.KB.HostGlue

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after launchContents)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What @main keeps -/

/-- A buffer that neither transpose stretch, neither call, and no operation between the calls writes ends as launched. -/
theorem WC_keep (d : Dev nD) (r : Ref sig .tc) (h0 : r ≠ main_v0) (h1 : r ≠ main_v1) (h2 : r ≠ main_v2) (h30 : r ≠ main_v30)
    (h31 : r ≠ main_v31) (hB : after (opsB (F := F)) (W1 m d) (Proc.devRef .tc r) = W1 m d (Proc.devRef .tc r)) :
    WC m (o30 (F := F)) d (Proc.devRef .tc r) = m ((SparseCore.T (τ := τ) d).loc r) := by
  unfold WC
  rw [KVB.afterC_other _ r h31]
  unfold W2
  rw [Function.update_of_ne (StableHlo.devRef_ne_of_ne h30)]
  unfold WB
  rw [hB]
  unfold W1
  rw [Function.update_of_ne (StableHlo.devRef_ne_of_ne h2)]
  unfold WA
  rw [KVB.afterA_other _ r h0 h1]

theorem WC_arg0 (d : Dev nD) : WC m (o30 (F := F)) d (Proc.devRef .tc main_arg0) = m ((SparseCore.T (τ := τ) d).loc main_arg0) :=
  WC_keep m d main_arg0 (by decide) (by decide) (by decide) (by decide) (by decide) (KVB.afterB_main_arg0 _)
theorem WC_arg1 (d : Dev nD) : WC m (o30 (F := F)) d (Proc.devRef .tc main_arg1) = m ((SparseCore.T (τ := τ) d).loc main_arg1) :=
  WC_keep m d main_arg1 (by decide) (by decide) (by decide) (by decide) (by decide) (KVB.afterB_main_arg1 _)
theorem WC_arg2 (d : Dev nD) : WC m (o30 (F := F)) d (Proc.devRef .tc main_arg2) = m ((SparseCore.T (τ := τ) d).loc main_arg2) :=
  WC_keep m d main_arg2 (by decide) (by decide) (by decide) (by decide) (by decide) (KVB.afterB_main_arg2 _)
theorem WC_arg3 (d : Dev nD) : WC m (o30 (F := F)) d (Proc.devRef .tc main_arg3) = m ((SparseCore.T (τ := τ) d).loc main_arg3) :=
  WC_keep m d main_arg3 (by decide) (by decide) (by decide) (by decide) (by decide) (KVB.afterB_main_arg3 _)
theorem WC_arg4 (d : Dev nD) : WC m (o30 (F := F)) d (Proc.devRef .tc main_arg4) = m ((SparseCore.T (τ := τ) d).loc main_arg4) :=
  WC_keep m d main_arg4 (by decide) (by decide) (by decide) (by decide) (by decide) (KVB.afterB_main_arg4 _)
theorem WC_arg5 (d : Dev nD) : WC m (o30 (F := F)) d (Proc.devRef .tc main_arg5) = m ((SparseCore.T (τ := τ) d).loc main_arg5) :=
  WC_keep m d main_arg5 (by decide) (by decide) (by decide) (by decide) (by decide) (KVB.afterB_main_arg5 _)
theorem WC_arg6 (d : Dev nD) : WC m (o30 (F := F)) d (Proc.devRef .tc main_arg6) = m ((SparseCore.T (τ := τ) d).loc main_arg6) :=
  WC_keep m d main_arg6 (by decide) (by decide) (by decide) (by decide) (by decide) (KVB.afterB_main_arg6 _)
theorem WC_arg7 (d : Dev nD) : WC m (o30 (F := F)) d (Proc.devRef .tc main_arg7) = m ((SparseCore.T (τ := τ) d).loc main_arg7) :=
  WC_keep m d main_arg7 (by decide) (by decide) (by decide) (by decide) (by decide) (KVB.afterB_main_arg7 _)
theorem WC_arg8 (d : Dev nD) : WC m (o30 (F := F)) d (Proc.devRef .tc main_arg8) = m ((SparseCore.T (τ := τ) d).loc main_arg8) :=
  WC_keep m d main_arg8 (by decide) (by decide) (by decide) (by decide) (by decide) (KVB.afterB_main_arg8 _)

/-! ## The launch element -/

def u₀ : UU := (initOf (K (F := F)).hsCells (K (F := F)).hsToks,
  (initOf (Pipeline.cells cfgs cellOf_inj) (Pipeline.launchToks cfgs cellOf_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 1 => (PP m).x q thr) := by
  unfold u₀
  iintro Hu
  ihave H := (ownU_pair _ _) $$ Hu
  icases H with ⟨HH, HR⟩
  ihave H2 := (own_pair_emb embR _ _) $$ HR
  icases H2 with ⟨HP, -⟩
  ihave HP := (Entails.of_eq (show (BI.own (((Emb.inl : Emb UP (UP × Counters)).trans embR) (initOf (Pipeline.cells cfgs cellOf_inj) (Pipeline.launchToks cfgs cellOf_inj))) : sProp 𝕄)
      = BI.own ((ER (F := F)) (initOf (Pipeline.cells cfgs cellOf_inj) (Pipeline.launchToks cfgs cellOf_inj))) from rfl)) $$ HP
  imod (fund1 (F := F)) $$ HP with HG
  imodintro
  isplitl [HH]; · iexact HH
  isplitl [HG]; · iexact HG
  rw [show (bigSep Finset.univ fun thr : Thread nD τ => bigSep Finset.univ fun q : Fin 1 => (PP m).x q thr) = (iprop(emp) : sProp 𝕄) from by
    rw [bigSep_congr fun thr _ => (bigSep_congr fun q _ => P_x (Aof m) (Xof m) (E0of m) q thr).trans (bigSep_emp' _), bigSep_emp']]
  iempintro

/-! ## What the final memory says -/

/-- Every array of the TensorCore ends at the composed valuation. -/
def fq (d : Dev nD) (s' : Phys nD τ sig (Elt F)) : Prop :=
  ∀ b : Ref sig .tc, Proc.devRef (τ := τ) .tc b ∈ Pipeline.ucRefs τ sig → s'.mem.mem ((SparseCore.T (τ := τ) d).loc b) = WC m (o30 (F := F)) d (Proc.devRef .tc b)

theorem hfin (d : Dev nD) (s' : Phys nD τ sig (Elt F)) : iprop(FIN m d ∗ SI s') ⊢ (⌜fq m d s'⌝ : sProp 𝕄) := by
  refine Entails.trans (forall_intro fun b => ?_) pure_forall.2
  by_cases hb : Proc.devRef (τ := τ) .tc b ∈ Pipeline.ucRefs τ sig
  · unfold FIN held
    iintro ⟨Hh, HSI⟩
    have hE : (bigSep (Pipeline.ucRefs τ sig) fun b : DevRef τ sig => ((SparseCore.T (τ := τ) d).1, b) ↦{fullShare} WC m (o30 (F := F)) d b : sProp 𝕄)
        ⊢ (((SparseCore.T (τ := τ) d).1, Proc.devRef .tc b) ↦{fullShare} WC m (o30 (F := F)) d (Proc.devRef .tc b) : sProp 𝕄) :=
      bigSep_elim (Φ := fun b : DevRef τ sig => ((SparseCore.T (τ := τ) d).1, b) ↦{fullShare} WC m (o30 (F := F)) d b) hb
    ihave Hb := hE $$ Hh
    ihave H := (SI_pointsTo_agree (st := s') (ℓ := (SparseCore.T (τ := τ) d).loc b) (I := Finset.univ) (q := fullShare) (f := WC m (o30 (F := F)) d (Proc.devRef .tc b))) $$ [HSI Hb]
    · isplitl [HSI] <;> iassumption
    icases H with %hx
    ipureintro; exact fun _ => funext fun i => hx i (Finset.mem_univ i)
  · exact BI.pure_intro fun h => absurd h hb

/-! ## The program's run -/

def QC : PUnit × MemSt nD τ sig (Elt F) → Prop := fun r =>
  ∀ c : Dev nD, ∀ b : Ref sig .tc, Proc.devRef (τ := τ) .tc b ∈ Pipeline.ucRefs τ sig → r.2.mem ((SparseCore.T (τ := τ) c).loc b) = WC m (o30 (F := F)) c (Proc.devRef .tc b)

theorem run_main [∀ e, Nonempty (Elt F e)] (htile : (K (F := F)).TileObl (D (F := F)) 𝒱 (PP m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => htile)
    (fun q _ => match q with | 0 => SparseCore.Cfg.VecSplit.of_plain (vecSplit (Aof m) (Xof m) (E0of m)))
    m ρ main (GG (F := F)) (FIN m) (u₀ (F := F)) (sep_elim_left.trans (hu₀ m)) (hmain m ρ) (fq m) (hfin m) (QC m) (fun _ h => h)

end Cert.Proof.KB

end
-- ==== Proof.KB.ScVal.lean ====
/-
  Pure facts about one vector subcore's gathers: what sixteen-lane gathers of the plane scratch at index words of
  the index scratch store into the output scratch, and how the stores of a trip extend the prefix of the output
  scratch that already holds the gathered values.
-/
import proofs.«205318_g12532714570102_cont_fleet_669_37_alg».proof.Proof.KB.ScCommon
import proofs.«205318_g12532714570102_cont_fleet_669_37_alg».proof.Proof.Gen.Kernel.Skeleton
import Idealize.ShloMosaic.Lib.SparseCore.Ops
import Idealize.ShloMosaic.Lib.Tactic
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

/-- The vector subcore at grid point L, as a thread of device d. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The output scratch agrees with tgt on its first n entries. -/
def Agree (tgt : S8192.Idx → Elt F .f32) (n : Nat) (s2 : S8192.Idx → Elt F .f32) : Prop :=
  ∀ j : S8192.Idx, (j 0).val < n → s2 j = tgt j

/-- What the gathers of half k2v leave at entry y of the output scratch: the plane scratch's entry at the index word the
    index scratch holds at 8192 * k2v + y (both taken modulo the extents, so that the function is total). -/
def tgtOf (S0 : S100000.Idx → Elt F .f32) (S1 : S16384.Idx → Elt F .i32) (k2v : Nat) : S8192.Idx → Elt F .f32 :=
  fun y => S0 (ix1 (n := 100000) ⟨(S1 (ix1 (n := 16384) ⟨(8192 * k2v + (y 0).val) % 16384, Nat.mod_lt _ (by decide)⟩)).toNat % 100000,
    Nat.mod_lt _ (by decide)⟩)

/-- One gather: sixteen index words read at oi, the plane scratch read at them, is tgtOf at the sixteen entries from oo
    on, when oi is oo within half k2v. -/
theorem gather_val (S0 : S100000.Idx → Elt F .f32) (S1 : S16384.Idx → Elt F .i32) (hb : ∀ j, (S1 j).toNat < 100000) (k2v : Nat)
    (oo oi : Fin 1 → Nat) (hoo : ∀ a, oo a + S16.size a ≤ S8192.size a) (hoi : ∀ a, oi a + S16.size a ≤ S16384.size a)
    (h : ∀ a x, ((![(s1V : Memref sig .scVector .vmem S16384 .i32).view.readAt (Elt F) (Rect.unit (s := S16384) oi S16.size hoi).toLoadRect S1] : Fin 1 → IVec S16 32) a x).toNat < S100000.size a)
    (e : oi 0 = 8192 * k2v + oo 0) (x : S16.Idx) :
    loadIdx ((s0V : Memref sig .scVector .vmem S100000 .f32).view.readAt (Elt F) (LoadRect.whole S100000) S0)
        ![(s1V : Memref sig .scVector .vmem S16384 .i32).view.readAt (Elt F) (Rect.unit (s := S16384) oi S16.size hoi).toLoadRect S1] h x
      = tgtOf S0 S1 k2v ((Rect.unit (s := S8192) oo S16.size hoo).emb x) := by
  have hx : (x 0).val < 16 := (x 0).isLt
  have h1 : oi 0 + 16 ≤ 16384 := hoi 0
  have h2 : oo 0 + 16 ≤ 8192 := hoo 0
  -- the index word both sides read
  have hidx : ((Rect.unit (s := S16384) oi S16.size hoi).toLoadRect.idx x : S16384.Idx)
      = ix1 (n := 16384) ⟨(8192 * k2v + (((Rect.unit (s := S8192) oo S16.size hoo).emb x) 0).val) % 16384, Nat.mod_lt _ (by decide)⟩ := by
    funext a
    obtain rfl : a = 0 := Subsingleton.elim _ _
    apply Fin.ext
    show oi 0 + 1 * (x 0).val = (8192 * k2v + (oo 0 + 1 * (x 0).val)) % 16384
    rw [Nat.mod_eq_of_lt (by omega)]; omega
  show S0 ((LoadRect.whole S100000).idx (idxAt _ h x)) = _
  unfold tgtOf
  congr 1
  funext a
  obtain rfl : a = 0 := Subsingleton.elim _ _
  apply Fin.ext
  show 0 + 1 * (S1 ((Rect.unit (s := S16384) oi S16.size hoi).toLoadRect.idx x)).toNat = _
  rw [hidx, Nat.zero_add, Nat.one_mul]
  exact (Nat.mod_eq_of_lt (hb _)).symm

/-- A store of sixteen entries of tgt at entry n extends the agreeing prefix from n to n + 16. -/
theorem agree_cons {tgt : S8192.Idx → Elt F .f32} {n : Nat} {f : S8192.Idx → Elt F .f32} {Ls : List (View.Piece (Elt F) S8192 .f32)}
    (hag : Agree tgt n ((s2V : Memref sig .scVector .vmem S8192 .f32).view.writes (Elt F) f Ls))
    (oo : Fin 1 → Nat) (hoo : ∀ a, oo a + S16.size a ≤ S8192.size a) (w : S16.Idx → Elt F .f32)
    (e0 : oo 0 = n) (n' : Nat) (hn' : n' = n + 16)
    (hw : ∀ x, w x = tgt ((Rect.unit (s := S8192) oo S16.size hoo).emb x)) :
    Agree tgt n' ((s2V : Memref sig .scVector .vmem S8192 .f32).view.writes (Elt F) f (⟨Rect.unit (s := S8192) oo S16.size hoo, w⟩ :: Ls)) := by
  subst hn'
  intro j hj
  by_cases hm : j ∈ (Rect.unit (s := S8192) oo S16.size hoo).set
  · obtain ⟨x, rfl⟩ := (Rect.unit (s := S8192) oo S16.size hoo).exists_idx_of_mem hm
    exact ((s2V : Memref sig .scVector .vmem S8192 .f32).view.read_writes_cons_emb f (Rect.unit (s := S8192) oo S16.size hoo) w Ls x).trans (hw x)
  · have hlt : (j 0).val < n := by
      by_contra hge
      refine hm (Rect.mem_set_unit.mpr fun a => ?_)
      obtain rfl : a = 0 := Subsingleton.elim _ _
      have : (S16.size 0) = 16 := rfl
      constructor <;> omega
    have hnm : j ∉ Finset.univ.map (Rect.unit (s := S8192) oo S16.size hoo).emb := by rwa [Rect.map_emb_univ]
    exact ((s2V : Memref sig .scVector .vmem S8192 .f32).view.read_slice_write_of_not_mem (Rect.unit (s := S8192) oo S16.size hoo) _ w Finset.univ hnm).trans (hag j hlt)

end Cert.Proof.KB

end
-- ==== Proof.KB.ScTrip3.lean ====
/-
  One trip of a vector subcore's innermost loop: sixteen gathers of sixteen lanes each, stored into the output scratch
  behind the entries the earlier trips filled.
-/
import proofs.«205318_g12532714570102_cont_fleet_669_37_alg».proof.Proof.KB.ScVal
import proofs.«205318_g12532714570102_cont_fleet_669_37_alg».proof.Proof.Gen.Kernel.Skeleton
import Idealize.ShloMosaic.Lib.SparseCore.Ops
import Idealize.ShloMosaic.Lib.Tactic
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

variable [FloatOps F]

variable (d : Dev nD) (L : grid0.Coords)

/-- Before trip k of the innermost loop of half k2v: the index scratch at S1, the plane scratch at S0, and the output
    scratch holding the gathered values on its first 256 * k entries. -/
def I3 (S0 : Buf (Elt F) ((thr d L).loc cc0_scratch0)) (S1 : Buf (Elt F) ((thr d L).loc cc0_scratch1)) (k2v : Nat)
    (k : Nat) (_ : Unit) : sProp 𝕄 :=
  iprop(((s1V : Memref sig .scVector .vmem S16384 .i32).view.loc (thr d L) ↦{fullShare} S1)
    ∗ ((s0V : Memref sig .scVector .vmem S100000 .f32).view.loc (thr d L) ↦{fullShare} S0)
    ∗ ∃ s2, ((s2V : Memref sig .scVector .vmem S8192 .f32).view.loc (thr d L) ↦{fullShare} s2) ∗ ⌜Agree (tgtOf S0 S1 k2v) (256 * k) s2⌝)

/-- Every check of the loaded index words passes: they are words of the index scratch, all below the table's extent. -/
theorem chk_of_bound {S1 : Buf (Elt F) ((thr d L).loc cc0_scratch1)} (hb : ∀ j, (S1 j).toNat < 100000)
    (off : Fin 1 → Nat) (h : ∀ a, off a + S16.size a ≤ S16384.size a) :
    ∀ a x, ((![(s1V : Memref sig .scVector .vmem S16384 .i32).view.readAt (Elt F) (Rect.unit (s := S16384) off S16.size h).toLoadRect S1] : Fin 1 → IVec S16 32) a x).toNat < S100000.size a := by
  intro a x
  obtain rfl : a = 0 := Subsingleton.elim _ _
  show ((s1V : Memref sig .scVector .vmem S16384 .i32).view.readAt (Elt F) (Rect.unit (s := S16384) off S16.size h).toLoadRect S1 x).toNat < 100000
  simp only [View.readAt_apply, Memref.view_whole, View.read_whole]
  exact hb _

set_option maxHeartbeats 4000000 in
/-- One trip: from the first 256 * k3 entries gathered to the first 256 * (k3 + 1). -/
theorem trip3 (S0 : Buf (Elt F) ((thr d L).loc cc0_scratch0)) (S1 : Buf (Elt F) ((thr d L).loc cc0_scratch1))
    (hb : ∀ j, (S1 j).toNat < 100000) (k2 : Fin k0_t2_loop.trips) (k3 : Fin k0_t3_loop.trips) :
    I3 d L S0 S1 k2.val k3.val () ⊢ wp frame (wpE (defs₀ (F := F)) 𝒱₀ (thr d L) none) Set.univ
      (k0_t3_body L aV (Memref.isWhole_whole _) xV (Memref.isWhole_whole _) eV (Memref.isWhole_whole _) s0V (Memref.isWhole_whole _)
        s1V (Memref.isWhole_whole _) s2V (Memref.isWhole_whole _) cc0_scoped0 cc0_scoped1 cc0_scoped2 k2 (Scf.iv 0#32 1#32 k2) k3 ())
      (I3 d L S0 S1 k2.val (k3.val + 1)) := by
  unfold k0_t3_body
  simp only [k0_part1_eq_skeleton, k0_part2_eq_skeleton, k0_part3_eq_skeleton]
  unfold k0_part1_skel k0_part2_skel k0_part3_skel
  simp only [SparseCore.vectorLoadIdx_bind (thr d L)]
  unfold I3
  iintro ⟨H1, H0, %s2, H2, %hag⟩
  sl_exec (disch := exact chk_of_bound d L hb _ _)
  sl_step
  isplitl [H1]; · iexact H1
  isplitl [H0]; · iexact H0
  iexists _
  isplitl [H2]; · iexact H2
  ipureintro
  refine agree_cons (n := 256 * k3.val + 240) ?_ _ _ _ (by rw [k0_off34_eq]; rfl) _ (by omega)
    (fun x => gather_val S0 S1 hb k2.val _ _ _ _ _ (by rw [k0_off33_eq, k0_off34_eq]; first | rfl | exact Nat.add_assoc _ _ _) x)
  refine agree_cons (n := 256 * k3.val + 224) ?_ _ _ _ (by rw [k0_off32_eq]; rfl) _ (by omega)
    (fun x => gather_val S0 S1 hb k2.val _ _ _ _ _ (by rw [k0_off31_eq, k0_off32_eq]; first | rfl | exact Nat.add_assoc _ _ _) x)
  refine agree_cons (n := 256 * k3.val + 208) ?_ _ _ _ (by rw [k0_off30_eq]; rfl) _ (by omega)
    (fun x => gather_val S0 S1 hb k2.val _ _ _ _ _ (by rw [k0_off29_eq, k0_off30_eq]; first | rfl | exact Nat.add_assoc _ _ _) x)
  refine agree_cons (n := 256 * k3.val + 192) ?_ _ _ _ (by rw [k0_off28_eq]; rfl) _ (by omega)
    (fun x => gather_val S0 S1 hb k2.val _ _ _ _ _ (by rw [k0_off27_eq, k0_off28_eq]; first | rfl | exact Nat.add_assoc _ _ _) x)
  refine agree_cons (n := 256 * k3.val + 176) ?_ _ _ _ (by rw [k0_off26_eq]; rfl) _ (by omega)
    (fun x => gather_val S0 S1 hb k2.val _ _ _ _ _ (by rw [k0_off25_eq, k0_off26_eq]; first | rfl | exact Nat.add_assoc _ _ _) x)
  refine agree_cons (n := 256 * k3.val + 160) ?_ _ _ _ (by rw [k0_off24_eq]; rfl) _ (by omega)
    (fun x => gather_val S0 S1 hb k2.val _ _ _ _ _ (by rw [k0_off23_eq, k0_off24_eq]; first | rfl | exact Nat.add_assoc _ _ _) x)
  refine agree_cons (n := 256 * k3.val + 144) ?_ _ _ _ (by rw [k0_off22_eq]; rfl) _ (by omega)
    (fun x => gather_val S0 S1 hb k2.val _ _ _ _ _ (by rw [k0_off21_eq, k0_off22_eq]; first | rfl | exact Nat.add_assoc _ _ _) x)
  refine agree_cons (n := 256 * k3.val + 128) ?_ _ _ _ (by rw [k0_off20_eq]; rfl) _ (by omega)
    (fun x => gather_val S0 S1 hb k2.val _ _ _ _ _ (by rw [k0_off19_eq, k0_off20_eq]; first | rfl | exact Nat.add_assoc _ _ _) x)
  refine agree_cons (n := 256 * k3.val + 112) ?_ _ _ _ (by rw [k0_off18_eq]; rfl) _ (by omega)
    (fun x => gather_val S0 S1 hb k2.val _ _ _ _ _ (by rw [k0_off17_eq, k0_off18_eq]; first | rfl | exact Nat.add_assoc _ _ _) x)
  refine agree_cons (n := 256 * k3.val + 96) ?_ _ _ _ (by rw [k0_off16_eq]; rfl) _ (by omega)
    (fun x => gather_val S0 S1 hb k2.val _ _ _ _ _ (by rw [k0_off15_eq, k0_off16_eq]; first | rfl | exact Nat.add_assoc _ _ _) x)
  refine agree_cons (n := 256 * k3.val + 80) ?_ _ _ _ (by rw [k0_off14_eq]; rfl) _ (by omega)
    (fun x => gather_val S0 S1 hb k2.val _ _ _ _ _ (by rw [k0_off13_eq, k0_off14_eq]; first | rfl | exact Nat.add_assoc _ _ _) x)
  refine agree_cons (n := 256 * k3.val + 64) ?_ _ _ _ (by rw [k0_off12_eq]; rfl) _ (by omega)
    (fun x => gather_val S0 S1 hb k2.val _ _ _ _ _ (by rw [k0_off11_eq, k0_off12_eq]; first | rfl | exact Nat.add_assoc _ _ _) x)
  refine agree_cons (n := 256 * k3.val + 48) ?_ _ _ _ (by rw [k0_off10_eq]; rfl) _ (by omega)
    (fun x => gather_val S0 S1 hb k2.val _ _ _ _ _ (by rw [k0_off9_eq, k0_off10_eq]; first | rfl | exact Nat.add_assoc _ _ _) x)
  refine agree_cons (n := 256 * k3.val + 32) ?_ _ _ _ (by rw [k0_off8_eq]; rfl) _ (by omega)
    (fun x => gather_val S0 S1 hb k2.val _ _ _ _ _ (by rw [k0_off7_eq, k0_off8_eq]; first | rfl | exact Nat.add_assoc _ _ _) x)
  refine agree_cons (n := 256 * k3.val + 16) ?_ _ _ _ (by rw [k0_off6_eq]; rfl) _ (by omega)
    (fun x => gather_val S0 S1 hb k2.val _ _ _ _ _ (by rw [k0_off5_eq, k0_off6_eq]; first | rfl | exact Nat.add_assoc _ _ _) x)
  refine agree_cons (n := 256 * k3.val) ?_ _ _ _ (by rw [k0_off4_eq]; rfl) _ (by omega)
    (fun x => gather_val S0 S1 hb k2.val _ _ _ _ _ (by rw [k0_off3_eq, k0_off4_eq]; first | rfl | exact Nat.add_assoc _ _ _) x)
  exact hag

end Cert.Proof.KB

end
-- ==== Proof.KB.ScPieces.lean ====
/-
  A vector subcore's 26 pieces of the result while it works: the pieces it has written hold the gathered value, the
  others what they held at the call. Pieces are written in the order of 2 * k1 + k2.
-/
import proofs.«205318_g12532714570102_cont_fleet_669_37_alg».proof.Proof.KB.ScVal
import proofs.«205318_g12532714570102_cont_fleet_669_37_alg».proof.Proof.Gen.Kernel.Skeleton
import Idealize.ShloMosaic.Lib.SparseCore.Ops
import Idealize.ShloMosaic.Lib.Tactic
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

variable (A : (d : Dev nD) → Buf (Elt F) (aLoc d)) (X : (d : Dev nD) → Buf (Elt F) (xLoc d)) (E0 : (d : Dev nD) → Buf (Elt F) (eLoc d))
variable (d : Dev nD) (L : grid0.Coords)

theorem trips1 : k0_t1_loop.trips = 13 := by decide
theorem trips2 : k0_t2_loop.trips = 2 := by decide

/-- What piece p holds once the first n pieces are written. -/
def pcsVal (n : Nat) (p : Fin k0_t1_loop.trips × Fin k0_t2_loop.trips) : Buf (Elt F) (eLoc d) :=
  if 2 * p.1.val + p.2.val < n then embOf A X d else E0 d

/-- The 26 pieces, the first n written. -/
def EP (n : Nat) : sProp 𝕄 :=
  bigSep Finset.univ fun p : Fin k0_t1_loop.trips × Fin k0_t2_loop.trips =>
    eLoc d ↦[(ePc L p.1 p.2).view.set]{fullShare} pcsVal A X E0 d n p

theorem EP_zero : EP A X E0 d L 0 = tilePcs d L (E0 d) := by
  unfold EP tilePcs
  exact bigSep_congr fun p _ => by rw [pcsVal, if_neg (Nat.not_lt_zero _)]

theorem EP_full : EP A X E0 d L 26 = tilePcs d L (embOf A X d) := by
  unfold EP tilePcs
  refine bigSep_congr fun p _ => ?_
  have h1 : p.1.val < 13 := trips1 ▸ p.1.isLt
  have h2 : p.2.val < 2 := trips2 ▸ p.2.isLt
  rw [pcsVal, if_pos (by omega)]

/-- The next piece to write, at its contents at the call, and the others. -/
theorem EP_take (k1 : Fin k0_t1_loop.trips) (k2 : Fin k0_t2_loop.trips) :
    EP A X E0 d L (2 * k1.val + k2.val)
      = iprop((eLoc d ↦[(ePc L k1 k2).view.set]{fullShare} E0 d)
          ∗ bigSep (Finset.univ.erase (k1, k2)) fun p : Fin k0_t1_loop.trips × Fin k0_t2_loop.trips =>
              eLoc d ↦[(ePc L p.1 p.2).view.set]{fullShare} pcsVal A X E0 d (2 * k1.val + k2.val) p) := by
  unfold EP
  rw [SparseCore.bigSep_erase' (Finset.mem_univ (k1, k2))]
  congr 1
  rw [pcsVal, if_neg (Nat.lt_irrefl _)]

/-- That piece written: one more piece holds the gathered value. -/
theorem EP_put (k1 : Fin k0_t1_loop.trips) (k2 : Fin k0_t2_loop.trips) :
    iprop((eLoc d ↦[(ePc L k1 k2).view.set]{fullShare} embOf A X d)
        ∗ bigSep (Finset.univ.erase (k1, k2)) fun p : Fin k0_t1_loop.trips × Fin k0_t2_loop.trips =>
            eLoc d ↦[(ePc L p.1 p.2).view.set]{fullShare} pcsVal A X E0 d (2 * k1.val + k2.val) p)
      = EP A X E0 d L (2 * k1.val + k2.val + 1) := by
  unfold EP
  rw [SparseCore.bigSep_erase' (Finset.mem_univ (k1, k2))]
  congr 1
  · rw [pcsVal, if_pos (Nat.lt_succ_self _)]
  · refine bigSep_congr fun p hp => ?_
    have hne : p ≠ (k1, k2) := (Finset.mem_erase.mp hp).1
    have h2 : p.2.val < 2 := trips2 ▸ p.2.isLt
    have h2' : k2.val < 2 := trips2 ▸ k2.isLt
    have hn : 2 * p.1.val + p.2.val ≠ 2 * k1.val + k2.val := fun e =>
      hne (Prod.ext (Fin.ext (show p.1.val = k1.val by omega)) (Fin.ext (show p.2.val = k2.val by omega)))
    unfold pcsVal
    by_cases hlt : 2 * p.1.val + p.2.val < 2 * k1.val + k2.val
    · rw [if_pos hlt, if_pos (by omega)]
    · rw [if_neg hlt, if_neg (by omega)]

/-- The arrays as the vector subcore's memrefs address them are the TensorCore's arrays. -/
theorem pts_a (q : PosShare TreeShare) (f : Buf (Elt F) (aLoc d)) :
    ((aV : Memref sig .scVector .hbm S26x16x100000 .f32).view.loc (thr d L) ↦{q} f : sProp 𝕄) = aLoc d ↦{q} f := rfl
theorem pts_x (q : PosShare TreeShare) (f : Buf (Elt F) (xLoc d)) :
    ((xV : Memref sig .scVector .hbm S39x16384 .i32).view.loc (thr d L) ↦{q} f : sProp 𝕄) = xLoc d ↦{q} f := rfl
theorem pts_ePc (k1 : Fin k0_t1_loop.trips) (k2 : Fin k0_t2_loop.trips) (f : Buf (Elt F) (eLoc d)) :
    ((ePc L k1 k2).view.loc (thr d L) ↦[(ePc L k1 k2).view.set]{fullShare} f : sProp 𝕄) = eLoc d ↦[(ePc L k1 k2).view.set]{fullShare} f := rfl

end Cert.Proof.KB

end
-- ==== Proof.KB.ScTrip2.lean ====
/-
  One trip of a vector subcore's middle loop: the 32 trips of the innermost loop fill the output scratch with half k2 of
  the current row, then the scratch is copied out to that half's piece of the result.
-/
import proofs.«205318_g12532714570102_cont_fleet_669_37_alg».proof.Proof.KB.ScTrip3
import proofs.«205318_g12532714570102_cont_fleet_669_37_alg».proof.Proof.KB.ScPieces
import proofs.«205318_g12532714570102_cont_fleet_669_37_alg».proof.Proof.Gen.Kernel.Skeleton
import Idealize.ShloMosaic.Lib.SparseCore.Ops
import Idealize.ShloMosaic.Lib.Tactic
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

variable [FloatOps F]

variable (A : (d : Dev nD) → Buf (Elt F) (aLoc d)) (X : (d : Dev nD) → Buf (Elt F) (xLoc d)) (E0 : (d : Dev nD) → Buf (Elt F) (eLoc d))
variable (d : Dev nD) (L : grid0.Coords)

/-- Before trip k of the middle loop of row k1: both scratches read as before, the output scratch at anything, the
    copy-out's semaphore at zero, and the pieces up to half k of row k1 written. -/
def I2 (k1 : Fin k0_t1_loop.trips) (S0 : Buf (Elt F) ((thr d L).loc cc0_scratch0)) (S1 : Buf (Elt F) ((thr d L).loc cc0_scratch1))
    (O : CellTallies nD τ sig (HIx 1)) (W : Waits sig (HIx 1)) (k : Nat) (_ : Unit) : sProp 𝕄 :=
  iprop(Transfers.MayWaits (thr d L) (none : HIx 1) O
    ∗ ((s1V : Memref sig .scVector .vmem S16384 .i32).view.loc (thr d L) ↦{fullShare} S1)
    ∗ ((s0V : Memref sig .scVector .vmem S100000 .f32).view.loc (thr d L) ↦{fullShare} S0)
    ∗ (∃ s2, (s2V : Memref sig .scVector .vmem S8192 .f32).view.loc (thr d L) ↦{fullShare} s2)
    ∗ semVal (thr d L, SemLoc.dma cc0_scoped2.sem) 0
    ∗ EP A X E0 d L (2 * k1.val + k)
    ∗ ∃ W', ⌜∀ p ∈ W', p ∈ W ∨ p.2 = none⌝ ∗ owes (thr d L) O W')

/-- The piece written whole with the gathered value holds the result's value there. -/
theorem piece_congr (k1 : Fin k0_t1_loop.trips) (k2 : Fin k0_t2_loop.trips) (f : Buf (Elt F) (eLoc d)) (w : S8192.Idx → Elt F .f32)
    (hw : ∀ j, w j = embOf A X d ((ePc L k1 k2).view.emb j)) :
    ((ePc L k1 k2).view.loc (thr d L) ↦[(ePc L k1 k2).view.set]{fullShare} (ePc L k1 k2).view.writes (Elt F) f [⟨Rect.whole S8192, w⟩] : sProp 𝕄)
      = eLoc d ↦[(ePc L k1 k2).view.set]{fullShare} embOf A X d := by
  refine (pts_ePc (F := F) d L k1 k2 _).trans (pointsTo_congr fun i hi => ?_)
  obtain ⟨j, -, rfl⟩ := Finset.mem_map.mp hi
  have h1 : (ePc L k1 k2).view.read (Elt F) ((ePc L k1 k2).view.writes (Elt F) f [⟨Rect.whole S8192, w⟩]) j
      = (ePc L k1 k2).view.writes (Elt F) f [⟨Rect.whole S8192, w⟩] ((ePc L k1 k2).view.emb j) :=
    (View.read_apply _ _).trans (cast_eq _ _)
  have h2 := (ePc L k1 k2).view.read_writes_cons_emb (Val := Elt F) f (Rect.whole S8192) w [] j
  rw [Rect.emb_whole_apply] at h2
  exact h1.symm.trans (h2.trans (hw j))

set_option maxHeartbeats 4000000 in
theorem trip2 (k1 : Fin k0_t1_loop.trips) (S0 : Buf (Elt F) ((thr d L).loc cc0_scratch0)) (S1 : Buf (Elt F) ((thr d L).loc cc0_scratch1))
    (O : CellTallies nD τ sig (HIx 1)) (W : Waits sig (HIx 1))
    (hb : ∀ j, (S1 j).toNat < 100000)
    (hval : ∀ (k2 : Fin k0_t2_loop.trips) (j : S8192.Idx), tgtOf S0 S1 k2.val j = embOf A X d ((ePc L k1 k2).view.emb j))
    (k2 : Fin k0_t2_loop.trips) :
    I2 A X E0 d L k1 S0 S1 O W k2.val () ⊢ wp frame (wpE (defs₀ (F := F)) 𝒱₀ (thr d L) none) Set.univ
      (k0_t2_body L aV (Memref.isWhole_whole _) xV (Memref.isWhole_whole _) eV (Memref.isWhole_whole _) s0V (Memref.isWhole_whole _)
        s1V (Memref.isWhole_whole _) s2V (Memref.isWhole_whole _) cc0_scoped0 cc0_scoped1 cc0_scoped2 k1 k2 ())
      (I2 A X E0 d L k1 S0 S1 O W (k2.val + 1)) := by
  unfold k0_t2_body
  unfold I2
  iintro ⟨Hmw, H1, H0, ⟨%s2, H2⟩, Hsem, HEP, %W', %hW', HO⟩
  sl_exec
  sl_for (I3 d L S0 S1 k2.val) $$ [H1 H0 H2]
  case region =>
    intro k3 _
    exact trip3 d L S0 S1 hb k2 k3
  · unfold I3
    isplitl [H1]; · iexact H1
    isplitl [H0]; · iexact H0
    iexists s2
    isplitl [H2]; · iexact H2
    ipureintro
    intro j hj
    omega
  iintro %_ HI
  unfold I3
  icases HI with ⟨H1, H0, %s2', H2, %hag⟩
  ihave HEP' := (Entails.of_eq (EP_take A X E0 d L k1 k2)) $$ HEP
  icases HEP' with ⟨Hpc, Hrest⟩
  ihave Hpc' := (Entails.of_eq (pts_ePc (F := F) d L k1 k2 _).symm) $$ Hpc
  sl_exec (disch := exact View.amount_pos _ _ (show 0 < S8192.numel by decide))
  have h32 : 256 * Scf.trips k0_t3_loop.lb k0_t3_loop.ub k0_t3_loop.st = 8192 := by decide
  rw [h32] at hag
  ihave Hpc := (Entails.of_eq (piece_congr A X d L k1 k2 (E0 d) (trip2.sl.dma0 d L s2') (fun j => show s2' j = _ from (hag j (j 0).isLt).trans (hval k2 j)))) $$ Hpc'
  sl_step
  isplitl [Hmw]; · iexact Hmw
  isplitl [H1]; · iexact H1
  isplitl [H0]; · iexact H0
  isplitl [H2]; · iexists _; iexact H2
  isplitl [Hsem]; · iexact Hsem
  isplitl [Hrest Hpc]
  · rw [show 2 * k1.val + (k2.val + 1) = 2 * k1.val + k2.val + 1 from by omega, ← EP_put A X E0 d L k1 k2]
    isplitl [Hpc]; · iexact Hpc
    iexact Hrest
  iexists (insert (SemLoc.dma cc0_scoped2.sem, (default : HIx 1)) W'); isplitr
  · ipureintro; intro p hp
    rcases Finset.mem_insert.mp hp with hp | hp
    · exact .inr (hp ▸ rfl)
    · exact hW' p hp
  · iexact HO

end Cert.Proof.KB

end
-- ==== Proof.KB.ScOffs.lean ====
/-
  Closed forms of the row offsets a vector subcore computes with a floor division and a remainder: row k of the
  subcore at grid point (c, s) is plane p = 26 * s + 13 * c + k of the 416; its index row is p / 16 and its table
  row is (p / 16, p % 16). And the placements of the three sliced views in their arrays.
-/
import proofs.«205318_g12532714570102_cont_fleet_669_37_alg».proof.Proof.KB.ScVal
import Idealize.ShloMosaic.Lib.ValueLayout
import proofs.«205318_g12532714570102_cont_fleet_669_37_alg».proof.Proof.Gen.Kernel.Skeleton
import Idealize.ShloMosaic.Lib.SparseCore.Ops
import Idealize.ShloMosaic.Lib.Tactic
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

/-- Every grid point is the point of its two coordinates. -/
theorem coords_eta (L : grid0.Coords) : L = coordsV (L 0) (L 1) := by
  funext a
  match a with
  | 0 => rfl
  | 1 => rfl

/-- The plane a vector subcore works on in trip k1. -/
def planeOf (L : grid0.Coords) (k1 : Fin k0_t1_loop.trips) : Nat := 26 * (L 1).val + 13 * (L 0).val + k1.val

theorem planeOf_lt (L : grid0.Coords) (k1 : Fin k0_t1_loop.trips) : planeOf L k1 < 416 := by
  have h0 : (L 0).val < 2 := (L 0).isLt
  have h1 : (L 1).val < 16 := (L 1).isLt
  have h2 : k1.val < 13 := lt_of_lt_of_eq k1.isLt (show k0_t1_loop.trips = 13 by decide)
  unfold planeOf; omega

set_option maxRecDepth 100000 in
theorem k0_off1_cs : ∀ (c : Fin 2) (s : Fin 16) (k1 : Fin k0_t1_loop.trips),
    k0_off1 (coordsV c s) k1 = ![(26 * s.val + 13 * c.val + k1.val) / 16, 0] := by decide +kernel

set_option maxRecDepth 100000 in
theorem k0_off2_cs : ∀ (c : Fin 2) (s : Fin 16) (k1 : Fin k0_t1_loop.trips),
    k0_off2 (coordsV c s) k1 = ![(26 * s.val + 13 * c.val + k1.val) / 16, (26 * s.val + 13 * c.val + k1.val) % 16, 0] := by decide +kernel

theorem k0_off1_closed (L : grid0.Coords) (k1 : Fin k0_t1_loop.trips) : k0_off1 L k1 = ![planeOf L k1 / 16, 0] := by
  conv_lhs => rw [coords_eta L]
  exact k0_off1_cs (L 0) (L 1) k1

theorem k0_off2_closed (L : grid0.Coords) (k1 : Fin k0_t1_loop.trips) : k0_off2 L k1 = ![planeOf L k1 / 16, planeOf L k1 % 16, 0] := by
  conv_lhs => rw [coords_eta L]
  exact k0_off2_cs (L 0) (L 1) k1

theorem k0_off35_closed (L : grid0.Coords) (k1 : Fin k0_t1_loop.trips) (k2 : Fin k0_t2_loop.trips) :
    k0_off35 L k1 k2 = ![planeOf L k1, 8192 * k2.val] := k0_off35_eq L k1 k2

end Cert.Proof.KB

end
-- ==== Proof.KB.ScEmb.lean ====
/-
  Where the three sliced views of a vector subcore's trip lie in their arrays, and the value its gathers produce: the
  plane scratch read at the index scratch's words is the result's gathered value on the piece written.
-/
import proofs.«205318_g12532714570102_cont_fleet_669_37_alg».proof.Proof.KB.ScOffs
import proofs.«205318_g12532714570102_cont_fleet_669_37_alg».proof.Proof.Gen.Kernel.Skeleton
import Idealize.ShloMosaic.Lib.SparseCore.Ops
import Idealize.ShloMosaic.Lib.Tactic
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

/-- The index row and the table row trip k1 copies in, as the body slices them. -/
abbrev xRow (L : grid0.Coords) (k1 : Fin k0_t1_loop.trips) : Memref sig .scVector .hbm S16384 .i32 :=
  ((xV : Memref sig .scVector .hbm S39x16384 .i32).slice (Rect.unit (s := S39x16384) (k0_off1 L k1) S1x16384.size (k0_off1_inb L k1)) (fun _ => rfl)).squeeze S16384 squeezes_S1x16384_S16384
abbrev aRow (L : grid0.Coords) (k1 : Fin k0_t1_loop.trips) : Memref sig .scVector .hbm S100000 .f32 :=
  ((aV : Memref sig .scVector .hbm S26x16x100000 .f32).slice (Rect.unit (s := S26x16x100000) (k0_off2 L k1) S1x1x100000.size (k0_off2_inb L k1)) (fun _ => rfl)).squeeze S100000 squeezes_S1x1x100000_S100000

theorem reshape_1a (x : S100000.Idx) :
    Shape.reshapeEquiv (s := S1x1x100000) (s' := S100000) squeezes_S1x1x100000_S100000.numel_eq x
      = ix3 (n0 := 1) (n1 := 1) (n2 := 100000) ⟨0, Nat.one_pos⟩ ⟨0, Nat.one_pos⟩ (x 0) :=
  Shape.reshapeEquiv_eq_of_rowMajor _ (by
    rw [Shape.rowMajor_val_three, Shape.rowMajor_val_one]
    show (0 * 1 + 0) * 100000 + (x 0).val = (x 0).val
    omega)

theorem emb_ePc (L : grid0.Coords) (k1 : Fin k0_t1_loop.trips) (k2 : Fin k0_t2_loop.trips) (j : S8192.Idx) :
    (ePc L k1 k2).view.emb j = ix2 (n0 := 416) (n1 := 16384) ⟨planeOf L k1, planeOf_lt L k1⟩
      ⟨8192 * k2.val + (j 0).val, by have := (j 0).isLt; have : k2.val < 2 := lt_of_lt_of_eq k2.isLt (show k0_t2_loop.trips = 2 by decide)
                                     show 8192 * k2.val + (j 0).val < 16384; have : (j 0).val < 8192 := (j 0).isLt; omega⟩ := by
  have e : (ePc L k1 k2).view.emb j
      = (Rect.unit (s := S416x16384) (k0_off35 L k1 k2) S1x8192.size (k0_off35_inb L k1 k2)).emb
          (Shape.reshapeEquiv (s := S1x8192) (s' := S8192) squeezes_S1x8192_S8192.numel_eq j) := rfl
  rw [e, Shape.reshapeEquiv_cons_one]
  funext a
  match a with
  | 0 => exact Fin.ext (by show k0_off35 L k1 k2 0 + 1 * 0 = planeOf L k1; rw [k0_off35_closed]; rfl)
  | 1 => exact Fin.ext (by show k0_off35 L k1 k2 1 + 1 * (j 0).val = 8192 * k2.val + (j 0).val; rw [k0_off35_closed]; show 8192 * k2.val + 1 * (j 0).val = _; omega)

theorem emb_xRow (L : grid0.Coords) (k1 : Fin k0_t1_loop.trips) (b : S16384.Idx) :
    (xRow L k1).view.emb b = ix2 (n0 := 39) (n1 := 16384) ⟨planeOf L k1 / 16, by have := planeOf_lt L k1; omega⟩ (b 0) := by
  have e : (xRow L k1).view.emb b
      = (Rect.unit (s := S39x16384) (k0_off1 L k1) S1x16384.size (k0_off1_inb L k1)).emb
          (Shape.reshapeEquiv (s := S1x16384) (s' := S16384) squeezes_S1x16384_S16384.numel_eq b) := rfl
  rw [e, Shape.reshapeEquiv_cons_one]
  funext a
  match a with
  | 0 => exact Fin.ext (by show k0_off1 L k1 0 + 1 * 0 = planeOf L k1 / 16; rw [k0_off1_closed]; rfl)
  | 1 => exact Fin.ext (by show k0_off1 L k1 1 + 1 * (b 0).val = (b 0).val; rw [k0_off1_closed]; show 0 + 1 * (b 0).val = _; omega)

theorem emb_aRow (L : grid0.Coords) (k1 : Fin k0_t1_loop.trips) (r : S100000.Idx) :
    (aRow L k1).view.emb r = ix3 (n0 := 26) (n1 := 16) (n2 := 100000) ⟨planeOf L k1 / 16, by have := planeOf_lt L k1; omega⟩
      ⟨planeOf L k1 % 16, Nat.mod_lt _ (by decide)⟩ (r 0) := by
  have e : (aRow L k1).view.emb r
      = (Rect.unit (s := S26x16x100000) (k0_off2 L k1) S1x1x100000.size (k0_off2_inb L k1)).emb
          (Shape.reshapeEquiv (s := S1x1x100000) (s' := S100000) squeezes_S1x1x100000_S100000.numel_eq r) := rfl
  rw [e, reshape_1a]
  funext a
  match a with
  | 0 => exact Fin.ext (by show k0_off2 L k1 0 + 1 * 0 = planeOf L k1 / 16; rw [k0_off2_closed]; rfl)
  | 1 => exact Fin.ext (by show k0_off2 L k1 1 + 1 * 0 = planeOf L k1 % 16; rw [k0_off2_closed]; rfl)
  | 2 => exact Fin.ext (by show k0_off2 L k1 2 + 1 * (r 0).val = (r 0).val; rw [k0_off2_closed]; show 0 + 1 * (r 0).val = _; omega)

variable (A : (d : Dev nD) → Buf (Elt F) (aLoc d)) (X : (d : Dev nD) → Buf (Elt F) (xLoc d)) (d : Dev nD)

/-- What the two copies of trip k1 land in the scratches. -/
abbrev S0of (L : grid0.Coords) (k1 : Fin k0_t1_loop.trips) : S100000.Idx → Elt F .f32 := (aRow L k1).view.read (Elt F) (A d)
abbrev S1of (L : grid0.Coords) (k1 : Fin k0_t1_loop.trips) : S16384.Idx → Elt F .i32 := (xRow L k1).view.read (Elt F) (X d)

theorem S0of_apply (L : grid0.Coords) (k1 : Fin k0_t1_loop.trips) (r : S100000.Idx) : S0of A d L k1 r = A d ((aRow L k1).view.emb r) :=
  (View.read_apply _ _).trans (cast_eq _ _)
theorem S1of_apply (L : grid0.Coords) (k1 : Fin k0_t1_loop.trips) (b : S16384.Idx) : S1of X d L k1 b = X d ((xRow L k1).view.emb b) :=
  (View.read_apply _ _).trans (cast_eq _ _)

theorem S1of_bound (hpre : ∀ idx, (X d idx).toNat < 100000) (L : grid0.Coords) (k1 : Fin k0_t1_loop.trips) (b : S16384.Idx) :
    (S1of X d L k1 b).toNat < 100000 := by rw [S1of_apply]; exact hpre _

theorem S0of_ix (L : grid0.Coords) (k1 : Fin k0_t1_loop.trips) (r : Fin 100000) :
    S0of A d L k1 (ix1 r) = A d (ix3 (n0 := 26) (n1 := 16) (n2 := 100000) ⟨planeOf L k1 / 16, by have := planeOf_lt L k1; omega⟩
      ⟨planeOf L k1 % 16, Nat.mod_lt _ (by decide)⟩ r) := by
  rw [S0of_apply, emb_aRow]
theorem S1of_ix (L : grid0.Coords) (k1 : Fin k0_t1_loop.trips) (b : Fin 16384) :
    S1of X d L k1 (ix1 b) = X d (ix2 (n0 := 39) (n1 := 16384) ⟨planeOf L k1 / 16, by have := planeOf_lt L k1; omega⟩ b) := by
  rw [S1of_apply, emb_xRow]

theorem ix3_congr {α : Type} (A' : (⟨3, ![26, 16, 100000]⟩ : Shape).Idx → α) (f f' : Fin 26) (dd dd' : Fin 16) (r r' : Fin 100000)
    (h1 : f.val = f'.val) (h2 : dd.val = dd'.val) (h3 : r.val = r'.val) : A' (ix3 f dd r) = A' (ix3 f' dd' r') := by
  obtain rfl := Fin.ext h1; obtain rfl := Fin.ext h2; obtain rfl := Fin.ext h3; rfl
theorem ix2_congr {α : Type} (X' : (⟨2, ![39, 16384]⟩ : Shape).Idx → α) (f f' : Fin 39) (b b' : Fin 16384)
    (h1 : f.val = f'.val) (h2 : b.val = b'.val) : X' (ix2 f b) = X' (ix2 f' b') := by
  obtain rfl := Fin.ext h1; obtain rfl := Fin.ext h2; rfl

/-- The value: on the piece of half k2 of trip k1's row, the gathers of the two landed rows are the result's value. -/
theorem piece_val (L : grid0.Coords) (k1 : Fin k0_t1_loop.trips) (k2 : Fin k0_t2_loop.trips) (j : S8192.Idx) :
    tgtOf (S0of A d L k1) (S1of X d L k1) k2.val j = embOf A X d ((ePc L k1 k2).view.emb j) := by
  have hj : (j 0).val < 8192 := (j 0).isLt
  have hk2 : k2.val < 2 := lt_of_lt_of_eq k2.isLt (show k0_t2_loop.trips = 2 by decide)
  have hm : (8192 * k2.val + (j 0).val) % 16384 = 8192 * k2.val + (j 0).val := Nat.mod_eq_of_lt (by omega)
  rw [emb_ePc]
  unfold tgtOf embOf
  rw [S0of_ix]
  refine ix3_congr (A d) _ _ _ _ _ _ rfl rfl ?_
  show (S1of X d L k1 (ix1 _)).toNat % 100000 = (X d (ix2 _ _)).toNat % 100000
  rw [S1of_ix]
  exact congrArg (fun w : BitVec 32 => w.toNat % 100000) (ix2_congr (X d) _ _ _ _ rfl hm)

end Cert.Proof.KB

end
-- ==== Proof.KB.ScTrip1.lean ====
/-
  One trip of a vector subcore's outer loop: the plane's index row is copied in unless the previous trip's plane had
  the same field, the plane's table row is copied in, and the two halves of the result's row are gathered and written.
-/
import proofs.«205318_g12532714570102_cont_fleet_669_37_alg».proof.Proof.KB.ScTrip2
import proofs.«205318_g12532714570102_cont_fleet_669_37_alg».proof.Proof.KB.ScEmb
import proofs.«205318_g12532714570102_cont_fleet_669_37_alg».proof.Proof.Gen.Kernel.Skeleton
import Idealize.ShloMosaic.Lib.SparseCore.Ops
import Idealize.ShloMosaic.Lib.Tactic
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

/-- The field word of the plane of trip k1: the plane floor-divided by 16, as the body computes it. -/
@[reducible] def fW (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_1 : BitVec 32 := 13#32
  let v4 : BitVec 32 := Scalar.muli v1 c13_i32_1
  let c0_i32 : BitVec 32 := 0#32
  let c1_i32 : BitVec 32 := 1#32
  let arg8 : BitVec 32 := Scf.iv c0_i32 c1_i32 k0_t1
  let v5 : BitVec 32 := Scalar.addi v4 arg8
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let c0_i32_20_r0 : BitVec 32 := 0#32
  v22

theorem off1_fW (L : grid0.Coords) (k1 : Fin k0_t1_loop.trips) : k0_off1 L k1 = ![(fW L k1).toNat, 0] := rfl

variable [FloatOps F]

variable (A : (d : Dev nD) → Buf (Elt F) (aLoc d)) (X : (d : Dev nD) → Buf (Elt F) (xLoc d)) (E0 : (d : Dev nD) → Buf (Elt F) (eLoc d))
variable (d : Dev nD) (L : grid0.Coords)

/-- The index scratch holds the index row of every trip whose field word is the carried one. -/
def S1inv (acc : BitVec 32) (s1 : S16384.Idx → Elt F .i32) : Prop :=
  ∀ k' : Fin k0_t1_loop.trips, fW L k' = acc → s1 = S1of X d L k'

/-- Before trip k of the outer loop, the carried field word acc. -/
def I1 (q : PosShare TreeShare) (O : CellTallies nD τ sig (HIx 1)) (W : Waits sig (HIx 1)) (k : Nat) (acc : BitVec 32) : sProp 𝕄 :=
  iprop(Transfers.MayWaits (thr d L) (none : HIx 1) O
    ∗ ((aV : Memref sig .scVector .hbm S26x16x100000 .f32).view.loc (thr d L) ↦{q} A d)
    ∗ ((xV : Memref sig .scVector .hbm S39x16384 .i32).view.loc (thr d L) ↦{q} X d)
    ∗ (∃ s0, (s0V : Memref sig .scVector .vmem S100000 .f32).view.loc (thr d L) ↦{fullShare} s0)
    ∗ (∃ s1, ((s1V : Memref sig .scVector .vmem S16384 .i32).view.loc (thr d L) ↦{fullShare} s1) ∗ ⌜S1inv X d L acc s1⌝)
    ∗ (∃ s2, (s2V : Memref sig .scVector .vmem S8192 .f32).view.loc (thr d L) ↦{fullShare} s2)
    ∗ semVal (thr d L, SemLoc.dma cc0_scoped0.sem) 0
    ∗ semVal (thr d L, SemLoc.dma cc0_scoped1.sem) 0
    ∗ semVal (thr d L, SemLoc.dma cc0_scoped2.sem) 0
    ∗ EP A X E0 d L (2 * k)
    ∗ ∃ W', ⌜∀ p ∈ W', p ∈ W ∨ p.2 = none⌝ ∗ owes (thr d L) O W')

/-- The conditional copy is skipped only when the carried field word is this trip's. -/
theorem eq_of_not_cond (a b : BitVec 32) (h : ¬ Scalar.cmpi .ne (Scalar.extui (Scalar.cmpi .ne a b)) 0#32 = 1#1) : a = b := by
  by_contra hne
  apply h
  have h1 : Scalar.cmpi .ne a b = 1#1 := by
    show BitVec.ofBool (a != b) = 1#1
    rw [show (a != b) = true from bne_iff_ne.mpr hne]; rfl
  rw [h1]; decide

omit [FloatOps F] in
/-- Trips with one field word copy the same index row. -/
theorem S1of_congr (k k' : Fin k0_t1_loop.trips) (h : fW L k' = fW L k) : S1of X d L k = S1of X d L k' := by
  have e : k0_off1 L k' = k0_off1 L k := by rw [off1_fW, off1_fW, h]
  have key : ∀ (o o' : Fin 2 → Nat) (ho : ∀ a, o a + S1x16384.size a ≤ S39x16384.size a) (ho' : ∀ a, o' a + S1x16384.size a ≤ S39x16384.size a), o' = o →
      (((xV : Memref sig .scVector .hbm S39x16384 .i32).slice (Rect.unit (s := S39x16384) o S1x16384.size ho) (fun _ => rfl)).squeeze S16384 squeezes_S1x16384_S16384).view.read (Elt F) (X d)
        = (((xV : Memref sig .scVector .hbm S39x16384 .i32).slice (Rect.unit (s := S39x16384) o' S1x16384.size ho') (fun _ => rfl)).squeeze S16384 squeezes_S1x16384_S16384).view.read (Elt F) (X d) := by
    intro o o' ho ho' e; subst e; rfl
  exact key _ _ _ _ e

/-- The word a vector subcore multiplies by 13 to find its first plane. -/
abbrev v1W (L : grid0.Coords) : BitVec 32 := Scalar.addi (Scalar.muli (BitVec.ofNat 32 (L 1).val) 2#32) (BitVec.ofNat 32 (L 0).val)

set_option maxHeartbeats 4000000 in
theorem trip1 (q : PosShare TreeShare) (O : CellTallies nD τ sig (HIx 1)) (W : Waits sig (HIx 1))
    (hpre : ∀ idx, (X d idx).toNat < 100000) (k1 : Fin k0_t1_loop.trips) (acc : BitVec 32) :
    I1 A X E0 d L q O W k1.val acc ⊢ wp frame (wpE (defs₀ (F := F)) 𝒱₀ (thr d L) none) Set.univ
      (k0_t1_body L aV (Memref.isWhole_whole _) xV (Memref.isWhole_whole _) eV (Memref.isWhole_whole _) s0V (Memref.isWhole_whole _)
        s1V (Memref.isWhole_whole _) s2V (Memref.isWhole_whole _) cc0_scoped0 cc0_scoped1 cc0_scoped2 (v1W L) k1 acc)
      (I1 A X E0 d L q O W (k1.val + 1)) := by
  unfold k0_t1_body
  unfold I1
  iintro ⟨Hmw, Ha, Hx, ⟨%s0, H0⟩, ⟨%s1, H1, %hs1⟩, ⟨%s2, H2⟩, Hsem0, Hsem1, Hsem2, HEP, %W', %hW', HO⟩
  by_cases hC : Scalar.cmpi .ne (Scalar.extui (Scalar.cmpi .ne (fW L k1) acc)) 0#32 = 1#1
  · sl_exec (disch := first | exact View.amount_pos _ _ (show 0 < S16384.numel by decide) | exact View.amount_pos _ _ (show 0 < S100000.numel by decide))
    have e0 : View.write (Elt F) (s0V : Memref sig .scVector .vmem S100000 .f32).view s0 (trip1.sl.dma0_1 A d L k1) Finset.univ = S0of A d L k1 :=
      View.write_whole_univ _ _ _
    have e1 : View.write (Elt F) (s1V : Memref sig .scVector .vmem S16384 .i32).view s1 (trip1.sl.dma0 X d L k1) Finset.univ = S1of X d L k1 :=
      View.write_whole_univ _ _ _
    rw [e0, e1]
    sl_for (I2 A X E0 d L k1 (S0of A d L k1) (S1of X d L k1) O W) $$ [Hmw H1 H0 H2 Hsem2 HEP HO]
    case region =>
      intro k2 _
      exact trip2 A X E0 d L k1 _ _ O W (S1of_bound X d hpre L k1) (fun k2 j => piece_val A X d L k1 k2 j) k2
    · unfold I2
      isplitl [Hmw]; · iexact Hmw
      isplitl [H1]; · iexact H1
      isplitl [H0]; · iexact H0
      isplitl [H2]; · iexists _; iexact H2
      isplitl [Hsem2]; · iexact Hsem2
      isplitl [HEP]; · rw [Nat.add_zero]; iexact HEP
      iexists (insert (SemLoc.dma cc0_scoped1.sem, (default : HIx 1)) (insert (SemLoc.dma cc0_scoped0.sem, (default : HIx 1)) W')); isplitr
      · ipureintro; intro p hp
        rcases Finset.mem_insert.mp hp with hp | hp
        · exact .inr (hp ▸ rfl)
        rcases Finset.mem_insert.mp hp with hp | hp
        · exact .inr (hp ▸ rfl)
        · exact hW' p hp
      · iexact HO
    iintro %_ HI
    unfold I2
    icases HI with ⟨Hmw, H1, H0, ⟨%s2', H2⟩, Hsem2, HEP, %W'', %hW'', HO⟩
    have h2 : 2 * k1.val + Scf.trips k0_t2_loop.lb k0_t2_loop.ub k0_t2_loop.st = 2 * (k1.val + 1) := by
      have : Scf.trips k0_t2_loop.lb k0_t2_loop.ub k0_t2_loop.st = 2 := by decide
      omega
    rw [h2]
    sl_exec
    sl_step
    isplitl [Hmw]; · iexact Hmw
    isplitl [Ha]; · iexact Ha
    isplitl [Hx]; · iexact Hx
    isplitl [H0]; · iexists _; iexact H0
    isplitl [H1]
    · iexists _; isplitl [H1]; · iexact H1
      ipureintro; intro k' hk'; exact S1of_congr X d L k1 k' hk'
    isplitl [H2]; · iexists _; iexact H2
    isplitl [Hsem0]; · iexact Hsem0
    isplitl [Hsem1]; · iexact Hsem1
    isplitl [Hsem2]; · iexact Hsem2
    isplitl [HEP]; · iexact HEP
    iexists W''; isplitr
    · ipureintro; exact hW''
    · iexact HO
  · sl_exec (disch := first | exact View.amount_pos _ _ (show 0 < S16384.numel by decide) | exact View.amount_pos _ _ (show 0 < S100000.numel by decide))
    have e0 : View.write (Elt F) (s0V : Memref sig .scVector .vmem S100000 .f32).view s0 (trip1.sl.dma0_2 A d L k1) Finset.univ = S0of A d L k1 :=
      View.write_whole_univ _ _ _
    have hs := hs1 k1 (eq_of_not_cond _ _ hC)
    subst hs
    rw [e0]
    sl_for (I2 A X E0 d L k1 (S0of A d L k1) (S1of X d L k1) O W) $$ [Hmw H1 H0 H2 Hsem2 HEP HO]
    case region =>
      intro k2 _
      exact trip2 A X E0 d L k1 _ _ O W (S1of_bound X d hpre L k1) (fun k2 j => piece_val A X d L k1 k2 j) k2
    · unfold I2
      isplitl [Hmw]; · iexact Hmw
      isplitl [H1]; · iexact H1
      isplitl [H0]; · iexact H0
      isplitl [H2]; · iexists _; iexact H2
      isplitl [Hsem2]; · iexact Hsem2
      isplitl [HEP]; · rw [Nat.add_zero]; iexact HEP
      iexists (insert (SemLoc.dma cc0_scoped1.sem, (default : HIx 1)) W'); isplitr
      · ipureintro; intro p hp
        rcases Finset.mem_insert.mp hp with hp | hp
        · exact .inr (hp ▸ rfl)
        · exact hW' p hp
      · iexact HO
    iintro %_ HI
    unfold I2
    icases HI with ⟨Hmw, H1, H0, ⟨%s2', H2⟩, Hsem2, HEP, %W'', %hW'', HO⟩
    have h2 : 2 * k1.val + Scf.trips k0_t2_loop.lb k0_t2_loop.ub k0_t2_loop.st = 2 * (k1.val + 1) := by
      have : Scf.trips k0_t2_loop.lb k0_t2_loop.ub k0_t2_loop.st = 2 := by decide
      omega
    rw [h2]
    sl_exec
    sl_step
    isplitl [Hmw]; · iexact Hmw
    isplitl [Ha]; · iexact Ha
    isplitl [Hx]; · iexact Hx
    isplitl [H0]; · iexists _; iexact H0
    isplitl [H1]
    · iexists _; isplitl [H1]; · iexact H1
      ipureintro; intro k' hk'; exact S1of_congr X d L k1 k' hk'
    isplitl [H2]; · iexists _; iexact H2
    isplitl [Hsem0]; · iexact Hsem0
    isplitl [Hsem1]; · iexact Hsem1
    isplitl [Hsem2]; · iexact Hsem2
    isplitl [HEP]; · iexact HEP
    iexists W''; isplitr
    · ipureintro; exact hW''
    · iexact HO

end Cert.Proof.KB

end
-- ==== Proof.KB.ScBody.lean ====
/-
  A vector subcore's whole task, and the launch theorem's obligation for the one SparseCore call: thirteen trips of the
  outer loop, from the pieces of the result at their contents at the call to the pieces at the gathered value.
-/
import proofs.«205318_g12532714570102_cont_fleet_669_37_alg».proof.Proof.KB.ScTrip1
import proofs.«205318_g12532714570102_cont_fleet_669_37_alg».proof.Proof.Gen.Kernel.Skeleton
import Idealize.ShloMosaic.Lib.SparseCore.Ops
import Idealize.ShloMosaic.Lib.Tactic
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

variable [FloatOps F]

variable (A : (d : Dev nD) → Buf (Elt F) (aLoc d)) (X : (d : Dev nD) → Buf (Elt F) (xLoc d)) (E0 : (d : Dev nD) → Buf (Elt F) (eLoc d))
variable (d : Dev nD) (L : grid0.Coords)

abbrev c0cell : GSem nD τ sig := (thr d L, .dma cc0_scoped0.sem)
abbrev c1cell : GSem nD τ sig := (thr d L, .dma cc0_scoped1.sem)
abbrev c2cell : GSem nD τ sig := (thr d L, .dma cc0_scoped2.sem)

omit [FloatOps F] in
/-- The three copy semaphores are among the subcore's own scoped cells. -/
theorem ownSems0_V :
    (ownSems0 (thr d L) : sProp 𝕄)
      = iprop(semVal (c0cell d L) 0 ∗ semVal (c1cell d L) 0 ∗ semVal (c2cell d L) 0
          ∗ bigSep ((((ownCells (thr d L)).erase (c0cell d L)).erase (c1cell d L)).erase (c2cell d L)) fun g => semVal g 0) := by
  unfold SparseCore.Cfg.ownSems0
  rw [SparseCore.bigSep_erase' ((mem_ownCells (g := c0cell d L)).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc0_scoped1.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d L)).mpr ⟨rfl, by show (SemLoc.dma cc0_scoped2.sem : SemLoc sig).isScoped .scVector = true; decide⟩⟩⟩)]

omit [FloatOps F] in
/-- The three scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- No trip's field word is the word the loop starts from: it is a row of the index matrix. -/
theorem fW_ne_init (k1 : Fin k0_t1_loop.trips) : fW L k1 ≠ 4294967295#32 := by
  intro e
  have h := k0_off1_inb L k1 0
  rw [off1_fW, e] at h
  exact absurd h (by decide)

set_option maxHeartbeats 4000000 in
/-- The task of the vector subcore at grid point L of device d. -/
theorem tile_body (hF : (K (F := F)).Facts) (hpre : ∀ idx, (X d idx).toNat < 100000) (q : PosShare TreeShare)
    (O : CellTallies nD τ sig (HIx 1)) (W : Waits sig (HIx 1)) (hO : ∀ g, O g none = 0) :
    iprop(levAts (K (F := F)).L (K (F := F)).lev ∗ emp
        ∗ ((aLoc d ↦{q} A d) ∗ (xLoc d ↦{q} X d) ∗ tilePcs d L (E0 d))
        ∗ scopedBufs (thr d L) ∗ scopedSems0 (thr d L) ∗ owes (thr d L) O W)
      ⊢ wp frame (wpE (defs₀ (F := F)) 𝒱₀ (thr d L) none) Set.univ
          (cc0__sc_plane_gather_body L aV (Memref.isWhole_whole _) xV (Memref.isWhole_whole _) eV (Memref.isWhole_whole _)
            s0V (Memref.isWhole_whole _) s1V (Memref.isWhole_whole _) s2V (Memref.isWhole_whole _) cc0_scoped0 cc0_scoped1 cc0_scoped2)
          fun _ => iprop(((aLoc d ↦{q} A d) ∗ (xLoc d ↦{q} X d) ∗ tilePcs d L (embOf A X d))
            ∗ scopedBufs (thr d L) ∗ scopedSems0 (thr d L)
            ∗ ∃ W', ⌜∀ p ∈ W', p ∈ W ∨ p.2 = none⌝ ∗ owes (thr d L) O W') := by
  simp only [cc0__sc_plane_gather_body_eq_skeleton]; unfold cc0__sc_plane_gather_body_skel
  rw [(K (F := F)).scopedBufs_V hF d (cV L) (jV L), SparseCore.Cfg.scopedSems0_V (Val := Elt F) d (cV L) (jV L), ownSems0_V, ownBufs_V,
    ← EP_zero A X E0 d L, ← EP_full A X E0 d L]
  iintro ⟨#Hlv, -, ⟨Ha, Hx, HEP⟩, ⟨⟨%f0, Hs0⟩, ⟨%f1, Hs1⟩, ⟨%f2, Hs2⟩, Hbufs⟩, ⟨Hsem0, Hsem1, Hsem2, Hsems⟩, HO⟩
  ihave Hmw := ((K (F := F)).mayWaits_none (thr := thr d L) hO) $$ Hlv
  ihave Ha' := (Entails.of_eq (pts_a (F := F) d L q (A d)).symm) $$ Ha
  ihave Hx' := (Entails.of_eq (pts_x (F := F) d L q (X d)).symm) $$ Hx
  sl_exec
  sl_for (I1 A X E0 d L q O W) $$ [Hmw Ha' Hx' Hs0 Hs1 Hs2 Hsem0 Hsem1 Hsem2 HEP HO]
  case region =>
    intro k1 acc
    exact trip1 A X E0 d L q O W hpre k1 acc
  · unfold I1
    isplitl [Hmw]; · iexact Hmw
    isplitl [Ha']; · iexact Ha'
    isplitl [Hx']; · iexact Hx'
    isplitl [Hs0]; · iexists _; iexact Hs0
    isplitl [Hs1]
    · iexists f1; isplitl [Hs1]; · iexact Hs1
      ipureintro; intro k' hk'; exact absurd hk' (fW_ne_init L k')
    isplitl [Hs2]; · iexists _; iexact Hs2
    isplitl [Hsem0]; · iexact Hsem0
    isplitl [Hsem1]; · iexact Hsem1
    isplitl [Hsem2]; · iexact Hsem2
    isplitl [HEP]; · iexact HEP
    iexists W; isplitr
    · ipureintro; exact fun p hp => .inl hp
    · iexact HO
  iintro %acc HI
  unfold I1
  icases HI with ⟨-, Ha, Hx, ⟨%g0, Hs0⟩, ⟨%g1, Hs1, -⟩, ⟨%g2, Hs2⟩, Hsem0, Hsem1, Hsem2, HEP, %W', %hW', HO⟩
  sl_exec
  sl_step
  isplitl [Ha Hx HEP]
  · isplitl [Ha]; · iapply (Entails.of_eq (pts_a (F := F) d L q (A d))); iexact Ha
    isplitl [Hx]; · iapply (Entails.of_eq (pts_x (F := F) d L q (X d))); iexact Hx
    iexact HEP
  isplitl [Hs0 Hs1 Hs2 Hbufs]
  · isplitl [Hs0]; · iexists _; iexact Hs0
    isplitl [Hs1]; · iexists _; iexact Hs1
    isplitl [Hs2]; · iexists _; iexact Hs2
    iexact Hbufs
  isplitl [Hsem0 Hsem1 Hsem2 Hsems]
  · isplitl [Hsem0]; · iexact Hsem0
    isplitl [Hsem1]; · iexact Hsem1
    isplitl [Hsem2]; · iexact Hsem2
    iexact Hsems
  iexists W'; isplitr
  · ipureintro; exact hW'
  · iexact HO

/-! ## The launch theorem's obligation -/

theorem defs₀_vector (c : Fin τ.nSC) (s : Fin τ.nSub) :
    defs₀ (F := F) (.scVector c s) 0 ()
      = SparseCore.onTile hcore0 hsub0 (fun c s => cc0__sc_plane_gather_body (coordsV c s)
          aV (Memref.isWhole_whole _) xV (Memref.isWhole_whole _) eV (Memref.isWhole_whole _)
          s0V (Memref.isWhole_whole _) s1V (Memref.isWhole_whole _) s2V (Memref.isWhole_whole _) cc0_scoped0 cc0_scoped1 cc0_scoped2) ⟨⟩ c s := rfl

omit [FloatOps F] in
theorem obl_post {thr : Thread nD τ} {A' B C : sProp 𝕄} {O : CellTallies nD τ sig (HIx 1)} {W : Waits sig (HIx 1)} {q : Fin 1} :
    iprop(A' ∗ B ∗ C ∗ ∃ W', ⌜∀ p ∈ W', p ∈ W ∨ p.2 = none⌝ ∗ owes thr O W')
      ⊢ iprop(A' ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore's task, under the bound on the index words: the obligation of the one SparseCore call. -/
theorem tileObl (hpre : ∀ d idx, (X d idx).toNat < 100000) : (K (F := F)).TileObl (D (F := F)) 𝒱 (P A X E0) v₀ 0 := by
  intro d c i O W hO _ _
  simp only [show (P A X E0).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body A X E0 d (coordsV ⟨_, hc.1⟩ ⟨_, hc.2⟩) facts (hpre d) (qT (F := F) c i) O W hO).trans (wp_mono frame _ _ fun _ => obl_post)

end Cert.Proof.KB

end
-- ==== Proof.KB.XRange.lean ====
import proofs.«205318_g12532714570102_cont_fleet_669_37_alg».proof.Proof.KB.Vals
import proofs.«205318_g12532714570102_cont_fleet_669_37_alg».proof.Proof.PreFacts
import Idealize.ShloMosaic.Lib.ValueLayout

/-!
# The index words the SparseCore call reads are in range

The call reads the transposed index matrix; entry `(r, b)` of it is entry `(b, r)` of the
argument, and under the precondition every word of the argument is below the tables' extent.
-/

noncomputable section

namespace Cert.Proof.KB

open Cert.Kernel Cert.Kernel.Gen Idealize.ShloMosaic Idealize.ShloMosaic.TcCoe Idealize.SL.Sem Idealize.ShloMosaic.StableHlo
open Idealize.ShloMosaic.ValueIdx

variable {F : FTy → Type} [FloatOps F]

variable (m : (ℓ : Loc nD τ sig) → Buf (Elt F) ℓ)

/-- The transposed index matrix at `(r, b)` is the argument at `(b, r)`. -/
theorem Xof_apply (d : Dev nD) (r : Fin 39) (b : Fin 16384) :
    (Xof m d : IVec S39x16384 32) (ix2 r b)
      = (m ((d.tc : Thread nD τ).loc main_arg1) : IVec S16384x39 32) (ix2 b r) := by
  have h : after (opsA (F := F)) (launchContents m d) (Proc.devRef .tc main_v1)
      = transpose S39x16384 [1, 0] (launchContents m d (Proc.devRef .tc main_arg1) : IVec S16384x39 32)
          transposes_S16384x39_S39x16384_1_0 := by
    after_results_simp <;> rfl
  exact (congrFun h _).trans
    (transpose_ix2_apply (launchContents m d (Proc.devRef .tc main_arg1) : IVec S16384x39 32) _ r b)

/-- Under the precondition every index word the SparseCore call reads is below `100000`. -/
theorem X_range
    (hpre : ∀ c : Dev nD, Cert.Pre_input_domain.fn (F := F)
      (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) = fun _ => 1#1) :
    ∀ (d : Dev nD) idx, (Xof m d idx).toNat < 100000 := by
  intro d idx
  obtain ⟨r, b, rfl⟩ : ∃ (r : Fin 39) (b : Fin 16384), idx = ix2 r b := ⟨idx 0, idx 1, eq_ix2 idx⟩
  show ((Xof m d : IVec S39x16384 32) (ix2 r b)).toNat < 100000
  rw [Xof_apply]
  exact (PreFacts.xd_range _ _ _ _ _ _ _ _ _ (hpre d) (ix2 b r)).2.2

end Cert.Proof.KB

end
-- ==== Proof.KB.Frame.lean ====
/-
  The kernel's program under the certificate's precondition: every weakly fair execution of its threads terminates,
  nothing faulting, with the result array at the composed valuation of the launch memory and the nine argument arrays
  as launched. (The precondition bounds every index word below the tables' extent, which is what each vector subcore's
  indexed loads need.)
-/
import proofs.«205318_g12532714570102_cont_fleet_669_37_alg».proof.Proof.KB.Launch
import proofs.«205318_g12532714570102_cont_fleet_669_37_alg».proof.Proof.KB.ScBody
import proofs.«205318_g12532714570102_cont_fleet_669_37_alg».proof.Proof.KB.XRange

noncomputable section

namespace Cert.Proof.KB

open Cert.Kernel Cert.Kernel.Gen

open Idealize.ShloMosaic Idealize.ShloMosaic.TcCoe Idealize.SL.Sem

variable {F : FTy → Type} [FloatOps F]

variable (m : (ℓ : Loc nD τ sig) → Buf (Elt F) ℓ) (ρ : Dev nD → PrngReg)

theorem run_args [∀ e, Nonempty (Elt F e)]
    (hpre : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) = fun _ => 1#1) :
    θ_run (Cert.Kernel.defs (F := F)) (Cert.Kernel.threads (F := F)) ⟨m, fun _ => 0, ρ⟩ (fun r => ∀ c : Dev nD,
      r.2.mem ((c.tc : Thread nD τ).loc main_v31) = WC m (o30 (F := F)) c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (Cert.Kernel.defs (F := F)) _ _).mono (fun r h c => ⟨h c main_v31 (by decide),
      (h c main_arg0 (by decide)).trans (WC_arg0 m c),
      (h c main_arg1 (by decide)).trans (WC_arg1 m c),
      (h c main_arg2 (by decide)).trans (WC_arg2 m c),
      (h c main_arg3 (by decide)).trans (WC_arg3 m c),
      (h c main_arg4 (by decide)).trans (WC_arg4 m c),
      (h c main_arg5 (by decide)).trans (WC_arg5 m c),
      (h c main_arg6 (by decide)).trans (WC_arg6 m c),
      (h c main_arg7 (by decide)).trans (WC_arg7 m c),
      (h c main_arg8 (by decide)).trans (WC_arg8 m c)⟩)
    (run_main m ρ (tileObl (Aof m) (Xof m) (E0of m) (X_range m hpre)))

end Cert.Proof.KB

end
-- ==== Proof.RefOps.lean ====
/- TABLE, produced by `bun scratch/gen_refops.js` (run in the unit directory) from the operation list of the generated run module of the reference
   program: its 367 host operations, verbatim and in order, cut into the prelude (the scatter that zeroes row 0 of every table), one chunk
   of 13 operations per table, and the tail (the continuous block, the concatenations and the dense layers). A chunk that straddles the end
   of one of @main's windows of 60 statements is also given in its parts. Beside each chunk, the list of the references it writes. -/
import proofs.«205318_g12532714570102_cont_fleet_669_37_alg».proof.Proof.Gen.ReferenceIdeal
import Idealize.ShloMosaic.Lib.StableHlo.Run

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

def opsPre : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    nullary main_cst (constant S_ .f32 0x00000000#32),
    unary main_cst main_v1 (broadcastInDim S26x16 ![] bcast_S_S26x16 : (⟨S_, .f32⟩ : BufTy).Contents (Elt F) → (⟨S26x16, .f32⟩ : BufTy).Contents (Elt F)),
    ternary main_arg2 main_v0 main_v1 main_v2 ((fun x i u => Host.scatter scatter_S26x100000x16_S1_S26x16_01_1_1_0 (fun _ b => b) x i u) : (⟨S26x100000x16, .f32⟩ : BufTy).Contents (Elt F) → (⟨S1, .i32⟩ : BufTy).Contents (Elt F) → (⟨S26x16, .f32⟩ : BufTy).Contents (Elt F) → (⟨S26x100000x16, .f32⟩ : BufTy).Contents (Elt F)) ]

def wrPre : List (Ref sig .tc) :=
  [main_c, main_v0, main_cst, main_v1, main_v2]

def opsField0 : List (HloOp τ sig (Elt F)) :=
  [ unary main_v2 main_v3 ((extractStridedSlice S1x100000x16 ![0, 0, 0] · slices_S26x100000x16_S1x100000x16_0_0_0) : (⟨S26x100000x16, .f32⟩ : BufTy).Contents (Elt F) → (⟨S1x100000x16, .f32⟩ : BufTy).Contents (Elt F)),
    reshape main_v3 main_v4 rfl shapeCasts_S1x100000x16_S100000x16,
    unary main_arg1 main_v5 ((extractStridedSlice S16384x1 ![0, 0] · slices_S16384x39_S16384x1_0_0) : (⟨S16384x39, .i32⟩ : BufTy).Contents (Elt F) → (⟨S16384x1, .i32⟩ : BufTy).Contents (Elt F)),
    reshape main_v5 main_v6 rfl shapeCasts_S16384x1_S16384,
    nullary main_c_0 (constantI S_ 32 0#32),
    unary main_c_0 main_v7 (broadcastInDim S16384 ![] bcast_S_S16384 : (⟨S_, .i32⟩ : BufTy).Contents (Elt F) → (⟨S16384, .i32⟩ : BufTy).Contents (Elt F)),
    binary main_v6 main_v7 main_v8 (cmpi .slt : (⟨S16384, .i32⟩ : BufTy).Contents (Elt F) → (⟨S16384, .i32⟩ : BufTy).Contents (Elt F) → (⟨S16384, .i1⟩ : BufTy).Contents (Elt F)),
    nullary main_c_1 (constantI S_ 32 100000#32),
    unary main_c_1 main_v9 (broadcastInDim S16384 ![] bcast_S_S16384 : (⟨S_, .i32⟩ : BufTy).Contents (Elt F) → (⟨S16384, .i32⟩ : BufTy).Contents (Elt F)),
    binary main_v6 main_v9 main_v10 (addi : (⟨S16384, .i32⟩ : BufTy).Contents (Elt F) → (⟨S16384, .i32⟩ : BufTy).Contents (Elt F) → (⟨S16384, .i32⟩ : BufTy).Contents (Elt F)),
    ternary main_v8 main_v10 main_v6 main_v11 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v11 main_v12 (broadcastInDim S16384x1 ![0] bcast_S16384_S16384x1_0 : (⟨S16384, .i32⟩ : BufTy).Contents (Elt F) → (⟨S16384x1, .i32⟩ : BufTy).Contents (Elt F)),
    binary main_v4 main_v12 main_v13 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField0 : List (Ref sig .tc) :=
  [main_v3, main_v4, main_v5, main_v6, main_c_0, main_v7, main_v8, main_c_1, main_v9, main_v10, main_v11, main_v12, main_v13]

def opsField1 : List (HloOp τ sig (Elt F)) :=
  [ unary main_v2 main_v14 ((extractStridedSlice S1x100000x16 ![1, 0, 0] · slices_S26x100000x16_S1x100000x16_1_0_0) : (⟨S26x100000x16, .f32⟩ : BufTy).Contents (Elt F) → (⟨S1x100000x16, .f32⟩ : BufTy).Contents (Elt F)),
    reshape main_v14 main_v15 rfl shapeCasts_S1x100000x16_S100000x16,
    unary main_arg1 main_v16 ((extractStridedSlice S16384x1 ![0, 1] · slices_S16384x39_S16384x1_0_1) : (⟨S16384x39, .i32⟩ : BufTy).Contents (Elt F) → (⟨S16384x1, .i32⟩ : BufTy).Contents (Elt F)),
    reshape main_v16 main_v17 rfl shapeCasts_S16384x1_S16384,
    nullary main_c_2 (constantI S_ 32 0#32),
    unary main_c_2 main_v18 (broadcastInDim S16384 ![] bcast_S_S16384 : (⟨S_, .i32⟩ : BufTy).Contents (Elt F) → (⟨S16384, .i32⟩ : BufTy).Contents (Elt F)),
    binary main_v17 main_v18 main_v19 (cmpi .slt : (⟨S16384, .i32⟩ : BufTy).Contents (Elt F) → (⟨S16384, .i32⟩ : BufTy).Contents (Elt F) → (⟨S16384, .i1⟩ : BufTy).Contents (Elt F)),
    nullary main_c_3 (constantI S_ 32 100000#32),
    unary main_c_3 main_v20 (broadcastInDim S16384 ![] bcast_S_S16384 : (⟨S_, .i32⟩ : BufTy).Contents (Elt F) → (⟨S16384, .i32⟩ : BufTy).Contents (Elt F)),
    binary main_v17 main_v20 main_v21 (addi : (⟨S16384, .i32⟩ : BufTy).Contents (Elt F) → (⟨S16384, .i32⟩ : BufTy).Contents (Elt F) → (⟨S16384, .i32⟩ : BufTy).Contents (Elt F)),
    ternary main_v19 main_v21 main_v17 main_v22 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v22 main_v23 (broadcastInDim S16384x1 ![0] bcast_S16384_S16384x1_0 : (⟨S16384, .i32⟩ : BufTy).Contents (Elt F) → (⟨S16384x1, .i32⟩ : BufTy).Contents (Elt F)),
    binary main_v15 main_v23 main_v24 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField1 : List (Ref sig .tc) :=
  [main_v14, main_v15, main_v16, main_v17, main_c_2, main_v18, main_v19, main_c_3, main_v20, main_v21, main_v22, main_v23, main_v24]

def opsField2 : List (HloOp τ sig (Elt F)) :=
  [ unary main_v2 main_v25 ((extractStridedSlice S1x100000x16 ![2, 0, 0] · slices_S26x100000x16_S1x100000x16_2_0_0) : (⟨S26x100000x16, .f32⟩ : BufTy).Contents (Elt F) → (⟨S1x100000x16, .f32⟩ : BufTy).Contents (Elt F)),
    reshape main_v25 main_v26 rfl shapeCasts_S1x100000x16_S100000x16,
    unary main_arg1 main_v27 ((extractStridedSlice S16384x1 ![0, 2] · slices_S16384x39_S16384x1_0_2) : (⟨S16384x39, .i32⟩ : BufTy).Contents (Elt F) → (⟨S16384x1, .i32⟩ : BufTy).Contents (Elt F)),
    reshape main_v27 main_v28 rfl shapeCasts_S16384x1_S16384,
    nullary main_c_4 (constantI S_ 32 0#32),
    unary main_c_4 main_v29 (broadcastInDim S16384 ![] bcast_S_S16384 : (⟨S_, .i32⟩ : BufTy).Contents (Elt F) → (⟨S16384, .i32⟩ : BufTy).Contents (Elt F)),
    binary main_v28 main_v29 main_v30 (cmpi .slt : (⟨S16384, .i32⟩ : BufTy).Contents (Elt F) → (⟨S16384, .i32⟩ : BufTy).Contents (Elt F) → (⟨S16384, .i1⟩ : BufTy).Contents (Elt F)),
    nullary main_c_5 (constantI S_ 32 100000#32),
    unary main_c_5 main_v31 (broadcastInDim S16384 ![] bcast_S_S16384 : (⟨S_, .i32⟩ : BufTy).Contents (Elt F) → (⟨S16384, .i32⟩ : BufTy).Contents (Elt F)),
    binary main_v28 main_v31 main_v32 (addi : (⟨S16384, .i32⟩ : BufTy).Contents (Elt F) → (⟨S16384, .i32⟩ : BufTy).Contents (Elt F) → (⟨S16384, .i32⟩ : BufTy).Contents (Elt F)),
    ternary main_v30 main_v32 main_v28 main_v33 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v33 main_v34 (broadcastInDim S16384x1 ![0] bcast_S16384_S16384x1_0 : (⟨S16384, .i32⟩ : BufTy).Contents (Elt F) → (⟨S16384x1, .i32⟩ : BufTy).Contents (Elt F)),
    binary main_v26 main_v34 main_v35 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField2 : List (Ref sig .tc) :=
  [main_v25, main_v26, main_v27, main_v28, main_c_4, main_v29, main_v30, main_c_5, main_v31, main_v32, main_v33, main_v34, main_v35]

def opsField3 : List (HloOp τ sig (Elt F)) :=
  [ unary main_v2 main_v36 ((extractStridedSlice S1x100000x16 ![3, 0, 0] · slices_S26x100000x16_S1x100000x16_3_0_0) : (⟨S26x100000x16, .f32⟩ : BufTy).Contents (Elt F) → (⟨S1x100000x16, .f32⟩ : BufTy).Contents (Elt F)),
    reshape main_v36 main_v37 rfl shapeCasts_S1x100000x16_S100000x16,
    unary main_arg1 main_v38 ((extractStridedSlice S16384x1 ![0, 3] · slices_S16384x39_S16384x1_0_3) : (⟨S16384x39, .i32⟩ : BufTy).Contents (Elt F) → (⟨S16384x1, .i32⟩ : BufTy).Contents (Elt F)),
    reshape main_v38 main_v39 rfl shapeCasts_S16384x1_S16384,
    nullary main_c_6 (constantI S_ 32 0#32),
    unary main_c_6 main_v40 (broadcastInDim S16384 ![] bcast_S_S16384 : (⟨S_, .i32⟩ : BufTy).Contents (Elt F) → (⟨S16384, .i32⟩ : BufTy).Contents (Elt F)),
    binary main_v39 main_v40 main_v41 (cmpi .slt : (⟨S16384, .i32⟩ : BufTy).Contents (Elt F) → (⟨S16384, .i32⟩ : BufTy).Contents (Elt F) → (⟨S16384, .i1⟩ : BufTy).Contents (Elt F)),
    nullary main_c_7 (constantI S_ 32 100000#32),
    unary main_c_7 main_v42 (broadcastInDim S16384 ![] bcast_S_S16384 : (⟨S_, .i32⟩ : BufTy).Contents (Elt F) → (⟨S16384, .i32⟩ : BufTy).Contents (Elt F)),
    binary main_v39 main_v42 main_v43 (addi : (⟨S16384, .i32⟩ : BufTy).Contents (Elt F) → (⟨S16384, .i32⟩ : BufTy).Contents (Elt F) → (⟨S16384, .i32⟩ : BufTy).Contents (Elt F)),
    ternary main_v41 main_v43 main_v39 main_v44 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v44 main_v45 (broadcastInDim S16384x1 ![0] bcast_S16384_S16384x1_0 : (⟨S16384, .i32⟩ : BufTy).Contents (Elt F) → (⟨S16384x1, .i32⟩ : BufTy).Contents (Elt F)),
    binary main_v37 main_v45 main_v46 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField3 : List (Ref sig .tc) :=
  [main_v36, main_v37, main_v38, main_v39, main_c_6, main_v40, main_v41, main_c_7, main_v42, main_v43, main_v44, main_v45, main_v46]

def opsField4 : List (HloOp τ sig (Elt F)) :=
  [ unary main_v2 main_v47 ((extractStridedSlice S1x100000x16 ![4, 0, 0] · slices_S26x100000x16_S1x100000x16_4_0_0) : (⟨S26x100000x16, .f32⟩ : BufTy).Contents (Elt F) → (⟨S1x100000x16, .f32⟩ : BufTy).Contents (Elt F)),
    reshape main_v47 main_v48 rfl shapeCasts_S1x100000x16_S100000x16,
    unary main_arg1 main_v49 ((extractStridedSlice S16384x1 ![0, 4] · slices_S16384x39_S16384x1_0_4) : (⟨S16384x39, .i32⟩ : BufTy).Contents (Elt F) → (⟨S16384x1, .i32⟩ : BufTy).Contents (Elt F)),
    reshape main_v49 main_v50 rfl shapeCasts_S16384x1_S16384,
    nullary main_c_8 (constantI S_ 32 0#32),
    unary main_c_8 main_v51 (broadcastInDim S16384 ![] bcast_S_S16384 : (⟨S_, .i32⟩ : BufTy).Contents (Elt F) → (⟨S16384, .i32⟩ : BufTy).Contents (Elt F)),
    binary main_v50 main_v51 main_v52 (cmpi .slt : (⟨S16384, .i32⟩ : BufTy).Contents (Elt F) → (⟨S16384, .i32⟩ : BufTy).Contents (Elt F) → (⟨S16384, .i1⟩ : BufTy).Contents (Elt F)),
    nullary main_c_9 (constantI S_ 32 100000#32),
    unary main_c_9 main_v53 (broadcastInDim S16384 ![] bcast_S_S16384 : (⟨S_, .i32⟩ : BufTy).Contents (Elt F) → (⟨S16384, .i32⟩ : BufTy).Contents (Elt F)),
    binary main_v50 main_v53 main_v54 (addi : (⟨S16384, .i32⟩ : BufTy).Contents (Elt F) → (⟨S16384, .i32⟩ : BufTy).Contents (Elt F) → (⟨S16384, .i32⟩ : BufTy).Contents (Elt F)),
    ternary main_v52 main_v54 main_v50 main_v55 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v55 main_v56 (broadcastInDim S16384x1 ![0] bcast_S16384_S16384x1_0 : (⟨S16384, .i32⟩ : BufTy).Contents (Elt F) → (⟨S16384x1, .i32⟩ : BufTy).Contents (Elt F)),
    binary main_v48 main_v56 main_v57 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField4 : List (Ref sig .tc) :=
  [main_v47, main_v48, main_v49, main_v50, main_c_8, main_v51, main_v52, main_c_9, main_v53, main_v54, main_v55, main_v56, main_v57]

def opsField5 : List (HloOp τ sig (Elt F)) :=
  [ unary main_v2 main_v58 ((extractStridedSlice S1x100000x16 ![5, 0, 0] · slices_S26x100000x16_S1x100000x16_5_0_0) : (⟨S26x100000x16, .f32⟩ : BufTy).Contents (Elt F) → (⟨S1x100000x16, .f32⟩ : BufTy).Contents (Elt F)),
    reshape main_v58 main_v59 rfl shapeCasts_S1x100000x16_S100000x16,
    unary main_arg1 main_v60 ((extractStridedSlice S16384x1 ![0, 5] · slices_S16384x39_S16384x1_0_5) : (⟨S16384x39, .i32⟩ : BufTy).Contents (Elt F) → (⟨S16384x1, .i32⟩ : BufTy).Contents (Elt F)),
    reshape main_v60 main_v61 rfl shapeCasts_S16384x1_S16384,
    nullary main_c_10 (constantI S_ 32 0#32),
    unary main_c_10 main_v62 (broadcastInDim S16384 ![] bcast_S_S16384 : (⟨S_, .i32⟩ : BufTy).Contents (Elt F) → (⟨S16384, .i32⟩ : BufTy).Contents (Elt F)),
    binary main_v61 main_v62 main_v63 (cmpi .slt : (⟨S16384, .i32⟩ : BufTy).Contents (Elt F) → (⟨S16384, .i32⟩ : BufTy).Contents (Elt F) → (⟨S16384, .i1⟩ : BufTy).Contents (Elt F)),
    nullary main_c_11 (constantI S_ 32 100000#32),
    unary main_c_11 main_v64 (broadcastInDim S16384 ![] bcast_S_S16384 : (⟨S_, .i32⟩ : BufTy).Contents (Elt F) → (⟨S16384, .i32⟩ : BufTy).Contents (Elt F)),
    binary main_v61 main_v64 main_v65 (addi : (⟨S16384, .i32⟩ : BufTy).Contents (Elt F) → (⟨S16384, .i32⟩ : BufTy).Contents (Elt F) → (⟨S16384, .i32⟩ : BufTy).Contents (Elt F)),
    ternary main_v63 main_v65 main_v61 main_v66 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v66 main_v67 (broadcastInDim S16384x1 ![0] bcast_S16384_S16384x1_0 : (⟨S16384, .i32⟩ : BufTy).Contents (Elt F) → (⟨S16384x1, .i32⟩ : BufTy).Contents (Elt F)),
    binary main_v59 main_v67 main_v68 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField5 : List (Ref sig .tc) :=
  [main_v58, main_v59, main_v60, main_v61, main_c_10, main_v62, main_v63, main_c_11, main_v64, main_v65, main_v66, main_v67, main_v68]

def opsField6 : List (HloOp τ sig (Elt F)) :=
  [ unary main_v2 main_v69 ((extractStridedSlice S1x100000x16 ![6, 0, 0] · slices_S26x100000x16_S1x100000x16_6_0_0) : (⟨S26x100000x16, .f32⟩ : BufTy).Contents (Elt F) → (⟨S1x100000x16, .f32⟩ : BufTy).Contents (Elt F)),
    reshape main_v69 main_v70 rfl shapeCasts_S1x100000x16_S100000x16,
    unary main_arg1 main_v71 ((extractStridedSlice S16384x1 ![0, 6] · slices_S16384x39_S16384x1_0_6) : (⟨S16384x39, .i32⟩ : BufTy).Contents (Elt F) → (⟨S16384x1, .i32⟩ : BufTy).Contents (Elt F)),
    reshape main_v71 main_v72 rfl shapeCasts_S16384x1_S16384,
    nullary main_c_12 (constantI S_ 32 0#32),
    unary main_c_12 main_v73 (broadcastInDim S16384 ![] bcast_S_S16384 : (⟨S_, .i32⟩ : BufTy).Contents (Elt F) → (⟨S16384, .i32⟩ : BufTy).Contents (Elt F)),
    binary main_v72 main_v73 main_v74 (cmpi .slt : (⟨S16384, .i32⟩ : BufTy).Contents (Elt F) → (⟨S16384, .i32⟩ : BufTy).Contents (Elt F) → (⟨S16384, .i1⟩ : BufTy).Contents (Elt F)),
    nullary main_c_13 (constantI S_ 32 100000#32),
    unary main_c_13 main_v75 (broadcastInDim S16384 ![] bcast_S_S16384 : (⟨S_, .i32⟩ : BufTy).Contents (Elt F) → (⟨S16384, .i32⟩ : BufTy).Contents (Elt F)),
    binary main_v72 main_v75 main_v76 (addi : (⟨S16384, .i32⟩ : BufTy).Contents (Elt F) → (⟨S16384, .i32⟩ : BufTy).Contents (Elt F) → (⟨S16384, .i32⟩ : BufTy).Contents (Elt F)),
    ternary main_v74 main_v76 main_v72 main_v77 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v77 main_v78 (broadcastInDim S16384x1 ![0] bcast_S16384_S16384x1_0 : (⟨S16384, .i32⟩ : BufTy).Contents (Elt F) → (⟨S16384x1, .i32⟩ : BufTy).Contents (Elt F)),
    binary main_v70 main_v78 main_v79 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField6 : List (Ref sig .tc) :=
  [main_v69, main_v70, main_v71, main_v72, main_c_12, main_v73, main_v74, main_c_13, main_v75, main_v76, main_v77, main_v78, main_v79]

def opsField7 : List (HloOp τ sig (Elt F)) :=
  [ unary main_v2 main_v80 ((extractStridedSlice S1x100000x16 ![7, 0, 0] · slices_S26x100000x16_S1x100000x16_7_0_0) : (⟨S26x100000x16, .f32⟩ : BufTy).Contents (Elt F) → (⟨S1x100000x16, .f32⟩ : BufTy).Contents (Elt F)),
    reshape main_v80 main_v81 rfl shapeCasts_S1x100000x16_S100000x16,
    unary main_arg1 main_v82 ((extractStridedSlice S16384x1 ![0, 7] · slices_S16384x39_S16384x1_0_7) : (⟨S16384x39, .i32⟩ : BufTy).Contents (Elt F) → (⟨S16384x1, .i32⟩ : BufTy).Contents (Elt F)),
    reshape main_v82 main_v83 rfl shapeCasts_S16384x1_S16384,
    nullary main_c_14 (constantI S_ 32 0#32),
    unary main_c_14 main_v84 (broadcastInDim S16384 ![] bcast_S_S16384 : (⟨S_, .i32⟩ : BufTy).Contents (Elt F) → (⟨S16384, .i32⟩ : BufTy).Contents (Elt F)),
    binary main_v83 main_v84 main_v85 (cmpi .slt : (⟨S16384, .i32⟩ : BufTy).Contents (Elt F) → (⟨S16384, .i32⟩ : BufTy).Contents (Elt F) → (⟨S16384, .i1⟩ : BufTy).Contents (Elt F)),
    nullary main_c_15 (constantI S_ 32 100000#32),
    unary main_c_15 main_v86 (broadcastInDim S16384 ![] bcast_S_S16384 : (⟨S_, .i32⟩ : BufTy).Contents (Elt F) → (⟨S16384, .i32⟩ : BufTy).Contents (Elt F)),
    binary main_v83 main_v86 main_v87 (addi : (⟨S16384, .i32⟩ : BufTy).Contents (Elt F) → (⟨S16384, .i32⟩ : BufTy).Contents (Elt F) → (⟨S16384, .i32⟩ : BufTy).Contents (Elt F)),
    ternary main_v85 main_v87 main_v83 main_v88 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v88 main_v89 (broadcastInDim S16384x1 ![0] bcast_S16384_S16384x1_0 : (⟨S16384, .i32⟩ : BufTy).Contents (Elt F) → (⟨S16384x1, .i32⟩ : BufTy).Contents (Elt F)),
    binary main_v81 main_v89 main_v90 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField7 : List (Ref sig .tc) :=
  [main_v80, main_v81, main_v82, main_v83, main_c_14, main_v84, main_v85, main_c_15, main_v86, main_v87, main_v88, main_v89, main_v90]

def opsField8 : List (HloOp τ sig (Elt F)) :=
  [ unary main_v2 main_v91 ((extractStridedSlice S1x100000x16 ![8, 0, 0] · slices_S26x100000x16_S1x100000x16_8_0_0) : (⟨S26x100000x16, .f32⟩ : BufTy).Contents (Elt F) → (⟨S1x100000x16, .f32⟩ : BufTy).Contents (Elt F)),
    reshape main_v91 main_v92 rfl shapeCasts_S1x100000x16_S100000x16,
    unary main_arg1 main_v93 ((extractStridedSlice S16384x1 ![0, 8] · slices_S16384x39_S16384x1_0_8) : (⟨S16384x39, .i32⟩ : BufTy).Contents (Elt F) → (⟨S16384x1, .i32⟩ : BufTy).Contents (Elt F)),
    reshape main_v93 main_v94 rfl shapeCasts_S16384x1_S16384,
    nullary main_c_16 (constantI S_ 32 0#32),
    unary main_c_16 main_v95 (broadcastInDim S16384 ![] bcast_S_S16384 : (⟨S_, .i32⟩ : BufTy).Contents (Elt F) → (⟨S16384, .i32⟩ : BufTy).Contents (Elt F)),
    binary main_v94 main_v95 main_v96 (cmpi .slt : (⟨S16384, .i32⟩ : BufTy).Contents (Elt F) → (⟨S16384, .i32⟩ : BufTy).Contents (Elt F) → (⟨S16384, .i1⟩ : BufTy).Contents (Elt F)),
    nullary main_c_17 (constantI S_ 32 100000#32),
    unary main_c_17 main_v97 (broadcastInDim S16384 ![] bcast_S_S16384 : (⟨S_, .i32⟩ : BufTy).Contents (Elt F) → (⟨S16384, .i32⟩ : BufTy).Contents (Elt F)),
    binary main_v94 main_v97 main_v98 (addi : (⟨S16384, .i32⟩ : BufTy).Contents (Elt F) → (⟨S16384, .i32⟩ : BufTy).Contents (Elt F) → (⟨S16384, .i32⟩ : BufTy).Contents (Elt F)),
    ternary main_v96 main_v98 main_v94 main_v99 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v99 main_v100 (broadcastInDim S16384x1 ![0] bcast_S16384_S16384x1_0 : (⟨S16384, .i32⟩ : BufTy).Contents (Elt F) → (⟨S16384x1, .i32⟩ : BufTy).Contents (Elt F)),
    binary main_v92 main_v100 main_v101 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField8 : List (Ref sig .tc) :=
  [main_v91, main_v92, main_v93, main_v94, main_c_16, main_v95, main_v96, main_c_17, main_v97, main_v98, main_v99, main_v100, main_v101]

def opsField9 : List (HloOp τ sig (Elt F)) :=
  [ unary main_v2 main_v102 ((extractStridedSlice S1x100000x16 ![9, 0, 0] · slices_S26x100000x16_S1x100000x16_9_0_0) : (⟨S26x100000x16, .f32⟩ : BufTy).Contents (Elt F) → (⟨S1x100000x16, .f32⟩ : BufTy).Contents (Elt F)),
    reshape main_v102 main_v103 rfl shapeCasts_S1x100000x16_S100000x16,
    unary main_arg1 main_v104 ((extractStridedSlice S16384x1 ![0, 9] · slices_S16384x39_S16384x1_0_9) : (⟨S16384x39, .i32⟩ : BufTy).Contents (Elt F) → (⟨S16384x1, .i32⟩ : BufTy).Contents (Elt F)),
    reshape main_v104 main_v105 rfl shapeCasts_S16384x1_S16384,
    nullary main_c_18 (constantI S_ 32 0#32),
    unary main_c_18 main_v106 (broadcastInDim S16384 ![] bcast_S_S16384 : (⟨S_, .i32⟩ : BufTy).Contents (Elt F) → (⟨S16384, .i32⟩ : BufTy).Contents (Elt F)),
    binary main_v105 main_v106 main_v107 (cmpi .slt : (⟨S16384, .i32⟩ : BufTy).Contents (Elt F) → (⟨S16384, .i32⟩ : BufTy).Contents (Elt F) → (⟨S16384, .i1⟩ : BufTy).Contents (Elt F)),
    nullary main_c_19 (constantI S_ 32 100000#32),
    unary main_c_19 main_v108 (broadcastInDim S16384 ![] bcast_S_S16384 : (⟨S_, .i32⟩ : BufTy).Contents (Elt F) → (⟨S16384, .i32⟩ : BufTy).Contents (Elt F)),
    binary main_v105 main_v108 main_v109 (addi : (⟨S16384, .i32⟩ : BufTy).Contents (Elt F) → (⟨S16384, .i32⟩ : BufTy).Contents (Elt F) → (⟨S16384, .i32⟩ : BufTy).Contents (Elt F)),
    ternary main_v107 main_v109 main_v105 main_v110 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v110 main_v111 (broadcastInDim S16384x1 ![0] bcast_S16384_S16384x1_0 : (⟨S16384, .i32⟩ : BufTy).Contents (Elt F) → (⟨S16384x1, .i32⟩ : BufTy).Contents (Elt F)),
    binary main_v103 main_v111 main_v112 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField9 : List (Ref sig .tc) :=
  [main_v102, main_v103, main_v104, main_v105, main_c_18, main_v106, main_v107, main_c_19, main_v108, main_v109, main_v110, main_v111, main_v112]

def opsField10 : List (HloOp τ sig (Elt F)) :=
  [ unary main_v2 main_v113 ((extractStridedSlice S1x100000x16 ![10, 0, 0] · slices_S26x100000x16_S1x100000x16_10_0_0) : (⟨S26x100000x16, .f32⟩ : BufTy).Contents (Elt F) → (⟨S1x100000x16, .f32⟩ : BufTy).Contents (Elt F)),
    reshape main_v113 main_v114 rfl shapeCasts_S1x100000x16_S100000x16,
    unary main_arg1 main_v115 ((extractStridedSlice S16384x1 ![0, 10] · slices_S16384x39_S16384x1_0_10) : (⟨S16384x39, .i32⟩ : BufTy).Contents (Elt F) → (⟨S16384x1, .i32⟩ : BufTy).Contents (Elt F)),
    reshape main_v115 main_v116 rfl shapeCasts_S16384x1_S16384,
    nullary main_c_20 (constantI S_ 32 0#32),
    unary main_c_20 main_v117 (broadcastInDim S16384 ![] bcast_S_S16384 : (⟨S_, .i32⟩ : BufTy).Contents (Elt F) → (⟨S16384, .i32⟩ : BufTy).Contents (Elt F)),
    binary main_v116 main_v117 main_v118 (cmpi .slt : (⟨S16384, .i32⟩ : BufTy).Contents (Elt F) → (⟨S16384, .i32⟩ : BufTy).Contents (Elt F) → (⟨S16384, .i1⟩ : BufTy).Contents (Elt F)),
    nullary main_c_21 (constantI S_ 32 100000#32),
    unary main_c_21 main_v119 (broadcastInDim S16384 ![] bcast_S_S16384 : (⟨S_, .i32⟩ : BufTy).Contents (Elt F) → (⟨S16384, .i32⟩ : BufTy).Contents (Elt F)),
    binary main_v116 main_v119 main_v120 (addi : (⟨S16384, .i32⟩ : BufTy).Contents (Elt F) → (⟨S16384, .i32⟩ : BufTy).Contents (Elt F) → (⟨S16384, .i32⟩ : BufTy).Contents (Elt F)),
    ternary main_v118 main_v120 main_v116 main_v121 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v121 main_v122 (broadcastInDim S16384x1 ![0] bcast_S16384_S16384x1_0 : (⟨S16384, .i32⟩ : BufTy).Contents (Elt F) → (⟨S16384x1, .i32⟩ : BufTy).Contents (Elt F)),
    binary main_v114 main_v122 main_v123 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField10 : List (Ref sig .tc) :=
  [main_v113, main_v114, main_v115, main_v116, main_c_20, main_v117, main_v118, main_c_21, main_v119, main_v120, main_v121, main_v122, main_v123]

def opsField11 : List (HloOp τ sig (Elt F)) :=
  [ unary main_v2 main_v124 ((extractStridedSlice S1x100000x16 ![11, 0, 0] · slices_S26x100000x16_S1x100000x16_11_0_0) : (⟨S26x100000x16, .f32⟩ : BufTy).Contents (Elt F) → (⟨S1x100000x16, .f32⟩ : BufTy).Contents (Elt F)),
    reshape main_v124 main_v125 rfl shapeCasts_S1x100000x16_S100000x16,
    unary main_arg1 main_v126 ((extractStridedSlice S16384x1 ![0, 11] · slices_S16384x39_S16384x1_0_11) : (⟨S16384x39, .i32⟩ : BufTy).Contents (Elt F) → (⟨S16384x1, .i32⟩ : BufTy).Contents (Elt F)),
    reshape main_v126 main_v127 rfl shapeCasts_S16384x1_S16384,
    nullary main_c_22 (constantI S_ 32 0#32),
    unary main_c_22 main_v128 (broadcastInDim S16384 ![] bcast_S_S16384 : (⟨S_, .i32⟩ : BufTy).Contents (Elt F) → (⟨S16384, .i32⟩ : BufTy).Contents (Elt F)),
    binary main_v127 main_v128 main_v129 (cmpi .slt : (⟨S16384, .i32⟩ : BufTy).Contents (Elt F) → (⟨S16384, .i32⟩ : BufTy).Contents (Elt F) → (⟨S16384, .i1⟩ : BufTy).Contents (Elt F)),
    nullary main_c_23 (constantI S_ 32 100000#32),
    unary main_c_23 main_v130 (broadcastInDim S16384 ![] bcast_S_S16384 : (⟨S_, .i32⟩ : BufTy).Contents (Elt F) → (⟨S16384, .i32⟩ : BufTy).Contents (Elt F)),
    binary main_v127 main_v130 main_v131 (addi : (⟨S16384, .i32⟩ : BufTy).Contents (Elt F) → (⟨S16384, .i32⟩ : BufTy).Contents (Elt F) → (⟨S16384, .i32⟩ : BufTy).Contents (Elt F)),
    ternary main_v129 main_v131 main_v127 main_v132 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v132 main_v133 (broadcastInDim S16384x1 ![0] bcast_S16384_S16384x1_0 : (⟨S16384, .i32⟩ : BufTy).Contents (Elt F) → (⟨S16384x1, .i32⟩ : BufTy).Contents (Elt F)),
    binary main_v125 main_v133 main_v134 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField11 : List (Ref sig .tc) :=
  [main_v124, main_v125, main_v126, main_v127, main_c_22, main_v128, main_v129, main_c_23, main_v130, main_v131, main_v132, main_v133, main_v134]

def opsField12 : List (HloOp τ sig (Elt F)) :=
  [ unary main_v2 main_v135 ((extractStridedSlice S1x100000x16 ![12, 0, 0] · slices_S26x100000x16_S1x100000x16_12_0_0) : (⟨S26x100000x16, .f32⟩ : BufTy).Contents (Elt F) → (⟨S1x100000x16, .f32⟩ : BufTy).Contents (Elt F)),
    reshape main_v135 main_v136 rfl shapeCasts_S1x100000x16_S100000x16,
    unary main_arg1 main_v137 ((extractStridedSlice S16384x1 ![0, 12] · slices_S16384x39_S16384x1_0_12) : (⟨S16384x39, .i32⟩ : BufTy).Contents (Elt F) → (⟨S16384x1, .i32⟩ : BufTy).Contents (Elt F)),
    reshape main_v137 main_v138 rfl shapeCasts_S16384x1_S16384,
    nullary main_c_24 (constantI S_ 32 0#32),
    unary main_c_24 main_v139 (broadcastInDim S16384 ![] bcast_S_S16384 : (⟨S_, .i32⟩ : BufTy).Contents (Elt F) → (⟨S16384, .i32⟩ : BufTy).Contents (Elt F)),
    binary main_v138 main_v139 main_v140 (cmpi .slt : (⟨S16384, .i32⟩ : BufTy).Contents (Elt F) → (⟨S16384, .i32⟩ : BufTy).Contents (Elt F) → (⟨S16384, .i1⟩ : BufTy).Contents (Elt F)),
    nullary main_c_25 (constantI S_ 32 100000#32),
    unary main_c_25 main_v141 (broadcastInDim S16384 ![] bcast_S_S16384 : (⟨S_, .i32⟩ : BufTy).Contents (Elt F) → (⟨S16384, .i32⟩ : BufTy).Contents (Elt F)),
    binary main_v138 main_v141 main_v142 (addi : (⟨S16384, .i32⟩ : BufTy).Contents (Elt F) → (⟨S16384, .i32⟩ : BufTy).Contents (Elt F) → (⟨S16384, .i32⟩ : BufTy).Contents (Elt F)),
    ternary main_v140 main_v142 main_v138 main_v143 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v143 main_v144 (broadcastInDim S16384x1 ![0] bcast_S16384_S16384x1_0 : (⟨S16384, .i32⟩ : BufTy).Contents (Elt F) → (⟨S16384x1, .i32⟩ : BufTy).Contents (Elt F)),
    binary main_v136 main_v144 main_v145 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField12 : List (Ref sig .tc) :=
  [main_v135, main_v136, main_v137, main_v138, main_c_24, main_v139, main_v140, main_c_25, main_v141, main_v142, main_v143, main_v144, main_v145]

def opsField13 : List (HloOp τ sig (Elt F)) :=
  [ unary main_v2 main_v146 ((extractStridedSlice S1x100000x16 ![13, 0, 0] · slices_S26x100000x16_S1x100000x16_13_0_0) : (⟨S26x100000x16, .f32⟩ : BufTy).Contents (Elt F) → (⟨S1x100000x16, .f32⟩ : BufTy).Contents (Elt F)),
    reshape main_v146 main_v147 rfl shapeCasts_S1x100000x16_S100000x16,
    unary main_arg1 main_v148 ((extractStridedSlice S16384x1 ![0, 13] · slices_S16384x39_S16384x1_0_13) : (⟨S16384x39, .i32⟩ : BufTy).Contents (Elt F) → (⟨S16384x1, .i32⟩ : BufTy).Contents (Elt F)),
    reshape main_v148 main_v149 rfl shapeCasts_S16384x1_S16384,
    nullary main_c_26 (constantI S_ 32 0#32),
    unary main_c_26 main_v150 (broadcastInDim S16384 ![] bcast_S_S16384 : (⟨S_, .i32⟩ : BufTy).Contents (Elt F) → (⟨S16384, .i32⟩ : BufTy).Contents (Elt F)),
    binary main_v149 main_v150 main_v151 (cmpi .slt : (⟨S16384, .i32⟩ : BufTy).Contents (Elt F) → (⟨S16384, .i32⟩ : BufTy).Contents (Elt F) → (⟨S16384, .i1⟩ : BufTy).Contents (Elt F)),
    nullary main_c_27 (constantI S_ 32 100000#32),
    unary main_c_27 main_v152 (broadcastInDim S16384 ![] bcast_S_S16384 : (⟨S_, .i32⟩ : BufTy).Contents (Elt F) → (⟨S16384, .i32⟩ : BufTy).Contents (Elt F)),
    binary main_v149 main_v152 main_v153 (addi : (⟨S16384, .i32⟩ : BufTy).Contents (Elt F) → (⟨S16384, .i32⟩ : BufTy).Contents (Elt F) → (⟨S16384, .i32⟩ : BufTy).Contents (Elt F)),
    ternary main_v151 main_v153 main_v149 main_v154 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v154 main_v155 (broadcastInDim S16384x1 ![0] bcast_S16384_S16384x1_0 : (⟨S16384, .i32⟩ : BufTy).Contents (Elt F) → (⟨S16384x1, .i32⟩ : BufTy).Contents (Elt F)),
    binary main_v147 main_v155 main_v156 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField13 : List (Ref sig .tc) :=
  [main_v146, main_v147, main_v148, main_v149, main_c_26, main_v150, main_v151, main_c_27, main_v152, main_v153, main_v154, main_v155, main_v156]

def opsField14 : List (HloOp τ sig (Elt F)) :=
  [ unary main_v2 main_v157 ((extractStridedSlice S1x100000x16 ![14, 0, 0] · slices_S26x100000x16_S1x100000x16_14_0_0) : (⟨S26x100000x16, .f32⟩ : BufTy).Contents (Elt F) → (⟨S1x100000x16, .f32⟩ : BufTy).Contents (Elt F)),
    reshape main_v157 main_v158 rfl shapeCasts_S1x100000x16_S100000x16,
    unary main_arg1 main_v159 ((extractStridedSlice S16384x1 ![0, 14] · slices_S16384x39_S16384x1_0_14) : (⟨S16384x39, .i32⟩ : BufTy).Contents (Elt F) → (⟨S16384x1, .i32⟩ : BufTy).Contents (Elt F)),
    reshape main_v159 main_v160 rfl shapeCasts_S16384x1_S16384,
    nullary main_c_28 (constantI S_ 32 0#32),
    unary main_c_28 main_v161 (broadcastInDim S16384 ![] bcast_S_S16384 : (⟨S_, .i32⟩ : BufTy).Contents (Elt F) → (⟨S16384, .i32⟩ : BufTy).Contents (Elt F)),
    binary main_v160 main_v161 main_v162 (cmpi .slt : (⟨S16384, .i32⟩ : BufTy).Contents (Elt F) → (⟨S16384, .i32⟩ : BufTy).Contents (Elt F) → (⟨S16384, .i1⟩ : BufTy).Contents (Elt F)),
    nullary main_c_29 (constantI S_ 32 100000#32),
    unary main_c_29 main_v163 (broadcastInDim S16384 ![] bcast_S_S16384 : (⟨S_, .i32⟩ : BufTy).Contents (Elt F) → (⟨S16384, .i32⟩ : BufTy).Contents (Elt F)),
    binary main_v160 main_v163 main_v164 (addi : (⟨S16384, .i32⟩ : BufTy).Contents (Elt F) → (⟨S16384, .i32⟩ : BufTy).Contents (Elt F) → (⟨S16384, .i32⟩ : BufTy).Contents (Elt F)),
    ternary main_v162 main_v164 main_v160 main_v165 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v165 main_v166 (broadcastInDim S16384x1 ![0] bcast_S16384_S16384x1_0 : (⟨S16384, .i32⟩ : BufTy).Contents (Elt F) → (⟨S16384x1, .i32⟩ : BufTy).Contents (Elt F)),
    binary main_v158 main_v166 main_v167 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField14 : List (Ref sig .tc) :=
  [main_v157, main_v158, main_v159, main_v160, main_c_28, main_v161, main_v162, main_c_29, main_v163, main_v164, main_v165, main_v166, main_v167]

def opsField15 : List (HloOp τ sig (Elt F)) :=
  [ unary main_v2 main_v168 ((extractStridedSlice S1x100000x16 ![15, 0, 0] · slices_S26x100000x16_S1x100000x16_15_0_0) : (⟨S26x100000x16, .f32⟩ : BufTy).Contents (Elt F) → (⟨S1x100000x16, .f32⟩ : BufTy).Contents (Elt F)),
    reshape main_v168 main_v169 rfl shapeCasts_S1x100000x16_S100000x16,
    unary main_arg1 main_v170 ((extractStridedSlice S16384x1 ![0, 15] · slices_S16384x39_S16384x1_0_15) : (⟨S16384x39, .i32⟩ : BufTy).Contents (Elt F) → (⟨S16384x1, .i32⟩ : BufTy).Contents (Elt F)),
    reshape main_v170 main_v171 rfl shapeCasts_S16384x1_S16384,
    nullary main_c_30 (constantI S_ 32 0#32),
    unary main_c_30 main_v172 (broadcastInDim S16384 ![] bcast_S_S16384 : (⟨S_, .i32⟩ : BufTy).Contents (Elt F) → (⟨S16384, .i32⟩ : BufTy).Contents (Elt F)),
    binary main_v171 main_v172 main_v173 (cmpi .slt : (⟨S16384, .i32⟩ : BufTy).Contents (Elt F) → (⟨S16384, .i32⟩ : BufTy).Contents (Elt F) → (⟨S16384, .i1⟩ : BufTy).Contents (Elt F)),
    nullary main_c_31 (constantI S_ 32 100000#32),
    unary main_c_31 main_v174 (broadcastInDim S16384 ![] bcast_S_S16384 : (⟨S_, .i32⟩ : BufTy).Contents (Elt F) → (⟨S16384, .i32⟩ : BufTy).Contents (Elt F)),
    binary main_v171 main_v174 main_v175 (addi : (⟨S16384, .i32⟩ : BufTy).Contents (Elt F) → (⟨S16384, .i32⟩ : BufTy).Contents (Elt F) → (⟨S16384, .i32⟩ : BufTy).Contents (Elt F)),
    ternary main_v173 main_v175 main_v171 main_v176 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v176 main_v177 (broadcastInDim S16384x1 ![0] bcast_S16384_S16384x1_0 : (⟨S16384, .i32⟩ : BufTy).Contents (Elt F) → (⟨S16384x1, .i32⟩ : BufTy).Contents (Elt F)),
    binary main_v169 main_v177 main_v178 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField15 : List (Ref sig .tc) :=
  [main_v168, main_v169, main_v170, main_v171, main_c_30, main_v172, main_v173, main_c_31, main_v174, main_v175, main_v176, main_v177, main_v178]

def opsField16 : List (HloOp τ sig (Elt F)) :=
  [ unary main_v2 main_v179 ((extractStridedSlice S1x100000x16 ![16, 0, 0] · slices_S26x100000x16_S1x100000x16_16_0_0) : (⟨S26x100000x16, .f32⟩ : BufTy).Contents (Elt F) → (⟨S1x100000x16, .f32⟩ : BufTy).Contents (Elt F)),
    reshape main_v179 main_v180 rfl shapeCasts_S1x100000x16_S100000x16,
    unary main_arg1 main_v181 ((extractStridedSlice S16384x1 ![0, 16] · slices_S16384x39_S16384x1_0_16) : (⟨S16384x39, .i32⟩ : BufTy).Contents (Elt F) → (⟨S16384x1, .i32⟩ : BufTy).Contents (Elt F)),
    reshape main_v181 main_v182 rfl shapeCasts_S16384x1_S16384,
    nullary main_c_32 (constantI S_ 32 0#32),
    unary main_c_32 main_v183 (broadcastInDim S16384 ![] bcast_S_S16384 : (⟨S_, .i32⟩ : BufTy).Contents (Elt F) → (⟨S16384, .i32⟩ : BufTy).Contents (Elt F)),
    binary main_v182 main_v183 main_v184 (cmpi .slt : (⟨S16384, .i32⟩ : BufTy).Contents (Elt F) → (⟨S16384, .i32⟩ : BufTy).Contents (Elt F) → (⟨S16384, .i1⟩ : BufTy).Contents (Elt F)),
    nullary main_c_33 (constantI S_ 32 100000#32),
    unary main_c_33 main_v185 (broadcastInDim S16384 ![] bcast_S_S16384 : (⟨S_, .i32⟩ : BufTy).Contents (Elt F) → (⟨S16384, .i32⟩ : BufTy).Contents (Elt F)),
    binary main_v182 main_v185 main_v186 (addi : (⟨S16384, .i32⟩ : BufTy).Contents (Elt F) → (⟨S16384, .i32⟩ : BufTy).Contents (Elt F) → (⟨S16384, .i32⟩ : BufTy).Contents (Elt F)),
    ternary main_v184 main_v186 main_v182 main_v187 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v187 main_v188 (broadcastInDim S16384x1 ![0] bcast_S16384_S16384x1_0 : (⟨S16384, .i32⟩ : BufTy).Contents (Elt F) → (⟨S16384x1, .i32⟩ : BufTy).Contents (Elt F)),
    binary main_v180 main_v188 main_v189 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField16 : List (Ref sig .tc) :=
  [main_v179, main_v180, main_v181, main_v182, main_c_32, main_v183, main_v184, main_c_33, main_v185, main_v186, main_v187, main_v188, main_v189]

def opsField17 : List (HloOp τ sig (Elt F)) :=
  [ unary main_v2 main_v190 ((extractStridedSlice S1x100000x16 ![17, 0, 0] · slices_S26x100000x16_S1x100000x16_17_0_0) : (⟨S26x100000x16, .f32⟩ : BufTy).Contents (Elt F) → (⟨S1x100000x16, .f32⟩ : BufTy).Contents (Elt F)),
    reshape main_v190 main_v191 rfl shapeCasts_S1x100000x16_S100000x16,
    unary main_arg1 main_v192 ((extractStridedSlice S16384x1 ![0, 17] · slices_S16384x39_S16384x1_0_17) : (⟨S16384x39, .i32⟩ : BufTy).Contents (Elt F) → (⟨S16384x1, .i32⟩ : BufTy).Contents (Elt F)),
    reshape main_v192 main_v193 rfl shapeCasts_S16384x1_S16384,
    nullary main_c_34 (constantI S_ 32 0#32),
    unary main_c_34 main_v194 (broadcastInDim S16384 ![] bcast_S_S16384 : (⟨S_, .i32⟩ : BufTy).Contents (Elt F) → (⟨S16384, .i32⟩ : BufTy).Contents (Elt F)),
    binary main_v193 main_v194 main_v195 (cmpi .slt : (⟨S16384, .i32⟩ : BufTy).Contents (Elt F) → (⟨S16384, .i32⟩ : BufTy).Contents (Elt F) → (⟨S16384, .i1⟩ : BufTy).Contents (Elt F)),
    nullary main_c_35 (constantI S_ 32 100000#32),
    unary main_c_35 main_v196 (broadcastInDim S16384 ![] bcast_S_S16384 : (⟨S_, .i32⟩ : BufTy).Contents (Elt F) → (⟨S16384, .i32⟩ : BufTy).Contents (Elt F)),
    binary main_v193 main_v196 main_v197 (addi : (⟨S16384, .i32⟩ : BufTy).Contents (Elt F) → (⟨S16384, .i32⟩ : BufTy).Contents (Elt F) → (⟨S16384, .i32⟩ : BufTy).Contents (Elt F)),
    ternary main_v195 main_v197 main_v193 main_v198 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v198 main_v199 (broadcastInDim S16384x1 ![0] bcast_S16384_S16384x1_0 : (⟨S16384, .i32⟩ : BufTy).Contents (Elt F) → (⟨S16384x1, .i32⟩ : BufTy).Contents (Elt F)),
    binary main_v191 main_v199 main_v200 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField17 : List (Ref sig .tc) :=
  [main_v190, main_v191, main_v192, main_v193, main_c_34, main_v194, main_v195, main_c_35, main_v196, main_v197, main_v198, main_v199, main_v200]

def opsField18 : List (HloOp τ sig (Elt F)) :=
  [ unary main_v2 main_v201 ((extractStridedSlice S1x100000x16 ![18, 0, 0] · slices_S26x100000x16_S1x100000x16_18_0_0) : (⟨S26x100000x16, .f32⟩ : BufTy).Contents (Elt F) → (⟨S1x100000x16, .f32⟩ : BufTy).Contents (Elt F)),
    reshape main_v201 main_v202 rfl shapeCasts_S1x100000x16_S100000x16,
    unary main_arg1 main_v203 ((extractStridedSlice S16384x1 ![0, 18] · slices_S16384x39_S16384x1_0_18) : (⟨S16384x39, .i32⟩ : BufTy).Contents (Elt F) → (⟨S16384x1, .i32⟩ : BufTy).Contents (Elt F)),
    reshape main_v203 main_v204 rfl shapeCasts_S16384x1_S16384,
    nullary main_c_36 (constantI S_ 32 0#32),
    unary main_c_36 main_v205 (broadcastInDim S16384 ![] bcast_S_S16384 : (⟨S_, .i32⟩ : BufTy).Contents (Elt F) → (⟨S16384, .i32⟩ : BufTy).Contents (Elt F)),
    binary main_v204 main_v205 main_v206 (cmpi .slt : (⟨S16384, .i32⟩ : BufTy).Contents (Elt F) → (⟨S16384, .i32⟩ : BufTy).Contents (Elt F) → (⟨S16384, .i1⟩ : BufTy).Contents (Elt F)),
    nullary main_c_37 (constantI S_ 32 100000#32),
    unary main_c_37 main_v207 (broadcastInDim S16384 ![] bcast_S_S16384 : (⟨S_, .i32⟩ : BufTy).Contents (Elt F) → (⟨S16384, .i32⟩ : BufTy).Contents (Elt F)),
    binary main_v204 main_v207 main_v208 (addi : (⟨S16384, .i32⟩ : BufTy).Contents (Elt F) → (⟨S16384, .i32⟩ : BufTy).Contents (Elt F) → (⟨S16384, .i32⟩ : BufTy).Contents (Elt F)),
    ternary main_v206 main_v208 main_v204 main_v209 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v209 main_v210 (broadcastInDim S16384x1 ![0] bcast_S16384_S16384x1_0 : (⟨S16384, .i32⟩ : BufTy).Contents (Elt F) → (⟨S16384x1, .i32⟩ : BufTy).Contents (Elt F)),
    binary main_v202 main_v210 main_v211 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField18 : List (Ref sig .tc) :=
  [main_v201, main_v202, main_v203, main_v204, main_c_36, main_v205, main_v206, main_c_37, main_v207, main_v208, main_v209, main_v210, main_v211]

def opsField19 : List (HloOp τ sig (Elt F)) :=
  [ unary main_v2 main_v212 ((extractStridedSlice S1x100000x16 ![19, 0, 0] · slices_S26x100000x16_S1x100000x16_19_0_0) : (⟨S26x100000x16, .f32⟩ : BufTy).Contents (Elt F) → (⟨S1x100000x16, .f32⟩ : BufTy).Contents (Elt F)),
    reshape main_v212 main_v213 rfl shapeCasts_S1x100000x16_S100000x16,
    unary main_arg1 main_v214 ((extractStridedSlice S16384x1 ![0, 19] · slices_S16384x39_S16384x1_0_19) : (⟨S16384x39, .i32⟩ : BufTy).Contents (Elt F) → (⟨S16384x1, .i32⟩ : BufTy).Contents (Elt F)),
    reshape main_v214 main_v215 rfl shapeCasts_S16384x1_S16384,
    nullary main_c_38 (constantI S_ 32 0#32),
    unary main_c_38 main_v216 (broadcastInDim S16384 ![] bcast_S_S16384 : (⟨S_, .i32⟩ : BufTy).Contents (Elt F) → (⟨S16384, .i32⟩ : BufTy).Contents (Elt F)),
    binary main_v215 main_v216 main_v217 (cmpi .slt : (⟨S16384, .i32⟩ : BufTy).Contents (Elt F) → (⟨S16384, .i32⟩ : BufTy).Contents (Elt F) → (⟨S16384, .i1⟩ : BufTy).Contents (Elt F)),
    nullary main_c_39 (constantI S_ 32 100000#32),
    unary main_c_39 main_v218 (broadcastInDim S16384 ![] bcast_S_S16384 : (⟨S_, .i32⟩ : BufTy).Contents (Elt F) → (⟨S16384, .i32⟩ : BufTy).Contents (Elt F)),
    binary main_v215 main_v218 main_v219 (addi : (⟨S16384, .i32⟩ : BufTy).Contents (Elt F) → (⟨S16384, .i32⟩ : BufTy).Contents (Elt F) → (⟨S16384, .i32⟩ : BufTy).Contents (Elt F)),
    ternary main_v217 main_v219 main_v215 main_v220 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v220 main_v221 (broadcastInDim S16384x1 ![0] bcast_S16384_S16384x1_0 : (⟨S16384, .i32⟩ : BufTy).Contents (Elt F) → (⟨S16384x1, .i32⟩ : BufTy).Contents (Elt F)),
    binary main_v213 main_v221 main_v222 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField19 : List (Ref sig .tc) :=
  [main_v212, main_v213, main_v214, main_v215, main_c_38, main_v216, main_v217, main_c_39, main_v218, main_v219, main_v220, main_v221, main_v222]

def opsField20 : List (HloOp τ sig (Elt F)) :=
  [ unary main_v2 main_v223 ((extractStridedSlice S1x100000x16 ![20, 0, 0] · slices_S26x100000x16_S1x100000x16_20_0_0) : (⟨S26x100000x16, .f32⟩ : BufTy).Contents (Elt F) → (⟨S1x100000x16, .f32⟩ : BufTy).Contents (Elt F)),
    reshape main_v223 main_v224 rfl shapeCasts_S1x100000x16_S100000x16,
    unary main_arg1 main_v225 ((extractStridedSlice S16384x1 ![0, 20] · slices_S16384x39_S16384x1_0_20) : (⟨S16384x39, .i32⟩ : BufTy).Contents (Elt F) → (⟨S16384x1, .i32⟩ : BufTy).Contents (Elt F)),
    reshape main_v225 main_v226 rfl shapeCasts_S16384x1_S16384,
    nullary main_c_40 (constantI S_ 32 0#32),
    unary main_c_40 main_v227 (broadcastInDim S16384 ![] bcast_S_S16384 : (⟨S_, .i32⟩ : BufTy).Contents (Elt F) → (⟨S16384, .i32⟩ : BufTy).Contents (Elt F)),
    binary main_v226 main_v227 main_v228 (cmpi .slt : (⟨S16384, .i32⟩ : BufTy).Contents (Elt F) → (⟨S16384, .i32⟩ : BufTy).Contents (Elt F) → (⟨S16384, .i1⟩ : BufTy).Contents (Elt F)),
    nullary main_c_41 (constantI S_ 32 100000#32),
    unary main_c_41 main_v229 (broadcastInDim S16384 ![] bcast_S_S16384 : (⟨S_, .i32⟩ : BufTy).Contents (Elt F) → (⟨S16384, .i32⟩ : BufTy).Contents (Elt F)),
    binary main_v226 main_v229 main_v230 (addi : (⟨S16384, .i32⟩ : BufTy).Contents (Elt F) → (⟨S16384, .i32⟩ : BufTy).Contents (Elt F) → (⟨S16384, .i32⟩ : BufTy).Contents (Elt F)),
    ternary main_v228 main_v230 main_v226 main_v231 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v231 main_v232 (broadcastInDim S16384x1 ![0] bcast_S16384_S16384x1_0 : (⟨S16384, .i32⟩ : BufTy).Contents (Elt F) → (⟨S16384x1, .i32⟩ : BufTy).Contents (Elt F)),
    binary main_v224 main_v232 main_v233 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField20 : List (Ref sig .tc) :=
  [main_v223, main_v224, main_v225, main_v226, main_c_40, main_v227, main_v228, main_c_41, main_v229, main_v230, main_v231, main_v232, main_v233]

def opsField21 : List (HloOp τ sig (Elt F)) :=
  [ unary main_v2 main_v234 ((extractStridedSlice S1x100000x16 ![21, 0, 0] · slices_S26x100000x16_S1x100000x16_21_0_0) : (⟨S26x100000x16, .f32⟩ : BufTy).Contents (Elt F) → (⟨S1x100000x16, .f32⟩ : BufTy).Contents (Elt F)),
    reshape main_v234 main_v235 rfl shapeCasts_S1x100000x16_S100000x16,
    unary main_arg1 main_v236 ((extractStridedSlice S16384x1 ![0, 21] · slices_S16384x39_S16384x1_0_21) : (⟨S16384x39, .i32⟩ : BufTy).Contents (Elt F) → (⟨S16384x1, .i32⟩ : BufTy).Contents (Elt F)),
    reshape main_v236 main_v237 rfl shapeCasts_S16384x1_S16384,
    nullary main_c_42 (constantI S_ 32 0#32),
    unary main_c_42 main_v238 (broadcastInDim S16384 ![] bcast_S_S16384 : (⟨S_, .i32⟩ : BufTy).Contents (Elt F) → (⟨S16384, .i32⟩ : BufTy).Contents (Elt F)),
    binary main_v237 main_v238 main_v239 (cmpi .slt : (⟨S16384, .i32⟩ : BufTy).Contents (Elt F) → (⟨S16384, .i32⟩ : BufTy).Contents (Elt F) → (⟨S16384, .i1⟩ : BufTy).Contents (Elt F)),
    nullary main_c_43 (constantI S_ 32 100000#32),
    unary main_c_43 main_v240 (broadcastInDim S16384 ![] bcast_S_S16384 : (⟨S_, .i32⟩ : BufTy).Contents (Elt F) → (⟨S16384, .i32⟩ : BufTy).Contents (Elt F)),
    binary main_v237 main_v240 main_v241 (addi : (⟨S16384, .i32⟩ : BufTy).Contents (Elt F) → (⟨S16384, .i32⟩ : BufTy).Contents (Elt F) → (⟨S16384, .i32⟩ : BufTy).Contents (Elt F)),
    ternary main_v239 main_v241 main_v237 main_v242 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v242 main_v243 (broadcastInDim S16384x1 ![0] bcast_S16384_S16384x1_0 : (⟨S16384, .i32⟩ : BufTy).Contents (Elt F) → (⟨S16384x1, .i32⟩ : BufTy).Contents (Elt F)),
    binary main_v235 main_v243 main_v244 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField21 : List (Ref sig .tc) :=
  [main_v234, main_v235, main_v236, main_v237, main_c_42, main_v238, main_v239, main_c_43, main_v240, main_v241, main_v242, main_v243, main_v244]

def opsField22 : List (HloOp τ sig (Elt F)) :=
  [ unary main_v2 main_v245 ((extractStridedSlice S1x100000x16 ![22, 0, 0] · slices_S26x100000x16_S1x100000x16_22_0_0) : (⟨S26x100000x16, .f32⟩ : BufTy).Contents (Elt F) → (⟨S1x100000x16, .f32⟩ : BufTy).Contents (Elt F)),
    reshape main_v245 main_v246 rfl shapeCasts_S1x100000x16_S100000x16,
    unary main_arg1 main_v247 ((extractStridedSlice S16384x1 ![0, 22] · slices_S16384x39_S16384x1_0_22) : (⟨S16384x39, .i32⟩ : BufTy).Contents (Elt F) → (⟨S16384x1, .i32⟩ : BufTy).Contents (Elt F)),
    reshape main_v247 main_v248 rfl shapeCasts_S16384x1_S16384,
    nullary main_c_44 (constantI S_ 32 0#32),
    unary main_c_44 main_v249 (broadcastInDim S16384 ![] bcast_S_S16384 : (⟨S_, .i32⟩ : BufTy).Contents (Elt F) → (⟨S16384, .i32⟩ : BufTy).Contents (Elt F)),
    binary main_v248 main_v249 main_v250 (cmpi .slt : (⟨S16384, .i32⟩ : BufTy).Contents (Elt F) → (⟨S16384, .i32⟩ : BufTy).Contents (Elt F) → (⟨S16384, .i1⟩ : BufTy).Contents (Elt F)),
    nullary main_c_45 (constantI S_ 32 100000#32),
    unary main_c_45 main_v251 (broadcastInDim S16384 ![] bcast_S_S16384 : (⟨S_, .i32⟩ : BufTy).Contents (Elt F) → (⟨S16384, .i32⟩ : BufTy).Contents (Elt F)),
    binary main_v248 main_v251 main_v252 (addi : (⟨S16384, .i32⟩ : BufTy).Contents (Elt F) → (⟨S16384, .i32⟩ : BufTy).Contents (Elt F) → (⟨S16384, .i32⟩ : BufTy).Contents (Elt F)),
    ternary main_v250 main_v252 main_v248 main_v253 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v253 main_v254 (broadcastInDim S16384x1 ![0] bcast_S16384_S16384x1_0 : (⟨S16384, .i32⟩ : BufTy).Contents (Elt F) → (⟨S16384x1, .i32⟩ : BufTy).Contents (Elt F)),
    binary main_v246 main_v254 main_v255 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField22 : List (Ref sig .tc) :=
  [main_v245, main_v246, main_v247, main_v248, main_c_44, main_v249, main_v250, main_c_45, main_v251, main_v252, main_v253, main_v254, main_v255]

def opsField23 : List (HloOp τ sig (Elt F)) :=
  [ unary main_v2 main_v256 ((extractStridedSlice S1x100000x16 ![23, 0, 0] · slices_S26x100000x16_S1x100000x16_23_0_0) : (⟨S26x100000x16, .f32⟩ : BufTy).Contents (Elt F) → (⟨S1x100000x16, .f32⟩ : BufTy).Contents (Elt F)),
    reshape main_v256 main_v257 rfl shapeCasts_S1x100000x16_S100000x16,
    unary main_arg1 main_v258 ((extractStridedSlice S16384x1 ![0, 23] · slices_S16384x39_S16384x1_0_23) : (⟨S16384x39, .i32⟩ : BufTy).Contents (Elt F) → (⟨S16384x1, .i32⟩ : BufTy).Contents (Elt F)),
    reshape main_v258 main_v259 rfl shapeCasts_S16384x1_S16384,
    nullary main_c_46 (constantI S_ 32 0#32),
    unary main_c_46 main_v260 (broadcastInDim S16384 ![] bcast_S_S16384 : (⟨S_, .i32⟩ : BufTy).Contents (Elt F) → (⟨S16384, .i32⟩ : BufTy).Contents (Elt F)),
    binary main_v259 main_v260 main_v261 (cmpi .slt : (⟨S16384, .i32⟩ : BufTy).Contents (Elt F) → (⟨S16384, .i32⟩ : BufTy).Contents (Elt F) → (⟨S16384, .i1⟩ : BufTy).Contents (Elt F)),
    nullary main_c_47 (constantI S_ 32 100000#32),
    unary main_c_47 main_v262 (broadcastInDim S16384 ![] bcast_S_S16384 : (⟨S_, .i32⟩ : BufTy).Contents (Elt F) → (⟨S16384, .i32⟩ : BufTy).Contents (Elt F)),
    binary main_v259 main_v262 main_v263 (addi : (⟨S16384, .i32⟩ : BufTy).Contents (Elt F) → (⟨S16384, .i32⟩ : BufTy).Contents (Elt F) → (⟨S16384, .i32⟩ : BufTy).Contents (Elt F)),
    ternary main_v261 main_v263 main_v259 main_v264 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v264 main_v265 (broadcastInDim S16384x1 ![0] bcast_S16384_S16384x1_0 : (⟨S16384, .i32⟩ : BufTy).Contents (Elt F) → (⟨S16384x1, .i32⟩ : BufTy).Contents (Elt F)),
    binary main_v257 main_v265 main_v266 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField23 : List (Ref sig .tc) :=
  [main_v256, main_v257, main_v258, main_v259, main_c_46, main_v260, main_v261, main_c_47, main_v262, main_v263, main_v264, main_v265, main_v266]

def opsField24 : List (HloOp τ sig (Elt F)) :=
  [ unary main_v2 main_v267 ((extractStridedSlice S1x100000x16 ![24, 0, 0] · slices_S26x100000x16_S1x100000x16_24_0_0) : (⟨S26x100000x16, .f32⟩ : BufTy).Contents (Elt F) → (⟨S1x100000x16, .f32⟩ : BufTy).Contents (Elt F)),
    reshape main_v267 main_v268 rfl shapeCasts_S1x100000x16_S100000x16,
    unary main_arg1 main_v269 ((extractStridedSlice S16384x1 ![0, 24] · slices_S16384x39_S16384x1_0_24) : (⟨S16384x39, .i32⟩ : BufTy).Contents (Elt F) → (⟨S16384x1, .i32⟩ : BufTy).Contents (Elt F)),
    reshape main_v269 main_v270 rfl shapeCasts_S16384x1_S16384,
    nullary main_c_48 (constantI S_ 32 0#32),
    unary main_c_48 main_v271 (broadcastInDim S16384 ![] bcast_S_S16384 : (⟨S_, .i32⟩ : BufTy).Contents (Elt F) → (⟨S16384, .i32⟩ : BufTy).Contents (Elt F)),
    binary main_v270 main_v271 main_v272 (cmpi .slt : (⟨S16384, .i32⟩ : BufTy).Contents (Elt F) → (⟨S16384, .i32⟩ : BufTy).Contents (Elt F) → (⟨S16384, .i1⟩ : BufTy).Contents (Elt F)),
    nullary main_c_49 (constantI S_ 32 100000#32),
    unary main_c_49 main_v273 (broadcastInDim S16384 ![] bcast_S_S16384 : (⟨S_, .i32⟩ : BufTy).Contents (Elt F) → (⟨S16384, .i32⟩ : BufTy).Contents (Elt F)),
    binary main_v270 main_v273 main_v274 (addi : (⟨S16384, .i32⟩ : BufTy).Contents (Elt F) → (⟨S16384, .i32⟩ : BufTy).Contents (Elt F) → (⟨S16384, .i32⟩ : BufTy).Contents (Elt F)),
    ternary main_v272 main_v274 main_v270 main_v275 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v275 main_v276 (broadcastInDim S16384x1 ![0] bcast_S16384_S16384x1_0 : (⟨S16384, .i32⟩ : BufTy).Contents (Elt F) → (⟨S16384x1, .i32⟩ : BufTy).Contents (Elt F)),
    binary main_v268 main_v276 main_v277 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField24 : List (Ref sig .tc) :=
  [main_v267, main_v268, main_v269, main_v270, main_c_48, main_v271, main_v272, main_c_49, main_v273, main_v274, main_v275, main_v276, main_v277]

def opsField25 : List (HloOp τ sig (Elt F)) :=
  [ unary main_v2 main_v278 ((extractStridedSlice S1x100000x16 ![25, 0, 0] · slices_S26x100000x16_S1x100000x16_25_0_0) : (⟨S26x100000x16, .f32⟩ : BufTy).Contents (Elt F) → (⟨S1x100000x16, .f32⟩ : BufTy).Contents (Elt F)),
    reshape main_v278 main_v279 rfl shapeCasts_S1x100000x16_S100000x16,
    unary main_arg1 main_v280 ((extractStridedSlice S16384x1 ![0, 25] · slices_S16384x39_S16384x1_0_25) : (⟨S16384x39, .i32⟩ : BufTy).Contents (Elt F) → (⟨S16384x1, .i32⟩ : BufTy).Contents (Elt F)),
    reshape main_v280 main_v281 rfl shapeCasts_S16384x1_S16384,
    nullary main_c_50 (constantI S_ 32 0#32),
    unary main_c_50 main_v282 (broadcastInDim S16384 ![] bcast_S_S16384 : (⟨S_, .i32⟩ : BufTy).Contents (Elt F) → (⟨S16384, .i32⟩ : BufTy).Contents (Elt F)),
    binary main_v281 main_v282 main_v283 (cmpi .slt : (⟨S16384, .i32⟩ : BufTy).Contents (Elt F) → (⟨S16384, .i32⟩ : BufTy).Contents (Elt F) → (⟨S16384, .i1⟩ : BufTy).Contents (Elt F)),
    nullary main_c_51 (constantI S_ 32 100000#32),
    unary main_c_51 main_v284 (broadcastInDim S16384 ![] bcast_S_S16384 : (⟨S_, .i32⟩ : BufTy).Contents (Elt F) → (⟨S16384, .i32⟩ : BufTy).Contents (Elt F)),
    binary main_v281 main_v284 main_v285 (addi : (⟨S16384, .i32⟩ : BufTy).Contents (Elt F) → (⟨S16384, .i32⟩ : BufTy).Contents (Elt F) → (⟨S16384, .i32⟩ : BufTy).Contents (Elt F)),
    ternary main_v283 main_v285 main_v281 main_v286 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v286 main_v287 (broadcastInDim S16384x1 ![0] bcast_S16384_S16384x1_0 : (⟨S16384, .i32⟩ : BufTy).Contents (Elt F) → (⟨S16384x1, .i32⟩ : BufTy).Contents (Elt F)),
    binary main_v279 main_v287 main_v288 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField25 : List (Ref sig .tc) :=
  [main_v278, main_v279, main_v280, main_v281, main_c_50, main_v282, main_v283, main_c_51, main_v284, main_v285, main_v286, main_v287, main_v288]

def opsTail : List (HloOp τ sig (Elt F)) :=
  [ unary main_arg1 main_v289 ((extractStridedSlice S16384x13 ![0, 26] · slices_S16384x39_S16384x13_0_26) : (⟨S16384x39, .i32⟩ : BufTy).Contents (Elt F) → (⟨S16384x13, .i32⟩ : BufTy).Contents (Elt F)),
    unary main_v289 main_v290 (sitofp .f32 : (⟨S16384x13, .i32⟩ : BufTy).Contents (Elt F) → (⟨S16384x13, .f32⟩ : BufTy).Contents (Elt F)),
    nary ![main_v13, main_v24, main_v35, main_v46, main_v57, main_v68, main_v79, main_v90, main_v101, main_v112, main_v123, main_v134, main_v145, main_v156, main_v167, main_v178] main_v291 (fun u => concatenate S16384x256 1 [⟨S16384x16, u 0⟩, ⟨S16384x16, u 1⟩, ⟨S16384x16, u 2⟩, ⟨S16384x16, u 3⟩, ⟨S16384x16, u 4⟩, ⟨S16384x16, u 5⟩, ⟨S16384x16, u 6⟩, ⟨S16384x16, u 7⟩, ⟨S16384x16, u 8⟩, ⟨S16384x16, u 9⟩, ⟨S16384x16, u 10⟩, ⟨S16384x16, u 11⟩, ⟨S16384x16, u 12⟩, ⟨S16384x16, u 13⟩, ⟨S16384x16, u 14⟩, ⟨S16384x16, u 15⟩] concatenates_S16384x16_S16384x16_S16384x16_S16384x16_S16384x16_S16384x16_S16384x16_S16384x16_S16384x16_S16384x16_S16384x16_S16384x16_S16384x16_S16384x16_S16384x16_S16384x16_S16384x256_d1),
    nary ![main_v189, main_v200, main_v211, main_v222, main_v233, main_v244, main_v255, main_v266, main_v277, main_v288, main_v290] main_v292 (fun u => concatenate S16384x173 1 [⟨S16384x16, u 0⟩, ⟨S16384x16, u 1⟩, ⟨S16384x16, u 2⟩, ⟨S16384x16, u 3⟩, ⟨S16384x16, u 4⟩, ⟨S16384x16, u 5⟩, ⟨S16384x16, u 6⟩, ⟨S16384x16, u 7⟩, ⟨S16384x16, u 8⟩, ⟨S16384x16, u 9⟩, ⟨S16384x13, u 10⟩] concatenates_S16384x16_S16384x16_S16384x16_S16384x16_S16384x16_S16384x16_S16384x16_S16384x16_S16384x16_S16384x16_S16384x13_S16384x173_d1),
    binary main_v291 main_v292 main_v293 ((fun a b => concatenate S16384x429 1 [⟨S16384x256, a⟩, ⟨S16384x173, b⟩] concatenates_S16384x256_S16384x173_S16384x429_d1) : (⟨S16384x256, .f32⟩ : BufTy).Contents (Elt F) → (⟨S16384x173, .f32⟩ : BufTy).Contents (Elt F) → (⟨S16384x429, .f32⟩ : BufTy).Contents (Elt F)),
    binary main_v293 main_arg3 main_v294 ((fun l r => Host.dotGeneral dot_S16384x429_S429x256_S16384x256_1_0_0_1_n_n none l r) : (⟨S16384x429, .f32⟩ : BufTy).Contents (Elt F) → (⟨S429x256, .f32⟩ : BufTy).Contents (Elt F) → (⟨S16384x256, .f32⟩ : BufTy).Contents (Elt F)),
    unary main_arg4 main_v295 (broadcastInDim S1x256 ![1] bcast_S256_S1x256_1 : (⟨S256, .f32⟩ : BufTy).Contents (Elt F) → (⟨S1x256, .f32⟩ : BufTy).Contents (Elt F)),
    unary main_v295 main_v296 (broadcastInDim S16384x256 ![0, 1] bcast_S1x256_S16384x256_0_1 : (⟨S1x256, .f32⟩ : BufTy).Contents (Elt F) → (⟨S16384x256, .f32⟩ : BufTy).Contents (Elt F)),
    binary main_v294 main_v296 main_v297 (addf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16384x256, .f32⟩) main_call0_v0) (broadcastInDim S16384x256 ![] bcast_S_S16384x256),
    TRef.binary (TRef.of (T := ⟨S16384x256, .f32⟩) main_v297) (TRef.of (T := ⟨S16384x256, .f32⟩) main_call0_v0) (TRef.of (T := ⟨S16384x256, .f32⟩) main_v298) maximumf,
    binary main_v298 main_arg5 main_v299 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_arg6 main_v300 (broadcastInDim S1x128 ![1] bcast_S128_S1x128_1 : (⟨S128, .f32⟩ : BufTy).Contents (Elt F) → (⟨S1x128, .f32⟩ : BufTy).Contents (Elt F)),
    unary main_v300 main_v301 (broadcastInDim S16384x128 ![0, 1] bcast_S1x128_S16384x128_0_1 : (⟨S1x128, .f32⟩ : BufTy).Contents (Elt F) → (⟨S16384x128, .f32⟩ : BufTy).Contents (Elt F)),
    binary main_v299 main_v301 main_v302 (addf : (⟨S16384x128, .f32⟩ : BufTy).Contents (Elt F) → (⟨S16384x128, .f32⟩ : BufTy).Contents (Elt F) → (⟨S16384x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S16384x128, .f32⟩) main_call1_v0) (broadcastInDim S16384x128 ![] bcast_S_S16384x128),
    TRef.binary (TRef.of (T := ⟨S16384x128, .f32⟩) main_v302) (TRef.of (T := ⟨S16384x128, .f32⟩) main_call1_v0) (TRef.of (T := ⟨S16384x128, .f32⟩) main_v303) maximumf,
    binary main_v303 main_arg0 main_v304 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
    binary main_v304 main_arg7 main_v305 ((fun l r => Host.dotGeneral dot_S16384x256_S256x2_S16384x2_1_0_0_1_n_n none l r) : (⟨S16384x256, .f32⟩ : BufTy).Contents (Elt F) → (⟨S256x2, .f32⟩ : BufTy).Contents (Elt F) → (⟨S16384x2, .f32⟩ : BufTy).Contents (Elt F)),
    unary main_arg8 main_v306 (broadcastInDim S1x2 ![1] bcast_S2_S1x2_1 : (⟨S2, .f32⟩ : BufTy).Contents (Elt F) → (⟨S1x2, .f32⟩ : BufTy).Contents (Elt F)),
    unary main_v306 main_v307 (broadcastInDim S16384x2 ![0, 1] bcast_S1x2_S16384x2_0_1 : (⟨S1x2, .f32⟩ : BufTy).Contents (Elt F) → (⟨S16384x2, .f32⟩ : BufTy).Contents (Elt F)),
    binary main_v305 main_v307 main_v308 (addf : (⟨S16384x2, .f32⟩ : BufTy).Contents (Elt F) → (⟨S16384x2, .f32⟩ : BufTy).Contents (Elt F) → (⟨S16384x2, .f32⟩ : BufTy).Contents (Elt F)) ]

def wrTail : List (Ref sig .tc) :=
  [main_v289, main_v290, main_v291, main_v292, main_v293, main_v294, main_v295, main_v296, main_v297, main_call0_cst, main_call0_v0, main_v298, main_v299, main_v300, main_v301, main_v302, main_call1_cst, main_call1_v0, main_v303, main_v304, main_v305, main_v306, main_v307, main_v308]

def opsField4a : List (HloOp τ sig (Elt F)) :=
  [ unary main_v2 main_v47 ((extractStridedSlice S1x100000x16 ![4, 0, 0] · slices_S26x100000x16_S1x100000x16_4_0_0) : (⟨S26x100000x16, .f32⟩ : BufTy).Contents (Elt F) → (⟨S1x100000x16, .f32⟩ : BufTy).Contents (Elt F)),
    reshape main_v47 main_v48 rfl shapeCasts_S1x100000x16_S100000x16,
    unary main_arg1 main_v49 ((extractStridedSlice S16384x1 ![0, 4] · slices_S16384x39_S16384x1_0_4) : (⟨S16384x39, .i32⟩ : BufTy).Contents (Elt F) → (⟨S16384x1, .i32⟩ : BufTy).Contents (Elt F)) ]

def wrField4a : List (Ref sig .tc) :=
  [main_v47, main_v48, main_v49]

def opsField4b : List (HloOp τ sig (Elt F)) :=
  [ reshape main_v49 main_v50 rfl shapeCasts_S16384x1_S16384,
    nullary main_c_8 (constantI S_ 32 0#32),
    unary main_c_8 main_v51 (broadcastInDim S16384 ![] bcast_S_S16384 : (⟨S_, .i32⟩ : BufTy).Contents (Elt F) → (⟨S16384, .i32⟩ : BufTy).Contents (Elt F)),
    binary main_v50 main_v51 main_v52 (cmpi .slt : (⟨S16384, .i32⟩ : BufTy).Contents (Elt F) → (⟨S16384, .i32⟩ : BufTy).Contents (Elt F) → (⟨S16384, .i1⟩ : BufTy).Contents (Elt F)),
    nullary main_c_9 (constantI S_ 32 100000#32),
    unary main_c_9 main_v53 (broadcastInDim S16384 ![] bcast_S_S16384 : (⟨S_, .i32⟩ : BufTy).Contents (Elt F) → (⟨S16384, .i32⟩ : BufTy).Contents (Elt F)),
    binary main_v50 main_v53 main_v54 (addi : (⟨S16384, .i32⟩ : BufTy).Contents (Elt F) → (⟨S16384, .i32⟩ : BufTy).Contents (Elt F) → (⟨S16384, .i32⟩ : BufTy).Contents (Elt F)),
    ternary main_v52 main_v54 main_v50 main_v55 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v55 main_v56 (broadcastInDim S16384x1 ![0] bcast_S16384_S16384x1_0 : (⟨S16384, .i32⟩ : BufTy).Contents (Elt F) → (⟨S16384x1, .i32⟩ : BufTy).Contents (Elt F)),
    binary main_v48 main_v56 main_v57 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField4b : List (Ref sig .tc) :=
  [main_v50, main_c_8, main_v51, main_v52, main_c_9, main_v53, main_v54, main_v55, main_v56, main_v57]

def opsField8a : List (HloOp τ sig (Elt F)) :=
  [ unary main_v2 main_v91 ((extractStridedSlice S1x100000x16 ![8, 0, 0] · slices_S26x100000x16_S1x100000x16_8_0_0) : (⟨S26x100000x16, .f32⟩ : BufTy).Contents (Elt F) → (⟨S1x100000x16, .f32⟩ : BufTy).Contents (Elt F)),
    reshape main_v91 main_v92 rfl shapeCasts_S1x100000x16_S100000x16,
    unary main_arg1 main_v93 ((extractStridedSlice S16384x1 ![0, 8] · slices_S16384x39_S16384x1_0_8) : (⟨S16384x39, .i32⟩ : BufTy).Contents (Elt F) → (⟨S16384x1, .i32⟩ : BufTy).Contents (Elt F)),
    reshape main_v93 main_v94 rfl shapeCasts_S16384x1_S16384,
    nullary main_c_16 (constantI S_ 32 0#32),
    unary main_c_16 main_v95 (broadcastInDim S16384 ![] bcast_S_S16384 : (⟨S_, .i32⟩ : BufTy).Contents (Elt F) → (⟨S16384, .i32⟩ : BufTy).Contents (Elt F)),
    binary main_v94 main_v95 main_v96 (cmpi .slt : (⟨S16384, .i32⟩ : BufTy).Contents (Elt F) → (⟨S16384, .i32⟩ : BufTy).Contents (Elt F) → (⟨S16384, .i1⟩ : BufTy).Contents (Elt F)),
    nullary main_c_17 (constantI S_ 32 100000#32),
    unary main_c_17 main_v97 (broadcastInDim S16384 ![] bcast_S_S16384 : (⟨S_, .i32⟩ : BufTy).Contents (Elt F) → (⟨S16384, .i32⟩ : BufTy).Contents (Elt F)),
    binary main_v94 main_v97 main_v98 (addi : (⟨S16384, .i32⟩ : BufTy).Contents (Elt F) → (⟨S16384, .i32⟩ : BufTy).Contents (Elt F) → (⟨S16384, .i32⟩ : BufTy).Contents (Elt F)),
    ternary main_v96 main_v98 main_v94 main_v99 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) ]

def wrField8a : List (Ref sig .tc) :=
  [main_v91, main_v92, main_v93, main_v94, main_c_16, main_v95, main_v96, main_c_17, main_v97, main_v98, main_v99]

def opsField8b : List (HloOp τ sig (Elt F)) :=
  [ unary main_v99 main_v100 (broadcastInDim S16384x1 ![0] bcast_S16384_S16384x1_0 : (⟨S16384, .i32⟩ : BufTy).Contents (Elt F) → (⟨S16384x1, .i32⟩ : BufTy).Contents (Elt F)),
    binary main_v92 main_v100 main_v101 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField8b : List (Ref sig .tc) :=
  [main_v100, main_v101]

def opsField13a : List (HloOp τ sig (Elt F)) :=
  [ unary main_v2 main_v146 ((extractStridedSlice S1x100000x16 ![13, 0, 0] · slices_S26x100000x16_S1x100000x16_13_0_0) : (⟨S26x100000x16, .f32⟩ : BufTy).Contents (Elt F) → (⟨S1x100000x16, .f32⟩ : BufTy).Contents (Elt F)),
    reshape main_v146 main_v147 rfl shapeCasts_S1x100000x16_S100000x16,
    unary main_arg1 main_v148 ((extractStridedSlice S16384x1 ![0, 13] · slices_S16384x39_S16384x1_0_13) : (⟨S16384x39, .i32⟩ : BufTy).Contents (Elt F) → (⟨S16384x1, .i32⟩ : BufTy).Contents (Elt F)),
    reshape main_v148 main_v149 rfl shapeCasts_S16384x1_S16384,
    nullary main_c_26 (constantI S_ 32 0#32),
    unary main_c_26 main_v150 (broadcastInDim S16384 ![] bcast_S_S16384 : (⟨S_, .i32⟩ : BufTy).Contents (Elt F) → (⟨S16384, .i32⟩ : BufTy).Contents (Elt F)) ]

def wrField13a : List (Ref sig .tc) :=
  [main_v146, main_v147, main_v148, main_v149, main_c_26, main_v150]

def opsField13b : List (HloOp τ sig (Elt F)) :=
  [ binary main_v149 main_v150 main_v151 (cmpi .slt : (⟨S16384, .i32⟩ : BufTy).Contents (Elt F) → (⟨S16384, .i32⟩ : BufTy).Contents (Elt F) → (⟨S16384, .i1⟩ : BufTy).Contents (Elt F)),
    nullary main_c_27 (constantI S_ 32 100000#32),
    unary main_c_27 main_v152 (broadcastInDim S16384 ![] bcast_S_S16384 : (⟨S_, .i32⟩ : BufTy).Contents (Elt F) → (⟨S16384, .i32⟩ : BufTy).Contents (Elt F)),
    binary main_v149 main_v152 main_v153 (addi : (⟨S16384, .i32⟩ : BufTy).Contents (Elt F) → (⟨S16384, .i32⟩ : BufTy).Contents (Elt F) → (⟨S16384, .i32⟩ : BufTy).Contents (Elt F)),
    ternary main_v151 main_v153 main_v149 main_v154 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v154 main_v155 (broadcastInDim S16384x1 ![0] bcast_S16384_S16384x1_0 : (⟨S16384, .i32⟩ : BufTy).Contents (Elt F) → (⟨S16384x1, .i32⟩ : BufTy).Contents (Elt F)),
    binary main_v147 main_v155 main_v156 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField13b : List (Ref sig .tc) :=
  [main_v151, main_c_27, main_v152, main_v153, main_v154, main_v155, main_v156]

def opsField18a : List (HloOp τ sig (Elt F)) :=
  [ unary main_v2 main_v201 ((extractStridedSlice S1x100000x16 ![18, 0, 0] · slices_S26x100000x16_S1x100000x16_18_0_0) : (⟨S26x100000x16, .f32⟩ : BufTy).Contents (Elt F) → (⟨S1x100000x16, .f32⟩ : BufTy).Contents (Elt F)) ]

def wrField18a : List (Ref sig .tc) :=
  [main_v201]

def opsField18b : List (HloOp τ sig (Elt F)) :=
  [ reshape main_v201 main_v202 rfl shapeCasts_S1x100000x16_S100000x16,
    unary main_arg1 main_v203 ((extractStridedSlice S16384x1 ![0, 18] · slices_S16384x39_S16384x1_0_18) : (⟨S16384x39, .i32⟩ : BufTy).Contents (Elt F) → (⟨S16384x1, .i32⟩ : BufTy).Contents (Elt F)),
    reshape main_v203 main_v204 rfl shapeCasts_S16384x1_S16384,
    nullary main_c_36 (constantI S_ 32 0#32),
    unary main_c_36 main_v205 (broadcastInDim S16384 ![] bcast_S_S16384 : (⟨S_, .i32⟩ : BufTy).Contents (Elt F) → (⟨S16384, .i32⟩ : BufTy).Contents (Elt F)),
    binary main_v204 main_v205 main_v206 (cmpi .slt : (⟨S16384, .i32⟩ : BufTy).Contents (Elt F) → (⟨S16384, .i32⟩ : BufTy).Contents (Elt F) → (⟨S16384, .i1⟩ : BufTy).Contents (Elt F)),
    nullary main_c_37 (constantI S_ 32 100000#32),
    unary main_c_37 main_v207 (broadcastInDim S16384 ![] bcast_S_S16384 : (⟨S_, .i32⟩ : BufTy).Contents (Elt F) → (⟨S16384, .i32⟩ : BufTy).Contents (Elt F)),
    binary main_v204 main_v207 main_v208 (addi : (⟨S16384, .i32⟩ : BufTy).Contents (Elt F) → (⟨S16384, .i32⟩ : BufTy).Contents (Elt F) → (⟨S16384, .i32⟩ : BufTy).Contents (Elt F)),
    ternary main_v206 main_v208 main_v204 main_v209 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v209 main_v210 (broadcastInDim S16384x1 ![0] bcast_S16384_S16384x1_0 : (⟨S16384, .i32⟩ : BufTy).Contents (Elt F) → (⟨S16384x1, .i32⟩ : BufTy).Contents (Elt F)),
    binary main_v202 main_v210 main_v211 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField18b : List (Ref sig .tc) :=
  [main_v202, main_v203, main_v204, main_c_36, main_v205, main_v206, main_c_37, main_v207, main_v208, main_v209, main_v210, main_v211]

def opsField22a : List (HloOp τ sig (Elt F)) :=
  [ unary main_v2 main_v245 ((extractStridedSlice S1x100000x16 ![22, 0, 0] · slices_S26x100000x16_S1x100000x16_22_0_0) : (⟨S26x100000x16, .f32⟩ : BufTy).Contents (Elt F) → (⟨S1x100000x16, .f32⟩ : BufTy).Contents (Elt F)),
    reshape main_v245 main_v246 rfl shapeCasts_S1x100000x16_S100000x16,
    unary main_arg1 main_v247 ((extractStridedSlice S16384x1 ![0, 22] · slices_S16384x39_S16384x1_0_22) : (⟨S16384x39, .i32⟩ : BufTy).Contents (Elt F) → (⟨S16384x1, .i32⟩ : BufTy).Contents (Elt F)),
    reshape main_v247 main_v248 rfl shapeCasts_S16384x1_S16384,
    nullary main_c_44 (constantI S_ 32 0#32),
    unary main_c_44 main_v249 (broadcastInDim S16384 ![] bcast_S_S16384 : (⟨S_, .i32⟩ : BufTy).Contents (Elt F) → (⟨S16384, .i32⟩ : BufTy).Contents (Elt F)),
    binary main_v248 main_v249 main_v250 (cmpi .slt : (⟨S16384, .i32⟩ : BufTy).Contents (Elt F) → (⟨S16384, .i32⟩ : BufTy).Contents (Elt F) → (⟨S16384, .i1⟩ : BufTy).Contents (Elt F)),
    nullary main_c_45 (constantI S_ 32 100000#32),
    unary main_c_45 main_v251 (broadcastInDim S16384 ![] bcast_S_S16384 : (⟨S_, .i32⟩ : BufTy).Contents (Elt F) → (⟨S16384, .i32⟩ : BufTy).Contents (Elt F)) ]

def wrField22a : List (Ref sig .tc) :=
  [main_v245, main_v246, main_v247, main_v248, main_c_44, main_v249, main_v250, main_c_45, main_v251]

def opsField22b : List (HloOp τ sig (Elt F)) :=
  [ binary main_v248 main_v251 main_v252 (addi : (⟨S16384, .i32⟩ : BufTy).Contents (Elt F) → (⟨S16384, .i32⟩ : BufTy).Contents (Elt F) → (⟨S16384, .i32⟩ : BufTy).Contents (Elt F)),
    ternary main_v250 main_v252 main_v248 main_v253 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v253 main_v254 (broadcastInDim S16384x1 ![0] bcast_S16384_S16384x1_0 : (⟨S16384, .i32⟩ : BufTy).Contents (Elt F) → (⟨S16384x1, .i32⟩ : BufTy).Contents (Elt F)),
    binary main_v246 main_v254 main_v255 ((fun x i => Host.gather gather_S100000x16_S16384x1_S16384x16_1_0_n_n_0_1_116 x i) : (⟨S100000x16, .f32⟩ : BufTy).Contents (Elt F) → (⟨S16384x1, .i32⟩ : BufTy).Contents (Elt F) → (⟨S16384x16, .f32⟩ : BufTy).Contents (Elt F)) ]

def wrField22b : List (Ref sig .tc) :=
  [main_v252, main_v253, main_v254, main_v255]

def opsTaila : List (HloOp τ sig (Elt F)) :=
  [ unary main_arg1 main_v289 ((extractStridedSlice S16384x13 ![0, 26] · slices_S16384x39_S16384x13_0_26) : (⟨S16384x39, .i32⟩ : BufTy).Contents (Elt F) → (⟨S16384x13, .i32⟩ : BufTy).Contents (Elt F)),
    unary main_v289 main_v290 (sitofp .f32 : (⟨S16384x13, .i32⟩ : BufTy).Contents (Elt F) → (⟨S16384x13, .f32⟩ : BufTy).Contents (Elt F)),
    nary ![main_v13, main_v24, main_v35, main_v46, main_v57, main_v68, main_v79, main_v90, main_v101, main_v112, main_v123, main_v134, main_v145, main_v156, main_v167, main_v178] main_v291 (fun u => concatenate S16384x256 1 [⟨S16384x16, u 0⟩, ⟨S16384x16, u 1⟩, ⟨S16384x16, u 2⟩, ⟨S16384x16, u 3⟩, ⟨S16384x16, u 4⟩, ⟨S16384x16, u 5⟩, ⟨S16384x16, u 6⟩, ⟨S16384x16, u 7⟩, ⟨S16384x16, u 8⟩, ⟨S16384x16, u 9⟩, ⟨S16384x16, u 10⟩, ⟨S16384x16, u 11⟩, ⟨S16384x16, u 12⟩, ⟨S16384x16, u 13⟩, ⟨S16384x16, u 14⟩, ⟨S16384x16, u 15⟩] concatenates_S16384x16_S16384x16_S16384x16_S16384x16_S16384x16_S16384x16_S16384x16_S16384x16_S16384x16_S16384x16_S16384x16_S16384x16_S16384x16_S16384x16_S16384x16_S16384x16_S16384x256_d1),
    nary ![main_v189, main_v200, main_v211, main_v222, main_v233, main_v244, main_v255, main_v266, main_v277, main_v288, main_v290] main_v292 (fun u => concatenate S16384x173 1 [⟨S16384x16, u 0⟩, ⟨S16384x16, u 1⟩, ⟨S16384x16, u 2⟩, ⟨S16384x16, u 3⟩, ⟨S16384x16, u 4⟩, ⟨S16384x16, u 5⟩, ⟨S16384x16, u 6⟩, ⟨S16384x16, u 7⟩, ⟨S16384x16, u 8⟩, ⟨S16384x16, u 9⟩, ⟨S16384x13, u 10⟩] concatenates_S16384x16_S16384x16_S16384x16_S16384x16_S16384x16_S16384x16_S16384x16_S16384x16_S16384x16_S16384x16_S16384x13_S16384x173_d1),
    binary main_v291 main_v292 main_v293 ((fun a b => concatenate S16384x429 1 [⟨S16384x256, a⟩, ⟨S16384x173, b⟩] concatenates_S16384x256_S16384x173_S16384x429_d1) : (⟨S16384x256, .f32⟩ : BufTy).Contents (Elt F) → (⟨S16384x173, .f32⟩ : BufTy).Contents (Elt F) → (⟨S16384x429, .f32⟩ : BufTy).Contents (Elt F)),
    binary main_v293 main_arg3 main_v294 ((fun l r => Host.dotGeneral dot_S16384x429_S429x256_S16384x256_1_0_0_1_n_n none l r) : (⟨S16384x429, .f32⟩ : BufTy).Contents (Elt F) → (⟨S429x256, .f32⟩ : BufTy).Contents (Elt F) → (⟨S16384x256, .f32⟩ : BufTy).Contents (Elt F)),
    unary main_arg4 main_v295 (broadcastInDim S1x256 ![1] bcast_S256_S1x256_1 : (⟨S256, .f32⟩ : BufTy).Contents (Elt F) → (⟨S1x256, .f32⟩ : BufTy).Contents (Elt F)),
    unary main_v295 main_v296 (broadcastInDim S16384x256 ![0, 1] bcast_S1x256_S16384x256_0_1 : (⟨S1x256, .f32⟩ : BufTy).Contents (Elt F) → (⟨S16384x256, .f32⟩ : BufTy).Contents (Elt F)),
    binary main_v294 main_v296 main_v297 (addf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16384x256, .f32⟩) main_call0_v0) (broadcastInDim S16384x256 ![] bcast_S_S16384x256),
    TRef.binary (TRef.of (T := ⟨S16384x256, .f32⟩) main_v297) (TRef.of (T := ⟨S16384x256, .f32⟩) main_call0_v0) (TRef.of (T := ⟨S16384x256, .f32⟩) main_v298) maximumf,
    binary main_v298 main_arg5 main_v299 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_arg6 main_v300 (broadcastInDim S1x128 ![1] bcast_S128_S1x128_1 : (⟨S128, .f32⟩ : BufTy).Contents (Elt F) → (⟨S1x128, .f32⟩ : BufTy).Contents (Elt F)),
    unary main_v300 main_v301 (broadcastInDim S16384x128 ![0, 1] bcast_S1x128_S16384x128_0_1 : (⟨S1x128, .f32⟩ : BufTy).Contents (Elt F) → (⟨S16384x128, .f32⟩ : BufTy).Contents (Elt F)),
    binary main_v299 main_v301 main_v302 (addf : (⟨S16384x128, .f32⟩ : BufTy).Contents (Elt F) → (⟨S16384x128, .f32⟩ : BufTy).Contents (Elt F) → (⟨S16384x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S16384x128, .f32⟩) main_call1_v0) (broadcastInDim S16384x128 ![] bcast_S_S16384x128),
    TRef.binary (TRef.of (T := ⟨S16384x128, .f32⟩) main_v302) (TRef.of (T := ⟨S16384x128, .f32⟩) main_call1_v0) (TRef.of (T := ⟨S16384x128, .f32⟩) main_v303) maximumf,
    binary main_v303 main_arg0 main_v304 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
    binary main_v304 main_arg7 main_v305 ((fun l r => Host.dotGeneral dot_S16384x256_S256x2_S16384x2_1_0_0_1_n_n none l r) : (⟨S16384x256, .f32⟩ : BufTy).Contents (Elt F) → (⟨S256x2, .f32⟩ : BufTy).Contents (Elt F) → (⟨S16384x2, .f32⟩ : BufTy).Contents (Elt F)) ]

def wrTaila : List (Ref sig .tc) :=
  [main_v289, main_v290, main_v291, main_v292, main_v293, main_v294, main_v295, main_v296, main_v297, main_call0_cst, main_call0_v0, main_v298, main_v299, main_v300, main_v301, main_v302, main_call1_cst, main_call1_v0, main_v303, main_v304, main_v305]

def opsTailb : List (HloOp τ sig (Elt F)) :=
  [ unary main_arg8 main_v306 (broadcastInDim S1x2 ![1] bcast_S2_S1x2_1 : (⟨S2, .f32⟩ : BufTy).Contents (Elt F) → (⟨S1x2, .f32⟩ : BufTy).Contents (Elt F)),
    unary main_v306 main_v307 (broadcastInDim S16384x2 ![0, 1] bcast_S1x2_S16384x2_0_1 : (⟨S1x2, .f32⟩ : BufTy).Contents (Elt F) → (⟨S16384x2, .f32⟩ : BufTy).Contents (Elt F)),
    binary main_v305 main_v307 main_v308 (addf : (⟨S16384x2, .f32⟩ : BufTy).Contents (Elt F) → (⟨S16384x2, .f32⟩ : BufTy).Contents (Elt F) → (⟨S16384x2, .f32⟩ : BufTy).Contents (Elt F)) ]

def wrTailb : List (Ref sig .tc) :=
  [main_v306, main_v307, main_v308]

theorem opsField4_split : (opsField4a (F := F) ++ opsField4b (F := F)) = opsField4 := rfl

theorem opsField8_split : (opsField8a (F := F) ++ opsField8b (F := F)) = opsField8 := rfl

theorem opsField13_split : (opsField13a (F := F) ++ opsField13b (F := F)) = opsField13 := rfl

theorem opsField18_split : (opsField18a (F := F) ++ opsField18b (F := F)) = opsField18 := rfl

theorem opsField22_split : (opsField22a (F := F) ++ opsField22b (F := F)) = opsField22 := rfl

theorem opsTail_split : (opsTaila (F := F) ++ opsTailb (F := F)) = opsTail := rfl

/-- All 367 operations: the chunks in order. -/
def opsAll : List (HloOp τ sig (Elt F)) :=
  opsPre ++ (opsField0 ++ (opsField1 ++ (opsField2 ++ (opsField3 ++ (opsField4 ++ (opsField5 ++ (opsField6 ++ (opsField7 ++ (opsField8 ++ (opsField9 ++ (opsField10 ++ (opsField11 ++ (opsField12 ++ (opsField13 ++ (opsField14 ++ (opsField15 ++ (opsField16 ++ (opsField17 ++ (opsField18 ++ (opsField19 ++ (opsField20 ++ (opsField21 ++ (opsField22 ++ (opsField23 ++ (opsField24 ++ (opsField25 ++ (opsTail)))))))))))))))))))))))))))

/-- The operations of @main's window 0. -/
def opsWin0 : List (HloOp τ sig (Elt F)) :=
  opsPre ++ (opsField0 ++ (opsField1 ++ (opsField2 ++ (opsField3 ++ (opsField4a)))))

/-- The operations of @main's window 1. -/
def opsWin1 : List (HloOp τ sig (Elt F)) :=
  opsField4b ++ (opsField5 ++ (opsField6 ++ (opsField7 ++ (opsField8a))))

/-- The operations of @main's window 2. -/
def opsWin2 : List (HloOp τ sig (Elt F)) :=
  opsField8b ++ (opsField9 ++ (opsField10 ++ (opsField11 ++ (opsField12 ++ (opsField13a)))))

/-- The operations of @main's window 3. -/
def opsWin3 : List (HloOp τ sig (Elt F)) :=
  opsField13b ++ (opsField14 ++ (opsField15 ++ (opsField16 ++ (opsField17 ++ (opsField18a)))))

/-- The operations of @main's window 4. -/
def opsWin4 : List (HloOp τ sig (Elt F)) :=
  opsField18b ++ (opsField19 ++ (opsField20 ++ (opsField21 ++ (opsField22a))))

/-- The operations of @main's window 5. -/
def opsWin5 : List (HloOp τ sig (Elt F)) :=
  opsField22b ++ (opsField23 ++ (opsField24 ++ (opsField25 ++ (opsTaila))))

/-- The operations of @main's window 6. -/
def opsWin6 : List (HloOp τ sig (Elt F)) :=
  opsTailb

end Cert.Proof.RefRun

end
-- ==== Proof.RefRunLib.lean ====
import Idealize.ShloMosaic.Lib.StableHlo.Run

/-!
# Folding a long line of host operations chunk by chunk

The contents after a line of operations that is an append of chunks are the contents after the
last chunk, started from the contents after the chunks before it.  Two closing steps for a chunk given as
an explicit list: that it leaves alone every reference it does not write, and that its operations
touch TensorCore references only and allocate nothing.
-/

noncomputable section

namespace Cert.Proof.RefRun

open Idealize.ShloMosaic Idealize.ShloMosaic.StableHlo Idealize.SL.Sem

variable {τ : Topo} {sig : RefSig} {Val : EltTy → Type}

/-- The contents after two lines run one after the other. -/
theorem after_app (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A property of every operation of two lines holds of every operation of their append. -/
theorem forall_mem_app {α : Type*} {P : α → Prop} {l₁ l₂ : List α} (h₁ : ∀ x ∈ l₁, P x) (h₂ : ∀ x ∈ l₂, P x) :
    ∀ x ∈ l₁ ++ l₂, P x := fun x hx => (List.mem_append.1 hx).elim (h₁ x) (h₂ x)

/-- A chunk's operations leave a reference none of them writes, given that it differs from every
    reference the chunk writes. -/
macro "keep_simp" : tactic =>
  `(tactic| (simp (disch := assumption) only [after_cons, after_nil,
      nullary_result_ne', unary_result_ne', binary_result_ne', ternary_result_ne', quaternary_result_ne',
      reshape_result_ne', nary_result_ne']))

/-- Every operation of a literal chunk touches TensorCore references only and allocates nothing. -/
macro "plain_ops" : tactic =>
  `(tactic| (intro op h
             repeat (cases h with | head => exact ⟨by simp, rfl⟩ | tail _ h => ?_)
             exact nomatch h))

end Cert.Proof.RefRun

end
-- ==== Proof.RefKeep.lean ====
/- INSTANCES, produced by `bun scratch/gen_refops.js` (run in the unit directory): for each chunk of the reference program's operation table, that its operations
   leave every reference outside the chunk's written list as it was, touch TensorCore references only and allocate nothing; then the same
   for the whole list. Each proof is one call of a tactic of RefRunLib. -/
import proofs.«205318_g12532714570102_cont_fleet_669_37_alg».proof.Proof.RefOps
import proofs.«205318_g12532714570102_cont_fleet_669_37_alg».proof.Proof.RefRunLib

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

theorem opsPre_keep (W : Valuation τ sig (Elt F)) {r : Ref sig .tc} (hr : r ∉ wrPre) :
    after (opsPre (F := F)) W (no_index (Proc.devRef .tc r)) = W (Proc.devRef .tc r) := by
  unfold wrPre at hr
  simp only [List.mem_cons, List.mem_nil_iff, or_false, not_or] at hr
  obtain ⟨h0, h1, h2, h3, h4⟩ := hr
  unfold opsPre
  keep_simp

theorem opsField0_keep (W : Valuation τ sig (Elt F)) {r : Ref sig .tc} (hr : r ∉ wrField0) :
    after (opsField0 (F := F)) W (no_index (Proc.devRef .tc r)) = W (Proc.devRef .tc r) := by
  unfold wrField0 at hr
  simp only [List.mem_cons, List.mem_nil_iff, or_false, not_or] at hr
  obtain ⟨h0, h1, h2, h3, h4, h5, h6, h7, h8, h9, h10, h11, h12⟩ := hr
  unfold opsField0
  keep_simp

theorem opsField1_keep (W : Valuation τ sig (Elt F)) {r : Ref sig .tc} (hr : r ∉ wrField1) :
    after (opsField1 (F := F)) W (no_index (Proc.devRef .tc r)) = W (Proc.devRef .tc r) := by
  unfold wrField1 at hr
  simp only [List.mem_cons, List.mem_nil_iff, or_false, not_or] at hr
  obtain ⟨h0, h1, h2, h3, h4, h5, h6, h7, h8, h9, h10, h11, h12⟩ := hr
  unfold opsField1
  keep_simp

theorem opsField2_keep (W : Valuation τ sig (Elt F)) {r : Ref sig .tc} (hr : r ∉ wrField2) :
    after (opsField2 (F := F)) W (no_index (Proc.devRef .tc r)) = W (Proc.devRef .tc r) := by
  unfold wrField2 at hr
  simp only [List.mem_cons, List.mem_nil_iff, or_false, not_or] at hr
  obtain ⟨h0, h1, h2, h3, h4, h5, h6, h7, h8, h9, h10, h11, h12⟩ := hr
  unfold opsField2
  keep_simp

theorem opsField3_keep (W : Valuation τ sig (Elt F)) {r : Ref sig .tc} (hr : r ∉ wrField3) :
    after (opsField3 (F := F)) W (no_index (Proc.devRef .tc r)) = W (Proc.devRef .tc r) := by
  unfold wrField3 at hr
  simp only [List.mem_cons, List.mem_nil_iff, or_false, not_or] at hr
  obtain ⟨h0, h1, h2, h3, h4, h5, h6, h7, h8, h9, h10, h11, h12⟩ := hr
  unfold opsField3
  keep_simp

theorem opsField4_keep (W : Valuation τ sig (Elt F)) {r : Ref sig .tc} (hr : r ∉ wrField4) :
    after (opsField4 (F := F)) W (no_index (Proc.devRef .tc r)) = W (Proc.devRef .tc r) := by
  unfold wrField4 at hr
  simp only [List.mem_cons, List.mem_nil_iff, or_false, not_or] at hr
  obtain ⟨h0, h1, h2, h3, h4, h5, h6, h7, h8, h9, h10, h11, h12⟩ := hr
  unfold opsField4
  keep_simp

theorem opsField5_keep (W : Valuation τ sig (Elt F)) {r : Ref sig .tc} (hr : r ∉ wrField5) :
    after (opsField5 (F := F)) W (no_index (Proc.devRef .tc r)) = W (Proc.devRef .tc r) := by
  unfold wrField5 at hr
  simp only [List.mem_cons, List.mem_nil_iff, or_false, not_or] at hr
  obtain ⟨h0, h1, h2, h3, h4, h5, h6, h7, h8, h9, h10, h11, h12⟩ := hr
  unfold opsField5
  keep_simp

theorem opsField6_keep (W : Valuation τ sig (Elt F)) {r : Ref sig .tc} (hr : r ∉ wrField6) :
    after (opsField6 (F := F)) W (no_index (Proc.devRef .tc r)) = W (Proc.devRef .tc r) := by
  unfold wrField6 at hr
  simp only [List.mem_cons, List.mem_nil_iff, or_false, not_or] at hr
  obtain ⟨h0, h1, h2, h3, h4, h5, h6, h7, h8, h9, h10, h11, h12⟩ := hr
  unfold opsField6
  keep_simp

theorem opsField7_keep (W : Valuation τ sig (Elt F)) {r : Ref sig .tc} (hr : r ∉ wrField7) :
    after (opsField7 (F := F)) W (no_index (Proc.devRef .tc r)) = W (Proc.devRef .tc r) := by
  unfold wrField7 at hr
  simp only [List.mem_cons, List.mem_nil_iff, or_false, not_or] at hr
  obtain ⟨h0, h1, h2, h3, h4, h5, h6, h7, h8, h9, h10, h11, h12⟩ := hr
  unfold opsField7
  keep_simp

theorem opsField8_keep (W : Valuation τ sig (Elt F)) {r : Ref sig .tc} (hr : r ∉ wrField8) :
    after (opsField8 (F := F)) W (no_index (Proc.devRef .tc r)) = W (Proc.devRef .tc r) := by
  unfold wrField8 at hr
  simp only [List.mem_cons, List.mem_nil_iff, or_false, not_or] at hr
  obtain ⟨h0, h1, h2, h3, h4, h5, h6, h7, h8, h9, h10, h11, h12⟩ := hr
  unfold opsField8
  keep_simp

theorem opsField9_keep (W : Valuation τ sig (Elt F)) {r : Ref sig .tc} (hr : r ∉ wrField9) :
    after (opsField9 (F := F)) W (no_index (Proc.devRef .tc r)) = W (Proc.devRef .tc r) := by
  unfold wrField9 at hr
  simp only [List.mem_cons, List.mem_nil_iff, or_false, not_or] at hr
  obtain ⟨h0, h1, h2, h3, h4, h5, h6, h7, h8, h9, h10, h11, h12⟩ := hr
  unfold opsField9
  keep_simp

theorem opsField10_keep (W : Valuation τ sig (Elt F)) {r : Ref sig .tc} (hr : r ∉ wrField10) :
    after (opsField10 (F := F)) W (no_index (Proc.devRef .tc r)) = W (Proc.devRef .tc r) := by
  unfold wrField10 at hr
  simp only [List.mem_cons, List.mem_nil_iff, or_false, not_or] at hr
  obtain ⟨h0, h1, h2, h3, h4, h5, h6, h7, h8, h9, h10, h11, h12⟩ := hr
  unfold opsField10
  keep_simp

theorem opsField11_keep (W : Valuation τ sig (Elt F)) {r : Ref sig .tc} (hr : r ∉ wrField11) :
    after (opsField11 (F := F)) W (no_index (Proc.devRef .tc r)) = W (Proc.devRef .tc r) := by
  unfold wrField11 at hr
  simp only [List.mem_cons, List.mem_nil_iff, or_false, not_or] at hr
  obtain ⟨h0, h1, h2, h3, h4, h5, h6, h7, h8, h9, h10, h11, h12⟩ := hr
  unfold opsField11
  keep_simp

theorem opsField12_keep (W : Valuation τ sig (Elt F)) {r : Ref sig .tc} (hr : r ∉ wrField12) :
    after (opsField12 (F := F)) W (no_index (Proc.devRef .tc r)) = W (Proc.devRef .tc r) := by
  unfold wrField12 at hr
  simp only [List.mem_cons, List.mem_nil_iff, or_false, not_or] at hr
  obtain ⟨h0, h1, h2, h3, h4, h5, h6, h7, h8, h9, h10, h11, h12⟩ := hr
  unfold opsField12
  keep_simp

theorem opsField13_keep (W : Valuation τ sig (Elt F)) {r : Ref sig .tc} (hr : r ∉ wrField13) :
    after (opsField13 (F := F)) W (no_index (Proc.devRef .tc r)) = W (Proc.devRef .tc r) := by
  unfold wrField13 at hr
  simp only [List.mem_cons, List.mem_nil_iff, or_false, not_or] at hr
  obtain ⟨h0, h1, h2, h3, h4, h5, h6, h7, h8, h9, h10, h11, h12⟩ := hr
  unfold opsField13
  keep_simp

theorem opsField14_keep (W : Valuation τ sig (Elt F)) {r : Ref sig .tc} (hr : r ∉ wrField14) :
    after (opsField14 (F := F)) W (no_index (Proc.devRef .tc r)) = W (Proc.devRef .tc r) := by
  unfold wrField14 at hr
  simp only [List.mem_cons, List.mem_nil_iff, or_false, not_or] at hr
  obtain ⟨h0, h1, h2, h3, h4, h5, h6, h7, h8, h9, h10, h11, h12⟩ := hr
  unfold opsField14
  keep_simp

theorem opsField15_keep (W : Valuation τ sig (Elt F)) {r : Ref sig .tc} (hr : r ∉ wrField15) :
    after (opsField15 (F := F)) W (no_index (Proc.devRef .tc r)) = W (Proc.devRef .tc r) := by
  unfold wrField15 at hr
  simp only [List.mem_cons, List.mem_nil_iff, or_false, not_or] at hr
  obtain ⟨h0, h1, h2, h3, h4, h5, h6, h7, h8, h9, h10, h11, h12⟩ := hr
  unfold opsField15
  keep_simp

theorem opsField16_keep (W : Valuation τ sig (Elt F)) {r : Ref sig .tc} (hr : r ∉ wrField16) :
    after (opsField16 (F := F)) W (no_index (Proc.devRef .tc r)) = W (Proc.devRef .tc r) := by
  unfold wrField16 at hr
  simp only [List.mem_cons, List.mem_nil_iff, or_false, not_or] at hr
  obtain ⟨h0, h1, h2, h3, h4, h5, h6, h7, h8, h9, h10, h11, h12⟩ := hr
  unfold opsField16
  keep_simp

theorem opsField17_keep (W : Valuation τ sig (Elt F)) {r : Ref sig .tc} (hr : r ∉ wrField17) :
    after (opsField17 (F := F)) W (no_index (Proc.devRef .tc r)) = W (Proc.devRef .tc r) := by
  unfold wrField17 at hr
  simp only [List.mem_cons, List.mem_nil_iff, or_false, not_or] at hr
  obtain ⟨h0, h1, h2, h3, h4, h5, h6, h7, h8, h9, h10, h11, h12⟩ := hr
  unfold opsField17
  keep_simp

theorem opsField18_keep (W : Valuation τ sig (Elt F)) {r : Ref sig .tc} (hr : r ∉ wrField18) :
    after (opsField18 (F := F)) W (no_index (Proc.devRef .tc r)) = W (Proc.devRef .tc r) := by
  unfold wrField18 at hr
  simp only [List.mem_cons, List.mem_nil_iff, or_false, not_or] at hr
  obtain ⟨h0, h1, h2, h3, h4, h5, h6, h7, h8, h9, h10, h11, h12⟩ := hr
  unfold opsField18
  keep_simp

theorem opsField19_keep (W : Valuation τ sig (Elt F)) {r : Ref sig .tc} (hr : r ∉ wrField19) :
    after (opsField19 (F := F)) W (no_index (Proc.devRef .tc r)) = W (Proc.devRef .tc r) := by
  unfold wrField19 at hr
  simp only [List.mem_cons, List.mem_nil_iff, or_false, not_or] at hr
  obtain ⟨h0, h1, h2, h3, h4, h5, h6, h7, h8, h9, h10, h11, h12⟩ := hr
  unfold opsField19
  keep_simp

theorem opsField20_keep (W : Valuation τ sig (Elt F)) {r : Ref sig .tc} (hr : r ∉ wrField20) :
    after (opsField20 (F := F)) W (no_index (Proc.devRef .tc r)) = W (Proc.devRef .tc r) := by
  unfold wrField20 at hr
  simp only [List.mem_cons, List.mem_nil_iff, or_false, not_or] at hr
  obtain ⟨h0, h1, h2, h3, h4, h5, h6, h7, h8, h9, h10, h11, h12⟩ := hr
  unfold opsField20
  keep_simp

theorem opsField21_keep (W : Valuation τ sig (Elt F)) {r : Ref sig .tc} (hr : r ∉ wrField21) :
    after (opsField21 (F := F)) W (no_index (Proc.devRef .tc r)) = W (Proc.devRef .tc r) := by
  unfold wrField21 at hr
  simp only [List.mem_cons, List.mem_nil_iff, or_false, not_or] at hr
  obtain ⟨h0, h1, h2, h3, h4, h5, h6, h7, h8, h9, h10, h11, h12⟩ := hr
  unfold opsField21
  keep_simp

theorem opsField22_keep (W : Valuation τ sig (Elt F)) {r : Ref sig .tc} (hr : r ∉ wrField22) :
    after (opsField22 (F := F)) W (no_index (Proc.devRef .tc r)) = W (Proc.devRef .tc r) := by
  unfold wrField22 at hr
  simp only [List.mem_cons, List.mem_nil_iff, or_false, not_or] at hr
  obtain ⟨h0, h1, h2, h3, h4, h5, h6, h7, h8, h9, h10, h11, h12⟩ := hr
  unfold opsField22
  keep_simp

theorem opsField23_keep (W : Valuation τ sig (Elt F)) {r : Ref sig .tc} (hr : r ∉ wrField23) :
    after (opsField23 (F := F)) W (no_index (Proc.devRef .tc r)) = W (Proc.devRef .tc r) := by
  unfold wrField23 at hr
  simp only [List.mem_cons, List.mem_nil_iff, or_false, not_or] at hr
  obtain ⟨h0, h1, h2, h3, h4, h5, h6, h7, h8, h9, h10, h11, h12⟩ := hr
  unfold opsField23
  keep_simp

theorem opsField24_keep (W : Valuation τ sig (Elt F)) {r : Ref sig .tc} (hr : r ∉ wrField24) :
    after (opsField24 (F := F)) W (no_index (Proc.devRef .tc r)) = W (Proc.devRef .tc r) := by
  unfold wrField24 at hr
  simp only [List.mem_cons, List.mem_nil_iff, or_false, not_or] at hr
  obtain ⟨h0, h1, h2, h3, h4, h5, h6, h7, h8, h9, h10, h11, h12⟩ := hr
  unfold opsField24
  keep_simp

theorem opsField25_keep (W : Valuation τ sig (Elt F)) {r : Ref sig .tc} (hr : r ∉ wrField25) :
    after (opsField25 (F := F)) W (no_index (Proc.devRef .tc r)) = W (Proc.devRef .tc r) := by
  unfold wrField25 at hr
  simp only [List.mem_cons, List.mem_nil_iff, or_false, not_or] at hr
  obtain ⟨h0, h1, h2, h3, h4, h5, h6, h7, h8, h9, h10, h11, h12⟩ := hr
  unfold opsField25
  keep_simp

theorem opsTail_keep (W : Valuation τ sig (Elt F)) {r : Ref sig .tc} (hr : r ∉ wrTail) :
    after (opsTail (F := F)) W (no_index (Proc.devRef .tc r)) = W (Proc.devRef .tc r) := by
  unfold wrTail at hr
  simp only [List.mem_cons, List.mem_nil_iff, or_false, not_or] at hr
  obtain ⟨h0, h1, h2, h3, h4, h5, h6, h7, h8, h9, h10, h11, h12, h13, h14, h15, h16, h17, h18, h19, h20, h21, h22, h23⟩ := hr
  unfold opsTail
  keep_simp

theorem opsField4a_keep (W : Valuation τ sig (Elt F)) {r : Ref sig .tc} (hr : r ∉ wrField4a) :
    after (opsField4a (F := F)) W (no_index (Proc.devRef .tc r)) = W (Proc.devRef .tc r) := by
  unfold wrField4a at hr
  simp only [List.mem_cons, List.mem_nil_iff, or_false, not_or] at hr
  obtain ⟨h0, h1, h2⟩ := hr
  unfold opsField4a
  keep_simp

theorem opsField4b_keep (W : Valuation τ sig (Elt F)) {r : Ref sig .tc} (hr : r ∉ wrField4b) :
    after (opsField4b (F := F)) W (no_index (Proc.devRef .tc r)) = W (Proc.devRef .tc r) := by
  unfold wrField4b at hr
  simp only [List.mem_cons, List.mem_nil_iff, or_false, not_or] at hr
  obtain ⟨h0, h1, h2, h3, h4, h5, h6, h7, h8, h9⟩ := hr
  unfold opsField4b
  keep_simp

theorem opsField8a_keep (W : Valuation τ sig (Elt F)) {r : Ref sig .tc} (hr : r ∉ wrField8a) :
    after (opsField8a (F := F)) W (no_index (Proc.devRef .tc r)) = W (Proc.devRef .tc r) := by
  unfold wrField8a at hr
  simp only [List.mem_cons, List.mem_nil_iff, or_false, not_or] at hr
  obtain ⟨h0, h1, h2, h3, h4, h5, h6, h7, h8, h9, h10⟩ := hr
  unfold opsField8a
  keep_simp

theorem opsField8b_keep (W : Valuation τ sig (Elt F)) {r : Ref sig .tc} (hr : r ∉ wrField8b) :
    after (opsField8b (F := F)) W (no_index (Proc.devRef .tc r)) = W (Proc.devRef .tc r) := by
  unfold wrField8b at hr
  simp only [List.mem_cons, List.mem_nil_iff, or_false, not_or] at hr
  obtain ⟨h0, h1⟩ := hr
  unfold opsField8b
  keep_simp

theorem opsField13a_keep (W : Valuation τ sig (Elt F)) {r : Ref sig .tc} (hr : r ∉ wrField13a) :
    after (opsField13a (F := F)) W (no_index (Proc.devRef .tc r)) = W (Proc.devRef .tc r) := by
  unfold wrField13a at hr
  simp only [List.mem_cons, List.mem_nil_iff, or_false, not_or] at hr
  obtain ⟨h0, h1, h2, h3, h4, h5⟩ := hr
  unfold opsField13a
  keep_simp

theorem opsField13b_keep (W : Valuation τ sig (Elt F)) {r : Ref sig .tc} (hr : r ∉ wrField13b) :
    after (opsField13b (F := F)) W (no_index (Proc.devRef .tc r)) = W (Proc.devRef .tc r) := by
  unfold wrField13b at hr
  simp only [List.mem_cons, List.mem_nil_iff, or_false, not_or] at hr
  obtain ⟨h0, h1, h2, h3, h4, h5, h6⟩ := hr
  unfold opsField13b
  keep_simp

theorem opsField18a_keep (W : Valuation τ sig (Elt F)) {r : Ref sig .tc} (hr : r ∉ wrField18a) :
    after (opsField18a (F := F)) W (no_index (Proc.devRef .tc r)) = W (Proc.devRef .tc r) := by
  unfold wrField18a at hr
  simp only [List.mem_cons, List.mem_nil_iff, or_false, not_or] at hr
  have h0 := hr
  unfold opsField18a
  keep_simp

theorem opsField18b_keep (W : Valuation τ sig (Elt F)) {r : Ref sig .tc} (hr : r ∉ wrField18b) :
    after (opsField18b (F := F)) W (no_index (Proc.devRef .tc r)) = W (Proc.devRef .tc r) := by
  unfold wrField18b at hr
  simp only [List.mem_cons, List.mem_nil_iff, or_false, not_or] at hr
  obtain ⟨h0, h1, h2, h3, h4, h5, h6, h7, h8, h9, h10, h11⟩ := hr
  unfold opsField18b
  keep_simp

theorem opsField22a_keep (W : Valuation τ sig (Elt F)) {r : Ref sig .tc} (hr : r ∉ wrField22a) :
    after (opsField22a (F := F)) W (no_index (Proc.devRef .tc r)) = W (Proc.devRef .tc r) := by
  unfold wrField22a at hr
  simp only [List.mem_cons, List.mem_nil_iff, or_false, not_or] at hr
  obtain ⟨h0, h1, h2, h3, h4, h5, h6, h7, h8⟩ := hr
  unfold opsField22a
  keep_simp

theorem opsField22b_keep (W : Valuation τ sig (Elt F)) {r : Ref sig .tc} (hr : r ∉ wrField22b) :
    after (opsField22b (F := F)) W (no_index (Proc.devRef .tc r)) = W (Proc.devRef .tc r) := by
  unfold wrField22b at hr
  simp only [List.mem_cons, List.mem_nil_iff, or_false, not_or] at hr
  obtain ⟨h0, h1, h2, h3⟩ := hr
  unfold opsField22b
  keep_simp

theorem opsTaila_keep (W : Valuation τ sig (Elt F)) {r : Ref sig .tc} (hr : r ∉ wrTaila) :
    after (opsTaila (F := F)) W (no_index (Proc.devRef .tc r)) = W (Proc.devRef .tc r) := by
  unfold wrTaila at hr
  simp only [List.mem_cons, List.mem_nil_iff, or_false, not_or] at hr
  obtain ⟨h0, h1, h2, h3, h4, h5, h6, h7, h8, h9, h10, h11, h12, h13, h14, h15, h16, h17, h18, h19, h20⟩ := hr
  unfold opsTaila
  keep_simp

theorem opsTailb_keep (W : Valuation τ sig (Elt F)) {r : Ref sig .tc} (hr : r ∉ wrTailb) :
    after (opsTailb (F := F)) W (no_index (Proc.devRef .tc r)) = W (Proc.devRef .tc r) := by
  unfold wrTailb at hr
  simp only [List.mem_cons, List.mem_nil_iff, or_false, not_or] at hr
  obtain ⟨h0, h1, h2⟩ := hr
  unfold opsTailb
  keep_simp

theorem opsPre_plain : ∀ op ∈ (opsPre (F := F)), op.bufs ⊆ tcRefs τ sig ∧ op.fresh = ∅ := by
  unfold opsPre
  plain_ops

theorem opsField0_plain : ∀ op ∈ (opsField0 (F := F)), op.bufs ⊆ tcRefs τ sig ∧ op.fresh = ∅ := by
  unfold opsField0
  plain_ops

theorem opsField1_plain : ∀ op ∈ (opsField1 (F := F)), op.bufs ⊆ tcRefs τ sig ∧ op.fresh = ∅ := by
  unfold opsField1
  plain_ops

theorem opsField2_plain : ∀ op ∈ (opsField2 (F := F)), op.bufs ⊆ tcRefs τ sig ∧ op.fresh = ∅ := by
  unfold opsField2
  plain_ops

theorem opsField3_plain : ∀ op ∈ (opsField3 (F := F)), op.bufs ⊆ tcRefs τ sig ∧ op.fresh = ∅ := by
  unfold opsField3
  plain_ops

theorem opsField4_plain : ∀ op ∈ (opsField4 (F := F)), op.bufs ⊆ tcRefs τ sig ∧ op.fresh = ∅ := by
  unfold opsField4
  plain_ops

theorem opsField5_plain : ∀ op ∈ (opsField5 (F := F)), op.bufs ⊆ tcRefs τ sig ∧ op.fresh = ∅ := by
  unfold opsField5
  plain_ops

theorem opsField6_plain : ∀ op ∈ (opsField6 (F := F)), op.bufs ⊆ tcRefs τ sig ∧ op.fresh = ∅ := by
  unfold opsField6
  plain_ops

theorem opsField7_plain : ∀ op ∈ (opsField7 (F := F)), op.bufs ⊆ tcRefs τ sig ∧ op.fresh = ∅ := by
  unfold opsField7
  plain_ops

theorem opsField8_plain : ∀ op ∈ (opsField8 (F := F)), op.bufs ⊆ tcRefs τ sig ∧ op.fresh = ∅ := by
  unfold opsField8
  plain_ops

theorem opsField9_plain : ∀ op ∈ (opsField9 (F := F)), op.bufs ⊆ tcRefs τ sig ∧ op.fresh = ∅ := by
  unfold opsField9
  plain_ops

theorem opsField10_plain : ∀ op ∈ (opsField10 (F := F)), op.bufs ⊆ tcRefs τ sig ∧ op.fresh = ∅ := by
  unfold opsField10
  plain_ops

theorem opsField11_plain : ∀ op ∈ (opsField11 (F := F)), op.bufs ⊆ tcRefs τ sig ∧ op.fresh = ∅ := by
  unfold opsField11
  plain_ops

theorem opsField12_plain : ∀ op ∈ (opsField12 (F := F)), op.bufs ⊆ tcRefs τ sig ∧ op.fresh = ∅ := by
  unfold opsField12
  plain_ops

theorem opsField13_plain : ∀ op ∈ (opsField13 (F := F)), op.bufs ⊆ tcRefs τ sig ∧ op.fresh = ∅ := by
  unfold opsField13
  plain_ops

theorem opsField14_plain : ∀ op ∈ (opsField14 (F := F)), op.bufs ⊆ tcRefs τ sig ∧ op.fresh = ∅ := by
  unfold opsField14
  plain_ops

theorem opsField15_plain : ∀ op ∈ (opsField15 (F := F)), op.bufs ⊆ tcRefs τ sig ∧ op.fresh = ∅ := by
  unfold opsField15
  plain_ops

theorem opsField16_plain : ∀ op ∈ (opsField16 (F := F)), op.bufs ⊆ tcRefs τ sig ∧ op.fresh = ∅ := by
  unfold opsField16
  plain_ops

theorem opsField17_plain : ∀ op ∈ (opsField17 (F := F)), op.bufs ⊆ tcRefs τ sig ∧ op.fresh = ∅ := by
  unfold opsField17
  plain_ops

theorem opsField18_plain : ∀ op ∈ (opsField18 (F := F)), op.bufs ⊆ tcRefs τ sig ∧ op.fresh = ∅ := by
  unfold opsField18
  plain_ops

theorem opsField19_plain : ∀ op ∈ (opsField19 (F := F)), op.bufs ⊆ tcRefs τ sig ∧ op.fresh = ∅ := by
  unfold opsField19
  plain_ops

theorem opsField20_plain : ∀ op ∈ (opsField20 (F := F)), op.bufs ⊆ tcRefs τ sig ∧ op.fresh = ∅ := by
  unfold opsField20
  plain_ops

theorem opsField21_plain : ∀ op ∈ (opsField21 (F := F)), op.bufs ⊆ tcRefs τ sig ∧ op.fresh = ∅ := by
  unfold opsField21
  plain_ops

theorem opsField22_plain : ∀ op ∈ (opsField22 (F := F)), op.bufs ⊆ tcRefs τ sig ∧ op.fresh = ∅ := by
  unfold opsField22
  plain_ops

theorem opsField23_plain : ∀ op ∈ (opsField23 (F := F)), op.bufs ⊆ tcRefs τ sig ∧ op.fresh = ∅ := by
  unfold opsField23
  plain_ops

theorem opsField24_plain : ∀ op ∈ (opsField24 (F := F)), op.bufs ⊆ tcRefs τ sig ∧ op.fresh = ∅ := by
  unfold opsField24
  plain_ops

theorem opsField25_plain : ∀ op ∈ (opsField25 (F := F)), op.bufs ⊆ tcRefs τ sig ∧ op.fresh = ∅ := by
  unfold opsField25
  plain_ops

theorem opsTail_plain : ∀ op ∈ (opsTail (F := F)), op.bufs ⊆ tcRefs τ sig ∧ op.fresh = ∅ := by
  unfold opsTail
  plain_ops

theorem opsAll_plain : ∀ op ∈ (opsAll (F := F)), op.bufs ⊆ tcRefs τ sig ∧ op.fresh = ∅ := by
  unfold opsAll
  simp only [List.mem_append]
  rintro op (h | h | h | h | h | h | h | h | h | h | h | h | h | h | h | h | h | h | h | h | h | h | h | h | h | h | h | h)
  exacts [opsPre_plain op h, opsField0_plain op h, opsField1_plain op h, opsField2_plain op h, opsField3_plain op h, opsField4_plain op h, opsField5_plain op h, opsField6_plain op h, opsField7_plain op h, opsField8_plain op h, opsField9_plain op h, opsField10_plain op h, opsField11_plain op h, opsField12_plain op h, opsField13_plain op h, opsField14_plain op h, opsField15_plain op h, opsField16_plain op h, opsField17_plain op h, opsField18_plain op h, opsField19_plain op h, opsField20_plain op h, opsField21_plain op h, opsField22_plain op h, opsField23_plain op h, opsField24_plain op h, opsField25_plain op h, opsTail_plain op h]

/-- What the whole list leaves at a reference no chunk writes: what was there. -/
macro "keep_all" : tactic =>
  `(tactic| (unfold opsAll
             simp only [after_app]
             simp (disch := decide) only [opsPre_keep, opsField0_keep, opsField1_keep, opsField2_keep, opsField3_keep, opsField4_keep, opsField5_keep, opsField6_keep, opsField7_keep, opsField8_keep, opsField9_keep, opsField10_keep, opsField11_keep, opsField12_keep, opsField13_keep, opsField14_keep, opsField15_keep, opsField16_keep, opsField17_keep, opsField18_keep, opsField19_keep, opsField20_keep, opsField21_keep, opsField22_keep, opsField23_keep, opsField24_keep, opsField25_keep, opsTail_keep]))

theorem opsAll_arg0 (V : Valuation τ sig (Elt F)) :
    after (opsAll (F := F)) V (Proc.devRef .tc main_arg0) = V (Proc.devRef .tc main_arg0) := by
  keep_all

theorem opsAll_arg1 (V : Valuation τ sig (Elt F)) :
    after (opsAll (F := F)) V (Proc.devRef .tc main_arg1) = V (Proc.devRef .tc main_arg1) := by
  keep_all

theorem opsAll_arg2 (V : Valuation τ sig (Elt F)) :
    after (opsAll (F := F)) V (Proc.devRef .tc main_arg2) = V (Proc.devRef .tc main_arg2) := by
  keep_all

theorem opsAll_arg3 (V : Valuation τ sig (Elt F)) :
    after (opsAll (F := F)) V (Proc.devRef .tc main_arg3) = V (Proc.devRef .tc main_arg3) := by
  keep_all

theorem opsAll_arg4 (V : Valuation τ sig (Elt F)) :
    after (opsAll (F := F)) V (Proc.devRef .tc main_arg4) = V (Proc.devRef .tc main_arg4) := by
  keep_all

theorem opsAll_arg5 (V : Valuation τ sig (Elt F)) :
    after (opsAll (F := F)) V (Proc.devRef .tc main_arg5) = V (Proc.devRef .tc main_arg5) := by
  keep_all

theorem opsAll_arg6 (V : Valuation τ sig (Elt F)) :
    after (opsAll (F := F)) V (Proc.devRef .tc main_arg6) = V (Proc.devRef .tc main_arg6) := by
  keep_all

theorem opsAll_arg7 (V : Valuation τ sig (Elt F)) :
    after (opsAll (F := F)) V (Proc.devRef .tc main_arg7) = V (Proc.devRef .tc main_arg7) := by
  keep_all

theorem opsAll_arg8 (V : Valuation τ sig (Elt F)) :
    after (opsAll (F := F)) V (Proc.devRef .tc main_arg8) = V (Proc.devRef .tc main_arg8) := by
  keep_all

end Cert.Proof.RefRun

end
-- ==== Proof.RefMainEq.lean ====
/-
  The reference program's @main is the straight line of its 367 host operations: window by window of @main's own cut,
  then the windows' lists joined into the one list of all operations.
-/
import proofs.«205318_g12532714570102_cont_fleet_669_37_alg».proof.Proof.RefOps

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in set_option maxHeartbeats 4000000 in
theorem main_part0_eq (d : Dev nD) : main_part0 (F := F) d = seq (opsWin0 (F := F)) := rfl
set_option maxRecDepth 8192 in set_option maxHeartbeats 4000000 in
theorem main_part1_eq (d : Dev nD) : main_part1 (F := F) d = seq (opsWin1 (F := F)) := rfl
set_option maxRecDepth 8192 in set_option maxHeartbeats 4000000 in
theorem main_part2_eq (d : Dev nD) : main_part2 (F := F) d = seq (opsWin2 (F := F)) := rfl
set_option maxRecDepth 8192 in set_option maxHeartbeats 4000000 in
theorem main_part3_eq (d : Dev nD) : main_part3 (F := F) d = seq (opsWin3 (F := F)) := rfl
set_option maxRecDepth 8192 in set_option maxHeartbeats 4000000 in
theorem main_part4_eq (d : Dev nD) : main_part4 (F := F) d = seq (opsWin4 (F := F)) := rfl
set_option maxRecDepth 8192 in set_option maxHeartbeats 4000000 in
theorem main_part5_eq (d : Dev nD) : main_part5 (F := F) d = seq (opsWin5 (F := F)) := rfl
set_option maxRecDepth 8192 in set_option maxHeartbeats 4000000 in
theorem main_part6_eq (d : Dev nD) : main_part6 (F := F) d = seq (opsWin6 (F := F)) := rfl

/-- The windows' lists, joined, are the list of all operations. -/
theorem wins_eq :
    opsWin0 (F := F) ++ (opsWin1 ++ (opsWin2 ++ (opsWin3 ++ (opsWin4 ++ (opsWin5 ++ opsWin6))))) = opsAll := by
  unfold opsWin0 opsWin1 opsWin2 opsWin3 opsWin4 opsWin5 opsWin6 opsAll
  rw [← opsField4_split, ← opsField8_split, ← opsField13_split, ← opsField18_split, ← opsField22_split, ← opsTail_split]
  simp only [List.append_assoc]

/-- @main is the line of all its operations. -/
theorem main_eq (d : Dev nD) : Cert.ReferenceIdeal.main (F := F) d = seq (opsAll (F := F)) := by
  rw [← wins_eq]
  simp only [seq_append]
  unfold Cert.ReferenceIdeal.main
  rw [main_part0_eq d, main_part1_eq d, main_part2_eq d, main_part3_eq d, main_part4_eq d, main_part5_eq d, main_part6_eq d]

end Cert.Proof.RefRun

end
-- ==== Proof.RefRun.lean ====
import proofs.«205318_g12532714570102_cont_fleet_669_37_alg».proof.Proof.RefKeep
import proofs.«205318_g12532714570102_cont_fleet_669_37_alg».proof.Proof.RefMainEq

/-!
# The reference program's run

Every weakly fair execution of the reference's @main terminates, with its result buffer at the
fold of the 367 host operations over the launch contents and the nine argument arrays as they
were: no operation writes an argument.
-/

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-- The run: the result at the fold of the operations, the arguments unchanged. -/
theorem run_frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v308)
          = after (opsAll (F := F)) (launchContents m c) (Proc.devRef .tc main_v308)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨h c main_v308,
      (h c main_arg0).trans ((opsAll_arg0 _).trans rfl),
      (h c main_arg1).trans ((opsAll_arg1 _).trans rfl),
      (h c main_arg2).trans ((opsAll_arg2 _).trans rfl),
      (h c main_arg3).trans ((opsAll_arg3 _).trans rfl),
      (h c main_arg4).trans ((opsAll_arg4 _).trans rfl),
      (h c main_arg5).trans ((opsAll_arg5 _).trans rfl),
      (h c main_arg6).trans ((opsAll_arg6 _).trans rfl),
      (h c main_arg7).trans ((opsAll_arg7 _).trans rfl),
      (h c main_arg8).trans ((opsAll_arg8 _).trans rfl)⟩)
    (run_seq scopedRefs_eq scopedSems_eq defs main (fun _ => opsAll) main_eq
      (fun _ => List.forall_iff_forall_mem.2 fun op h => (opsAll_plain op h).1) m ρ
      (fun _ op h => (opsAll_plain op h).2))

end Cert.Proof.RefRun

end
-- ==== Proof.KI.RegionValue.lean ====
/-
  What the region leaves in the output array, block by block: the output window's blocks at the four grid points are
  pairwise disjoint column bands, so block `t` of the final array is what point `t` wrote back, the body's store
  over the input blocks at `t`.
-/
import proofs.«205318_g12532714570102_cont_fleet_669_37_alg».proof.Proof.KI.Region
import Idealize.ShloMosaic.Lib.Pipeline.Value

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : TcVal F)

/-- The output window's block index at point `t` on the column axis is `t`; its size there is 4096. -/
theorem index12 : ∀ t : Fin cfg1.N, (cfg1.win 12).index t 1 = t.val :=
  (by decide +kernel : ∀ t : Fin grid1.N, win1_12.index t 1 = t.val)

/-- The output window's blocks at distinct points are disjoint. -/
theorem blk12_disjoint (t t' : Fin cfg1.N) (h : t ≠ t') :
    Disjoint ((cfg1.win 12).blk t).view.set ((cfg1.win 12).blk t').view.set := by
  show Disjoint ((View.whole main_v30).slice ((cfg1.win 12).rect t)).set ((View.whole main_v30).slice ((cfg1.win 12).rect t')).set
  rw [View.set_slice_whole, View.set_slice_whole]
  refine Rect.unit_disjoint (1 : Fin 2) ?_
  show (cfg1.win 12).index t 1 * 4096 + 4096 ≤ (cfg1.win 12).index t' 1 * 4096 ∨ (cfg1.win 12).index t' 1 * 4096 + 4096 ≤ (cfg1.win 12).index t 1 * 4096
  rw [index12, index12]
  have : t.val ≠ t'.val := fun e => h (Fin.ext e)
  omega

/-- Block `t` of the output array after the region is the body's store over the input blocks at `t`. -/
theorem out30_block (c : Dev nD) (t : Fin cfg1.N) :
    ((cfg1.win 12).blk t).view.read (Elt F) (out30 V c)
      = out12 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) := by
  have h := (dat V c).read_blk_arrAt_eq_flushed 12 (fun t t' _ _ hne => blk12_disjoint t t' hne) cfg1.N t t.isLt (flush1_12 t)
  rw [show (dat V c).flushed 12 t = (dat V c).after 12 t from rfl, after1_12] at h
  exact h

end Cert.Proof.KI

end
-- ==== Proof.KI.RegionIndex.lean ====
/-
  The region's blocks against whole arrays, at an index: an element of an input window's block at a grid point is
  an element of the window's array (the batch axis offset by the point's 4096 columns or rows; the weight windows
  are their whole arrays), and an element of the output array under a point's block is the body's store over the
  input blocks there.
-/
import proofs.«205318_g12532714570102_cont_fleet_669_37_alg».proof.Proof.KI.RegionValue
import Idealize.ShloMosaic.Lib.ValueIdx

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.ValueIdx

variable (V : TcVal F)

/-- A grid point's number is below four. -/
theorem pt_lt (t : Fin cfg1.N) : t.val < 4 := Nat.lt_of_lt_of_eq t.isLt N_1

/-! ## The windows' block indices -/

theorem index0 : ∀ t : Fin cfg1.N, (cfg1.win 0).index t 0 = 0 ∧ (cfg1.win 0).index t 1 = t.val :=
  (by decide +kernel : ∀ t : Fin grid1.N, win1_0.index t 0 = 0 ∧ win1_0.index t 1 = t.val)
theorem index1 : ∀ t : Fin cfg1.N, (cfg1.win 1).index t 0 = 0 ∧ (cfg1.win 1).index t 1 = t.val :=
  (by decide +kernel : ∀ t : Fin grid1.N, win1_1.index t 0 = 0 ∧ win1_1.index t 1 = t.val)
theorem index2 : ∀ t : Fin cfg1.N, (cfg1.win 2).index t 0 = t.val ∧ (cfg1.win 2).index t 1 = 0 :=
  (by decide +kernel : ∀ t : Fin grid1.N, win1_2.index t 0 = t.val ∧ win1_2.index t 1 = 0)
theorem index3 : ∀ t : Fin cfg1.N, (cfg1.win 3).index t 0 = 0 ∧ (cfg1.win 3).index t 1 = 0 :=
  (by decide +kernel : ∀ t : Fin grid1.N, win1_3.index t 0 = 0 ∧ win1_3.index t 1 = 0)
theorem index4 : ∀ t : Fin cfg1.N, (cfg1.win 4).index t 0 = 0 ∧ (cfg1.win 4).index t 1 = 0 :=
  (by decide +kernel : ∀ t : Fin grid1.N, win1_4.index t 0 = 0 ∧ win1_4.index t 1 = 0)
theorem index5 : ∀ t : Fin cfg1.N, (cfg1.win 5).index t 0 = 0 ∧ (cfg1.win 5).index t 1 = 0 :=
  (by decide +kernel : ∀ t : Fin grid1.N, win1_5.index t 0 = 0 ∧ win1_5.index t 1 = 0)
theorem index6 : ∀ t : Fin cfg1.N, (cfg1.win 6).index t 0 = 0 ∧ (cfg1.win 6).index t 1 = 0 :=
  (by decide +kernel : ∀ t : Fin grid1.N, win1_6.index t 0 = 0 ∧ win1_6.index t 1 = 0)
theorem index7 : ∀ t : Fin cfg1.N, (cfg1.win 7).index t 0 = 0 ∧ (cfg1.win 7).index t 1 = 0 :=
  (by decide +kernel : ∀ t : Fin grid1.N, win1_7.index t 0 = 0 ∧ win1_7.index t 1 = 0)
theorem index8 : ∀ t : Fin cfg1.N, (cfg1.win 8).index t 0 = 0 ∧ (cfg1.win 8).index t 1 = 0 :=
  (by decide +kernel : ∀ t : Fin grid1.N, win1_8.index t 0 = 0 ∧ win1_8.index t 1 = 0)
theorem index9 : ∀ t : Fin cfg1.N, (cfg1.win 9).index t 0 = 0 ∧ (cfg1.win 9).index t 1 = 0 :=
  (by decide +kernel : ∀ t : Fin grid1.N, win1_9.index t 0 = 0 ∧ win1_9.index t 1 = 0)
theorem index10 : ∀ t : Fin cfg1.N, (cfg1.win 10).index t 0 = 0 ∧ (cfg1.win 10).index t 1 = 0 :=
  (by decide +kernel : ∀ t : Fin grid1.N, win1_10.index t 0 = 0 ∧ win1_10.index t 1 = 0)
theorem index11 : ∀ t : Fin cfg1.N, (cfg1.win 11).index t 0 = 0 ∧ (cfg1.win 11).index t 1 = 0 :=
  (by decide +kernel : ∀ t : Fin grid1.N, win1_11.index t 0 = 0 ∧ win1_11.index t 1 = 0)
theorem index12' : ∀ t : Fin cfg1.N, (cfg1.win 12).index t 0 = 0 ∧ (cfg1.win 12).index t 1 = t.val :=
  (by decide +kernel : ∀ t : Fin grid1.N, win1_12.index t 0 = 0 ∧ win1_12.index t 1 = t.val)

/-! ## Where a block's element sits in its array -/

/-- Windows 0, 1 and 12 (blocks of 4096 columns): the element at `[p, j]` of the block at point `t` is the array's at `[p, 4096 t + j]`. -/
theorem emb0 (t : Fin cfg1.N) (p : Fin 39) (j : Fin 4096) :
    ((cfg1.win 0).blk t).view.emb (ix2 p j) = ix2 p (⟨4096 * t.val + j.val, by have := pt_lt t; omega⟩ : Fin 16384) := by
  funext a; apply Fin.ext
  show (((cfg1.win 0).rect t).emb (ix2 p j) a : Nat) = _
  rw [Window.rect_emb_val]
  match a with
  | ⟨0, _⟩ => show (cfg1.win 0).index t 0 * 39 + p.val = p.val; rw [(index0 t).1]; omega
  | ⟨1, _⟩ => show (cfg1.win 0).index t 1 * 4096 + j.val = 4096 * t.val + j.val; rw [(index0 t).2]; omega
theorem emb1 (t : Fin cfg1.N) (p : Fin 416) (j : Fin 4096) :
    ((cfg1.win 1).blk t).view.emb (ix2 p j) = ix2 p (⟨4096 * t.val + j.val, by have := pt_lt t; omega⟩ : Fin 16384) := by
  funext a; apply Fin.ext
  show (((cfg1.win 1).rect t).emb (ix2 p j) a : Nat) = _
  rw [Window.rect_emb_val]
  match a with
  | ⟨0, _⟩ => show (cfg1.win 1).index t 0 * 416 + p.val = p.val; rw [(index1 t).1]; omega
  | ⟨1, _⟩ => show (cfg1.win 1).index t 1 * 4096 + j.val = 4096 * t.val + j.val; rw [(index1 t).2]; omega
theorem emb12 (t : Fin cfg1.N) (r : Fin 2) (j : Fin 4096) :
    ((cfg1.win 12).blk t).view.emb (ix2 r j) = ix2 r (⟨4096 * t.val + j.val, by have := pt_lt t; omega⟩ : Fin 16384) := by
  funext a; apply Fin.ext
  show (((cfg1.win 12).rect t).emb (ix2 r j) a : Nat) = _
  rw [Window.rect_emb_val]
  match a with
  | ⟨0, _⟩ => show (cfg1.win 12).index t 0 * 2 + r.val = r.val; rw [(index12' t).1]; omega
  | ⟨1, _⟩ => show (cfg1.win 12).index t 1 * 4096 + j.val = 4096 * t.val + j.val; rw [(index12' t).2]; omega
/-- Window 2 (blocks of 4096 rows): the element at `[j, k]` of the block at point `t` is the array's at `[4096 t + j, k]`. -/
theorem emb2 (t : Fin cfg1.N) (j : Fin 4096) (k : Fin 128) :
    ((cfg1.win 2).blk t).view.emb (ix2 j k) = ix2 (⟨4096 * t.val + j.val, by have := pt_lt t; omega⟩ : Fin 16384) k := by
  funext a; apply Fin.ext
  show (((cfg1.win 2).rect t).emb (ix2 j k) a : Nat) = _
  rw [Window.rect_emb_val]
  match a with
  | ⟨0, _⟩ => show (cfg1.win 2).index t 0 * 4096 + j.val = 4096 * t.val + j.val; rw [(index2 t).1]; omega
  | ⟨1, _⟩ => show (cfg1.win 2).index t 1 * 128 + k.val = k.val; rw [(index2 t).2]; omega
/-- Window 3: the block is the whole array. -/
theorem emb3 (t : Fin cfg1.N) (y : (⟨2, ![256, 416]⟩ : Shape).Idx) :
    ((cfg1.win 3).blk t).view.emb y = y := by
  funext a; apply Fin.ext
  show (((cfg1.win 3).rect t).emb y a : Nat) = _
  rw [Window.rect_emb_val]
  match a with
  | ⟨0, _⟩ => show (cfg1.win 3).index t 0 * 256 + (y 0).val = (y 0).val; rw [(index3 t).1]; omega
  | ⟨1, _⟩ => show (cfg1.win 3).index t 1 * 416 + (y 1).val = (y 1).val; rw [(index3 t).2]; omega
/-- Window 4: the block is the whole array. -/
theorem emb4 (t : Fin cfg1.N) (y : (⟨2, ![256, 13]⟩ : Shape).Idx) :
    ((cfg1.win 4).blk t).view.emb y = y := by
  funext a; apply Fin.ext
  show (((cfg1.win 4).rect t).emb y a : Nat) = _
  rw [Window.rect_emb_val]
  match a with
  | ⟨0, _⟩ => show (cfg1.win 4).index t 0 * 256 + (y 0).val = (y 0).val; rw [(index4 t).1]; omega
  | ⟨1, _⟩ => show (cfg1.win 4).index t 1 * 13 + (y 1).val = (y 1).val; rw [(index4 t).2]; omega
/-- Window 5: the block is the whole array. -/
theorem emb5 (t : Fin cfg1.N) (y : (⟨2, ![416, 26]⟩ : Shape).Idx) :
    ((cfg1.win 5).blk t).view.emb y = y := by
  funext a; apply Fin.ext
  show (((cfg1.win 5).rect t).emb y a : Nat) = _
  rw [Window.rect_emb_val]
  match a with
  | ⟨0, _⟩ => show (cfg1.win 5).index t 0 * 416 + (y 0).val = (y 0).val; rw [(index5 t).1]; omega
  | ⟨1, _⟩ => show (cfg1.win 5).index t 1 * 26 + (y 1).val = (y 1).val; rw [(index5 t).2]; omega
/-- Window 6: the block is the whole array. -/
theorem emb6 (t : Fin cfg1.N) (y : (⟨2, ![256, 1]⟩ : Shape).Idx) :
    ((cfg1.win 6).blk t).view.emb y = y := by
  funext a; apply Fin.ext
  show (((cfg1.win 6).rect t).emb y a : Nat) = _
  rw [Window.rect_emb_val]
  match a with
  | ⟨0, _⟩ => show (cfg1.win 6).index t 0 * 256 + (y 0).val = (y 0).val; rw [(index6 t).1]; omega
  | ⟨1, _⟩ => show (cfg1.win 6).index t 1 * 1 + (y 1).val = (y 1).val; rw [(index6 t).2]; omega
/-- Window 7: the block is the whole array. -/
theorem emb7 (t : Fin cfg1.N) (y : (⟨2, ![128, 256]⟩ : Shape).Idx) :
    ((cfg1.win 7).blk t).view.emb y = y := by
  funext a; apply Fin.ext
  show (((cfg1.win 7).rect t).emb y a : Nat) = _
  rw [Window.rect_emb_val]
  match a with
  | ⟨0, _⟩ => show (cfg1.win 7).index t 0 * 128 + (y 0).val = (y 0).val; rw [(index7 t).1]; omega
  | ⟨1, _⟩ => show (cfg1.win 7).index t 1 * 256 + (y 1).val = (y 1).val; rw [(index7 t).2]; omega
/-- Window 8: the block is the whole array. -/
theorem emb8 (t : Fin cfg1.N) (y : (⟨2, ![128, 1]⟩ : Shape).Idx) :
    ((cfg1.win 8).blk t).view.emb y = y := by
  funext a; apply Fin.ext
  show (((cfg1.win 8).rect t).emb y a : Nat) = _
  rw [Window.rect_emb_val]
  match a with
  | ⟨0, _⟩ => show (cfg1.win 8).index t 0 * 128 + (y 0).val = (y 0).val; rw [(index8 t).1]; omega
  | ⟨1, _⟩ => show (cfg1.win 8).index t 1 * 1 + (y 1).val = (y 1).val; rw [(index8 t).2]; omega
/-- Window 9: the block is the whole array. -/
theorem emb9 (t : Fin cfg1.N) (y : (⟨2, ![2, 128]⟩ : Shape).Idx) :
    ((cfg1.win 9).blk t).view.emb y = y := by
  funext a; apply Fin.ext
  show (((cfg1.win 9).rect t).emb y a : Nat) = _
  rw [Window.rect_emb_val]
  match a with
  | ⟨0, _⟩ => show (cfg1.win 9).index t 0 * 2 + (y 0).val = (y 0).val; rw [(index9 t).1]; omega
  | ⟨1, _⟩ => show (cfg1.win 9).index t 1 * 128 + (y 1).val = (y 1).val; rw [(index9 t).2]; omega
/-- Window 10: the block is the whole array. -/
theorem emb10 (t : Fin cfg1.N) (y : (⟨2, ![2, 128]⟩ : Shape).Idx) :
    ((cfg1.win 10).blk t).view.emb y = y := by
  funext a; apply Fin.ext
  show (((cfg1.win 10).rect t).emb y a : Nat) = _
  rw [Window.rect_emb_val]
  match a with
  | ⟨0, _⟩ => show (cfg1.win 10).index t 0 * 2 + (y 0).val = (y 0).val; rw [(index10 t).1]; omega
  | ⟨1, _⟩ => show (cfg1.win 10).index t 1 * 128 + (y 1).val = (y 1).val; rw [(index10 t).2]; omega
/-- Window 11: the block is the whole array. -/
theorem emb11 (t : Fin cfg1.N) (y : (⟨2, ![2, 1]⟩ : Shape).Idx) :
    ((cfg1.win 11).blk t).view.emb y = y := by
  funext a; apply Fin.ext
  show (((cfg1.win 11).rect t).emb y a : Nat) = _
  rw [Window.rect_emb_val]
  match a with
  | ⟨0, _⟩ => show (cfg1.win 11).index t 0 * 2 + (y 0).val = (y 0).val; rw [(index11 t).1]; omega
  | ⟨1, _⟩ => show (cfg1.win 11).index t 1 * 1 + (y 1).val = (y 1).val; rw [(index11 t).2]; omega

/-! ## The input blocks at an index -/

theorem iblk0_apply (c : Dev nD) (t : Fin cfg1.N) (p : Fin 39) (j : Fin 4096) :
    iblk V c 0 t (ix2 p j) = V c main_v1 (ix2 p (⟨4096 * t.val + j.val, by have := pt_lt t; omega⟩ : Fin 16384)) := by
  unfold iblk; rw [View.read_apply, emb0]; rfl
theorem iblk1_apply (c : Dev nD) (t : Fin cfg1.N) (p : Fin 416) (j : Fin 4096) :
    iblk V c 1 t (ix2 p j) = V c main_v2 (ix2 p (⟨4096 * t.val + j.val, by have := pt_lt t; omega⟩ : Fin 16384)) := by
  unfold iblk; rw [View.read_apply, emb1]; rfl
theorem iblk2_apply (c : Dev nD) (t : Fin cfg1.N) (j : Fin 4096) (k : Fin 128) :
    iblk V c 2 t (ix2 j k) = V c main_arg0 (ix2 (⟨4096 * t.val + j.val, by have := pt_lt t; omega⟩ : Fin 16384) k) := by
  unfold iblk; rw [View.read_apply, emb2]; rfl
theorem iblk3_eq (c : Dev nD) (t : Fin cfg1.N) : iblk V c 3 t = V c main_v18 := by
  funext y; unfold iblk; rw [View.read_apply, emb3]; rfl
theorem iblk4_eq (c : Dev nD) (t : Fin cfg1.N) : iblk V c 4 t = V c main_v20 := by
  funext y; unfold iblk; rw [View.read_apply, emb4]; rfl
theorem iblk5_eq (c : Dev nD) (t : Fin cfg1.N) : iblk V c 5 t = V c main_v21 := by
  funext y; unfold iblk; rw [View.read_apply, emb5]; rfl
theorem iblk6_eq (c : Dev nD) (t : Fin cfg1.N) : iblk V c 6 t = V c main_v22 := by
  funext y; unfold iblk; rw [View.read_apply, emb6]; rfl
theorem iblk7_eq (c : Dev nD) (t : Fin cfg1.N) : iblk V c 7 t = V c main_v23 := by
  funext y; unfold iblk; rw [View.read_apply, emb7]; rfl
theorem iblk8_eq (c : Dev nD) (t : Fin cfg1.N) : iblk V c 8 t = V c main_v24 := by
  funext y; unfold iblk; rw [View.read_apply, emb8]; rfl
theorem iblk9_eq (c : Dev nD) (t : Fin cfg1.N) : iblk V c 9 t = V c main_v26 := by
  funext y; unfold iblk; rw [View.read_apply, emb9]; rfl
theorem iblk10_eq (c : Dev nD) (t : Fin cfg1.N) : iblk V c 10 t = V c main_v28 := by
  funext y; unfold iblk; rw [View.read_apply, emb10]; rfl
theorem iblk11_eq (c : Dev nD) (t : Fin cfg1.N) : iblk V c 11 t = V c main_v29 := by
  funext y; unfold iblk; rw [View.read_apply, emb11]; rfl

/-! ## The output array at an index -/

theorem zero2 : (![0, 0] : Fin 2 → Nat) = fun _ => 0 := by funext a; fin_cases a <;> rfl

/-- The body's store over the input buffers' read contents, with the whole-buffer loads and the one covering store
    read through: the payload over the contents themselves. -/
theorem out12_eq (x0 : Vec F S39x4096 .i32) (x1 : Vec F S416x4096 .f32) (x2 : Vec F S4096x128 .f32) (x3 : Vec F S256x416 .f32)
    (x4 : Vec F S256x13 .f32) (x5 : Vec F S416x26 .f32) (x6 : Vec F S256x1 .f32) (x7 : Vec F S128x256 .f32)
    (x8 : Vec F S128x1 .f32) (x9 : Vec F S2x128 .f32) (x10 : Vec F S2x128 .f32) (x11 : Vec F S2x1 .f32) :
    out12 x0 x1 x2 x3 x4 x5 x6 x7 x8 x9 x10 x11
      = k1_pay1 (k1_pay2 x0 x3 x5 x3 x1 x4 x6) (k1_pay3 x7) (constant S128x4096 .f32 0x00000000#32) x8 x9 x10 x2 x11 := by
  unfold out12 pay1
  rw [View.canon_unit_zero (S := S2x4096) zero2]
  rw [View.ld_unit_zero (S := S39x4096) zero2, View.ld_unit_zero (S := S256x416) zero2, View.ld_unit_zero (S := S416x26) zero2, View.ld_unit_zero (S := S416x4096) zero2, View.ld_unit_zero (S := S256x13) zero2, View.ld_unit_zero (S := S256x1) zero2, View.ld_unit_zero (S := S128x256) zero2, View.ld_unit_zero (S := S128x1) zero2, View.ld_unit_zero (S := S2x128) zero2, View.ld_unit_zero (S := S4096x128) zero2, View.ld_unit_zero (S := S2x1) zero2, View.ld_unit_zero (S := S2x128) zero2]

set_option maxHeartbeats 1000000 in
/-- The element of the output array at `[r, 4096 t + j]` after the region is the body's store over the input blocks at
    point `t`, at `[r, j]`. -/
theorem out30_apply (c : Dev nD) (t : Fin cfg1.N) (r : Fin 2) (j : Fin 4096) :
    out30 V c (ix2 r (⟨4096 * t.val + j.val, by have := pt_lt t; omega⟩ : Fin 16384))
      = out12 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (ix2 r j) := by
  have h := congrFun (out30_block V c t) (ix2 r j)
  rw [View.read_apply, emb12] at h
  exact h

end Cert.Proof.KI

end
-- ==== Proof.KV.Pay2.lean ====
import proofs.«205318_g12532714570102_cont_fleet_669_37_alg».proof.KernelIdeal
import proofs.«205318_g12532714570102_cont_fleet_669_37_alg».proof.Proof.Gen.KernelIdeal.Skeleton
import proofs.«205318_g12532714570102_cont_fleet_669_37_alg».proof.Proof.Spec
import proofs.«205318_g12532714570102_cont_fleet_669_37_alg».proof.Proof.KV.Ops

noncomputable section

namespace Cert.Proof.KV

open Idealize.ShloMosaic Idealize.ShloMosaic.ValueIdx Cert.KernelIdeal Cert.KernelIdeal.Gen

/-!
# The first-layer activation block of the TensorCore body, read at an index

`k1_pay2` is `relu (x1 + b1)` on a block of 4096 batch columns, everything transposed:
`x1 = W1aᵀ · embᵀ + W1eᵀ · contᵀ + cneg · mask`, `cneg = 0 - W1aᵀ · Rᵀ`.
-/

/-- The `256 × 416` by `416 × 26` product of the body into the zero accumulator, read at `(i, j)`. -/
theorem mm_256_416_26 (A : FVec Ideal S256x416 .f32) (B : FVec Ideal S416x26 .f32) (i : Fin 256) (j : Fin 26) :
    matmul dot_S256x416_S416x26_S256x26_1_0_0_1_n_n none A B (constant S256x26 .f32 0x00000000#32) (ix2 i j)
      = ∑ k : Fin 416, A (ix2 i k) * B (ix2 k j) :=
  plain_matmul_apply 256 416 26 A B i j

/-- The `256 × 416` by `416 × 4096` product of the body into the zero accumulator, read at `(i, j)`. -/
theorem mm_256_416_4096 (A : FVec Ideal S256x416 .f32) (B : FVec Ideal S416x4096 .f32) (i : Fin 256) (j : Fin 4096) :
    matmul dot_S256x416_S416x4096_S256x4096_1_0_0_1_n_n none A B (constant S256x4096 .f32 0x00000000#32) (ix2 i j)
      = ∑ k : Fin 416, A (ix2 i k) * B (ix2 k j) :=
  plain_matmul_apply 256 416 4096 A B i j

/-- The `256 × 13` by `13 × 4096` product of the body into the zero accumulator, read at `(i, j)`. -/
theorem mm_256_13_4096 (A : FVec Ideal S256x13 .f32) (B : FVec Ideal S13x4096 .f32) (i : Fin 256) (j : Fin 4096) :
    matmul dot_S256x13_S13x4096_S256x4096_1_0_0_1_n_n none A B (constant S256x4096 .f32 0x00000000#32) (ix2 i j)
      = ∑ k : Fin 13, A (ix2 i k) * B (ix2 k j) :=
  plain_matmul_apply 256 13 4096 A B i j

/-- The `256 × 26` by `26 × 4096` product of the body into the zero accumulator, read at `(i, j)`. -/
theorem mm_256_26_4096 (A : FVec Ideal S256x26 .f32) (B : FVec Ideal S26x4096 .f32) (i : Fin 256) (j : Fin 4096) :
    matmul dot_S256x26_S26x4096_S256x4096_1_0_0_1_n_n none A B (constant S256x4096 .f32 0x00000000#32) (ix2 i j)
      = ∑ k : Fin 26, A (ix2 i k) * B (ix2 k j) :=
  plain_matmul_apply 256 26 4096 A B i j

/-- The continuous features of the block: rows 26‥38 of the index block, converted. -/
theorem cont_apply (v0 : IVec S39x4096 32) (k : Fin 13) (y : Fin 4096) :
    (sitofp .f32 (extractStridedSlice S13x4096 ![26, 0] v0 slices_S39x4096_o26_0_S13x4096) : FVec Ideal S13x4096 .f32) (ix2 k y)
      = Spec.i2f (v0 (ix2 (⟨26 + k.val, by omega⟩ : Fin 39) y)) := by
  rw [sitofp_apply, slice2_axis0_apply 26 v0 slices_S39x4096_o26_0_S13x4096 k y (⟨26 + k.val, by omega⟩ : Fin 39) rfl]
  rfl

/-- The zero-index mask of the block: rows 0‥25 of the index block compared with zero, as `0` / `1`. -/
theorem mask_apply (v0 : IVec S39x4096 32) (f : Fin 26) (y : Fin 4096) :
    (sitofp .f32 (extui 32 (cmpi .eq (extractStridedSlice S26x4096 ![0, 0] v0 slices_S39x4096_o0_0_S26x4096)
        (broadcast S26x4096 0#32)) natLt_1_32) : FVec Ideal S26x4096 .f32) (ix2 f y)
      = if v0 (ix2 (⟨f.val, by omega⟩ : Fin 39) y) = 0#32 then (1 : EReal) else 0 := by
  rw [sitofp_apply, extui_apply]
  show FloatOps.sitofp (F := Ideal) .f32 ((IntOp.cmpi .eq
      (extractStridedSlice S26x4096 ![0, 0] v0 slices_S39x4096_o0_0_S26x4096 (ix2 f y)) 0#32).setWidth 32) = _
  rw [slice2_axis0_apply 0 v0 slices_S39x4096_o0_0_S26x4096 f y (⟨f.val, by omega⟩ : Fin 39) (Nat.zero_add _).symm]
  exact sitofp_eq_zero_bit _

/-- The negated first-layer image of the row-0 table. -/
theorem cneg_apply (v9 : FVec Ideal S256x416 .f32) (v11 : FVec Ideal S416x26 .f32) (h : Fin 256) (f : Fin 26) :
    subf (broadcast S256x26 (FloatOps.ofBits (F := Ideal) .f32 0x00000000#32))
        (matmul dot_S256x416_S416x26_S256x26_1_0_0_1_n_n none v9 v11 (constant S256x26 .f32 0x00000000#32)) (ix2 h f)
      = 0 - ∑ p : Fin 416, v9 (ix2 h p) * v11 (ix2 p f) := by
  rw [subf_apply, broadcast_apply, mm_256_416_26]
  show Ideal.ofBits .f32 0x00000000#32 - _ = _
  rw [Ideal.ofBits_zero_f32]

theorem pay2_apply (v0 : Vec Ideal S39x4096 .i32) (v9 : Vec Ideal S256x416 .f32) (v11 : Vec Ideal S416x26 .f32)
    (v16 : Vec Ideal S256x416 .f32) (v18 : Vec Ideal S416x4096 .f32) (v21 : Vec Ideal S256x13 .f32)
    (v27 : Vec Ideal S256x1 .f32) (h : Fin 256) (y : Fin 4096) :
    k1_pay2 v0 v9 v11 v16 v18 v21 v27 (ix2 h y) =
      max ((((∑ p : Fin 416, v16 (ix2 h p) * v18 (ix2 p y))
              + (∑ k : Fin 13, v21 (ix2 h k) * Spec.i2f (v0 (ix2 (⟨26 + k.val, by omega⟩ : Fin 39) y))))
            + ∑ f : Fin 26, (0 - ∑ p : Fin 416, v9 (ix2 h p) * v11 (ix2 p f))
                * (if v0 (ix2 (⟨f.val, by omega⟩ : Fin 39) y) = 0#32 then (1 : EReal) else 0))
          + v27 (ix2 h (0 : Fin 1))) 0 := by
  unfold k1_pay2
  simp only [shapeCast_self]
  rw [maximumf_apply, addf_apply, addf_apply, addf_apply, broadcast_apply, broadcastTo_a1_ab_apply,
    mm_256_416_4096, mm_256_13_4096, mm_256_26_4096]
  simp only [cont_apply, mask_apply, cneg_apply]
  show max _ (Ideal.ofBits .f32 0x00000000#32) = _
  rw [Ideal.ofBits_zero_f32]

end Cert.Proof.KV

end
-- ==== Proof.KV.MlpPay.lean ====
import proofs.«205318_g12532714570102_cont_fleet_669_37_alg».proof.KernelIdeal
import proofs.«205318_g12532714570102_cont_fleet_669_37_alg».proof.Proof.Gen.KernelIdeal.Skeleton
import proofs.«205318_g12532714570102_cont_fleet_669_37_alg».proof.Proof.Spec
import proofs.«205318_g12532714570102_cont_fleet_669_37_alg».proof.Proof.KV.Ops
import proofs.«205318_g12532714570102_cont_fleet_669_37_alg».proof.Proof.KV.Pay2

noncomputable section

namespace Cert.Proof.KV

open Idealize.ShloMosaic Idealize.ShloMosaic.ValueIdx Cert.KernelIdeal Cert.KernelIdeal.Gen

/-!
# The stored block of the TensorCore body, read at an index

`k1_pay1` is `Wdᵀ · relu (W2ᵀ · a1 + b2) + Wwᵀ · Xwᵀ + bout` on a block of 4096 batch columns
(`a1` the first-layer activation block, `k1_pay2`).  Read at `(c, y)` and with the blocks related
to the curried arrays, it is `Spec.kernelOut` at the block's batch entry `b0 y`.
-/

/-- The `128 × 256` by `256 × 4096` product of the body into the zero accumulator, read at `(i, j)`. -/
theorem mm_128_256_4096 (A : FVec Ideal S128x256 .f32) (B : FVec Ideal S256x4096 .f32) (i : Fin 128) (j : Fin 4096) :
    matmul dot_S128x256_S256x4096_S128x4096_1_0_0_1_n_n none A B (constant S128x4096 .f32 0x00000000#32) (ix2 i j)
      = ∑ k : Fin 256, A (ix2 i k) * B (ix2 k j) :=
  plain_matmul_apply 128 256 4096 A B i j

/-- The `2 × 128` by `128 × 4096` product of the body into the zero accumulator, read at `(i, j)`. -/
theorem mm_2_128_4096 (A : FVec Ideal S2x128 .f32) (B : FVec Ideal S128x4096 .f32) (i : Fin 2) (j : Fin 4096) :
    matmul dot_S2x128_S128x4096_S2x4096_1_0_0_1_n_n none A B (constant S2x4096 .f32 0x00000000#32) (ix2 i j)
      = ∑ k : Fin 128, A (ix2 i k) * B (ix2 k j) :=
  plain_matmul_apply 2 128 4096 A B i j

/-- The stored block at `(c, y)`, over blocks that are variables. -/
theorem pay1_apply (v32 : FVec Ideal S256x4096 .f32) (v34 : FVec Ideal S128x256 .f32) (v36 : Vec Ideal S128x1 .f32)
    (v42 : Vec Ideal S2x128 .f32) (v45 : Vec Ideal S2x128 .f32) (v47 : Vec Ideal S4096x128 .f32)
    (v51 : Vec Ideal S2x1 .f32) (c : Fin 2) (y : Fin 4096) :
    k1_pay1 v32 v34 (constant S128x4096 .f32 0x00000000#32) v36 v42 v45 v47 v51 (ix2 c y) =
      ((∑ j : Fin 128, v42 (ix2 c j)
            * max ((∑ h : Fin 256, v34 (ix2 j h) * v32 (ix2 h y)) + v36 (ix2 j (0 : Fin 1))) 0)
          + (∑ k : Fin 128, v45 (ix2 c k) * v47 (ix2 y k)))
        + v51 (ix2 c (0 : Fin 1)) := by
  unfold k1_pay1
  simp only [shapeCast_self]
  rw [addf_apply, addf_apply, broadcastTo_a1_ab_apply, mm_2_128_4096, mm_2_128_4096]
  simp only [maximumf_apply, addf_apply, broadcast_apply, broadcastTo_a1_ab_apply, mm_128_256_4096,
    transpose_ix2_apply]
  show (∑ j : Fin 128, v42 (ix2 c j)
            * max ((∑ h : Fin 256, v34 (ix2 j h) * v32 (ix2 h y)) + v36 (ix2 j (0 : Fin 1)))
                (Ideal.ofBits .f32 0x00000000#32)) + _ + _ = _
  rw [Ideal.ofBits_zero_f32]
  have ht : ∀ k : Fin 128, transpose S128x4096 [1, 0] v47 transposes_S4096x128_p1_0_S128x4096 (ix2 k y)
      = v47 (ix2 y k) := fun k => transpose_ix2_apply v47 transposes_S4096x128_p1_0_S128x4096 k y
  simp only [ht]

/-- THE STORED BLOCK IS THE SPECIFICATION'S KERNEL FORM.  `b0` names the batch entry under each of
    the block's 4096 columns; every block is related to its curried array by one hypothesis. -/
theorem mlp_pay_apply
    (Xw : Fin 16384 → Fin 128 → EReal) (Xd : Fin 16384 → Fin 39 → BitVec 32)
    (T : Fin 26 → Fin 100000 → Fin 16 → EReal) (W1 : Fin 429 → Fin 256 → EReal) (b1 : Fin 256 → EReal)
    (W2 : Fin 256 → Fin 128 → EReal) (b2 : Fin 128 → EReal) (Wo : Fin 256 → Fin 2 → EReal) (bo : Fin 2 → EReal)
    (b0 : Fin 4096 → Fin 16384)
    (xdBlk : Vec Ideal S39x4096 .i32) (w1aBlk w1aBlk' : Vec Ideal S256x416 .f32) (rTBlk : Vec Ideal S416x26 .f32)
    (embBlk : Vec Ideal S416x4096 .f32) (w1eBlk : Vec Ideal S256x13 .f32) (b1Blk : Vec Ideal S256x1 .f32)
    (w2Blk : Vec Ideal S128x256 .f32) (b2Blk : Vec Ideal S128x1 .f32) (wdBlk wwBlk : Vec Ideal S2x128 .f32)
    (xwBlk : Vec Ideal S4096x128 .f32) (boBlk : Vec Ideal S2x1 .f32)
    (hxd : ∀ (r : Fin 39) (y : Fin 4096), xdBlk (ix2 r y) = Xd (b0 y) r)
    (hemb : ∀ (p : Fin 416) (y : Fin 4096), embBlk (ix2 p y) = Spec.emb Xd T p (b0 y))
    (hxw : ∀ (y : Fin 4096) (k : Fin 128), xwBlk (ix2 y k) = Xw (b0 y) k)
    (hw1a : ∀ (h : Fin 256) (p : Fin 416), w1aBlk (ix2 h p) = W1 (Fin.castLE (by norm_num) p) h)
    (hw1a' : ∀ (h : Fin 256) (p : Fin 416), w1aBlk' (ix2 h p) = W1 (Fin.castLE (by norm_num) p) h)
    (hw1e : ∀ (h : Fin 256) (k : Fin 13), w1eBlk (ix2 h k) = W1 ⟨416 + k.val, by omega⟩ h)
    (hrT : ∀ (p : Fin 416) (f : Fin 26), rTBlk (ix2 p f) = Spec.rT T p f)
    (hb1 : ∀ h : Fin 256, b1Blk (ix2 h (0 : Fin 1)) = b1 h)
    (hw2 : ∀ (j : Fin 128) (h : Fin 256), w2Blk (ix2 j h) = W2 h j)
    (hb2 : ∀ j : Fin 128, b2Blk (ix2 j (0 : Fin 1)) = b2 j)
    (hwd : ∀ (c : Fin 2) (j : Fin 128), wdBlk (ix2 c j) = Wo (Fin.castLE (by norm_num) j) c)
    (hww : ∀ (c : Fin 2) (k : Fin 128), wwBlk (ix2 c k) = Wo ⟨128 + k.val, by omega⟩ c)
    (hbo : ∀ c : Fin 2, boBlk (ix2 c (0 : Fin 1)) = bo c)
    (c : Fin 2) (y : Fin 4096) :
    k1_pay1 (k1_pay2 xdBlk w1aBlk rTBlk w1aBlk' embBlk w1eBlk b1Blk) (k1_pay3 w2Blk)
        (constant S128x4096 .f32 0x00000000#32) b2Blk wdBlk wwBlk xwBlk boBlk (ix2 c y)
      = Spec.kernelOut Xw Xd T W1 b1 W2 b2 Wo bo (b0 y) c := by
  rw [pay1_apply]
  have h3 : k1_pay3 w2Blk = w2Blk := by unfold k1_pay3; exact shapeCast_self _ _
  rw [h3]
  simp only [pay2_apply, hxd, hemb, hxw, hw1a, hw1a', hw1e, hrT, hb1, hw2, hb2, hwd, hww, hbo]
  rfl

end Cert.Proof.KV

end
-- ==== Proof.KV.KernelHost.lean ====
import proofs.«205318_g12532714570102_cont_fleet_669_37_alg».proof.Proof.KI.Vals
import proofs.«205318_g12532714570102_cont_fleet_669_37_alg».proof.Proof.KI.RegionMain
import proofs.«205318_g12532714570102_cont_fleet_669_37_alg».proof.Proof.KI.RegionValue
import proofs.«205318_g12532714570102_cont_fleet_669_37_alg».proof.Proof.KV.HostGlue
import proofs.«205318_g12532714570102_cont_fleet_669_37_alg».proof.Proof.KV.MlpPay

/-!
# The arrays the TensorCore pipeline finds, and what the program's last operation reads

Along the program the argument arrays are never written; the two transposed arrays and the
gathered embeddings reach the pipeline as the first stretch and the SparseCore call left them;
the weight blocks are the second stretch's.  Each is read here at an index, in the terms of the
specification's curried arrays.
-/

set_option maxRecDepth 16384

noncomputable section

namespace Cert.Proof.KV

open Cert.KernelIdeal Cert.KernelIdeal.Gen Cert.Proof.KI
open Idealize.ShloMosaic Idealize.ShloMosaic.TcCoe Idealize.SL.Sem Idealize.ShloMosaic.StableHlo
open Idealize.ShloMosaic.ValueIdx
open Idealize.ShloMosaic.Pipeline (Dat Cfg Window)

variable (m : (ℓ : Loc nD τ sig) → Buf (Elt Ideal) ℓ)

/-- The pipeline's result as a function of the arrays it finds. -/
abbrev o30K : (d : Dev nD) → Valuation τ sig (Elt Ideal) → Buf (Elt Ideal) ((SparseCore.T (τ := τ) d).loc main_v30) :=
  fun d W => out30W W d

/-! ## The nine argument arrays at the launch, and the specification's curried arrays -/

abbrev A0 (d : Dev nD) : FVec Ideal S16384x128 .f32 := m ((SparseCore.T (τ := τ) d).loc main_arg0)
abbrev A1 (d : Dev nD) : IVec S16384x39 32 := m ((SparseCore.T (τ := τ) d).loc main_arg1)
abbrev A2 (d : Dev nD) : FVec Ideal S26x100000x16 .f32 := m ((SparseCore.T (τ := τ) d).loc main_arg2)
abbrev A3 (d : Dev nD) : FVec Ideal S429x256 .f32 := m ((SparseCore.T (τ := τ) d).loc main_arg3)
abbrev A4 (d : Dev nD) : FVec Ideal S256 .f32 := m ((SparseCore.T (τ := τ) d).loc main_arg4)
abbrev A5 (d : Dev nD) : FVec Ideal S256x128 .f32 := m ((SparseCore.T (τ := τ) d).loc main_arg5)
abbrev A6 (d : Dev nD) : FVec Ideal S128 .f32 := m ((SparseCore.T (τ := τ) d).loc main_arg6)
abbrev A7 (d : Dev nD) : FVec Ideal S256x2 .f32 := m ((SparseCore.T (τ := τ) d).loc main_arg7)
abbrev A8 (d : Dev nD) : FVec Ideal S2 .f32 := m ((SparseCore.T (τ := τ) d).loc main_arg8)

abbrev cXw (d : Dev nD) : Fin 16384 → Fin 128 → EReal := fun b k => A0 m d (ix2 b k)
abbrev cXd (d : Dev nD) : Fin 16384 → Fin 39 → BitVec 32 := fun b f => A1 m d (ix2 b f)
abbrev cT (d : Dev nD) : Fin 26 → Fin 100000 → Fin 16 → EReal := fun f r e => A2 m d (ix3 f r e)
abbrev cW1 (d : Dev nD) : Fin 429 → Fin 256 → EReal := fun q h => A3 m d (ix2 q h)
abbrev cb1 (d : Dev nD) : Fin 256 → EReal := fun h => A4 m d (ix1 h)
abbrev cW2 (d : Dev nD) : Fin 256 → Fin 128 → EReal := fun h j => A5 m d (ix2 h j)
abbrev cb2 (d : Dev nD) : Fin 128 → EReal := fun j => A6 m d (ix1 j)
abbrev cWo (d : Dev nD) : Fin 256 → Fin 2 → EReal := fun q c => A7 m d (ix2 q c)
abbrev cbo (d : Dev nD) : Fin 2 → EReal := fun c => A8 m d (ix1 c)

/-! ## Up to the pipeline: nothing writes an argument, nor (after the first call) the call's three arrays -/

/-- With the gathered rows in place, every array the first stretch and the call did not write is as launched. -/
theorem W1_of_ne (d : Dev nD) (r : Ref sig .tc) (h0 : r ≠ main_v0) (h1 : r ≠ main_v1) (h2 : r ≠ main_v2) :
    W1 m d (Proc.devRef .tc r) = m (d, Proc.devRef .tc r) := by
  unfold W1 WA
  rw [Function.update_of_ne (StableHlo.devRef_ne_of_ne h2 : (Proc.devRef .tc r : DevRef τ sig) ≠ Proc.devRef .tc main_v2),
    afterA_other _ r h0 h1]

/-- The transposed index matrix the pipeline finds. -/
theorem WB_v1_apply (d : Dev nD) (r : Fin 39) (b : Fin 16384) :
    (WB m d (Proc.devRef .tc main_v1) : IVec S39x16384 32) (ix2 r b) = cXd m d b r := by
  unfold WB
  rw [afterB_main_v1]
  unfold W1 WA
  rw [Function.update_of_ne (StableHlo.devRef_ne_of_ne (by decide : main_v1 ≠ main_v2) : (Proc.devRef .tc main_v1 : DevRef τ sig) ≠ Proc.devRef .tc main_v2)]
  exact afterA_v1 (W0 m d) r b

/-- The gathered embeddings the pipeline finds. -/
theorem WB_v2_apply (d : Dev nD) (p : Fin 416) (b : Fin 16384) :
    (WB m d (Proc.devRef .tc main_v2) : FVec Ideal S416x16384 .f32) (ix2 p b) = Spec.emb (cXd m d) (cT m d) p b := by
  unfold WB
  rw [afterB_main_v2]
  unfold W1
  rw [Function.update_self]
  exact embOf_eq_emb (Aof m) (Xof m) d (A1 m d) (A2 m d)
    (fun f dd r => afterA_v0 (W0 m d) f dd r) (fun r b => afterA_v1 (W0 m d) r b) p b

/-- The wide features the pipeline finds. -/
theorem WB_arg0 (d : Dev nD) : WB m d (Proc.devRef .tc main_arg0) = A0 m d := by
  unfold WB
  rw [afterB_main_arg0]
  exact W1_of_ne m d main_arg0 (by decide) (by decide) (by decide)

/-! ## The weight blocks the pipeline finds -/

theorem WB_v18_apply (d : Dev nD) (h : Fin 256) (p : Fin 416) :
    (WB m d (Proc.devRef .tc main_v18) : FVec Ideal S256x416 .f32) (ix2 h p) = cW1 m d (Fin.castLE (by norm_num) p) h := by
  unfold WB
  rw [afterB_v18]
  have e : arg3 (W1 m d) = A3 m d := W1_of_ne m d main_arg3 (by decide) (by decide) (by decide)
  rw [e]

theorem WB_v20_apply (d : Dev nD) (h : Fin 256) (k : Fin 13) :
    (WB m d (Proc.devRef .tc main_v20) : FVec Ideal S256x13 .f32) (ix2 h k) = cW1 m d ⟨416 + k.val, by omega⟩ h := by
  unfold WB
  rw [afterB_v20]
  have e : arg3 (W1 m d) = A3 m d := W1_of_ne m d main_arg3 (by decide) (by decide) (by decide)
  rw [e]

theorem WB_v21_apply (d : Dev nD) (p : Fin 416) (f : Fin 26) :
    (WB m d (Proc.devRef .tc main_v21) : FVec Ideal S416x26 .f32) (ix2 p f) = Spec.rT (cT m d) p f := by
  unfold WB
  rw [afterB_v21]
  have e : arg2 (W1 m d) = A2 m d := W1_of_ne m d main_arg2 (by decide) (by decide) (by decide)
  rw [e]

theorem WB_v22_apply (d : Dev nD) (h : Fin 256) (u : Fin 1) :
    (WB m d (Proc.devRef .tc main_v22) : FVec Ideal S256x1 .f32) (ix2 h u) = cb1 m d h := by
  unfold WB
  rw [afterB_v22]
  have e : arg4 (W1 m d) = A4 m d := W1_of_ne m d main_arg4 (by decide) (by decide) (by decide)
  rw [e]

theorem WB_v23_apply (d : Dev nD) (j : Fin 128) (h : Fin 256) :
    (WB m d (Proc.devRef .tc main_v23) : FVec Ideal S128x256 .f32) (ix2 j h) = cW2 m d h j := by
  unfold WB
  rw [afterB_v23]
  have e : arg5 (W1 m d) = A5 m d := W1_of_ne m d main_arg5 (by decide) (by decide) (by decide)
  rw [e]

theorem WB_v24_apply (d : Dev nD) (j : Fin 128) (u : Fin 1) :
    (WB m d (Proc.devRef .tc main_v24) : FVec Ideal S128x1 .f32) (ix2 j u) = cb2 m d j := by
  unfold WB
  rw [afterB_v24]
  have e : arg6 (W1 m d) = A6 m d := W1_of_ne m d main_arg6 (by decide) (by decide) (by decide)
  rw [e]

theorem WB_v26_apply (d : Dev nD) (c : Fin 2) (j : Fin 128) :
    (WB m d (Proc.devRef .tc main_v26) : FVec Ideal S2x128 .f32) (ix2 c j) = cWo m d (Fin.castLE (by norm_num) j) c := by
  unfold WB
  rw [afterB_v26]
  have e : arg7 (W1 m d) = A7 m d := W1_of_ne m d main_arg7 (by decide) (by decide) (by decide)
  rw [e]

theorem WB_v28_apply (d : Dev nD) (c : Fin 2) (k : Fin 128) :
    (WB m d (Proc.devRef .tc main_v28) : FVec Ideal S2x128 .f32) (ix2 c k) = cWo m d ⟨128 + k.val, by omega⟩ c := by
  unfold WB
  rw [afterB_v28]
  have e : arg7 (W1 m d) = A7 m d := W1_of_ne m d main_arg7 (by decide) (by decide) (by decide)
  rw [e]

theorem WB_v29_apply (d : Dev nD) (c : Fin 2) (u : Fin 1) :
    (WB m d (Proc.devRef .tc main_v29) : FVec Ideal S2x1 .f32) (ix2 c u) = cbo m d c := by
  unfold WB
  rw [afterB_v29]
  have e : arg8 (W1 m d) = A8 m d := W1_of_ne m d main_arg8 (by decide) (by decide) (by decide)
  rw [e]

/-! ## After the pipeline -/

/-- No host operation and neither call writes an argument array. -/
theorem WC_of_arg (d : Dev nD) (r : Ref sig .tc) (h0 : r ≠ main_v0) (h1 : r ≠ main_v1) (h2 : r ≠ main_v2)
    (h30 : r ≠ main_v30) (h31 : r ≠ main_v31)
    (hB : ∀ W : Valuation τ sig (Elt Ideal), after (opsB (F := Ideal)) W (Proc.devRef .tc r) = W (Proc.devRef .tc r)) :
    WC m (o30K) d (Proc.devRef .tc r) = m (d, Proc.devRef .tc r) := by
  unfold WC
  rw [afterC_other _ r h31]
  unfold W2
  rw [Function.update_of_ne (StableHlo.devRef_ne_of_ne h30 : (Proc.devRef .tc r : DevRef τ sig) ≠ Proc.devRef .tc main_v30)]
  unfold WB
  rw [hB, W1_of_ne m d r h0 h1 h2]

theorem kernel_arg0 (d : Dev nD) : WC m o30K d (Proc.devRef .tc main_arg0) = A0 m d :=
  WC_of_arg m d main_arg0 (by decide) (by decide) (by decide) (by decide) (by decide) afterB_main_arg0
theorem kernel_arg1 (d : Dev nD) : WC m o30K d (Proc.devRef .tc main_arg1) = A1 m d :=
  WC_of_arg m d main_arg1 (by decide) (by decide) (by decide) (by decide) (by decide) afterB_main_arg1
theorem kernel_arg2 (d : Dev nD) : WC m o30K d (Proc.devRef .tc main_arg2) = A2 m d :=
  WC_of_arg m d main_arg2 (by decide) (by decide) (by decide) (by decide) (by decide) afterB_main_arg2
theorem kernel_arg3 (d : Dev nD) : WC m o30K d (Proc.devRef .tc main_arg3) = A3 m d :=
  WC_of_arg m d main_arg3 (by decide) (by decide) (by decide) (by decide) (by decide) afterB_main_arg3
theorem kernel_arg4 (d : Dev nD) : WC m o30K d (Proc.devRef .tc main_arg4) = A4 m d :=
  WC_of_arg m d main_arg4 (by decide) (by decide) (by decide) (by decide) (by decide) afterB_main_arg4
theorem kernel_arg5 (d : Dev nD) : WC m o30K d (Proc.devRef .tc main_arg5) = A5 m d :=
  WC_of_arg m d main_arg5 (by decide) (by decide) (by decide) (by decide) (by decide) afterB_main_arg5
theorem kernel_arg6 (d : Dev nD) : WC m o30K d (Proc.devRef .tc main_arg6) = A6 m d :=
  WC_of_arg m d main_arg6 (by decide) (by decide) (by decide) (by decide) (by decide) afterB_main_arg6
theorem kernel_arg7 (d : Dev nD) : WC m o30K d (Proc.devRef .tc main_arg7) = A7 m d :=
  WC_of_arg m d main_arg7 (by decide) (by decide) (by decide) (by decide) (by decide) afterB_main_arg7
theorem kernel_arg8 (d : Dev nD) : WC m o30K d (Proc.devRef .tc main_arg8) = A8 m d :=
  WC_of_arg m d main_arg8 (by decide) (by decide) (by decide) (by decide) (by decide) afterB_main_arg8

/-- The program's result at `(b, c)` is the pipeline's result at `(c, b)`. -/
theorem WC_v31_apply (d : Dev nD) (b : Fin 16384) (c : Fin 2) :
    (WC m o30K d (Proc.devRef .tc main_v31) : FVec Ideal S16384x2 .f32) (ix2 b c)
      = (out30 (valOf (WB m d)) d : FVec Ideal S2x16384 .f32) (ix2 c b) := by
  unfold WC
  rw [afterC_v31]
  unfold W2
  rw [Function.update_self]

end Cert.Proof.KV

end
-- ==== Proof.KV.KernelValue.lean ====
import proofs.«205318_g12532714570102_cont_fleet_669_37_alg».proof.Proof.KI.RegionIndex
import proofs.«205318_g12532714570102_cont_fleet_669_37_alg».proof.Proof.KV.KernelHost

/-!
# The kernel's result, in the specification's terms

The program's result at `(b, c)` is the pipeline's result at `(c, b)`; batch column `b` lies in
the block of grid point `b / 4096`, at column `b % 4096`; there the stored block is the
specification's kernel form over the blocks the point reads, and every block is its array where
the window's index map puts it.
-/

set_option maxRecDepth 16384

noncomputable section

namespace Cert.Proof.KV

open Cert.KernelIdeal Cert.KernelIdeal.Gen Cert.Proof.KI
open Idealize.ShloMosaic Idealize.ShloMosaic.TcCoe Idealize.SL.Sem Idealize.ShloMosaic.StableHlo
open Idealize.ShloMosaic.ValueIdx
open Idealize.ShloMosaic.Pipeline (Dat Cfg Window)

variable (m : (ℓ : Loc nD τ sig) → Buf (Elt Ideal) ℓ)

/-- Every batch column is column `y` of the block of one grid point `t`. -/
theorem split_batch (b : Fin 16384) :
    ∃ (t : Fin cfg1.N) (y : Fin 4096) (h : 4096 * t.val + y.val < 16384), b = ⟨4096 * t.val + y.val, h⟩ := by
  have hb := b.isLt
  refine ⟨⟨b.val / 4096, ?_⟩, ⟨b.val % 4096, Nat.mod_lt _ (by norm_num)⟩, ?_, Fin.ext ?_⟩
  · show b.val / 4096 < grid1.N
    rw [N_1]; omega
  · show 4096 * (b.val / 4096) + b.val % 4096 < 16384; omega
  · show b.val = 4096 * (b.val / 4096) + b.val % 4096; omega

/-- THE KERNEL'S RESULT at `(b, c)` is the specification's kernel form of the launch arrays. -/
theorem kernel_value (d : Dev nD) (b : Fin 16384) (c : Fin 2) :
    (WC m o30K d (Proc.devRef .tc main_v31) : FVec Ideal S16384x2 .f32) (ix2 b c)
      = Spec.kernelOut (cXw m d) (cXd m d) (cT m d) (cW1 m d) (cb1 m d) (cW2 m d) (cb2 m d) (cWo m d) (cbo m d) b c := by
  rw [WC_v31_apply]
  obtain ⟨t, y, h, rfl⟩ := split_batch b
  rw [out30_apply (valOf (WB m d)) d t c y, out12_eq]
  refine mlp_pay_apply (cXw m d) (cXd m d) (cT m d) (cW1 m d) (cb1 m d) (cW2 m d) (cb2 m d) (cWo m d) (cbo m d)
    (fun y => ⟨4096 * t.val + y.val, by have := pt_lt t; omega⟩) _ _ _ _ _ _ _ _ _ _ _ _ _
    ?_ ?_ ?_ ?_ ?_ ?_ ?_ ?_ ?_ ?_ ?_ ?_ ?_ c y
  · exact fun r y => (iblk0_apply (valOf (WB m d)) d t r y).trans (WB_v1_apply m d r _)
  · exact fun p y => (iblk1_apply (valOf (WB m d)) d t p y).trans (WB_v2_apply m d p _)
  · exact fun y k => (iblk2_apply (valOf (WB m d)) d t y k).trans (congrFun (WB_arg0 m d) _)
  · exact fun h p => (congrFun (iblk3_eq (valOf (WB m d)) d t) _).trans (WB_v18_apply m d h p)
  · exact fun h p => (congrFun (iblk3_eq (valOf (WB m d)) d t) _).trans (WB_v18_apply m d h p)
  · exact fun h k => (congrFun (iblk4_eq (valOf (WB m d)) d t) _).trans (WB_v20_apply m d h k)
  · exact fun p f => (congrFun (iblk5_eq (valOf (WB m d)) d t) _).trans (WB_v21_apply m d p f)
  · exact fun h => (congrFun (iblk6_eq (valOf (WB m d)) d t) _).trans (WB_v22_apply m d h 0)
  · exact fun j h => (congrFun (iblk7_eq (valOf (WB m d)) d t) _).trans (WB_v23_apply m d j h)
  · exact fun j => (congrFun (iblk8_eq (valOf (WB m d)) d t) _).trans (WB_v24_apply m d j 0)
  · exact fun c j => (congrFun (iblk9_eq (valOf (WB m d)) d t) _).trans (WB_v26_apply m d c j)
  · exact fun c k => (congrFun (iblk10_eq (valOf (WB m d)) d t) _).trans (WB_v28_apply m d c k)
  · exact fun c => (congrFun (iblk11_eq (valOf (WB m d)) d t) _).trans (WB_v29_apply m d c 0)

end Cert.Proof.KV

end
-- ==== Proof.Algebra.lean ====
import Mathlib
import proofs.«205318_g12532714570102_cont_fleet_669_37_alg».proof.Proof.Spec

/-!
# The two forms of the forward pass agree on finite inputs

`Spec.kernelOut` (transposed, the row-0 contribution subtracted through a mask) and
`Spec.refOut` (row 0 of every table zeroed before the gather) are equal as soon as every float
entry is a real number and every index word is below the table height.

The proof moves to `ℝ`: every `Spec` quantity at coerced real arrays is the coercion of a real
mirror, and the identity is proved for the mirrors by ring-level manipulations of finite sums.
-/

noncomputable section

namespace Cert.Proof.Algebra

open Cert.Proof.Spec

/-! ## Coercion `ℝ → EReal` and finite sums / maxima -/

/-- The coercion commutes with finite sums. -/
theorem coe_sum {ι : Type*} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s

/-- The coercion commutes with `max`. -/
theorem coe_max (x y : ℝ) : ((max x y : ℝ) : EReal) = max (x : EReal) (y : EReal) :=
  EReal.coe_strictMono.monotone.map_max

/-- A sum over `Fin (m + n)` splits into the first `m` and the last `n` indices. -/
theorem sum_split {m n N : ℕ} (hN : N = m + n) (g : Fin N → ℝ) :
    ∑ q, g q = (∑ p : Fin m, g ⟨p.val, by omega⟩) + ∑ k : Fin n, g ⟨m + k.val, by omega⟩ := by
  subst hN
  rw [Fin.sum_univ_add]
  rfl

/-- Below the table height, the addressed row is row 0 exactly for the zero word. -/
theorem row_eq_zero_iff {x : BitVec 32} (hx : x.toNat < 100000) : row x = 0 ↔ x = 0#32 := by
  constructor
  · intro h
    have h' := congrArg Fin.val h
    simp only [row, Fin.val_zero] at h'
    rw [Nat.mod_eq_of_lt hx] at h'
    exact BitVec.eq_of_toNat_eq (by simpa using h')
  · rintro rfl
    rfl

/-! ## Real mirrors of the specification -/

section Mirrors

variable (xw : Fin 16384 → Fin 128 → ℝ) (Xd : Fin 16384 → Fin 39 → BitVec 32)
  (t : Fin 26 → Fin 100000 → Fin 16 → ℝ) (w1 : Fin 429 → Fin 256 → ℝ) (b1 : Fin 256 → ℝ)
  (w2 : Fin 256 → Fin 128 → ℝ) (b2 : Fin 128 → ℝ) (wo : Fin 256 → Fin 2 → ℝ) (bo : Fin 2 → ℝ)

def embR (p : Fin 416) (b : Fin 16384) : ℝ := t (fld p) (row (Xd b (xcol (fld p)))) (lane p)

def contR (k : Fin 13) (b : Fin 16384) : ℝ := ((Xd b (ccol k)).toInt : ℝ)

def maskR (f : Fin 26) (b : Fin 16384) : ℝ := if Xd b (xcol f) = 0#32 then 1 else 0

def rTR (p : Fin 416) (f : Fin 26) : ℝ := (if f = fld p then (1 : ℝ) else 0) * t f 0 (lane p)

def cnegR (h : Fin 256) (f : Fin 26) : ℝ :=
  0 - ∑ p : Fin 416, w1 (Fin.castLE (by norm_num) p) h * rTR t p f

def x1R (h : Fin 256) (b : Fin 16384) : ℝ :=
  ((∑ p : Fin 416, w1 (Fin.castLE (by norm_num) p) h * embR Xd t p b)
      + (∑ k : Fin 13, w1 ⟨416 + k.val, by omega⟩ h * contR Xd k b))
    + ∑ f : Fin 26, cnegR t w1 h f * maskR Xd f b

def a1R (h : Fin 256) (b : Fin 16384) : ℝ := max (x1R Xd t w1 h b + b1 h) 0

def a2R (j : Fin 128) (b : Fin 16384) : ℝ :=
  max ((∑ h : Fin 256, w2 h j * a1R Xd t w1 b1 h b) + b2 j) 0

def kernelOutR (b : Fin 16384) (c : Fin 2) : ℝ :=
  ((∑ j : Fin 128, wo (Fin.castLE (by norm_num) j) c * a2R Xd t w1 b1 w2 b2 j b)
      + (∑ k : Fin 128, wo ⟨128 + k.val, by omega⟩ c * xw b k))
    + bo c

def tzR (f : Fin 26) (r : Fin 100000) (d : Fin 16) : ℝ := if r = 0 then 0 else t f r d

def deepR (b : Fin 16384) (q : Fin 429) : ℝ :=
  if h : q.val < 416 then
    tzR t (fld ⟨q.val, h⟩) (row (Xd b (xcol (fld ⟨q.val, h⟩)))) (lane ⟨q.val, h⟩)
  else ((Xd b ⟨26 + (q.val - 416), by omega⟩).toInt : ℝ)

def r1R (b : Fin 16384) (h : Fin 256) : ℝ :=
  max ((∑ q : Fin 429, deepR Xd t b q * w1 q h) + b1 h) 0

def r2R (b : Fin 16384) (j : Fin 128) : ℝ :=
  max ((∑ h : Fin 256, r1R Xd t w1 b1 b h * w2 h j) + b2 j) 0

def wdR (b : Fin 16384) (q : Fin 256) : ℝ :=
  if h : q.val < 128 then r2R Xd t w1 b1 w2 b2 b ⟨q.val, h⟩ else xw b ⟨q.val - 128, by omega⟩

def refOutR (b : Fin 16384) (c : Fin 2) : ℝ :=
  (∑ q : Fin 256, wdR xw Xd t w1 b1 w2 b2 b q * wo q c) + bo c

/-! ## The identity over `ℝ` -/

theorem deepR_lo (b : Fin 16384) (p : Fin 416) :
    deepR Xd t b ⟨p.val, by omega⟩ = tzR t (fld p) (row (Xd b (xcol (fld p)))) (lane p) := by
  unfold deepR
  rw [dif_pos (show (⟨p.val, by omega⟩ : Fin 429).val < 416 from p.isLt)]

theorem deepR_hi (b : Fin 16384) (k : Fin 13) :
    deepR Xd t b ⟨416 + k.val, by omega⟩ = contR Xd k b := by
  unfold deepR contR
  rw [dif_neg (show ¬ (⟨416 + k.val, by omega⟩ : Fin 429).val < 416 by simp)]
  have : (⟨26 + ((⟨416 + k.val, by omega⟩ : Fin 429).val - 416), by simp; omega⟩ : Fin 39) = ccol k := by
    apply Fin.ext; simp [ccol]
  rw [this]

/-- One gathered entry minus the masked row-0 entry is the entry of the zeroed table. -/
theorem tz_point (f : Fin 26) (d : Fin 16) {x : BitVec 32} (hx : x.toNat < 100000) :
    t f (row x) d - t f 0 d * (if x = 0#32 then (1 : ℝ) else 0) = tzR t f (row x) d := by
  unfold tzR
  by_cases h0 : x = 0#32
  · rw [if_pos h0, if_pos ((row_eq_zero_iff hx).2 h0), (row_eq_zero_iff hx).2 h0]; ring
  · rw [if_neg h0, if_neg (fun h => h0 ((row_eq_zero_iff hx).1 h))]; ring

/-- The mask-weighted correction, with the block-diagonal indicator collapsed. -/
theorem cneg_mask_sum (h : Fin 256) (b : Fin 16384) :
    ∑ f : Fin 26, cnegR t w1 h f * maskR Xd f b
      = - ∑ p : Fin 416, w1 (Fin.castLE (by norm_num) p) h
            * (t (fld p) 0 (lane p) * maskR Xd (fld p) b) := by
  unfold cnegR rTR
  simp only [zero_sub, neg_mul, Finset.sum_neg_distrib, Finset.sum_mul]
  rw [Finset.sum_comm]
  congr 1
  refine Finset.sum_congr rfl (fun p _ => ?_)
  rw [Finset.sum_eq_single (fld p)]
  · rw [if_pos rfl]; ring
  · intro f _ hf; rw [if_neg hf]; ring
  · intro hf; exact absurd (Finset.mem_univ _) hf

end Mirrors

section Identity

variable (xw : Fin 16384 → Fin 128 → ℝ) (Xd : Fin 16384 → Fin 39 → BitVec 32)
  (t : Fin 26 → Fin 100000 → Fin 16 → ℝ) (w1 : Fin 429 → Fin 256 → ℝ) (b1 : Fin 256 → ℝ)
  (w2 : Fin 256 → Fin 128 → ℝ) (b2 : Fin 128 → ℝ) (wo : Fin 256 → Fin 2 → ℝ) (bo : Fin 2 → ℝ)

/-- The first layer: the mask-corrected transposed product is the product against the deep
input built from the zeroed tables. -/
theorem x1R_eq (hXd : ∀ b f, (Xd b f).toNat < 100000) (h : Fin 256) (b : Fin 16384) :
    x1R Xd t w1 h b = ∑ q : Fin 429, deepR Xd t b q * w1 q h := by
  rw [sum_split (m := 416) (n := 13) (by norm_num) (fun q => deepR Xd t b q * w1 q h)]
  unfold x1R
  rw [cneg_mask_sum]
  have hc : ∑ k : Fin 13, w1 ⟨416 + k.val, by omega⟩ h * contR Xd k b
      = ∑ k : Fin 13, deepR Xd t b ⟨416 + k.val, by omega⟩ * w1 ⟨416 + k.val, by omega⟩ h :=
    Finset.sum_congr rfl (fun k _ => by rw [deepR_hi, mul_comm])
  have he : (∑ p : Fin 416, w1 (Fin.castLE (by norm_num) p) h * embR Xd t p b)
        + - ∑ p : Fin 416, w1 (Fin.castLE (by norm_num) p) h
            * (t (fld p) 0 (lane p) * maskR Xd (fld p) b)
      = ∑ p : Fin 416, deepR Xd t b ⟨p.val, by omega⟩ * w1 ⟨p.val, by omega⟩ h := by
    rw [← Finset.sum_neg_distrib, ← Finset.sum_add_distrib]
    refine Finset.sum_congr rfl (fun p _ => ?_)
    rw [deepR_lo, ← tz_point t (fld p) (lane p) (hXd b (xcol (fld p)))]
    unfold embR maskR
    show _ = _ * w1 (Fin.castLE (by norm_num) p) h
    ring
  rw [hc, ← he]
  ring

theorem a1R_eq (hXd : ∀ b f, (Xd b f).toNat < 100000) (h : Fin 256) (b : Fin 16384) :
    a1R Xd t w1 b1 h b = r1R Xd t w1 b1 b h := by
  unfold a1R r1R
  rw [x1R_eq Xd t w1 hXd]

theorem a2R_eq (hXd : ∀ b f, (Xd b f).toNat < 100000) (j : Fin 128) (b : Fin 16384) :
    a2R Xd t w1 b1 w2 b2 j b = r2R Xd t w1 b1 w2 b2 b j := by
  unfold a2R r2R
  congr 2
  refine Finset.sum_congr rfl (fun h _ => ?_)
  rw [a1R_eq Xd t w1 b1 hXd, mul_comm]

theorem kernelOutR_eq (hXd : ∀ b f, (Xd b f).toNat < 100000) (b : Fin 16384) (c : Fin 2) :
    kernelOutR xw Xd t w1 b1 w2 b2 wo bo b c = refOutR xw Xd t w1 b1 w2 b2 wo bo b c := by
  unfold kernelOutR refOutR
  rw [sum_split (m := 128) (n := 128) (by norm_num)
    (fun q => wdR xw Xd t w1 b1 w2 b2 b q * wo q c)]
  congr 2
  · refine Finset.sum_congr rfl (fun j _ => ?_)
    unfold wdR
    rw [dif_pos (show (⟨j.val, by omega⟩ : Fin 256).val < 128 from j.isLt),
      a2R_eq Xd t w1 b1 w2 b2 hXd, mul_comm]
    rfl
  · refine Finset.sum_congr rfl (fun k _ => ?_)
    unfold wdR
    rw [dif_neg (show ¬ (⟨128 + k.val, by omega⟩ : Fin 256).val < 128 by simp), mul_comm]
    congr 2
    apply Fin.ext; simp

end Identity

/-! ## The specification at real arrays is the coercion of its mirror -/

section Coe

variable (xw : Fin 16384 → Fin 128 → ℝ) (Xd : Fin 16384 → Fin 39 → BitVec 32)
  (t : Fin 26 → Fin 100000 → Fin 16 → ℝ) (w1 : Fin 429 → Fin 256 → ℝ) (b1 : Fin 256 → ℝ)
  (w2 : Fin 256 → Fin 128 → ℝ) (b2 : Fin 128 → ℝ) (wo : Fin 256 → Fin 2 → ℝ) (bo : Fin 2 → ℝ)

theorem emb_coe (p : Fin 416) (b : Fin 16384) :
    emb Xd (fun f r d => (t f r d : EReal)) p b = (embR Xd t p b : EReal) := rfl

theorem cont_coe (k : Fin 13) (b : Fin 16384) : cont Xd k b = (contR Xd k b : EReal) := rfl

theorem mask_coe (f : Fin 26) (b : Fin 16384) : mask Xd f b = (maskR Xd f b : EReal) := by
  unfold mask maskR
  split_ifs <;> simp

theorem rT_coe (p : Fin 416) (f : Fin 26) :
    rT (fun f r d => (t f r d : EReal)) p f = (rTR t p f : EReal) := by
  unfold rT rTR
  split_ifs <;> simp

theorem cneg_coe (h : Fin 256) (f : Fin 26) :
    cneg (fun f r d => (t f r d : EReal)) (fun q h => (w1 q h : EReal)) h f
      = (cnegR t w1 h f : EReal) := by
  unfold cneg cnegR
  rw [EReal.coe_sub, coe_sum, EReal.coe_zero]
  simp only [rT_coe, EReal.coe_mul]

theorem x1_coe (h : Fin 256) (b : Fin 16384) :
    x1 Xd (fun f r d => (t f r d : EReal)) (fun q h => (w1 q h : EReal)) h b
      = (x1R Xd t w1 h b : EReal) := by
  unfold x1 x1R
  rw [EReal.coe_add, EReal.coe_add, coe_sum, coe_sum, coe_sum]
  simp only [emb_coe, cont_coe, cneg_coe, mask_coe, EReal.coe_mul]

theorem a1_coe (h : Fin 256) (b : Fin 16384) :
    a1 Xd (fun f r d => (t f r d : EReal)) (fun q h => (w1 q h : EReal))
        (fun h => (b1 h : EReal)) h b
      = (a1R Xd t w1 b1 h b : EReal) := by
  unfold a1 a1R
  rw [coe_max, EReal.coe_add, EReal.coe_zero, x1_coe]

theorem a2_coe (j : Fin 128) (b : Fin 16384) :
    a2 Xd (fun f r d => (t f r d : EReal)) (fun q h => (w1 q h : EReal))
        (fun h => (b1 h : EReal)) (fun h j => (w2 h j : EReal)) (fun j => (b2 j : EReal)) j b
      = (a2R Xd t w1 b1 w2 b2 j b : EReal) := by
  unfold a2 a2R
  rw [coe_max, EReal.coe_add, EReal.coe_zero, coe_sum]
  simp only [a1_coe, EReal.coe_mul]

theorem kernelOut_coe (b : Fin 16384) (c : Fin 2) :
    kernelOut (fun b k => (xw b k : EReal)) Xd (fun f r d => (t f r d : EReal))
        (fun q h => (w1 q h : EReal)) (fun h => (b1 h : EReal)) (fun h j => (w2 h j : EReal))
        (fun j => (b2 j : EReal)) (fun q c => (wo q c : EReal)) (fun c => (bo c : EReal)) b c
      = (kernelOutR xw Xd t w1 b1 w2 b2 wo bo b c : EReal) := by
  unfold kernelOut kernelOutR
  rw [EReal.coe_add, EReal.coe_add, coe_sum, coe_sum]
  simp only [a2_coe, EReal.coe_mul]

theorem tz_coe (f : Fin 26) (r : Fin 100000) (d : Fin 16) :
    tz (fun f r d => (t f r d : EReal)) f r d = (tzR t f r d : EReal) := by
  unfold tz tzR
  split_ifs <;> simp

theorem deep_coe (b : Fin 16384) (q : Fin 429) :
    deep Xd (fun f r d => (t f r d : EReal)) b q = (deepR Xd t b q : EReal) := by
  unfold deep deepR
  split_ifs
  · exact tz_coe t _ _ _
  · rfl

theorem r1_coe (b : Fin 16384) (h : Fin 256) :
    r1 Xd (fun f r d => (t f r d : EReal)) (fun q h => (w1 q h : EReal))
        (fun h => (b1 h : EReal)) b h
      = (r1R Xd t w1 b1 b h : EReal) := by
  unfold r1 r1R
  rw [coe_max, EReal.coe_add, EReal.coe_zero, coe_sum]
  simp only [deep_coe, EReal.coe_mul]

theorem r2_coe (b : Fin 16384) (j : Fin 128) :
    r2 Xd (fun f r d => (t f r d : EReal)) (fun q h => (w1 q h : EReal))
        (fun h => (b1 h : EReal)) (fun h j => (w2 h j : EReal)) (fun j => (b2 j : EReal)) b j
      = (r2R Xd t w1 b1 w2 b2 b j : EReal) := by
  unfold r2 r2R
  rw [coe_max, EReal.coe_add, EReal.coe_zero, coe_sum]
  simp only [r1_coe, EReal.coe_mul]

theorem wd_coe (b : Fin 16384) (q : Fin 256) :
    wd (fun b k => (xw b k : EReal)) Xd (fun f r d => (t f r d : EReal))
        (fun q h => (w1 q h : EReal)) (fun h => (b1 h : EReal)) (fun h j => (w2 h j : EReal))
        (fun j => (b2 j : EReal)) b q
      = (wdR xw Xd t w1 b1 w2 b2 b q : EReal) := by
  unfold wd wdR
  split_ifs
  · exact r2_coe Xd t w1 b1 w2 b2 _ _
  · rfl

theorem refOut_coe (b : Fin 16384) (c : Fin 2) :
    refOut (fun b k => (xw b k : EReal)) Xd (fun f r d => (t f r d : EReal))
        (fun q h => (w1 q h : EReal)) (fun h => (b1 h : EReal)) (fun h j => (w2 h j : EReal))
        (fun j => (b2 j : EReal)) (fun q c => (wo q c : EReal)) (fun c => (bo c : EReal)) b c
      = (refOutR xw Xd t w1 b1 w2 b2 wo bo b c : EReal) := by
  unfold refOut refOutR
  rw [EReal.coe_add, coe_sum]
  simp only [wd_coe, EReal.coe_mul]

end Coe

/-! ## The theorem -/

/-- On finite float inputs and in-range index words, the transposed mask-corrected form and the
zeroed-table form of the forward pass agree entrywise. -/
theorem kernelOut_eq_refOut
    (Xw : Fin 16384 → Fin 128 → EReal) (Xd : Fin 16384 → Fin 39 → BitVec 32)
    (T : Fin 26 → Fin 100000 → Fin 16 → EReal) (W1 : Fin 429 → Fin 256 → EReal)
    (b1 : Fin 256 → EReal) (W2 : Fin 256 → Fin 128 → EReal) (b2 : Fin 128 → EReal)
    (Wo : Fin 256 → Fin 2 → EReal) (bo : Fin 2 → EReal)
    (hXw : ∀ b k, ∃ r : ℝ, Xw b k = (r : EReal))
    (hXd : ∀ b f, (Xd b f).toNat < 100000)
    (hT : ∀ f r d, ∃ x : ℝ, T f r d = (x : EReal))
    (hW1 : ∀ q h, ∃ r : ℝ, W1 q h = (r : EReal))
    (hb1 : ∀ h, ∃ r : ℝ, b1 h = (r : EReal))
    (hW2 : ∀ h j, ∃ r : ℝ, W2 h j = (r : EReal))
    (hb2 : ∀ j, ∃ r : ℝ, b2 j = (r : EReal))
    (hWo : ∀ q c, ∃ r : ℝ, Wo q c = (r : EReal))
    (hbo : ∀ c, ∃ r : ℝ, bo c = (r : EReal))
    (b : Fin 16384) (c : Fin 2) :
    kernelOut Xw Xd T W1 b1 W2 b2 Wo bo b c = refOut Xw Xd T W1 b1 W2 b2 Wo bo b c := by
  choose xw hxw using hXw
  choose t ht using hT
  choose w1 hw1 using hW1
  choose b1' hb1' using hb1
  choose w2 hw2 using hW2
  choose b2' hb2' using hb2
  choose wo hwo using hWo
  choose bo' hbo' using hbo
  obtain rfl : Xw = fun b k => (xw b k : EReal) := funext fun b => funext fun k => hxw b k
  obtain rfl : T = fun f r d => (t f r d : EReal) :=
    funext fun f => funext fun r => funext fun d => ht f r d
  obtain rfl : W1 = fun q h => (w1 q h : EReal) := funext fun q => funext fun h => hw1 q h
  obtain rfl : b1 = fun h => (b1' h : EReal) := funext hb1'
  obtain rfl : W2 = fun h j => (w2 h j : EReal) := funext fun h => funext fun j => hw2 h j
  obtain rfl : b2 = fun j => (b2' j : EReal) := funext hb2'
  obtain rfl : Wo = fun q c => (wo q c : EReal) := funext fun q => funext fun c => hwo q c
  obtain rfl : bo = fun c => (bo' c : EReal) := funext hbo'
  rw [kernelOut_coe, refOut_coe, kernelOutR_eq xw Xd t w1 b1' w2 b2' wo bo' hXd]

end Cert.Proof.Algebra
-- ==== Proof.SpecOfPre.lean ====
import proofs.«205318_g12532714570102_cont_fleet_669_37_alg».proof.Proof.Algebra
import proofs.«205318_g12532714570102_cont_fleet_669_37_alg».proof.Proof.PreFacts

/-!
# The two forms agree under the precondition

The arrays of the specification are the launch arrays read by coordinates; the precondition
supplies the hypotheses of `Algebra.kernelOut_eq_refOut`.
-/

noncomputable section

namespace Cert.Proof.SpecOfPre

open Idealize.ShloMosaic Idealize.ShloMosaic.ValueIdx
open Cert.Pre_input_domain

/-- Under the precondition, read at the extended reals, the kernel's form and the reference's
form of the result agree at every entry. -/
theorem kernelOut_eq_refOut_of_pre
    (a0 : FVec Ideal S16384x128 .f32) (a1 : IVec S16384x39 32) (a2 : FVec Ideal S26x100000x16 .f32)
    (a3 : FVec Ideal S429x256 .f32) (a4 : FVec Ideal S256 .f32) (a5 : FVec Ideal S256x128 .f32)
    (a6 : FVec Ideal S128 .f32) (a7 : FVec Ideal S256x2 .f32) (a8 : FVec Ideal S2 .f32)
    (h : Cert.Pre_input_domain.fn (F := Ideal) a0 a1 a2 a3 a4 a5 a6 a7 a8 = fun _ => 1#1)
    (b : Fin 16384) (c : Fin 2) :
    Spec.kernelOut (fun b k => a0 (ix2 b k)) (fun b f => a1 (ix2 b f))
        (fun f r d => a2 (ix3 f r d)) (fun q h => a3 (ix2 q h)) (fun h => a4 (ix1 h))
        (fun h j => a5 (ix2 h j)) (fun j => a6 (ix1 j)) (fun q c => a7 (ix2 q c))
        (fun c => a8 (ix1 c)) b c
      = Spec.refOut (fun b k => a0 (ix2 b k)) (fun b f => a1 (ix2 b f))
        (fun f r d => a2 (ix3 f r d)) (fun q h => a3 (ix2 q h)) (fun h => a4 (ix1 h))
        (fun h j => a5 (ix2 h j)) (fun j => a6 (ix1 j)) (fun q c => a7 (ix2 q c))
        (fun c => a8 (ix1 c)) b c := by
  obtain ⟨h0, h2, h3, h4, h5, h6, h7, h8⟩ := PreFacts.reals_of_pre a0 a1 a2 a3 a4 a5 a6 a7 a8 h
  exact Algebra.kernelOut_eq_refOut _ _ _ _ _ _ _ _ _
    (fun _ _ => h0 _) (fun _ _ => (PreFacts.xd_range a0 a1 a2 a3 a4 a5 a6 a7 a8 h _).2.2)
    (fun _ _ _ => h2 _) (fun _ _ => h3 _) (fun _ => h4 _) (fun _ _ => h5 _) (fun _ => h6 _)
    (fun _ _ => h7 _) (fun _ => h8 _) b c

end Cert.Proof.SpecOfPre
-- ==== Proof.RefGather.lean ====
import proofs.«205318_g12532714570102_cont_fleet_669_37_alg».proof.Proof.Gen.ReferenceIdeal
import proofs.«205318_g12532714570102_cont_fleet_669_37_alg».proof.Proof.Spec
import Idealize.ShloMosaic.Lib.ValueIdx
import Idealize.ShloMosaic.Lib.Pipeline.Value

noncomputable section

namespace Cert.Proof.RefValue

open Cert.ReferenceIdeal Idealize.ShloMosaic Idealize.ShloMosaic.ValueIdx

/-! # The row gather read at an index

The reference looks a row of a `[100000, 16]` table up through a `[16384, 1]` array of start indices.
Result element `(b, d)` is the table at row `idx[b, 0]`, read signed and clamped into `[0, 99999]`,
lane `d`. -/

/-- The table row a start-index word addresses: read signed, clamped into `[0, 99999]`. -/
def clampRow (x : BitVec 32) : Fin 100000 := ⟨min x.toInt.toNat 99999, by omega⟩

/-- The row gather at `(b, d)`. -/
theorem gather_rows_apply {α : Type} (x : S100000x16.Idx → α) (idx : IVec S16384x1 32) (b : Fin 16384) (d : Fin 16) :
    Host.gather gather_S100000x16_S16384x1_S16384x16_1_0_n_n_0_1_116 x idx (ix2 b d)
      = x (ix2 (clampRow (idx (ix2 b (0 : Fin 1)))) d) := by
  unfold Host.gather
  congr 1
  funext a
  refine Fin.ext ?_
  match a with
  | ⟨0, _⟩ =>
    show gather_S100000x16_S16384x1_S16384x16_1_0_n_n_0_1_116.start (ix2 b d) idx 0
        + gather_S100000x16_S16384x1_S16384x16_1_0_n_n_0_1_116.batchCoord (ix2 b d) 0
        + gather_S100000x16_S16384x1_S16384x16_1_0_n_n_0_1_116.offCoord (ix2 b d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x16_S16384x1_S16384x16_1_0_n_n_0_1_116.startIndexMap from List.mem_singleton.mpr rfl)]
    have hsi : gather_S100000x16_S16384x1_S16384x16_1_0_n_n_0_1_116.siIdx (ix2 b d)
        ⟨List.idxOf (0 : Fin 2) gather_S100000x16_S16384x1_S16384x16_1_0_n_n_0_1_116.startIndexMap,
          List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show gather_S100000x16_S16384x1_S16384x16_1_0_n_n_0_1_116.start (ix2 b d) idx 1
        + gather_S100000x16_S16384x1_S16384x16_1_0_n_n_0_1_116.batchCoord (ix2 b d) 1
        + gather_S100000x16_S16384x1_S16384x16_1_0_n_n_0_1_116.offCoord (ix2 b d) 1 = _
    rw [GatherDims.batchCoord_eq_zero _ _ _ List.not_mem_nil]
    unfold GatherDims.start
    rw [dif_neg (show ¬ (1 : Fin 2) ∈ gather_S100000x16_S16384x1_S16384x16_1_0_n_n_0_1_116.startIndexMap by decide)]
    simp only [Nat.add_zero, Nat.zero_add]
    rfl

/-! # Index words in range -/

/-- An index word below `100000` reads the same signed and unsigned. -/
theorem toInt_of_lt (x : BitVec 32) (h : x.toNat < 100000) : x.toInt = (x.toNat : Int) := by
  rw [BitVec.toInt_eq_toNat_cond, if_pos (by omega)]

/-- An in-range index word is not negative, so the wrap-around of negative indices leaves it alone. -/
theorem wrap_of_lt (x : BitVec 32) (h : x.toNat < 100000) :
    Scalar.select (IntOp.cmpi .slt x 0#32) (IntOp.addi x 100000#32) x = x := by
  have hi := toInt_of_lt x h
  have hs : IntOp.cmpi .slt x 0#32 = 0#1 := by
    show BitVec.ofBool (x.slt 0#32) = 0#1
    have : x.slt 0#32 = false := by
      simp only [BitVec.slt, hi]
      simp
    rw [this]; rfl
  rw [hs]; exact select_zero _ _

/-- For an in-range index word the clamped row is the row the specification names. -/
theorem clampRow_of_lt (x : BitVec 32) (h : x.toNat < 100000) : clampRow x = Spec.row x := by
  have hi := toInt_of_lt x h
  refine Fin.ext ?_
  show min x.toInt.toNat 99999 = x.toNat % 100000
  rw [hi, Int.toNat_natCast, Nat.mod_eq_of_lt h]
  omega

end Cert.Proof.RefValue
-- ==== Proof.RefScatter.lean ====
import proofs.«205318_g12532714570102_cont_fleet_669_37_alg».proof.Proof.Gen.ReferenceIdeal
import Idealize.ShloMosaic.Lib.ValueIdx
import Idealize.ShloMosaic.Lib.Pipeline.Value

noncomputable section

namespace Cert.Proof.RefValue

open Cert.ReferenceIdeal Idealize.ShloMosaic Idealize.ShloMosaic.ValueIdx

/-! # The row-0 scatter read at an index

The reference overwrites row 0 of every table by a `[26, 16]` window of one constant, through ONE scatter index
(the word `0`). Element `(f, r, d)` of the result is that constant when `r = 0` and the operand's element otherwise. -/

section Fold
variable {ι α κ : Type}

/-- A left fold of steps read at ONE point `i'`: when no step of the list touches the point (`P n` says step `n`
    does), the point keeps the starting element. -/
theorem foldl_at_of_not_mem (step : (ι → α) → κ → (ι → α)) (P : κ → Prop) (i' : ι)
    (h2 : ∀ r n, ¬P n → step r n i' = r i') :
    ∀ (l : List κ) (x : ι → α), (∀ n ∈ l, ¬P n) → l.foldl step x i' = x i' := by
  intro l
  induction l with
  | nil => intro y _; rfl
  | cons k l ih =>
    intro y hk
    rw [List.foldl_cons, ih _ (fun n hn => hk n (List.mem_cons_of_mem _ hn))]
    exact h2 y k (hk k (List.mem_cons_self ..))

/-- … and when some step does, every touching step writing `c`, the point reads `c`. -/
theorem foldl_at_of_mem (step : (ι → α) → κ → (ι → α)) (P : κ → Prop) (i' : ι) (c : α)
    (h1 : ∀ r n, P n → step r n i' = c) (h2 : ∀ r n, ¬P n → step r n i' = r i') :
    ∀ (l : List κ) (x : ι → α), (∃ n ∈ l, P n) → l.foldl step x i' = c
  | [], _, h => by obtain ⟨n, hn, _⟩ := h; cases hn
  | m :: l, x, h => by
    rw [List.foldl_cons]
    by_cases hl : ∃ n ∈ l, P n
    · exact foldl_at_of_mem step P i' c h1 h2 l _ hl
    · have hm : P m := by
        obtain ⟨n, hn, hP⟩ := h
        rcases List.mem_cons.mp hn with rfl | hn'
        · exact hP
        · exact absurd ⟨n, hn', hP⟩ hl
      rw [foldl_at_of_not_mem step P i' h2 l _ (fun n hn hP => hl ⟨n, hn, hP⟩)]
      exact h1 x m hm

end Fold

/-- Where update `(f, d)` of the window lands when the one scatter index is the word `0`: at `(f, 0, d)`. -/
theorem scatter_resultIdx (idx : IVec S1 32) (hidx : ∀ k, idx k = 0#32) (j : S26x16.Idx) :
    scatter_S26x100000x16_S1_S26x16_01_1_1_0.resultIdx? j idx = some (ix3 (n0 := 26) (n1 := 100000) (n2 := 16) (j 0) (0 : Fin 100000) (j 1)) := by
  have s0 : ∀ h : 0 < S26x100000x16.rank, scatter_S26x100000x16_S1_S26x16_01_1_1_0.start j idx ⟨0, h⟩ = 0 := fun _ => rfl
  have s2 : ∀ h : 2 < S26x100000x16.rank, scatter_S26x100000x16_S1_S26x16_01_1_1_0.start j idx ⟨2, h⟩ = 0 := fun _ => rfl
  have s1 : ∀ h : 1 < S26x100000x16.rank, scatter_S26x100000x16_S1_S26x16_01_1_1_0.start j idx ⟨1, h⟩ = 0 := by
    intro h
    unfold ScatterDims.start
    rw [dif_pos (show (⟨1, h⟩ : Fin S26x100000x16.rank) ∈ scatter_S26x100000x16_S1_S26x16_01_1_1_0.scatterDimsToOperandDims from List.mem_singleton.mpr rfl), hidx]
    rfl
  have w0 : ∀ h : 0 < S26x100000x16.rank, scatter_S26x100000x16_S1_S26x16_01_1_1_0.window j ⟨0, h⟩ = (j 0).val := fun _ => rfl
  have w1 : ∀ h : 1 < S26x100000x16.rank, scatter_S26x100000x16_S1_S26x16_01_1_1_0.window j ⟨1, h⟩ = 0 := fun _ => rfl
  have w2 : ∀ h : 2 < S26x100000x16.rank, scatter_S26x100000x16_S1_S26x16_01_1_1_0.window j ⟨2, h⟩ = (j 1).val := fun _ => rfl
  have h0 : (j 0).val < 26 := (j 0).isLt
  have h1 : (j 1).val < 16 := (j 1).isLt
  unfold ScatterDims.resultIdx?
  rw [dif_pos (fun a => by
    match a with
    | ⟨0, h⟩ => rw [s0 h, w0 h]; show (0 : Int) ≤ 0 + ((j 0).val : Int) ∧ 0 + ((j 0).val : Int) < ((26 : Nat) : Int); omega
    | ⟨1, h⟩ => rw [s1 h, w1 h]; show (0 : Int) ≤ 0 + ((0 : Nat) : Int) ∧ 0 + ((0 : Nat) : Int) < ((100000 : Nat) : Int); omega
    | ⟨2, h⟩ => rw [s2 h, w2 h]; show (0 : Int) ≤ 0 + ((j 1).val : Int) ∧ 0 + ((j 1).val : Int) < ((16 : Nat) : Int); omega)]
  congr 1
  funext a
  refine Fin.ext ?_
  match a with
  | ⟨0, h⟩ => show (scatter_S26x100000x16_S1_S26x16_01_1_1_0.start j idx ⟨0, h⟩ + scatter_S26x100000x16_S1_S26x16_01_1_1_0.window j ⟨0, h⟩).toNat = (j 0).val; rw [s0 h, w0 h]; omega
  | ⟨1, h⟩ => show (scatter_S26x100000x16_S1_S26x16_01_1_1_0.start j idx ⟨1, h⟩ + scatter_S26x100000x16_S1_S26x16_01_1_1_0.window j ⟨1, h⟩).toNat = 0; rw [s1 h, w1 h]; omega
  | ⟨2, h⟩ => show (scatter_S26x100000x16_S1_S26x16_01_1_1_0.start j idx ⟨2, h⟩ + scatter_S26x100000x16_S1_S26x16_01_1_1_0.window j ⟨2, h⟩).toNat = (j 1).val; rw [s2 h, w2 h]; omega

/-- The row-0 scatter at `(f, r, d)`. -/
theorem scatter_row0_apply {α : Type} (x : S26x100000x16.Idx → α) (idx : IVec S1 32) (hidx : ∀ k, idx k = 0#32)
    (upd : S26x16.Idx → α) (c : α) (hupd : ∀ k, upd k = c) (f : Fin 26) (r : Fin 100000) (d : Fin 16) :
    Host.scatter scatter_S26x100000x16_S1_S26x16_01_1_1_0 (fun _ b => b) x idx upd (ix3 f r d)
      = if r = 0 then c else x (ix3 f r d) := by
  unfold Host.scatter
  by_cases hr : r = 0
  · rw [if_pos hr]; subst hr
    refine foldl_at_of_mem _ (fun n => ix3 (n0 := 26) (n1 := 100000) (n2 := 16) (S26x16.rowMajor.symm n 0) (0 : Fin 100000) (S26x16.rowMajor.symm n 1) = ix3 f 0 d)
      _ c (fun r n hP => ?_) (fun r n hP => ?_) _ x ⟨S26x16.rowMajor (ix2 f d), List.mem_finRange _, ?_⟩
    · dsimp only; rw [scatter_resultIdx idx hidx]; dsimp only; exact (if_pos hP.symm).trans (hupd _)
    · dsimp only; rw [scatter_resultIdx idx hidx]; dsimp only; exact if_neg (fun e => hP e.symm)
    · rw [Equiv.symm_apply_apply]
  · rw [if_neg hr]
    refine foldl_at_of_not_mem _ (fun n => ix3 (n0 := 26) (n1 := 100000) (n2 := 16) (S26x16.rowMajor.symm n 0) (0 : Fin 100000) (S26x16.rowMajor.symm n 1) = ix3 f r d)
      _ (fun r' n hP => ?_) _ x (fun n _ hP => hr ?_)
    · dsimp only; rw [scatter_resultIdx idx hidx]; dsimp only; exact if_neg (fun e => hP e.symm)
    · exact (congrFun hP 1).symm

end Cert.Proof.RefValue
-- ==== Proof.RefPieces.lean ====
import proofs.«205318_g12532714570102_cont_fleet_669_37_alg».proof.Proof.RefGather
import proofs.«205318_g12532714570102_cont_fleet_669_37_alg».proof.Proof.RefScatter
import Idealize.ShloMosaic.PureOps.Ideal.Laws

noncomputable section

namespace Cert.Proof.RefValue

open Cert.ReferenceIdeal Cert.ReferenceIdeal.Gen Idealize.ShloMosaic Idealize.ShloMosaic.ValueIdx

/-! # One gathered piece of the deep input

The reference zeroes row 0 of every table, then for table `f`: slices the table out, drops the unit axis, slices
column `f` of the index array, drops its unit axis, wraps negative words around, restores the unit axis and gathers.
Here are those operations as one function of the index array, the tables and `f`, and its value at `(b, d)`. -/

/-- The tables after row 0 of each has been overwritten by zero. -/
def zeroed (a2 : (⟨S26x100000x16, .f32⟩ : BufTy).Contents (Elt Ideal)) : (⟨S26x100000x16, .f32⟩ : BufTy).Contents (Elt Ideal) :=
  Host.scatter scatter_S26x100000x16_S1_S26x16_01_1_1_0 (fun _ b => b) a2
    (broadcastInDim S1 ![] bcast_S_S1 (constantI S_ 32 0#32))
    (broadcastInDim S26x16 ![] bcast_S_S26x16 (constant (F := Ideal) S_ .f32 0x00000000#32))

/-- The zeroed tables at `(f, r, d)`. -/
theorem zeroed_apply (a2 : (⟨S26x100000x16, .f32⟩ : BufTy).Contents (Elt Ideal)) (f : Fin 26) (r : Fin 100000) (d : Fin 16) :
    zeroed a2 (ix3 f r d) = if r = 0 then (0 : EReal) else a2 (ix3 f r d) := by
  unfold zeroed
  exact scatter_row0_apply a2 _ (fun k => (broadcastInDim_apply _ bcast_S_S1 _ k ix0 (fun a => a.elim0)).trans rfl) _ 0
    (fun k => (broadcastInDim_apply _ bcast_S_S26x16 _ k ix0 (fun a => a.elim0)).trans Ideal.ofBits_zero_f32) f r d

/-- A table sliced out of a `[26, 100000, 16]` array and its unit axis dropped, at `(r, d)`. -/
theorem table_apply {α : Type} (y : S26x100000x16.Idx → α) (f : Nat) (hf : f < 26)
    (hs : S26x100000x16.Slices ![f, 0, 0] S1x100000x16) (hc : S1x100000x16.ShapeCasts S100000x16)
    (r : Fin 100000) (d : Fin 16) :
    shapeCast S100000x16 (extractStridedSlice S1x100000x16 ![f, 0, 0] y hs) hc (ix2 r d) = y (ix3 (⟨f, hf⟩ : Fin 26) r d) := by
  have hr := r.isLt
  have hd := d.isLt
  refine (shapeCast_apply _ hc (ix2 r d) (ix3 (0 : Fin 1) r d) ?_).trans
    (extractStridedSlice_apply ![f, 0, 0] y hs (ix3 (0 : Fin 1) r d) (ix3 (⟨f, hf⟩ : Fin 26) r d) (fun a => ?_))
  · rw [Shape.rowMajor_val_three, Shape.rowMajor_val_two]
    show (0 * 100000 + r.val) * 16 + d.val = r.val * 16 + d.val
    omega
  · match a with
    | ⟨0, _⟩ => show f = f + 0; omega
    | ⟨1, _⟩ => show r.val = 0 + r.val; omega
    | ⟨2, _⟩ => show d.val = 0 + d.val; omega

/-- A column sliced out of the index array and its unit axis dropped, at `b`. -/
theorem column_apply {α : Type} (x : S16384x39.Idx → α) (f : Nat) (hf : f < 39)
    (hs : S16384x39.Slices ![0, f] S16384x1) (hc : S16384x1.ShapeCasts S16384) (b : Fin 16384) :
    shapeCast S16384 (extractStridedSlice S16384x1 ![0, f] x hs) hc (ix1 b) = x (ix2 b (⟨f, hf⟩ : Fin 39)) := by
  have hb := b.isLt
  refine (shapeCast_apply _ hc (ix1 b) (ix2 b (0 : Fin 1)) ?_).trans
    (extractStridedSlice_apply ![0, f] x hs (ix2 b (0 : Fin 1)) (ix2 b (⟨f, hf⟩ : Fin 39)) (fun a => ?_))
  · rw [Shape.rowMajor_val_two, Shape.rowMajor_val_one]
    show b.val * 1 + 0 = b.val
    omega
  · match a with
    | ⟨0, _⟩ => show b.val = 0 + b.val; omega
    | ⟨1, _⟩ => show f = f + 0; omega

/-- A splat of an integer constant over `[16384]`. -/
theorem splat_apply (w : BitVec 32) (i : S16384.Idx) :
    broadcastInDim S16384 ![] bcast_S_S16384 (constantI S_ 32 w) i = w :=
  (broadcastInDim_apply _ bcast_S_S16384 _ i ix0 (fun a => a.elim0)).trans rfl

/-- The index column after the wrap-around of negative words. -/
def wrapped (x : IVec S16384 32) : IVec S16384 32 :=
  select (cmpi .slt x (broadcastInDim S16384 ![] bcast_S_S16384 (constantI S_ 32 0#32)))
    (addi x (broadcastInDim S16384 ![] bcast_S_S16384 (constantI S_ 32 100000#32))) x

/-- The gathered piece of table `f` as the reference computes it. -/
def gathered (a1 : (⟨S16384x39, .i32⟩ : BufTy).Contents (Elt Ideal)) (a2 : (⟨S26x100000x16, .f32⟩ : BufTy).Contents (Elt Ideal)) (f : Nat)
    (hs1 : S26x100000x16.Slices ![f, 0, 0] S1x100000x16) (hs2 : S16384x39.Slices ![0, f] S16384x1) :
    (⟨S16384x16, .f32⟩ : BufTy).Contents (Elt Ideal) :=
  Host.gather gather_S100000x16_S16384x1_S16384x16_1_0_n_n_0_1_116
    (shapeCast S100000x16 (extractStridedSlice S1x100000x16 ![f, 0, 0] (zeroed a2) hs1) shapeCasts_S1x100000x16_S100000x16)
    (broadcastInDim S16384x1 ![0] bcast_S16384_S16384x1_0
      (wrapped (shapeCast S16384 (extractStridedSlice S16384x1 ![0, f] a1 hs2) shapeCasts_S16384x1_S16384)))

/-- The piece of the deep input that table `f` contributes: row `X_d[b, f]` of the zeroed table, lane `d`. -/
def piece (a1 : (⟨S16384x39, .i32⟩ : BufTy).Contents (Elt Ideal)) (a2 : (⟨S26x100000x16, .f32⟩ : BufTy).Contents (Elt Ideal)) (f : Fin 26) : S16384x16.Idx → EReal :=
  fun i => Spec.tz (fun f r d => a2 (ix3 f r d)) f (Spec.row (a1 (ix2 (i 0) (Spec.xcol f)))) (i 1)

/-- **The gathered piece is the specification's**, every index word being in range. -/
theorem gathered_eq (a1 : (⟨S16384x39, .i32⟩ : BufTy).Contents (Elt Ideal)) (a2 : (⟨S26x100000x16, .f32⟩ : BufTy).Contents (Elt Ideal)) (h : ∀ i, (a1 i).toNat < 100000) (f : Nat) (hf : f < 26)
    (hs1 : S26x100000x16.Slices ![f, 0, 0] S1x100000x16) (hs2 : S16384x39.Slices ![0, f] S16384x1) :
    gathered a1 a2 f hs1 hs2 = piece a1 a2 ⟨f, hf⟩ := by
  funext i
  obtain ⟨b, d, rfl⟩ : ∃ (b : Fin 16384) (d : Fin 16), i = ix2 b d := ⟨i 0, i 1, eq_ix2 i⟩
  unfold gathered
  rw [gather_rows_apply, table_apply _ f hf]
  have hidx : broadcastInDim S16384x1 ![0] bcast_S16384_S16384x1_0
      (wrapped (shapeCast S16384 (extractStridedSlice S16384x1 ![0, f] a1 hs2) shapeCasts_S16384x1_S16384)) (ix2 b (0 : Fin 1))
        = a1 (ix2 b (⟨f, by omega⟩ : Fin 39)) := by
    refine (broadcastInDim_apply _ bcast_S16384_S16384x1_0 _ (ix2 b (0 : Fin 1)) (ix1 b) (fun a => ?_)).trans ?_
    · match a with
      | ⟨0, _⟩ => show b.val = if (16384 : Nat) = 1 then 0 else b.val; rw [if_neg (by decide)]
    · show Scalar.select (IntOp.cmpi .slt _ _) (IntOp.addi _ _) _ = _
      rw [splat_apply, splat_apply, column_apply a1 f (by omega)]
      exact wrap_of_lt _ (h _)
  rw [hidx, zeroed_apply, clampRow_of_lt _ (h _)]
  rfl

end Cert.Proof.RefValue
-- ==== Proof.RefConcat.lean ====
import proofs.«205318_g12532714570102_cont_fleet_669_37_alg».proof.Proof.Gen.ReferenceIdeal
import Idealize.ShloMosaic.Lib.ValueIdx
import Idealize.ShloMosaic.Lib.Pipeline.Value

noncomputable section

namespace Cert.Proof.RefValue

open Cert.ReferenceIdeal Idealize.ShloMosaic Idealize.ShloMosaic.ValueIdx

/-! # Concatenations along the column axis, read at an index

Element `(b, q)` of a concatenation along axis 1 comes from the piece whose column span holds `q`. -/

variable {α : Type}

/-- Two pieces side by side: columns below the first extent come from the first piece, the others from the second. -/
theorem concat_pair_cols {B n1 n2 n : Nat} (A : (⟨2, ![B, n1]⟩ : Shape).Idx → α) (C : (⟨2, ![B, n2]⟩ : Shape).Idx → α)
    (h : Shape.Concatenates [(⟨2, ![B, n1]⟩ : Shape), ⟨2, ![B, n2]⟩] ⟨2, ![B, n]⟩ 1) (hn : n1 + n2 = n)
    (b : Fin B) (q : Fin n) :
    concatenate (⟨2, ![B, n]⟩ : Shape) 1 [⟨(⟨2, ![B, n1]⟩ : Shape), A⟩, ⟨(⟨2, ![B, n2]⟩ : Shape), C⟩] h (ix2 b q)
      = if hq : q.val < n1 then A (ix2 b ⟨q.val, hq⟩) else C (ix2 b ⟨q.val - n1, by have := q.isLt; omega⟩) := by
  by_cases hq : q.val < n1
  · rw [dif_pos hq]
    exact concatenate_pair_apply_left 1 A C h (ix2 b q) rfl (ix2 b ⟨q.val, hq⟩) (fun c => by
      match c with
      | ⟨0, _⟩ => rfl
      | ⟨1, _⟩ => rfl)
  · rw [dif_neg hq]
    exact concatenate_pair_apply_right 1 A C h (ix2 b q) rfl rfl (ix2 b ⟨q.val - n1, by have := q.isLt; omega⟩) (fun c hc => by
      match c with
      | ⟨0, _⟩ => rfl
      | ⟨1, _⟩ => exact absurd rfl hc)
      (by show (q.val - n1) + n1 = q.val; omega)

/-- Sixteen pieces of sixteen columns each: column `q` comes from piece `q / 16`, at its column `q % 16`. -/
theorem concat16_apply (P : Fin 16 → (S16384x16.Idx → α))
    (h : Shape.Concatenates ((List.ofFn fun n : Fin 16 => (⟨S16384x16, P n⟩ : (s : Shape) × (s.Idx → α))).map (·.1)) S16384x256 1)
    (b : Fin 16384) (q : Fin 256) :
    concatenate S16384x256 1 (List.ofFn fun n : Fin 16 => (⟨S16384x16, P n⟩ : (s : Shape) × (s.Idx → α))) h (ix2 b q)
      = P ⟨q.val / 16, by have := q.isLt; omega⟩ (ix2 b ⟨q.val % 16, by omega⟩) :=
  concatenate_ofFn_apply (t := S16384x256) (s₁ := S16384x16) 1 P h rfl 16 rfl (ix2 b q)
    ⟨q.val / 16, by have := q.isLt; omega⟩ rfl (ix2 b ⟨q.val % 16, by omega⟩) rfl (fun c hc => by
      match c with
      | ⟨0, _⟩ => rfl
      | ⟨1, _⟩ => exact absurd rfl hc)

/-- The same, the sixteen pieces written out. -/
theorem concat16_list_apply (P : Fin 16 → (S16384x16.Idx → α))
    (h : Shape.Concatenates (([⟨S16384x16, P 0⟩, ⟨S16384x16, P 1⟩, ⟨S16384x16, P 2⟩, ⟨S16384x16, P 3⟩, ⟨S16384x16, P 4⟩, ⟨S16384x16, P 5⟩, ⟨S16384x16, P 6⟩, ⟨S16384x16, P 7⟩, ⟨S16384x16, P 8⟩, ⟨S16384x16, P 9⟩, ⟨S16384x16, P 10⟩, ⟨S16384x16, P 11⟩, ⟨S16384x16, P 12⟩, ⟨S16384x16, P 13⟩, ⟨S16384x16, P 14⟩, ⟨S16384x16, P 15⟩] : List ((s : Shape) × (s.Idx → α))).map (·.1)) S16384x256 1)
    (b : Fin 16384) (q : Fin 256) :
    concatenate S16384x256 1 [⟨S16384x16, P 0⟩, ⟨S16384x16, P 1⟩, ⟨S16384x16, P 2⟩, ⟨S16384x16, P 3⟩, ⟨S16384x16, P 4⟩, ⟨S16384x16, P 5⟩, ⟨S16384x16, P 6⟩, ⟨S16384x16, P 7⟩, ⟨S16384x16, P 8⟩, ⟨S16384x16, P 9⟩, ⟨S16384x16, P 10⟩, ⟨S16384x16, P 11⟩, ⟨S16384x16, P 12⟩, ⟨S16384x16, P 13⟩, ⟨S16384x16, P 14⟩, ⟨S16384x16, P 15⟩] h (ix2 b q)
      = P ⟨q.val / 16, by have := q.isLt; omega⟩ (ix2 b ⟨q.val % 16, by omega⟩) :=
  concat16_apply P h b q

/-- Ten pieces of sixteen columns and a last piece of thirteen. -/
theorem concat11_apply (P : Fin 10 → (S16384x16.Idx → α)) (C : S16384x13.Idx → α)
    (h : Shape.Concatenates (([⟨S16384x16, P 0⟩, ⟨S16384x16, P 1⟩, ⟨S16384x16, P 2⟩, ⟨S16384x16, P 3⟩, ⟨S16384x16, P 4⟩, ⟨S16384x16, P 5⟩, ⟨S16384x16, P 6⟩, ⟨S16384x16, P 7⟩, ⟨S16384x16, P 8⟩, ⟨S16384x16, P 9⟩, ⟨S16384x13, C⟩] : List ((s : Shape) × (s.Idx → α))).map (·.1)) S16384x173 1)
    (b : Fin 16384) (q : Fin 173) :
    concatenate S16384x173 1 [⟨S16384x16, P 0⟩, ⟨S16384x16, P 1⟩, ⟨S16384x16, P 2⟩, ⟨S16384x16, P 3⟩, ⟨S16384x16, P 4⟩, ⟨S16384x16, P 5⟩, ⟨S16384x16, P 6⟩, ⟨S16384x16, P 7⟩, ⟨S16384x16, P 8⟩, ⟨S16384x16, P 9⟩, ⟨S16384x13, C⟩] h (ix2 b q)
      = if hq : q.val < 160 then P ⟨q.val / 16, by omega⟩ (ix2 b ⟨q.val % 16, by omega⟩)
        else C (ix2 b ⟨q.val - 160, by have := q.isLt; omega⟩) := by
  by_cases hq : q.val < 160
  · rw [dif_pos hq]
    have key : ∀ (k : Nat) (hk : k < 10), 16 * k + q.val % 16 = q.val →
        concatenate S16384x173 1 [⟨S16384x16, P 0⟩, ⟨S16384x16, P 1⟩, ⟨S16384x16, P 2⟩, ⟨S16384x16, P 3⟩, ⟨S16384x16, P 4⟩, ⟨S16384x16, P 5⟩, ⟨S16384x16, P 6⟩, ⟨S16384x16, P 7⟩, ⟨S16384x16, P 8⟩, ⟨S16384x16, P 9⟩, ⟨S16384x13, C⟩] h (ix2 b q) = P ⟨k, hk⟩ (ix2 b ⟨q.val % 16, by omega⟩) := by
      intro k hk hmod
      refine concatenate_apply_piece 1 _ h (ix2 b q) k (by show k < 11; omega) S16384x16 (P ⟨k, hk⟩)
        (by interval_cases k <;> rfl) rfl (16 * k) (by interval_cases k <;> rfl) (ix2 b ⟨q.val % 16, by omega⟩) (fun c hc => by
          match c with
          | ⟨0, _⟩ => rfl
          | ⟨1, _⟩ => exact absurd rfl hc) hmod
    exact key (q.val / 16) (by omega) (Nat.div_add_mod _ _)
  · rw [dif_neg hq]
    exact concatenate_apply_piece 1 _ h (ix2 b q) 10 (by show (10 : Nat) < 11; omega) S16384x13 C rfl rfl 160 rfl
      (ix2 b ⟨q.val - 160, by have := q.isLt; omega⟩) (fun c hc => by
        match c with
        | ⟨0, _⟩ => rfl
        | ⟨1, _⟩ => exact absurd rfl hc) (by show 160 + (q.val - 160) = q.val; omega)

end Cert.Proof.RefValue
-- ==== Proof.RefDeepInput.lean ====
import proofs.«205318_g12532714570102_cont_fleet_669_37_alg».proof.Proof.RefPieces
import proofs.«205318_g12532714570102_cont_fleet_669_37_alg».proof.Proof.RefConcat

noncomputable section

namespace Cert.Proof.RefValue

open Cert.ReferenceIdeal Cert.ReferenceIdeal.Gen Idealize.ShloMosaic Idealize.ShloMosaic.ValueIdx

/-! # The deep input

The reference lays the twenty-six gathered pieces and the thirteen continuous columns side by side (sixteen pieces, then
ten pieces and the continuous block, then the two halves): column `q` below `416` is lane `q % 16` of the piece of
table `q / 16`, and column `416 + k` is continuous feature `k` read as a real. -/

/-- The continuous features as reals. -/
def contBlock (a1 : (⟨S16384x39, .i32⟩ : BufTy).Contents (Elt Ideal)) : (⟨S16384x13, .f32⟩ : BufTy).Contents (Elt Ideal) :=
  sitofp (F := Ideal) .f32 (extractStridedSlice S16384x13 ![0, 26] a1 slices_S16384x39_S16384x13_0_26)

/-- The first sixteen pieces side by side. -/
def deepA (a1 : (⟨S16384x39, .i32⟩ : BufTy).Contents (Elt Ideal)) (a2 : (⟨S26x100000x16, .f32⟩ : BufTy).Contents (Elt Ideal)) : (⟨S16384x256, .f32⟩ : BufTy).Contents (Elt Ideal) :=
  concatenate S16384x256 1 [⟨S16384x16, gathered a1 a2 0 slices_S26x100000x16_S1x100000x16_0_0_0 slices_S16384x39_S16384x1_0_0⟩,
      ⟨S16384x16, gathered a1 a2 1 slices_S26x100000x16_S1x100000x16_1_0_0 slices_S16384x39_S16384x1_0_1⟩,
      ⟨S16384x16, gathered a1 a2 2 slices_S26x100000x16_S1x100000x16_2_0_0 slices_S16384x39_S16384x1_0_2⟩,
      ⟨S16384x16, gathered a1 a2 3 slices_S26x100000x16_S1x100000x16_3_0_0 slices_S16384x39_S16384x1_0_3⟩,
      ⟨S16384x16, gathered a1 a2 4 slices_S26x100000x16_S1x100000x16_4_0_0 slices_S16384x39_S16384x1_0_4⟩,
      ⟨S16384x16, gathered a1 a2 5 slices_S26x100000x16_S1x100000x16_5_0_0 slices_S16384x39_S16384x1_0_5⟩,
      ⟨S16384x16, gathered a1 a2 6 slices_S26x100000x16_S1x100000x16_6_0_0 slices_S16384x39_S16384x1_0_6⟩,
      ⟨S16384x16, gathered a1 a2 7 slices_S26x100000x16_S1x100000x16_7_0_0 slices_S16384x39_S16384x1_0_7⟩,
      ⟨S16384x16, gathered a1 a2 8 slices_S26x100000x16_S1x100000x16_8_0_0 slices_S16384x39_S16384x1_0_8⟩,
      ⟨S16384x16, gathered a1 a2 9 slices_S26x100000x16_S1x100000x16_9_0_0 slices_S16384x39_S16384x1_0_9⟩,
      ⟨S16384x16, gathered a1 a2 10 slices_S26x100000x16_S1x100000x16_10_0_0 slices_S16384x39_S16384x1_0_10⟩,
      ⟨S16384x16, gathered a1 a2 11 slices_S26x100000x16_S1x100000x16_11_0_0 slices_S16384x39_S16384x1_0_11⟩,
      ⟨S16384x16, gathered a1 a2 12 slices_S26x100000x16_S1x100000x16_12_0_0 slices_S16384x39_S16384x1_0_12⟩,
      ⟨S16384x16, gathered a1 a2 13 slices_S26x100000x16_S1x100000x16_13_0_0 slices_S16384x39_S16384x1_0_13⟩,
      ⟨S16384x16, gathered a1 a2 14 slices_S26x100000x16_S1x100000x16_14_0_0 slices_S16384x39_S16384x1_0_14⟩,
      ⟨S16384x16, gathered a1 a2 15 slices_S26x100000x16_S1x100000x16_15_0_0 slices_S16384x39_S16384x1_0_15⟩]
    concatenates_S16384x16_S16384x16_S16384x16_S16384x16_S16384x16_S16384x16_S16384x16_S16384x16_S16384x16_S16384x16_S16384x16_S16384x16_S16384x16_S16384x16_S16384x16_S16384x16_S16384x256_d1

/-- The last ten pieces and the continuous block side by side. -/
def deepB (a1 : (⟨S16384x39, .i32⟩ : BufTy).Contents (Elt Ideal)) (a2 : (⟨S26x100000x16, .f32⟩ : BufTy).Contents (Elt Ideal)) : (⟨S16384x173, .f32⟩ : BufTy).Contents (Elt Ideal) :=
  concatenate S16384x173 1 [⟨S16384x16, gathered a1 a2 16 slices_S26x100000x16_S1x100000x16_16_0_0 slices_S16384x39_S16384x1_0_16⟩,
      ⟨S16384x16, gathered a1 a2 17 slices_S26x100000x16_S1x100000x16_17_0_0 slices_S16384x39_S16384x1_0_17⟩,
      ⟨S16384x16, gathered a1 a2 18 slices_S26x100000x16_S1x100000x16_18_0_0 slices_S16384x39_S16384x1_0_18⟩,
      ⟨S16384x16, gathered a1 a2 19 slices_S26x100000x16_S1x100000x16_19_0_0 slices_S16384x39_S16384x1_0_19⟩,
      ⟨S16384x16, gathered a1 a2 20 slices_S26x100000x16_S1x100000x16_20_0_0 slices_S16384x39_S16384x1_0_20⟩,
      ⟨S16384x16, gathered a1 a2 21 slices_S26x100000x16_S1x100000x16_21_0_0 slices_S16384x39_S16384x1_0_21⟩,
      ⟨S16384x16, gathered a1 a2 22 slices_S26x100000x16_S1x100000x16_22_0_0 slices_S16384x39_S16384x1_0_22⟩,
      ⟨S16384x16, gathered a1 a2 23 slices_S26x100000x16_S1x100000x16_23_0_0 slices_S16384x39_S16384x1_0_23⟩,
      ⟨S16384x16, gathered a1 a2 24 slices_S26x100000x16_S1x100000x16_24_0_0 slices_S16384x39_S16384x1_0_24⟩,
      ⟨S16384x16, gathered a1 a2 25 slices_S26x100000x16_S1x100000x16_25_0_0 slices_S16384x39_S16384x1_0_25⟩,
      ⟨S16384x13, contBlock a1⟩]
    concatenates_S16384x16_S16384x16_S16384x16_S16384x16_S16384x16_S16384x16_S16384x16_S16384x16_S16384x16_S16384x16_S16384x13_S16384x173_d1

/-- The deep input `[16384, 429]`. -/
def deepInput (a1 : (⟨S16384x39, .i32⟩ : BufTy).Contents (Elt Ideal)) (a2 : (⟨S26x100000x16, .f32⟩ : BufTy).Contents (Elt Ideal)) : (⟨S16384x429, .f32⟩ : BufTy).Contents (Elt Ideal) :=
  concatenate S16384x429 1 [⟨S16384x256, deepA a1 a2⟩, ⟨S16384x173, deepB a1 a2⟩] concatenates_S16384x256_S16384x173_S16384x429_d1

/-- **The deep input at `(b, q)` is the specification's**, every index word being in range. -/
theorem deepInput_apply (a1 : (⟨S16384x39, .i32⟩ : BufTy).Contents (Elt Ideal)) (a2 : (⟨S26x100000x16, .f32⟩ : BufTy).Contents (Elt Ideal)) (h : ∀ i, (a1 i).toNat < 100000) (b : Fin 16384) (q : Fin 429) :
    deepInput a1 a2 (ix2 b q) = Spec.deep (fun b f => a1 (ix2 b f)) (fun f r d => a2 (ix3 f r d)) b q := by
  have hq429 := q.isLt
  unfold deepInput
  refine (concat_pair_cols (B := 16384) (n1 := 256) (n2 := 173) (n := 429) (deepA a1 a2) (deepB a1 a2) _ rfl b q).trans ?_
  by_cases hq : q.val < 256
  · rw [dif_pos hq]
    unfold deepA
    rw [gathered_eq a1 a2 h 0 (by omega), gathered_eq a1 a2 h 1 (by omega), gathered_eq a1 a2 h 2 (by omega), gathered_eq a1 a2 h 3 (by omega), gathered_eq a1 a2 h 4 (by omega), gathered_eq a1 a2 h 5 (by omega), gathered_eq a1 a2 h 6 (by omega), gathered_eq a1 a2 h 7 (by omega), gathered_eq a1 a2 h 8 (by omega), gathered_eq a1 a2 h 9 (by omega), gathered_eq a1 a2 h 10 (by omega), gathered_eq a1 a2 h 11 (by omega), gathered_eq a1 a2 h 12 (by omega), gathered_eq a1 a2 h 13 (by omega), gathered_eq a1 a2 h 14 (by omega), gathered_eq a1 a2 h 15 (by omega)]
    refine (concat16_list_apply (fun n => piece a1 a2 (Fin.castLE (by norm_num) n)) _ b ⟨q.val, hq⟩).trans ?_
    unfold Spec.deep
    rw [dif_pos (show q.val < 416 by omega)]
    rfl
  · rw [dif_neg hq]
    unfold deepB
    rw [gathered_eq a1 a2 h 16 (by omega), gathered_eq a1 a2 h 17 (by omega), gathered_eq a1 a2 h 18 (by omega), gathered_eq a1 a2 h 19 (by omega), gathered_eq a1 a2 h 20 (by omega), gathered_eq a1 a2 h 21 (by omega), gathered_eq a1 a2 h 22 (by omega), gathered_eq a1 a2 h 23 (by omega), gathered_eq a1 a2 h 24 (by omega), gathered_eq a1 a2 h 25 (by omega)]
    refine (concat11_apply (fun n => piece a1 a2 ⟨16 + n.val, by omega⟩) (contBlock a1) _ b ⟨q.val - 256, by omega⟩).trans ?_
    by_cases hq2 : q.val - 256 < 160
    · rw [dif_pos hq2]
      unfold Spec.deep
      rw [dif_pos (show q.val < 416 by omega)]
      have e1 : (⟨16 + (q.val - 256) / 16, by omega⟩ : Fin 26) = Spec.fld ⟨q.val, by omega⟩ :=
        Fin.ext (by show 16 + (q.val - 256) / 16 = q.val / 16; omega)
      have e2 : (⟨(q.val - 256) % 16, by omega⟩ : Fin 16) = Spec.lane ⟨q.val, by omega⟩ :=
        Fin.ext (by show (q.val - 256) % 16 = q.val % 16; omega)
      show piece a1 a2 ⟨16 + (q.val - 256) / 16, _⟩ (ix2 b ⟨(q.val - 256) % 16, _⟩) = _
      rw [e1, e2]
      rfl
    · rw [dif_neg hq2]
      unfold Spec.deep
      rw [dif_neg (show ¬ q.val < 416 by omega)]
      unfold contBlock
      show FloatOps.sitofp (F := Ideal) .f32 (extractStridedSlice S16384x13 ![0, 26] a1 slices_S16384x39_S16384x13_0_26 (ix2 b (⟨q.val - 256 - 160, by omega⟩ : Fin 13))) = _
      rw [extractStridedSlice_apply ![0, 26] a1 slices_S16384x39_S16384x13_0_26 (ix2 b (⟨q.val - 256 - 160, by omega⟩ : Fin 13))
        (ix2 b (⟨26 + (q.val - 416), by omega⟩ : Fin 39)) (fun a => by
          match a with
          | ⟨0, _⟩ => show b.val = 0 + b.val; omega
          | ⟨1, _⟩ => show 26 + (q.val - 416) = 26 + (q.val - 256 - 160); omega)]
      rfl

end Cert.Proof.RefValue
-- ==== Proof.RefDense.lean ====
import proofs.«205318_g12532714570102_cont_fleet_669_37_alg».proof.Proof.Gen.ReferenceIdeal
import Idealize.ShloMosaic.Lib.ValueIdx
import Idealize.ShloMosaic.Lib.Pipeline.Value
import Idealize.ShloMosaic.PureOps.Ideal.Laws

noncomputable section

namespace Cert.Proof.RefValue

open Cert.ReferenceIdeal Cert.ReferenceIdeal.Gen Idealize.ShloMosaic Idealize.ShloMosaic.ValueIdx

/-! # The dense layers' operations read at an index -/

/-- Left operand index of the `[16384, 429] × [429, 256]` contraction, axis 0. -/
theorem dot1_lhs0 (i : S16384x256.Idx) (q : dot_S16384x429_S429x256_S16384x256_1_0_0_1_n_n.contr.Idx) : (dot_S16384x429_S429x256_S16384x256_1_0_0_1_n_n.lhsIdx i q 0).val = (i 0).val := by
  unfold DotDims.lhsIdx
  rw [dif_neg (show ¬(0 : Fin S16384x429.rank) ∈ dot_S16384x429_S429x256_S16384x256_1_0_0_1_n_n.lhsBatch by decide), dif_pos (show (0 : Fin S16384x429.rank) ∈ dot_S16384x429_S429x256_S16384x256_1_0_0_1_n_n.lhsNonContracting by decide)]
  rfl
/-- … axis 1. -/
theorem dot1_lhs1 (i : S16384x256.Idx) (q : dot_S16384x429_S429x256_S16384x256_1_0_0_1_n_n.contr.Idx) : (dot_S16384x429_S429x256_S16384x256_1_0_0_1_n_n.lhsIdx i q 1).val = (q ⟨0, by decide⟩).val :=
  dot_S16384x429_S429x256_S16384x256_1_0_0_1_n_n.lhsIdx_val_of_single rfl i q
/-- Right operand index, axis 0. -/
theorem dot1_rhs0 (i : S16384x256.Idx) (q : dot_S16384x429_S429x256_S16384x256_1_0_0_1_n_n.contr.Idx) : (dot_S16384x429_S429x256_S16384x256_1_0_0_1_n_n.rhsIdx i q 0).val = (q ⟨0, by decide⟩).val :=
  dot_S16384x429_S429x256_S16384x256_1_0_0_1_n_n.rhsIdx_val_of_single rfl i q
/-- … axis 1. -/
theorem dot1_rhs1 (i : S16384x256.Idx) (q : dot_S16384x429_S429x256_S16384x256_1_0_0_1_n_n.contr.Idx) : (dot_S16384x429_S429x256_S16384x256_1_0_0_1_n_n.rhsIdx i q 1).val = (i 1).val := by
  unfold DotDims.rhsIdx
  rw [dif_neg (show ¬(1 : Fin S429x256.rank) ∈ dot_S16384x429_S429x256_S16384x256_1_0_0_1_n_n.rhsBatch by decide), dif_pos (show (1 : Fin S429x256.rank) ∈ dot_S16384x429_S429x256_S16384x256_1_0_0_1_n_n.rhsNonContracting by decide)]
  rfl

/-- The `[16384, 429] × [429, 256]` product at `(b, c)`: the sum over the contracted axis. -/
theorem dot1_apply (x : (⟨S16384x429, .f32⟩ : BufTy).Contents (Elt Ideal)) (y : (⟨S429x256, .f32⟩ : BufTy).Contents (Elt Ideal)) (b : Fin 16384) (c : Fin 256) :
    Host.dotGeneral (F := Ideal) (φ₁ := .f32) (φ₂ := .f32) dot_S16384x429_S429x256_S16384x256_1_0_0_1_n_n none x y (ix2 b c) = ∑ k : Fin 429, x (ix2 b k) * y (ix2 k c) := by
  simp only [Host.dotGeneral]
  rw [Ideal.dotGeneral_apply, ← Equiv.sum_comp (contrEquiv1 dot_S16384x429_S429x256_S16384x256_1_0_0_1_n_n 429 rfl rfl).symm]
  refine Finset.sum_congr rfl fun k _ => ?_
  have hk := contrEquiv1_symm_val dot_S16384x429_S429x256_S16384x256_1_0_0_1_n_n 429 rfl rfl k
  have el : dot_S16384x429_S429x256_S16384x256_1_0_0_1_n_n.lhsIdx (ix2 b c) ((contrEquiv1 dot_S16384x429_S429x256_S16384x256_1_0_0_1_n_n 429 rfl rfl).symm k) = ix2 b k := funext fun a => Fin.ext (by
    match a with
    | ⟨0, _⟩ => exact dot1_lhs0 _ _
    | ⟨1, _⟩ => exact (dot1_lhs1 _ _).trans hk)
  have er : dot_S16384x429_S429x256_S16384x256_1_0_0_1_n_n.rhsIdx (ix2 b c) ((contrEquiv1 dot_S16384x429_S429x256_S16384x256_1_0_0_1_n_n 429 rfl rfl).symm k) = ix2 k c := funext fun a => Fin.ext (by
    match a with
    | ⟨0, _⟩ => exact (dot1_rhs0 _ _).trans hk
    | ⟨1, _⟩ => exact dot1_rhs1 _ _)
  rw [el, er]

/-- Left operand index of the `[16384, 256] × [256, 128]` contraction, axis 0. -/
theorem dot2_lhs0 (i : S16384x128.Idx) (q : dot_S16384x256_S256x128_S16384x128_1_0_0_1_n_n.contr.Idx) : (dot_S16384x256_S256x128_S16384x128_1_0_0_1_n_n.lhsIdx i q 0).val = (i 0).val := by
  unfold DotDims.lhsIdx
  rw [dif_neg (show ¬(0 : Fin S16384x256.rank) ∈ dot_S16384x256_S256x128_S16384x128_1_0_0_1_n_n.lhsBatch by decide), dif_pos (show (0 : Fin S16384x256.rank) ∈ dot_S16384x256_S256x128_S16384x128_1_0_0_1_n_n.lhsNonContracting by decide)]
  rfl
/-- … axis 1. -/
theorem dot2_lhs1 (i : S16384x128.Idx) (q : dot_S16384x256_S256x128_S16384x128_1_0_0_1_n_n.contr.Idx) : (dot_S16384x256_S256x128_S16384x128_1_0_0_1_n_n.lhsIdx i q 1).val = (q ⟨0, by decide⟩).val :=
  dot_S16384x256_S256x128_S16384x128_1_0_0_1_n_n.lhsIdx_val_of_single rfl i q
/-- Right operand index, axis 0. -/
theorem dot2_rhs0 (i : S16384x128.Idx) (q : dot_S16384x256_S256x128_S16384x128_1_0_0_1_n_n.contr.Idx) : (dot_S16384x256_S256x128_S16384x128_1_0_0_1_n_n.rhsIdx i q 0).val = (q ⟨0, by decide⟩).val :=
  dot_S16384x256_S256x128_S16384x128_1_0_0_1_n_n.rhsIdx_val_of_single rfl i q
/-- … axis 1. -/
theorem dot2_rhs1 (i : S16384x128.Idx) (q : dot_S16384x256_S256x128_S16384x128_1_0_0_1_n_n.contr.Idx) : (dot_S16384x256_S256x128_S16384x128_1_0_0_1_n_n.rhsIdx i q 1).val = (i 1).val := by
  unfold DotDims.rhsIdx
  rw [dif_neg (show ¬(1 : Fin S256x128.rank) ∈ dot_S16384x256_S256x128_S16384x128_1_0_0_1_n_n.rhsBatch by decide), dif_pos (show (1 : Fin S256x128.rank) ∈ dot_S16384x256_S256x128_S16384x128_1_0_0_1_n_n.rhsNonContracting by decide)]
  rfl

/-- The `[16384, 256] × [256, 128]` product at `(b, c)`: the sum over the contracted axis. -/
theorem dot2_apply (x : (⟨S16384x256, .f32⟩ : BufTy).Contents (Elt Ideal)) (y : (⟨S256x128, .f32⟩ : BufTy).Contents (Elt Ideal)) (b : Fin 16384) (c : Fin 128) :
    Host.dotGeneral (F := Ideal) (φ₁ := .f32) (φ₂ := .f32) dot_S16384x256_S256x128_S16384x128_1_0_0_1_n_n none x y (ix2 b c) = ∑ k : Fin 256, x (ix2 b k) * y (ix2 k c) := by
  simp only [Host.dotGeneral]
  rw [Ideal.dotGeneral_apply, ← Equiv.sum_comp (contrEquiv1 dot_S16384x256_S256x128_S16384x128_1_0_0_1_n_n 256 rfl rfl).symm]
  refine Finset.sum_congr rfl fun k _ => ?_
  have hk := contrEquiv1_symm_val dot_S16384x256_S256x128_S16384x128_1_0_0_1_n_n 256 rfl rfl k
  have el : dot_S16384x256_S256x128_S16384x128_1_0_0_1_n_n.lhsIdx (ix2 b c) ((contrEquiv1 dot_S16384x256_S256x128_S16384x128_1_0_0_1_n_n 256 rfl rfl).symm k) = ix2 b k := funext fun a => Fin.ext (by
    match a with
    | ⟨0, _⟩ => exact dot2_lhs0 _ _
    | ⟨1, _⟩ => exact (dot2_lhs1 _ _).trans hk)
  have er : dot_S16384x256_S256x128_S16384x128_1_0_0_1_n_n.rhsIdx (ix2 b c) ((contrEquiv1 dot_S16384x256_S256x128_S16384x128_1_0_0_1_n_n 256 rfl rfl).symm k) = ix2 k c := funext fun a => Fin.ext (by
    match a with
    | ⟨0, _⟩ => exact (dot2_rhs0 _ _).trans hk
    | ⟨1, _⟩ => exact dot2_rhs1 _ _)
  rw [el, er]

/-- Left operand index of the `[16384, 256] × [256, 2]` contraction, axis 0. -/
theorem dot3_lhs0 (i : S16384x2.Idx) (q : dot_S16384x256_S256x2_S16384x2_1_0_0_1_n_n.contr.Idx) : (dot_S16384x256_S256x2_S16384x2_1_0_0_1_n_n.lhsIdx i q 0).val = (i 0).val := by
  unfold DotDims.lhsIdx
  rw [dif_neg (show ¬(0 : Fin S16384x256.rank) ∈ dot_S16384x256_S256x2_S16384x2_1_0_0_1_n_n.lhsBatch by decide), dif_pos (show (0 : Fin S16384x256.rank) ∈ dot_S16384x256_S256x2_S16384x2_1_0_0_1_n_n.lhsNonContracting by decide)]
  rfl
/-- … axis 1. -/
theorem dot3_lhs1 (i : S16384x2.Idx) (q : dot_S16384x256_S256x2_S16384x2_1_0_0_1_n_n.contr.Idx) : (dot_S16384x256_S256x2_S16384x2_1_0_0_1_n_n.lhsIdx i q 1).val = (q ⟨0, by decide⟩).val :=
  dot_S16384x256_S256x2_S16384x2_1_0_0_1_n_n.lhsIdx_val_of_single rfl i q
/-- Right operand index, axis 0. -/
theorem dot3_rhs0 (i : S16384x2.Idx) (q : dot_S16384x256_S256x2_S16384x2_1_0_0_1_n_n.contr.Idx) : (dot_S16384x256_S256x2_S16384x2_1_0_0_1_n_n.rhsIdx i q 0).val = (q ⟨0, by decide⟩).val :=
  dot_S16384x256_S256x2_S16384x2_1_0_0_1_n_n.rhsIdx_val_of_single rfl i q
/-- … axis 1. -/
theorem dot3_rhs1 (i : S16384x2.Idx) (q : dot_S16384x256_S256x2_S16384x2_1_0_0_1_n_n.contr.Idx) : (dot_S16384x256_S256x2_S16384x2_1_0_0_1_n_n.rhsIdx i q 1).val = (i 1).val := by
  unfold DotDims.rhsIdx
  rw [dif_neg (show ¬(1 : Fin S256x2.rank) ∈ dot_S16384x256_S256x2_S16384x2_1_0_0_1_n_n.rhsBatch by decide), dif_pos (show (1 : Fin S256x2.rank) ∈ dot_S16384x256_S256x2_S16384x2_1_0_0_1_n_n.rhsNonContracting by decide)]
  rfl

/-- The `[16384, 256] × [256, 2]` product at `(b, c)`: the sum over the contracted axis. -/
theorem dot3_apply (x : (⟨S16384x256, .f32⟩ : BufTy).Contents (Elt Ideal)) (y : (⟨S256x2, .f32⟩ : BufTy).Contents (Elt Ideal)) (b : Fin 16384) (c : Fin 2) :
    Host.dotGeneral (F := Ideal) (φ₁ := .f32) (φ₂ := .f32) dot_S16384x256_S256x2_S16384x2_1_0_0_1_n_n none x y (ix2 b c) = ∑ k : Fin 256, x (ix2 b k) * y (ix2 k c) := by
  simp only [Host.dotGeneral]
  rw [Ideal.dotGeneral_apply, ← Equiv.sum_comp (contrEquiv1 dot_S16384x256_S256x2_S16384x2_1_0_0_1_n_n 256 rfl rfl).symm]
  refine Finset.sum_congr rfl fun k _ => ?_
  have hk := contrEquiv1_symm_val dot_S16384x256_S256x2_S16384x2_1_0_0_1_n_n 256 rfl rfl k
  have el : dot_S16384x256_S256x2_S16384x2_1_0_0_1_n_n.lhsIdx (ix2 b c) ((contrEquiv1 dot_S16384x256_S256x2_S16384x2_1_0_0_1_n_n 256 rfl rfl).symm k) = ix2 b k := funext fun a => Fin.ext (by
    match a with
    | ⟨0, _⟩ => exact dot3_lhs0 _ _
    | ⟨1, _⟩ => exact (dot3_lhs1 _ _).trans hk)
  have er : dot_S16384x256_S256x2_S16384x2_1_0_0_1_n_n.rhsIdx (ix2 b c) ((contrEquiv1 dot_S16384x256_S256x2_S16384x2_1_0_0_1_n_n 256 rfl rfl).symm k) = ix2 k c := funext fun a => Fin.ext (by
    match a with
    | ⟨0, _⟩ => exact (dot3_rhs0 _ _).trans hk
    | ⟨1, _⟩ => exact dot3_rhs1 _ _)
  rw [el, er]

/-- A `[256]` bias broadcast over the batch rows, at `(b, c)`. -/
theorem bias256_apply (v : (⟨S256, .f32⟩ : BufTy).Contents (Elt Ideal)) (b : Fin 16384) (c : Fin 256) :
    broadcastInDim S16384x256 ![0, 1] bcast_S1x256_S16384x256_0_1 (broadcastInDim S1x256 ![1] bcast_S256_S1x256_1 v) (ix2 b c) = v (ix1 c) := by
  refine (broadcastInDim_apply _ bcast_S1x256_S16384x256_0_1 _ (ix2 b c) (ix2 (0 : Fin 1) c) (fun a => ?_)).trans
    (broadcastInDim_apply _ bcast_S256_S1x256_1 v (ix2 (0 : Fin 1) c) (ix1 c) (fun a => ?_))
  · match a with
    | ⟨0, _⟩ => show 0 = if (1 : Nat) = 1 then 0 else b.val; rw [if_pos rfl]
    | ⟨1, _⟩ => show c.val = if (256 : Nat) = 1 then 0 else c.val; rw [if_neg (by decide)]
  · match a with
    | ⟨0, _⟩ => show c.val = if (256 : Nat) = 1 then 0 else c.val; rw [if_neg (by decide)]

/-- A `[128]` bias broadcast over the batch rows, at `(b, c)`. -/
theorem bias128_apply (v : (⟨S128, .f32⟩ : BufTy).Contents (Elt Ideal)) (b : Fin 16384) (c : Fin 128) :
    broadcastInDim S16384x128 ![0, 1] bcast_S1x128_S16384x128_0_1 (broadcastInDim S1x128 ![1] bcast_S128_S1x128_1 v) (ix2 b c) = v (ix1 c) := by
  refine (broadcastInDim_apply _ bcast_S1x128_S16384x128_0_1 _ (ix2 b c) (ix2 (0 : Fin 1) c) (fun a => ?_)).trans
    (broadcastInDim_apply _ bcast_S128_S1x128_1 v (ix2 (0 : Fin 1) c) (ix1 c) (fun a => ?_))
  · match a with
    | ⟨0, _⟩ => show 0 = if (1 : Nat) = 1 then 0 else b.val; rw [if_pos rfl]
    | ⟨1, _⟩ => show c.val = if (128 : Nat) = 1 then 0 else c.val; rw [if_neg (by decide)]
  · match a with
    | ⟨0, _⟩ => show c.val = if (128 : Nat) = 1 then 0 else c.val; rw [if_neg (by decide)]

/-- A `[2]` bias broadcast over the batch rows, at `(b, c)`. -/
theorem bias2_apply (v : (⟨S2, .f32⟩ : BufTy).Contents (Elt Ideal)) (b : Fin 16384) (c : Fin 2) :
    broadcastInDim S16384x2 ![0, 1] bcast_S1x2_S16384x2_0_1 (broadcastInDim S1x2 ![1] bcast_S2_S1x2_1 v) (ix2 b c) = v (ix1 c) := by
  refine (broadcastInDim_apply _ bcast_S1x2_S16384x2_0_1 _ (ix2 b c) (ix2 (0 : Fin 1) c) (fun a => ?_)).trans
    (broadcastInDim_apply _ bcast_S2_S1x2_1 v (ix2 (0 : Fin 1) c) (ix1 c) (fun a => ?_))
  · match a with
    | ⟨0, _⟩ => show 0 = if (1 : Nat) = 1 then 0 else b.val; rw [if_pos rfl]
    | ⟨1, _⟩ => show c.val = if (2 : Nat) = 1 then 0 else c.val; rw [if_neg (by decide)]
  · match a with
    | ⟨0, _⟩ => show c.val = if (2 : Nat) = 1 then 0 else c.val; rw [if_neg (by decide)]

/-- The rectifier's zero splat over `[16384, 256]`. -/
theorem zero256_apply (i : S16384x256.Idx) :
    broadcastInDim S16384x256 ![] bcast_S_S16384x256 (constant (F := Ideal) S_ .f32 0x00000000#32) i = (0 : EReal) :=
  (broadcastInDim_apply _ bcast_S_S16384x256 _ i ix0 (fun a => a.elim0)).trans Ideal.ofBits_zero_f32

/-- The rectifier's zero splat over `[16384, 128]`. -/
theorem zero128_apply (i : S16384x128.Idx) :
    broadcastInDim S16384x128 ![] bcast_S_S16384x128 (constant (F := Ideal) S_ .f32 0x00000000#32) i = (0 : EReal) :=
  (broadcastInDim_apply _ bcast_S_S16384x128 _ i ix0 (fun a => a.elim0)).trans Ideal.ofBits_zero_f32

end Cert.Proof.RefValue
-- ==== Proof.RefValue.lean ====
import proofs.«205318_g12532714570102_cont_fleet_669_37_alg».proof.Proof.RefDeepInput
import proofs.«205318_g12532714570102_cont_fleet_669_37_alg».proof.Proof.RefDense

noncomputable section

namespace Cert.Proof.RefValue

open Cert.ReferenceIdeal Cert.ReferenceIdeal.Gen Idealize.ShloMosaic Idealize.ShloMosaic.ValueIdx

/-! # The reference's result, index by index

The two dense layers with their rectifiers, the second concatenation and the output layer, as functions of the
argument arrays (the reference's operations in the reference's order), each read at an index. -/

/-- The first hidden layer. -/
def hidden1 (a1 : (⟨S16384x39, .i32⟩ : BufTy).Contents (Elt Ideal)) (a2 : (⟨S26x100000x16, .f32⟩ : BufTy).Contents (Elt Ideal)) (a3 : (⟨S429x256, .f32⟩ : BufTy).Contents (Elt Ideal)) (a4 : (⟨S256, .f32⟩ : BufTy).Contents (Elt Ideal)) : (⟨S16384x256, .f32⟩ : BufTy).Contents (Elt Ideal) :=
  maximumf
    (addf (Host.dotGeneral (F := Ideal) (φ₁ := .f32) (φ₂ := .f32) dot_S16384x429_S429x256_S16384x256_1_0_0_1_n_n none (deepInput a1 a2) a3)
      (broadcastInDim S16384x256 ![0, 1] bcast_S1x256_S16384x256_0_1 (broadcastInDim S1x256 ![1] bcast_S256_S1x256_1 a4)))
    (broadcastInDim S16384x256 ![] bcast_S_S16384x256 (constant (F := Ideal) S_ .f32 0x00000000#32))

/-- The second hidden layer. -/
def hidden2 (a1 : (⟨S16384x39, .i32⟩ : BufTy).Contents (Elt Ideal)) (a2 : (⟨S26x100000x16, .f32⟩ : BufTy).Contents (Elt Ideal)) (a3 : (⟨S429x256, .f32⟩ : BufTy).Contents (Elt Ideal)) (a4 : (⟨S256, .f32⟩ : BufTy).Contents (Elt Ideal)) (a5 : (⟨S256x128, .f32⟩ : BufTy).Contents (Elt Ideal)) (a6 : (⟨S128, .f32⟩ : BufTy).Contents (Elt Ideal)) : (⟨S16384x128, .f32⟩ : BufTy).Contents (Elt Ideal) :=
  maximumf
    (addf (Host.dotGeneral (F := Ideal) (φ₁ := .f32) (φ₂ := .f32) dot_S16384x256_S256x128_S16384x128_1_0_0_1_n_n none (hidden1 a1 a2 a3 a4) a5)
      (broadcastInDim S16384x128 ![0, 1] bcast_S1x128_S16384x128_0_1 (broadcastInDim S1x128 ![1] bcast_S128_S1x128_1 a6)))
    (broadcastInDim S16384x128 ![] bcast_S_S16384x128 (constant (F := Ideal) S_ .f32 0x00000000#32))

/-- The input of the output layer: the second hidden layer beside the wide features. -/
def wideDeep (a0 : (⟨S16384x128, .f32⟩ : BufTy).Contents (Elt Ideal)) (a1 : (⟨S16384x39, .i32⟩ : BufTy).Contents (Elt Ideal)) (a2 : (⟨S26x100000x16, .f32⟩ : BufTy).Contents (Elt Ideal)) (a3 : (⟨S429x256, .f32⟩ : BufTy).Contents (Elt Ideal)) (a4 : (⟨S256, .f32⟩ : BufTy).Contents (Elt Ideal)) (a5 : (⟨S256x128, .f32⟩ : BufTy).Contents (Elt Ideal)) (a6 : (⟨S128, .f32⟩ : BufTy).Contents (Elt Ideal)) : (⟨S16384x256, .f32⟩ : BufTy).Contents (Elt Ideal) :=
  concatenate S16384x256 1 [⟨S16384x128, hidden2 a1 a2 a3 a4 a5 a6⟩, ⟨S16384x128, a0⟩] concatenates_S16384x128_S16384x128_S16384x256_d1

/-- The reference's result. -/
def refResult (a0 : (⟨S16384x128, .f32⟩ : BufTy).Contents (Elt Ideal)) (a1 : (⟨S16384x39, .i32⟩ : BufTy).Contents (Elt Ideal)) (a2 : (⟨S26x100000x16, .f32⟩ : BufTy).Contents (Elt Ideal)) (a3 : (⟨S429x256, .f32⟩ : BufTy).Contents (Elt Ideal)) (a4 : (⟨S256, .f32⟩ : BufTy).Contents (Elt Ideal)) (a5 : (⟨S256x128, .f32⟩ : BufTy).Contents (Elt Ideal)) (a6 : (⟨S128, .f32⟩ : BufTy).Contents (Elt Ideal)) (a7 : (⟨S256x2, .f32⟩ : BufTy).Contents (Elt Ideal)) (a8 : (⟨S2, .f32⟩ : BufTy).Contents (Elt Ideal)) : (⟨S16384x2, .f32⟩ : BufTy).Contents (Elt Ideal) :=
  addf (Host.dotGeneral (F := Ideal) (φ₁ := .f32) (φ₂ := .f32) dot_S16384x256_S256x2_S16384x2_1_0_0_1_n_n none (wideDeep a0 a1 a2 a3 a4 a5 a6) a7)
    (broadcastInDim S16384x2 ![0, 1] bcast_S1x2_S16384x2_0_1 (broadcastInDim S1x2 ![1] bcast_S2_S1x2_1 a8))

/-- The first hidden layer at `(b, k)`. -/
theorem hidden1_apply (a1 : (⟨S16384x39, .i32⟩ : BufTy).Contents (Elt Ideal)) (a2 : (⟨S26x100000x16, .f32⟩ : BufTy).Contents (Elt Ideal)) (a3 : (⟨S429x256, .f32⟩ : BufTy).Contents (Elt Ideal)) (a4 : (⟨S256, .f32⟩ : BufTy).Contents (Elt Ideal)) (h : ∀ i, (a1 i).toNat < 100000) (b : Fin 16384) (k : Fin 256) :
    hidden1 a1 a2 a3 a4 (ix2 b k) = Spec.r1 (fun b f => a1 (ix2 b f)) (fun f r d => a2 (ix3 f r d)) (fun q h => a3 (ix2 q h)) (fun h => a4 (ix1 h)) b k := by
  unfold hidden1
  show max (Host.dotGeneral (F := Ideal) (φ₁ := .f32) (φ₂ := .f32) dot_S16384x429_S429x256_S16384x256_1_0_0_1_n_n none (deepInput a1 a2) a3 (ix2 b k)
      + broadcastInDim S16384x256 ![0, 1] bcast_S1x256_S16384x256_0_1 (broadcastInDim S1x256 ![1] bcast_S256_S1x256_1 a4) (ix2 b k))
    (broadcastInDim S16384x256 ![] bcast_S_S16384x256 (constant (F := Ideal) S_ .f32 0x00000000#32) (ix2 b k)) = _
  rw [dot1_apply, bias256_apply, zero256_apply]
  simp only [deepInput_apply a1 a2 h]
  rfl

/-- The second hidden layer at `(b, j)`. -/
theorem hidden2_apply (a1 : (⟨S16384x39, .i32⟩ : BufTy).Contents (Elt Ideal)) (a2 : (⟨S26x100000x16, .f32⟩ : BufTy).Contents (Elt Ideal)) (a3 : (⟨S429x256, .f32⟩ : BufTy).Contents (Elt Ideal)) (a4 : (⟨S256, .f32⟩ : BufTy).Contents (Elt Ideal)) (a5 : (⟨S256x128, .f32⟩ : BufTy).Contents (Elt Ideal)) (a6 : (⟨S128, .f32⟩ : BufTy).Contents (Elt Ideal)) (h : ∀ i, (a1 i).toNat < 100000) (b : Fin 16384) (j : Fin 128) :
    hidden2 a1 a2 a3 a4 a5 a6 (ix2 b j) = Spec.r2 (fun b f => a1 (ix2 b f)) (fun f r d => a2 (ix3 f r d)) (fun q h => a3 (ix2 q h)) (fun h => a4 (ix1 h)) (fun h j => a5 (ix2 h j)) (fun j => a6 (ix1 j)) b j := by
  unfold hidden2
  show max (Host.dotGeneral (F := Ideal) (φ₁ := .f32) (φ₂ := .f32) dot_S16384x256_S256x128_S16384x128_1_0_0_1_n_n none (hidden1 a1 a2 a3 a4) a5 (ix2 b j)
      + broadcastInDim S16384x128 ![0, 1] bcast_S1x128_S16384x128_0_1 (broadcastInDim S1x128 ![1] bcast_S128_S1x128_1 a6) (ix2 b j))
    (broadcastInDim S16384x128 ![] bcast_S_S16384x128 (constant (F := Ideal) S_ .f32 0x00000000#32) (ix2 b j)) = _
  rw [dot2_apply, bias128_apply, zero128_apply]
  simp only [hidden1_apply a1 a2 a3 a4 h]
  rfl

/-- The output layer's input at `(b, q)`. -/
theorem wideDeep_apply (a0 : (⟨S16384x128, .f32⟩ : BufTy).Contents (Elt Ideal)) (a1 : (⟨S16384x39, .i32⟩ : BufTy).Contents (Elt Ideal)) (a2 : (⟨S26x100000x16, .f32⟩ : BufTy).Contents (Elt Ideal)) (a3 : (⟨S429x256, .f32⟩ : BufTy).Contents (Elt Ideal)) (a4 : (⟨S256, .f32⟩ : BufTy).Contents (Elt Ideal)) (a5 : (⟨S256x128, .f32⟩ : BufTy).Contents (Elt Ideal)) (a6 : (⟨S128, .f32⟩ : BufTy).Contents (Elt Ideal)) (h : ∀ i, (a1 i).toNat < 100000) (b : Fin 16384) (q : Fin 256) :
    wideDeep a0 a1 a2 a3 a4 a5 a6 (ix2 b q) = Spec.wd (fun b k => a0 (ix2 b k)) (fun b f => a1 (ix2 b f)) (fun f r d => a2 (ix3 f r d)) (fun q h => a3 (ix2 q h)) (fun h => a4 (ix1 h)) (fun h j => a5 (ix2 h j)) (fun j => a6 (ix1 j)) b q := by
  unfold wideDeep
  refine (concat_pair_cols (B := 16384) (n1 := 128) (n2 := 128) (n := 256) (hidden2 a1 a2 a3 a4 a5 a6) a0 _ rfl b q).trans ?_
  unfold Spec.wd
  by_cases hq : q.val < 128
  · rw [dif_pos hq, dif_pos hq, hidden2_apply a1 a2 a3 a4 a5 a6 h]
  · rw [dif_neg hq, dif_neg hq]

/-- **The reference's result at `(b, c)` is the specification's**, every index word being in range. -/
theorem refResult_apply (a0 : (⟨S16384x128, .f32⟩ : BufTy).Contents (Elt Ideal)) (a1 : (⟨S16384x39, .i32⟩ : BufTy).Contents (Elt Ideal)) (a2 : (⟨S26x100000x16, .f32⟩ : BufTy).Contents (Elt Ideal)) (a3 : (⟨S429x256, .f32⟩ : BufTy).Contents (Elt Ideal)) (a4 : (⟨S256, .f32⟩ : BufTy).Contents (Elt Ideal)) (a5 : (⟨S256x128, .f32⟩ : BufTy).Contents (Elt Ideal)) (a6 : (⟨S128, .f32⟩ : BufTy).Contents (Elt Ideal)) (a7 : (⟨S256x2, .f32⟩ : BufTy).Contents (Elt Ideal)) (a8 : (⟨S2, .f32⟩ : BufTy).Contents (Elt Ideal)) (h : ∀ i, (a1 i).toNat < 100000) (b : Fin 16384) (c : Fin 2) :
    refResult a0 a1 a2 a3 a4 a5 a6 a7 a8 (ix2 b c)
      = Spec.refOut (fun b k => a0 (ix2 b k)) (fun b f => a1 (ix2 b f)) (fun f r d => a2 (ix3 f r d)) (fun q h => a3 (ix2 q h)) (fun h => a4 (ix1 h)) (fun h j => a5 (ix2 h j)) (fun j => a6 (ix1 j)) (fun q c => a7 (ix2 q c)) (fun c => a8 (ix1 c)) b c := by
  unfold refResult
  show Host.dotGeneral (F := Ideal) (φ₁ := .f32) (φ₂ := .f32) dot_S16384x256_S256x2_S16384x2_1_0_0_1_n_n none (wideDeep a0 a1 a2 a3 a4 a5 a6) a7 (ix2 b c)
      + broadcastInDim S16384x2 ![0, 1] bcast_S1x2_S16384x2_0_1 (broadcastInDim S1x2 ![1] bcast_S2_S1x2_1 a8) (ix2 b c) = _
  rw [dot3_apply, bias2_apply]
  simp only [wideDeep_apply a0 a1 a2 a3 a4 a5 a6 h]
  rfl

end Cert.Proof.RefValue
-- ==== Proof.Join.lean ====
import proofs.«205318_g12532714570102_cont_fleet_669_37_alg».proof.Defs
import proofs.«205318_g12532714570102_cont_fleet_669_37_alg».proof.Proof.KV.KernelValue
import proofs.«205318_g12532714570102_cont_fleet_669_37_alg».proof.Proof.SpecOfPre
import proofs.«205318_g12532714570102_cont_fleet_669_37_alg».proof.Proof.RefValue

/-!
# The two programs' results are one array

Under the precondition the kernel's result, read at the extended reals, is entry by entry the
specification's kernel form of the launch arrays; that form equals the reference's form because
every float entry is a real number and every index word is in range; and the reference's form is
the reference's composed result read at an index.
-/

set_option maxRecDepth 16384

noncomputable section

namespace Cert.Proof.Join

open Cert.Proof.KI Cert.Proof.KV
open Idealize.ShloMosaic Idealize.ShloMosaic.TcCoe Idealize.SL.Sem Idealize.ShloMosaic.StableHlo
open Idealize.ShloMosaic.ValueIdx

/-- THE JOIN: on every device the kernel's result buffer is the reference's composed result of the
    launch arrays. -/
theorem value_join
    (m : (ℓ : Loc Cert.KernelIdeal.nD Cert.KernelIdeal.τ Cert.KernelIdeal.sig) → Buf (Elt Ideal) ℓ)
    (hpre : Cert.Pre_KernelIdeal m) (d : Dev Cert.KernelIdeal.nD) :
    (WC m o30K d (Proc.devRef .tc Cert.KernelIdeal.main_v31) :
        Buf (Elt Ideal) ((d.tc : Thread Cert.KernelIdeal.nD Cert.KernelIdeal.τ).loc Cert.KernelIdeal.main_v31))
      = RefValue.refResult (A0 m d) (A1 m d) (A2 m d) (A3 m d) (A4 m d) (A5 m d) (A6 m d) (A7 m d) (A8 m d) := by
  funext idx
  obtain ⟨b, c, rfl⟩ : ∃ (b : Fin 16384) (c : Fin 2), idx = ix2 b c := ⟨idx 0, idx 1, eq_ix2 idx⟩
  have hd := hpre d
  have hr : ∀ i, (A1 m d i).toNat < 100000 := fun i =>
    (PreFacts.xd_range (A0 m d) (A1 m d) (A2 m d) (A3 m d) (A4 m d) (A5 m d) (A6 m d) (A7 m d) (A8 m d) hd i).2.2
  exact ((kernel_value m d b c).trans
      (SpecOfPre.kernelOut_eq_refOut_of_pre (A0 m d) (A1 m d) (A2 m d) (A3 m d) (A4 m d) (A5 m d) (A6 m d) (A7 m d)
        (A8 m d) hd b c)).trans
    (RefValue.refResult_apply (A0 m d) (A1 m d) (A2 m d) (A3 m d) (A4 m d) (A5 m d) (A6 m d) (A7 m d) (A8 m d) hr b c).symm

end Cert.Proof.Join

end
-- ==== Proof.RefChunkValA.lean ====
import proofs.«205318_g12532714570102_cont_fleet_669_37_alg».proof.Proof.RefOps
import proofs.«205318_g12532714570102_cont_fleet_669_37_alg».proof.Proof.RefPieces
import Idealize.ShloMosaic.Lib.StableHlo.Run

noncomputable section

namespace Cert.Proof.RefValue

open Cert.ReferenceIdeal Cert.ReferenceIdeal.Gen Idealize.ShloMosaic Idealize.ShloMosaic.TcCoe Idealize.SL.Sem Idealize.ShloMosaic.StableHlo
open Cert.Proof.RefRun

/-! # The reference's operations, chunk by chunk: the prelude and tables 0 to 12

What each chunk of the operation list leaves at the buffer a later chunk reads, as the composed pure term of the
contents it starts from. -/

/-- What the prelude leaves at the zeroed tables' buffer. -/
theorem pre_result (V : Valuation τ sig (Elt Ideal)) :
    after (opsPre (F := Ideal)) V (no_index (Proc.devRef .tc main_v2)) = zeroed (V (Proc.devRef .tc main_arg2)) := by
  unfold opsPre
  after_results
  rfl

/-- What the chunk of table 0 leaves at its gather's result. -/
theorem field0_result (W : Valuation τ sig (Elt Ideal)) :
    after (opsField0 (F := Ideal)) W (no_index (Proc.devRef .tc main_v13))
      = Host.gather gather_S100000x16_S16384x1_S16384x16_1_0_n_n_0_1_116
          (shapeCast S100000x16 (extractStridedSlice S1x100000x16 ![0, 0, 0] (W (Proc.devRef .tc main_v2)) slices_S26x100000x16_S1x100000x16_0_0_0) shapeCasts_S1x100000x16_S100000x16)
          (broadcastInDim S16384x1 ![0] bcast_S16384_S16384x1_0
            (wrapped (shapeCast S16384 (extractStridedSlice S16384x1 ![0, 0] (W (Proc.devRef .tc main_arg1)) slices_S16384x39_S16384x1_0_0) shapeCasts_S16384x1_S16384))) := by
  unfold opsField0
  after_results
  rfl

/-- What the chunk of table 1 leaves at its gather's result. -/
theorem field1_result (W : Valuation τ sig (Elt Ideal)) :
    after (opsField1 (F := Ideal)) W (no_index (Proc.devRef .tc main_v24))
      = Host.gather gather_S100000x16_S16384x1_S16384x16_1_0_n_n_0_1_116
          (shapeCast S100000x16 (extractStridedSlice S1x100000x16 ![1, 0, 0] (W (Proc.devRef .tc main_v2)) slices_S26x100000x16_S1x100000x16_1_0_0) shapeCasts_S1x100000x16_S100000x16)
          (broadcastInDim S16384x1 ![0] bcast_S16384_S16384x1_0
            (wrapped (shapeCast S16384 (extractStridedSlice S16384x1 ![0, 1] (W (Proc.devRef .tc main_arg1)) slices_S16384x39_S16384x1_0_1) shapeCasts_S16384x1_S16384))) := by
  unfold opsField1
  after_results
  rfl

/-- What the chunk of table 2 leaves at its gather's result. -/
theorem field2_result (W : Valuation τ sig (Elt Ideal)) :
    after (opsField2 (F := Ideal)) W (no_index (Proc.devRef .tc main_v35))
      = Host.gather gather_S100000x16_S16384x1_S16384x16_1_0_n_n_0_1_116
          (shapeCast S100000x16 (extractStridedSlice S1x100000x16 ![2, 0, 0] (W (Proc.devRef .tc main_v2)) slices_S26x100000x16_S1x100000x16_2_0_0) shapeCasts_S1x100000x16_S100000x16)
          (broadcastInDim S16384x1 ![0] bcast_S16384_S16384x1_0
            (wrapped (shapeCast S16384 (extractStridedSlice S16384x1 ![0, 2] (W (Proc.devRef .tc main_arg1)) slices_S16384x39_S16384x1_0_2) shapeCasts_S16384x1_S16384))) := by
  unfold opsField2
  after_results
  rfl

/-- What the chunk of table 3 leaves at its gather's result. -/
theorem field3_result (W : Valuation τ sig (Elt Ideal)) :
    after (opsField3 (F := Ideal)) W (no_index (Proc.devRef .tc main_v46))
      = Host.gather gather_S100000x16_S16384x1_S16384x16_1_0_n_n_0_1_116
          (shapeCast S100000x16 (extractStridedSlice S1x100000x16 ![3, 0, 0] (W (Proc.devRef .tc main_v2)) slices_S26x100000x16_S1x100000x16_3_0_0) shapeCasts_S1x100000x16_S100000x16)
          (broadcastInDim S16384x1 ![0] bcast_S16384_S16384x1_0
            (wrapped (shapeCast S16384 (extractStridedSlice S16384x1 ![0, 3] (W (Proc.devRef .tc main_arg1)) slices_S16384x39_S16384x1_0_3) shapeCasts_S16384x1_S16384))) := by
  unfold opsField3
  after_results
  rfl

/-- What the chunk of table 4 leaves at its gather's result. -/
theorem field4_result (W : Valuation τ sig (Elt Ideal)) :
    after (opsField4 (F := Ideal)) W (no_index (Proc.devRef .tc main_v57))
      = Host.gather gather_S100000x16_S16384x1_S16384x16_1_0_n_n_0_1_116
          (shapeCast S100000x16 (extractStridedSlice S1x100000x16 ![4, 0, 0] (W (Proc.devRef .tc main_v2)) slices_S26x100000x16_S1x100000x16_4_0_0) shapeCasts_S1x100000x16_S100000x16)
          (broadcastInDim S16384x1 ![0] bcast_S16384_S16384x1_0
            (wrapped (shapeCast S16384 (extractStridedSlice S16384x1 ![0, 4] (W (Proc.devRef .tc main_arg1)) slices_S16384x39_S16384x1_0_4) shapeCasts_S16384x1_S16384))) := by
  unfold opsField4
  after_results
  rfl

/-- What the chunk of table 5 leaves at its gather's result. -/
theorem field5_result (W : Valuation τ sig (Elt Ideal)) :
    after (opsField5 (F := Ideal)) W (no_index (Proc.devRef .tc main_v68))
      = Host.gather gather_S100000x16_S16384x1_S16384x16_1_0_n_n_0_1_116
          (shapeCast S100000x16 (extractStridedSlice S1x100000x16 ![5, 0, 0] (W (Proc.devRef .tc main_v2)) slices_S26x100000x16_S1x100000x16_5_0_0) shapeCasts_S1x100000x16_S100000x16)
          (broadcastInDim S16384x1 ![0] bcast_S16384_S16384x1_0
            (wrapped (shapeCast S16384 (extractStridedSlice S16384x1 ![0, 5] (W (Proc.devRef .tc main_arg1)) slices_S16384x39_S16384x1_0_5) shapeCasts_S16384x1_S16384))) := by
  unfold opsField5
  after_results
  rfl

/-- What the chunk of table 6 leaves at its gather's result. -/
theorem field6_result (W : Valuation τ sig (Elt Ideal)) :
    after (opsField6 (F := Ideal)) W (no_index (Proc.devRef .tc main_v79))
      = Host.gather gather_S100000x16_S16384x1_S16384x16_1_0_n_n_0_1_116
          (shapeCast S100000x16 (extractStridedSlice S1x100000x16 ![6, 0, 0] (W (Proc.devRef .tc main_v2)) slices_S26x100000x16_S1x100000x16_6_0_0) shapeCasts_S1x100000x16_S100000x16)
          (broadcastInDim S16384x1 ![0] bcast_S16384_S16384x1_0
            (wrapped (shapeCast S16384 (extractStridedSlice S16384x1 ![0, 6] (W (Proc.devRef .tc main_arg1)) slices_S16384x39_S16384x1_0_6) shapeCasts_S16384x1_S16384))) := by
  unfold opsField6
  after_results
  rfl

/-- What the chunk of table 7 leaves at its gather's result. -/
theorem field7_result (W : Valuation τ sig (Elt Ideal)) :
    after (opsField7 (F := Ideal)) W (no_index (Proc.devRef .tc main_v90))
      = Host.gather gather_S100000x16_S16384x1_S16384x16_1_0_n_n_0_1_116
          (shapeCast S100000x16 (extractStridedSlice S1x100000x16 ![7, 0, 0] (W (Proc.devRef .tc main_v2)) slices_S26x100000x16_S1x100000x16_7_0_0) shapeCasts_S1x100000x16_S100000x16)
          (broadcastInDim S16384x1 ![0] bcast_S16384_S16384x1_0
            (wrapped (shapeCast S16384 (extractStridedSlice S16384x1 ![0, 7] (W (Proc.devRef .tc main_arg1)) slices_S16384x39_S16384x1_0_7) shapeCasts_S16384x1_S16384))) := by
  unfold opsField7
  after_results
  rfl

/-- What the chunk of table 8 leaves at its gather's result. -/
theorem field8_result (W : Valuation τ sig (Elt Ideal)) :
    after (opsField8 (F := Ideal)) W (no_index (Proc.devRef .tc main_v101))
      = Host.gather gather_S100000x16_S16384x1_S16384x16_1_0_n_n_0_1_116
          (shapeCast S100000x16 (extractStridedSlice S1x100000x16 ![8, 0, 0] (W (Proc.devRef .tc main_v2)) slices_S26x100000x16_S1x100000x16_8_0_0) shapeCasts_S1x100000x16_S100000x16)
          (broadcastInDim S16384x1 ![0] bcast_S16384_S16384x1_0
            (wrapped (shapeCast S16384 (extractStridedSlice S16384x1 ![0, 8] (W (Proc.devRef .tc main_arg1)) slices_S16384x39_S16384x1_0_8) shapeCasts_S16384x1_S16384))) := by
  unfold opsField8
  after_results
  rfl

/-- What the chunk of table 9 leaves at its gather's result. -/
theorem field9_result (W : Valuation τ sig (Elt Ideal)) :
    after (opsField9 (F := Ideal)) W (no_index (Proc.devRef .tc main_v112))
      = Host.gather gather_S100000x16_S16384x1_S16384x16_1_0_n_n_0_1_116
          (shapeCast S100000x16 (extractStridedSlice S1x100000x16 ![9, 0, 0] (W (Proc.devRef .tc main_v2)) slices_S26x100000x16_S1x100000x16_9_0_0) shapeCasts_S1x100000x16_S100000x16)
          (broadcastInDim S16384x1 ![0] bcast_S16384_S16384x1_0
            (wrapped (shapeCast S16384 (extractStridedSlice S16384x1 ![0, 9] (W (Proc.devRef .tc main_arg1)) slices_S16384x39_S16384x1_0_9) shapeCasts_S16384x1_S16384))) := by
  unfold opsField9
  after_results
  rfl

/-- What the chunk of table 10 leaves at its gather's result. -/
theorem field10_result (W : Valuation τ sig (Elt Ideal)) :
    after (opsField10 (F := Ideal)) W (no_index (Proc.devRef .tc main_v123))
      = Host.gather gather_S100000x16_S16384x1_S16384x16_1_0_n_n_0_1_116
          (shapeCast S100000x16 (extractStridedSlice S1x100000x16 ![10, 0, 0] (W (Proc.devRef .tc main_v2)) slices_S26x100000x16_S1x100000x16_10_0_0) shapeCasts_S1x100000x16_S100000x16)
          (broadcastInDim S16384x1 ![0] bcast_S16384_S16384x1_0
            (wrapped (shapeCast S16384 (extractStridedSlice S16384x1 ![0, 10] (W (Proc.devRef .tc main_arg1)) slices_S16384x39_S16384x1_0_10) shapeCasts_S16384x1_S16384))) := by
  unfold opsField10
  after_results
  rfl

/-- What the chunk of table 11 leaves at its gather's result. -/
theorem field11_result (W : Valuation τ sig (Elt Ideal)) :
    after (opsField11 (F := Ideal)) W (no_index (Proc.devRef .tc main_v134))
      = Host.gather gather_S100000x16_S16384x1_S16384x16_1_0_n_n_0_1_116
          (shapeCast S100000x16 (extractStridedSlice S1x100000x16 ![11, 0, 0] (W (Proc.devRef .tc main_v2)) slices_S26x100000x16_S1x100000x16_11_0_0) shapeCasts_S1x100000x16_S100000x16)
          (broadcastInDim S16384x1 ![0] bcast_S16384_S16384x1_0
            (wrapped (shapeCast S16384 (extractStridedSlice S16384x1 ![0, 11] (W (Proc.devRef .tc main_arg1)) slices_S16384x39_S16384x1_0_11) shapeCasts_S16384x1_S16384))) := by
  unfold opsField11
  after_results
  rfl

/-- What the chunk of table 12 leaves at its gather's result. -/
theorem field12_result (W : Valuation τ sig (Elt Ideal)) :
    after (opsField12 (F := Ideal)) W (no_index (Proc.devRef .tc main_v145))
      = Host.gather gather_S100000x16_S16384x1_S16384x16_1_0_n_n_0_1_116
          (shapeCast S100000x16 (extractStridedSlice S1x100000x16 ![12, 0, 0] (W (Proc.devRef .tc main_v2)) slices_S26x100000x16_S1x100000x16_12_0_0) shapeCasts_S1x100000x16_S100000x16)
          (broadcastInDim S16384x1 ![0] bcast_S16384_S16384x1_0
            (wrapped (shapeCast S16384 (extractStridedSlice S16384x1 ![0, 12] (W (Proc.devRef .tc main_arg1)) slices_S16384x39_S16384x1_0_12) shapeCasts_S16384x1_S16384))) := by
  unfold opsField12
  after_results
  rfl

end Cert.Proof.RefValue
-- ==== Proof.RefChunkValB.lean ====
import proofs.«205318_g12532714570102_cont_fleet_669_37_alg».proof.Proof.RefOps
import proofs.«205318_g12532714570102_cont_fleet_669_37_alg».proof.Proof.RefPieces
import Idealize.ShloMosaic.Lib.StableHlo.Run

noncomputable section

namespace Cert.Proof.RefValue

open Cert.ReferenceIdeal Cert.ReferenceIdeal.Gen Idealize.ShloMosaic Idealize.ShloMosaic.TcCoe Idealize.SL.Sem Idealize.ShloMosaic.StableHlo
open Cert.Proof.RefRun

/-! # The reference's operations, chunk by chunk: tables 13 to 25 -/

/-- What the chunk of table 13 leaves at its gather's result. -/
theorem field13_result (W : Valuation τ sig (Elt Ideal)) :
    after (opsField13 (F := Ideal)) W (no_index (Proc.devRef .tc main_v156))
      = Host.gather gather_S100000x16_S16384x1_S16384x16_1_0_n_n_0_1_116
          (shapeCast S100000x16 (extractStridedSlice S1x100000x16 ![13, 0, 0] (W (Proc.devRef .tc main_v2)) slices_S26x100000x16_S1x100000x16_13_0_0) shapeCasts_S1x100000x16_S100000x16)
          (broadcastInDim S16384x1 ![0] bcast_S16384_S16384x1_0
            (wrapped (shapeCast S16384 (extractStridedSlice S16384x1 ![0, 13] (W (Proc.devRef .tc main_arg1)) slices_S16384x39_S16384x1_0_13) shapeCasts_S16384x1_S16384))) := by
  unfold opsField13
  after_results_simp
  rfl

/-- What the chunk of table 14 leaves at its gather's result. -/
theorem field14_result (W : Valuation τ sig (Elt Ideal)) :
    after (opsField14 (F := Ideal)) W (no_index (Proc.devRef .tc main_v167))
      = Host.gather gather_S100000x16_S16384x1_S16384x16_1_0_n_n_0_1_116
          (shapeCast S100000x16 (extractStridedSlice S1x100000x16 ![14, 0, 0] (W (Proc.devRef .tc main_v2)) slices_S26x100000x16_S1x100000x16_14_0_0) shapeCasts_S1x100000x16_S100000x16)
          (broadcastInDim S16384x1 ![0] bcast_S16384_S16384x1_0
            (wrapped (shapeCast S16384 (extractStridedSlice S16384x1 ![0, 14] (W (Proc.devRef .tc main_arg1)) slices_S16384x39_S16384x1_0_14) shapeCasts_S16384x1_S16384))) := by
  unfold opsField14
  after_results_simp
  rfl

/-- What the chunk of table 15 leaves at its gather's result. -/
theorem field15_result (W : Valuation τ sig (Elt Ideal)) :
    after (opsField15 (F := Ideal)) W (no_index (Proc.devRef .tc main_v178))
      = Host.gather gather_S100000x16_S16384x1_S16384x16_1_0_n_n_0_1_116
          (shapeCast S100000x16 (extractStridedSlice S1x100000x16 ![15, 0, 0] (W (Proc.devRef .tc main_v2)) slices_S26x100000x16_S1x100000x16_15_0_0) shapeCasts_S1x100000x16_S100000x16)
          (broadcastInDim S16384x1 ![0] bcast_S16384_S16384x1_0
            (wrapped (shapeCast S16384 (extractStridedSlice S16384x1 ![0, 15] (W (Proc.devRef .tc main_arg1)) slices_S16384x39_S16384x1_0_15) shapeCasts_S16384x1_S16384))) := by
  unfold opsField15
  after_results_simp
  rfl

/-- What the chunk of table 16 leaves at its gather's result. -/
theorem field16_result (W : Valuation τ sig (Elt Ideal)) :
    after (opsField16 (F := Ideal)) W (no_index (Proc.devRef .tc main_v189))
      = Host.gather gather_S100000x16_S16384x1_S16384x16_1_0_n_n_0_1_116
          (shapeCast S100000x16 (extractStridedSlice S1x100000x16 ![16, 0, 0] (W (Proc.devRef .tc main_v2)) slices_S26x100000x16_S1x100000x16_16_0_0) shapeCasts_S1x100000x16_S100000x16)
          (broadcastInDim S16384x1 ![0] bcast_S16384_S16384x1_0
            (wrapped (shapeCast S16384 (extractStridedSlice S16384x1 ![0, 16] (W (Proc.devRef .tc main_arg1)) slices_S16384x39_S16384x1_0_16) shapeCasts_S16384x1_S16384))) := by
  unfold opsField16
  after_results_simp
  rfl

/-- What the chunk of table 17 leaves at its gather's result. -/
theorem field17_result (W : Valuation τ sig (Elt Ideal)) :
    after (opsField17 (F := Ideal)) W (no_index (Proc.devRef .tc main_v200))
      = Host.gather gather_S100000x16_S16384x1_S16384x16_1_0_n_n_0_1_116
          (shapeCast S100000x16 (extractStridedSlice S1x100000x16 ![17, 0, 0] (W (Proc.devRef .tc main_v2)) slices_S26x100000x16_S1x100000x16_17_0_0) shapeCasts_S1x100000x16_S100000x16)
          (broadcastInDim S16384x1 ![0] bcast_S16384_S16384x1_0
            (wrapped (shapeCast S16384 (extractStridedSlice S16384x1 ![0, 17] (W (Proc.devRef .tc main_arg1)) slices_S16384x39_S16384x1_0_17) shapeCasts_S16384x1_S16384))) := by
  unfold opsField17
  after_results_simp
  rfl

/-- What the chunk of table 18 leaves at its gather's result. -/
theorem field18_result (W : Valuation τ sig (Elt Ideal)) :
    after (opsField18 (F := Ideal)) W (no_index (Proc.devRef .tc main_v211))
      = Host.gather gather_S100000x16_S16384x1_S16384x16_1_0_n_n_0_1_116
          (shapeCast S100000x16 (extractStridedSlice S1x100000x16 ![18, 0, 0] (W (Proc.devRef .tc main_v2)) slices_S26x100000x16_S1x100000x16_18_0_0) shapeCasts_S1x100000x16_S100000x16)
          (broadcastInDim S16384x1 ![0] bcast_S16384_S16384x1_0
            (wrapped (shapeCast S16384 (extractStridedSlice S16384x1 ![0, 18] (W (Proc.devRef .tc main_arg1)) slices_S16384x39_S16384x1_0_18) shapeCasts_S16384x1_S16384))) := by
  unfold opsField18
  after_results_simp
  rfl

/-- What the chunk of table 19 leaves at its gather's result. -/
theorem field19_result (W : Valuation τ sig (Elt Ideal)) :
    after (opsField19 (F := Ideal)) W (no_index (Proc.devRef .tc main_v222))
      = Host.gather gather_S100000x16_S16384x1_S16384x16_1_0_n_n_0_1_116
          (shapeCast S100000x16 (extractStridedSlice S1x100000x16 ![19, 0, 0] (W (Proc.devRef .tc main_v2)) slices_S26x100000x16_S1x100000x16_19_0_0) shapeCasts_S1x100000x16_S100000x16)
          (broadcastInDim S16384x1 ![0] bcast_S16384_S16384x1_0
            (wrapped (shapeCast S16384 (extractStridedSlice S16384x1 ![0, 19] (W (Proc.devRef .tc main_arg1)) slices_S16384x39_S16384x1_0_19) shapeCasts_S16384x1_S16384))) := by
  unfold opsField19
  after_results_simp
  rfl

/-- What the chunk of table 20 leaves at its gather's result. -/
theorem field20_result (W : Valuation τ sig (Elt Ideal)) :
    after (opsField20 (F := Ideal)) W (no_index (Proc.devRef .tc main_v233))
      = Host.gather gather_S100000x16_S16384x1_S16384x16_1_0_n_n_0_1_116
          (shapeCast S100000x16 (extractStridedSlice S1x100000x16 ![20, 0, 0] (W (Proc.devRef .tc main_v2)) slices_S26x100000x16_S1x100000x16_20_0_0) shapeCasts_S1x100000x16_S100000x16)
          (broadcastInDim S16384x1 ![0] bcast_S16384_S16384x1_0
            (wrapped (shapeCast S16384 (extractStridedSlice S16384x1 ![0, 20] (W (Proc.devRef .tc main_arg1)) slices_S16384x39_S16384x1_0_20) shapeCasts_S16384x1_S16384))) := by
  unfold opsField20
  after_results_simp
  rfl

/-- What the chunk of table 21 leaves at its gather's result. -/
theorem field21_result (W : Valuation τ sig (Elt Ideal)) :
    after (opsField21 (F := Ideal)) W (no_index (Proc.devRef .tc main_v244))
      = Host.gather gather_S100000x16_S16384x1_S16384x16_1_0_n_n_0_1_116
          (shapeCast S100000x16 (extractStridedSlice S1x100000x16 ![21, 0, 0] (W (Proc.devRef .tc main_v2)) slices_S26x100000x16_S1x100000x16_21_0_0) shapeCasts_S1x100000x16_S100000x16)
          (broadcastInDim S16384x1 ![0] bcast_S16384_S16384x1_0
            (wrapped (shapeCast S16384 (extractStridedSlice S16384x1 ![0, 21] (W (Proc.devRef .tc main_arg1)) slices_S16384x39_S16384x1_0_21) shapeCasts_S16384x1_S16384))) := by
  unfold opsField21
  after_results_simp
  rfl

/-- What the chunk of table 22 leaves at its gather's result. -/
theorem field22_result (W : Valuation τ sig (Elt Ideal)) :
    after (opsField22 (F := Ideal)) W (no_index (Proc.devRef .tc main_v255))
      = Host.gather gather_S100000x16_S16384x1_S16384x16_1_0_n_n_0_1_116
          (shapeCast S100000x16 (extractStridedSlice S1x100000x16 ![22, 0, 0] (W (Proc.devRef .tc main_v2)) slices_S26x100000x16_S1x100000x16_22_0_0) shapeCasts_S1x100000x16_S100000x16)
          (broadcastInDim S16384x1 ![0] bcast_S16384_S16384x1_0
            (wrapped (shapeCast S16384 (extractStridedSlice S16384x1 ![0, 22] (W (Proc.devRef .tc main_arg1)) slices_S16384x39_S16384x1_0_22) shapeCasts_S16384x1_S16384))) := by
  unfold opsField22
  after_results_simp
  rfl

/-- What the chunk of table 23 leaves at its gather's result. -/
theorem field23_result (W : Valuation τ sig (Elt Ideal)) :
    after (opsField23 (F := Ideal)) W (no_index (Proc.devRef .tc main_v266))
      = Host.gather gather_S100000x16_S16384x1_S16384x16_1_0_n_n_0_1_116
          (shapeCast S100000x16 (extractStridedSlice S1x100000x16 ![23, 0, 0] (W (Proc.devRef .tc main_v2)) slices_S26x100000x16_S1x100000x16_23_0_0) shapeCasts_S1x100000x16_S100000x16)
          (broadcastInDim S16384x1 ![0] bcast_S16384_S16384x1_0
            (wrapped (shapeCast S16384 (extractStridedSlice S16384x1 ![0, 23] (W (Proc.devRef .tc main_arg1)) slices_S16384x39_S16384x1_0_23) shapeCasts_S16384x1_S16384))) := by
  unfold opsField23
  after_results_simp
  rfl

/-- What the chunk of table 24 leaves at its gather's result. -/
theorem field24_result (W : Valuation τ sig (Elt Ideal)) :
    after (opsField24 (F := Ideal)) W (no_index (Proc.devRef .tc main_v277))
      = Host.gather gather_S100000x16_S16384x1_S16384x16_1_0_n_n_0_1_116
          (shapeCast S100000x16 (extractStridedSlice S1x100000x16 ![24, 0, 0] (W (Proc.devRef .tc main_v2)) slices_S26x100000x16_S1x100000x16_24_0_0) shapeCasts_S1x100000x16_S100000x16)
          (broadcastInDim S16384x1 ![0] bcast_S16384_S16384x1_0
            (wrapped (shapeCast S16384 (extractStridedSlice S16384x1 ![0, 24] (W (Proc.devRef .tc main_arg1)) slices_S16384x39_S16384x1_0_24) shapeCasts_S16384x1_S16384))) := by
  unfold opsField24
  after_results_simp
  rfl

/-- What the chunk of table 25 leaves at its gather's result. -/
theorem field25_result (W : Valuation τ sig (Elt Ideal)) :
    after (opsField25 (F := Ideal)) W (no_index (Proc.devRef .tc main_v288))
      = Host.gather gather_S100000x16_S16384x1_S16384x16_1_0_n_n_0_1_116
          (shapeCast S100000x16 (extractStridedSlice S1x100000x16 ![25, 0, 0] (W (Proc.devRef .tc main_v2)) slices_S26x100000x16_S1x100000x16_25_0_0) shapeCasts_S1x100000x16_S100000x16)
          (broadcastInDim S16384x1 ![0] bcast_S16384_S16384x1_0
            (wrapped (shapeCast S16384 (extractStridedSlice S16384x1 ![0, 25] (W (Proc.devRef .tc main_arg1)) slices_S16384x39_S16384x1_0_25) shapeCasts_S16384x1_S16384))) := by
  unfold opsField25
  after_results_simp
  rfl

end Cert.Proof.RefValue
-- ==== Proof.RefTailVal.lean ====
import proofs.«205318_g12532714570102_cont_fleet_669_37_alg».proof.Proof.RefOps
import proofs.«205318_g12532714570102_cont_fleet_669_37_alg».proof.Proof.RefValue
import Idealize.ShloMosaic.Lib.StableHlo.Run

noncomputable section

namespace Cert.Proof.RefValue

open Cert.ReferenceIdeal Cert.ReferenceIdeal.Gen Idealize.ShloMosaic Idealize.ShloMosaic.TcCoe Idealize.SL.Sem Idealize.ShloMosaic.StableHlo
open Cert.Proof.RefRun

/-! # The reference's operations, chunk by chunk: the tail

The continuous block, the concatenations and the dense layers, as one function of the argument arrays and the
twenty-six gathered pieces. -/

/-- The reference after its gathers, as a function of the argument arrays and the twenty-six gathered pieces. -/
def tailOf (a0 : (⟨S16384x128, .f32⟩ : BufTy).Contents (Elt Ideal)) (a1 : (⟨S16384x39, .i32⟩ : BufTy).Contents (Elt Ideal)) (p0 p1 p2 p3 p4 p5 p6 p7 p8 p9 p10 p11 p12 p13 p14 p15 p16 p17 p18 p19 p20 p21 p22 p23 p24 p25 : (⟨S16384x16, .f32⟩ : BufTy).Contents (Elt Ideal))
    (a3 : (⟨S429x256, .f32⟩ : BufTy).Contents (Elt Ideal)) (a4 : (⟨S256, .f32⟩ : BufTy).Contents (Elt Ideal)) (a5 : (⟨S256x128, .f32⟩ : BufTy).Contents (Elt Ideal)) (a6 : (⟨S128, .f32⟩ : BufTy).Contents (Elt Ideal)) (a7 : (⟨S256x2, .f32⟩ : BufTy).Contents (Elt Ideal)) (a8 : (⟨S2, .f32⟩ : BufTy).Contents (Elt Ideal)) : (⟨S16384x2, .f32⟩ : BufTy).Contents (Elt Ideal) :=
  addf (Host.dotGeneral (F := Ideal) (φ₁ := .f32) (φ₂ := .f32) dot_S16384x256_S256x2_S16384x2_1_0_0_1_n_n none
    (concatenate S16384x256 1 [⟨S16384x128,
      maximumf
        (addf (Host.dotGeneral (F := Ideal) (φ₁ := .f32) (φ₂ := .f32) dot_S16384x256_S256x128_S16384x128_1_0_0_1_n_n none
          (maximumf
            (addf (Host.dotGeneral (F := Ideal) (φ₁ := .f32) (φ₂ := .f32) dot_S16384x429_S429x256_S16384x256_1_0_0_1_n_n none
              (concatenate S16384x429 1 [⟨S16384x256,
                  concatenate S16384x256 1 [⟨S16384x16, p0⟩, ⟨S16384x16, p1⟩, ⟨S16384x16, p2⟩, ⟨S16384x16, p3⟩, ⟨S16384x16, p4⟩, ⟨S16384x16, p5⟩, ⟨S16384x16, p6⟩, ⟨S16384x16, p7⟩, ⟨S16384x16, p8⟩, ⟨S16384x16, p9⟩, ⟨S16384x16, p10⟩, ⟨S16384x16, p11⟩, ⟨S16384x16, p12⟩, ⟨S16384x16, p13⟩, ⟨S16384x16, p14⟩, ⟨S16384x16, p15⟩]
                    concatenates_S16384x16_S16384x16_S16384x16_S16384x16_S16384x16_S16384x16_S16384x16_S16384x16_S16384x16_S16384x16_S16384x16_S16384x16_S16384x16_S16384x16_S16384x16_S16384x16_S16384x256_d1⟩,
                ⟨S16384x173,
                  concatenate S16384x173 1 [⟨S16384x16, p16⟩, ⟨S16384x16, p17⟩, ⟨S16384x16, p18⟩, ⟨S16384x16, p19⟩, ⟨S16384x16, p20⟩, ⟨S16384x16, p21⟩, ⟨S16384x16, p22⟩, ⟨S16384x16, p23⟩, ⟨S16384x16, p24⟩, ⟨S16384x16, p25⟩,
                      ⟨S16384x13, sitofp (F := Ideal) .f32 (extractStridedSlice S16384x13 ![0, 26] a1 slices_S16384x39_S16384x13_0_26)⟩]
                    concatenates_S16384x16_S16384x16_S16384x16_S16384x16_S16384x16_S16384x16_S16384x16_S16384x16_S16384x16_S16384x16_S16384x13_S16384x173_d1⟩] concatenates_S16384x256_S16384x173_S16384x429_d1) a3)
              (broadcastInDim S16384x256 ![0, 1] bcast_S1x256_S16384x256_0_1 (broadcastInDim S1x256 ![1] bcast_S256_S1x256_1 a4)))
            (broadcastInDim S16384x256 ![] bcast_S_S16384x256 (constant (F := Ideal) S_ .f32 0x00000000#32))) a5)
          (broadcastInDim S16384x128 ![0, 1] bcast_S1x128_S16384x128_0_1 (broadcastInDim S1x128 ![1] bcast_S128_S1x128_1 a6)))
        (broadcastInDim S16384x128 ![] bcast_S_S16384x128 (constant (F := Ideal) S_ .f32 0x00000000#32))⟩,
      ⟨S16384x128, a0⟩] concatenates_S16384x128_S16384x128_S16384x256_d1) a7)
    (broadcastInDim S16384x2 ![0, 1] bcast_S1x2_S16384x2_0_1 (broadcastInDim S1x2 ![1] bcast_S2_S1x2_1 a8))

/-- The reference's result is that function of its own gathered pieces. -/
theorem refResult_eq_tailOf (a0 : (⟨S16384x128, .f32⟩ : BufTy).Contents (Elt Ideal)) (a1 : (⟨S16384x39, .i32⟩ : BufTy).Contents (Elt Ideal)) (a2 : (⟨S26x100000x16, .f32⟩ : BufTy).Contents (Elt Ideal)) (a3 : (⟨S429x256, .f32⟩ : BufTy).Contents (Elt Ideal)) (a4 : (⟨S256, .f32⟩ : BufTy).Contents (Elt Ideal)) (a5 : (⟨S256x128, .f32⟩ : BufTy).Contents (Elt Ideal)) (a6 : (⟨S128, .f32⟩ : BufTy).Contents (Elt Ideal)) (a7 : (⟨S256x2, .f32⟩ : BufTy).Contents (Elt Ideal)) (a8 : (⟨S2, .f32⟩ : BufTy).Contents (Elt Ideal)) :
    refResult a0 a1 a2 a3 a4 a5 a6 a7 a8 = tailOf a0 a1
      (gathered a1 a2 0 slices_S26x100000x16_S1x100000x16_0_0_0 slices_S16384x39_S16384x1_0_0)
      (gathered a1 a2 1 slices_S26x100000x16_S1x100000x16_1_0_0 slices_S16384x39_S16384x1_0_1)
      (gathered a1 a2 2 slices_S26x100000x16_S1x100000x16_2_0_0 slices_S16384x39_S16384x1_0_2)
      (gathered a1 a2 3 slices_S26x100000x16_S1x100000x16_3_0_0 slices_S16384x39_S16384x1_0_3)
      (gathered a1 a2 4 slices_S26x100000x16_S1x100000x16_4_0_0 slices_S16384x39_S16384x1_0_4)
      (gathered a1 a2 5 slices_S26x100000x16_S1x100000x16_5_0_0 slices_S16384x39_S16384x1_0_5)
      (gathered a1 a2 6 slices_S26x100000x16_S1x100000x16_6_0_0 slices_S16384x39_S16384x1_0_6)
      (gathered a1 a2 7 slices_S26x100000x16_S1x100000x16_7_0_0 slices_S16384x39_S16384x1_0_7)
      (gathered a1 a2 8 slices_S26x100000x16_S1x100000x16_8_0_0 slices_S16384x39_S16384x1_0_8)
      (gathered a1 a2 9 slices_S26x100000x16_S1x100000x16_9_0_0 slices_S16384x39_S16384x1_0_9)
      (gathered a1 a2 10 slices_S26x100000x16_S1x100000x16_10_0_0 slices_S16384x39_S16384x1_0_10)
      (gathered a1 a2 11 slices_S26x100000x16_S1x100000x16_11_0_0 slices_S16384x39_S16384x1_0_11)
      (gathered a1 a2 12 slices_S26x100000x16_S1x100000x16_12_0_0 slices_S16384x39_S16384x1_0_12)
      (gathered a1 a2 13 slices_S26x100000x16_S1x100000x16_13_0_0 slices_S16384x39_S16384x1_0_13)
      (gathered a1 a2 14 slices_S26x100000x16_S1x100000x16_14_0_0 slices_S16384x39_S16384x1_0_14)
      (gathered a1 a2 15 slices_S26x100000x16_S1x100000x16_15_0_0 slices_S16384x39_S16384x1_0_15)
      (gathered a1 a2 16 slices_S26x100000x16_S1x100000x16_16_0_0 slices_S16384x39_S16384x1_0_16)
      (gathered a1 a2 17 slices_S26x100000x16_S1x100000x16_17_0_0 slices_S16384x39_S16384x1_0_17)
      (gathered a1 a2 18 slices_S26x100000x16_S1x100000x16_18_0_0 slices_S16384x39_S16384x1_0_18)
      (gathered a1 a2 19 slices_S26x100000x16_S1x100000x16_19_0_0 slices_S16384x39_S16384x1_0_19)
      (gathered a1 a2 20 slices_S26x100000x16_S1x100000x16_20_0_0 slices_S16384x39_S16384x1_0_20)
      (gathered a1 a2 21 slices_S26x100000x16_S1x100000x16_21_0_0 slices_S16384x39_S16384x1_0_21)
      (gathered a1 a2 22 slices_S26x100000x16_S1x100000x16_22_0_0 slices_S16384x39_S16384x1_0_22)
      (gathered a1 a2 23 slices_S26x100000x16_S1x100000x16_23_0_0 slices_S16384x39_S16384x1_0_23)
      (gathered a1 a2 24 slices_S26x100000x16_S1x100000x16_24_0_0 slices_S16384x39_S16384x1_0_24)
      (gathered a1 a2 25 slices_S26x100000x16_S1x100000x16_25_0_0 slices_S16384x39_S16384x1_0_25)
      a3 a4 a5 a6 a7 a8 := rfl

/-- What the tail leaves at the result buffer. -/
theorem tail_result (W : Valuation τ sig (Elt Ideal)) :
    after (opsTail (F := Ideal)) W (Proc.devRef .tc main_v308)
      = tailOf (W (Proc.devRef .tc main_arg0)) (W (Proc.devRef .tc main_arg1)) (W (Proc.devRef .tc main_v13)) (W (Proc.devRef .tc main_v24)) (W (Proc.devRef .tc main_v35)) (W (Proc.devRef .tc main_v46)) (W (Proc.devRef .tc main_v57)) (W (Proc.devRef .tc main_v68)) (W (Proc.devRef .tc main_v79)) (W (Proc.devRef .tc main_v90)) (W (Proc.devRef .tc main_v101)) (W (Proc.devRef .tc main_v112)) (W (Proc.devRef .tc main_v123)) (W (Proc.devRef .tc main_v134)) (W (Proc.devRef .tc main_v145)) (W (Proc.devRef .tc main_v156)) (W (Proc.devRef .tc main_v167)) (W (Proc.devRef .tc main_v178)) (W (Proc.devRef .tc main_v189)) (W (Proc.devRef .tc main_v200)) (W (Proc.devRef .tc main_v211)) (W (Proc.devRef .tc main_v222)) (W (Proc.devRef .tc main_v233)) (W (Proc.devRef .tc main_v244)) (W (Proc.devRef .tc main_v255)) (W (Proc.devRef .tc main_v266)) (W (Proc.devRef .tc main_v277)) (W (Proc.devRef .tc main_v288))
          (W (Proc.devRef .tc main_arg3)) (W (Proc.devRef .tc main_arg4)) (W (Proc.devRef .tc main_arg5)) (W (Proc.devRef .tc main_arg6)) (W (Proc.devRef .tc main_arg7)) (W (Proc.devRef .tc main_arg8)) := by
  unfold opsTail
  after_results_simp
  rfl

end Cert.Proof.RefValue
-- ==== Proof.RefBridge.lean ====
import proofs.«205318_g12532714570102_cont_fleet_669_37_alg».proof.Proof.RefKeep
import proofs.«205318_g12532714570102_cont_fleet_669_37_alg».proof.Proof.RefRunLib
import proofs.«205318_g12532714570102_cont_fleet_669_37_alg».proof.Proof.RefChunkValA
import proofs.«205318_g12532714570102_cont_fleet_669_37_alg».proof.Proof.RefChunkValB
import proofs.«205318_g12532714570102_cont_fleet_669_37_alg».proof.Proof.RefTailVal
import Idealize.ShloMosaic.Lib.StableHlo.Run

noncomputable section

namespace Cert.Proof.RefValue

open Cert.ReferenceIdeal Cert.ReferenceIdeal.Gen Idealize.ShloMosaic Idealize.ShloMosaic.TcCoe Idealize.SL.Sem Idealize.ShloMosaic.StableHlo
open Cert.Proof.RefRun

/-! # The reference's whole line of operations leaves the reference's result

The operation list is the prelude, the twenty-six table chunks and the tail, one after the other. Reading the result
buffer after the last chunk, then peeling the chunks off from the last to the first — each either leaves a buffer
alone or writes its gathered piece — gives the reference's composed term of the argument arrays. -/

/-- The result buffer after all 367 operations, from any starting contents `V`. -/
theorem after_opsAll (V : Valuation τ sig (Elt Ideal)) :
    after (opsAll (F := Ideal)) V (Proc.devRef .tc main_v308)
      = refResult (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8)) := by
  unfold opsAll
  simp only [after_app]
  rw [tail_result]
  simp (disch := decide) only [field25_result, opsField25_keep]
  simp (disch := decide) only [field24_result, opsField24_keep]
  simp (disch := decide) only [field23_result, opsField23_keep]
  simp (disch := decide) only [field22_result, opsField22_keep]
  simp (disch := decide) only [field21_result, opsField21_keep]
  simp (disch := decide) only [field20_result, opsField20_keep]
  simp (disch := decide) only [field19_result, opsField19_keep]
  simp (disch := decide) only [field18_result, opsField18_keep]
  simp (disch := decide) only [field17_result, opsField17_keep]
  simp (disch := decide) only [field16_result, opsField16_keep]
  simp (disch := decide) only [field15_result, opsField15_keep]
  simp (disch := decide) only [field14_result, opsField14_keep]
  simp (disch := decide) only [field13_result, opsField13_keep]
  simp (disch := decide) only [field12_result, opsField12_keep]
  simp (disch := decide) only [field11_result, opsField11_keep]
  simp (disch := decide) only [field10_result, opsField10_keep]
  simp (disch := decide) only [field9_result, opsField9_keep]
  simp (disch := decide) only [field8_result, opsField8_keep]
  simp (disch := decide) only [field7_result, opsField7_keep]
  simp (disch := decide) only [field6_result, opsField6_keep]
  simp (disch := decide) only [field5_result, opsField5_keep]
  simp (disch := decide) only [field4_result, opsField4_keep]
  simp (disch := decide) only [field3_result, opsField3_keep]
  simp (disch := decide) only [field2_result, opsField2_keep]
  simp (disch := decide) only [field1_result, opsField1_keep]
  simp (disch := decide) only [field0_result, opsField0_keep]
  simp (disch := decide) only [pre_result, opsPre_keep]
  exact (refResult_eq_tailOf _ _ _ _ _ _ _ _ _).symm

end Cert.Proof.RefValue
-- ==== Proof.RefRunValue.lean ====
import proofs.«205318_g12532714570102_cont_fleet_669_37_alg».proof.Proof.RefRun
import proofs.«205318_g12532714570102_cont_fleet_669_37_alg».proof.Proof.RefBridge

/-!
# The reference program's run, with its result named

Every weakly fair execution of the reference's @main, at the extended reals, terminates with its
result buffer holding the reference's composed term of the launch arrays, and the arguments as
they were.
-/

noncomputable section

namespace Cert.Proof.RefRun

open Cert.ReferenceIdeal Cert.ReferenceIdeal.Gen Idealize.ShloMosaic Idealize.ShloMosaic.TcCoe Idealize.SL.Sem Idealize.ShloMosaic.StableHlo

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v308)
          = RefValue.refResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono
    (fun _ h c => ⟨(h c).1.trans ((RefValue.after_opsAll (launchContents m c)).trans rfl), (h c).2⟩)
    (run_frame (F := Ideal) m ρ)

end Cert.Proof.RefRun

end
-- ==== Proof.lean ====
/-
  The certificate of a wide-and-deep model's kernel against its reference. The kernel gathers, on the SparseCore,
  the embedding rows tables[f, X_d[b, f], :] transposed (row 16 f + d of a 416 x 16384 array, by 32 vector subcores,
  13 rows each), and computes the two hidden layers and the output on the TensorCore, everything transposed, in four
  blocks of 4096 batch columns; where the reference zeroes row 0 of every table before the lookup, the kernel
  subtracts W1's product with row 0 exactly at the batch entries whose index is 0. At the ideal instance both are the
  same function of finite inputs: the sums over the 429 deep inputs split into the 416 embedding columns and the 13
  continuous ones, the subtraction cancels the row-0 term, and transposition commutes with everything.
  The frames: the kernel's program runs by the SparseCore launch theorem (each vector subcore's three nested loops at
  a symbolic grid point, the TensorCore pipeline entered after the SparseCore call), once at each float instance; the
  reference's as a straight line of host operations taken window by window. The idealization rewrote nothing, so
  there is no conjunct to preserve.
-/
import proofs.«205318_g12532714570102_cont_fleet_669_37_alg».proof.Defs
import proofs.«205318_g12532714570102_cont_fleet_669_37_alg».proof.Proof.Gen.Kernel
import proofs.«205318_g12532714570102_cont_fleet_669_37_alg».proof.Proof.Gen.KernelIdeal
import proofs.«205318_g12532714570102_cont_fleet_669_37_alg».proof.Proof.Gen.ReferenceIdeal
import proofs.«205318_g12532714570102_cont_fleet_669_37_alg».proof.Proof.Gen.Pre_input_domain
import proofs.«205318_g12532714570102_cont_fleet_669_37_alg».proof.Proof.KI.Frame
import proofs.«205318_g12532714570102_cont_fleet_669_37_alg».proof.Proof.KB.Frame
import proofs.«205318_g12532714570102_cont_fleet_669_37_alg».proof.Proof.RefRun
import proofs.«205318_g12532714570102_cont_fleet_669_37_alg».proof.Proof.Join
import proofs.«205318_g12532714570102_cont_fleet_669_37_alg».proof.Proof.RefRunValue
import Idealize.ShloMosaic.Adequacy
import Idealize.ShloMosaic.Init

noncomputable section

namespace Cert.Proof

open Idealize.ShloMosaic Idealize.ShloMosaic.TcCoe Idealize.SL.Sem Idealize.ShloMosaic.StableHlo

/-- The kernel's frame at the word-level instance: its run with the result's value dropped. -/
theorem frame_k : Cert.frame_Kernel (hKernel := Cert.Kernel.Gen.facts) (hPre_input_domain := Cert.Pre_input_domain.Gen.facts) :=
  fun m ρ hpre => (θ_run Cert.Kernel.defs _ _).mono (fun _ h c => (h c).2) (Cert.Proof.KB.run_args (F := Bits) m ρ hpre)

/-- The idealized kernel's frame: the same run at the ideal instance. -/
theorem frame_ki : Cert.frame_KernelIdeal (hKernelIdeal := Cert.KernelIdeal.Gen.facts) (hPre_input_domain := Cert.Pre_input_domain.Gen.facts) :=
  fun m ρ hpre => (θ_run Cert.KernelIdeal.defs _ _).mono (fun _ h c => (h c).2) (Cert.Proof.KI.run_args (F := Ideal) m ρ hpre)

/-- The reference's frame: its run, a straight line of host operations none of which writes an argument. -/
theorem frame_ri : Cert.frame_ReferenceIdeal (hReferenceIdeal := Cert.ReferenceIdeal.Gen.facts) (hPre_input_domain := Cert.Pre_input_domain.Gen.facts) :=
  fun m ρ _ => (θ_run Cert.ReferenceIdeal.defs _ _).mono (fun _ h c => (h c).2) (Cert.Proof.RefRun.run_frame (F := Ideal) m ρ)

/-- The idealization rewrote no operation. -/
theorem preserves : Cert.preserves_Kernel_KernelIdeal := trivial

/-- At the ideal instance, from memories agreeing on the arguments, both programs end with the result at the kernel's
    composed valuation: the kernel by its run, the reference because its composed term is the same function of finite
    arguments. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m ρ m' ρ' hpre hagree
  refine ⟨fun c => Cert.Proof.KI.WC m (Cert.Proof.KI.o30 (F := Ideal)) c (Proc.devRef .tc Cert.KernelIdeal.main_v31),
    Cert.Proof.KI.run_args (F := Ideal) m ρ hpre, ?_⟩
  refine (θ_run Cert.ReferenceIdeal.defs _ _).mono (fun r h c => ⟨(h c).1.trans ?_, (h c).2⟩) (Cert.Proof.RefRun.ref_run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  exact (Cert.Proof.Join.value_join m hpre c).symm

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
